-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x64 : Shape := ⟨2, ![100000, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S4096x200 : S_.BroadcastsInDim S4096x200 (![] : Fin 0 → Fin S4096x200.rank)
  reducesTo_S4096x200_S_d0_1 : S4096x200.ReducesTo [0, 1] S_

variable [Facts]

def fn_part1 {F : FTy → Type} [FloatOps F] (main_arg0 : IVec S4096x200 32) (main_v13 : IVec S_ 1) (main_v15 : IVec S4096x200 1) (main_c_5 : IVec S_ 32) : IVec S_ 1 :=
  let main_v16 : IVec S4096x200 32 := broadcastInDim S4096x200 ![] bcast_S_S4096x200 main_c_5
  let main_v17 : IVec S4096x200 1 := cmpi .sle main_arg0 main_v16
  let main_v18 : IVec S4096x200 1 := andi main_v15 main_v17
  let main_c_6 : IVec S_ 1 := constantI S_ 1 1#1
  let main_v19 : IVec S_ 1 := (fun x v => Host.reduce IntOp.andi x v reducesTo_S4096x200_S_d0_1 h_S_) main_v18 main_c_6
  let main_v20 : IVec S_ 1 := andi main_v13 main_v19
  main_v20

def fn {F : FTy → Type} [FloatOps F] (main_arg0 : IVec S4096x200 32) (main_arg1 : FVec F S100000x64 .f32) (main_arg2 : FVec F S64x1 .f32) (main_arg3 : FVec F S1 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x1 .f32 := Host.absf main_arg2
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S4096x200 32 := broadcastInDim S4096x200 ![] bcast_S_S4096x200 main_c_4
  let main_v15 : IVec S4096x200 1 := cmpi .sge main_arg0 main_v14
  let main_c_5 : IVec S_ 32 := constantI S_ 32 99999#32
  fn_part1 (F := F) main_arg0 main_v13 main_v15 main_c_5
-- ==== Kernel.lean ====
abbrev S4096x200 : Shape := ⟨2, ![4096, 200]⟩
abbrev S100000x64 : Shape := ⟨2, ![100000, 64]⟩
abbrev S64x1 : Shape := ⟨2, ![64, 1]⟩
abbrev S1 : Shape := ⟨1, ![1]⟩
abbrev S1x64 : Shape := ⟨2, ![1, 64]⟩
abbrev S100000x1 : Shape := ⟨2, ![100000, 1]⟩
abbrev S5000x64 : Shape := ⟨2, ![5000, 64]⟩
abbrev S5000x1 : Shape := ⟨2, ![5000, 1]⟩
abbrev S5000 : Shape := ⟨1, ![5000]⟩
abbrev S100000 : Shape := ⟨1, ![100000]⟩
abbrev S819200 : Shape := ⟨1, ![819200]⟩
abbrev S65536 : Shape := ⟨1, ![65536]⟩
abbrev S6416 : Shape := ⟨1, ![6416]⟩
abbrev S2048 : Shape := ⟨1, ![2048]⟩
abbrev S_ : Shape := ⟨0, ![]⟩
abbrev S16 : Shape := ⟨1, ![16]⟩
abbrev S6400 : Shape := ⟨1, ![6400]⟩
abbrev S4096x16 : Shape := ⟨2, ![4096, 16]⟩
abbrev S1x1 : Shape := ⟨2, ![1, 1]⟩
abbrev S256x200 : Shape := ⟨2, ![256, 200]⟩
abbrev S4096x1 : Shape := ⟨2, ![4096, 1]⟩
abbrev S4096 : Shape := ⟨1, ![4096]⟩
abbrev S1x4096x1 : Shape := ⟨3, ![1, 4096, 1]⟩
abbrev S1x1x1 : Shape := ⟨3, ![1, 1, 1]⟩
abbrev S256x1 : Shape := ⟨2, ![256, 1]⟩

abbrev nBuf : Table → Nat
  | .hbm => 14
  | .local .tc .vmem => 13
  | .local .tc .smem => 1
  | .local .scVector .vmem => 4
  | _ => 0

abbrev bufTy : (tb : Table) → Fin (nBuf tb) → BufTy
  | .hbm, ⟨0, _⟩ => ⟨S4096x200, .i32⟩
  | .hbm, ⟨1, _⟩ => ⟨S100000x64, .f32⟩
  | .hbm, ⟨2, _⟩ => ⟨S64x1, .f32⟩
  | .hbm, ⟨3, _⟩ => ⟨S1, .f32⟩
  | .hbm, ⟨4, _⟩ => ⟨S1x64, .f32⟩
  | .hbm, ⟨5, _⟩ => ⟨S100000x1, .f32⟩
  | .hbm, ⟨6, _⟩ => ⟨S100000, .f32⟩
  | .hbm, ⟨7, _⟩ => ⟨S819200, .i32⟩
  | .hbm, ⟨8, _⟩ => ⟨S65536, .f32⟩
  | .hbm, ⟨9, _⟩ => ⟨S65536, .f32⟩
  | .hbm, ⟨10, _⟩ => ⟨S4096x16, .f32⟩
  | .hbm, ⟨11, _⟩ => ⟨S4096x16, .f32⟩
  | .hbm, ⟨12, _⟩ => ⟨S1x1, .f32⟩
  | .hbm, ⟨13, _⟩ => ⟨S4096x200, .f32⟩
  | .local .tc .vmem, ⟨0, _⟩ => ⟨S5000x64, .f32⟩
  | .local .tc .vmem, ⟨1, _⟩ => ⟨S5000x64, .f32⟩
  | .local .tc .vmem, ⟨2, _⟩ => ⟨S1x64, .f32⟩
  | .local .tc .vmem, ⟨3, _⟩ => ⟨S5000x1, .f32⟩
  | .local .tc .vmem, ⟨4, _⟩ => ⟨S5000x1, .f32⟩
  | .local .tc .vmem, ⟨5, _⟩ => ⟨S4096x16, .f32⟩
  | .local .tc .vmem, ⟨6, _⟩ => ⟨S4096x16, .f32⟩
  | .local .tc .vmem, ⟨7, _⟩ => ⟨S1x1, .f32⟩
  | .local .tc .vmem, ⟨8, _⟩ => ⟨S256x200, .i32⟩
  | .local .tc .vmem, ⟨9, _⟩ => ⟨S256x200, .i32⟩
  | .local .tc .vmem, ⟨10, _⟩ => ⟨S256x200, .f32⟩
  | .local .tc .vmem, ⟨11, _⟩ => ⟨S256x200, .f32⟩
  | .local .tc .vmem, ⟨12, _⟩ => ⟨S4096x1, .f32⟩
  | .local .tc .smem, ⟨0, _⟩ => ⟨S1, .f32⟩
  | .local .scVector .vmem, ⟨0, _⟩ => ⟨S100000, .f32⟩
  | .local .scVector .vmem, ⟨1, _⟩ => ⟨S6416, .i32⟩
  | .local .scVector .vmem, ⟨2, _⟩ => ⟨S2048, .f32⟩
  | .local .scVector .vmem, ⟨3, _⟩ => ⟨S2048, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v2_scv : Ref sig .scVector := ⟨.hbm, 6, rfl⟩
abbrev main_v3_scv : Ref sig .scVector := ⟨.hbm, 7, rfl⟩
abbrev main_v4_0_scv : Ref sig .scVector := ⟨.hbm, 8, rfl⟩
abbrev main_v4_1_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg3_1 : Ref sig .tc := ⟨.vmem, 9, rfl⟩
abbrev cc2_stg4_0 : Ref sig .tc := ⟨.vmem, 10, rfl⟩
abbrev cc2_stg4_1 : Ref sig .tc := ⟨.vmem, 11, rfl⟩
abbrev cc2_scratch0 : Ref sig .tc := ⟨.vmem, 12, rfl⟩
abbrev cc2_scratch1 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v5 : BitVec 32 := Scalar.muli v1 c25600_i32
  let v6 : BitVec 32 := Scalar.addi v5 c0_i32
  ![v6.toNat]
@[reducible] def k1_t1_loop : Scf.Loop 32 :=
  let c0_i32_1 : BitVec 32 := 0#32
  let c32_i32 : BitVec 32 := 32#32
  let v7 : BitVec 32 := Scalar.addi c0_i32_1 c32_i32
  let c1_i32 : BitVec 32 := 1#32
  ⟨c0_i32_1, v7, c1_i32⟩
def k1_off2 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c200_i32 : BitVec 32 := 200#32
  let v18 : BitVec 32 := Scalar.muli arg10 c200_i32
  let c0_i32_22 : BitVec 32 := 0#32
  let v21 : BitVec 32 := Scalar.addi v18 c0_i32_22
  let v22 : Index := Scalar.indexCast v21
  ![v22.toNat]

def k1_chk1 (v27 : IVec S16 32) : Prop :=
  (∀ a x, ((![v27] : Fin 1 → IVec S16 32) a x).toNat < S100000.size a)
instance k1_chk1.dec : ∀ (v27 : IVec S16 32), Decidable (k1_chk1 v27) := fun v27 => decidable_of_iff' _ (Iff.of_eq (k1_chk1.eq_1 v27))
theorem k1_idx1_inb : ∀ (v27 : IVec S16 32) (k1_hw1 : k1_chk1 v27), ∀ a x, ((![v27] : Fin 1 → IVec S16 32) a x).toNat < S100000.size a := fun v27 k1_hw1 => k1_hw1
def k1_off3 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c200_i32 : BitVec 32 := 200#32
  let v18 : BitVec 32 := Scalar.muli arg10 c200_i32
  let c16_i32 : BitVec 32 := 16#32
  let v36 : BitVec 32 := Scalar.addi v18 c16_i32
  let v37 : Index := Scalar.indexCast v36
  ![v37.toNat]

def k1_chk2 (v42 : IVec S16 32) : Prop :=
  (∀ a x, ((![v42] : Fin 1 → IVec S16 32) a x).toNat < S100000.size a)
instance k1_chk2.dec : ∀ (v42 : IVec S16 32), Decidable (k1_chk2 v42) := fun v42 => decidable_of_iff' _ (Iff.of_eq (k1_chk2.eq_1 v42))
theorem k1_idx2_inb : ∀ (v42 : IVec S16 32) (k1_hw2 : k1_chk2 v42), ∀ a x, ((![v42] : Fin 1 → IVec S16 32) a x).toNat < S100000.size a := fun v42 k1_hw2 => k1_hw2
def k1_off4 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c200_i32 : BitVec 32 := 200#32
  let v18 : BitVec 32 := Scalar.muli arg10 c200_i32
  let c32_i32_33 : BitVec 32 := 32#32
  let v51 : BitVec 32 := Scalar.addi v18 c32_i32_33
  let v52 : Index := Scalar.indexCast v51
  ![v52.toNat]

def k1_chk3 (v57 : IVec S16 32) : Prop :=
  (∀ a x, ((![v57] : Fin 1 → IVec S16 32) a x).toNat < S100000.size a)
instance k1_chk3.dec : ∀ (v57 : IVec S16 32), Decidable (k1_chk3 v57) := fun v57 => decidable_of_iff' _ (Iff.of_eq (k1_chk3.eq_1 v57))
theorem k1_idx3_inb : ∀ (v57 : IVec S16 32) (k1_hw3 : k1_chk3 v57), ∀ a x, ((![v57] : Fin 1 → IVec S16 32) a x).toNat < S100000.size a := fun v57 k1_hw3 => k1_hw3
def k1_off5 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c200_i32 : BitVec 32 := 200#32
  let v18 : BitVec 32 := Scalar.muli arg10 c200_i32
  let c48_i32 : BitVec 32 := 48#32
  let v66 : BitVec 32 := Scalar.addi v18 c48_i32
  let v67 : Index := Scalar.indexCast v66
  ![v67.toNat]

def k1_chk4 (v72 : IVec S16 32) : Prop :=
  (∀ a x, ((![v72] : Fin 1 → IVec S16 32) a x).toNat < S100000.size a)
instance k1_chk4.dec : ∀ (v72 : IVec S16 32), Decidable (k1_chk4 v72) := fun v72 => decidable_of_iff' _ (Iff.of_eq (k1_chk4.eq_1 v72))
theorem k1_idx4_inb : ∀ (v72 : IVec S16 32) (k1_hw4 : k1_chk4 v72), ∀ a x, ((![v72] : Fin 1 → IVec S16 32) a x).toNat < S100000.size a := fun v72 k1_hw4 => k1_hw4
def k1_off6 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c200_i32 : BitVec 32 := 200#32
  let v18 : BitVec 32 := Scalar.muli arg10 c200_i32
  let c64_i32 : BitVec 32 := 64#32
  let v81 : BitVec 32 := Scalar.addi v18 c64_i32
  let v82 : Index := Scalar.indexCast v81
  ![v82.toNat]

def k1_chk5 (v87 : IVec S16 32) : Prop :=
  (∀ a x, ((![v87] : Fin 1 → IVec S16 32) a x).toNat < S100000.size a)
instance k1_chk5.dec : ∀ (v87 : IVec S16 32), Decidable (k1_chk5 v87) := fun v87 => decidable_of_iff' _ (Iff.of_eq (k1_chk5.eq_1 v87))
theorem k1_idx5_inb : ∀ (v87 : IVec S16 32) (k1_hw5 : k1_chk5 v87), ∀ a x, ((![v87] : Fin 1 → IVec S16 32) a x).toNat < S100000.size a := fun v87 k1_hw5 => k1_hw5
def k1_off7 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c200_i32 : BitVec 32 := 200#32
  let v18 : BitVec 32 := Scalar.muli arg10 c200_i32
  let c80_i32 : BitVec 32 := 80#32
  let v96 : BitVec 32 := Scalar.addi v18 c80_i32
  let v97 : Index := Scalar.indexCast v96
  ![v97.toNat]

def k1_chk6 (v102 : IVec S16 32) : Prop :=
  (∀ a x, ((![v102] : Fin 1 → IVec S16 32) a x).toNat < S100000.size a)
instance k1_chk6.dec : ∀ (v102 : IVec S16 32), Decidable (k1_chk6 v102) := fun v102 => decidable_of_iff' _ (Iff.of_eq (k1_chk6.eq_1 v102))
theorem k1_idx6_inb : ∀ (v102 : IVec S16 32) (k1_hw6 : k1_chk6 v102), ∀ a x, ((![v102] : Fin 1 → IVec S16 32) a x).toNat < S100000.size a := fun v102 k1_hw6 => k1_hw6
def k1_off8 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c200_i32 : BitVec 32 := 200#32
  let v18 : BitVec 32 := Scalar.muli arg10 c200_i32
  let c96_i32 : BitVec 32 := 96#32
  let v111 : BitVec 32 := Scalar.addi v18 c96_i32
  let v112 : Index := Scalar.indexCast v111
  ![v112.toNat]

def k1_chk7 (v117 : IVec S16 32) : Prop :=
  (∀ a x, ((![v117] : Fin 1 → IVec S16 32) a x).toNat < S100000.size a)
instance k1_chk7.dec : ∀ (v117 : IVec S16 32), Decidable (k1_chk7 v117) := fun v117 => decidable_of_iff' _ (Iff.of_eq (k1_chk7.eq_1 v117))
theorem k1_idx7_inb : ∀ (v117 : IVec S16 32) (k1_hw7 : k1_chk7 v117), ∀ a x, ((![v117] : Fin 1 → IVec S16 32) a x).toNat < S100000.size a := fun v117 k1_hw7 => k1_hw7
def k1_off9 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c200_i32 : BitVec 32 := 200#32
  let v18 : BitVec 32 := Scalar.muli arg10 c200_i32
  let c112_i32 : BitVec 32 := 112#32
  let v126 : BitVec 32 := Scalar.addi v18 c112_i32
  let v127 : Index := Scalar.indexCast v126
  ![v127.toNat]

def k1_chk8 (v132 : IVec S16 32) : Prop :=
  (∀ a x, ((![v132] : Fin 1 → IVec S16 32) a x).toNat < S100000.size a)
instance k1_chk8.dec : ∀ (v132 : IVec S16 32), Decidable (k1_chk8 v132) := fun v132 => decidable_of_iff' _ (Iff.of_eq (k1_chk8.eq_1 v132))
theorem k1_idx8_inb : ∀ (v132 : IVec S16 32) (k1_hw8 : k1_chk8 v132), ∀ a x, ((![v132] : Fin 1 → IVec S16 32) a x).toNat < S100000.size a := fun v132 k1_hw8 => k1_hw8
def k1_off10 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c200_i32 : BitVec 32 := 200#32
  let v18 : BitVec 32 := Scalar.muli arg10 c200_i32
  let c128_i32 : BitVec 32 := 128#32
  let v141 : BitVec 32 := Scalar.addi v18 c128_i32
  let v142 : Index := Scalar.indexCast v141
  ![v142.toNat]

def k1_chk9 (v147 : IVec S16 32) : Prop :=
  (∀ a x, ((![v147] : Fin 1 → IVec S16 32) a x).toNat < S100000.size a)
instance k1_chk9.dec : ∀ (v147 : IVec S16 32), Decidable (k1_chk9 v147) := fun v147 => decidable_of_iff' _ (Iff.of_eq (k1_chk9.eq_1 v147))
theorem k1_idx9_inb : ∀ (v147 : IVec S16 32) (k1_hw9 : k1_chk9 v147), ∀ a x, ((![v147] : Fin 1 → IVec S16 32) a x).toNat < S100000.size a := fun v147 k1_hw9 => k1_hw9
def k1_off11 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c200_i32 : BitVec 32 := 200#32
  let v18 : BitVec 32 := Scalar.muli arg10 c200_i32
  let c144_i32 : BitVec 32 := 144#32
  let v156 : BitVec 32 := Scalar.addi v18 c144_i32
  let v157 : Index := Scalar.indexCast v156
  ![v157.toNat]

def k1_chk10 (v162 : IVec S16 32) : Prop :=
  (∀ a x, ((![v162] : Fin 1 → IVec S16 32) a x).toNat < S100000.size a)
instance k1_chk10.dec : ∀ (v162 : IVec S16 32), Decidable (k1_chk10 v162) := fun v162 => decidable_of_iff' _ (Iff.of_eq (k1_chk10.eq_1 v162))
theorem k1_idx10_inb : ∀ (v162 : IVec S16 32) (k1_hw10 : k1_chk10 v162), ∀ a x, ((![v162] : Fin 1 → IVec S16 32) a x).toNat < S100000.size a := fun v162 k1_hw10 => k1_hw10
def k1_off12 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c200_i32 : BitVec 32 := 200#32
  let v18 : BitVec 32 := Scalar.muli arg10 c200_i32
  let c160_i32 : BitVec 32 := 160#32
  let v171 : BitVec 32 := Scalar.addi v18 c160_i32
  let v172 : Index := Scalar.indexCast v171
  ![v172.toNat]

def k1_chk11 (v177 : IVec S16 32) : Prop :=
  (∀ a x, ((![v177] : Fin 1 → IVec S16 32) a x).toNat < S100000.size a)
instance k1_chk11.dec : ∀ (v177 : IVec S16 32), Decidable (k1_chk11 v177) := fun v177 => decidable_of_iff' _ (Iff.of_eq (k1_chk11.eq_1 v177))
theorem k1_idx11_inb : ∀ (v177 : IVec S16 32) (k1_hw11 : k1_chk11 v177), ∀ a x, ((![v177] : Fin 1 → IVec S16 32) a x).toNat < S100000.size a := fun v177 k1_hw11 => k1_hw11
def k1_off13 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c200_i32 : BitVec 32 := 200#32
  let v18 : BitVec 32 := Scalar.muli arg10 c200_i32
  let c176_i32 : BitVec 32 := 176#32
  let v186 : BitVec 32 := Scalar.addi v18 c176_i32
  let v187 : Index := Scalar.indexCast v186
  ![v187.toNat]

def k1_chk12 (v192 : IVec S16 32) : Prop :=
  (∀ a x, ((![v192] : Fin 1 → IVec S16 32) a x).toNat < S100000.size a)
instance k1_chk12.dec : ∀ (v192 : IVec S16 32), Decidable (k1_chk12 v192) := fun v192 => decidable_of_iff' _ (Iff.of_eq (k1_chk12.eq_1 v192))
theorem k1_idx12_inb : ∀ (v192 : IVec S16 32) (k1_hw12 : k1_chk12 v192), ∀ a x, ((![v192] : Fin 1 → IVec S16 32) a x).toNat < S100000.size a := fun v192 k1_hw12 => k1_hw12
def k1_off14 (k1_t1 : Fin k1_t1_loop.trips) : Fin 1 → Nat :=
  let c0_i32_1 : BitVec 32 := 0#32
  let c1_i32 : BitVec 32 := 1#32
  let arg10 : BitVec 32 := Scf.iv c0_i32_1 c1_i32 k1_t1
  let c200_i32 : BitVec 32 := 200#32
  let v18 : BitVec 32 := Scalar.muli arg10 c200_i32
  let c192_i32 : BitVec 32 := 192#32
  let v201 : BitVec 32 := Scalar.addi v18 c192_i32
  let v202 : Index := Scalar.indexCast v201
  ![v202.toNat]

def k1_chk13 (v208 : IVec S16 32) : Prop :=
  (∀ a x, ((![v208] : Fin 1 → IVec S16 32) a x).toNat < S100000.size a)
instance k1_chk13.dec : ∀ (v208 : IVec S16 32), Decidable (k1_chk13 v208) := fun v208 => decidable_of_iff' _ (Iff.of_eq (k1_chk13.eq_1 v208))
theorem k1_idx13_inb : ∀ (v208 : IVec S16 32) (k1_hw13 : k1_chk13 v208), ∀ a x, ((![v208] : Fin 1 → IVec S16 32) a x).toNat < S100000.size a := fun v208 k1_hw13 => k1_hw13
def k1_off15 (k1_t1 : Fin k1_t1_loop.trips) : Fin 1 → Nat :=
  let c0_i32_89 : BitVec 32 := 0#32
  let c0_i32_1 : BitVec 32 := 0#32
  let c1_i32 : BitVec 32 := 1#32
  let arg10 : BitVec 32 := Scf.iv c0_i32_1 c1_i32 k1_t1
  let v217 : BitVec 32 := Scalar.addi c0_i32_89 arg10
  let c16_i32_90 : BitVec 32 := 16#32
  let v218 : BitVec 32 := Scalar.muli v217 c16_i32_90
  let v219 : Index := Scalar.indexCast v218
  ![v219.toNat]
@[reducible] def k1_t2_loop : Scf.Loop 32 :=
  let c0_i32_5 : BitVec 32 := 0#32
  let c32_i32_6 : BitVec 32 := 32#32
  let v10 : BitVec 32 := Scalar.addi c0_i32_5 c32_i32_6
  let c1_i32_7 : BitVec 32 := 1#32
  ⟨c0_i32_5, v10, c1_i32_7⟩
def k1_off16 (k1_t2 : Fin k1_t2_loop.trips) : Fin 1 → Nat :=
  let c0_i32_5 : BitVec 32 := 0#32
  let c1_i32_7 : BitVec 32 := 1#32
  let arg10 : BitVec 32 := Scf.iv c0_i32_5 c1_i32_7 k1_t2
  let c200_i32 : BitVec 32 := 200#32
  let v18 : BitVec 32 := Scalar.muli arg10 c200_i32
  let c0_i32_22 : BitVec 32 := 0#32
  let v21 : BitVec 32 := Scalar.addi v18 c0_i32_22
  let v22 : Index := Scalar.indexCast v21
  ![v22.toNat]

def k1_chk14 (v27 : IVec S16 32) : Prop :=
  (∀ a x, ((![v27] : Fin 1 → IVec S16 32) a x).toNat < S100000.size a)
instance k1_chk14.dec : ∀ (v27 : IVec S16 32), Decidable (k1_chk14 v27) := fun v27 => decidable_of_iff' _ (Iff.of_eq (k1_chk14.eq_1 v27))
theorem k1_idx14_inb : ∀ (v27 : IVec S16 32) (k1_hw14 : k1_chk14 v27), ∀ a x, ((![v27] : Fin 1 → IVec S16 32) a x).toNat < S100000.size a := fun v27 k1_hw14 => k1_hw14
def k1_off17 (k1_t2 : Fin k1_t2_loop.trips) : Fin 1 → Nat :=
  let c0_i32_5 : BitVec 32 := 0#32
  let c1_i32_7 : BitVec 32 := 1#32
  let arg10 : BitVec 32 := Scf.iv c0_i32_5 c1_i32_7 k1_t2
  let c200_i32 : BitVec 32 := 200#32
  let v18 : BitVec 32 := Scalar.muli arg10 c200_i32
  let c16_i32 : BitVec 32 := 16#32
  let v36 : BitVec 32 := Scalar.addi v18 c16_i32
  let v37 : Index := Scalar.indexCast v36
  ![v37.toNat]

def k1_chk15 (v42 : IVec S16 32) : Prop :=
  (∀ a x, ((![v42] : Fin 1 → IVec S16 32) a x).toNat < S100000.size a)
instance k1_chk15.dec : ∀ (v42 : IVec S16 32), Decidable (k1_chk15 v42) := fun v42 => decidable_of_iff' _ (Iff.of_eq (k1_chk15.eq_1 v42))
theorem k1_idx15_inb : ∀ (v42 : IVec S16 32) (k1_hw15 : k1_chk15 v42), ∀ a x, ((![v42] : Fin 1 → IVec S16 32) a x).toNat < S100000.size a := fun v42 k1_hw15 => k1_hw15
def k1_off18 (k1_t2 : Fin k1_t2_loop.trips) : Fin 1 → Nat :=
  let c0_i32_5 : BitVec 32 := 0#32
  let c1_i32_7 : BitVec 32 := 1#32
  let arg10 : BitVec 32 := Scf.iv c0_i32_5 c1_i32_7 k1_t2
  let c200_i32 : BitVec 32 := 200#32
  let v18 : BitVec 32 := Scalar.muli arg10 c200_i32
  let c32_i32_33 : BitVec 32 := 32#32
  let v51 : BitVec 32 := Scalar.addi v18 c32_i32_33
  let v52 : Index := Scalar.indexCast v51
  ![v52.toNat]

def k1_chk16 (v57 : IVec S16 32) : Prop :=
  (∀ a x, ((![v57] : Fin 1 → IVec S16 32) a x).toNat < S100000.size a)
instance k1_chk16.dec : ∀ (v57 : IVec S16 32), Decidable (k1_chk16 v57) := fun v57 => decidable_of_iff' _ (Iff.of_eq (k1_chk16.eq_1 v57))
theorem k1_idx16_inb : ∀ (v57 : IVec S16 32) (k1_hw16 : k1_chk16 v57), ∀ a x, ((![v57] : Fin 1 → IVec S16 32) a x).toNat < S100000.size a := fun v57 k1_hw16 => k1_hw16
def k1_off19 (k1_t2 : Fin k1_t2_loop.trips) : Fin 1 → Nat :=
  let c0_i32_5 : BitVec 32 := 0#32
  let c1_i32_7 : BitVec 32 := 1#32
  let arg10 : BitVec 32 := Scf.iv c0_i32_5 c1_i32_7 k1_t2
  let c200_i32 : BitVec 32 := 200#32
  let v18 : BitVec 32 := Scalar.muli arg10 c200_i32
  let c48_i32 : BitVec 32 := 48#32
  let v66 : BitVec 32 := Scalar.addi v18 c48_i32
  let v67 : Index := Scalar.indexCast v66
  ![v67.toNat]

def k1_chk17 (v72 : IVec S16 32) : Prop :=
  (∀ a x, ((![v72] : Fin 1 → IVec S16 32) a x).toNat < S100000.size a)
instance k1_chk17.dec : ∀ (v72 : IVec S16 32), Decidable (k1_chk17 v72) := fun v72 => decidable_of_iff' _ (Iff.of_eq (k1_chk17.eq_1 v72))
theorem k1_idx17_inb : ∀ (v72 : IVec S16 32) (k1_hw17 : k1_chk17 v72), ∀ a x, ((![v72] : Fin 1 → IVec S16 32) a x).toNat < S100000.size a := fun v72 k1_hw17 => k1_hw17
def k1_off20 (k1_t2 : Fin k1_t2_loop.trips) : Fin 1 → Nat :=
  let c0_i32_5 : BitVec 32 := 0#32
  let c1_i32_7 : BitVec 32 := 1#32
  let arg10 : BitVec 32 := Scf.iv c0_i32_5 c1_i32_7 k1_t2
  let c200_i32 : BitVec 32 := 200#32
  let v18 : BitVec 32 := Scalar.muli arg10 c200_i32
  let c64_i32 : BitVec 32 := 64#32
  let v81 : BitVec 32 := Scalar.addi v18 c64_i32
  let v82 : Index := Scalar.indexCast v81
  ![v82.toNat]

def k1_chk18 (v87 : IVec S16 32) : Prop :=
  (∀ a x, ((![v87] : Fin 1 → IVec S16 32) a x).toNat < S100000.size a)
instance k1_chk18.dec : ∀ (v87 : IVec S16 32), Decidable (k1_chk18 v87) := fun v87 => decidable_of_iff' _ (Iff.of_eq (k1_chk18.eq_1 v87))
theorem k1_idx18_inb : ∀ (v87 : IVec S16 32) (k1_hw18 : k1_chk18 v87), ∀ a x, ((![v87] : Fin 1 → IVec S16 32) a x).toNat < S100000.size a := fun v87 k1_hw18 => k1_hw18
def k1_off21 (k1_t2 : Fin k1_t2_loop.trips) : Fin 1 → Nat :=
  let c0_i32_5 : BitVec 32 := 0#32
  let c1_i32_7 : BitVec 32 := 1#32
  let arg10 : BitVec 32 := Scf.iv c0_i32_5 c1_i32_7 k1_t2
  let c200_i32 : BitVec 32 := 200#32
  let v18 : BitVec 32 := Scalar.muli arg10 c200_i32
  let c80_i32 : BitVec 32 := 80#32
  let v96 : BitVec 32 := Scalar.addi v18 c80_i32
  let v97 : Index := Scalar.indexCast v96
  ![v97.toNat]

def k1_chk19 (v102 : IVec S16 32) : Prop :=
  (∀ a x, ((![v102] : Fin 1 → IVec S16 32) a x).toNat < S100000.size a)
instance k1_chk19.dec : ∀ (v102 : IVec S16 32), Decidable (k1_chk19 v102) := fun v102 => decidable_of_iff' _ (Iff.of_eq (k1_chk19.eq_1 v102))
theorem k1_idx19_inb : ∀ (v102 : IVec S16 32) (k1_hw19 : k1_chk19 v102), ∀ a x, ((![v102] : Fin 1 → IVec S16 32) a x).toNat < S100000.size a := fun v102 k1_hw19 => k1_hw19
def k1_off22 (k1_t2 : Fin k1_t2_loop.trips) : Fin 1 → Nat :=
  let c0_i32_5 : BitVec 32 := 0#32
  let c1_i32_7 : BitVec 32 := 1#32
  let arg10 : BitVec 32 := Scf.iv c0_i32_5 c1_i32_7 k1_t2
  let c200_i32 : BitVec 32 := 200#32
  let v18 : BitVec 32 := Scalar.muli arg10 c200_i32
  let c96_i32 : BitVec 32 := 96#32
  let v111 : BitVec 32 := Scalar.addi v18 c96_i32
  let v112 : Index := Scalar.indexCast v111
  ![v112.toNat]

def k1_chk20 (v117 : IVec S16 32) : Prop :=
  (∀ a x, ((![v117] : Fin 1 → IVec S16 32) a x).toNat < S100000.size a)
instance k1_chk20.dec : ∀ (v117 : IVec S16 32), Decidable (k1_chk20 v117) := fun v117 => decidable_of_iff' _ (Iff.of_eq (k1_chk20.eq_1 v117))
theorem k1_idx20_inb : ∀ (v117 : IVec S16 32) (k1_hw20 : k1_chk20 v117), ∀ a x, ((![v117] : Fin 1 → IVec S16 32) a x).toNat < S100000.size a := fun v117 k1_hw20 => k1_hw20
def k1_off23 (k1_t2 : Fin k1_t2_loop.trips) : Fin 1 → Nat :=
  let c0_i32_5 : BitVec 32 := 0#32
  let c1_i32_7 : BitVec 32 := 1#32
  let arg10 : BitVec 32 := Scf.iv c0_i32_5 c1_i32_7 k1_t2
  let c200_i32 : BitVec 32 := 200#32
  let v18 : BitVec 32 := Scalar.muli arg10 c200_i32
  let c112_i32 : BitVec 32 := 112#32
  let v126 : BitVec 32 := Scalar.addi v18 c112_i32
  let v127 : Index := Scalar.indexCast v126
  ![v127.toNat]

def k1_chk21 (v132 : IVec S16 32) : Prop :=
  (∀ a x, ((![v132] : Fin 1 → IVec S16 32) a x).toNat < S100000.size a)
instance k1_chk21.dec : ∀ (v132 : IVec S16 32), Decidable (k1_chk21 v132) := fun v132 => decidable_of_iff' _ (Iff.of_eq (k1_chk21.eq_1 v132))
theorem k1_idx21_inb : ∀ (v132 : IVec S16 32) (k1_hw21 : k1_chk21 v132), ∀ a x, ((![v132] : Fin 1 → IVec S16 32) a x).toNat < S100000.size a := fun v132 k1_hw21 => k1_hw21
def k1_off24 (k1_t2 : Fin k1_t2_loop.trips) : Fin 1 → Nat :=
  let c0_i32_5 : BitVec 32 := 0#32
  let c1_i32_7 : BitVec 32 := 1#32
  let arg10 : BitVec 32 := Scf.iv c0_i32_5 c1_i32_7 k1_t2
  let c200_i32 : BitVec 32 := 200#32
  let v18 : BitVec 32 := Scalar.muli arg10 c200_i32
  let c128_i32 : BitVec 32 := 128#32
  let v141 : BitVec 32 := Scalar.addi v18 c128_i32
  let v142 : Index := Scalar.indexCast v141
  ![v142.toNat]

def k1_chk22 (v147 : IVec S16 32) : Prop :=
  (∀ a x, ((![v147] : Fin 1 → IVec S16 32) a x).toNat < S100000.size a)
instance k1_chk22.dec : ∀ (v147 : IVec S16 32), Decidable (k1_chk22 v147) := fun v147 => decidable_of_iff' _ (Iff.of_eq (k1_chk22.eq_1 v147))
theorem k1_idx22_inb : ∀ (v147 : IVec S16 32) (k1_hw22 : k1_chk22 v147), ∀ a x, ((![v147] : Fin 1 → IVec S16 32) a x).toNat < S100000.size a := fun v147 k1_hw22 => k1_hw22
def k1_off25 (k1_t2 : Fin k1_t2_loop.trips) : Fin 1 → Nat :=
  let c0_i32_5 : BitVec 32 := 0#32
  let c1_i32_7 : BitVec 32 := 1#32
  let arg10 : BitVec 32 := Scf.iv c0_i32_5 c1_i32_7 k1_t2
  let c200_i32 : BitVec 32 := 200#32
  let v18 : BitVec 32 := Scalar.muli arg10 c200_i32
  let c144_i32 : BitVec 32 := 144#32
  let v156 : BitVec 32 := Scalar.addi v18 c144_i32
  let v157 : Index := Scalar.indexCast v156
  ![v157.toNat]

def k1_chk23 (v162 : IVec S16 32) : Prop :=
  (∀ a x, ((![v162] : Fin 1 → IVec S16 32) a x).toNat < S100000.size a)
instance k1_chk23.dec : ∀ (v162 : IVec S16 32), Decidable (k1_chk23 v162) := fun v162 => decidable_of_iff' _ (Iff.of_eq (k1_chk23.eq_1 v162))
theorem k1_idx23_inb : ∀ (v162 : IVec S16 32) (k1_hw23 : k1_chk23 v162), ∀ a x, ((![v162] : Fin 1 → IVec S16 32) a x).toNat < S100000.size a := fun v162 k1_hw23 => k1_hw23
def k1_off26 (k1_t2 : Fin k1_t2_loop.trips) : Fin 1 → Nat :=
  let c0_i32_5 : BitVec 32 := 0#32
  let c1_i32_7 : BitVec 32 := 1#32
  let arg10 : BitVec 32 := Scf.iv c0_i32_5 c1_i32_7 k1_t2
  let c200_i32 : BitVec 32 := 200#32
  let v18 : BitVec 32 := Scalar.muli arg10 c200_i32
  let c160_i32 : BitVec 32 := 160#32
  let v171 : BitVec 32 := Scalar.addi v18 c160_i32
  let v172 : Index := Scalar.indexCast v171
  ![v172.toNat]

def k1_chk24 (v177 : IVec S16 32) : Prop :=
  (∀ a x, ((![v177] : Fin 1 → IVec S16 32) a x).toNat < S100000.size a)
instance k1_chk24.dec : ∀ (v177 : IVec S16 32), Decidable (k1_chk24 v177) := fun v177 => decidable_of_iff' _ (Iff.of_eq (k1_chk24.eq_1 v177))
theorem k1_idx24_inb : ∀ (v177 : IVec S16 32) (k1_hw24 : k1_chk24 v177), ∀ a x, ((![v177] : Fin 1 → IVec S16 32) a x).toNat < S100000.size a := fun v177 k1_hw24 => k1_hw24
def k1_off27 (k1_t2 : Fin k1_t2_loop.trips) : Fin 1 → Nat :=
  let c0_i32_5 : BitVec 32 := 0#32
  let c1_i32_7 : BitVec 32 := 1#32
  let arg10 : BitVec 32 := Scf.iv c0_i32_5 c1_i32_7 k1_t2
  let c200_i32 : BitVec 32 := 200#32
  let v18 : BitVec 32 := Scalar.muli arg10 c200_i32
  let c176_i32 : BitVec 32 := 176#32
  let v186 : BitVec 32 := Scalar.addi v18 c176_i32
  let v187 : Index := Scalar.indexCast v186
  ![v187.toNat]

def k1_chk25 (v192 : IVec S16 32) : Prop :=
  (∀ a x, ((![v192] : Fin 1 → IVec S16 32) a x).toNat < S100000.size a)
instance k1_chk25.dec : ∀ (v192 : IVec S16 32), Decidable (k1_chk25 v192) := fun v192 => decidable_of_iff' _ (Iff.of_eq (k1_chk25.eq_1 v192))
theorem k1_idx25_inb : ∀ (v192 : IVec S16 32) (k1_hw25 : k1_chk25 v192), ∀ a x, ((![v192] : Fin 1 → IVec S16 32) a x).toNat < S100000.size a := fun v192 k1_hw25 => k1_hw25
def k1_off28 (k1_t2 : Fin k1_t2_loop.trips) : Fin 1 → Nat :=
  let c0_i32_5 : BitVec 32 := 0#32
  let c1_i32_7 : BitVec 32 := 1#32
  let arg10 : BitVec 32 := Scf.iv c0_i32_5 c1_i32_7 k1_t2
  let c200_i32 : BitVec 32 := 200#32
  let v18 : BitVec 32 := Scalar.muli arg10 c200_i32
  let c192_i32 : BitVec 32 := 192#32
  let v201 : BitVec 32 := Scalar.addi v18 c192_i32
  let v202 : Index := Scalar.indexCast v201
  ![v202.toNat]

def k1_chk26 (v208 : IVec S16 32) : Prop :=
  (∀ a x, ((![v208] : Fin 1 → IVec S16 32) a x).toNat < S100000.size a)
instance k1_chk26.dec : ∀ (v208 : IVec S16 32), Decidable (k1_chk26 v208) := fun v208 => decidable_of_iff' _ (Iff.of_eq (k1_chk26.eq_1 v208))
theorem k1_idx26_inb : ∀ (v208 : IVec S16 32) (k1_hw26 : k1_chk26 v208), ∀ a x, ((![v208] : Fin 1 → IVec S16 32) a x).toNat < S100000.size a := fun v208 k1_hw26 => k1_hw26
def k1_off29 (k1_t2 : Fin k1_t2_loop.trips) : Fin 1 → Nat :=
  let c32_i32_89 : BitVec 32 := 32#32
  let c0_i32_5 : BitVec 32 := 0#32
  let c1_i32_7 : BitVec 32 := 1#32
  let arg10 : BitVec 32 := Scf.iv c0_i32_5 c1_i32_7 k1_t2
  let v217 : BitVec 32 := Scalar.addi c32_i32_89 arg10
  let c16_i32_90 : BitVec 32 := 16#32
  let v218 : BitVec 32 := Scalar.muli v217 c16_i32_90
  let v219 : Index := Scalar.indexCast v218
  ![v219.toNat]
@[reducible] def k1_t3_loop : Scf.Loop 32 :=
  let c0_i32_11 : BitVec 32 := 0#32
  let c32_i32_12 : BitVec 32 := 32#32
  let v13 : BitVec 32 := Scalar.addi c0_i32_11 c32_i32_12
  let c1_i32_13 : BitVec 32 := 1#32
  ⟨c0_i32_11, v13, c1_i32_13⟩
def k1_off30 (k1_t3 : Fin k1_t3_loop.trips) : Fin 1 → Nat :=
  let c0_i32_11 : BitVec 32 := 0#32
  let c1_i32_13 : BitVec 32 := 1#32
  let arg10 : BitVec 32 := Scf.iv c0_i32_11 c1_i32_13 k1_t3
  let c200_i32 : BitVec 32 := 200#32
  let v18 : BitVec 32 := Scalar.muli arg10 c200_i32
  let c0_i32_22 : BitVec 32 := 0#32
  let v21 : BitVec 32 := Scalar.addi v18 c0_i32_22
  let v22 : Index := Scalar.indexCast v21
  ![v22.toNat]

def k1_chk27 (v27 : IVec S16 32) : Prop :=
  (∀ a x, ((![v27] : Fin 1 → IVec S16 32) a x).toNat < S100000.size a)
instance k1_chk27.dec : ∀ (v27 : IVec S16 32), Decidable (k1_chk27 v27) := fun v27 => decidable_of_iff' _ (Iff.of_eq (k1_chk27.eq_1 v27))
theorem k1_idx27_inb : ∀ (v27 : IVec S16 32) (k1_hw27 : k1_chk27 v27), ∀ a x, ((![v27] : Fin 1 → IVec S16 32) a x).toNat < S100000.size a := fun v27 k1_hw27 => k1_hw27
def k1_off31 (k1_t3 : Fin k1_t3_loop.trips) : Fin 1 → Nat :=
  let c0_i32_11 : BitVec 32 := 0#32
  let c1_i32_13 : BitVec 32 := 1#32
  let arg10 : BitVec 32 := Scf.iv c0_i32_11 c1_i32_13 k1_t3
  let c200_i32 : BitVec 32 := 200#32
  let v18 : BitVec 32 := Scalar.muli arg10 c200_i32
  let c16_i32 : BitVec 32 := 16#32
  let v36 : BitVec 32 := Scalar.addi v18 c16_i32
  let v37 : Index := Scalar.indexCast v36
  ![v37.toNat]

def k1_chk28 (v42 : IVec S16 32) : Prop :=
  (∀ a x, ((![v42] : Fin 1 → IVec S16 32) a x).toNat < S100000.size a)
instance k1_chk28.dec : ∀ (v42 : IVec S16 32), Decidable (k1_chk28 v42) := fun v42 => decidable_of_iff' _ (Iff.of_eq (k1_chk28.eq_1 v42))
theorem k1_idx28_inb : ∀ (v42 : IVec S16 32) (k1_hw28 : k1_chk28 v42), ∀ a x, ((![v42] : Fin 1 → IVec S16 32) a x).toNat < S100000.size a := fun v42 k1_hw28 => k1_hw28
def k1_off32 (k1_t3 : Fin k1_t3_loop.trips) : Fin 1 → Nat :=
  let c0_i32_11 : BitVec 32 := 0#32
  let c1_i32_13 : BitVec 32 := 1#32
  let arg10 : BitVec 32 := Scf.iv c0_i32_11 c1_i32_13 k1_t3
  let c200_i32 : BitVec 32 := 200#32
  let v18 : BitVec 32 := Scalar.muli arg10 c200_i32
  let c32_i32_33 : BitVec 32 := 32#32
  let v51 : BitVec 32 := Scalar.addi v18 c32_i32_33
  let v52 : Index := Scalar.indexCast v51
  ![v52.toNat]

def k1_chk29 (v57 : IVec S16 32) : Prop :=
  (∀ a x, ((![v57] : Fin 1 → IVec S16 32) a x).toNat < S100000.size a)
instance k1_chk29.dec : ∀ (v57 : IVec S16 32), Decidable (k1_chk29 v57) := fun v57 => decidable_of_iff' _ (Iff.of_eq (k1_chk29.eq_1 v57))
theorem k1_idx29_inb : ∀ (v57 : IVec S16 32) (k1_hw29 : k1_chk29 v57), ∀ a x, ((![v57] : Fin 1 → IVec S16 32) a x).toNat < S100000.size a := fun v57 k1_hw29 => k1_hw29
def k1_off33 (k1_t3 : Fin k1_t3_loop.trips) : Fin 1 → Nat :=
  let c0_i32_11 : BitVec 32 := 0#32
  let c1_i32_13 : BitVec 32 := 1#32
  let arg10 : BitVec 32 := Scf.iv c0_i32_11 c1_i32_13 k1_t3
  let c200_i32 : BitVec 32 := 200#32
  let v18 : BitVec 32 := Scalar.muli arg10 c200_i32
  let c48_i32 : BitVec 32 := 48#32
  let v66 : BitVec 32 := Scalar.addi v18 c48_i32
  let v67 : Index := Scalar.indexCast v66
  ![v67.toNat]

def k1_chk30 (v72 : IVec S16 32) : Prop :=
  (∀ a x, ((![v72] : Fin 1 → IVec S16 32) a x).toNat < S100000.size a)
instance k1_chk30.dec : ∀ (v72 : IVec S16 32), Decidable (k1_chk30 v72) := fun v72 => decidable_of_iff' _ (Iff.of_eq (k1_chk30.eq_1 v72))
theorem k1_idx30_inb : ∀ (v72 : IVec S16 32) (k1_hw30 : k1_chk30 v72), ∀ a x, ((![v72] : Fin 1 → IVec S16 32) a x).toNat < S100000.size a := fun v72 k1_hw30 => k1_hw30
def k1_off34 (k1_t3 : Fin k1_t3_loop.trips) : Fin 1 → Nat :=
  let c0_i32_11 : BitVec 32 := 0#32
  let c1_i32_13 : BitVec 32 := 1#32
  let arg10 : BitVec 32 := Scf.iv c0_i32_11 c1_i32_13 k1_t3
  let c200_i32 : BitVec 32 := 200#32
  let v18 : BitVec 32 := Scalar.muli arg10 c200_i32
  let c64_i32 : BitVec 32 := 64#32
  let v81 : BitVec 32 := Scalar.addi v18 c64_i32
  let v82 : Index := Scalar.indexCast v81
  ![v82.toNat]

def k1_chk31 (v87 : IVec S16 32) : Prop :=
  (∀ a x, ((![v87] : Fin 1 → IVec S16 32) a x).toNat < S100000.size a)
instance k1_chk31.dec : ∀ (v87 : IVec S16 32), Decidable (k1_chk31 v87) := fun v87 => decidable_of_iff' _ (Iff.of_eq (k1_chk31.eq_1 v87))
theorem k1_idx31_inb : ∀ (v87 : IVec S16 32) (k1_hw31 : k1_chk31 v87), ∀ a x, ((![v87] : Fin 1 → IVec S16 32) a x).toNat < S100000.size a := fun v87 k1_hw31 => k1_hw31
def k1_off35 (k1_t3 : Fin k1_t3_loop.trips) : Fin 1 → Nat :=
  let c0_i32_11 : BitVec 32 := 0#32
  let c1_i32_13 : BitVec 32 := 1#32
  let arg10 : BitVec 32 := Scf.iv c0_i32_11 c1_i32_13 k1_t3
  let c200_i32 : BitVec 32 := 200#32
  let v18 : BitVec 32 := Scalar.muli arg10 c200_i32
  let c80_i32 : BitVec 32 := 80#32
  let v96 : BitVec 32 := Scalar.addi v18 c80_i32
  let v97 : Index := Scalar.indexCast v96
  ![v97.toNat]

def k1_chk32 (v102 : IVec S16 32) : Prop :=
  (∀ a x, ((![v102] : Fin 1 → IVec S16 32) a x).toNat < S100000.size a)
instance k1_chk32.dec : ∀ (v102 : IVec S16 32), Decidable (k1_chk32 v102) := fun v102 => decidable_of_iff' _ (Iff.of_eq (k1_chk32.eq_1 v102))
theorem k1_idx32_inb : ∀ (v102 : IVec S16 32) (k1_hw32 : k1_chk32 v102), ∀ a x, ((![v102] : Fin 1 → IVec S16 32) a x).toNat < S100000.size a := fun v102 k1_hw32 => k1_hw32
def k1_off36 (k1_t3 : Fin k1_t3_loop.trips) : Fin 1 → Nat :=
  let c0_i32_11 : BitVec 32 := 0#32
  let c1_i32_13 : BitVec 32 := 1#32
  let arg10 : BitVec 32 := Scf.iv c0_i32_11 c1_i32_13 k1_t3
  let c200_i32 : BitVec 32 := 200#32
  let v18 : BitVec 32 := Scalar.muli arg10 c200_i32
  let c96_i32 : BitVec 32 := 96#32
  let v111 : BitVec 32 := Scalar.addi v18 c96_i32
  let v112 : Index := Scalar.indexCast v111
  ![v112.toNat]

def k1_chk33 (v117 : IVec S16 32) : Prop :=
  (∀ a x, ((![v117] : Fin 1 → IVec S16 32) a x).toNat < S100000.size a)
instance k1_chk33.dec : ∀ (v117 : IVec S16 32), Decidable (k1_chk33 v117) := fun v117 => decidable_of_iff' _ (Iff.of_eq (k1_chk33.eq_1 v117))
theorem k1_idx33_inb : ∀ (v117 : IVec S16 32) (k1_hw33 : k1_chk33 v117), ∀ a x, ((![v117] : Fin 1 → IVec S16 32) a x).toNat < S100000.size a := fun v117 k1_hw33 => k1_hw33
def k1_off37 (k1_t3 : Fin k1_t3_loop.trips) : Fin 1 → Nat :=
  let c0_i32_11 : BitVec 32 := 0#32
  let c1_i32_13 : BitVec 32 := 1#32
  let arg10 : BitVec 32 := Scf.iv c0_i32_11 c1_i32_13 k1_t3
  let c200_i32 : BitVec 32 := 200#32
  let v18 : BitVec 32 := Scalar.muli arg10 c200_i32
  let c112_i32 : BitVec 32 := 112#32
  let v126 : BitVec 32 := Scalar.addi v18 c112_i32
  let v127 : Index := Scalar.indexCast v126
  ![v127.toNat]

def k1_chk34 (v132 : IVec S16 32) : Prop :=
  (∀ a x, ((![v132] : Fin 1 → IVec S16 32) a x).toNat < S100000.size a)
instance k1_chk34.dec : ∀ (v132 : IVec S16 32), Decidable (k1_chk34 v132) := fun v132 => decidable_of_iff' _ (Iff.of_eq (k1_chk34.eq_1 v132))
theorem k1_idx34_inb : ∀ (v132 : IVec S16 32) (k1_hw34 : k1_chk34 v132), ∀ a x, ((![v132] : Fin 1 → IVec S16 32) a x).toNat < S100000.size a := fun v132 k1_hw34 => k1_hw34
def k1_off38 (k1_t3 : Fin k1_t3_loop.trips) : Fin 1 → Nat :=
  let c0_i32_11 : BitVec 32 := 0#32
  let c1_i32_13 : BitVec 32 := 1#32
  let arg10 : BitVec 32 := Scf.iv c0_i32_11 c1_i32_13 k1_t3
  let c200_i32 : BitVec 32 := 200#32
  let v18 : BitVec 32 := Scalar.muli arg10 c200_i32
  let c128_i32 : BitVec 32 := 128#32
  let v141 : BitVec 32 := Scalar.addi v18 c128_i32
  let v142 : Index := Scalar.indexCast v141
  ![v142.toNat]

def k1_chk35 (v147 : IVec S16 32) : Prop :=
  (∀ a x, ((![v147] : Fin 1 → IVec S16 32) a x).toNat < S100000.size a)
instance k1_chk35.dec : ∀ (v147 : IVec S16 32), Decidable (k1_chk35 v147) := fun v147 => decidable_of_iff' _ (Iff.of_eq (k1_chk35.eq_1 v147))
theorem k1_idx35_inb : ∀ (v147 : IVec S16 32) (k1_hw35 : k1_chk35 v147), ∀ a x, ((![v147] : Fin 1 → IVec S16 32) a x).toNat < S100000.size a := fun v147 k1_hw35 => k1_hw35
def k1_off39 (k1_t3 : Fin k1_t3_loop.trips) : Fin 1 → Nat :=
  let c0_i32_11 : BitVec 32 := 0#32
  let c1_i32_13 : BitVec 32 := 1#32
  let arg10 : BitVec 32 := Scf.iv c0_i32_11 c1_i32_13 k1_t3
  let c200_i32 : BitVec 32 := 200#32
  let v18 : BitVec 32 := Scalar.muli arg10 c200_i32
  let c144_i32 : BitVec 32 := 144#32
  let v156 : BitVec 32 := Scalar.addi v18 c144_i32
  let v157 : Index := Scalar.indexCast v156
  ![v157.toNat]

def k1_chk36 (v162 : IVec S16 32) : Prop :=
  (∀ a x, ((![v162] : Fin 1 → IVec S16 32) a x).toNat < S100000.size a)
instance k1_chk36.dec : ∀ (v162 : IVec S16 32), Decidable (k1_chk36 v162) := fun v162 => decidable_of_iff' _ (Iff.of_eq (k1_chk36.eq_1 v162))
theorem k1_idx36_inb : ∀ (v162 : IVec S16 32) (k1_hw36 : k1_chk36 v162), ∀ a x, ((![v162] : Fin 1 → IVec S16 32) a x).toNat < S100000.size a := fun v162 k1_hw36 => k1_hw36
def k1_off40 (k1_t3 : Fin k1_t3_loop.trips) : Fin 1 → Nat :=
  let c0_i32_11 : BitVec 32 := 0#32
  let c1_i32_13 : BitVec 32 := 1#32
  let arg10 : BitVec 32 := Scf.iv c0_i32_11 c1_i32_13 k1_t3
  let c200_i32 : BitVec 32 := 200#32
  let v18 : BitVec 32 := Scalar.muli arg10 c200_i32
  let c160_i32 : BitVec 32 := 160#32
  let v171 : BitVec 32 := Scalar.addi v18 c160_i32
  let v172 : Index := Scalar.indexCast v171
  ![v172.toNat]

def k1_chk37 (v177 : IVec S16 32) : Prop :=
  (∀ a x, ((![v177] : Fin 1 → IVec S16 32) a x).toNat < S100000.size a)
instance k1_chk37.dec : ∀ (v177 : IVec S16 32), Decidable (k1_chk37 v177) := fun v177 => decidable_of_iff' _ (Iff.of_eq (k1_chk37.eq_1 v177))
theorem k1_idx37_inb : ∀ (v177 : IVec S16 32) (k1_hw37 : k1_chk37 v177), ∀ a x, ((![v177] : Fin 1 → IVec S16 32) a x).toNat < S100000.size a := fun v177 k1_hw37 => k1_hw37
def k1_off41 (k1_t3 : Fin k1_t3_loop.trips) : Fin 1 → Nat :=
  let c0_i32_11 : BitVec 32 := 0#32
  let c1_i32_13 : BitVec 32 := 1#32
  let arg10 : BitVec 32 := Scf.iv c0_i32_11 c1_i32_13 k1_t3
  let c200_i32 : BitVec 32 := 200#32
  let v18 : BitVec 32 := Scalar.muli arg10 c200_i32
  let c176_i32 : BitVec 32 := 176#32
  let v186 : BitVec 32 := Scalar.addi v18 c176_i32
  let v187 : Index := Scalar.indexCast v186
  ![v187.toNat]

def k1_chk38 (v192 : IVec S16 32) : Prop :=
  (∀ a x, ((![v192] : Fin 1 → IVec S16 32) a x).toNat < S100000.size a)
instance k1_chk38.dec : ∀ (v192 : IVec S16 32), Decidable (k1_chk38 v192) := fun v192 => decidable_of_iff' _ (Iff.of_eq (k1_chk38.eq_1 v192))
theorem k1_idx38_inb : ∀ (v192 : IVec S16 32) (k1_hw38 : k1_chk38 v192), ∀ a x, ((![v192] : Fin 1 → IVec S16 32) a x).toNat < S100000.size a := fun v192 k1_hw38 => k1_hw38
def k1_off42 (k1_t3 : Fin k1_t3_loop.trips) : Fin 1 → Nat :=
  let c0_i32_11 : BitVec 32 := 0#32
  let c1_i32_13 : BitVec 32 := 1#32
  let arg10 : BitVec 32 := Scf.iv c0_i32_11 c1_i32_13 k1_t3
  let c200_i32 : BitVec 32 := 200#32
  let v18 : BitVec 32 := Scalar.muli arg10 c200_i32
  let c192_i32 : BitVec 32 := 192#32
  let v201 : BitVec 32 := Scalar.addi v18 c192_i32
  let v202 : Index := Scalar.indexCast v201
  ![v202.toNat]

def k1_chk39 (v208 : IVec S16 32) : Prop :=
  (∀ a x, ((![v208] : Fin 1 → IVec S16 32) a x).toNat < S100000.size a)
instance k1_chk39.dec : ∀ (v208 : IVec S16 32), Decidable (k1_chk39 v208) := fun v208 => decidable_of_iff' _ (Iff.of_eq (k1_chk39.eq_1 v208))
theorem k1_idx39_inb : ∀ (v208 : IVec S16 32) (k1_hw39 : k1_chk39 v208), ∀ a x, ((![v208] : Fin 1 → IVec S16 32) a x).toNat < S100000.size a := fun v208 k1_hw39 => k1_hw39
def k1_off43 (k1_t3 : Fin k1_t3_loop.trips) : Fin 1 → Nat :=
  let c64_i32_89 : BitVec 32 := 64#32
  let c0_i32_11 : BitVec 32 := 0#32
  let c1_i32_13 : BitVec 32 := 1#32
  let arg10 : BitVec 32 := Scf.iv c0_i32_11 c1_i32_13 k1_t3
  let v217 : BitVec 32 := Scalar.addi c64_i32_89 arg10
  let c16_i32_90 : BitVec 32 := 16#32
  let v218 : BitVec 32 := Scalar.muli v217 c16_i32_90
  let v219 : Index := Scalar.indexCast v218
  ![v219.toNat]
@[reducible] def k1_t4_loop : Scf.Loop 32 :=
  let c0_i32_17 : BitVec 32 := 0#32
  let c32_i32_18 : BitVec 32 := 32#32
  let v16 : BitVec 32 := Scalar.addi c0_i32_17 c32_i32_18
  let c1_i32_19 : BitVec 32 := 1#32
  ⟨c0_i32_17, v16, c1_i32_19⟩
def k1_off44 (k1_t4 : Fin k1_t4_loop.trips) : Fin 1 → Nat :=
  let c0_i32_17 : BitVec 32 := 0#32
  let c1_i32_19 : BitVec 32 := 1#32
  let arg10 : BitVec 32 := Scf.iv c0_i32_17 c1_i32_19 k1_t4
  let c200_i32 : BitVec 32 := 200#32
  let v18 : BitVec 32 := Scalar.muli arg10 c200_i32
  let c0_i32_22 : BitVec 32 := 0#32
  let v21 : BitVec 32 := Scalar.addi v18 c0_i32_22
  let v22 : Index := Scalar.indexCast v21
  ![v22.toNat]

def k1_chk40 (v27 : IVec S16 32) : Prop :=
  (∀ a x, ((![v27] : Fin 1 → IVec S16 32) a x).toNat < S100000.size a)
instance k1_chk40.dec : ∀ (v27 : IVec S16 32), Decidable (k1_chk40 v27) := fun v27 => decidable_of_iff' _ (Iff.of_eq (k1_chk40.eq_1 v27))
theorem k1_idx40_inb : ∀ (v27 : IVec S16 32) (k1_hw40 : k1_chk40 v27), ∀ a x, ((![v27] : Fin 1 → IVec S16 32) a x).toNat < S100000.size a := fun v27 k1_hw40 => k1_hw40
def k1_off45 (k1_t4 : Fin k1_t4_loop.trips) : Fin 1 → Nat :=
  let c0_i32_17 : BitVec 32 := 0#32
  let c1_i32_19 : BitVec 32 := 1#32
  let arg10 : BitVec 32 := Scf.iv c0_i32_17 c1_i32_19 k1_t4
  let c200_i32 : BitVec 32 := 200#32
  let v18 : BitVec 32 := Scalar.muli arg10 c200_i32
  let c16_i32 : BitVec 32 := 16#32
  let v36 : BitVec 32 := Scalar.addi v18 c16_i32
  let v37 : Index := Scalar.indexCast v36
  ![v37.toNat]

def k1_chk41 (v42 : IVec S16 32) : Prop :=
  (∀ a x, ((![v42] : Fin 1 → IVec S16 32) a x).toNat < S100000.size a)
instance k1_chk41.dec : ∀ (v42 : IVec S16 32), Decidable (k1_chk41 v42) := fun v42 => decidable_of_iff' _ (Iff.of_eq (k1_chk41.eq_1 v42))
theorem k1_idx41_inb : ∀ (v42 : IVec S16 32) (k1_hw41 : k1_chk41 v42), ∀ a x, ((![v42] : Fin 1 → IVec S16 32) a x).toNat < S100000.size a := fun v42 k1_hw41 => k1_hw41
def k1_off46 (k1_t4 : Fin k1_t4_loop.trips) : Fin 1 → Nat :=
  let c0_i32_17 : BitVec 32 := 0#32
  let c1_i32_19 : BitVec 32 := 1#32
  let arg10 : BitVec 32 := Scf.iv c0_i32_17 c1_i32_19 k1_t4
  let c200_i32 : BitVec 32 := 200#32
  let v18 : BitVec 32 := Scalar.muli arg10 c200_i32
  let c32_i32_33 : BitVec 32 := 32#32
  let v51 : BitVec 32 := Scalar.addi v18 c32_i32_33
  let v52 : Index := Scalar.indexCast v51
  ![v52.toNat]

def k1_chk42 (v57 : IVec S16 32) : Prop :=
  (∀ a x, ((![v57] : Fin 1 → IVec S16 32) a x).toNat < S100000.size a)
instance k1_chk42.dec : ∀ (v57 : IVec S16 32), Decidable (k1_chk42 v57) := fun v57 => decidable_of_iff' _ (Iff.of_eq (k1_chk42.eq_1 v57))
theorem k1_idx42_inb : ∀ (v57 : IVec S16 32) (k1_hw42 : k1_chk42 v57), ∀ a x, ((![v57] : Fin 1 → IVec S16 32) a x).toNat < S100000.size a := fun v57 k1_hw42 => k1_hw42
def k1_off47 (k1_t4 : Fin k1_t4_loop.trips) : Fin 1 → Nat :=
  let c0_i32_17 : BitVec 32 := 0#32
  let c1_i32_19 : BitVec 32 := 1#32
  let arg10 : BitVec 32 := Scf.iv c0_i32_17 c1_i32_19 k1_t4
  let c200_i32 : BitVec 32 := 200#32
  let v18 : BitVec 32 := Scalar.muli arg10 c200_i32
  let c48_i32 : BitVec 32 := 48#32
  let v66 : BitVec 32 := Scalar.addi v18 c48_i32
  let v67 : Index := Scalar.indexCast v66
  ![v67.toNat]

def k1_chk43 (v72 : IVec S16 32) : Prop :=
  (∀ a x, ((![v72] : Fin 1 → IVec S16 32) a x).toNat < S100000.size a)
instance k1_chk43.dec : ∀ (v72 : IVec S16 32), Decidable (k1_chk43 v72) := fun v72 => decidable_of_iff' _ (Iff.of_eq (k1_chk43.eq_1 v72))
theorem k1_idx43_inb : ∀ (v72 : IVec S16 32) (k1_hw43 : k1_chk43 v72), ∀ a x, ((![v72] : Fin 1 → IVec S16 32) a x).toNat < S100000.size a := fun v72 k1_hw43 => k1_hw43
def k1_off48 (k1_t4 : Fin k1_t4_loop.trips) : Fin 1 → Nat :=
  let c0_i32_17 : BitVec 32 := 0#32
  let c1_i32_19 : BitVec 32 := 1#32
  let arg10 : BitVec 32 := Scf.iv c0_i32_17 c1_i32_19 k1_t4
  let c200_i32 : BitVec 32 := 200#32
  let v18 : BitVec 32 := Scalar.muli arg10 c200_i32
  let c64_i32 : BitVec 32 := 64#32
  let v81 : BitVec 32 := Scalar.addi v18 c64_i32
  let v82 : Index := Scalar.indexCast v81
  ![v82.toNat]

def k1_chk44 (v87 : IVec S16 32) : Prop :=
  (∀ a x, ((![v87] : Fin 1 → IVec S16 32) a x).toNat < S100000.size a)
instance k1_chk44.dec : ∀ (v87 : IVec S16 32), Decidable (k1_chk44 v87) := fun v87 => decidable_of_iff' _ (Iff.of_eq (k1_chk44.eq_1 v87))
theorem k1_idx44_inb : ∀ (v87 : IVec S16 32) (k1_hw44 : k1_chk44 v87), ∀ a x, ((![v87] : Fin 1 → IVec S16 32) a x).toNat < S100000.size a := fun v87 k1_hw44 => k1_hw44
def k1_off49 (k1_t4 : Fin k1_t4_loop.trips) : Fin 1 → Nat :=
  let c0_i32_17 : BitVec 32 := 0#32
  let c1_i32_19 : BitVec 32 := 1#32
  let arg10 : BitVec 32 := Scf.iv c0_i32_17 c1_i32_19 k1_t4
  let c200_i32 : BitVec 32 := 200#32
  let v18 : BitVec 32 := Scalar.muli arg10 c200_i32
  let c80_i32 : BitVec 32 := 80#32
  let v96 : BitVec 32 := Scalar.addi v18 c80_i32
  let v97 : Index := Scalar.indexCast v96
  ![v97.toNat]

def k1_chk45 (v102 : IVec S16 32) : Prop :=
  (∀ a x, ((![v102] : Fin 1 → IVec S16 32) a x).toNat < S100000.size a)
instance k1_chk45.dec : ∀ (v102 : IVec S16 32), Decidable (k1_chk45 v102) := fun v102 => decidable_of_iff' _ (Iff.of_eq (k1_chk45.eq_1 v102))
theorem k1_idx45_inb : ∀ (v102 : IVec S16 32) (k1_hw45 : k1_chk45 v102), ∀ a x, ((![v102] : Fin 1 → IVec S16 32) a x).toNat < S100000.size a := fun v102 k1_hw45 => k1_hw45
def k1_off50 (k1_t4 : Fin k1_t4_loop.trips) : Fin 1 → Nat :=
  let c0_i32_17 : BitVec 32 := 0#32
  let c1_i32_19 : BitVec 32 := 1#32
  let arg10 : BitVec 32 := Scf.iv c0_i32_17 c1_i32_19 k1_t4
  let c200_i32 : BitVec 32 := 200#32
  let v18 : BitVec 32 := Scalar.muli arg10 c200_i32
  let c96_i32 : BitVec 32 := 96#32
  let v111 : BitVec 32 := Scalar.addi v18 c96_i32
  let v112 : Index := Scalar.indexCast v111
  ![v112.toNat]

def k1_chk46 (v117 : IVec S16 32) : Prop :=
  (∀ a x, ((![v117] : Fin 1 → IVec S16 32) a x).toNat < S100000.size a)
instance k1_chk46.dec : ∀ (v117 : IVec S16 32), Decidable (k1_chk46 v117) := fun v117 => decidable_of_iff' _ (Iff.of_eq (k1_chk46.eq_1 v117))
theorem k1_idx46_inb : ∀ (v117 : IVec S16 32) (k1_hw46 : k1_chk46 v117), ∀ a x, ((![v117] : Fin 1 → IVec S16 32) a x).toNat < S100000.size a := fun v117 k1_hw46 => k1_hw46
def k1_off51 (k1_t4 : Fin k1_t4_loop.trips) : Fin 1 → Nat :=
  let c0_i32_17 : BitVec 32 := 0#32
  let c1_i32_19 : BitVec 32 := 1#32
  let arg10 : BitVec 32 := Scf.iv c0_i32_17 c1_i32_19 k1_t4
  let c200_i32 : BitVec 32 := 200#32
  let v18 : BitVec 32 := Scalar.muli arg10 c200_i32
  let c112_i32 : BitVec 32 := 112#32
  let v126 : BitVec 32 := Scalar.addi v18 c112_i32
  let v127 : Index := Scalar.indexCast v126
  ![v127.toNat]

def k1_chk47 (v132 : IVec S16 32) : Prop :=
  (∀ a x, ((![v132] : Fin 1 → IVec S16 32) a x).toNat < S100000.size a)
instance k1_chk47.dec : ∀ (v132 : IVec S16 32), Decidable (k1_chk47 v132) := fun v132 => decidable_of_iff' _ (Iff.of_eq (k1_chk47.eq_1 v132))
theorem k1_idx47_inb : ∀ (v132 : IVec S16 32) (k1_hw47 : k1_chk47 v132), ∀ a x, ((![v132] : Fin 1 → IVec S16 32) a x).toNat < S100000.size a := fun v132 k1_hw47 => k1_hw47
def k1_off52 (k1_t4 : Fin k1_t4_loop.trips) : Fin 1 → Nat :=
  let c0_i32_17 : BitVec 32 := 0#32
  let c1_i32_19 : BitVec 32 := 1#32
  let arg10 : BitVec 32 := Scf.iv c0_i32_17 c1_i32_19 k1_t4
  let c200_i32 : BitVec 32 := 200#32
  let v18 : BitVec 32 := Scalar.muli arg10 c200_i32
  let c128_i32 : BitVec 32 := 128#32
  let v141 : BitVec 32 := Scalar.addi v18 c128_i32
  let v142 : Index := Scalar.indexCast v141
  ![v142.toNat]

def k1_chk48 (v147 : IVec S16 32) : Prop :=
  (∀ a x, ((![v147] : Fin 1 → IVec S16 32) a x).toNat < S100000.size a)
instance k1_chk48.dec : ∀ (v147 : IVec S16 32), Decidable (k1_chk48 v147) := fun v147 => decidable_of_iff' _ (Iff.of_eq (k1_chk48.eq_1 v147))
theorem k1_idx48_inb : ∀ (v147 : IVec S16 32) (k1_hw48 : k1_chk48 v147), ∀ a x, ((![v147] : Fin 1 → IVec S16 32) a x).toNat < S100000.size a := fun v147 k1_hw48 => k1_hw48
def k1_off53 (k1_t4 : Fin k1_t4_loop.trips) : Fin 1 → Nat :=
  let c0_i32_17 : BitVec 32 := 0#32
  let c1_i32_19 : BitVec 32 := 1#32
  let arg10 : BitVec 32 := Scf.iv c0_i32_17 c1_i32_19 k1_t4
  let c200_i32 : BitVec 32 := 200#32
  let v18 : BitVec 32 := Scalar.muli arg10 c200_i32
  let c144_i32 : BitVec 32 := 144#32
  let v156 : BitVec 32 := Scalar.addi v18 c144_i32
  let v157 : Index := Scalar.indexCast v156
  ![v157.toNat]

def k1_chk49 (v162 : IVec S16 32) : Prop :=
  (∀ a x, ((![v162] : Fin 1 → IVec S16 32) a x).toNat < S100000.size a)
instance k1_chk49.dec : ∀ (v162 : IVec S16 32), Decidable (k1_chk49 v162) := fun v162 => decidable_of_iff' _ (Iff.of_eq (k1_chk49.eq_1 v162))
theorem k1_idx49_inb : ∀ (v162 : IVec S16 32) (k1_hw49 : k1_chk49 v162), ∀ a x, ((![v162] : Fin 1 → IVec S16 32) a x).toNat < S100000.size a := fun v162 k1_hw49 => k1_hw49
def k1_off54 (k1_t4 : Fin k1_t4_loop.trips) : Fin 1 → Nat :=
  let c0_i32_17 : BitVec 32 := 0#32
  let c1_i32_19 : BitVec 32 := 1#32
  let arg10 : BitVec 32 := Scf.iv c0_i32_17 c1_i32_19 k1_t4
  let c200_i32 : BitVec 32 := 200#32
  let v18 : BitVec 32 := Scalar.muli arg10 c200_i32
  let c160_i32 : BitVec 32 := 160#32
  let v171 : BitVec 32 := Scalar.addi v18 c160_i32
  let v172 : Index := Scalar.indexCast v171
  ![v172.toNat]

def k1_chk50 (v177 : IVec S16 32) : Prop :=
  (∀ a x, ((![v177] : Fin 1 → IVec S16 32) a x).toNat < S100000.size a)
instance k1_chk50.dec : ∀ (v177 : IVec S16 32), Decidable (k1_chk50 v177) := fun v177 => decidable_of_iff' _ (Iff.of_eq (k1_chk50.eq_1 v177))
theorem k1_idx50_inb : ∀ (v177 : IVec S16 32) (k1_hw50 : k1_chk50 v177), ∀ a x, ((![v177] : Fin 1 → IVec S16 32) a x).toNat < S100000.size a := fun v177 k1_hw50 => k1_hw50
def k1_off55 (k1_t4 : Fin k1_t4_loop.trips) : Fin 1 → Nat :=
  let c0_i32_17 : BitVec 32 := 0#32
  let c1_i32_19 : BitVec 32 := 1#32
  let arg10 : BitVec 32 := Scf.iv c0_i32_17 c1_i32_19 k1_t4
  let c200_i32 : BitVec 32 := 200#32
  let v18 : BitVec 32 := Scalar.muli arg10 c200_i32
  let c176_i32 : BitVec 32 := 176#32
  let v186 : BitVec 32 := Scalar.addi v18 c176_i32
  let v187 : Index := Scalar.indexCast v186
  ![v187.toNat]

def k1_chk51 (v192 : IVec S16 32) : Prop :=
  (∀ a x, ((![v192] : Fin 1 → IVec S16 32) a x).toNat < S100000.size a)
instance k1_chk51.dec : ∀ (v192 : IVec S16 32), Decidable (k1_chk51 v192) := fun v192 => decidable_of_iff' _ (Iff.of_eq (k1_chk51.eq_1 v192))
theorem k1_idx51_inb : ∀ (v192 : IVec S16 32) (k1_hw51 : k1_chk51 v192), ∀ a x, ((![v192] : Fin 1 → IVec S16 32) a x).toNat < S100000.size a := fun v192 k1_hw51 => k1_hw51
def k1_off56 (k1_t4 : Fin k1_t4_loop.trips) : Fin 1 → Nat :=
  let c0_i32_17 : BitVec 32 := 0#32
  let c1_i32_19 : BitVec 32 := 1#32
  let arg10 : BitVec 32 := Scf.iv c0_i32_17 c1_i32_19 k1_t4
  let c200_i32 : BitVec 32 := 200#32
  let v18 : BitVec 32 := Scalar.muli arg10 c200_i32
  let c192_i32 : BitVec 32 := 192#32
  let v201 : BitVec 32 := Scalar.addi v18 c192_i32
  let v202 : Index := Scalar.indexCast v201
  ![v202.toNat]

def k1_chk52 (v208 : IVec S16 32) : Prop :=
  (∀ a x, ((![v208] : Fin 1 → IVec S16 32) a x).toNat < S100000.size a)
instance k1_chk52.dec : ∀ (v208 : IVec S16 32), Decidable (k1_chk52 v208) := fun v208 => decidable_of_iff' _ (Iff.of_eq (k1_chk52.eq_1 v208))
theorem k1_idx52_inb : ∀ (v208 : IVec S16 32) (k1_hw52 : k1_chk52 v208), ∀ a x, ((![v208] : Fin 1 → IVec S16 32) a x).toNat < S100000.size a := fun v208 k1_hw52 => k1_hw52
def k1_off57 (k1_t4 : Fin k1_t4_loop.trips) : Fin 1 → Nat :=
  let c96_i32_89 : BitVec 32 := 96#32
  let c0_i32_17 : BitVec 32 := 0#32
  let c1_i32_19 : BitVec 32 := 1#32
  let arg10 : BitVec 32 := Scf.iv c0_i32_17 c1_i32_19 k1_t4
  let v217 : BitVec 32 := Scalar.addi c96_i32_89 arg10
  let c16_i32_90 : BitVec 32 := 16#32
  let v218 : BitVec 32 := Scalar.muli v217 c16_i32_90
  let v219 : Index := Scalar.indexCast v218
  ![v219.toNat]
def k1_off58 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v17 : BitVec 32 := Scalar.muli v1 c2048_i32
  ![v17.toNat]
abbrev grid2 : Pipeline.Grid := ⟨1, ![16], ![false]⟩

def k2_off1 (i : grid2.Coords) : Fin 2 → Nat :=
  let arg0 : BitVec 32 := BitVec.ofNat 32 (i 0).val
  let c256_i32 : BitVec 32 := 256#32
  let v3 : BitVec 32 := Scalar.muli arg0 c256_i32
  let v4 : Index := Scalar.indexCast v3
  let c0 : Index := 0#32
  ![v4.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S4096x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S4096x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x200 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x200 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S64x1_S1x64 : S64x1.ShapeCasts S1x64
  inb_S5000x64_S5000x64_0_0 : ∀ a, (![0, 0] : Fin 2 → Nat) a + S5000x64.size a ≤ S5000x64.size a
  h_S5000x64 : 0 < S5000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  shapeCasts_S4096x200_S819200 : S4096x200.ShapeCasts S819200
  iota_S16_d0_w32_scVector : S16.Iotas .scVector 32 [0]
  inb_S6416_S6400_0 : ∀ a, (![0] : Fin 1 → Nat) a + S6400.size a ≤ S6416.size a
  h_S16 : 0 < S16.numel
  h_S100000 : 0 < S100000.numel
  shapeCasts_S65536_S4096x16 : S65536.ShapeCasts S4096x16
  shapeCasts_S1_S1x1 : S1.ShapeCasts S1x1
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  reduces_S4096x16_S4096 : S4096x16.Reduces [1] S4096
  shapeCasts_S4096_S4096x1 : S4096.ShapeCasts S4096x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S4096x1_S1x4096x1 : S4096x1.ShapeCasts S1x4096x1
  reduces_S1x4096x1_S1 : S1x4096x1.Reduces [1, 2] S1
  shapeCasts_S1_S1x1x1 : S1.ShapeCasts S1x1x1
  inpos_S1x1x1_p0_0_0 : ∀ a, (![0, 0, 0] : Fin 3 → Nat) a < S1x1x1.size a
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1_S1_0 : ∀ a, (![0] : Fin 1 → Nat) a + S1.size a ≤ S1.size a
  numel1_S1 : S1.numel = 1
  h_S256x1 : 0 < S256x1.numel
  inb_S256x200_S256x200_0_0 : ∀ a, (![0, 0] : Fin 2 → Nat) a + S256x200.size a ≤ S256x200.size a
  h_S256x200 : 0 < S256x200.numel
  shapeCasts_S256x1_S256x1 : S256x1.ShapeCasts S256x1
  broadcasts_S256x1_S256x200 : S256x1.Broadcasts S256x200
  hcc1_scoped0 : 5 + S_.numel ≤ 19
  hcc1_scoped1 : 6 + S_.numel ≤ 19
  hcc1_scoped2 : 7 + S_.numel ≤ 19
  hcc1_scoped3 : 8 + S_.numel ≤ 19
  hcc1_scoped4 : 9 + S_.numel ≤ 19
  hcc1_scoped5 : 10 + S_.numel ≤ 19
  hcc1_scoped6 : 11 + S_.numel ≤ 19
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ (r : Fin 4), ∀ a, (k1_off1 i (BitVec.ofNat 32 (6400 * r.val))) a + S6400.size a ≤ S819200.size a
  k1_t1_ok : k1_t1_loop.OK
  k1_off2_inb : ∀ k1_t1 : Fin k1_t1_loop.trips, ∀ a, (k1_off2 k1_t1) a + S16.size a ≤ S6416.size a
  k1_off3_inb : ∀ k1_t1 : Fin k1_t1_loop.trips, ∀ a, (k1_off3 k1_t1) a + S16.size a ≤ S6416.size a
  k1_off4_inb : ∀ k1_t1 : Fin k1_t1_loop.trips, ∀ a, (k1_off4 k1_t1) a + S16.size a ≤ S6416.size a
  k1_off5_inb : ∀ k1_t1 : Fin k1_t1_loop.trips, ∀ a, (k1_off5 k1_t1) a + S16.size a ≤ S6416.size a
  k1_off6_inb : ∀ k1_t1 : Fin k1_t1_loop.trips, ∀ a, (k1_off6 k1_t1) a + S16.size a ≤ S6416.size a
  k1_off7_inb : ∀ k1_t1 : Fin k1_t1_loop.trips, ∀ a, (k1_off7 k1_t1) a + S16.size a ≤ S6416.size a
  k1_off8_inb : ∀ k1_t1 : Fin k1_t1_loop.trips, ∀ a, (k1_off8 k1_t1) a + S16.size a ≤ S6416.size a
  k1_off9_inb : ∀ k1_t1 : Fin k1_t1_loop.trips, ∀ a, (k1_off9 k1_t1) a + S16.size a ≤ S6416.size a
  k1_off10_inb : ∀ k1_t1 : Fin k1_t1_loop.trips, ∀ a, (k1_off10 k1_t1) a + S16.size a ≤ S6416.size a
  k1_off11_inb : ∀ k1_t1 : Fin k1_t1_loop.trips, ∀ a, (k1_off11 k1_t1) a + S16.size a ≤ S6416.size a
  k1_off12_inb : ∀ k1_t1 : Fin k1_t1_loop.trips, ∀ a, (k1_off12 k1_t1) a + S16.size a ≤ S6416.size a
  k1_off13_inb : ∀ k1_t1 : Fin k1_t1_loop.trips, ∀ a, (k1_off13 k1_t1) a + S16.size a ≤ S6416.size a
  k1_off14_inb : ∀ k1_t1 : Fin k1_t1_loop.trips, ∀ a, (k1_off14 k1_t1) a + S16.size a ≤ S6416.size a
  k1_off15_inb : ∀ k1_t1 : Fin k1_t1_loop.trips, ∀ a, (k1_off15 k1_t1) a + S16.size a ≤ S2048.size a
  k1_t2_ok : k1_t2_loop.OK
  k1_off16_inb : ∀ k1_t2 : Fin k1_t2_loop.trips, ∀ a, (k1_off16 k1_t2) a + S16.size a ≤ S6416.size a
  k1_off17_inb : ∀ k1_t2 : Fin k1_t2_loop.trips, ∀ a, (k1_off17 k1_t2) a + S16.size a ≤ S6416.size a
  k1_off18_inb : ∀ k1_t2 : Fin k1_t2_loop.trips, ∀ a, (k1_off18 k1_t2) a + S16.size a ≤ S6416.size a
  k1_off19_inb : ∀ k1_t2 : Fin k1_t2_loop.trips, ∀ a, (k1_off19 k1_t2) a + S16.size a ≤ S6416.size a
  k1_off20_inb : ∀ k1_t2 : Fin k1_t2_loop.trips, ∀ a, (k1_off20 k1_t2) a + S16.size a ≤ S6416.size a
  k1_off21_inb : ∀ k1_t2 : Fin k1_t2_loop.trips, ∀ a, (k1_off21 k1_t2) a + S16.size a ≤ S6416.size a
  k1_off22_inb : ∀ k1_t2 : Fin k1_t2_loop.trips, ∀ a, (k1_off22 k1_t2) a + S16.size a ≤ S6416.size a
  k1_off23_inb : ∀ k1_t2 : Fin k1_t2_loop.trips, ∀ a, (k1_off23 k1_t2) a + S16.size a ≤ S6416.size a
  k1_off24_inb : ∀ k1_t2 : Fin k1_t2_loop.trips, ∀ a, (k1_off24 k1_t2) a + S16.size a ≤ S6416.size a
  k1_off25_inb : ∀ k1_t2 : Fin k1_t2_loop.trips, ∀ a, (k1_off25 k1_t2) a + S16.size a ≤ S6416.size a
  k1_off26_inb : ∀ k1_t2 : Fin k1_t2_loop.trips, ∀ a, (k1_off26 k1_t2) a + S16.size a ≤ S6416.size a
  k1_off27_inb : ∀ k1_t2 : Fin k1_t2_loop.trips, ∀ a, (k1_off27 k1_t2) a + S16.size a ≤ S6416.size a
  k1_off28_inb : ∀ k1_t2 : Fin k1_t2_loop.trips, ∀ a, (k1_off28 k1_t2) a + S16.size a ≤ S6416.size a
  k1_off29_inb : ∀ k1_t2 : Fin k1_t2_loop.trips, ∀ a, (k1_off29 k1_t2) a + S16.size a ≤ S2048.size a
  k1_t3_ok : k1_t3_loop.OK
  k1_off30_inb : ∀ k1_t3 : Fin k1_t3_loop.trips, ∀ a, (k1_off30 k1_t3) a + S16.size a ≤ S6416.size a
  k1_off31_inb : ∀ k1_t3 : Fin k1_t3_loop.trips, ∀ a, (k1_off31 k1_t3) a + S16.size a ≤ S6416.size a
  k1_off32_inb : ∀ k1_t3 : Fin k1_t3_loop.trips, ∀ a, (k1_off32 k1_t3) a + S16.size a ≤ S6416.size a
  k1_off33_inb : ∀ k1_t3 : Fin k1_t3_loop.trips, ∀ a, (k1_off33 k1_t3) a + S16.size a ≤ S6416.size a
  k1_off34_inb : ∀ k1_t3 : Fin k1_t3_loop.trips, ∀ a, (k1_off34 k1_t3) a + S16.size a ≤ S6416.size a
  k1_off35_inb : ∀ k1_t3 : Fin k1_t3_loop.trips, ∀ a, (k1_off35 k1_t3) a + S16.size a ≤ S6416.size a
  k1_off36_inb : ∀ k1_t3 : Fin k1_t3_loop.trips, ∀ a, (k1_off36 k1_t3) a + S16.size a ≤ S6416.size a
  k1_off37_inb : ∀ k1_t3 : Fin k1_t3_loop.trips, ∀ a, (k1_off37 k1_t3) a + S16.size a ≤ S6416.size a
  k1_off38_inb : ∀ k1_t3 : Fin k1_t3_loop.trips, ∀ a, (k1_off38 k1_t3) a + S16.size a ≤ S6416.size a
  k1_off39_inb : ∀ k1_t3 : Fin k1_t3_loop.trips, ∀ a, (k1_off39 k1_t3) a + S16.size a ≤ S6416.size a
  k1_off40_inb : ∀ k1_t3 : Fin k1_t3_loop.trips, ∀ a, (k1_off40 k1_t3) a + S16.size a ≤ S6416.size a
  k1_off41_inb : ∀ k1_t3 : Fin k1_t3_loop.trips, ∀ a, (k1_off41 k1_t3) a + S16.size a ≤ S6416.size a
  k1_off42_inb : ∀ k1_t3 : Fin k1_t3_loop.trips, ∀ a, (k1_off42 k1_t3) a + S16.size a ≤ S6416.size a
  k1_off43_inb : ∀ k1_t3 : Fin k1_t3_loop.trips, ∀ a, (k1_off43 k1_t3) a + S16.size a ≤ S2048.size a
  k1_t4_ok : k1_t4_loop.OK
  k1_off44_inb : ∀ k1_t4 : Fin k1_t4_loop.trips, ∀ a, (k1_off44 k1_t4) a + S16.size a ≤ S6416.size a
  k1_off45_inb : ∀ k1_t4 : Fin k1_t4_loop.trips, ∀ a, (k1_off45 k1_t4) a + S16.size a ≤ S6416.size a
  k1_off46_inb : ∀ k1_t4 : Fin k1_t4_loop.trips, ∀ a, (k1_off46 k1_t4) a + S16.size a ≤ S6416.size a
  k1_off47_inb : ∀ k1_t4 : Fin k1_t4_loop.trips, ∀ a, (k1_off47 k1_t4) a + S16.size a ≤ S6416.size a
  k1_off48_inb : ∀ k1_t4 : Fin k1_t4_loop.trips, ∀ a, (k1_off48 k1_t4) a + S16.size a ≤ S6416.size a
  k1_off49_inb : ∀ k1_t4 : Fin k1_t4_loop.trips, ∀ a, (k1_off49 k1_t4) a + S16.size a ≤ S6416.size a
  k1_off50_inb : ∀ k1_t4 : Fin k1_t4_loop.trips, ∀ a, (k1_off50 k1_t4) a + S16.size a ≤ S6416.size a
  k1_off51_inb : ∀ k1_t4 : Fin k1_t4_loop.trips, ∀ a, (k1_off51 k1_t4) a + S16.size a ≤ S6416.size a
  k1_off52_inb : ∀ k1_t4 : Fin k1_t4_loop.trips, ∀ a, (k1_off52 k1_t4) a + S16.size a ≤ S6416.size a
  k1_off53_inb : ∀ k1_t4 : Fin k1_t4_loop.trips, ∀ a, (k1_off53 k1_t4) a + S16.size a ≤ S6416.size a
  k1_off54_inb : ∀ k1_t4 : Fin k1_t4_loop.trips, ∀ a, (k1_off54 k1_t4) a + S16.size a ≤ S6416.size a
  k1_off55_inb : ∀ k1_t4 : Fin k1_t4_loop.trips, ∀ a, (k1_off55 k1_t4) a + S16.size a ≤ S6416.size a
  k1_off56_inb : ∀ k1_t4 : Fin k1_t4_loop.trips, ∀ a, (k1_off56 k1_t4) a + S16.size a ≤ S6416.size a
  k1_off57_inb : ∀ k1_t4 : Fin k1_t4_loop.trips, ∀ a, (k1_off57 k1_t4) a + S16.size a ≤ S2048.size a
  k1_off58_inb : ∀ i : grid1.Coords, ∀ a, (k1_off58 i) a + S2048.size a ≤ S65536.size a
  hrank2 : 0 < grid2.rank
  k2_off1_inb : ∀ i : grid2.Coords, ∀ a, (k2_off1 i) a + S256x1.size a ≤ S4096x1.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x16.size a ≤ S4096x16.size a
  hwx2_0 : ∀ i : grid2.Coords, EltTy.bits .f32 = 32 ∨ (Rect.block (s := S4096x16) S4096x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x16.size a ≤ S4096x16.size a
  hwx2_1 : ∀ i : grid2.Coords, EltTy.bits .f32 = 32 ∨ (Rect.block (s := S4096x16) S4096x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x200.size a ≤ S4096x200.size a
  hwx2_3 : ∀ i : grid2.Coords, EltTy.bits .i32 = 32 ∨ (Rect.block (s := S4096x200) S256x200.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x200.size a ≤ S4096x200.size a
  hwx2_4 : ∀ i : grid2.Coords, EltTy.bits .f32 = 32 ∨ (Rect.block (s := S4096x200) S256x200.size (cc2_transform_4 i) (hinb2_4 i)).WholeWords (EltTy.packing .f32)

variable [Facts₀]

abbrev cc1_scoped0 : DmaSems sig S_ := SemArray.consecutive 5 S_ hcc1_scoped0
abbrev cc1_scoped1 : DmaSems sig S_ := SemArray.consecutive 6 S_ hcc1_scoped1
abbrev cc1_scoped2 : DmaSems sig S_ := SemArray.consecutive 7 S_ hcc1_scoped2
abbrev cc1_scoped3 : DmaSems sig S_ := SemArray.consecutive 8 S_ hcc1_scoped3
abbrev cc1_scoped4 : DmaSems sig S_ := SemArray.consecutive 9 S_ hcc1_scoped4
abbrev cc1_scoped5 : DmaSems sig S_ := SemArray.consecutive 10 S_ hcc1_scoped5
abbrev cc1_scoped6 : DmaSems sig S_ := SemArray.consecutive 11 S_ hcc1_scoped6

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpec (Memref.whole main_v5) S4096x16.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v6) S4096x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S256x200.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S256x200.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4096x200 : Shape := ⟨2, ![4096, 200]⟩
abbrev S100000x64 : Shape := ⟨2, ![100000, 64]⟩
abbrev S64x1 : Shape := ⟨2, ![64, 1]⟩
abbrev S1 : Shape := ⟨1, ![1]⟩
abbrev S_ : Shape := ⟨0, ![]⟩
abbrev S4096x200x1 : Shape := ⟨3, ![4096, 200, 1]⟩
abbrev S1x1x1 : Shape := ⟨3, ![1, 1, 1]⟩
abbrev S4096x200x64 : Shape := ⟨3, ![4096, 200, 64]⟩
abbrev S4096x64 : Shape := ⟨2, ![4096, 64]⟩
abbrev S4096x1 : Shape := ⟨2, ![4096, 1]⟩
abbrev S1x1 : Shape := ⟨2, ![1, 1]⟩
abbrev S819200 : Shape := ⟨1, ![819200]⟩

abbrev nBuf : Space → Nat
  | .hbm => 75
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x64, .f32⟩
  | .hbm, ⟨2, _⟩ => ⟨S64x1, .f32⟩
  | .hbm, ⟨3, _⟩ => ⟨S1, .f32⟩
  | .hbm, ⟨4, _⟩ => ⟨S_, .i32⟩
  | .hbm, ⟨5, _⟩ => ⟨S4096x200, .i32⟩
  | .hbm, ⟨6, _⟩ => ⟨S4096x200, .i1⟩
  | .hbm, ⟨7, _⟩ => ⟨S4096x200, .f32⟩
  | .hbm, ⟨8, _⟩ => ⟨S4096x200x1, .f32⟩
  | .hbm, ⟨9, _⟩ => ⟨S_, .i32⟩
  | .hbm, ⟨10, _⟩ => ⟨S4096x200, .i32⟩
  | .hbm, ⟨11, _⟩ => ⟨S4096x200, .i1⟩
  | .hbm, ⟨12, _⟩ => ⟨S_, .i32⟩
  | .hbm, ⟨13, _⟩ => ⟨S4096x200, .i32⟩
  | .hbm, ⟨14, _⟩ => ⟨S4096x200, .i32⟩
  | .hbm, ⟨15, _⟩ => ⟨S4096x200, .i32⟩
  | .hbm, ⟨16, _⟩ => ⟨S4096x200x1, .i32⟩
  | .hbm, ⟨17, _⟩ => ⟨S1, .i32⟩
  | .hbm, ⟨18, _⟩ => ⟨S_, .i32⟩
  | .hbm, ⟨19, _⟩ => ⟨S4096x200x1, .i32⟩
  | .hbm, ⟨20, _⟩ => ⟨S4096x200x1, .i1⟩
  | .hbm, ⟨21, _⟩ => ⟨S1x1x1, .i32⟩
  | .hbm, ⟨22, _⟩ => ⟨S4096x200x1, .i32⟩
  | .hbm, ⟨23, _⟩ => ⟨S4096x200x1, .i1⟩
  | .hbm, ⟨24, _⟩ => ⟨S4096x200x1, .i1⟩
  | .hbm, ⟨25, _⟩ => ⟨S_, .i1⟩
  | .hbm, ⟨26, _⟩ => ⟨S4096x200, .i1⟩
  | .hbm, ⟨27, _⟩ => ⟨S4096x200x64, .f32⟩
  | .hbm, ⟨28, _⟩ => ⟨S4096x200x64, .i1⟩
  | .hbm, ⟨29, _⟩ => ⟨S_, .f32⟩
  | .hbm, ⟨30, _⟩ => ⟨S4096x200x64, .f32⟩
  | .hbm, ⟨31, _⟩ => ⟨S4096x200x64, .f32⟩
  | .hbm, ⟨32, _⟩ => ⟨S4096x200x64, .f32⟩
  | .hbm, ⟨33, _⟩ => ⟨S4096x200x64, .f32⟩
  | .hbm, ⟨34, _⟩ => ⟨S_, .f32⟩
  | .hbm, ⟨35, _⟩ => ⟨S4096x64, .f32⟩
  | .hbm, ⟨36, _⟩ => ⟨S_, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x64, .f32⟩
  | .hbm, ⟨42, _⟩ => ⟨S4096x64, .f32⟩
  | .hbm, ⟨43, _⟩ => ⟨S4096x1, .f32⟩
  | .hbm, ⟨44, _⟩ => ⟨S1x1, .f32⟩
  | .hbm, ⟨45, _⟩ => ⟨S4096x1, .f32⟩
  | .hbm, ⟨46, _⟩ => ⟨S4096x1, .f32⟩
  | .hbm, ⟨47, _⟩ => ⟨S_, .i32⟩
  | .hbm, ⟨48, _⟩ => ⟨S4096x200, .i32⟩
  | .hbm, ⟨49, _⟩ => ⟨S4096x200, .i1⟩
  | .hbm, ⟨50, _⟩ => ⟨S4096x200, .f32⟩
  | .hbm, ⟨51, _⟩ => ⟨S4096x200, .f32⟩
  | .hbm, ⟨52, _⟩ => ⟨S4096x200, .f32⟩
  | .hbm, ⟨53, _⟩ => ⟨S_, .f32⟩
  | .hbm, ⟨54, _⟩ => ⟨S4096x200, .f32⟩
  | .hbm, ⟨55, _⟩ => ⟨S4096x200, .f32⟩
  | .hbm, ⟨56, _⟩ => ⟨S_, .f32⟩
  | .hbm, ⟨57, _⟩ => ⟨S4096x200, .f32⟩
  | .hbm, ⟨58, _⟩ => ⟨S4096x200, .f32⟩
  | .hbm, ⟨59, _⟩ => ⟨S4096x200, .f32⟩
  | .hbm, ⟨60, _⟩ => ⟨S819200, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1, .f32⟩
  | .hbm, ⟨66, _⟩ => ⟨S819200, .f32⟩
  | .hbm, ⟨67, _⟩ => ⟨S819200, .f32⟩
  | .hbm, ⟨68, _⟩ => ⟨S819200, .f32⟩
  | .hbm, ⟨69, _⟩ => ⟨S_, .f32⟩
  | .hbm, ⟨70, _⟩ => ⟨S_, .f32⟩
  | .hbm, ⟨71, _⟩ => ⟨S1, .f32⟩
  | .hbm, ⟨72, _⟩ => ⟨S819200, .f32⟩
  | .hbm, ⟨73, _⟩ => ⟨S819200, .f32⟩
  | .hbm, ⟨74, _⟩ => ⟨S4096x200, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_cst_0 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_2 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_3 : Ref sig .tc := ⟨.hbm, 53, rfl⟩
abbrev main_v22 : Ref sig .tc := ⟨.hbm, 54, rfl⟩
abbrev main_v23 : Ref sig .tc := ⟨.hbm, 55, rfl⟩
abbrev main_cst_4 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_5 : Ref sig .tc := ⟨.hbm, 61, rfl⟩
abbrev main_v28 : Ref sig .tc := ⟨.hbm, 62, rfl⟩
abbrev main_cst_6 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_7 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  bcast_S4096x200x1_S4096x200x64_0_1_2 : S4096x200x1.BroadcastsInDim S4096x200x64 (![0, 1, 2] : Fin 3 → Fin S4096x200x64.rank)
  reducesTo_S4096x200x64_S4096x64_d1 : S4096x200x64.ReducesTo [1] S4096x64
  reducesTo_S4096x200x1_S4096x1_d1 : S4096x200x1.ReducesTo [1] S4096x1
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S4096x1_S4096x200_0_1 : S4096x1.BroadcastsInDim S4096x200 (![0, 1] : Fin 2 → Fin S4096x200.rank)
  shapeCasts_S4096x200_S819200 : S4096x200.ShapeCasts S819200
  reducesTo_S819200_S_d0 : S819200.ReducesTo [0] S_
  bcast_S_S1 : S_.BroadcastsInDim S1 (![] : Fin 0 → Fin S1.rank)
  bcast_S1_S819200_0 : S1.BroadcastsInDim S819200 (![0] : Fin 1 → Fin S819200.rank)
  shapeCasts_S819200_S4096x200 : S819200.ShapeCasts S4096x200
  gather_S100000x64_S4096x200x1_S4096x200x64_2_0_n_n_0_2_164_wf : GatherDims.WF S100000x64 S4096x200x1 S4096x200x64 [2] [0] [] [0] [] 2 ![1, 64]
  dot_S4096x64_S64x1_S4096x1_1_0_0_1_n_n_wf : DotDims.WF S4096x64 S64x1 S4096x1 [1] [0] [0] [1] [] []

variable [Facts₀]

def gather_S100000x64_S4096x200x1_S4096x200x64_2_0_n_n_0_2_164 : GatherDims S100000x64 S4096x200x1 S4096x200x64 where
  offsetDims := [2]
  collapsedSliceDims := [0]
  operandBatchingDims := []
  startIndicesBatchingDims := []
  startIndexMap := [0]
  indexVectorDim := 2
  sliceSizes := ![1, 64]
  wf := gather_S100000x64_S4096x200x1_S4096x200x64_2_0_n_n_0_2_164_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.Common.lean ====
/-
  The program as the SparseCore launch theorem sees it, and the resource algebra shared by every part of the
  frame proof: the label signature of the two TensorCore pipelines under the SparseCore calls, the SparseCore
  configuration, the body table, the variants, and a ghost state with three components — the rounds of the
  four handshake semaphores, the rounds of the two pipelines' staging cells, and the counters of the tiles'
  local transfers.
-/
import proofs.«203204_g25512105739078_cont_8to1_1946_3_alg».proof.KernelIdeal
import proofs.«203204_g25512105739078_cont_8to1_1946_3_alg».proof.Proof.Gen.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The rounds of the two pipelines' staging cells. -/
abbrev UP : Type := URounds (GSem nD τ sig) Unit
/-- Handshakes, pipelines, and the counters of the tiles' local transfers (found by instance). -/
abbrev UU : Type := UH × (UP × Counters)

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by
  unfold EH; infer_instance
instance EP_landsIn : (EP : Emb UP (MT nD τ sig (HIx 1) (Elt F) ℕ UU ℕ)).LandsIn (upEmb : UEmb _ (MT nD τ sig (HIx 1) (Elt F) ℕ UU ℕ)) := by
  unfold EP; infer_instance

example : CountersIn UU := inferInstance

end Cert.KernelIdeal.Hand

end
-- ==== Proof.Matvec.lean ====
/-
  The first TensorCore region: a matrix–vector product over 20 blocks of 5000 rows.
  What the body leaves in the output block as a function of the two input blocks, the body's
  triple, the region's proof data over a valuation of the core's unscoped buffers, and the body
  obligation at every point.
-/
import proofs.«203204_g25512105739078_cont_8to1_1946_3_alg».proof.Proof.Common
import proofs.«203204_g25512105739078_cont_8to1_1946_3_alg».proof.Proof.Gen.KernelIdeal.Launch
import proofs.«203204_g25512105739078_cont_8to1_1946_3_alg».proof.Proof.Gen.KernelIdeal.Skeleton
import proofs.«203204_g25512105739078_cont_8to1_1946_3_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand.Region

open Cert.KernelIdeal Cert.KernelIdeal.Gen Cert.KernelIdeal.Hand

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- A valuation of a core's TensorCore buffers. -/
abbrev TcVal (F : FTy → Type) (c : Dev nD) : Type := (b : Ref sig .tc) → Buf (Elt F) ((c : Thread nD τ).loc b)

/-- No pipeline has a prefetched table: the admissible contents are the trivial ones. -/
abbrev adm : (p : Fin 2) → (pcfgs (F := F) p).Adm := fun p => (cfgs p).toPCfg_adm

/-! ## The blocks -/

/-- Window `w`'s block at point `t`, read off its array at the valuation. -/
def iblk0 {c : Dev nD} (Vb : TcVal F c) (w : Fin cfg0.W) (t : Fin cfg0.N) : ((cfg0.win w).xblock (cfg0.grid.coords t)).Idx → Elt F (cfg0.win w).elt :=
  ((cfg0.win w).blk t).view.read (Elt F) (Vb (Pipeline.arrRef spec0 w))

abbrev r5000x64 : Rect S5000x64 := Rect.unit (s := S5000x64) ![0, 0] S5000x64.size inb_S5000x64_S5000x64_0_0
abbrev r1x64 : Rect S1x64 := Rect.unit (s := S1x64) ![0, 0] S1x64.size inb_S1x64_S1x64_0_0
abbrev r5000x1 : Rect S5000x1 := Rect.unit (s := S5000x1) ![0, 0] S5000x1.size inb_S5000x1_S5000x1_0_0

/-- The output block after the body: its one store, which covers the buffer, of the row sums of the products. -/
def matvecBlk (x0 : Vec F S5000x64 .f32) (x1 : Vec F S1x64 .f32) : Vec F S5000x1 .f32 :=
  View.canon [⟨r5000x1, k0_pay1 (View.ld x0 r5000x64) (View.ld x1 r1x64)⟩]

theorem cover5000x1 (p0 : Vec F S5000x1 .f32) (y : S5000x1.Idx) :
    ∃ pc ∈ ([⟨r5000x1, p0⟩] : List (View.Piece (Elt F) S5000x1 .f32)), y ∈ pc.1.set :=
  View.cover_of_tiled [⟨r5000x1, p0⟩] S5000x1.size (by rfl) y

set_option maxHeartbeats 1000000 in
/-- The body on whole staging memrefs: the inputs' contents stay, the output's becomes `matvecBlk` of them. -/
theorem sound_kernel0 (c : Dev nD) (E : Set ℕ) (i : grid0.Coords) (arg1 : Memref sig .tc .vmem S5000x64 .f32) (harg1 : arg1.IsWhole) (arg2 : Memref sig .tc .vmem S1x64 .f32) (harg2 : arg2.IsWhole) (arg3 : Memref sig .tc .vmem S5000x1 .f32) (harg3 : arg3.IsWhole)
    (x0 : Vec F S5000x64 .f32) (x1 : Vec F S1x64 .f32) (Q : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (matvecBlk x0 x1)) -∗ Q ⟨⟩))
      ⊢ wp frame (wpE (defs₀ (F := F)) Variants.none c none) E (cc0__matvec_body i arg1 harg1 arg2 harg2 arg3 harg3) Q := by
  simp only [cc0__matvec_body_eq_skeleton]; unfold cc0__matvec_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5000x1 _)

/-! ## The proof data -/

/-- The region's proof data on core `c`, over a valuation `Vb` of the core's unscoped buffers, the
    tallies `O` the core owes throughout (the body signals nothing) and a bound `R` on the pairs its waits have
    recorded (the body waits on nothing): the arrays at the valuation; after the
    body each input's buffer at its block and the output's at `matvecBlk` of the two blocks; the invariant
    the scoped buffers that are no staging buffer of this region, untouched; full shares. -/
def dat0 (O : CellTallies nD τ sig (HIx 1)) (R : Set (SemLoc sig × HIx 1)) {c : Dev nD} (Vb : TcVal F c) : Dat τ (Elt F) (HIx 1) ℕ UU ℕ cfg0 c where
  A w := Vb (Pipeline.arrRef spec0 w)
  after w t := match w with
    | ⟨0, _⟩ => iblk0 Vb 0 t
    | ⟨1, _⟩ => iblk0 Vb 1 t
    | ⟨2, _⟩ => matvecBlk (iblk0 Vb 0 t) (iblk0 Vb 1 t)
  Φ _ := Pipeline.scopedRest spec0 c
  q _ := fullShare
  owed _ := O
  recorded _ := R

variable (O : CellTallies nD τ sig (HIx 1)) (R : Set (SemLoc sig × HIx 1)) {c : Dev nD} (Vb : TcVal F c)

theorem dat0_A (w : Fin cfg0.W) : (dat0 O R Vb).A w = Vb (Pipeline.arrRef spec0 w) := by dsimp only [dat0]
theorem dat0_after_0 (t : Fin cfg0.N) : (dat0 O R Vb).after 0 t = iblk0 Vb 0 t := by dsimp only [dat0]
theorem dat0_after_1 (t : Fin cfg0.N) : (dat0 O R Vb).after 1 t = iblk0 Vb 1 t := by dsimp only [dat0]
theorem dat0_after_2 (t : Fin cfg0.N) : (dat0 O R Vb).after 2 t = matvecBlk (iblk0 Vb 0 t) (iblk0 Vb 1 t) := by dsimp only [dat0]
theorem dat0_Φ (t : Fin (cfg0.N + 1)) : (dat0 O R Vb).Φ t = Pipeline.scopedRest spec0 c := rfl
theorem dat0_owed (t : Fin (cfg0.N + 1)) : (dat0 O R Vb).owed t = O := rfl
theorem dat0_recorded (t : Fin (cfg0.N + 1)) : (dat0 O R Vb).recorded t = R := rfl
theorem dat0_share (w : Fin cfg0.W) : (dat0 O R Vb).share w = fullShare := (dat0 O R Vb).share_full (fun _ => rfl) w

/-- Each input's current staging buffer holds its block at every point, fetched there or not. -/
theorem dat0_before_0 (t : Fin cfg0.N) (d) : (dat0 O R Vb).before 0 t d = iblk0 Vb 0 t :=
  ((dat0 O R Vb).before_in_eq_fetched 0 rfl (fun _ => rfl) (fun _ _ _ => rfl) (fun t => by rw [dat0_after_0]; unfold Dat.blockOf iblk0; rw [dat0_A]; try rfl) t d).trans
    (by unfold Dat.fetched Dat.blockOf iblk0; rw [dat0_A]; try rfl)
theorem dat0_before_1 (t : Fin cfg0.N) (d) : (dat0 O R Vb).before 1 t d = iblk0 Vb 1 t :=
  ((dat0 O R Vb).before_in_eq_fetched 1 rfl (fun _ => rfl) (fun _ _ _ => rfl) (fun t => by rw [dat0_after_1]; unfold Dat.blockOf iblk0; rw [dat0_A]; try rfl) t d).trans
    (by unfold Dat.fetched Dat.blockOf iblk0; rw [dat0_A]; try rfl)

/-! ## The body obligation -/

/-- The body at any point: the inputs' memrefs hold their blocks, so the kernel's triple applies; the invariant
    and what the core owes pass through unread. -/
theorem sound_body0 (t : Fin cfg0.N) :
    iprop((dat0 O R Vb).Φ t.castSucc ∗ (dat0 O R Vb).owesAt (none : HIx 1) t.castSucc
        ∗ (∃ d, owns (c : Thread nD τ) (st0_0 t) fullShare ((dat0 O R Vb).before 0 t d))
        ∗ (∃ d, owns (c : Thread nD τ) (st0_1 t) fullShare ((dat0 O R Vb).before 1 t d))
        ∗ (∃ d, owns (c : Thread nD τ) (st0_2 t) fullShare ((dat0 O R Vb).before 2 t d)))
      ⊢ wp frame (wpE (defs₀ (F := F)) Variants.none c none) Set.univ (bodyAt0 t) (fun _ =>
        (iprop((dat0 O R Vb).Φ t.succ ∗ (dat0 O R Vb).owesAt (none : HIx 1) t.succ
          ∗ owns (c : Thread nD τ) (st0_0 t) fullShare ((dat0 O R Vb).after 0 t)
          ∗ owns (c : Thread nD τ) (st0_1 t) fullShare ((dat0 O R Vb).after 1 t)
          ∗ owns (c : Thread nD τ) (st0_2 t) fullShare ((dat0 O R Vb).after 2 t)) : sProp 𝕄)) := by
  unfold bodyAt0
  simp only [dat0_before_0, dat0_before_1]
  rw [show (dat0 O R Vb).Φ t.succ = (dat0 O R Vb).Φ t.castSucc from rfl,
    show (dat0 O R Vb).owesAt (none : HIx 1) t.succ = (dat0 O R Vb).owesAt (none : HIx 1) t.castSucc from rfl,
    dat0_after_0, dat0_after_1, dat0_after_2]
  iintro ⟨HΦ, Ho, ⟨%d0, H0⟩, ⟨%d1, H1⟩, ⟨%d2, H2⟩⟩
  iapply (sound_kernel0 c Set.univ (grid0.coords t) _ _ _ _ _ _ (iblk0 Vb 0 t) (iblk0 Vb 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 : BodyObligation (dat0 O R Vb) (defs₀ (F := F)) Variants.none (none : HIx 1) Set.univ := fun t => by
  rw [bigSep_W0, bigSep_W0]
  exact sound_body0 O R Vb t

end Cert.KernelIdeal.Hand.Region

end
-- ==== Proof.Softmax.lean ====
/-
  The second TensorCore region: at its first point the body reduces the pooled sums and counts to
  one softmax weight per row and one weight for the masked entries, which it keeps in two scratch
  buffers; at every point it writes one block of 256 rows of the result from them and the labels.
  What the scratch buffers and the output block hold as functions of the inputs, the body's triple in
  its two control cases, the region's proof data over a valuation of the core's unscoped buffers, and
  the body obligation at every point.
-/
import proofs.«203204_g25512105739078_cont_8to1_1946_3_alg».proof.Proof.Common
import proofs.«203204_g25512105739078_cont_8to1_1946_3_alg».proof.Proof.Gen.KernelIdeal.Launch
import proofs.«203204_g25512105739078_cont_8to1_1946_3_alg».proof.Proof.Gen.KernelIdeal.Skeleton
import proofs.«203204_g25512105739078_cont_8to1_1946_3_alg».proof.Proof.Gen.KernelIdeal.Points
import proofs.«203204_g25512105739078_cont_8to1_1946_3_alg».proof.Proof.Matvec
import Idealize.ShloMosaic.Lib.Pipeline.FrameBody
import Idealize.ShloMosaic.Lib.Pipeline.Value
import Idealize.ShloMosaic.Lib.Tactic

set_option maxRecDepth 16384

noncomputable section

namespace Cert.KernelIdeal.Hand.Region

open Cert.KernelIdeal Cert.KernelIdeal.Gen Cert.KernelIdeal.Hand

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The rectangles the body names -/

abbrev r4096x16 : Rect S4096x16 := Rect.unit (s := S4096x16) ![0, 0] S4096x16.size inb_S4096x16_S4096x16_0_0
abbrev r1x1 : Rect S1x1 := Rect.unit (s := S1x1) ![0, 0] S1x1.size inb_S1x1_S1x1_0_0
abbrev r256x200 : Rect S256x200 := Rect.unit (s := S256x200) ![0, 0] S256x200.size inb_S256x200_S256x200_0_0
abbrev r4096x1 : Rect S4096x1 := Rect.unit (s := S4096x1) ![0, 0] S4096x1.size inb_S4096x1_S4096x1_0_0
abbrev rS1 : Rect S1 := Rect.unit (s := S1) ![0] S1.size inb_S1_S1_0
/-- The 256 rows of the per-row weights that point `i` reads. -/
abbrev rRows (i : grid2.Coords) : Rect S4096x1 := Rect.unit (s := S4096x1) (k2_off1 i) S256x1.size (k2_off1_inb i)

theorem zeros2 : (![0, 0] : Fin 2 → Nat) = fun _ => 0 := by funext a; fin_cases a <;> rfl
theorem zeros1 : (![0] : Fin 1 → Nat) = fun _ => 0 := by funext a; fin_cases a; rfl

/-! ## What the body computes -/

/-- The per-row weights the first point leaves in the first scratch buffer: e / denom. -/
def softA (x0 x1 : Vec F S4096x16 .f32) (x2 : Vec F S1x1 .f32) : Vec F S4096x1 .f32 :=
  k2_pay2 (k2_pay9 (View.ld x0 r4096x16) (View.ld x1 r4096x16) (View.ld x2 r1x1))
    (k2_pay11 (View.ld x0 r4096x16) (View.ld x1 r4096x16) (View.ld x2 r1x1))
    (k2_pay12 (View.ld x0 r4096x16) (View.ld x1 r4096x16) (View.ld x2 r1x1))

/-- The weight of a masked entry: e_neg / denom; -/
def softSmS (x0 x1 : Vec F S4096x16 .f32) (x2 : Vec F S1x1 .f32) : Elt F .f32 :=
  k2_pay3 (k2_pay10 (View.ld x0 r4096x16) (View.ld x1 r4096x16) (View.ld x2 r1x1))
    (k2_pay11 (View.ld x0 r4096x16) (View.ld x1 r4096x16) (View.ld x2 r1x1))
    (k2_pay12 (View.ld x0 r4096x16) (View.ld x1 r4096x16) (View.ld x2 r1x1))

/-- as the one word of the second scratch buffer. -/
def softSm (x0 x1 : Vec F S4096x16 .f32) (x2 : Vec F S1x1 .f32) : Vec F S1 .f32 := fun _ => softSmS x0 x1 x2

/-- The one word of a one-word buffer. -/
def smAt (sm : Vec F S1 .f32) : Elt F .f32 := View.ld sm rS1 (Shape.Idx.first (numel1_S1.symm ▸ Nat.one_pos))

theorem smAt_softSm (x0 x1 : Vec F S4096x16 .f32) (x2 : Vec F S1x1 .f32) : smAt (softSm x0 x1 x2) = softSmS x0 x1 x2 := rfl

/-- The output block at point `i`: its one store, which covers the buffer — where the label is positive the row's
    weight, elsewhere the masked weight. -/
def softBlk (a : Vec F S4096x1 .f32) (sm : Vec F S1 .f32) (i : grid2.Coords) (lab : Vec F S256x200 .i32) : Vec F S256x200 .f32 :=
  View.canon [⟨r256x200, k2_pay4 (View.ld a (rRows i)) (View.ld lab r256x200) (smAt sm)⟩]

theorem cover256x200 (p0 : Vec F S256x200 .f32) (y : S256x200.Idx) :
    ∃ pc ∈ ([⟨r256x200, p0⟩] : List (View.Piece (Elt F) S256x200 .f32)), y ∈ pc.1.set :=
  View.cover_of_tiled [⟨r256x200, p0⟩] S256x200.size (by rfl) y
theorem cover4096x1 (p0 : Vec F S4096x1 .f32) (y : S4096x1.Idx) :
    ∃ pc ∈ ([⟨r4096x1, p0⟩] : List (View.Piece (Elt F) S4096x1 .f32)), y ∈ pc.1.set :=
  View.cover_of_tiled [⟨r4096x1, p0⟩] S4096x1.size (by rfl) y
theorem coverS1 (p0 : Vec F S1 .f32) (y : S1.Idx) :
    ∃ pc ∈ ([⟨rS1, p0⟩] : List (View.Piece (Elt F) S1 .f32)), y ∈ pc.1.set :=
  View.cover_of_tiled [⟨rS1, p0⟩] S1.size (by rfl) y

/-- The body's conditional is taken at the first point only. -/
theorem cond2 : ∀ t : Fin grid2.N,
    (Scalar.cmpi .ne (Scalar.extui (Scalar.cmpi .eq (BitVec.ofNat 32 ((grid2.coords t) 0).val) 0#32)) 0#32 = 1#1) ↔ t.val = 0 := by
  decide +kernel

/-! ## The body's triple, in its two cases -/

set_option maxHeartbeats 2000000 in
/-- At the first point: the inputs' contents stay; the scratch buffers, whatever they held, end at `softA` and `softSm`
    of the inputs, and the output block at `softBlk` of those and the labels. -/
theorem sound_kernel2_first (c : Dev nD) (E : Set ℕ) (t : Fin grid2.N) (ht : t.val = 0)
    (arg1 : Memref sig .tc .vmem S4096x16 .f32) (harg1 : arg1.IsWhole) (arg2 : Memref sig .tc .vmem S4096x16 .f32) (harg2 : arg2.IsWhole) (arg3 : Memref sig .tc .vmem S1x1 .f32) (harg3 : arg3.IsWhole) (arg4 : Memref sig .tc .vmem S256x200 .i32) (harg4 : arg4.IsWhole) (arg5 : Memref sig .tc .vmem S256x200 .f32) (harg5 : arg5.IsWhole) (arg6 : Memref sig .tc .vmem S4096x1 .f32) (harg6 : arg6.IsWhole) (arg7 : Memref sig .tc .smem S1 .f32) (harg7 : arg7.IsWhole)
    (x0 x1 : Vec F S4096x16 .f32) (x2 : Vec F S1x1 .f32) (x3 : Vec F S256x200 .i32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (softBlk (softA x0 x1 x2) (softSm x0 x1 x2) (grid2.coords t) x3)
            ∗ owns (c : Thread nD τ) arg6 fullShare (softA x0 x1 x2) ∗ owns (c : Thread nD τ) arg7 fullShare (softSm x0 x1 x2)) -∗ Q ⟨⟩))
      ⊢ wp frame (wpE (defs₀ (F := F)) Variants.none c none) E (cc2__softmax_body (grid2.coords t) arg1 harg1 arg2 harg2 arg3 harg3 arg4 harg4 arg5 harg5 arg6 harg6 arg7 harg7) Q := by
  have hc := (cond2 t).mpr ht
  simp only [cc2__softmax_body_eq_skeleton]; unfold cc2__softmax_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  have e5 : ∀ (P : Vec F S4096x1 .f32), View.readAt (Elt F) arg6.view (rRows (grid2.coords t)).toLoadRect (arg6.view.writes (Elt F) arg6.view.junk [⟨r4096x1, P⟩]) = View.ld P (rRows (grid2.coords t)) := fun P =>
    (View.readCov_eq_canon_ld arg6.view [⟨r4096x1, P⟩] (rRows (grid2.coords t)) (cover4096x1 P)).trans (congrArg (fun X => View.ld X (rRows (grid2.coords t))) (View.canon_unit_zero (S := S4096x1) zeros2 _ P))
  isplitl [H4]
  · iexists _; isplitr
    swap; · iexact H4
    ipureintro
    sl_unfold_run_names
    rw [View.read_writes_eq_canon _ _ _ (cover256x200 _), e5]
    rfl
  isplitl [H5]
  · iexists _; isplitr
    swap; · iexact H5
    ipureintro
    sl_unfold_run_names
    rw [View.read_writes_eq_canon _ _ _ (cover4096x1 _)]
    exact View.canon_unit_zero (S := S4096x1) zeros2 _ _
  iexists _; isplitr
  swap; · iexact H6
  ipureintro
  sl_unfold_run_names
  rw [View.read_writes_eq_canon _ _ _ (coverS1 _)]
  exact View.canon_unit_zero (S := S1) zeros1 _ _

set_option maxHeartbeats 2000000 in
/-- At a later point: the scratch buffers are read, not written; the output block ends at `softBlk` of them and the labels. -/
theorem sound_kernel2_rest (c : Dev nD) (E : Set ℕ) (t : Fin grid2.N) (ht : t.val ≠ 0)
    (arg1 : Memref sig .tc .vmem S4096x16 .f32) (harg1 : arg1.IsWhole) (arg2 : Memref sig .tc .vmem S4096x16 .f32) (harg2 : arg2.IsWhole) (arg3 : Memref sig .tc .vmem S1x1 .f32) (harg3 : arg3.IsWhole) (arg4 : Memref sig .tc .vmem S256x200 .i32) (harg4 : arg4.IsWhole) (arg5 : Memref sig .tc .vmem S256x200 .f32) (harg5 : arg5.IsWhole) (arg6 : Memref sig .tc .vmem S4096x1 .f32) (harg6 : arg6.IsWhole) (arg7 : Memref sig .tc .smem S1 .f32) (harg7 : arg7.IsWhole)
    (x3 : Vec F S256x200 .i32) (a : Vec F S4096x1 .f32) (sm : Vec F S1 .f32) (Q : PUnit → sProp 𝕄) :
    iprop(owns (c : Thread nD τ) arg4 fullShare x3 ∗ (∃ d, owns (c : Thread nD τ) arg5 fullShare d)
        ∗ owns (c : Thread nD τ) arg6 fullShare a ∗ owns (c : Thread nD τ) arg7 fullShare sm
        ∗ (iprop(owns (c : Thread nD τ) arg4 fullShare x3 ∗ owns (c : Thread nD τ) arg5 fullShare (softBlk a sm (grid2.coords t) x3)
            ∗ owns (c : Thread nD τ) arg6 fullShare a ∗ owns (c : Thread nD τ) arg7 fullShare sm) -∗ Q ⟨⟩))
      ⊢ wp frame (wpE (defs₀ (F := F)) Variants.none c none) E (cc2__softmax_body (grid2.coords t) arg1 harg1 arg2 harg2 arg3 harg3 arg4 harg4 arg5 harg5 arg6 harg6 arg7 harg7) Q := by
  have hc := fun h => ht ((cond2 t).mp h)
  simp only [cc2__softmax_body_eq_skeleton]; unfold cc2__softmax_body_skel
  unfold owns
  iintro ⟨⟨%f3, %hf3, H3⟩, ⟨%d4, %f4, -, H4⟩, ⟨%f5, %hf5, H5⟩, ⟨%f6, %hf6, H6⟩, Hk⟩
  subst hf3 hf5 hf6
  sl_exec (disch := first | exact hc)
  sl_step
  iapply Hk
  isplitl [H3]
  · iexists f3; isplitr; · ipureintro; rfl
    iexact H3
  isplitl [H4]
  · iexists _; isplitr
    swap; · iexact H4
    ipureintro
    sl_unfold_run_names
    rw [View.read_writes_eq_canon _ _ _ (cover256x200 _)]
    rfl
  isplitl [H5]
  · iexists f5; isplitr; · ipureintro; rfl
    iexact H5
  iexists f6; isplitr; · ipureintro; rfl
  iexact H6

/-! ## The proof data -/

/-- Window `w`'s block at point `t`, read off its array at the valuation. -/
def iblk2 {c : Dev nD} (Vb : TcVal F c) (w : Fin cfg2.W) (t : Fin cfg2.N) : ((cfg2.win w).xblock (cfg2.grid.coords t)).Idx → Elt F (cfg2.win w).elt :=
  ((cfg2.win w).blk t).view.read (Elt F) (Vb (Pipeline.arrRef spec2 w))

/-- What the scratch buffers hold from the first point on: the weights of the three constant blocks there. -/
def scrA {c : Dev nD} (Vb : TcVal F c) : Vec F S4096x1 .f32 := softA (iblk2 Vb 0 t2_0) (iblk2 Vb 1 t2_0) (iblk2 Vb 2 t2_0)
def scrSm {c : Dev nD} (Vb : TcVal F c) : Vec F S1 .f32 := softSm (iblk2 Vb 0 t2_0) (iblk2 Vb 1 t2_0) (iblk2 Vb 2 t2_0)

/-- The region's invariant before point `n`: before the first point the scoped buffers that are no staging buffer of
    this region, at anything; afterwards the two scratch buffers at the weights, the others at anything. -/
def Phi2 {c : Dev nD} (Vb : TcVal F c) : ℕ → sProp 𝕄
  | 0 => Pipeline.scopedRest spec2 c
  | _ + 1 => iprop(owns (c : Thread nD τ) (Memref.whole cc2_scratch0) fullShare (scrA Vb)
      ∗ owns (c : Thread nD τ) (Memref.whole cc2_scratch1) fullShare (scrSm Vb)
      ∗ Pipeline.scopedRestBut spec2 c [cc2_scratch0, cc2_scratch1])

/-- The region's proof data on core `c`, over a valuation `Vb` of the core's unscoped buffers, the tallies `O`
    the core owes throughout and a bound `R` on the pairs its waits have recorded: the arrays at the valuation; after the body each input's buffer at its block and the
    output's at `softBlk` of the weights and the labels' block; the invariant `Phi2`; full shares. -/
def dat2 (O : CellTallies nD τ sig (HIx 1)) (R : Set (SemLoc sig × HIx 1)) {c : Dev nD} (Vb : TcVal F c) : Dat τ (Elt F) (HIx 1) ℕ UU ℕ cfg2 c where
  A w := Vb (Pipeline.arrRef spec2 w)
  after w t := match w with
    | ⟨0, _⟩ => iblk2 Vb 0 t
    | ⟨1, _⟩ => iblk2 Vb 1 t
    | ⟨2, _⟩ => iblk2 Vb 2 t
    | ⟨3, _⟩ => iblk2 Vb 3 t
    | ⟨4, _⟩ => softBlk (scrA Vb) (scrSm Vb) (grid2.coords t) (iblk2 Vb 3 t)
  Φ t := Phi2 Vb t.val
  q _ := fullShare
  owed _ := O
  recorded _ := R

variable (O : CellTallies nD τ sig (HIx 1)) (R : Set (SemLoc sig × HIx 1)) {c : Dev nD} (Vb : TcVal F c)

theorem dat2_A (w : Fin cfg2.W) : (dat2 O R Vb).A w = Vb (Pipeline.arrRef spec2 w) := by dsimp only [dat2]
theorem dat2_after_0 (t : Fin cfg2.N) : (dat2 O R Vb).after 0 t = iblk2 Vb 0 t := by dsimp only [dat2]
theorem dat2_after_1 (t : Fin cfg2.N) : (dat2 O R Vb).after 1 t = iblk2 Vb 1 t := by dsimp only [dat2]
theorem dat2_after_2 (t : Fin cfg2.N) : (dat2 O R Vb).after 2 t = iblk2 Vb 2 t := by dsimp only [dat2]
theorem dat2_after_3 (t : Fin cfg2.N) : (dat2 O R Vb).after 3 t = iblk2 Vb 3 t := by dsimp only [dat2]
theorem dat2_after_4 (t : Fin cfg2.N) : (dat2 O R Vb).after 4 t = softBlk (scrA Vb) (scrSm Vb) (grid2.coords t) (iblk2 Vb 3 t) := by dsimp only [dat2]
theorem dat2_Φ (t : Fin (cfg2.N + 1)) : (dat2 O R Vb).Φ t = Phi2 Vb t.val := rfl
theorem dat2_owed (t : Fin (cfg2.N + 1)) : (dat2 O R Vb).owed t = O := rfl
theorem dat2_recorded (t : Fin (cfg2.N + 1)) : (dat2 O R Vb).recorded t = R := rfl
theorem dat2_share (w : Fin cfg2.W) : (dat2 O R Vb).share w = fullShare := (dat2 O R Vb).share_full (fun _ => rfl) w

/-- Each input's current staging buffer holds its block at every point, fetched there or not. -/
theorem dat2_before_0 (t : Fin cfg2.N) (d) : (dat2 O R Vb).before 0 t d = iblk2 Vb 0 t :=
  ((dat2 O R Vb).before_in_eq_fetched 0 rfl (fun _ => rfl) (fun _ _ _ => rfl) (fun t => by rw [dat2_after_0]; unfold Dat.blockOf iblk2; rw [dat2_A]; try rfl) t d).trans
    (by unfold Dat.fetched Dat.blockOf iblk2; rw [dat2_A]; try rfl)
theorem dat2_before_1 (t : Fin cfg2.N) (d) : (dat2 O R Vb).before 1 t d = iblk2 Vb 1 t :=
  ((dat2 O R Vb).before_in_eq_fetched 1 rfl (fun _ => rfl) (fun _ _ _ => rfl) (fun t => by rw [dat2_after_1]; unfold Dat.blockOf iblk2; rw [dat2_A]; try rfl) t d).trans
    (by unfold Dat.fetched Dat.blockOf iblk2; rw [dat2_A]; try rfl)
theorem dat2_before_2 (t : Fin cfg2.N) (d) : (dat2 O R Vb).before 2 t d = iblk2 Vb 2 t :=
  ((dat2 O R Vb).before_in_eq_fetched 2 rfl (fun _ => rfl) (fun _ _ _ => rfl) (fun t => by rw [dat2_after_2]; unfold Dat.blockOf iblk2; rw [dat2_A]; try rfl) t d).trans
    (by unfold Dat.fetched Dat.blockOf iblk2; rw [dat2_A]; try rfl)
theorem dat2_before_3 (t : Fin cfg2.N) (d) : (dat2 O R Vb).before 3 t d = iblk2 Vb 3 t :=
  ((dat2 O R Vb).before_in_eq_fetched 3 rfl (fun _ => rfl) (fun _ _ _ => rfl) (fun t => by rw [dat2_after_3]; unfold Dat.blockOf iblk2; rw [dat2_A]; try rfl) t d).trans
    (by unfold Dat.fetched Dat.blockOf iblk2; rw [dat2_A]; try rfl)

/-- The three constant windows' blocks do not depend on the point. -/
theorem iblk2_0_const (t : Fin cfg2.N) : iblk2 Vb 0 t = iblk2 Vb 0 t2_0 := rfl
theorem iblk2_1_const (t : Fin cfg2.N) : iblk2 Vb 1 t = iblk2 Vb 1 t2_0 := rfl
theorem iblk2_2_const (t : Fin cfg2.N) : iblk2 Vb 2 t = iblk2 Vb 2 t2_0 := rfl

/-- The scoped buffers that are no staging buffer of this region: the two scratch buffers, and the rest. -/
theorem scopedRest2_split :
    (Pipeline.scopedRest (Ix := HIx 1) (Name := ℕ) (U := UU) (Lvl := ℕ) (Val := Elt F) spec2 c : sProp 𝕄)
      = iprop(((∃ f : Buf (Elt F) ((c : Thread nD τ).loc cc2_scratch0), ((c : Thread nD τ).loc cc2_scratch0) ↦{fullShare} f)
          ∗ (∃ f : Buf (Elt F) ((c : Thread nD τ).loc cc2_scratch1), ((c : Thread nD τ).loc cc2_scratch1) ↦{fullShare} f))
          ∗ Pipeline.scopedRestBut (Ix := HIx 1) (Name := ℕ) (U := UU) (Lvl := ℕ) (Val := Elt F) spec2 c [cc2_scratch0, cc2_scratch1]) :=
  Pipeline.scopedRest_split_of_list spec2 c [cc2_scratch0, cc2_scratch1] (by decide) (by decide)

/-! ## The body obligation -/

/-- What the body is called with at point `t`, the windows one by one, -/
def bodyPre2 (t : Fin cfg2.N) : sProp 𝕄 :=
  iprop((dat2 O R Vb).Φ t.castSucc ∗ (dat2 O R Vb).owesAt (none : HIx 1) t.castSucc
    ∗ (∃ d, owns (c : Thread nD τ) (st2_0 t) fullShare ((dat2 O R Vb).before 0 t d))
    ∗ (∃ d, owns (c : Thread nD τ) (st2_1 t) fullShare ((dat2 O R Vb).before 1 t d))
    ∗ (∃ d, owns (c : Thread nD τ) (st2_2 t) fullShare ((dat2 O R Vb).before 2 t d))
    ∗ (∃ d, owns (c : Thread nD τ) (st2_3 t) fullShare ((dat2 O R Vb).before 3 t d))
    ∗ (∃ d, owns (c : Thread nD τ) (st2_4 t) fullShare ((dat2 O R Vb).before 4 t d)))

/-- and what it returns. -/
def bodyPost2 (t : Fin cfg2.N) : sProp 𝕄 :=
  iprop((dat2 O R Vb).Φ t.succ ∗ (dat2 O R Vb).owesAt (none : HIx 1) t.succ
    ∗ owns (c : Thread nD τ) (st2_0 t) fullShare ((dat2 O R Vb).after 0 t)
    ∗ owns (c : Thread nD τ) (st2_1 t) fullShare ((dat2 O R Vb).after 1 t)
    ∗ owns (c : Thread nD τ) (st2_2 t) fullShare ((dat2 O R Vb).after 2 t)
    ∗ owns (c : Thread nD τ) (st2_3 t) fullShare ((dat2 O R Vb).after 3 t)
    ∗ owns (c : Thread nD τ) (st2_4 t) fullShare ((dat2 O R Vb).after 4 t))

/-- The body at the first point: the scratch buffers come out of the scoped rest at anything and go back at the weights. -/
theorem sound_body2_first (t : Fin cfg2.N) (ht : t.val = 0) :
    bodyPre2 O R Vb t ⊢ wp frame (wpE (defs₀ (F := F)) Variants.none c none) Set.univ (bodyAt2 t) (fun _ => bodyPost2 O R Vb t) := by
  unfold bodyPre2 bodyPost2 bodyAt2
  simp only [dat2_before_0, dat2_before_1, dat2_before_2, dat2_before_3]
  rw [show (dat2 O R Vb).owesAt (none : HIx 1) t.succ = (dat2 O R Vb).owesAt (none : HIx 1) t.castSucc from rfl,
    dat2_after_0, dat2_after_1, dat2_after_2, dat2_after_3, dat2_after_4, dat2_Φ, dat2_Φ,
    show (t.castSucc : Fin (cfg2.N + 1)).val = 0 from ht, show (t.succ : Fin (cfg2.N + 1)).val = 0 + 1 from congrArg (· + 1) ht]
  rw [show Phi2 Vb 0 = Pipeline.scopedRest spec2 c from rfl, scopedRest2_split,
    show Phi2 Vb (0 + 1) = iprop(owns (c : Thread nD τ) (Memref.whole cc2_scratch0) fullShare (scrA Vb)
      ∗ owns (c : Thread nD τ) (Memref.whole cc2_scratch1) fullShare (scrSm Vb)
      ∗ Pipeline.scopedRestBut spec2 c [cc2_scratch0, cc2_scratch1]) from rfl]
  iintro ⟨⟨⟨⟨%g0, Hs0⟩, ⟨%g1, Hs1⟩⟩, Hrest⟩, Ho, ⟨%d0, H0⟩, ⟨%d1, H1⟩, ⟨%d2, H2⟩, ⟨%d3, H3⟩, ⟨%d4, H4⟩⟩
  iapply (sound_kernel2_first c Set.univ t ht _ _ _ _ _ _ _ _ _ _ _ _ _ _ (iblk2 Vb 0 t) (iblk2 Vb 1 t) (iblk2 Vb 2 t) (iblk2 Vb 3 t) _)
  isplitl [H0]; · iexact H0
  isplitl [H1]; · iexact H1
  isplitl [H2]; · iexact H2
  isplitl [H3]; · iexact H3
  isplitl [H4]; · iexists _; iexact H4
  isplitl [Hs0]; · iexists g0; rw [owns_whole]; iexact Hs0
  isplitl [Hs1]; · iexists g1; rw [owns_whole]; iexact Hs1
  iintro ⟨H0, H1, H2, H3, H4, Hs0, Hs1⟩
  isplitl [Hs0 Hs1 Hrest]
  · isplitl [Hs0]; · iexact Hs0
    isplitl [Hs1]; · iexact Hs1
    iexact Hrest
  isplitl [Ho]; · iexact Ho
  isplitl [H0]; · iexact H0
  isplitl [H1]; · iexact H1
  isplitl [H2]; · iexact H2
  isplitl [H3]; · iexact H3
  iexact H4

/-- The body at a later point: the scratch buffers are read at the weights and stay. -/
theorem sound_body2_rest (t : Fin cfg2.N) (ht : t.val ≠ 0) :
    bodyPre2 O R Vb t ⊢ wp frame (wpE (defs₀ (F := F)) Variants.none c none) Set.univ (bodyAt2 t) (fun _ => bodyPost2 O R Vb t) := by
  obtain ⟨k, hk⟩ := Nat.exists_eq_succ_of_ne_zero ht
  unfold bodyPre2 bodyPost2 bodyAt2
  simp only [dat2_before_0, dat2_before_1, dat2_before_2, dat2_before_3]
  rw [show (dat2 O R Vb).owesAt (none : HIx 1) t.succ = (dat2 O R Vb).owesAt (none : HIx 1) t.castSucc from rfl,
    dat2_after_0, dat2_after_1, dat2_after_2, dat2_after_3, dat2_after_4, dat2_Φ, dat2_Φ,
    show (t.castSucc : Fin (cfg2.N + 1)).val = k + 1 from hk, show (t.succ : Fin (cfg2.N + 1)).val = (k + 1) + 1 from congrArg (· + 1) hk]
  rw [show Phi2 Vb (k + 1) = iprop(owns (c : Thread nD τ) (Memref.whole cc2_scratch0) fullShare (scrA Vb)
      ∗ owns (c : Thread nD τ) (Memref.whole cc2_scratch1) fullShare (scrSm Vb)
      ∗ Pipeline.scopedRestBut spec2 c [cc2_scratch0, cc2_scratch1]) from rfl,
    show Phi2 Vb (k + 1 + 1) = iprop(owns (c : Thread nD τ) (Memref.whole cc2_scratch0) fullShare (scrA Vb)
      ∗ owns (c : Thread nD τ) (Memref.whole cc2_scratch1) fullShare (scrSm Vb)
      ∗ Pipeline.scopedRestBut spec2 c [cc2_scratch0, cc2_scratch1]) from rfl]
  iintro ⟨⟨Hs0, Hs1, Hrest⟩, Ho, ⟨%d0, H0⟩, ⟨%d1, H1⟩, ⟨%d2, H2⟩, ⟨%d3, H3⟩, ⟨%d4, H4⟩⟩
  iapply (sound_kernel2_rest c Set.univ t ht _ _ _ _ _ _ _ _ _ _ _ _ _ _ (iblk2 Vb 3 t) (scrA Vb) (scrSm Vb) _)
  isplitl [H3]; · iexact H3
  isplitl [H4]; · iexists _; iexact H4
  isplitl [Hs0]; · iexact Hs0
  isplitl [Hs1]; · iexact Hs1
  iintro ⟨H3, H4, Hs0, Hs1⟩
  isplitl [Hs0 Hs1 Hrest]
  · isplitl [Hs0]; · iexact Hs0
    isplitl [Hs1]; · iexact Hs1
    iexact Hrest
  isplitl [Ho]; · iexact Ho
  isplitl [H0]; · iexact H0
  isplitl [H1]; · iexact H1
  isplitl [H2]; · iexact H2
  isplitl [H3]; · iexact H3
  iexact H4

/-- The library's body obligation, at every point. -/
theorem body_obligation2 : BodyObligation (dat2 O R Vb) (defs₀ (F := F)) Variants.none (none : HIx 1) Set.univ := fun t => by
  rw [bigSep_W2, bigSep_W2]
  by_cases ht : t.val = 0
  · exact sound_body2_first O R Vb t ht
  · exact sound_body2_rest O R Vb t ht

end Cert.KernelIdeal.Hand.Region

end
-- ==== Proof.MatvecSoftmax.lean ====
/-
  The two TensorCore regions together: the family of proof data over both pipelines, each region's
  body obligation read at the family, and what each region's invariant takes at its first point and
  gives back after its last.
-/
import proofs.«203204_g25512105739078_cont_8to1_1946_3_alg».proof.Proof.Common
import proofs.«203204_g25512105739078_cont_8to1_1946_3_alg».proof.Proof.Gen.KernelIdeal.Launch
import proofs.«203204_g25512105739078_cont_8to1_1946_3_alg».proof.Proof.Gen.KernelIdeal.Skeleton
import proofs.«203204_g25512105739078_cont_8to1_1946_3_alg».proof.Proof.Gen.KernelIdeal.Points
import proofs.«203204_g25512105739078_cont_8to1_1946_3_alg».proof.Proof.Softmax
import Idealize.ShloMosaic.Lib.Pipeline.Regions
import Idealize.ShloMosaic.Lib.Pipeline.FrameBody
import Idealize.ShloMosaic.Lib.Pipeline.Value
import Idealize.ShloMosaic.Lib.Tactic

set_option maxRecDepth 16384

noncomputable section

namespace Cert.KernelIdeal.Hand.Region

open Cert.KernelIdeal Cert.KernelIdeal.Gen Cert.KernelIdeal.Hand

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (O0 O1 : Dev nD → CellTallies nD τ sig (HIx 1)) (R0 R1 : Dev nD → Set (SemLoc sig × HIx 1)) (V0 V1 : (c : Dev nD) → TcVal F c)

/-- The proof data of both pipelines: region 0 over the valuation `V0`, the tallies `O0` and the bound `R0`, region 1 over `V1`, `O1` and `R1`. -/
def pdats : (p : Fin 2) → (c : Dev nD) → Dat τ (Elt F) (HIx 1) ℕ UU ℕ (Pipeline.pin (pcfgs (F := F)) adm p) c
  | ⟨0, _⟩ => fun c => dat0 (O0 c) (R0 c) (V0 c)
  | ⟨1, _⟩ => fun c => dat2 (O1 c) (R1 c) (V1 c)
  | ⟨_ + 2, h⟩ => absurd h (Nat.not_lt.2 (Nat.le_add_left _ _))

theorem pdats_zero (c : Dev nD) : pdats O0 O1 R0 R1 V0 V1 0 c = dat0 (O0 c) (R0 c) (V0 c) := rfl
theorem pdats_one (c : Dev nD) : pdats O0 O1 R0 R1 V0 V1 1 c = dat2 (O1 c) (R1 c) (V1 c) := rfl

theorem pdats_A0 (c : Dev nD) (w : Fin cfg0.W) : (pdats O0 O1 R0 R1 V0 V1 0 c).A w = V0 c (Pipeline.arrRef spec0 w) := rfl
theorem pdats_A2 (c : Dev nD) (w : Fin cfg2.W) : (pdats O0 O1 R0 R1 V0 V1 1 c).A w = V1 c (Pipeline.arrRef spec2 w) := rfl
theorem pdats_owed0 (c : Dev nD) (t) : (pdats O0 O1 R0 R1 V0 V1 0 c).owed t = O0 c := rfl
theorem pdats_owed2 (c : Dev nD) (t) : (pdats O0 O1 R0 R1 V0 V1 1 c).owed t = O1 c := rfl
theorem pdats_recorded0 (c : Dev nD) (t) : (pdats O0 O1 R0 R1 V0 V1 0 c).recorded t = R0 c := rfl
theorem pdats_recorded2 (c : Dev nD) (t) : (pdats O0 O1 R0 R1 V0 V1 1 c).recorded t = R1 c := rfl
theorem pdats_share0 (c : Dev nD) (w : Fin cfg0.W) : (pdats O0 O1 R0 R1 V0 V1 0 c).share w = fullShare := dat0_share (O0 c) (R0 c) (V0 c) w
theorem pdats_share2 (c : Dev nD) (w : Fin cfg2.W) : (pdats O0 O1 R0 R1 V0 V1 1 c).share w = fullShare := dat2_share (O1 c) (R1 c) (V1 c) w

/-- An input window's array never changes. -/
theorem pdats_arrAt_in0 (c : Dev nD) (w : Fin cfg0.W) (hw : w = 0 ∨ w = 1) (n : ℕ) :
    (pdats O0 O1 R0 R1 V0 V1 0 c).arrAt w n = V0 c (Pipeline.arrRef spec0 w) := by
  rcases hw with rfl | rfl
  · exact (dat0 (O0 c) (R0 c) (V0 c)).arrAt_in 0 rfl n
  · exact (dat0 (O0 c) (R0 c) (V0 c)).arrAt_in 1 rfl n

theorem isOut2_of_ne : ∀ w : Fin 5, w ≠ 4 → (win2 w).isOut = false := by decide

theorem pdats_arrAt_in2 (c : Dev nD) (w : Fin cfg2.W) (hw : w ≠ 4) (n : ℕ) :
    (pdats O0 O1 R0 R1 V0 V1 1 c).arrAt w n = V1 c (Pipeline.arrRef spec2 w) :=
  (dat2 (O1 c) (R1 c) (V1 c)).arrAt_in w (isOut2_of_ne w hw) n

/-- Region 0's body obligation, at the family. -/
theorem body0 : ∀ c, BodyObligationLoose (pdats O0 O1 R0 R1 V0 V1 0 c) (defs₀ (F := F)) 𝒱₀ (none : HIx 1) Set.univ :=
  fun c => (body_obligation0 (O0 c) (R0 c) (V0 c)).loose

/-- Region 1's. -/
theorem body2 : ∀ c, BodyObligationLoose (pdats O0 O1 R0 R1 V0 V1 1 c) (defs₀ (F := F)) 𝒱₀ (none : HIx 1) Set.univ :=
  fun c => (body_obligation2 (O1 c) (R1 c) (V1 c)).loose

/-! ## The regions' invariants at their ends -/

theorem bigSep_none {M : Type} [URA M] (Φ : Fin 0 → sProp M) : bigSep Finset.univ Φ = (BI.emp : sProp M) :=
  bigSep_univ_eq_bigSepL [] (by decide) (by decide) Φ

/-- No pipeline has a prefetched table. -/
theorem prefHeld0 (c : Dev nD) (q) (pf) :
    (Pipeline.prefHeld (Ix := HIx 1) (Name := ℕ) (U := UU) (Lvl := ℕ) (Val := Elt F) (pcfgs (F := F) 0).pre c q pf : sProp 𝕄) = BI.emp :=
  bigSep_none _
theorem prefHeld1 (c : Dev nD) (q) (pf) :
    (Pipeline.prefHeld (Ix := HIx 1) (Name := ℕ) (U := UU) (Lvl := ℕ) (Val := Elt F) (pcfgs (F := F) 1).pre c q pf : sProp 𝕄) = BI.emp :=
  bigSep_none _

/-- Region 0's invariant is the scoped rest, in and out. -/
theorem hin0 (c : Dev nD) :
    iprop((emp : sProp 𝕄) ∗ Pipeline.prefHeld (pcfgs (F := F) 0).pre c (fun _ => fullShare) (adm (F := F) 0).1 ∗ Pipeline.scopedRest (Pipeline.pin (pcfgs (F := F)) adm 0).spec c)
      ⊢ (pdats O0 O1 R0 R1 V0 V1 0 c).Φ 0 := by
  rw [show (pdats O0 O1 R0 R1 V0 V1 0 c).Φ 0 = Pipeline.scopedRest spec0 c from rfl]
  iintro ⟨-, -, H⟩; iexact H

theorem hout0 (c : Dev nD) :
    (pdats O0 O1 R0 R1 V0 V1 0 c).Φ (Fin.last (Pipeline.pin (pcfgs (F := F)) adm 0).N)
      ⊢ iprop((emp : sProp 𝕄) ∗ Pipeline.ownSems0 (fun k : PEmpty => k.elim) c ∗ Pipeline.scopedRest (Pipeline.pin (pcfgs (F := F)) adm 0).spec c) := by
  rw [show (pdats O0 O1 R0 R1 V0 V1 0 c).Φ (Fin.last (Pipeline.pin (pcfgs (F := F)) adm 0).N) = Pipeline.scopedRest spec0 c from rfl, Pipeline.ownSems0_none]
  iintro H
  isplitr; · iempintro
  isplitr; · iempintro
  iexact H

/-- Region 1's invariant starts as the scoped rest and gives it back, the scratch buffers' contents forgotten. -/
theorem hin2 (c : Dev nD) :
    iprop((emp : sProp 𝕄) ∗ Pipeline.prefHeld (pcfgs (F := F) 1).pre c (fun _ => fullShare) (adm (F := F) 1).1 ∗ Pipeline.scopedRest (Pipeline.pin (pcfgs (F := F)) adm 1).spec c)
      ⊢ (pdats O0 O1 R0 R1 V0 V1 1 c).Φ 0 := by
  rw [show (pdats O0 O1 R0 R1 V0 V1 1 c).Φ 0 = Pipeline.scopedRest spec2 c from rfl]
  iintro ⟨-, -, H⟩; iexact H

theorem hout2 (c : Dev nD) :
    (pdats O0 O1 R0 R1 V0 V1 1 c).Φ (Fin.last (Pipeline.pin (pcfgs (F := F)) adm 1).N)
      ⊢ iprop((emp : sProp 𝕄) ∗ Pipeline.ownSems0 (fun k : PEmpty => k.elim) c ∗ Pipeline.scopedRest (Pipeline.pin (pcfgs (F := F)) adm 1).spec c) := by
  rw [show (pdats O0 O1 R0 R1 V0 V1 1 c).Φ (Fin.last (Pipeline.pin (pcfgs (F := F)) adm 1).N)
      = iprop(owns (c : Thread nD τ) (Memref.whole cc2_scratch0) fullShare (scrA (V1 c))
        ∗ owns (c : Thread nD τ) (Memref.whole cc2_scratch1) fullShare (scrSm (V1 c))
        ∗ Pipeline.scopedRestBut spec2 c [cc2_scratch0, cc2_scratch1]) from rfl,
    Pipeline.ownSems0_none, show (Pipeline.pin (pcfgs (F := F)) adm 1).spec = spec2 from rfl, scopedRest2_split, owns_whole, owns_whole]
  iintro ⟨Hs0, Hs1, Hrest⟩
  isplitr; · iempintro
  isplitr; · iempintro
  isplitl [Hs0 Hs1]
  · isplitl [Hs0]; · iexists _; iexact Hs0
    iexists _; iexact Hs1
  iexact Hrest

end Cert.KernelIdeal.Hand.Region

end
-- ==== Proof.LaunchState.lean ====
/-
  The TensorCore's fourteen unscoped arrays as one assertion, in three spellings that are equal: the launch
  theorem's family over the unscoped references, a chain of fourteen whole points-tos, and the host
  operations' family over a set of device references at a valuation.
-/
import proofs.«203204_g25512105739078_cont_8to1_1946_3_alg».proof.Proof.Common
import proofs.«203204_g25512105739078_cont_8to1_1946_3_alg».proof.Proof.Gen.KernelIdeal.Launch

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type}

local notation "𝕄" => MT nD τ sig (HIx 1) (Elt F) ℕ UU ℕ

/-- One unscoped array of the TensorCore's, whole, at contents `f`. -/
abbrev pt (d : Dev nD) (b : Ref sig .tc) (f : Buf (Elt F) ((d.tc : Thread nD τ).loc b)) : sProp 𝕄 := (d.tc : Thread nD τ).loc b ↦{fullShare} f

/-- A TensorCore reference as a device reference. -/
abbrev dr (b : Ref sig .tc) : DevRef τ sig := Proc.devRef .tc b

/-- A valuation read at the TensorCore's references. -/
abbrev tv {d : Dev nD} (W : Valuation τ sig (Elt F)) : (b : Ref sig .tc) → Buf (Elt F) ((d.tc : Thread nD τ).loc b) := fun b => W (dr b)

/-- The fourteen unscoped arrays. -/
def allBufs : Finset (DevRef τ sig) := {dr main_arg0, dr main_arg1, dr main_arg2, dr main_arg3, dr main_v0, dr main_v1, dr main_v2, dr main_v3, dr main_v4_0, dr main_v4_1, dr main_v5, dr main_v6, dr main_v7, dr main_v8}

theorem unscopedBufs_eq (d : Dev nD) (W : (b : Ref sig .tc) → Buf (Elt F) ((d.tc : Thread nD τ).loc b)) :
    (unscopedBufs d W : sProp 𝕄) = iprop(pt d main_arg0 (W main_arg0) ∗ pt d main_arg1 (W main_arg1) ∗ pt d main_arg2 (W main_arg2) ∗ pt d main_arg3 (W main_arg3) ∗ pt d main_v0 (W main_v0) ∗ pt d main_v1 (W main_v1) ∗ pt d main_v2 (W main_v2) ∗ pt d main_v3 (W main_v3) ∗ pt d main_v4_0 (W main_v4_0) ∗ pt d main_v4_1 (W main_v4_1) ∗ pt d main_v5 (W main_v5) ∗ pt d main_v6 (W main_v6) ∗ pt d main_v7 (W main_v7) ∗ pt d main_v8 (W main_v8)) := by
  unfold unscopedBufs
  rw [bigSep_eq_bigSepL_of_eq [main_arg0, main_arg1, main_arg2, main_arg3, main_v0, main_v1, main_v2, main_v3, main_v4_0, main_v4_1, main_v5, main_v6, main_v7, main_v8] (by decide) (by decide)]
  rfl

theorem held_all (d : Dev nD) (W : Valuation τ sig (Elt F)) :
    (held (d.tc : Thread nD τ) allBufs W : sProp 𝕄) = iprop(pt d main_arg0 (W (dr main_arg0)) ∗ pt d main_arg1 (W (dr main_arg1)) ∗ pt d main_arg2 (W (dr main_arg2)) ∗ pt d main_arg3 (W (dr main_arg3)) ∗ pt d main_v0 (W (dr main_v0)) ∗ pt d main_v1 (W (dr main_v1)) ∗ pt d main_v2 (W (dr main_v2)) ∗ pt d main_v3 (W (dr main_v3)) ∗ pt d main_v4_0 (W (dr main_v4_0)) ∗ pt d main_v4_1 (W (dr main_v4_1)) ∗ pt d main_v5 (W (dr main_v5)) ∗ pt d main_v6 (W (dr main_v6)) ∗ pt d main_v7 (W (dr main_v7)) ∗ pt d main_v8 (W (dr main_v8))) := by
  unfold held allBufs
  rw [bigSep_eq_bigSepL_of_eq [dr main_arg0, dr main_arg1, dr main_arg2, dr main_arg3, dr main_v0, dr main_v1, dr main_v2, dr main_v3, dr main_v4_0, dr main_v4_1, dr main_v5, dr main_v6, dr main_v7, dr main_v8] (by decide) (by decide)]
  rfl

/-- The host operations' spelling is the launch theorem's. -/
theorem held_all_unscoped (d : Dev nD) (W : Valuation τ sig (Elt F)) :
    (held (d.tc : Thread nD τ) allBufs W : sProp 𝕄) = unscopedBufs d (tv W) := by
  rw [held_all, unscopedBufs_eq]

/-- The arrays at a valuation changed at the two result arrays of the SparseCore call. -/
theorem held_upd2 (d : Dev nD) (W : Valuation τ sig (Elt F)) (fs : (dr main_v4_0).ty.Contents (Elt F)) (fc : (dr main_v4_1).ty.Contents (Elt F)) :
    (held (d.tc : Thread nD τ) allBufs (Function.update (Function.update W (dr main_v4_0) fs) (dr main_v4_1) fc) : sProp 𝕄)
      = iprop(pt d main_arg0 (W (dr main_arg0)) ∗ pt d main_arg1 (W (dr main_arg1)) ∗ pt d main_arg2 (W (dr main_arg2)) ∗ pt d main_arg3 (W (dr main_arg3)) ∗ pt d main_v0 (W (dr main_v0)) ∗ pt d main_v1 (W (dr main_v1)) ∗ pt d main_v2 (W (dr main_v2)) ∗ pt d main_v3 (W (dr main_v3)) ∗ pt d main_v4_0 fs ∗ pt d main_v4_1 fc ∗ pt d main_v5 (W (dr main_v5)) ∗ pt d main_v6 (W (dr main_v6)) ∗ pt d main_v7 (W (dr main_v7)) ∗ pt d main_v8 (W (dr main_v8))) := by
  have n1 : ∀ b : Ref sig .tc, dr b ≠ dr main_v4_0 → dr b ≠ dr main_v4_1 →
      Function.update (Function.update W (dr main_v4_0) fs) (dr main_v4_1) fc (dr b) = W (dr b) :=
    fun b h0 h1 => by rw [Function.update_of_ne h1, Function.update_of_ne h0]
  rw [held_all, n1 main_arg0 (by decide) (by decide), n1 main_arg1 (by decide) (by decide), n1 main_arg2 (by decide) (by decide), n1 main_arg3 (by decide) (by decide), n1 main_v0 (by decide) (by decide), n1 main_v1 (by decide) (by decide), n1 main_v2 (by decide) (by decide), n1 main_v3 (by decide) (by decide), n1 main_v5 (by decide) (by decide), n1 main_v6 (by decide) (by decide), n1 main_v7 (by decide) (by decide), n1 main_v8 (by decide) (by decide),
    Function.update_self, Function.update_of_ne (by decide : dr main_v4_0 ≠ dr main_v4_1), Function.update_self]

end Cert.KernelIdeal.Hand

end
-- ==== Proof.LaunchRegions.lean ====
/-
  The two TensorCore regions as the SparseCore program's @main meets them: each region is entered from the
  fourteen unscoped arrays held at a valuation and the core owing the launch's start signals with its recorded
  pairs within a bound, and left with the output array at what the pipeline computed, the other thirteen
  unchanged, the same tallies owed and the bound grown by the pipeline's own waits. The staging cells' waits
  are admissible because the tallies owe nothing at the kernels' own index.
-/
import proofs.«203204_g25512105739078_cont_8to1_1946_3_alg».proof.Proof.MatvecSoftmax
import proofs.«203204_g25512105739078_cont_8to1_1946_3_alg».proof.Proof.LaunchState

noncomputable section

namespace Cert.KernelIdeal.Hand

open Cert.KernelIdeal Cert.KernelIdeal.Gen Cert.KernelIdeal.Hand.Region

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type}

local notation "𝕄" => MT nD τ sig (HIx 1) (Elt F) ℕ UU ℕ

variable [FloatOps F]

section Regions

variable (O : CellTallies nD τ sig (HIx 1)) (R : Set (SemLoc sig × HIx 1)) (W : Valuation τ sig (Elt F))

/-- The proof data of both pipelines over one valuation, the same on every device. -/
abbrev fam : (p : Fin 2) → (c : Dev nD) → Pipeline.Dat τ (Elt F) (HIx 1) ℕ UU ℕ (Pipeline.pin (pcfgs (F := F)) Region.adm p) c :=
  Region.pdats (fun _ => O) (fun _ => O) (fun _ => R) (fun _ => R) (fun c => tv (d := c) W) (fun c => tv (d := c) W)

/-- What region 0 leaves in its output array. -/
def out0 (c : Dev nD) : (dr main_v1).ty.Contents (Elt F) := (fam O R W 0 c).arrAt 2 cfg0.N
/-- The valuation after region 0. -/
def Wr0 (c : Dev nD) : Valuation τ sig (Elt F) := Function.update W (dr main_v1) (out0 O R W c)

/-- Region 0 (the matrix-vector product). -/
def reg0 (hO : ∀ g, O g none = 0) : Pipeline.RegionSeg (pcfgs (F := F)) Region.adm (fam O R W) (none : HIx 1) defs₀ 𝒱₀ (K (F := F)).L (K (F := F)).lev 0 where
  win := launch0.win.to₀
  block_pos := block_pos0
  stage_whole := stage_whole0
  K := PEmpty
  osem k := k.elim
  ho := Pipeline.OwnSemFacts.none _
  hbody := Region.body0 _ _ _ _ _ _
  hwaits c := Pipeline.cellsWaits_intro _ _ _ 0 c (fun w s t => (K (F := F)).mayWait_none _ hO)
  pre c := iprop(held (c.tc : Thread nD τ) allBufs W ∗ Pipeline.owesWithin c O R)
  post c := iprop(held (c.tc : Thread nD τ) allBufs (Wr0 O R W c) ∗ Pipeline.owesWithin c O (R ∪ cfg0.waitPairs (none : HIx 1)))
  X _ := iprop(emp)
  Y _ := iprop(emp)
  Z c := Pipeline.unscopedRest spec0 c (tv (d := c) W)
  hentry c := by
    rw [held_all_unscoped, Region.prefHeld0]
    iintro ⟨⟨Hb, HO⟩, -, -⟩
    imodintro
    ihave H := (Pipeline.arrays_of_unscopedBufs (pcfgs (F := F)) Region.adm (fam O R W) (p := 0) launch0.win arr_whole0 c
      (Region.pdats_share0 _ _ _ _ _ _ c) (tv (d := c) W) (Region.pdats_A0 _ _ _ _ _ _ c)) $$ Hb
    icases H with ⟨Ha, Hr⟩
    isplitl [Ha]; · iexact Ha
    isplitr; · iempintro
    isplitl [HO]
    · iapply (Pipeline.owesWithin_mono c O (B := R) (B' := (fam O R W 0 c).bound (none : HIx 1) 0) Set.subset_union_left); iexact HO
    isplitr; · iempintro
    iexact Hr
  hin c := Region.hin0 _ _ _ _ _ _ c
  hout c := Region.hout0 _ _ _ _ _ _ c
  hexit c := by
    have e : ∀ b : Ref sig .tc, dr b ≠ dr main_v1 → tv (d := c) (Wr0 O R W c) b = tv (d := c) W b := fun b h => Function.update_of_ne h _ _
    have hval : ∀ w : Fin 3, tv (d := c) (Wr0 O R W c) (Pipeline.arrRef spec0 w) = (fam O R W 0 c).arrAt w (Pipeline.pin (pcfgs (F := F)) Region.adm 0).N := fun w =>
      match w with
      | 0 => (e _ (by decide)).trans (Region.pdats_arrAt_in0 (fun _ => O) (fun _ => O) (fun _ => R) (fun _ => R) (fun c => tv (d := c) W) (fun c => tv (d := c) W) c 0 (Or.inl rfl) (Pipeline.pin (pcfgs (F := F)) Region.adm 0).N).symm
      | 1 => (e _ (by decide)).trans (Region.pdats_arrAt_in0 (fun _ => O) (fun _ => O) (fun _ => R) (fun _ => R) (fun c => tv (d := c) W) (fun c => tv (d := c) W) c 1 (Or.inr rfl) (Pipeline.pin (pcfgs (F := F)) Region.adm 0).N).symm
      | 2 => Function.update_self _ _ _
    have hval' : ∀ w : Fin (Pipeline.pin (pcfgs (F := F)) Region.adm 0).W, tv (d := c) (Wr0 O R W c) (Pipeline.arrRef (Pipeline.pin (pcfgs (F := F)) Region.adm 0).spec w) = (fam O R W 0 c).arrAt w (Pipeline.pin (pcfgs (F := F)) Region.adm 0).N := hval
    have hrest : (Pipeline.unscopedRest (Pipeline.pin (pcfgs (F := F)) Region.adm 0).spec c (tv (d := c) (Wr0 O R W c)) : sProp 𝕄) = Pipeline.unscopedRest spec0 c (tv (d := c) W) := by
      show (Pipeline.unscopedRest spec0 c (tv (d := c) (Wr0 O R W c)) : sProp 𝕄) = _
      rw [unscopedRest0_eq c (tv (d := c) (Wr0 O R W c)), unscopedRest0_eq c (tv (d := c) W),
        e main_arg0 (by decide), e main_arg2 (by decide), e main_arg3 (by decide), e main_v2 (by decide), e main_v3 (by decide), e main_v4_0 (by decide),
      e main_v4_1 (by decide), e main_v5 (by decide), e main_v6 (by decide), e main_v7 (by decide), e main_v8 (by decide)]
    rw [held_all_unscoped, Pipeline.unscopedBufs_split (Pipeline.pin (pcfgs (F := F)) Region.adm) 0 launch0.win.arr_unscoped launch0.win.arr_inj c (tv (d := c) (Wr0 O R W c)),
      Pipeline.arrays_eq (Pipeline.pin (pcfgs (F := F)) Region.adm) (fam O R W) 0 c arr_whole0 (Region.pdats_share0 _ _ _ _ _ _ c),
      hrest, bigSep_congr fun w _ => by rw [← hval' w]]
    iintro ⟨Ha, HO, -, Hr⟩
    imodintro
    isplitl [Ha Hr]
    · isplitl [Ha] <;> iassumption
    iexact HO

/-- What region 1 leaves in its output array. -/
def out1 (c : Dev nD) : (dr main_v8).ty.Contents (Elt F) := (fam O R W 1 c).arrAt 4 cfg2.N
/-- The valuation after region 1. -/
def Wr1 (c : Dev nD) : Valuation τ sig (Elt F) := Function.update W (dr main_v8) (out1 O R W c)

/-- Region 1 (the softmax). -/
def reg1 (hO : ∀ g, O g none = 0) : Pipeline.RegionSeg (pcfgs (F := F)) Region.adm (fam O R W) (none : HIx 1) defs₀ 𝒱₀ (K (F := F)).L (K (F := F)).lev 1 where
  win := launch2.win.to₀
  block_pos := block_pos2
  stage_whole := stage_whole2
  K := PEmpty
  osem k := k.elim
  ho := Pipeline.OwnSemFacts.none _
  hbody := Region.body2 _ _ _ _ _ _
  hwaits c := Pipeline.cellsWaits_intro _ _ _ 1 c (fun w s t => (K (F := F)).mayWait_none _ hO)
  pre c := iprop(held (c.tc : Thread nD τ) allBufs W ∗ Pipeline.owesWithin c O R)
  post c := iprop(held (c.tc : Thread nD τ) allBufs (Wr1 O R W c) ∗ Pipeline.owesWithin c O (R ∪ cfg2.waitPairs (none : HIx 1)))
  X _ := iprop(emp)
  Y _ := iprop(emp)
  Z c := Pipeline.unscopedRest spec2 c (tv (d := c) W)
  hentry c := by
    rw [held_all_unscoped, Region.prefHeld1]
    iintro ⟨⟨Hb, HO⟩, -, -⟩
    imodintro
    ihave H := (Pipeline.arrays_of_unscopedBufs (pcfgs (F := F)) Region.adm (fam O R W) (p := 1) launch2.win arr_whole2 c
      (Region.pdats_share2 _ _ _ _ _ _ c) (tv (d := c) W) (Region.pdats_A2 _ _ _ _ _ _ c)) $$ Hb
    icases H with ⟨Ha, Hr⟩
    isplitl [Ha]; · iexact Ha
    isplitr; · iempintro
    isplitl [HO]
    · iapply (Pipeline.owesWithin_mono c O (B := R) (B' := (fam O R W 1 c).bound (none : HIx 1) 0) Set.subset_union_left); iexact HO
    isplitr; · iempintro
    iexact Hr
  hin c := Region.hin2 _ _ _ _ _ _ c
  hout c := Region.hout2 _ _ _ _ _ _ c
  hexit c := by
    have e : ∀ b : Ref sig .tc, dr b ≠ dr main_v8 → tv (d := c) (Wr1 O R W c) b = tv (d := c) W b := fun b h => Function.update_of_ne h _ _
    have hval : ∀ w : Fin 5, tv (d := c) (Wr1 O R W c) (Pipeline.arrRef spec2 w) = (fam O R W 1 c).arrAt w (Pipeline.pin (pcfgs (F := F)) Region.adm 1).N := fun w =>
      match w with
      | 0 => (e _ (by decide)).trans (Region.pdats_arrAt_in2 (fun _ => O) (fun _ => O) (fun _ => R) (fun _ => R) (fun c => tv (d := c) W) (fun c => tv (d := c) W) c 0 (by decide) (Pipeline.pin (pcfgs (F := F)) Region.adm 1).N).symm
      | 1 => (e _ (by decide)).trans (Region.pdats_arrAt_in2 (fun _ => O) (fun _ => O) (fun _ => R) (fun _ => R) (fun c => tv (d := c) W) (fun c => tv (d := c) W) c 1 (by decide) (Pipeline.pin (pcfgs (F := F)) Region.adm 1).N).symm
      | 2 => (e _ (by decide)).trans (Region.pdats_arrAt_in2 (fun _ => O) (fun _ => O) (fun _ => R) (fun _ => R) (fun c => tv (d := c) W) (fun c => tv (d := c) W) c 2 (by decide) (Pipeline.pin (pcfgs (F := F)) Region.adm 1).N).symm
      | 3 => (e _ (by decide)).trans (Region.pdats_arrAt_in2 (fun _ => O) (fun _ => O) (fun _ => R) (fun _ => R) (fun c => tv (d := c) W) (fun c => tv (d := c) W) c 3 (by decide) (Pipeline.pin (pcfgs (F := F)) Region.adm 1).N).symm
      | 4 => Function.update_self _ _ _
    have hval' : ∀ w : Fin (Pipeline.pin (pcfgs (F := F)) Region.adm 1).W, tv (d := c) (Wr1 O R W c) (Pipeline.arrRef (Pipeline.pin (pcfgs (F := F)) Region.adm 1).spec w) = (fam O R W 1 c).arrAt w (Pipeline.pin (pcfgs (F := F)) Region.adm 1).N := hval
    have hrest : (Pipeline.unscopedRest (Pipeline.pin (pcfgs (F := F)) Region.adm 1).spec c (tv (d := c) (Wr1 O R W c)) : sProp 𝕄) = Pipeline.unscopedRest spec2 c (tv (d := c) W) := by
      show (Pipeline.unscopedRest spec2 c (tv (d := c) (Wr1 O R W c)) : sProp 𝕄) = _
      rw [unscopedRest2_eq c (tv (d := c) (Wr1 O R W c)), unscopedRest2_eq c (tv (d := c) W),
        e main_arg1 (by decide), e main_arg2 (by decide), e main_arg3 (by decide), e main_v0 (by decide), e main_v1 (by decide), e main_v2 (by decide),
      e main_v3 (by decide), e main_v4_0 (by decide), e main_v4_1 (by decide)]
    rw [held_all_unscoped, Pipeline.unscopedBufs_split (Pipeline.pin (pcfgs (F := F)) Region.adm) 1 launch2.win.arr_unscoped launch2.win.arr_inj c (tv (d := c) (Wr1 O R W c)),
      Pipeline.arrays_eq (Pipeline.pin (pcfgs (F := F)) Region.adm) (fam O R W) 1 c arr_whole2 (Region.pdats_share2 _ _ _ _ _ _ c),
      hrest, bigSep_congr fun w _ => by rw [← hval' w]]
    iintro ⟨Ha, HO, -, Hr⟩
    imodintro
    isplitl [Ha Hr]
    · isplitl [Ha] <;> iassumption
    iexact HO

theorem reg0_pre (hO : ∀ g, O g none = 0) (c : Dev nD) :
    (reg0 O R W hO).pre c = iprop(held (c.tc : Thread nD τ) allBufs W ∗ Pipeline.owesWithin c O R) := rfl
theorem reg0_post (hO : ∀ g, O g none = 0) (c : Dev nD) :
    (reg0 O R W hO).post c = iprop(held (c.tc : Thread nD τ) allBufs (Wr0 O R W c) ∗ Pipeline.owesWithin c O (R ∪ cfg0.waitPairs (none : HIx 1))) := rfl
theorem reg1_pre (hO : ∀ g, O g none = 0) (c : Dev nD) :
    (reg1 O R W hO).pre c = iprop(held (c.tc : Thread nD τ) allBufs W ∗ Pipeline.owesWithin c O R) := rfl
theorem reg1_post (hO : ∀ g, O g none = 0) (c : Dev nD) :
    (reg1 O R W hO).post c = iprop(held (c.tc : Thread nD τ) allBufs (Wr1 O R W c) ∗ Pipeline.owesWithin c O (R ∪ cfg2.waitPairs (none : HIx 1))) := rfl

end Regions

end Cert.KernelIdeal.Hand

end
-- ==== Proof.PoolDefs.lean ====
import proofs.«203204_g25512105739078_cont_8to1_1946_3_alg».proof.Proof.Common

noncomputable section

namespace Cert.KernelIdeal.Hand.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The pooled sums as pure functions

One output row is the left-to-right sum, over the thirteen groups of sixteen lanes of a row of labels, of the
gathered table entries (resp. of ones) on the lanes whose label is positive; the thirteenth group keeps its
first eight lanes only. -/

section Pure
variable [FloatOps F]

/-- A gather that is total: the entry an index names, entry 0 for an index outside the table. -/
def gath (tvec : Vec F S100000 .f32) (idx : IVec S16 32) : Vec F S16 .f32 :=
  fun x => if h : (idx x).toNat < 100000 then tvec (Shape.ofLane (d := ![100000]) ⟨(idx x).toNat, h⟩) else tvec (Shape.ofLane (d := ![100000]) ⟨0, by decide⟩)

theorem loadIdx_eq_gath (tvec : Vec F S100000 .f32) (idx : IVec S16 32) (h : ∀ a x, ((![idx] : Fin 1 → IVec S16 32) a x).toNat < S100000.size a) :
    loadIdx tvec ![idx] h = gath tvec idx := by
  funext x
  have hx : (idx x).toNat < 100000 := h 0 x
  unfold loadIdx gath idxAt
  rw [dif_pos hx]
  congr 1
  funext a
  obtain rfl : a = 0 := Subsingleton.elim _ _
  exact Fin.ext rfl

/-- The lanes of a group whose label is positive. -/
def grpMask (lab : IVec S16 32) : IVec S16 1 := cmpi .sgt lab (broadcast S16 0#32)
/-- The first eight lanes. -/
def lane8 : IVec S16 1 := cmpi .slt (iota .scVector S16 32 [0] iota_S16_d0_w32_scVector) (broadcast S16 8#32)
/-- The thirteenth group's lanes: label positive and lane below eight. -/
def lastMask (lab : IVec S16 32) : IVec S16 1 := andi (grpMask lab) lane8

/-- One group added to the running sum of gathered entries. -/
def stepS (tvec : Vec F S100000 .f32) (m : IVec S16 1) (lab : IVec S16 32) (acc : FVec F S16 .f32) : FVec F S16 .f32 :=
  addf acc (select m (gath tvec (select m lab (broadcast S16 0#32))) (broadcast S16 (Scalar.ofBits .f32 0x00000000#32)))
/-- One group added to the running count. -/
def stepC (m : IVec S16 1) (acc : FVec F S16 .f32) : FVec F S16 .f32 :=
  addf acc (select m (broadcast S16 (Scalar.ofBits .f32 0x3F800000#32)) (broadcast S16 (Scalar.ofBits .f32 0x00000000#32)))

def zeroV : FVec F S16 .f32 := broadcast S16 (Scalar.ofBits .f32 0x00000000#32)

/-- A row's sixteen partial sums of gathered entries, from its thirteen groups of labels. -/
def rowS (tvec : Vec F S100000 .f32) (lab : Fin 13 → IVec S16 32) : FVec F S16 .f32 :=
  stepS tvec (lastMask (lab 12)) (lab 12) (stepS tvec (grpMask (lab 11)) (lab 11) (stepS tvec (grpMask (lab 10)) (lab 10)
  (stepS tvec (grpMask (lab 9)) (lab 9) (stepS tvec (grpMask (lab 8)) (lab 8) (stepS tvec (grpMask (lab 7)) (lab 7)
  (stepS tvec (grpMask (lab 6)) (lab 6) (stepS tvec (grpMask (lab 5)) (lab 5) (stepS tvec (grpMask (lab 4)) (lab 4)
  (stepS tvec (grpMask (lab 3)) (lab 3) (stepS tvec (grpMask (lab 2)) (lab 2) (stepS tvec (grpMask (lab 1)) (lab 1)
  (stepS tvec (grpMask (lab 0)) (lab 0) zeroV))))))))))))
/-- A row's sixteen partial counts. -/
def rowC (lab : Fin 13 → IVec S16 32) : FVec F S16 .f32 :=
  stepC (lastMask (lab 12)) (stepC (grpMask (lab 11)) (stepC (grpMask (lab 10))
  (stepC (grpMask (lab 9)) (stepC (grpMask (lab 8)) (stepC (grpMask (lab 7))
  (stepC (grpMask (lab 6)) (stepC (grpMask (lab 5)) (stepC (grpMask (lab 4))
  (stepC (grpMask (lab 3)) (stepC (grpMask (lab 2)) (stepC (grpMask (lab 1))
  (stepC (grpMask (lab 0)) zeroV))))))))))))

/-- Word `n` of the flat labels, 0 past the end (the thirteenth group of the very last row names eight such words;
    they are masked). -/
def labAt (labs : Vec F S819200 .i32) (n : ℕ) : BitVec 32 := if h : n < 819200 then labs (Shape.ofLane (d := ![819200]) ⟨n, h⟩) else 0#32
/-- Group `g` of row `R` of the flat labels, as sixteen lanes. -/
def labRow (labs : Vec F S819200 .i32) (R : ℕ) (g : Fin 13) : IVec S16 32 := fun x => labAt labs (R * 200 + g.val * 16 + (x 0).val)

/-- The pooled sums, flat: word `16 R + lane` is lane `lane` of row `R`'s partial sums. -/
def poolS (tvec : Vec F S100000 .f32) (labs : Vec F S819200 .i32) : Vec F S65536 .f32 :=
  fun x => rowS tvec (labRow labs ((x 0).val / 16)) (Shape.ofLane (d := ![16]) ⟨(x 0).val % 16, Nat.mod_lt _ (by decide)⟩)
/-- The pooled counts, flat. -/
def poolC (labs : Vec F S819200 .i32) : Vec F S65536 .f32 :=
  fun x => rowC (F := F) (labRow labs ((x 0).val / 16)) (Shape.ofLane (d := ![16]) ⟨(x 0).val % 16, Nat.mod_lt _ (by decide)⟩)

end Pure

/-! ## One tile's resources -/

/-- The coordinates of a tile, spelt as the body table spells them. -/
abbrev coordsV (c : Fin (grid1.bound 0)) (i : Fin (grid1.bound 1)) : grid1.Coords :=
  fun | 0 => c | 1 => i | ⟨_ + 2, h⟩ => absurd h (Nat.not_lt.2 (Nat.le_add_left _ _))

abbrev tV : Memref sig .scVector .hbm S100000 .f32 := Memref.whole main_v2_scv
abbrev lV : Memref sig .scVector .hbm S819200 .i32 := Memref.whole main_v3_scv
abbrev sV : Memref sig .scVector .hbm S65536 .f32 := Memref.whole main_v4_0_scv
abbrev cV : Memref sig .scVector .hbm S65536 .f32 := Memref.whole main_v4_1_scv
abbrev tS : Memref sig .scVector .vmem S100000 .f32 := Memref.whole cc1_scratch0
abbrev lS : Memref sig .scVector .vmem S6416 .i32 := Memref.whole cc1_scratch1
abbrev sS : Memref sig .scVector .vmem S2048 .f32 := Memref.whole cc1_scratch2
abbrev cS : Memref sig .scVector .vmem S2048 .f32 := Memref.whole cc1_scratch3

abbrev tLoc (d : Dev nD) : Loc nD τ sig := (SparseCore.T d).loc main_v2
abbrev lLoc (d : Dev nD) : Loc nD τ sig := (SparseCore.T d).loc main_v3
abbrev sLoc (d : Dev nD) : Loc nD τ sig := (SparseCore.T d).loc main_v4_0
abbrev cLoc (d : Dev nD) : Loc nD τ sig := (SparseCore.T d).loc main_v4_1

/-- Chunk `j` (32 rows, 6400 words) of a tile's labels, as the kernel slices it. -/
abbrev labCh (c : Fin (grid1.bound 0)) (i : Fin (grid1.bound 1)) (j : Fin 4) : Memref sig .scVector .hbm S6400 .i32 :=
  (lV).slice (Rect.unit (s := S819200) (k1_off1 (coordsV c i) (BitVec.ofNat 32 (6400 * j.val))) S6400.size (k1_off1_inb (coordsV c i) j)) (fun _ => rfl)
/-- A tile's 2048 words of each result, as the kernel slices them. -/
abbrev outS (c : Fin (grid1.bound 0)) (i : Fin (grid1.bound 1)) : Memref sig .scVector .hbm S2048 .f32 :=
  (sV).slice (Rect.unit (s := S65536) (k1_off58 (coordsV c i)) S2048.size (k1_off58_inb (coordsV c i))) (fun _ => rfl)
abbrev outC (c : Fin (grid1.bound 0)) (i : Fin (grid1.bound 1)) : Memref sig .scVector .hbm S2048 .f32 :=
  (cV).slice (Rect.unit (s := S65536) (k1_off58 (coordsV c i)) S2048.size (k1_off58_inb (coordsV c i))) (fun _ => rfl)

variable [FloatOps F]

/-- What a tile is handed: a read share `qT` of the whole table `t` at `tv`, a read share `qL` of the whole flat labels at `labs`,
    its pieces of the two results at whatever they hold. -/
def tileGo (qT qL : PosShare TreeShare) (d : Dev nD) (tv : Buf (Elt F) (tLoc d)) (labs : Buf (Elt F) (lLoc d))
    (c : Fin (grid1.bound 0)) (i : Fin (grid1.bound 1)) : sProp 𝕄 :=
  iprop((tLoc d ↦{qT} tv)
    ∗ (lLoc d ↦{qL} labs)
    ∗ (∃ f, sLoc d ↦[(outS c i).view.set]{fullShare} f) ∗ (∃ f, cLoc d ↦[(outC c i).view.set]{fullShare} f))

/-- What it hands back: the same, its pieces of the results at the pooled sums and counts. -/
def tileTd (qT qL : PosShare TreeShare) (d : Dev nD) (tv : Buf (Elt F) (tLoc d)) (labs : Buf (Elt F) (lLoc d))
    (c : Fin (grid1.bound 0)) (i : Fin (grid1.bound 1)) : sProp 𝕄 :=
  iprop((tLoc d ↦{qT} tv)
    ∗ (lLoc d ↦{qL} labs)
    ∗ (sLoc d ↦[(outS c i).view.set]{fullShare} (poolS (F := F) tv labs : Buf (Elt F) (sLoc d)))
    ∗ (cLoc d ↦[(outC c i).view.set]{fullShare} (poolC (F := F) labs : Buf (Elt F) (cLoc d))))

/-- The frame-only form of what it hands back: the results' pieces at some contents. -/
def tileTd₀ (qT qL : PosShare TreeShare) (d : Dev nD) (tv : Buf (Elt F) (tLoc d)) (labs : Buf (Elt F) (lLoc d))
    (c : Fin (grid1.bound 0)) (i : Fin (grid1.bound 1)) : sProp 𝕄 :=
  iprop((tLoc d ↦{qT} tv)
    ∗ (lLoc d ↦{qL} labs)
    ∗ (∃ f, sLoc d ↦[(outS c i).view.set]{fullShare} f) ∗ (∃ f, cLoc d ↦[(outC c i).view.set]{fullShare} f))

theorem tileTd_mono (qT qL : PosShare TreeShare) (d : Dev nD) (tv : Buf (Elt F) (tLoc d)) (labs : Buf (Elt F) (lLoc d))
    (c : Fin (grid1.bound 0)) (i : Fin (grid1.bound 1)) : tileTd qT qL d tv labs c i ⊢ tileTd₀ qT qL d tv labs c i := by
  unfold tileTd tileTd₀
  iintro ⟨Ht, Hl, Hs, Hc⟩
  isplitl [Ht]; · iexact Ht
  isplitl [Hl]; · iexact Hl
  isplitl [Hs]; · iexists _; iexact Hs
  iexists _; iexact Hc

end Cert.KernelIdeal.Hand.Pool

end
-- ==== Proof.LaunchPay.lean ====
/-
  What the SparseCore call's handshakes carry. Both inputs of the pooling kernel are only read, so every tile
  is handed a read share of each whole array: the full share is split between the two SparseCores, and each
  SparseCore's share among its sixteen tiles, the remainder resting with the sequencer's payload. The two
  results are written in thirty-two disjoint slices of 2048 words, one per tile, each handed at the full share.
  The tile's task, proved once at a symbolic tile, is the launch theorem's obligation after lifting to the
  pipelines' body table.
-/
import proofs.«203204_g25512105739078_cont_8to1_1946_3_alg».proof.Proof.Common
import proofs.«203204_g25512105739078_cont_8to1_1946_3_alg».proof.Proof.PoolDefs
import proofs.«203204_g25512105739078_cont_8to1_1946_3_alg».proof.Proof.LaunchState

noncomputable section

namespace Cert.KernelIdeal.Hand

open Cert.KernelIdeal Cert.KernelIdeal.Gen Cert.KernelIdeal.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.Transfers (shareTok shareDrop shareTokN pointsTo_toks)

variable {F : FTy → Type}

local notation "𝕄" => MT nD τ sig (HIx 1) (Elt F) ℕ UU ℕ

/-! ## The read shares -/

/-- SparseCore `c`'s share of an input, tile `(c, i)`'s, and what stays with the sequencer's payload. -/
abbrev qCore (c : Fin 2) : PosShare TreeShare := shareTok fullShare 2 c
abbrev qTile (c : Fin 2) (i : Fin 16) : PosShare TreeShare := shareTok (qCore c) 16 i
abbrev qRest (c : Fin 2) : PosShare TreeShare := shareDrop (qCore c) 16
/-- What stays with the TensorCore during the call. -/
abbrev qKeep : PosShare TreeShare := shareDrop fullShare 2

variable [FloatOps F]

section Payload

variable (tv : (d : Dev nD) → Buf (Elt F) (tLoc d)) (labs : (d : Dev nD) → Buf (Elt F) (lLoc d))

/-- Tile `(c, i)`'s resources, indexed by numbers (nothing outside the grid). -/
def goN (d : Dev nD) (c i : ℕ) : sProp 𝕄 :=
  if h : c < 2 ∧ i < 16 then tileGo (qTile ⟨c, h.1⟩ ⟨i, h.2⟩) (qTile ⟨c, h.1⟩ ⟨i, h.2⟩) d (tv d) (labs d) ⟨c, h.1⟩ ⟨i, h.2⟩ else iprop(emp)

/-- SparseCore `c`'s: the remainder of its read shares and its sixteen tiles'. -/
def stN (d : Dev nD) (c : ℕ) : sProp 𝕄 :=
  if h : c < 2 then iprop((tLoc d ↦{qRest ⟨c, h⟩} tv d) ∗ (lLoc d ↦{qRest ⟨c, h⟩} labs d) ∗ bigSep Finset.univ fun i : Fin 16 => goN tv labs d c i.val)
  else iprop(emp)

theorem goN_eq (d : Dev nD) (c : Fin 2) (i : Fin 16) :
    goN tv labs d c.val i.val = tileGo (qTile c i) (qTile c i) d (tv d) (labs d) c i := dif_pos ⟨c.isLt, i.isLt⟩
theorem stN_eq (d : Dev nD) (c : Fin 2) :
    stN tv labs d c.val = iprop((tLoc d ↦{qRest c} tv d) ∗ (lLoc d ↦{qRest c} labs d) ∗ bigSep Finset.univ fun i : Fin 16 => goN tv labs d c.val i.val) :=
  dif_pos c.isLt

instance goN_storable (d : Dev nD) (c i : ℕ) : BI.Storable (upEmb : UEmb _ 𝕄) (goN tv labs d c i) := by
  unfold goN tileGo; split <;> infer_instance
instance stN_storable (d : Dev nD) (c : ℕ) : BI.Storable (upEmb : UEmb _ 𝕄) (stN tv labs d c) := by
  unfold stN; split <;> infer_instance

/-- The call's payloads (frame form: a tile hands back what it was handed, its pieces of the results at
    whatever they hold). -/
def P₀ : (K (F := F)).Pay (nD := nD) (Val := Elt F) (Name := ℕ) (U := UU) where
  st := fun _ d c => stN tv labs d c.val
  dn := fun _ d c => stN tv labs d c.val
  go := fun _ d c i => goN tv labs d c.val i.val
  td := fun _ d c i => goN tv labs d c.val i.val
  x := fun _ _ => iprop(emp)

instance P₀_storable : (P₀ (F := F) tv labs).IsStorable where
  st _ d c := by unfold P₀; infer_instance
  dn _ d c := by unfold P₀; infer_instance
  go _ _ _ _ := by unfold P₀; infer_instance
  td _ _ _ _ := by unfold P₀; infer_instance

/-- A SparseCore's operands are its tiles' and a remainder; the results gather the same way. -/
theorem vecSplit₀ : (K (F := F)).VecSplit' (P₀ tv labs) 0 := by
  intro d c
  show stN tv labs d c.val ⊢ |={Set.univ}=> iprop((bigSep Finset.univ fun i : Fin 16 => goN tv labs d c.val i.val)
      ∗ ((bigSep Finset.univ fun i : Fin 16 => goN tv labs d c.val i.val) -∗ stN tv labs d c.val))
  rw [stN_eq tv labs d c]
  iintro ⟨Ht, Hl, Hgo⟩
  imodintro
  isplitl [Hgo]; · iexact Hgo
  iintro Htd
  isplitl [Ht]; · iexact Ht
  isplitl [Hl]; · iexact Hl
  iexact Htd

end Payload

end Cert.KernelIdeal.Hand

end
-- ==== Proof.LaunchTile.lean ====
/-
  The pooling kernel's task on one tile, proved at a symbolic tile over the kernel's own body table, is the
  launch theorem's obligation for the call: the label's row is the kernel at the tile's coordinates, the lifting
  to the pipelines' table keeps the proof, and the tile owes nothing of its own.
-/
import proofs.«203204_g25512105739078_cont_8to1_1946_3_alg».proof.Proof.LaunchPay

noncomputable section

namespace Cert.KernelIdeal.Hand

open Cert.KernelIdeal Cert.KernelIdeal.Gen Cert.KernelIdeal.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type}

local notation "𝕄" => MT nD τ sig (HIx 1) (Elt F) ℕ UU ℕ

variable [FloatOps F]

/-- The thread of tile `(c, i)` of the kernel's grid. -/
abbrev tileThr (d : Dev nD) (c : Fin (grid1.bound 0)) (i : Fin (grid1.bound 1)) : Thread nD τ := V d (c.castLE hcore1) (i.castLE hsub1)

/-- The statement of the tile's task (frame form). -/
def TileBody₀ : Prop :=
  ∀ (qT qL : PosShare TreeShare) (d : Dev nD) (tv : Buf (Elt F) (tLoc d)) (labs : Buf (Elt F) (lLoc d)) (_ : ∀ x, (labs x).toNat < 100000)
    (c : Fin (grid1.bound 0)) (i : Fin (grid1.bound 1)) (O : CellTallies nD τ sig (HIx 1)) (W : Waits sig (HIx 1)) (_ : ∀ g, O g none = 0),
    iprop(levAts (K (F := F)).L (K (F := F)).lev ∗ tileGo qT qL d tv labs c i ∗ scopedBufs (tileThr d c i) ∗ scopedSems0 (tileThr d c i) ∗ owes (tileThr d c i) O W)
      ⊢ wp frame (wpE (defs₀ (F := F)) 𝒱₀ (tileThr d c i) none) Set.univ
          (cc1__pool (coordsV c i) tV (Memref.isWhole_whole _) lV (Memref.isWhole_whole _) sV (Memref.isWhole_whole _) cV (Memref.isWhole_whole _) tS (Memref.isWhole_whole _) lS (Memref.isWhole_whole _) sS (Memref.isWhole_whole _) cS (Memref.isWhole_whole _) cc1_scoped0 cc1_scoped1 cc1_scoped2 cc1_scoped3 cc1_scoped4 cc1_scoped5 cc1_scoped6)
          fun _ => (iprop(tileTd₀ qT qL d tv labs c i ∗ scopedBufs (tileThr d c i) ∗ scopedSems0 (tileThr d c i)
            ∗ ∃ W', ⌜∀ p ∈ W', p ∈ W ∨ p.2 = none⌝ ∗ owes (tileThr d c i) O W') : sProp 𝕄)

theorem defs₀_vector (c : Fin τ.nSC) (s : Fin τ.nSub) :
    defs₀ (F := F) (.scVector c s) 1 ()
      = SparseCore.onTile hcore1 hsub1 (fun c i => cc1__pool (coordsV c i) tV (Memref.isWhole_whole _) lV (Memref.isWhole_whole _) sV (Memref.isWhole_whole _) cV (Memref.isWhole_whole _) tS (Memref.isWhole_whole _) lS (Memref.isWhole_whole _) sS (Memref.isWhole_whole _) cS (Memref.isWhole_whole _) cc1_scoped0 cc1_scoped1 cc1_scoped2 cc1_scoped3 cc1_scoped4 cc1_scoped5 cc1_scoped6) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (tv : (d : Dev nD) → Buf (Elt F) (tLoc d)) (labs : (d : Dev nD) → Buf (Elt F) (lLoc d))

/-- The launch theorem's obligation for the call, from the tile's task. -/
theorem tileObl₀ (hbody : TileBody₀ (F := F)) (hlab : ∀ d x, (labs d x).toNat < 100000) :
    (K (F := F)).TileObl (D (F := F)) 𝒱 (P₀ tv labs) v₀ 0 := by
  intro d c i O W hO _ _
  simp only [show (P₀ tv labs).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 := c.isLt
  have hi : ((K (F := F)).sub 0 i).val < grid1.bound 1 := i.isLt
  rw [defs₀_vector]; simp only [SparseCore.onTile, hc, hi, and_self, ↓reduceDIte]
  have e := goN_eq tv labs d ⟨((K (F := F)).core 0 c).val, hc⟩ ⟨((K (F := F)).sub 0 i).val, hi⟩
  have hb := hbody (qTile ⟨((K (F := F)).core 0 c).val, hc⟩ ⟨((K (F := F)).sub 0 i).val, hi⟩) (qTile ⟨((K (F := F)).core 0 c).val, hc⟩ ⟨((K (F := F)).sub 0 i).val, hi⟩)
    d (tv d) (labs d) (hlab d) ⟨((K (F := F)).core 0 c).val, hc⟩ ⟨((K (F := F)).sub 0 i).val, hi⟩ O W hO
  refine BI.Entails.trans ?_ (hb.trans (wp_mono frame _ _ fun _ => ?_))
  · show iprop(_ ∗ _ ∗ goN tv labs d ((K (F := F)).core 0 c).val ((K (F := F)).sub 0 i).val ∗ _) ⊢ _
    rw [e]
    iintro ⟨Hlv, -, Hgo, Hsb, Hss, HO⟩
    isplitl [Hlv]; · iexact Hlv
    isplitl [Hgo]; · iexact Hgo
    isplitl [Hsb]; · iexact Hsb
    isplitl [Hss]; · iexact Hss
    iexact HO
  · show _ ⊢ iprop(goN tv labs d ((K (F := F)).core 0 c).val ((K (F := F)).sub 0 i).val ∗ _)
    rw [e]
    exact obl_post (q := 0)

end Cert.KernelIdeal.Hand

end
-- ==== Proof.LaunchElem.lean ====
/-
  The launch element of the ghost state: the handshake cells' rounds, the two pipelines' staging cells'
  rounds, and the transfer counters' unit. From it the launch takes the handshakes' part, and each device is
  dealt the ghost state and duty tokens of both pipelines' staging cells; the counters need nothing.
-/
import proofs.«203204_g25512105739078_cont_8to1_1946_3_alg».proof.Proof.Common
import proofs.«203204_g25512105739078_cont_8to1_1946_3_alg».proof.Proof.Gen.KernelIdeal.Launch

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type}

local notation "𝕄" => MT nD τ sig (HIx 1) (Elt F) ℕ UU ℕ

/-- No pipeline has a prefetched table. -/
abbrev adm' : (p : Fin 2) → (pcfgs (F := F) p).Adm := fun p => (cfgs p).toPCfg_adm

/-- The two pipelines as the launch of their cells sees them. -/
abbrev pinC : Fin 2 → Pipeline.Cfg sig Λ₀ := Pipeline.pin (pcfgs (F := F)) adm'

theorem hinjP : Function.Injective (Pipeline.cellOf (nD := nD) (τ := τ) (pinC (F := F))) := cellOf_inj

/-- The launch element. -/
def u₀ : UU :=
  (initOf (K (F := F)).hsCells (K (F := F)).hsToks,
    (initOf (Pipeline.cells (pinC (F := F)) hinjP) (Pipeline.launchToks (pinC (F := F)) hinjP), 1))

/-- What a device's TensorCore is dealt beside its handshake state: both pipelines' cells' ghost state and tokens. -/
def G (d : Dev nD) : sProp 𝕄 :=
  bigSep Finset.univ fun p : Fin 2 => iprop(Pipeline.cellsGhost (pinC (F := F)) EP p d ∗ Pipeline.toksInit (pinC (F := F)) EP p d)

theorem EP_eq : (EP : Emb UP 𝕄) = (Emb.inl : Emb UP (UP × Counters)).trans (embR : Emb (UP × Counters) 𝕄) := rfl

theorem fundP : (BI.own (((Emb.inl : Emb UP (UP × Counters)).trans (embR : Emb (UP × Counters) 𝕄))
        (initOf (Pipeline.cells (pinC (F := F)) hinjP) (Pipeline.launchToks (pinC (F := F)) hinjP))) : sProp 𝕄)
      ⊢ iprop(|==> ((bigSep Finset.univ fun c : Dev nD => bigSep Finset.univ fun p => Pipeline.cellsGhost (pinC (F := F)) (EP (F := F)) p c)
          ∗ (bigSep Finset.univ fun c : Dev nD => bigSep Finset.univ fun p => (Pipeline.toksInit (pinC (F := F)) (EP (F := F)) p c : sProp 𝕄)))) :=
  Pipeline.fund_ghost (pinC (F := F)) (EP (F := F)) hinjP

theorem hu₀ (X : Fin 1 → Thread nD τ → sProp 𝕄) (hX : ∀ q thr, X q thr = iprop(emp)) :
    (ownU (u₀ (F := F)) : sProp 𝕄)
      ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => X q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  imod (fundP (F := F)) $$ HP with ⟨Hg, Ht⟩
  imodintro
  isplitl [HH]; · iexact HH
  isplitl [Hg Ht]
  · unfold G
    simp only [bigSep_sep']
    isplitl [Hg] <;> iassumption
  rw [show (bigSep Finset.univ fun thr : Thread nD τ => bigSep Finset.univ fun q : Fin 1 => X q thr) = (iprop(emp) : sProp 𝕄) from by
    rw [bigSep_congr fun thr _ => (bigSep_congr fun q _ => hX q thr).trans (BI.bigSep_emp_const _), BI.bigSep_emp_const]; rfl]
  iempintro

end Cert.KernelIdeal.Hand

end
-- ==== Proof.LaunchTc.lean ====
/-
  The TensorCore's handshake state before a call, opened: what it owes, with its recorded pairs at or below
  the call's base level, and the rest (its position on the done cell and the tokens of the later calls). The
  staging cells of a pipeline are waited on at the kernels' own index, which sits at level zero, so a
  pipeline region's added pairs stay within the bound; and the start signals owed sit above level zero, so
  nothing is owed at that index.
-/
import proofs.«203204_g25512105739078_cont_8to1_1946_3_alg».proof.Proof.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.SparseCore.Cfg (callsFrom)

variable {F : FTy → Type}

local notation "𝕄" => MT nD τ sig (HIx 1) (Elt F) ℕ UU ℕ

/-- The pairs at or below the base level of call `n`. -/
def lvlSet (d : Dev nD) (n : ℕ) : Set (SemLoc sig × HIx 1) := {p | (K (F := F)).lev (SparseCore.T d, p.1) p.2 ≤ 8 * n}

/-- The rest of the TensorCore's state before call `n`. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_elim (d : Dev nD) (n : ℕ) :
    ((K (F := F)).tcSt EH d n : sProp 𝕄) ⊢ iprop(Pipeline.owesWithin d ((K (F := F)).Otc d n) (lvlSet (F := F) d n) ∗ tcRest (F := F) d n) := by
  unfold SparseCore.Cfg.tcSt tcRest
  iintro ⟨⟨%W, %hW, HO⟩, Hrest⟩
  isplitl [HO]
  · iexists W; isplitr
    · ipureintro; exact fun p hp => hW p (by simpa using hp)
    · iexact HO
  iexact Hrest

theorem tcSt_intro (d : Dev nD) (n : ℕ) (R' : Set (SemLoc sig × HIx 1)) (h : R' ⊆ lvlSet (F := F) d n) :
    iprop(Pipeline.owesWithin d ((K (F := F)).Otc d n) R' ∗ tcRest (F := F) d n) ⊢ ((K (F := F)).tcSt EH d n : sProp 𝕄) := by
  unfold SparseCore.Cfg.tcSt tcRest
  iintro ⟨⟨%W, %hW, HO⟩, Hrest⟩
  isplitl [HO]
  · iexists W; isplitr
    · ipureintro; exact fun p hp => h (hW (by simpa using hp))
    · iexact HO
  iexact Hrest

/-- Nothing is owed at the kernels' own index. -/
theorem Otc_none (d : Dev nD) (n : ℕ) (g : GSem nD τ sig) : (K (F := F)).Otc d n g none = 0 := by
  by_contra h
  have := (K (F := F)).lev_of_Otc_pos (Nat.pos_of_ne_zero h)
  simp at this

/-- A pipeline's own waits stay within the bound. -/
theorem lvlSet_waitPairs (d : Dev nD) (n : ℕ) (cfg : Pipeline.Cfg sig Λ₀) : lvlSet (F := F) d n ∪ cfg.waitPairs (none : HIx 1) ⊆ lvlSet (F := F) d n := by
  rintro p (hp | ⟨w, s, rfl⟩)
  · exact hp
  · show (K (F := F)).lev _ none ≤ _
    simp

end Cert.KernelIdeal.Hand

end
-- ==== Proof.LaunchSplit.lean ====
/-
  Dealing arrays to the tiles and gathering them back. An array that is only read is held whole at the full
  share, which is what the TensorCore keeps, the two SparseCores' remainders and the thirty-two tiles' read
  shares together; an array written in disjoint pieces that exhaust it is the pieces, each at contents of its
  own, and pieces at whatever they hold join to the whole array at some contents.
-/
import proofs.«203204_g25512105739078_cont_8to1_1946_3_alg».proof.Proof.LaunchPay

noncomputable section

namespace Cert.KernelIdeal.Hand

open Cert.KernelIdeal Cert.KernelIdeal.Gen Cert.KernelIdeal.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.Transfers (shareTok shareDrop shareTokN pointsTo_toks)

variable {F : FTy → Type}

local notation "𝕄" => MT nD τ sig (HIx 1) (Elt F) ℕ UU ℕ

theorem bigSep_fin2 {M : Type} [URA M] (Φ : Fin 2 → sProp M) : bigSep Finset.univ Φ = iprop(Φ 0 ∗ Φ 1) :=
  bigSep_univ_eq_bigSepL [(0 : Fin 2), (1 : Fin 2)] (by decide) (by decide) Φ

section Shares

variable {ℓ : Loc nD τ sig} (f : Buf (Elt F) ℓ)

/-- The read shares of one SparseCore. -/
abbrev coreShares (c : Fin 2) : sProp 𝕄 := iprop((ℓ ↦{qRest c} f) ∗ bigSep Finset.univ fun i : Fin 16 => ℓ ↦{qTile c i} f)

/-- A whole array at the full share, dealt. -/
theorem share_deal : (ℓ ↦{fullShare} f : sProp 𝕄) ⊢ iprop((ℓ ↦{qKeep} f) ∗ coreShares f 0 ∗ coreShares f 1) := by
  have h1 := (pointsTo_toks (ℓ := ℓ) (S := Finset.univ) (f := f) (nD := nD) (τ := τ) (sig := sig) (Ix := HIx 1) (Val := Elt F) (Name := ℕ) (U := UU) (Lvl := ℕ) fullShare 2).1
  rw [bigSep_fin2] at h1
  have h2 := fun c : Fin 2 => (pointsTo_toks (ℓ := ℓ) (S := Finset.univ) (f := f) (nD := nD) (τ := τ) (sig := sig) (Ix := HIx 1) (Val := Elt F) (Name := ℕ) (U := UU) (Lvl := ℕ) (qCore c) 16).1
  refine h1.trans ?_
  iintro ⟨Hk, H0, H1⟩
  isplitl [Hk]; · iexact Hk
  isplitl [H0]
  · iapply (h2 0); iexact H0
  · iapply (h2 1); iexact H1

/-- and gathered back. -/
theorem share_gather : iprop((ℓ ↦{qKeep} f) ∗ coreShares f 0 ∗ coreShares f 1) ⊢ (ℓ ↦{fullShare} f : sProp 𝕄) := by
  have h1 := (pointsTo_toks (ℓ := ℓ) (S := Finset.univ) (f := f) (nD := nD) (τ := τ) (sig := sig) (Ix := HIx 1) (Val := Elt F) (Name := ℕ) (U := UU) (Lvl := ℕ) fullShare 2).2
  rw [bigSep_fin2] at h1
  have h2 := fun c : Fin 2 => (pointsTo_toks (ℓ := ℓ) (S := Finset.univ) (f := f) (nD := nD) (τ := τ) (sig := sig) (Ix := HIx 1) (Val := Elt F) (Name := ℕ) (U := UU) (Lvl := ℕ) (qCore c) 16).2
  refine BIBase.Entails.trans ?_ h1
  iintro ⟨Hk, H0, H1⟩
  isplitl [Hk]; · iexact Hk
  isplitl [H0]
  · iapply (h2 0); iexact H0
  · iapply (h2 1); iexact H1

end Shares

section Pieces

variable {ℓ : Loc nD τ sig} {T : Type} [DecidableEq T]

/-- Disjoint pieces, each at contents of its own, are their union at some contents. -/
theorem pieces_join (S : Finset T) (Kp : T → Finset (Idx ℓ)) (f₀ : Buf (Elt F) ℓ)
    (h : ∀ t ∈ S, ∀ t' ∈ S, t ≠ t' → Disjoint (Kp t) (Kp t')) :
    bigSep S (fun t => (iprop(∃ f, ℓ ↦[Kp t]{fullShare} f) : sProp 𝕄)) ⊢ (iprop(∃ g, ℓ ↦[S.biUnion Kp]{fullShare} g) : sProp 𝕄) := by
  induction S using Finset.induction_on with
  | empty =>
    iintro -
    iexists f₀
    rw [Finset.biUnion_empty, pointsTo_empty]
    iempintro
  | insert t S ht ih =>
    rw [SparseCore.bigSep_insert' ht, Finset.biUnion_insert]
    have hd : Disjoint (Kp t) (S.biUnion Kp) :=
      (Finset.disjoint_biUnion_right _ _ _).mpr fun t' ht' =>
        h t (Finset.mem_insert_self _ _) t' (Finset.mem_insert_of_mem ht') (fun e => ht (e ▸ ht'))
    have ih' := ih fun a ha b hb => h a (Finset.mem_insert_of_mem ha) b (Finset.mem_insert_of_mem hb)
    iintro ⟨⟨%f, Hf⟩, Hrest⟩
    ihave Hg := (ih') $$ Hrest
    icases Hg with ⟨%g, Hg⟩
    iexists ((S.biUnion Kp).piecewise g f)
    iapply (pointsTo_join hd)
    isplitl [Hf] <;> iassumption

/-- A whole array at some contents is its disjoint, exhaustive pieces, each at some contents. -/
theorem pieces_split [Fintype T] (Kp : T → Finset (Idx ℓ))
    (h : ∀ t ∈ (Finset.univ : Finset T), ∀ t' ∈ (Finset.univ : Finset T), t ≠ t' → Disjoint (Kp t) (Kp t'))
    (hc : (Finset.univ : Finset T).biUnion Kp = Finset.univ) :
    (iprop(∃ f, ℓ ↦{fullShare} f) : sProp 𝕄) ⊢ bigSep Finset.univ (fun t => (iprop(∃ f, ℓ ↦[Kp t]{fullShare} f) : sProp 𝕄)) := by
  iintro ⟨%f, Hf⟩
  have e : (ℓ ↦{fullShare} f : sProp 𝕄) = bigSep Finset.univ (fun t => (ℓ ↦[Kp t]{fullShare} f : sProp 𝕄)) := by
    rw [← pointsTo_biUnion Finset.univ Kp h, hc]
  have hm : bigSep Finset.univ (fun t => (ℓ ↦[Kp t]{fullShare} f : sProp 𝕄)) ⊢ bigSep Finset.univ (fun t => (iprop(∃ f, ℓ ↦[Kp t]{fullShare} f) : sProp 𝕄)) :=
    bigSep_mono fun t _ => (show (ℓ ↦[Kp t]{fullShare} f : sProp 𝕄) ⊢ iprop(∃ f, ℓ ↦[Kp t]{fullShare} f) from by iintro H; iexists f; iexact H)
  iapply hm
  iapply (Entails.of_eq e)
  iexact Hf

end Pieces

end Cert.KernelIdeal.Hand

end
-- ==== Proof.LaunchCall.lean ====
/-
  The SparseCore call's operands: the table and the labels, held whole and only read, are dealt as read shares;
  each result array, written by the tiles in thirty-two disjoint slices that exhaust it, is dealt slice by slice
  at whatever it holds. What comes back is gathered the same way.
-/
import proofs.«203204_g25512105739078_cont_8to1_1946_3_alg».proof.Proof.LaunchSplit
import proofs.«203204_g25512105739078_cont_8to1_1946_3_alg».proof.Proof.LaunchState

noncomputable section

namespace Cert.KernelIdeal.Hand

open Cert.KernelIdeal Cert.KernelIdeal.Gen Cert.KernelIdeal.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.Transfers (shareTok shareDrop shareTokN pointsTo_toks)

variable {F : FTy → Type}

local notation "𝕄" => MT nD τ sig (HIx 1) (Elt F) ℕ UU ℕ

variable [FloatOps F]

variable (tv : (d : Dev nD) → Buf (Elt F) (tLoc d)) (labs : (d : Dev nD) → Buf (Elt F) (lLoc d))

/-- The slices of the two results, by tile. -/
abbrev setS (t : Fin 2 × Fin 16) : Finset S65536.Idx := (outS t.1 t.2).view.set
abbrev setC (t : Fin 2 × Fin 16) : Finset S65536.Idx := (outC t.1 t.2).view.set

/-- The cover facts about the slices. -/
structure Cover : Prop where
  sd : ∀ t ∈ (Finset.univ : Finset (Fin 2 × Fin 16)), ∀ t' ∈ (Finset.univ : Finset (Fin 2 × Fin 16)), t ≠ t' → Disjoint (setS t) (setS t')
  sc : (Finset.univ : Finset (Fin 2 × Fin 16)).biUnion setS = Finset.univ
  cd : ∀ t ∈ (Finset.univ : Finset (Fin 2 × Fin 16)), ∀ t' ∈ (Finset.univ : Finset (Fin 2 × Fin 16)), t ≠ t' → Disjoint (setC t) (setC t')
  cc : (Finset.univ : Finset (Fin 2 × Fin 16)).biUnion setC = Finset.univ

/-- One SparseCore's payload, from its parts. -/
theorem stN_parts (d : Dev nD) (c : Fin 2) :
    stN tv labs d c.val = iprop((tLoc d ↦{qRest c} tv d) ∗ (lLoc d ↦{qRest c} labs d)
      ∗ ((bigSep Finset.univ fun i : Fin 16 => (tLoc d ↦{qTile c i} tv d : sProp 𝕄))
        ∗ (bigSep Finset.univ fun i : Fin 16 => (lLoc d ↦{qTile c i} labs d : sProp 𝕄))
        ∗ (bigSep Finset.univ fun i : Fin 16 => (iprop(∃ f, sLoc d ↦[setS (c, i)]{fullShare} f) : sProp 𝕄))
        ∗ (bigSep Finset.univ fun i : Fin 16 => (iprop(∃ f, cLoc d ↦[setC (c, i)]{fullShare} f) : sProp 𝕄)))) := by
  rw [stN_eq tv labs d c, bigSep_congr fun i _ => goN_eq tv labs d c i]
  unfold tileGo
  rw [bigSep_sep', bigSep_sep', bigSep_sep']

/-- What the TensorCore keeps of the two inputs during the call. -/
abbrev keepRes (d : Dev nD) : sProp 𝕄 := iprop((tLoc d ↦{qKeep} tv d) ∗ (lLoc d ↦{qKeep} labs d))

/-- The four arrays, dealt to the two SparseCores. -/
theorem call_deal (cov : Cover) (d : Dev nD) :
    iprop((tLoc d ↦{fullShare} tv d) ∗ (lLoc d ↦{fullShare} labs d) ∗ (∃ f, sLoc d ↦{fullShare} f) ∗ (∃ f, cLoc d ↦{fullShare} f))
      ⊢ iprop(keepRes tv labs d ∗ stN tv labs d 0 ∗ stN tv labs d 1) := by
  have e0 := stN_parts tv labs d 0
  have e1 := stN_parts tv labs d 1
  rw [show stN tv labs d 0 = _ from e0, show stN tv labs d 1 = _ from e1]
  have hs := pieces_split (F := F) (ℓ := sLoc d) (T := Fin 2 × Fin 16) setS cov.sd cov.sc
  rw [bigSep_univ_prod, bigSep_fin2] at hs
  have hc := pieces_split (F := F) (ℓ := cLoc d) (T := Fin 2 × Fin 16) setC cov.cd cov.cc
  rw [bigSep_univ_prod, bigSep_fin2] at hc
  iintro ⟨Ht, Hl, Hs, Hc⟩
  ihave Ht' := (share_deal (tv d)) $$ Ht
  icases Ht' with ⟨Htk, ⟨Htr0, Htt0⟩, ⟨Htr1, Htt1⟩⟩
  ihave Hl' := (share_deal (labs d)) $$ Hl
  icases Hl' with ⟨Hlk, ⟨Hlr0, Hlt0⟩, ⟨Hlr1, Hlt1⟩⟩
  ihave Hs' := (hs) $$ Hs
  icases Hs' with ⟨Hs0, Hs1⟩
  ihave Hc' := (hc) $$ Hc
  icases Hc' with ⟨Hc0, Hc1⟩
  isplitl [Htk Hlk]
  · isplitl [Htk] <;> iassumption
  isplitl [Htr0 Htt0 Hlr0 Hlt0 Hs0 Hc0]
  · isplitl [Htr0]; · iexact Htr0
    isplitl [Hlr0]; · iexact Hlr0
    isplitl [Htt0]; · iexact Htt0
    isplitl [Hlt0]; · iexact Hlt0
    isplitl [Hs0] <;> iassumption
  · isplitl [Htr1]; · iexact Htr1
    isplitl [Hlr1]; · iexact Hlr1
    isplitl [Htt1]; · iexact Htt1
    isplitl [Hlt1]; · iexact Hlt1
    isplitl [Hs1] <;> iassumption

/-- and gathered back: the inputs whole as they were, each result whole at some contents. -/
theorem call_gather [∀ e, Nonempty (Elt F e)] (cov : Cover) (d : Dev nD) :
    iprop(keepRes tv labs d ∗ stN tv labs d 0 ∗ stN tv labs d 1)
      ⊢ iprop((tLoc d ↦{fullShare} tv d) ∗ (lLoc d ↦{fullShare} labs d) ∗ (∃ f, sLoc d ↦{fullShare} f) ∗ (∃ f, cLoc d ↦{fullShare} f)) := by
  have e0 := stN_parts tv labs d 0
  have e1 := stN_parts tv labs d 1
  rw [show stN tv labs d 0 = _ from e0, show stN tv labs d 1 = _ from e1]
  have hs := pieces_join (F := F) (ℓ := sLoc d) (T := Fin 2 × Fin 16) Finset.univ setS (Classical.arbitrary _) cov.sd
  rw [bigSep_univ_prod, bigSep_fin2, cov.sc] at hs
  have hc := pieces_join (F := F) (ℓ := cLoc d) (T := Fin 2 × Fin 16) Finset.univ setC (Classical.arbitrary _) cov.cd
  rw [bigSep_univ_prod, bigSep_fin2, cov.cc] at hc
  iintro ⟨⟨Htk, Hlk⟩, ⟨Htr0, Hlr0, Htt0, Hlt0, Hs0, Hc0⟩, ⟨Htr1, Hlr1, Htt1, Hlt1, Hs1, Hc1⟩⟩
  isplitl [Htk Htr0 Htt0 Htr1 Htt1]
  · iapply (share_gather (tv d))
    isplitl [Htk]; · iexact Htk
    isplitl [Htr0 Htt0]
    · isplitl [Htr0] <;> iassumption
    · isplitl [Htr1] <;> iassumption
  isplitl [Hlk Hlr0 Hlt0 Hlr1 Hlt1]
  · iapply (share_gather (labs d))
    isplitl [Hlk]; · iexact Hlk
    isplitl [Hlr0 Hlt0]
    · isplitl [Hlr0] <;> iassumption
    · isplitl [Hlr1] <;> iassumption
  isplitl [Hs0 Hs1]
  · iapply (hs)
    isplitl [Hs0] <;> iassumption
  · iapply (hc)
    isplitl [Hc0] <;> iassumption

end Cert.KernelIdeal.Hand

end
-- ==== Proof.PoolCover.lean ====
/-
  The thirty-two tiles' output slices partition the flat [65536] results: tile (c, i) owns the 2048 words
  from 2048 · (2 i + c), these intervals are pairwise disjoint, and every word lies in the one whose number
  is the word's position divided by 2048.
-/
import proofs.«203204_g25512105739078_cont_8to1_1946_3_alg».proof.Proof.PoolDefs

namespace Cert.KernelIdeal.Hand.Pool

open Cert.KernelIdeal Cert.KernelIdeal.Gen
open Idealize.ShloMosaic

theorem bound0 : grid1.bound 0 = 2 := rfl
theorem bound1 : grid1.bound 1 = 16 := rfl

/-- A tile's slice of the sums, read as an interval of flat positions. -/
theorem mem_outS_set (c : Fin (grid1.bound 0)) (i : Fin (grid1.bound 1)) (x : S65536.Idx) :
    x ∈ (outS c i).view.set
      ↔ 2048 * (2 * i.val + c.val) ≤ (x 0).val ∧ (x 0).val < 2048 * (2 * i.val + c.val) + 2048 := by
  show x ∈ ((View.whole main_v4_0_scv).slice
      (Rect.unit (s := S65536) (k1_off58 (coordsV c i)) S2048.size (k1_off58_inb (coordsV c i)))).set ↔ _
  rw [View.set_slice_whole, Rect.mem_set_unit]
  have hoff : k1_off58 (coordsV c i) 0 = 4096 * i.val + 2048 * c.val := by
    rw [k1_off58_eq]; rfl
  have hsz : S2048.size 0 = 2048 := rfl
  constructor
  · intro h
    have h0 := h 0
    rw [hoff, hsz] at h0
    omega
  · intro h a
    have ha : a = (0 : Fin 1) := Subsingleton.elim (α := Fin 1) a 0
    subst ha
    rw [hoff, hsz]
    omega

/-- … and of the counts: the same interval. -/
theorem mem_outC_set (c : Fin (grid1.bound 0)) (i : Fin (grid1.bound 1)) (x : S65536.Idx) :
    x ∈ (outC c i).view.set
      ↔ 2048 * (2 * i.val + c.val) ≤ (x 0).val ∧ (x 0).val < 2048 * (2 * i.val + c.val) + 2048 := by
  show x ∈ ((View.whole main_v4_1_scv).slice
      (Rect.unit (s := S65536) (k1_off58 (coordsV c i)) S2048.size (k1_off58_inb (coordsV c i)))).set ↔ _
  rw [View.set_slice_whole, Rect.mem_set_unit]
  have hoff : k1_off58 (coordsV c i) 0 = 4096 * i.val + 2048 * c.val := by
    rw [k1_off58_eq]; rfl
  have hsz : S2048.size 0 = 2048 := rfl
  constructor
  · intro h
    have h0 := h 0
    rw [hoff, hsz] at h0
    omega
  · intro h a
    have ha : a = (0 : Fin 1) := Subsingleton.elim (α := Fin 1) a 0
    subst ha
    rw [hoff, hsz]
    omega

/-- Two different tiles have different numbers. -/
theorem tile_ne {t t' : Fin 2 × Fin 16} (h : t ≠ t') : 2 * t.2.val + t.1.val ≠ 2 * t'.2.val + t'.1.val := by
  intro e
  apply h
  have h1 := t.1.isLt
  have h2 := t'.1.isLt
  apply Prod.ext
  · apply Fin.ext; omega
  · apply Fin.ext; omega

theorem outS_disjoint : ∀ t ∈ (Finset.univ : Finset (Fin 2 × Fin 16)), ∀ t' ∈ (Finset.univ : Finset (Fin 2 × Fin 16)),
    t ≠ t' → Disjoint ((outS t.1 t.2).view.set) ((outS t'.1 t'.2).view.set) := by
  intro t _ t' _ hne
  rw [Finset.disjoint_left]
  intro x hx hx'
  have h := (mem_outS_set t.1 t.2 x).1 hx
  have h' := (mem_outS_set t'.1 t'.2 x).1 hx'
  have hn := tile_ne hne
  omega

theorem outC_disjoint : ∀ t ∈ (Finset.univ : Finset (Fin 2 × Fin 16)), ∀ t' ∈ (Finset.univ : Finset (Fin 2 × Fin 16)),
    t ≠ t' → Disjoint ((outC t.1 t.2).view.set) ((outC t'.1 t'.2).view.set) := by
  intro t _ t' _ hne
  rw [Finset.disjoint_left]
  intro x hx hx'
  have h := (mem_outC_set t.1 t.2 x).1 hx
  have h' := (mem_outC_set t'.1 t'.2 x).1 hx'
  have hn := tile_ne hne
  omega

/-- The tile that owns a flat position. -/
def tileOf (x : S65536.Idx) : Fin 2 × Fin 16 :=
  (⟨((x 0).val / 2048) % 2, Nat.mod_lt _ (by decide)⟩,
   ⟨((x 0).val / 2048) / 2, by have h : (x 0).val < 65536 := (x 0).isLt; omega⟩)

theorem outS_cover : @Finset.biUnion (Fin 2 × Fin 16) S65536.Idx _ Finset.univ (fun t => (outS t.1 t.2).view.set) = Finset.univ := by
  rw [Finset.eq_univ_iff_forall]
  intro x
  rw [Finset.mem_biUnion]
  refine ⟨tileOf x, by simp only [Finset.mem_univ], ?_⟩
  refine (mem_outS_set (tileOf x).1 (tileOf x).2 x).2 ?_
  have h : (x 0).val < 65536 := (x 0).isLt
  show 2048 * (2 * (((x 0).val / 2048) / 2) + ((x 0).val / 2048) % 2) ≤ (x 0).val
    ∧ (x 0).val < 2048 * (2 * (((x 0).val / 2048) / 2) + ((x 0).val / 2048) % 2) + 2048
  omega

theorem outC_cover : @Finset.biUnion (Fin 2 × Fin 16) S65536.Idx _ Finset.univ (fun t => (outC t.1 t.2).view.set) = Finset.univ := by
  rw [Finset.eq_univ_iff_forall]
  intro x
  rw [Finset.mem_biUnion]
  refine ⟨tileOf x, by simp only [Finset.mem_univ], ?_⟩
  refine (mem_outC_set (tileOf x).1 (tileOf x).2 x).2 ?_
  have h : (x 0).val < 65536 := (x 0).isLt
  show 2048 * (2 * (((x 0).val / 2048) / 2) + ((x 0).val / 2048) % 2) ≤ (x 0).val
    ∧ (x 0).val < 2048 * (2 * (((x 0).val / 2048) / 2) + ((x 0).val / 2048) % 2) + 2048
  omega

end Cert.KernelIdeal.Hand.Pool
-- ==== Proof.LaunchMain.lean ====
/-
  @main on the TensorCore, inside the SparseCore launch: a reshape, the matrix-vector region, two reshapes, the
  SparseCore call (the arrays dealt to the thirty-two tiles and gathered back), three reshapes and the softmax
  region; the fourteen unscoped arrays are held whole at a valuation between the steps, the start signals owed
  throughout with the recorded pairs bounded by level, and the argument arrays come back at their launch contents.
-/
import proofs.«203204_g25512105739078_cont_8to1_1946_3_alg».proof.Proof.LaunchRegions
import proofs.«203204_g25512105739078_cont_8to1_1946_3_alg».proof.Proof.LaunchTile
import proofs.«203204_g25512105739078_cont_8to1_1946_3_alg».proof.Proof.LaunchElem
import proofs.«203204_g25512105739078_cont_8to1_1946_3_alg».proof.Proof.LaunchTc
import proofs.«203204_g25512105739078_cont_8to1_1946_3_alg».proof.Proof.LaunchCall
import proofs.«203204_g25512105739078_cont_8to1_1946_3_alg».proof.Proof.PoolCover

noncomputable section

namespace Cert.KernelIdeal.Hand

open Cert.KernelIdeal Cert.KernelIdeal.Gen Cert.KernelIdeal.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.Transfers (shareTok shareDrop shareTokN pointsTo_toks)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The host operations and the valuations between the steps -/

abbrev opA : HloOp τ sig (Elt F) := StableHlo.reshape main_arg2 main_v0 rfl shapeCasts_S64x1_S1x64
abbrev opB : HloOp τ sig (Elt F) := StableHlo.reshape main_v1 main_v2 rfl shapeCasts_S100000x1_S100000
abbrev opC : HloOp τ sig (Elt F) := StableHlo.reshape main_arg0 main_v3 rfl shapeCasts_S4096x200_S819200
abbrev opD : HloOp τ sig (Elt F) := StableHlo.reshape main_v4_0 main_v5 rfl shapeCasts_S65536_S4096x16
abbrev opE : HloOp τ sig (Elt F) := StableHlo.reshape main_v4_1 main_v6 rfl shapeCasts_S65536_S4096x16
abbrev opG : HloOp τ sig (Elt F) := StableHlo.reshape main_arg3 main_v7 rfl shapeCasts_S1_S1x1

/-- The launch contents. -/
abbrev Wm (d : Dev nD) : Valuation τ sig (Elt F) := fun b => m (d, b)
/-- After the first reshape. -/
def WA (d : Dev nD) : Valuation τ sig (Elt F) := (opA (F := F)).result (Wm m d)
/-- After the matrix-vector region and the two reshapes: what the SparseCore call reads. -/
def WB (d : Dev nD) : Valuation τ sig (Elt F) :=
  (opC (F := F)).result ((opB (F := F)).result (Wr0 ((K (F := F)).Otc d 0) (lvlSet (F := F) d 0) (WA m d) d))

theorem hA : (opA (F := F)).bufs ⊆ allBufs := by
  show ({dr main_arg2, dr main_v0} : Finset (DevRef τ sig)) ⊆ allBufs; decide
theorem hB : (opB (F := F)).bufs ⊆ allBufs := by
  show ({dr main_v1, dr main_v2} : Finset (DevRef τ sig)) ⊆ allBufs; decide
theorem hC : (opC (F := F)).bufs ⊆ allBufs := by
  show ({dr main_arg0, dr main_v3} : Finset (DevRef τ sig)) ⊆ allBufs; decide
theorem hD : (opD (F := F)).bufs ⊆ allBufs := by
  show ({dr main_v4_0, dr main_v5} : Finset (DevRef τ sig)) ⊆ allBufs; decide
theorem hE : (opE (F := F)).bufs ⊆ allBufs := by
  show ({dr main_v4_1, dr main_v6} : Finset (DevRef τ sig)) ⊆ allBufs; decide
theorem hG : (opG (F := F)).bufs ⊆ allBufs := by
  show ({dr main_arg3, dr main_v7} : Finset (DevRef τ sig)) ⊆ allBufs; decide

/-- The call's operands. -/
def tvOf (d : Dev nD) : Buf (Elt F) (tLoc d) := WB m d (dr main_v2)
def labsOf (d : Dev nD) : Buf (Elt F) (lLoc d) := WB m d (dr main_v3)

abbrev PP : (K (F := F)).Pay (nD := nD) (Val := Elt F) (Name := ℕ) (U := UU) := P₀ (tvOf m) (labsOf m)

theorem unscoped_held (d : Dev nD) : (unscopedBufs d (fun b => m ((SparseCore.T d).loc b)) : sProp 𝕄) = held (d.tc : Thread nD τ) allBufs (Wm m d) :=
  (held_all_unscoped d (Wm m d)).symm

theorem G_eq (d : Dev nD) : (G (F := F) d : sProp 𝕄)
    = iprop((Pipeline.cellsGhost (pinC (F := F)) EP 0 d ∗ Pipeline.toksInit (pinC (F := F)) EP 0 d)
      ∗ (Pipeline.cellsGhost (pinC (F := F)) EP 1 d ∗ Pipeline.toksInit (pinC (F := F)) EP 1 d)) := by
  unfold G
  rw [bigSep_univ_eq_bigSepL [(0 : Fin 2), (1 : Fin 2)] (by decide) (by decide)]
  rfl

/-- After the SparseCore call: its two results at what the tiles left. -/
def WC (d : Dev nD) (fs : (dr main_v4_0).ty.Contents (Elt F)) (fc : (dr main_v4_1).ty.Contents (Elt F)) : Valuation τ sig (Elt F) :=
  Function.update (Function.update (WB m d) (dr main_v4_0) fs) (dr main_v4_1) fc
/-- After the three reshapes: what the softmax region reads. -/
def WD (d : Dev nD) (fs : (dr main_v4_0).ty.Contents (Elt F)) (fc : (dr main_v4_1).ty.Contents (Elt F)) : Valuation τ sig (Elt F) :=
  (opG (F := F)).result ((opE (F := F)).result ((opD (F := F)).result (WC m d fs fc)))
/-- The final valuation. -/
def WE (d : Dev nD) (fs : (dr main_v4_0).ty.Contents (Elt F)) (fc : (dr main_v4_1).ty.Contents (Elt F)) : Valuation τ sig (Elt F) :=
  Wr1 ((K (F := F)).Otc d 1) (lvlSet (F := F) d 1) (WD m d fs fc) d

/-- What @main leaves: the fourteen arrays at the final valuation, the call's results at whatever the tiles left. -/
def FIN (d : Dev nD) : sProp 𝕄 := iprop(∃ fs fc, held (d.tc : Thread nD τ) allBufs (WE m d fs fc))

/-- The slices' cover facts. -/
theorem cover : Cover := ⟨outS_disjoint, outS_cover, outC_disjoint, outC_cover⟩

theorem stPair_eq (d : Dev nD) :
    (bigSep Finset.univ fun c : Fin ((K (F := F)).nCore 0) => (PP m).st 0 d c) = iprop(stN (tvOf m) (labsOf m) d 0 ∗ stN (tvOf m) (labsOf m) d 1) := by
  show (bigSep (Finset.univ : Finset (Fin 2)) fun c => stN (tvOf m) (labsOf m) d c.val) = _
  rw [bigSep_fin2]; rfl
theorem dnPair_eq (d : Dev nD) :
    (bigSep Finset.univ fun c : Fin ((K (F := F)).nCore 0) => (PP m).dn 0 d c) = iprop(stN (tvOf m) (labsOf m) d 0 ∗ stN (tvOf m) (labsOf m) d 1) := by
  show (bigSep (Finset.univ : Finset (Fin 2)) fun c => stN (tvOf m) (labsOf m) d c.val) = _
  rw [bigSep_fin2]; rfl

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, G_eq]
  simp only [main, wp_bind, wp_pure]
  iintro ⟨#Hctx, Hst, ⟨Hb, Hheld, -, -⟩, ⟨⟨Hcg0, Hti0⟩, ⟨Hcg1, Hti1⟩⟩⟩
  ihave #Hlev := ((K (F := F)).ctx_levAts (EH := EH) (P := PP m) κ) $$ Hctx
  -- the first reshape
  iapply (wp_hlo_within 𝒱 (SparseCore.T d) none Set.univ (op := opA) (S := allBufs) hA (V := Wm m d)) $$ [Hb Hheld]
  · isplitl [Hb]; · iexact Hb
    iexact Hheld
  iintro ⟨Hb, Hheld⟩
  rw [wp_ret]; imodintro
  -- the matrix-vector region
  ihave Hst' := (tcSt_elim (F := F) d 0) $$ Hst
  icases Hst' with ⟨HO, Hrest⟩
  iapply ((K (F := F)).wp_liftProg (D (F := F)) 𝒱 (SparseCore.T d) Set.univ none (Prog.lift (.customCall (Pipeline.entry 0) ())) _)
  iapply (Pipeline.RegionSeg.wp (pcfgs (F := F)) Region.adm (fam ((K (F := F)).Otc d 0) (lvlSet (F := F) d 0) (WA m d)) (none : HIx 1) cellOf_inj EP defs₀ 𝒱₀
    (K (F := F)).L (K (F := F)).lev (reg0 ((K (F := F)).Otc d 0) (lvlSet (F := F) d 0) (WA m d) (Otc_none (F := F) d 0)) d none (by simp) _ _)
  rw [reg0_pre, reg0_post]
  isplitr [Hb Hheld HO Hcg0 Hti0]
  swap
  · isplitl [Hb]; · iexact Hb
    isplitl [Hheld HO]
    · isplitl [Hheld]; · iexact Hheld
      iexact HO
    isplitr; · iexact Hlev
    isplitl [Hcg0]; · iexact Hcg0
    iexact Hti0
  iintro ⟨Hb, ⟨Hheld, HO⟩⟩
  rw [wp_ret]; imodintro
  -- the two reshapes before the call
  iapply (wp_hlo_within 𝒱 (SparseCore.T d) none Set.univ (op := opB) (S := allBufs) hB) $$ [Hb Hheld]
  · isplitl [Hb]; · iexact Hb
    iexact Hheld
  iintro ⟨Hb, Hheld⟩
  rw [wp_ret]; imodintro
  iapply (wp_hlo_within 𝒱 (SparseCore.T d) none Set.univ (op := opC) (S := allBufs) hC) $$ [Hb Hheld]
  · isplitl [Hb]; · iexact Hb
    iexact Hheld
  iintro ⟨Hb, Hheld⟩
  rw [wp_ret]; imodintro
  -- the SparseCore call
  ihave Hst := (tcSt_intro (F := F) d 0 _ (lvlSet_waitPairs (F := F) d 0 cfg0)) $$ [HO Hrest]
  · isplitl [HO]; · iexact HO
    iexact Hrest
  ihave Hh := (Entails.of_eq (held_all d (WB m d))) $$ [Hheld]
  · iexact Hheld
  icases Hh with ⟨Ha0, Ha1, Ha2, Ha3, Hv0, Hv1, Hv2, Hv3, Hv40, Hv41, Hv5, Hv6, Hv7, Hv8⟩
  ihave Hdeal := (call_deal (tvOf m) (labsOf m) cover d) $$ [Hv2 Hv3 Hv40 Hv41]
  · isplitl [Hv2]; · iexact Hv2
    isplitl [Hv3]; · iexact Hv3
    isplitl [Hv40]; · iexists _; iexact Hv40
    iexists _; iexact Hv41
  icases Hdeal with ⟨Hkeep, Hst0, Hst1⟩
  iapply ((K (F := F)).wp_run (D (F := F)) 𝒱 (EH := EH) (P := PP m) κ d 0)
  isplitr; · iexact Hctx
  isplitl [Hst]; · iexact Hst
  isplitl [Hst0 Hst1]
  · rw [stPair_eq]; isplitl [Hst0] <;> iassumption
  iintro ⟨Hst, Hdn⟩
  ihave Hdn' := (Entails.of_eq (dnPair_eq m d)) $$ Hdn
  icases Hdn' with ⟨Hst0, Hst1⟩
  ihave Hg := (call_gather (tvOf m) (labsOf m) cover d) $$ [Hkeep Hst0 Hst1]
  · isplitl [Hkeep]; · iexact Hkeep
    isplitl [Hst0] <;> iassumption
  icases Hg with ⟨Hv2, Hv3, ⟨%fs, Hv40⟩, ⟨%fc, Hv41⟩⟩
  ihave Hheld := (Entails.of_eq (held_upd2 d (WB m d) fs fc).symm) $$ [Ha0 Ha1 Ha2 Ha3 Hv0 Hv1 Hv2 Hv3 Hv40 Hv41 Hv5 Hv6 Hv7 Hv8]
  · isplitl [Ha0]; · iexact Ha0
    isplitl [Ha1]; · iexact Ha1
    isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    isplitl [Hv40]; · iexact Hv40
    isplitl [Hv41]; · iexact Hv41
    isplitl [Hv5]; · iexact Hv5
    isplitl [Hv6]; · iexact Hv6
    isplitl [Hv7]; · iexact Hv7
    iexact Hv8
  -- the three reshapes after the call
  iapply (wp_hlo_within 𝒱 (SparseCore.T d) none Set.univ (op := opD) (S := allBufs) hD) $$ [Hb Hheld]
  · isplitl [Hb]; · iexact Hb
    iexact Hheld
  iintro ⟨Hb, Hheld⟩
  rw [wp_ret]; imodintro
  iapply (wp_hlo_within 𝒱 (SparseCore.T d) none Set.univ (op := opE) (S := allBufs) hE) $$ [Hb Hheld]
  · isplitl [Hb]; · iexact Hb
    iexact Hheld
  iintro ⟨Hb, Hheld⟩
  rw [wp_ret]; imodintro
  iapply (wp_hlo_within 𝒱 (SparseCore.T d) none Set.univ (op := opG) (S := allBufs) hG) $$ [Hb Hheld]
  · isplitl [Hb]; · iexact Hb
    iexact Hheld
  iintro ⟨Hb, Hheld⟩
  rw [wp_ret]; imodintro
  -- the softmax region
  ihave Hst' := (tcSt_elim (F := F) d 1) $$ [Hst]
  · iexact Hst
  icases Hst' with ⟨HO, Hrest⟩
  iapply ((K (F := F)).wp_liftProg (D (F := F)) 𝒱 (SparseCore.T d) Set.univ none (Prog.lift (.customCall (Pipeline.entry 1) ())) _)
  iapply (Pipeline.RegionSeg.wp (pcfgs (F := F)) Region.adm (fam ((K (F := F)).Otc d 1) (lvlSet (F := F) d 1) (WD m d fs fc)) (none : HIx 1) cellOf_inj EP defs₀ 𝒱₀
    (K (F := F)).L (K (F := F)).lev (reg1 ((K (F := F)).Otc d 1) (lvlSet (F := F) d 1) (WD m d fs fc) (Otc_none (F := F) d 1)) d none (by simp) _ _)
  rw [reg1_pre, reg1_post]
  isplitr [Hb Hheld HO Hcg1 Hti1]
  swap
  · isplitl [Hb]; · iexact Hb
    isplitl [Hheld HO]
    · isplitl [Hheld]; · iexact Hheld
      iexact HO
    isplitr; · iexact Hlev
    isplitl [Hcg1]; · iexact Hcg1
    iexact Hti1
  iintro ⟨Hb, ⟨Hheld, HO⟩⟩
  rw [wp_ret]; imodintro; imodintro
  isplitl [HO Hrest]
  · iapply (tcSt_intro (F := F) d 1 _ (lvlSet_waitPairs (F := F) d 1 cfg2))
    isplitl [HO]; · iexact HO
    iexact Hrest
  unfold FIN
  iexists fs, fc
  iexact Hheld

end Cert.KernelIdeal.Hand

end
-- ==== Proof.LaunchRun.lean ====
/-
  The program's run. The four argument arrays are written by no step, so the final valuation has them at
  their launch contents, and the final memory agrees with it; the launch theorem for SparseCore programs turns
  the tile's task, the split of a SparseCore's operands among its tiles, @main's proof and the launch element
  into the run of all thirty-five threads.
-/
import proofs.«203204_g25512105739078_cont_8to1_1946_3_alg».proof.Proof.LaunchMain

noncomputable section

namespace Cert.KernelIdeal.Hand

open Cert.KernelIdeal Cert.KernelIdeal.Gen Cert.KernelIdeal.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The argument arrays are never written -/

theorem WE_arg0 (d : Dev nD) (fs : (dr main_v4_0).ty.Contents (Elt F)) (fc : (dr main_v4_1).ty.Contents (Elt F)) :
    WE m d fs fc (dr main_arg0) = m (d, dr main_arg0) := by
  unfold WE Wr1 WD WC WB Wr0 WA
  rw [Function.update_of_ne (by decide : dr main_arg0 ≠ dr main_v8),
    (opG (F := F)).result_of_not_mem _ (show dr main_arg0 ∉ ({dr main_v7} : Finset (DevRef τ sig)) by decide), (opE (F := F)).result_of_not_mem _ (show dr main_arg0 ∉ ({dr main_v6} : Finset (DevRef τ sig)) by decide),
    (opD (F := F)).result_of_not_mem _ (show dr main_arg0 ∉ ({dr main_v5} : Finset (DevRef τ sig)) by decide),
    Function.update_of_ne (by decide : dr main_arg0 ≠ dr main_v4_1), Function.update_of_ne (by decide : dr main_arg0 ≠ dr main_v4_0),
    (opC (F := F)).result_of_not_mem _ (show dr main_arg0 ∉ ({dr main_v3} : Finset (DevRef τ sig)) by decide), (opB (F := F)).result_of_not_mem _ (show dr main_arg0 ∉ ({dr main_v2} : Finset (DevRef τ sig)) by decide),
    Function.update_of_ne (by decide : dr main_arg0 ≠ dr main_v1), (opA (F := F)).result_of_not_mem _ (show dr main_arg0 ∉ ({dr main_v0} : Finset (DevRef τ sig)) by decide)]

theorem WE_arg1 (d : Dev nD) (fs : (dr main_v4_0).ty.Contents (Elt F)) (fc : (dr main_v4_1).ty.Contents (Elt F)) :
    WE m d fs fc (dr main_arg1) = m (d, dr main_arg1) := by
  unfold WE Wr1 WD WC WB Wr0 WA
  rw [Function.update_of_ne (by decide : dr main_arg1 ≠ dr main_v8),
    (opG (F := F)).result_of_not_mem _ (show dr main_arg1 ∉ ({dr main_v7} : Finset (DevRef τ sig)) by decide), (opE (F := F)).result_of_not_mem _ (show dr main_arg1 ∉ ({dr main_v6} : Finset (DevRef τ sig)) by decide),
    (opD (F := F)).result_of_not_mem _ (show dr main_arg1 ∉ ({dr main_v5} : Finset (DevRef τ sig)) by decide),
    Function.update_of_ne (by decide : dr main_arg1 ≠ dr main_v4_1), Function.update_of_ne (by decide : dr main_arg1 ≠ dr main_v4_0),
    (opC (F := F)).result_of_not_mem _ (show dr main_arg1 ∉ ({dr main_v3} : Finset (DevRef τ sig)) by decide), (opB (F := F)).result_of_not_mem _ (show dr main_arg1 ∉ ({dr main_v2} : Finset (DevRef τ sig)) by decide),
    Function.update_of_ne (by decide : dr main_arg1 ≠ dr main_v1), (opA (F := F)).result_of_not_mem _ (show dr main_arg1 ∉ ({dr main_v0} : Finset (DevRef τ sig)) by decide)]

theorem WE_arg2 (d : Dev nD) (fs : (dr main_v4_0).ty.Contents (Elt F)) (fc : (dr main_v4_1).ty.Contents (Elt F)) :
    WE m d fs fc (dr main_arg2) = m (d, dr main_arg2) := by
  unfold WE Wr1 WD WC WB Wr0 WA
  rw [Function.update_of_ne (by decide : dr main_arg2 ≠ dr main_v8),
    (opG (F := F)).result_of_not_mem _ (show dr main_arg2 ∉ ({dr main_v7} : Finset (DevRef τ sig)) by decide), (opE (F := F)).result_of_not_mem _ (show dr main_arg2 ∉ ({dr main_v6} : Finset (DevRef τ sig)) by decide),
    (opD (F := F)).result_of_not_mem _ (show dr main_arg2 ∉ ({dr main_v5} : Finset (DevRef τ sig)) by decide),
    Function.update_of_ne (by decide : dr main_arg2 ≠ dr main_v4_1), Function.update_of_ne (by decide : dr main_arg2 ≠ dr main_v4_0),
    (opC (F := F)).result_of_not_mem _ (show dr main_arg2 ∉ ({dr main_v3} : Finset (DevRef τ sig)) by decide), (opB (F := F)).result_of_not_mem _ (show dr main_arg2 ∉ ({dr main_v2} : Finset (DevRef τ sig)) by decide),
    Function.update_of_ne (by decide : dr main_arg2 ≠ dr main_v1), (opA (F := F)).result_of_not_mem _ (show dr main_arg2 ∉ ({dr main_v0} : Finset (DevRef τ sig)) by decide)]

theorem WE_arg3 (d : Dev nD) (fs : (dr main_v4_0).ty.Contents (Elt F)) (fc : (dr main_v4_1).ty.Contents (Elt F)) :
    WE m d fs fc (dr main_arg3) = m (d, dr main_arg3) := by
  unfold WE Wr1 WD WC WB Wr0 WA
  rw [Function.update_of_ne (by decide : dr main_arg3 ≠ dr main_v8),
    (opG (F := F)).result_of_not_mem _ (show dr main_arg3 ∉ ({dr main_v7} : Finset (DevRef τ sig)) by decide), (opE (F := F)).result_of_not_mem _ (show dr main_arg3 ∉ ({dr main_v6} : Finset (DevRef τ sig)) by decide),
    (opD (F := F)).result_of_not_mem _ (show dr main_arg3 ∉ ({dr main_v5} : Finset (DevRef τ sig)) by decide),
    Function.update_of_ne (by decide : dr main_arg3 ≠ dr main_v4_1), Function.update_of_ne (by decide : dr main_arg3 ≠ dr main_v4_0),
    (opC (F := F)).result_of_not_mem _ (show dr main_arg3 ∉ ({dr main_v3} : Finset (DevRef τ sig)) by decide), (opB (F := F)).result_of_not_mem _ (show dr main_arg3 ∉ ({dr main_v2} : Finset (DevRef τ sig)) by decide),
    Function.update_of_ne (by decide : dr main_arg3 ≠ dr main_v1), (opA (F := F)).result_of_not_mem _ (show dr main_arg3 ∉ ({dr main_v0} : Finset (DevRef τ sig)) by decide)]

/-- The labels the SparseCore call reads are the label argument, reshaped. -/
theorem labsOf_apply (d : Dev nD) (x : S819200.Idx) :
    labsOf m d x = m (d, dr main_arg0) (Shape.reshapeEquiv shapeCasts_S4096x200_S819200 x) := by
  unfold labsOf WB
  rw [StableHlo.reshape_result]
  show shapeCast S819200 ((opB (F := F)).result (Wr0 ((K (F := F)).Otc d 0) (lvlSet (F := F) d 0) (WA m d) d) (dr main_arg0)) shapeCasts_S4096x200_S819200 x = _
  unfold Wr0 WA
  rw [(opB (F := F)).result_of_not_mem _ (show dr main_arg0 ∉ ({dr main_v2} : Finset (DevRef τ sig)) by decide), Function.update_of_ne (by decide : dr main_arg0 ≠ dr main_v1),
    (opA (F := F)).result_of_not_mem _ (show dr main_arg0 ∉ ({dr main_v0} : Finset (DevRef τ sig)) by decide)]
  rfl

/-! ## Reading the final memory -/

/-- What the claim reads of device `d`'s final memory. -/
def fq (d : Dev nD) (s' : Phys nD τ sig (Elt F)) : Prop :=
  s'.mem.mem ((d.tc : Thread nD τ).loc main_arg0) = m ((d.tc : Thread nD τ).loc main_arg0)
  ∧ s'.mem.mem ((d.tc : Thread nD τ).loc main_arg1) = m ((d.tc : Thread nD τ).loc main_arg1)
  ∧ s'.mem.mem ((d.tc : Thread nD τ).loc main_arg2) = m ((d.tc : Thread nD τ).loc main_arg2)
  ∧ s'.mem.mem ((d.tc : Thread nD τ).loc main_arg3) = m ((d.tc : Thread nD τ).loc main_arg3)

theorem hfin (d : Dev nD) (s' : Phys nD τ sig (Elt F)) : iprop(FIN m d ∗ SI s') ⊢ (⌜fq m d s'⌝ : sProp 𝕄) := by
  unfold FIN
  iintro ⟨⟨%fs, %fc, Hh⟩, HSI⟩
  ihave Hh' := (Entails.of_eq (held_all d (WE m d fs fc))) $$ [Hh]
  · iexact Hh
  icases Hh' with ⟨Ha0, Ha1, Ha2, Ha3, -⟩
  icombine HSI Ha0 gives %h0
  icombine HSI Ha1 gives %h1
  icombine HSI Ha2 gives %h2
  icombine HSI Ha3 gives %h3
  ipureintro
  refine ⟨funext fun i => ?_, funext fun i => ?_, funext fun i => ?_, funext fun i => ?_⟩
  · exact (h0 i (Finset.mem_univ i)).trans (congrFun (WE_arg0 m d fs fc) i)
  · exact (h1 i (Finset.mem_univ i)).trans (congrFun (WE_arg1 m d fs fc) i)
  · exact (h2 i (Finset.mem_univ i)).trans (congrFun (WE_arg2 m d fs fc) i)
  · exact (h3 i (Finset.mem_univ i)).trans (congrFun (WE_arg3 m d fs fc) i)

/-! ## The run -/

/-- The frame's post: every device's argument arrays at their launch contents. -/
def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

/-- Every weakly fair execution of the thirty-five threads terminates, nothing faulting, the argument arrays unchanged:
    from the tile's task and the labels naming rows of the table. -/
theorem run_main [∀ e, Nonempty (Elt F e)] (hbody : TileBody₀ (F := F))
    (hrange : ∀ (d : Dev nD) (i : S4096x200.Idx), (m (d, dr main_arg0) i : BitVec 32).toNat < 100000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl₀ (tvOf m) (labsOf m) hbody (fun d x => by rw [labsOf_apply]; exact hrange d _))
    (fun q _ => match q with | 0 => SparseCore.Cfg.VecSplit.of_plain (vecSplit₀ (tvOf m) (labsOf m)))
    m ρ main (fun d => G (F := F) d) (FIN m) (u₀ (F := F))
    (sep_elim_left.trans (hu₀ (fun q thr => (PP m).x q thr) (fun _ _ => rfl)))
    (hmain m ρ) (fq m) (hfin m) (QC m) (fun _ h => h)

end Cert.KernelIdeal.Hand

end
-- ==== Proof.CommonB.lean ====
/-
  The program as the SparseCore launch theorem sees it, and the resource algebra shared by every part of the
  frame proof: the label signature of the two TensorCore pipelines under the SparseCore calls, the SparseCore
  configuration, the body table, the variants, and a ghost state with three components — the rounds of the
  four handshake semaphores, the rounds of the two pipelines' staging cells, and the counters of the tiles'
  local transfers.
-/
import proofs.«203204_g25512105739078_cont_8to1_1946_3_alg».proof.Kernel
import proofs.«203204_g25512105739078_cont_8to1_1946_3_alg».proof.Proof.Gen.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The rounds of the two pipelines' staging cells. -/
abbrev UP : Type := URounds (GSem nD τ sig) Unit
/-- Handshakes, pipelines, and the counters of the tiles' local transfers (found by instance). -/
abbrev UU : Type := UH × (UP × Counters)

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by
  unfold EH; infer_instance
instance EP_landsIn : (EP : Emb UP (MT nD τ sig (HIx 1) (Elt F) ℕ UU ℕ)).LandsIn (upEmb : UEmb _ (MT nD τ sig (HIx 1) (Elt F) ℕ UU ℕ)) := by
  unfold EP; infer_instance

example : CountersIn UU := inferInstance

end Cert.Kernel.Hand

end
-- ==== Proof.MatvecB.lean ====
/-
  The first TensorCore region: a matrix–vector product over 20 blocks of 5000 rows.
  What the body leaves in the output block as a function of the two input blocks, the body's
  triple, the region's proof data over a valuation of the core's unscoped buffers, and the body
  obligation at every point.
-/
import proofs.«203204_g25512105739078_cont_8to1_1946_3_alg».proof.Proof.CommonB
import proofs.«203204_g25512105739078_cont_8to1_1946_3_alg».proof.Proof.Gen.Kernel.Launch
import proofs.«203204_g25512105739078_cont_8to1_1946_3_alg».proof.Proof.Gen.Kernel.Skeleton
import proofs.«203204_g25512105739078_cont_8to1_1946_3_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand.Region

open Cert.Kernel Cert.Kernel.Gen Cert.Kernel.Hand

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-- A valuation of a core's TensorCore buffers. -/
abbrev TcVal (F : FTy → Type) (c : Dev nD) : Type := (b : Ref sig .tc) → Buf (Elt F) ((c : Thread nD τ).loc b)

/-- No pipeline has a prefetched table: the admissible contents are the trivial ones. -/
abbrev adm : (p : Fin 2) → (pcfgs (F := F) p).Adm := fun p => (cfgs p).toPCfg_adm

/-! ## The blocks -/

/-- Window `w`'s block at point `t`, read off its array at the valuation. -/
def iblk0 {c : Dev nD} (Vb : TcVal F c) (w : Fin cfg0.W) (t : Fin cfg0.N) : ((cfg0.win w).xblock (cfg0.grid.coords t)).Idx → Elt F (cfg0.win w).elt :=
  ((cfg0.win w).blk t).view.read (Elt F) (Vb (Pipeline.arrRef spec0 w))

abbrev r5000x64 : Rect S5000x64 := Rect.unit (s := S5000x64) ![0, 0] S5000x64.size inb_S5000x64_S5000x64_0_0
abbrev r1x64 : Rect S1x64 := Rect.unit (s := S1x64) ![0, 0] S1x64.size inb_S1x64_S1x64_0_0
abbrev r5000x1 : Rect S5000x1 := Rect.unit (s := S5000x1) ![0, 0] S5000x1.size inb_S5000x1_S5000x1_0_0

/-- The output block after the body: its one store, which covers the buffer, of the row sums of the products. -/
def matvecBlk (x0 : Vec F S5000x64 .f32) (x1 : Vec F S1x64 .f32) : Vec F S5000x1 .f32 :=
  View.canon [⟨r5000x1, k0_pay1 (View.ld x0 r5000x64) (View.ld x1 r1x64)⟩]

theorem cover5000x1 (p0 : Vec F S5000x1 .f32) (y : S5000x1.Idx) :
    ∃ pc ∈ ([⟨r5000x1, p0⟩] : List (View.Piece (Elt F) S5000x1 .f32)), y ∈ pc.1.set :=
  View.cover_of_tiled [⟨r5000x1, p0⟩] S5000x1.size (by rfl) y

set_option maxHeartbeats 1000000 in
/-- The body on whole staging memrefs: the inputs' contents stay, the output's becomes `matvecBlk` of them. -/
theorem sound_kernel0 (c : Dev nD) (E : Set ℕ) (i : grid0.Coords) (arg1 : Memref sig .tc .vmem S5000x64 .f32) (harg1 : arg1.IsWhole) (arg2 : Memref sig .tc .vmem S1x64 .f32) (harg2 : arg2.IsWhole) (arg3 : Memref sig .tc .vmem S5000x1 .f32) (harg3 : arg3.IsWhole)
    (x0 : Vec F S5000x64 .f32) (x1 : Vec F S1x64 .f32) (Q : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (matvecBlk x0 x1)) -∗ Q ⟨⟩))
      ⊢ wp frame (wpE (defs₀ (F := F)) Variants.none c none) E (cc0__matvec_body i arg1 harg1 arg2 harg2 arg3 harg3) Q := by
  simp only [cc0__matvec_body_eq_skeleton]; unfold cc0__matvec_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5000x1 _)

/-! ## The proof data -/

/-- The region's proof data on core `c`, over a valuation `Vb` of the core's unscoped buffers, the
    tallies `O` the core owes throughout (the body signals nothing) and a bound `R` on the pairs its waits have
    recorded (the body waits on nothing): the arrays at the valuation; after the
    body each input's buffer at its block and the output's at `matvecBlk` of the two blocks; the invariant
    the scoped buffers that are no staging buffer of this region, untouched; full shares. -/
def dat0 (O : CellTallies nD τ sig (HIx 1)) (R : Set (SemLoc sig × HIx 1)) {c : Dev nD} (Vb : TcVal F c) : Dat τ (Elt F) (HIx 1) ℕ UU ℕ cfg0 c where
  A w := Vb (Pipeline.arrRef spec0 w)
  after w t := match w with
    | ⟨0, _⟩ => iblk0 Vb 0 t
    | ⟨1, _⟩ => iblk0 Vb 1 t
    | ⟨2, _⟩ => matvecBlk (iblk0 Vb 0 t) (iblk0 Vb 1 t)
  Φ _ := Pipeline.scopedRest spec0 c
  q _ := fullShare
  owed _ := O
  recorded _ := R

variable (O : CellTallies nD τ sig (HIx 1)) (R : Set (SemLoc sig × HIx 1)) {c : Dev nD} (Vb : TcVal F c)

theorem dat0_A (w : Fin cfg0.W) : (dat0 O R Vb).A w = Vb (Pipeline.arrRef spec0 w) := by dsimp only [dat0]
theorem dat0_after_0 (t : Fin cfg0.N) : (dat0 O R Vb).after 0 t = iblk0 Vb 0 t := by dsimp only [dat0]
theorem dat0_after_1 (t : Fin cfg0.N) : (dat0 O R Vb).after 1 t = iblk0 Vb 1 t := by dsimp only [dat0]
theorem dat0_after_2 (t : Fin cfg0.N) : (dat0 O R Vb).after 2 t = matvecBlk (iblk0 Vb 0 t) (iblk0 Vb 1 t) := by dsimp only [dat0]
theorem dat0_Φ (t : Fin (cfg0.N + 1)) : (dat0 O R Vb).Φ t = Pipeline.scopedRest spec0 c := rfl
theorem dat0_owed (t : Fin (cfg0.N + 1)) : (dat0 O R Vb).owed t = O := rfl
theorem dat0_recorded (t : Fin (cfg0.N + 1)) : (dat0 O R Vb).recorded t = R := rfl
theorem dat0_share (w : Fin cfg0.W) : (dat0 O R Vb).share w = fullShare := (dat0 O R Vb).share_full (fun _ => rfl) w

/-- Each input's current staging buffer holds its block at every point, fetched there or not. -/
theorem dat0_before_0 (t : Fin cfg0.N) (d) : (dat0 O R Vb).before 0 t d = iblk0 Vb 0 t :=
  ((dat0 O R Vb).before_in_eq_fetched 0 rfl (fun _ => rfl) (fun _ _ _ => rfl) (fun t => by rw [dat0_after_0]; unfold Dat.blockOf iblk0; rw [dat0_A]; try rfl) t d).trans
    (by unfold Dat.fetched Dat.blockOf iblk0; rw [dat0_A]; try rfl)
theorem dat0_before_1 (t : Fin cfg0.N) (d) : (dat0 O R Vb).before 1 t d = iblk0 Vb 1 t :=
  ((dat0 O R Vb).before_in_eq_fetched 1 rfl (fun _ => rfl) (fun _ _ _ => rfl) (fun t => by rw [dat0_after_1]; unfold Dat.blockOf iblk0; rw [dat0_A]; try rfl) t d).trans
    (by unfold Dat.fetched Dat.blockOf iblk0; rw [dat0_A]; try rfl)

/-! ## The body obligation -/

/-- The body at any point: the inputs' memrefs hold their blocks, so the kernel's triple applies; the invariant
    and what the core owes pass through unread. -/
theorem sound_body0 (t : Fin cfg0.N) :
    iprop((dat0 O R Vb).Φ t.castSucc ∗ (dat0 O R Vb).owesAt (none : HIx 1) t.castSucc
        ∗ (∃ d, owns (c : Thread nD τ) (st0_0 t) fullShare ((dat0 O R Vb).before 0 t d))
        ∗ (∃ d, owns (c : Thread nD τ) (st0_1 t) fullShare ((dat0 O R Vb).before 1 t d))
        ∗ (∃ d, owns (c : Thread nD τ) (st0_2 t) fullShare ((dat0 O R Vb).before 2 t d)))
      ⊢ wp frame (wpE (defs₀ (F := F)) Variants.none c none) Set.univ (bodyAt0 t) (fun _ =>
        (iprop((dat0 O R Vb).Φ t.succ ∗ (dat0 O R Vb).owesAt (none : HIx 1) t.succ
          ∗ owns (c : Thread nD τ) (st0_0 t) fullShare ((dat0 O R Vb).after 0 t)
          ∗ owns (c : Thread nD τ) (st0_1 t) fullShare ((dat0 O R Vb).after 1 t)
          ∗ owns (c : Thread nD τ) (st0_2 t) fullShare ((dat0 O R Vb).after 2 t)) : sProp 𝕄)) := by
  unfold bodyAt0
  simp only [dat0_before_0, dat0_before_1]
  rw [show (dat0 O R Vb).Φ t.succ = (dat0 O R Vb).Φ t.castSucc from rfl,
    show (dat0 O R Vb).owesAt (none : HIx 1) t.succ = (dat0 O R Vb).owesAt (none : HIx 1) t.castSucc from rfl,
    dat0_after_0, dat0_after_1, dat0_after_2]
  iintro ⟨HΦ, Ho, ⟨%d0, H0⟩, ⟨%d1, H1⟩, ⟨%d2, H2⟩⟩
  iapply (sound_kernel0 c Set.univ (grid0.coords t) _ _ _ _ _ _ (iblk0 Vb 0 t) (iblk0 Vb 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 : BodyObligation (dat0 O R Vb) (defs₀ (F := F)) Variants.none (none : HIx 1) Set.univ := fun t => by
  rw [bigSep_W0, bigSep_W0]
  exact sound_body0 O R Vb t

end Cert.Kernel.Hand.Region

end
-- ==== Proof.SoftmaxB.lean ====
/-
  The second TensorCore region: at its first point the body reduces the pooled sums and counts to
  one softmax weight per row and one weight for the masked entries, which it keeps in two scratch
  buffers; at every point it writes one block of 256 rows of the result from them and the labels.
  What the scratch buffers and the output block hold as functions of the inputs, the body's triple in
  its two control cases, the region's proof data over a valuation of the core's unscoped buffers, and
  the body obligation at every point.
-/
import proofs.«203204_g25512105739078_cont_8to1_1946_3_alg».proof.Proof.CommonB
import proofs.«203204_g25512105739078_cont_8to1_1946_3_alg».proof.Proof.Gen.Kernel.Launch
import proofs.«203204_g25512105739078_cont_8to1_1946_3_alg».proof.Proof.Gen.Kernel.Skeleton
import proofs.«203204_g25512105739078_cont_8to1_1946_3_alg».proof.Proof.Gen.Kernel.Points
import proofs.«203204_g25512105739078_cont_8to1_1946_3_alg».proof.Proof.MatvecB
import Idealize.ShloMosaic.Lib.Pipeline.FrameBody
import Idealize.ShloMosaic.Lib.Pipeline.Value
import Idealize.ShloMosaic.Lib.Tactic

set_option maxRecDepth 16384

noncomputable section

namespace Cert.Kernel.Hand.Region

open Cert.Kernel Cert.Kernel.Gen Cert.Kernel.Hand

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The rectangles the body names -/

abbrev r4096x16 : Rect S4096x16 := Rect.unit (s := S4096x16) ![0, 0] S4096x16.size inb_S4096x16_S4096x16_0_0
abbrev r1x1 : Rect S1x1 := Rect.unit (s := S1x1) ![0, 0] S1x1.size inb_S1x1_S1x1_0_0
abbrev r256x200 : Rect S256x200 := Rect.unit (s := S256x200) ![0, 0] S256x200.size inb_S256x200_S256x200_0_0
abbrev r4096x1 : Rect S4096x1 := Rect.unit (s := S4096x1) ![0, 0] S4096x1.size inb_S4096x1_S4096x1_0_0
abbrev rS1 : Rect S1 := Rect.unit (s := S1) ![0] S1.size inb_S1_S1_0
/-- The 256 rows of the per-row weights that point `i` reads. -/
abbrev rRows (i : grid2.Coords) : Rect S4096x1 := Rect.unit (s := S4096x1) (k2_off1 i) S256x1.size (k2_off1_inb i)

theorem zeros2 : (![0, 0] : Fin 2 → Nat) = fun _ => 0 := by funext a; fin_cases a <;> rfl
theorem zeros1 : (![0] : Fin 1 → Nat) = fun _ => 0 := by funext a; fin_cases a; rfl

/-! ## What the body computes -/

/-- The per-row weights the first point leaves in the first scratch buffer: e / denom. -/
def softA (x0 x1 : Vec F S4096x16 .f32) (x2 : Vec F S1x1 .f32) : Vec F S4096x1 .f32 :=
  k2_pay2 (k2_pay9 (View.ld x0 r4096x16) (View.ld x1 r4096x16) (View.ld x2 r1x1))
    (k2_pay11 (View.ld x0 r4096x16) (View.ld x1 r4096x16) (View.ld x2 r1x1))
    (k2_pay12 (View.ld x0 r4096x16) (View.ld x1 r4096x16) (View.ld x2 r1x1))

/-- The weight of a masked entry: e_neg / denom; -/
def softSmS (x0 x1 : Vec F S4096x16 .f32) (x2 : Vec F S1x1 .f32) : Elt F .f32 :=
  k2_pay3 (k2_pay10 (View.ld x0 r4096x16) (View.ld x1 r4096x16) (View.ld x2 r1x1))
    (k2_pay11 (View.ld x0 r4096x16) (View.ld x1 r4096x16) (View.ld x2 r1x1))
    (k2_pay12 (View.ld x0 r4096x16) (View.ld x1 r4096x16) (View.ld x2 r1x1))

/-- as the one word of the second scratch buffer. -/
def softSm (x0 x1 : Vec F S4096x16 .f32) (x2 : Vec F S1x1 .f32) : Vec F S1 .f32 := fun _ => softSmS x0 x1 x2

/-- The one word of a one-word buffer. -/
def smAt (sm : Vec F S1 .f32) : Elt F .f32 := View.ld sm rS1 (Shape.Idx.first (numel1_S1.symm ▸ Nat.one_pos))

theorem smAt_softSm (x0 x1 : Vec F S4096x16 .f32) (x2 : Vec F S1x1 .f32) : smAt (softSm x0 x1 x2) = softSmS x0 x1 x2 := rfl

/-- The output block at point `i`: its one store, which covers the buffer — where the label is positive the row's
    weight, elsewhere the masked weight. -/
def softBlk (a : Vec F S4096x1 .f32) (sm : Vec F S1 .f32) (i : grid2.Coords) (lab : Vec F S256x200 .i32) : Vec F S256x200 .f32 :=
  View.canon [⟨r256x200, k2_pay4 (View.ld a (rRows i)) (View.ld lab r256x200) (smAt sm)⟩]

theorem cover256x200 (p0 : Vec F S256x200 .f32) (y : S256x200.Idx) :
    ∃ pc ∈ ([⟨r256x200, p0⟩] : List (View.Piece (Elt F) S256x200 .f32)), y ∈ pc.1.set :=
  View.cover_of_tiled [⟨r256x200, p0⟩] S256x200.size (by rfl) y
theorem cover4096x1 (p0 : Vec F S4096x1 .f32) (y : S4096x1.Idx) :
    ∃ pc ∈ ([⟨r4096x1, p0⟩] : List (View.Piece (Elt F) S4096x1 .f32)), y ∈ pc.1.set :=
  View.cover_of_tiled [⟨r4096x1, p0⟩] S4096x1.size (by rfl) y
theorem coverS1 (p0 : Vec F S1 .f32) (y : S1.Idx) :
    ∃ pc ∈ ([⟨rS1, p0⟩] : List (View.Piece (Elt F) S1 .f32)), y ∈ pc.1.set :=
  View.cover_of_tiled [⟨rS1, p0⟩] S1.size (by rfl) y

/-- The body's conditional is taken at the first point only. -/
theorem cond2 : ∀ t : Fin grid2.N,
    (Scalar.cmpi .ne (Scalar.extui (Scalar.cmpi .eq (BitVec.ofNat 32 ((grid2.coords t) 0).val) 0#32)) 0#32 = 1#1) ↔ t.val = 0 := by
  decide +kernel

/-! ## The body's triple, in its two cases -/

set_option maxHeartbeats 2000000 in
/-- At the first point: the inputs' contents stay; the scratch buffers, whatever they held, end at `softA` and `softSm`
    of the inputs, and the output block at `softBlk` of those and the labels. -/
theorem sound_kernel2_first (c : Dev nD) (E : Set ℕ) (t : Fin grid2.N) (ht : t.val = 0)
    (arg1 : Memref sig .tc .vmem S4096x16 .f32) (harg1 : arg1.IsWhole) (arg2 : Memref sig .tc .vmem S4096x16 .f32) (harg2 : arg2.IsWhole) (arg3 : Memref sig .tc .vmem S1x1 .f32) (harg3 : arg3.IsWhole) (arg4 : Memref sig .tc .vmem S256x200 .i32) (harg4 : arg4.IsWhole) (arg5 : Memref sig .tc .vmem S256x200 .f32) (harg5 : arg5.IsWhole) (arg6 : Memref sig .tc .vmem S4096x1 .f32) (harg6 : arg6.IsWhole) (arg7 : Memref sig .tc .smem S1 .f32) (harg7 : arg7.IsWhole)
    (x0 x1 : Vec F S4096x16 .f32) (x2 : Vec F S1x1 .f32) (x3 : Vec F S256x200 .i32) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (softBlk (softA x0 x1 x2) (softSm x0 x1 x2) (grid2.coords t) x3)
            ∗ owns (c : Thread nD τ) arg6 fullShare (softA x0 x1 x2) ∗ owns (c : Thread nD τ) arg7 fullShare (softSm x0 x1 x2)) -∗ Q ⟨⟩))
      ⊢ wp frame (wpE (defs₀ (F := F)) Variants.none c none) E (cc2__softmax_body (grid2.coords t) arg1 harg1 arg2 harg2 arg3 harg3 arg4 harg4 arg5 harg5 arg6 harg6 arg7 harg7) Q := by
  have hc := (cond2 t).mpr ht
  simp only [cc2__softmax_body_eq_skeleton]; unfold cc2__softmax_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  have e5 : ∀ (P : Vec F S4096x1 .f32), View.readAt (Elt F) arg6.view (rRows (grid2.coords t)).toLoadRect (arg6.view.writes (Elt F) arg6.view.junk [⟨r4096x1, P⟩]) = View.ld P (rRows (grid2.coords t)) := fun P =>
    (View.readCov_eq_canon_ld arg6.view [⟨r4096x1, P⟩] (rRows (grid2.coords t)) (cover4096x1 P)).trans (congrArg (fun X => View.ld X (rRows (grid2.coords t))) (View.canon_unit_zero (S := S4096x1) zeros2 _ P))
  isplitl [H4]
  · iexists _; isplitr
    swap; · iexact H4
    ipureintro
    sl_unfold_run_names
    rw [View.read_writes_eq_canon _ _ _ (cover256x200 _), e5]
    rfl
  isplitl [H5]
  · iexists _; isplitr
    swap; · iexact H5
    ipureintro
    sl_unfold_run_names
    rw [View.read_writes_eq_canon _ _ _ (cover4096x1 _)]
    exact View.canon_unit_zero (S := S4096x1) zeros2 _ _
  iexists _; isplitr
  swap; · iexact H6
  ipureintro
  sl_unfold_run_names
  rw [View.read_writes_eq_canon _ _ _ (coverS1 _)]
  exact View.canon_unit_zero (S := S1) zeros1 _ _

set_option maxHeartbeats 2000000 in
/-- At a later point: the scratch buffers are read, not written; the output block ends at `softBlk` of them and the labels. -/
theorem sound_kernel2_rest (c : Dev nD) (E : Set ℕ) (t : Fin grid2.N) (ht : t.val ≠ 0)
    (arg1 : Memref sig .tc .vmem S4096x16 .f32) (harg1 : arg1.IsWhole) (arg2 : Memref sig .tc .vmem S4096x16 .f32) (harg2 : arg2.IsWhole) (arg3 : Memref sig .tc .vmem S1x1 .f32) (harg3 : arg3.IsWhole) (arg4 : Memref sig .tc .vmem S256x200 .i32) (harg4 : arg4.IsWhole) (arg5 : Memref sig .tc .vmem S256x200 .f32) (harg5 : arg5.IsWhole) (arg6 : Memref sig .tc .vmem S4096x1 .f32) (harg6 : arg6.IsWhole) (arg7 : Memref sig .tc .smem S1 .f32) (harg7 : arg7.IsWhole)
    (x3 : Vec F S256x200 .i32) (a : Vec F S4096x1 .f32) (sm : Vec F S1 .f32) (Q : PUnit → sProp 𝕄) :
    iprop(owns (c : Thread nD τ) arg4 fullShare x3 ∗ (∃ d, owns (c : Thread nD τ) arg5 fullShare d)
        ∗ owns (c : Thread nD τ) arg6 fullShare a ∗ owns (c : Thread nD τ) arg7 fullShare sm
        ∗ (iprop(owns (c : Thread nD τ) arg4 fullShare x3 ∗ owns (c : Thread nD τ) arg5 fullShare (softBlk a sm (grid2.coords t) x3)
            ∗ owns (c : Thread nD τ) arg6 fullShare a ∗ owns (c : Thread nD τ) arg7 fullShare sm) -∗ Q ⟨⟩))
      ⊢ wp frame (wpE (defs₀ (F := F)) Variants.none c none) E (cc2__softmax_body (grid2.coords t) arg1 harg1 arg2 harg2 arg3 harg3 arg4 harg4 arg5 harg5 arg6 harg6 arg7 harg7) Q := by
  have hc := fun h => ht ((cond2 t).mp h)
  simp only [cc2__softmax_body_eq_skeleton]; unfold cc2__softmax_body_skel
  unfold owns
  iintro ⟨⟨%f3, %hf3, H3⟩, ⟨%d4, %f4, -, H4⟩, ⟨%f5, %hf5, H5⟩, ⟨%f6, %hf6, H6⟩, Hk⟩
  subst hf3 hf5 hf6
  sl_exec (disch := first | exact hc)
  sl_step
  iapply Hk
  isplitl [H3]
  · iexists f3; isplitr; · ipureintro; rfl
    iexact H3
  isplitl [H4]
  · iexists _; isplitr
    swap; · iexact H4
    ipureintro
    sl_unfold_run_names
    rw [View.read_writes_eq_canon _ _ _ (cover256x200 _)]
    rfl
  isplitl [H5]
  · iexists f5; isplitr; · ipureintro; rfl
    iexact H5
  iexists f6; isplitr; · ipureintro; rfl
  iexact H6

/-! ## The proof data -/

/-- Window `w`'s block at point `t`, read off its array at the valuation. -/
def iblk2 {c : Dev nD} (Vb : TcVal F c) (w : Fin cfg2.W) (t : Fin cfg2.N) : ((cfg2.win w).xblock (cfg2.grid.coords t)).Idx → Elt F (cfg2.win w).elt :=
  ((cfg2.win w).blk t).view.read (Elt F) (Vb (Pipeline.arrRef spec2 w))

/-- What the scratch buffers hold from the first point on: the weights of the three constant blocks there. -/
def scrA {c : Dev nD} (Vb : TcVal F c) : Vec F S4096x1 .f32 := softA (iblk2 Vb 0 t2_0) (iblk2 Vb 1 t2_0) (iblk2 Vb 2 t2_0)
def scrSm {c : Dev nD} (Vb : TcVal F c) : Vec F S1 .f32 := softSm (iblk2 Vb 0 t2_0) (iblk2 Vb 1 t2_0) (iblk2 Vb 2 t2_0)

/-- The region's invariant before point `n`: before the first point the scoped buffers that are no staging buffer of
    this region, at anything; afterwards the two scratch buffers at the weights, the others at anything. -/
def Phi2 {c : Dev nD} (Vb : TcVal F c) : ℕ → sProp 𝕄
  | 0 => Pipeline.scopedRest spec2 c
  | _ + 1 => iprop(owns (c : Thread nD τ) (Memref.whole cc2_scratch0) fullShare (scrA Vb)
      ∗ owns (c : Thread nD τ) (Memref.whole cc2_scratch1) fullShare (scrSm Vb)
      ∗ Pipeline.scopedRestBut spec2 c [cc2_scratch0, cc2_scratch1])

/-- The region's proof data on core `c`, over a valuation `Vb` of the core's unscoped buffers, the tallies `O`
    the core owes throughout and a bound `R` on the pairs its waits have recorded: the arrays at the valuation; after the body each input's buffer at its block and the
    output's at `softBlk` of the weights and the labels' block; the invariant `Phi2`; full shares. -/
def dat2 (O : CellTallies nD τ sig (HIx 1)) (R : Set (SemLoc sig × HIx 1)) {c : Dev nD} (Vb : TcVal F c) : Dat τ (Elt F) (HIx 1) ℕ UU ℕ cfg2 c where
  A w := Vb (Pipeline.arrRef spec2 w)
  after w t := match w with
    | ⟨0, _⟩ => iblk2 Vb 0 t
    | ⟨1, _⟩ => iblk2 Vb 1 t
    | ⟨2, _⟩ => iblk2 Vb 2 t
    | ⟨3, _⟩ => iblk2 Vb 3 t
    | ⟨4, _⟩ => softBlk (scrA Vb) (scrSm Vb) (grid2.coords t) (iblk2 Vb 3 t)
  Φ t := Phi2 Vb t.val
  q _ := fullShare
  owed _ := O
  recorded _ := R

variable (O : CellTallies nD τ sig (HIx 1)) (R : Set (SemLoc sig × HIx 1)) {c : Dev nD} (Vb : TcVal F c)

theorem dat2_A (w : Fin cfg2.W) : (dat2 O R Vb).A w = Vb (Pipeline.arrRef spec2 w) := by dsimp only [dat2]
theorem dat2_after_0 (t : Fin cfg2.N) : (dat2 O R Vb).after 0 t = iblk2 Vb 0 t := by dsimp only [dat2]
theorem dat2_after_1 (t : Fin cfg2.N) : (dat2 O R Vb).after 1 t = iblk2 Vb 1 t := by dsimp only [dat2]
theorem dat2_after_2 (t : Fin cfg2.N) : (dat2 O R Vb).after 2 t = iblk2 Vb 2 t := by dsimp only [dat2]
theorem dat2_after_3 (t : Fin cfg2.N) : (dat2 O R Vb).after 3 t = iblk2 Vb 3 t := by dsimp only [dat2]
theorem dat2_after_4 (t : Fin cfg2.N) : (dat2 O R Vb).after 4 t = softBlk (scrA Vb) (scrSm Vb) (grid2.coords t) (iblk2 Vb 3 t) := by dsimp only [dat2]
theorem dat2_Φ (t : Fin (cfg2.N + 1)) : (dat2 O R Vb).Φ t = Phi2 Vb t.val := rfl
theorem dat2_owed (t : Fin (cfg2.N + 1)) : (dat2 O R Vb).owed t = O := rfl
theorem dat2_recorded (t : Fin (cfg2.N + 1)) : (dat2 O R Vb).recorded t = R := rfl
theorem dat2_share (w : Fin cfg2.W) : (dat2 O R Vb).share w = fullShare := (dat2 O R Vb).share_full (fun _ => rfl) w

/-- Each input's current staging buffer holds its block at every point, fetched there or not. -/
theorem dat2_before_0 (t : Fin cfg2.N) (d) : (dat2 O R Vb).before 0 t d = iblk2 Vb 0 t :=
  ((dat2 O R Vb).before_in_eq_fetched 0 rfl (fun _ => rfl) (fun _ _ _ => rfl) (fun t => by rw [dat2_after_0]; unfold Dat.blockOf iblk2; rw [dat2_A]; try rfl) t d).trans
    (by unfold Dat.fetched Dat.blockOf iblk2; rw [dat2_A]; try rfl)
theorem dat2_before_1 (t : Fin cfg2.N) (d) : (dat2 O R Vb).before 1 t d = iblk2 Vb 1 t :=
  ((dat2 O R Vb).before_in_eq_fetched 1 rfl (fun _ => rfl) (fun _ _ _ => rfl) (fun t => by rw [dat2_after_1]; unfold Dat.blockOf iblk2; rw [dat2_A]; try rfl) t d).trans
    (by unfold Dat.fetched Dat.blockOf iblk2; rw [dat2_A]; try rfl)
theorem dat2_before_2 (t : Fin cfg2.N) (d) : (dat2 O R Vb).before 2 t d = iblk2 Vb 2 t :=
  ((dat2 O R Vb).before_in_eq_fetched 2 rfl (fun _ => rfl) (fun _ _ _ => rfl) (fun t => by rw [dat2_after_2]; unfold Dat.blockOf iblk2; rw [dat2_A]; try rfl) t d).trans
    (by unfold Dat.fetched Dat.blockOf iblk2; rw [dat2_A]; try rfl)
theorem dat2_before_3 (t : Fin cfg2.N) (d) : (dat2 O R Vb).before 3 t d = iblk2 Vb 3 t :=
  ((dat2 O R Vb).before_in_eq_fetched 3 rfl (fun _ => rfl) (fun _ _ _ => rfl) (fun t => by rw [dat2_after_3]; unfold Dat.blockOf iblk2; rw [dat2_A]; try rfl) t d).trans
    (by unfold Dat.fetched Dat.blockOf iblk2; rw [dat2_A]; try rfl)

/-- The three constant windows' blocks do not depend on the point. -/
theorem iblk2_0_const (t : Fin cfg2.N) : iblk2 Vb 0 t = iblk2 Vb 0 t2_0 := rfl
theorem iblk2_1_const (t : Fin cfg2.N) : iblk2 Vb 1 t = iblk2 Vb 1 t2_0 := rfl
theorem iblk2_2_const (t : Fin cfg2.N) : iblk2 Vb 2 t = iblk2 Vb 2 t2_0 := rfl

/-- The scoped buffers that are no staging buffer of this region: the two scratch buffers, and the rest. -/
theorem scopedRest2_split :
    (Pipeline.scopedRest (Ix := HIx 1) (Name := ℕ) (U := UU) (Lvl := ℕ) (Val := Elt F) spec2 c : sProp 𝕄)
      = iprop(((∃ f : Buf (Elt F) ((c : Thread nD τ).loc cc2_scratch0), ((c : Thread nD τ).loc cc2_scratch0) ↦{fullShare} f)
          ∗ (∃ f : Buf (Elt F) ((c : Thread nD τ).loc cc2_scratch1), ((c : Thread nD τ).loc cc2_scratch1) ↦{fullShare} f))
          ∗ Pipeline.scopedRestBut (Ix := HIx 1) (Name := ℕ) (U := UU) (Lvl := ℕ) (Val := Elt F) spec2 c [cc2_scratch0, cc2_scratch1]) :=
  Pipeline.scopedRest_split_of_list spec2 c [cc2_scratch0, cc2_scratch1] (by decide) (by decide)

/-! ## The body obligation -/

/-- What the body is called with at point `t`, the windows one by one, -/
def bodyPre2 (t : Fin cfg2.N) : sProp 𝕄 :=
  iprop((dat2 O R Vb).Φ t.castSucc ∗ (dat2 O R Vb).owesAt (none : HIx 1) t.castSucc
    ∗ (∃ d, owns (c : Thread nD τ) (st2_0 t) fullShare ((dat2 O R Vb).before 0 t d))
    ∗ (∃ d, owns (c : Thread nD τ) (st2_1 t) fullShare ((dat2 O R Vb).before 1 t d))
    ∗ (∃ d, owns (c : Thread nD τ) (st2_2 t) fullShare ((dat2 O R Vb).before 2 t d))
    ∗ (∃ d, owns (c : Thread nD τ) (st2_3 t) fullShare ((dat2 O R Vb).before 3 t d))
    ∗ (∃ d, owns (c : Thread nD τ) (st2_4 t) fullShare ((dat2 O R Vb).before 4 t d)))

/-- and what it returns. -/
def bodyPost2 (t : Fin cfg2.N) : sProp 𝕄 :=
  iprop((dat2 O R Vb).Φ t.succ ∗ (dat2 O R Vb).owesAt (none : HIx 1) t.succ
    ∗ owns (c : Thread nD τ) (st2_0 t) fullShare ((dat2 O R Vb).after 0 t)
    ∗ owns (c : Thread nD τ) (st2_1 t) fullShare ((dat2 O R Vb).after 1 t)
    ∗ owns (c : Thread nD τ) (st2_2 t) fullShare ((dat2 O R Vb).after 2 t)
    ∗ owns (c : Thread nD τ) (st2_3 t) fullShare ((dat2 O R Vb).after 3 t)
    ∗ owns (c : Thread nD τ) (st2_4 t) fullShare ((dat2 O R Vb).after 4 t))

/-- The body at the first point: the scratch buffers come out of the scoped rest at anything and go back at the weights. -/
theorem sound_body2_first (t : Fin cfg2.N) (ht : t.val = 0) :
    bodyPre2 O R Vb t ⊢ wp frame (wpE (defs₀ (F := F)) Variants.none c none) Set.univ (bodyAt2 t) (fun _ => bodyPost2 O R Vb t) := by
  unfold bodyPre2 bodyPost2 bodyAt2
  simp only [dat2_before_0, dat2_before_1, dat2_before_2, dat2_before_3]
  rw [show (dat2 O R Vb).owesAt (none : HIx 1) t.succ = (dat2 O R Vb).owesAt (none : HIx 1) t.castSucc from rfl,
    dat2_after_0, dat2_after_1, dat2_after_2, dat2_after_3, dat2_after_4, dat2_Φ, dat2_Φ,
    show (t.castSucc : Fin (cfg2.N + 1)).val = 0 from ht, show (t.succ : Fin (cfg2.N + 1)).val = 0 + 1 from congrArg (· + 1) ht]
  rw [show Phi2 Vb 0 = Pipeline.scopedRest spec2 c from rfl, scopedRest2_split,
    show Phi2 Vb (0 + 1) = iprop(owns (c : Thread nD τ) (Memref.whole cc2_scratch0) fullShare (scrA Vb)
      ∗ owns (c : Thread nD τ) (Memref.whole cc2_scratch1) fullShare (scrSm Vb)
      ∗ Pipeline.scopedRestBut spec2 c [cc2_scratch0, cc2_scratch1]) from rfl]
  iintro ⟨⟨⟨⟨%g0, Hs0⟩, ⟨%g1, Hs1⟩⟩, Hrest⟩, Ho, ⟨%d0, H0⟩, ⟨%d1, H1⟩, ⟨%d2, H2⟩, ⟨%d3, H3⟩, ⟨%d4, H4⟩⟩
  iapply (sound_kernel2_first c Set.univ t ht _ _ _ _ _ _ _ _ _ _ _ _ _ _ (iblk2 Vb 0 t) (iblk2 Vb 1 t) (iblk2 Vb 2 t) (iblk2 Vb 3 t) _)
  isplitl [H0]; · iexact H0
  isplitl [H1]; · iexact H1
  isplitl [H2]; · iexact H2
  isplitl [H3]; · iexact H3
  isplitl [H4]; · iexists _; iexact H4
  isplitl [Hs0]; · iexists g0; rw [owns_whole]; iexact Hs0
  isplitl [Hs1]; · iexists g1; rw [owns_whole]; iexact Hs1
  iintro ⟨H0, H1, H2, H3, H4, Hs0, Hs1⟩
  isplitl [Hs0 Hs1 Hrest]
  · isplitl [Hs0]; · iexact Hs0
    isplitl [Hs1]; · iexact Hs1
    iexact Hrest
  isplitl [Ho]; · iexact Ho
  isplitl [H0]; · iexact H0
  isplitl [H1]; · iexact H1
  isplitl [H2]; · iexact H2
  isplitl [H3]; · iexact H3
  iexact H4

/-- The body at a later point: the scratch buffers are read at the weights and stay. -/
theorem sound_body2_rest (t : Fin cfg2.N) (ht : t.val ≠ 0) :
    bodyPre2 O R Vb t ⊢ wp frame (wpE (defs₀ (F := F)) Variants.none c none) Set.univ (bodyAt2 t) (fun _ => bodyPost2 O R Vb t) := by
  obtain ⟨k, hk⟩ := Nat.exists_eq_succ_of_ne_zero ht
  unfold bodyPre2 bodyPost2 bodyAt2
  simp only [dat2_before_0, dat2_before_1, dat2_before_2, dat2_before_3]
  rw [show (dat2 O R Vb).owesAt (none : HIx 1) t.succ = (dat2 O R Vb).owesAt (none : HIx 1) t.castSucc from rfl,
    dat2_after_0, dat2_after_1, dat2_after_2, dat2_after_3, dat2_after_4, dat2_Φ, dat2_Φ,
    show (t.castSucc : Fin (cfg2.N + 1)).val = k + 1 from hk, show (t.succ : Fin (cfg2.N + 1)).val = (k + 1) + 1 from congrArg (· + 1) hk]
  rw [show Phi2 Vb (k + 1) = iprop(owns (c : Thread nD τ) (Memref.whole cc2_scratch0) fullShare (scrA Vb)
      ∗ owns (c : Thread nD τ) (Memref.whole cc2_scratch1) fullShare (scrSm Vb)
      ∗ Pipeline.scopedRestBut spec2 c [cc2_scratch0, cc2_scratch1]) from rfl,
    show Phi2 Vb (k + 1 + 1) = iprop(owns (c : Thread nD τ) (Memref.whole cc2_scratch0) fullShare (scrA Vb)
      ∗ owns (c : Thread nD τ) (Memref.whole cc2_scratch1) fullShare (scrSm Vb)
      ∗ Pipeline.scopedRestBut spec2 c [cc2_scratch0, cc2_scratch1]) from rfl]
  iintro ⟨⟨Hs0, Hs1, Hrest⟩, Ho, ⟨%d0, H0⟩, ⟨%d1, H1⟩, ⟨%d2, H2⟩, ⟨%d3, H3⟩, ⟨%d4, H4⟩⟩
  iapply (sound_kernel2_rest c Set.univ t ht _ _ _ _ _ _ _ _ _ _ _ _ _ _ (iblk2 Vb 3 t) (scrA Vb) (scrSm Vb) _)
  isplitl [H3]; · iexact H3
  isplitl [H4]; · iexists _; iexact H4
  isplitl [Hs0]; · iexact Hs0
  isplitl [Hs1]; · iexact Hs1
  iintro ⟨H3, H4, Hs0, Hs1⟩
  isplitl [Hs0 Hs1 Hrest]
  · isplitl [Hs0]; · iexact Hs0
    isplitl [Hs1]; · iexact Hs1
    iexact Hrest
  isplitl [Ho]; · iexact Ho
  isplitl [H0]; · iexact H0
  isplitl [H1]; · iexact H1
  isplitl [H2]; · iexact H2
  isplitl [H3]; · iexact H3
  iexact H4

/-- The library's body obligation, at every point. -/
theorem body_obligation2 : BodyObligation (dat2 O R Vb) (defs₀ (F := F)) Variants.none (none : HIx 1) Set.univ := fun t => by
  rw [bigSep_W2, bigSep_W2]
  by_cases ht : t.val = 0
  · exact sound_body2_first O R Vb t ht
  · exact sound_body2_rest O R Vb t ht

end Cert.Kernel.Hand.Region

end
-- ==== Proof.MatvecSoftmaxB.lean ====
/-
  The two TensorCore regions together: the family of proof data over both pipelines, each region's
  body obligation read at the family, and what each region's invariant takes at its first point and
  gives back after its last.
-/
import proofs.«203204_g25512105739078_cont_8to1_1946_3_alg».proof.Proof.CommonB
import proofs.«203204_g25512105739078_cont_8to1_1946_3_alg».proof.Proof.Gen.Kernel.Launch
import proofs.«203204_g25512105739078_cont_8to1_1946_3_alg».proof.Proof.Gen.Kernel.Skeleton
import proofs.«203204_g25512105739078_cont_8to1_1946_3_alg».proof.Proof.Gen.Kernel.Points
import proofs.«203204_g25512105739078_cont_8to1_1946_3_alg».proof.Proof.SoftmaxB
import Idealize.ShloMosaic.Lib.Pipeline.Regions
import Idealize.ShloMosaic.Lib.Pipeline.FrameBody
import Idealize.ShloMosaic.Lib.Pipeline.Value
import Idealize.ShloMosaic.Lib.Tactic

set_option maxRecDepth 16384

noncomputable section

namespace Cert.Kernel.Hand.Region

open Cert.Kernel Cert.Kernel.Gen Cert.Kernel.Hand

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

variable (O0 O1 : Dev nD → CellTallies nD τ sig (HIx 1)) (R0 R1 : Dev nD → Set (SemLoc sig × HIx 1)) (V0 V1 : (c : Dev nD) → TcVal F c)

/-- The proof data of both pipelines: region 0 over the valuation `V0`, the tallies `O0` and the bound `R0`, region 1 over `V1`, `O1` and `R1`. -/
def pdats : (p : Fin 2) → (c : Dev nD) → Dat τ (Elt F) (HIx 1) ℕ UU ℕ (Pipeline.pin (pcfgs (F := F)) adm p) c
  | ⟨0, _⟩ => fun c => dat0 (O0 c) (R0 c) (V0 c)
  | ⟨1, _⟩ => fun c => dat2 (O1 c) (R1 c) (V1 c)
  | ⟨_ + 2, h⟩ => absurd h (Nat.not_lt.2 (Nat.le_add_left _ _))

theorem pdats_zero (c : Dev nD) : pdats O0 O1 R0 R1 V0 V1 0 c = dat0 (O0 c) (R0 c) (V0 c) := rfl
theorem pdats_one (c : Dev nD) : pdats O0 O1 R0 R1 V0 V1 1 c = dat2 (O1 c) (R1 c) (V1 c) := rfl

theorem pdats_A0 (c : Dev nD) (w : Fin cfg0.W) : (pdats O0 O1 R0 R1 V0 V1 0 c).A w = V0 c (Pipeline.arrRef spec0 w) := rfl
theorem pdats_A2 (c : Dev nD) (w : Fin cfg2.W) : (pdats O0 O1 R0 R1 V0 V1 1 c).A w = V1 c (Pipeline.arrRef spec2 w) := rfl
theorem pdats_owed0 (c : Dev nD) (t) : (pdats O0 O1 R0 R1 V0 V1 0 c).owed t = O0 c := rfl
theorem pdats_owed2 (c : Dev nD) (t) : (pdats O0 O1 R0 R1 V0 V1 1 c).owed t = O1 c := rfl
theorem pdats_recorded0 (c : Dev nD) (t) : (pdats O0 O1 R0 R1 V0 V1 0 c).recorded t = R0 c := rfl
theorem pdats_recorded2 (c : Dev nD) (t) : (pdats O0 O1 R0 R1 V0 V1 1 c).recorded t = R1 c := rfl
theorem pdats_share0 (c : Dev nD) (w : Fin cfg0.W) : (pdats O0 O1 R0 R1 V0 V1 0 c).share w = fullShare := dat0_share (O0 c) (R0 c) (V0 c) w
theorem pdats_share2 (c : Dev nD) (w : Fin cfg2.W) : (pdats O0 O1 R0 R1 V0 V1 1 c).share w = fullShare := dat2_share (O1 c) (R1 c) (V1 c) w

/-- An input window's array never changes. -/
theorem pdats_arrAt_in0 (c : Dev nD) (w : Fin cfg0.W) (hw : w = 0 ∨ w = 1) (n : ℕ) :
    (pdats O0 O1 R0 R1 V0 V1 0 c).arrAt w n = V0 c (Pipeline.arrRef spec0 w) := by
  rcases hw with rfl | rfl
  · exact (dat0 (O0 c) (R0 c) (V0 c)).arrAt_in 0 rfl n
  · exact (dat0 (O0 c) (R0 c) (V0 c)).arrAt_in 1 rfl n

theorem isOut2_of_ne : ∀ w : Fin 5, w ≠ 4 → (win2 w).isOut = false := by decide

theorem pdats_arrAt_in2 (c : Dev nD) (w : Fin cfg2.W) (hw : w ≠ 4) (n : ℕ) :
    (pdats O0 O1 R0 R1 V0 V1 1 c).arrAt w n = V1 c (Pipeline.arrRef spec2 w) :=
  (dat2 (O1 c) (R1 c) (V1 c)).arrAt_in w (isOut2_of_ne w hw) n

/-- Region 0's body obligation, at the family. -/
theorem body0 : ∀ c, BodyObligationLoose (pdats O0 O1 R0 R1 V0 V1 0 c) (defs₀ (F := F)) 𝒱₀ (none : HIx 1) Set.univ :=
  fun c => (body_obligation0 (O0 c) (R0 c) (V0 c)).loose

/-- Region 1's. -/
theorem body2 : ∀ c, BodyObligationLoose (pdats O0 O1 R0 R1 V0 V1 1 c) (defs₀ (F := F)) 𝒱₀ (none : HIx 1) Set.univ :=
  fun c => (body_obligation2 (O1 c) (R1 c) (V1 c)).loose

/-! ## The regions' invariants at their ends -/

theorem bigSep_none {M : Type} [URA M] (Φ : Fin 0 → sProp M) : bigSep Finset.univ Φ = (BI.emp : sProp M) :=
  bigSep_univ_eq_bigSepL [] (by decide) (by decide) Φ

/-- No pipeline has a prefetched table. -/
theorem prefHeld0 (c : Dev nD) (q) (pf) :
    (Pipeline.prefHeld (Ix := HIx 1) (Name := ℕ) (U := UU) (Lvl := ℕ) (Val := Elt F) (pcfgs (F := F) 0).pre c q pf : sProp 𝕄) = BI.emp :=
  bigSep_none _
theorem prefHeld1 (c : Dev nD) (q) (pf) :
    (Pipeline.prefHeld (Ix := HIx 1) (Name := ℕ) (U := UU) (Lvl := ℕ) (Val := Elt F) (pcfgs (F := F) 1).pre c q pf : sProp 𝕄) = BI.emp :=
  bigSep_none _

/-- Region 0's invariant is the scoped rest, in and out. -/
theorem hin0 (c : Dev nD) :
    iprop((emp : sProp 𝕄) ∗ Pipeline.prefHeld (pcfgs (F := F) 0).pre c (fun _ => fullShare) (adm (F := F) 0).1 ∗ Pipeline.scopedRest (Pipeline.pin (pcfgs (F := F)) adm 0).spec c)
      ⊢ (pdats O0 O1 R0 R1 V0 V1 0 c).Φ 0 := by
  rw [show (pdats O0 O1 R0 R1 V0 V1 0 c).Φ 0 = Pipeline.scopedRest spec0 c from rfl]
  iintro ⟨-, -, H⟩; iexact H

theorem hout0 (c : Dev nD) :
    (pdats O0 O1 R0 R1 V0 V1 0 c).Φ (Fin.last (Pipeline.pin (pcfgs (F := F)) adm 0).N)
      ⊢ iprop((emp : sProp 𝕄) ∗ Pipeline.ownSems0 (fun k : PEmpty => k.elim) c ∗ Pipeline.scopedRest (Pipeline.pin (pcfgs (F := F)) adm 0).spec c) := by
  rw [show (pdats O0 O1 R0 R1 V0 V1 0 c).Φ (Fin.last (Pipeline.pin (pcfgs (F := F)) adm 0).N) = Pipeline.scopedRest spec0 c from rfl, Pipeline.ownSems0_none]
  iintro H
  isplitr; · iempintro
  isplitr; · iempintro
  iexact H

/-- Region 1's invariant starts as the scoped rest and gives it back, the scratch buffers' contents forgotten. -/
theorem hin2 (c : Dev nD) :
    iprop((emp : sProp 𝕄) ∗ Pipeline.prefHeld (pcfgs (F := F) 1).pre c (fun _ => fullShare) (adm (F := F) 1).1 ∗ Pipeline.scopedRest (Pipeline.pin (pcfgs (F := F)) adm 1).spec c)
      ⊢ (pdats O0 O1 R0 R1 V0 V1 1 c).Φ 0 := by
  rw [show (pdats O0 O1 R0 R1 V0 V1 1 c).Φ 0 = Pipeline.scopedRest spec2 c from rfl]
  iintro ⟨-, -, H⟩; iexact H

theorem hout2 (c : Dev nD) :
    (pdats O0 O1 R0 R1 V0 V1 1 c).Φ (Fin.last (Pipeline.pin (pcfgs (F := F)) adm 1).N)
      ⊢ iprop((emp : sProp 𝕄) ∗ Pipeline.ownSems0 (fun k : PEmpty => k.elim) c ∗ Pipeline.scopedRest (Pipeline.pin (pcfgs (F := F)) adm 1).spec c) := by
  rw [show (pdats O0 O1 R0 R1 V0 V1 1 c).Φ (Fin.last (Pipeline.pin (pcfgs (F := F)) adm 1).N)
      = iprop(owns (c : Thread nD τ) (Memref.whole cc2_scratch0) fullShare (scrA (V1 c))
        ∗ owns (c : Thread nD τ) (Memref.whole cc2_scratch1) fullShare (scrSm (V1 c))
        ∗ Pipeline.scopedRestBut spec2 c [cc2_scratch0, cc2_scratch1]) from rfl,
    Pipeline.ownSems0_none, show (Pipeline.pin (pcfgs (F := F)) adm 1).spec = spec2 from rfl, scopedRest2_split, owns_whole, owns_whole]
  iintro ⟨Hs0, Hs1, Hrest⟩
  isplitr; · iempintro
  isplitr; · iempintro
  isplitl [Hs0 Hs1]
  · isplitl [Hs0]; · iexists _; iexact Hs0
    iexists _; iexact Hs1
  iexact Hrest

end Cert.Kernel.Hand.Region

end
-- ==== Proof.LaunchStateB.lean ====
/-
  The TensorCore's fourteen unscoped arrays as one assertion, in three spellings that are equal: the launch
  theorem's family over the unscoped references, a chain of fourteen whole points-tos, and the host
  operations' family over a set of device references at a valuation.
-/
import proofs.«203204_g25512105739078_cont_8to1_1946_3_alg».proof.Proof.CommonB
import proofs.«203204_g25512105739078_cont_8to1_1946_3_alg».proof.Proof.Gen.Kernel.Launch

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type}

local notation "𝕄" => MT nD τ sig (HIx 1) (Elt F) ℕ UU ℕ

/-- One unscoped array of the TensorCore's, whole, at contents `f`. -/
abbrev pt (d : Dev nD) (b : Ref sig .tc) (f : Buf (Elt F) ((d.tc : Thread nD τ).loc b)) : sProp 𝕄 := (d.tc : Thread nD τ).loc b ↦{fullShare} f

/-- A TensorCore reference as a device reference. -/
abbrev dr (b : Ref sig .tc) : DevRef τ sig := Proc.devRef .tc b

/-- A valuation read at the TensorCore's references. -/
abbrev tv {d : Dev nD} (W : Valuation τ sig (Elt F)) : (b : Ref sig .tc) → Buf (Elt F) ((d.tc : Thread nD τ).loc b) := fun b => W (dr b)

/-- The fourteen unscoped arrays. -/
def allBufs : Finset (DevRef τ sig) := {dr main_arg0, dr main_arg1, dr main_arg2, dr main_arg3, dr main_v0, dr main_v1, dr main_v2, dr main_v3, dr main_v4_0, dr main_v4_1, dr main_v5, dr main_v6, dr main_v7, dr main_v8}

theorem unscopedBufs_eq (d : Dev nD) (W : (b : Ref sig .tc) → Buf (Elt F) ((d.tc : Thread nD τ).loc b)) :
    (unscopedBufs d W : sProp 𝕄) = iprop(pt d main_arg0 (W main_arg0) ∗ pt d main_arg1 (W main_arg1) ∗ pt d main_arg2 (W main_arg2) ∗ pt d main_arg3 (W main_arg3) ∗ pt d main_v0 (W main_v0) ∗ pt d main_v1 (W main_v1) ∗ pt d main_v2 (W main_v2) ∗ pt d main_v3 (W main_v3) ∗ pt d main_v4_0 (W main_v4_0) ∗ pt d main_v4_1 (W main_v4_1) ∗ pt d main_v5 (W main_v5) ∗ pt d main_v6 (W main_v6) ∗ pt d main_v7 (W main_v7) ∗ pt d main_v8 (W main_v8)) := by
  unfold unscopedBufs
  rw [bigSep_eq_bigSepL_of_eq [main_arg0, main_arg1, main_arg2, main_arg3, main_v0, main_v1, main_v2, main_v3, main_v4_0, main_v4_1, main_v5, main_v6, main_v7, main_v8] (by decide) (by decide)]
  rfl

theorem held_all (d : Dev nD) (W : Valuation τ sig (Elt F)) :
    (held (d.tc : Thread nD τ) allBufs W : sProp 𝕄) = iprop(pt d main_arg0 (W (dr main_arg0)) ∗ pt d main_arg1 (W (dr main_arg1)) ∗ pt d main_arg2 (W (dr main_arg2)) ∗ pt d main_arg3 (W (dr main_arg3)) ∗ pt d main_v0 (W (dr main_v0)) ∗ pt d main_v1 (W (dr main_v1)) ∗ pt d main_v2 (W (dr main_v2)) ∗ pt d main_v3 (W (dr main_v3)) ∗ pt d main_v4_0 (W (dr main_v4_0)) ∗ pt d main_v4_1 (W (dr main_v4_1)) ∗ pt d main_v5 (W (dr main_v5)) ∗ pt d main_v6 (W (dr main_v6)) ∗ pt d main_v7 (W (dr main_v7)) ∗ pt d main_v8 (W (dr main_v8))) := by
  unfold held allBufs
  rw [bigSep_eq_bigSepL_of_eq [dr main_arg0, dr main_arg1, dr main_arg2, dr main_arg3, dr main_v0, dr main_v1, dr main_v2, dr main_v3, dr main_v4_0, dr main_v4_1, dr main_v5, dr main_v6, dr main_v7, dr main_v8] (by decide) (by decide)]
  rfl

/-- The host operations' spelling is the launch theorem's. -/
theorem held_all_unscoped (d : Dev nD) (W : Valuation τ sig (Elt F)) :
    (held (d.tc : Thread nD τ) allBufs W : sProp 𝕄) = unscopedBufs d (tv W) := by
  rw [held_all, unscopedBufs_eq]

/-- The arrays at a valuation changed at the two result arrays of the SparseCore call. -/
theorem held_upd2 (d : Dev nD) (W : Valuation τ sig (Elt F)) (fs : (dr main_v4_0).ty.Contents (Elt F)) (fc : (dr main_v4_1).ty.Contents (Elt F)) :
    (held (d.tc : Thread nD τ) allBufs (Function.update (Function.update W (dr main_v4_0) fs) (dr main_v4_1) fc) : sProp 𝕄)
      = iprop(pt d main_arg0 (W (dr main_arg0)) ∗ pt d main_arg1 (W (dr main_arg1)) ∗ pt d main_arg2 (W (dr main_arg2)) ∗ pt d main_arg3 (W (dr main_arg3)) ∗ pt d main_v0 (W (dr main_v0)) ∗ pt d main_v1 (W (dr main_v1)) ∗ pt d main_v2 (W (dr main_v2)) ∗ pt d main_v3 (W (dr main_v3)) ∗ pt d main_v4_0 fs ∗ pt d main_v4_1 fc ∗ pt d main_v5 (W (dr main_v5)) ∗ pt d main_v6 (W (dr main_v6)) ∗ pt d main_v7 (W (dr main_v7)) ∗ pt d main_v8 (W (dr main_v8))) := by
  have n1 : ∀ b : Ref sig .tc, dr b ≠ dr main_v4_0 → dr b ≠ dr main_v4_1 →
      Function.update (Function.update W (dr main_v4_0) fs) (dr main_v4_1) fc (dr b) = W (dr b) :=
    fun b h0 h1 => by rw [Function.update_of_ne h1, Function.update_of_ne h0]
  rw [held_all, n1 main_arg0 (by decide) (by decide), n1 main_arg1 (by decide) (by decide), n1 main_arg2 (by decide) (by decide), n1 main_arg3 (by decide) (by decide), n1 main_v0 (by decide) (by decide), n1 main_v1 (by decide) (by decide), n1 main_v2 (by decide) (by decide), n1 main_v3 (by decide) (by decide), n1 main_v5 (by decide) (by decide), n1 main_v6 (by decide) (by decide), n1 main_v7 (by decide) (by decide), n1 main_v8 (by decide) (by decide),
    Function.update_self, Function.update_of_ne (by decide : dr main_v4_0 ≠ dr main_v4_1), Function.update_self]

end Cert.Kernel.Hand

end
-- ==== Proof.LaunchRegionsB.lean ====
/-
  The two TensorCore regions as the SparseCore program's @main meets them: each region is entered from the
  fourteen unscoped arrays held at a valuation and the core owing the launch's start signals with its recorded
  pairs within a bound, and left with the output array at what the pipeline computed, the other thirteen
  unchanged, the same tallies owed and the bound grown by the pipeline's own waits. The staging cells' waits
  are admissible because the tallies owe nothing at the kernels' own index.
-/
import proofs.«203204_g25512105739078_cont_8to1_1946_3_alg».proof.Proof.MatvecSoftmaxB
import proofs.«203204_g25512105739078_cont_8to1_1946_3_alg».proof.Proof.LaunchStateB

noncomputable section

namespace Cert.Kernel.Hand

open Cert.Kernel Cert.Kernel.Gen Cert.Kernel.Hand.Region

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type}

local notation "𝕄" => MT nD τ sig (HIx 1) (Elt F) ℕ UU ℕ

variable [FloatOps F]

section Regions

variable (O : CellTallies nD τ sig (HIx 1)) (R : Set (SemLoc sig × HIx 1)) (W : Valuation τ sig (Elt F))

/-- The proof data of both pipelines over one valuation, the same on every device. -/
abbrev fam : (p : Fin 2) → (c : Dev nD) → Pipeline.Dat τ (Elt F) (HIx 1) ℕ UU ℕ (Pipeline.pin (pcfgs (F := F)) Region.adm p) c :=
  Region.pdats (fun _ => O) (fun _ => O) (fun _ => R) (fun _ => R) (fun c => tv (d := c) W) (fun c => tv (d := c) W)

/-- What region 0 leaves in its output array. -/
def out0 (c : Dev nD) : (dr main_v1).ty.Contents (Elt F) := (fam O R W 0 c).arrAt 2 cfg0.N
/-- The valuation after region 0. -/
def Wr0 (c : Dev nD) : Valuation τ sig (Elt F) := Function.update W (dr main_v1) (out0 O R W c)

/-- Region 0 (the matrix-vector product). -/
def reg0 (hO : ∀ g, O g none = 0) : Pipeline.RegionSeg (pcfgs (F := F)) Region.adm (fam O R W) (none : HIx 1) defs₀ 𝒱₀ (K (F := F)).L (K (F := F)).lev 0 where
  win := launch0.win.to₀
  block_pos := block_pos0
  stage_whole := stage_whole0
  K := PEmpty
  osem k := k.elim
  ho := Pipeline.OwnSemFacts.none _
  hbody := Region.body0 _ _ _ _ _ _
  hwaits c := Pipeline.cellsWaits_intro _ _ _ 0 c (fun w s t => (K (F := F)).mayWait_none _ hO)
  pre c := iprop(held (c.tc : Thread nD τ) allBufs W ∗ Pipeline.owesWithin c O R)
  post c := iprop(held (c.tc : Thread nD τ) allBufs (Wr0 O R W c) ∗ Pipeline.owesWithin c O (R ∪ cfg0.waitPairs (none : HIx 1)))
  X _ := iprop(emp)
  Y _ := iprop(emp)
  Z c := Pipeline.unscopedRest spec0 c (tv (d := c) W)
  hentry c := by
    rw [held_all_unscoped, Region.prefHeld0]
    iintro ⟨⟨Hb, HO⟩, -, -⟩
    imodintro
    ihave H := (Pipeline.arrays_of_unscopedBufs (pcfgs (F := F)) Region.adm (fam O R W) (p := 0) launch0.win arr_whole0 c
      (Region.pdats_share0 _ _ _ _ _ _ c) (tv (d := c) W) (Region.pdats_A0 _ _ _ _ _ _ c)) $$ Hb
    icases H with ⟨Ha, Hr⟩
    isplitl [Ha]; · iexact Ha
    isplitr; · iempintro
    isplitl [HO]
    · iapply (Pipeline.owesWithin_mono c O (B := R) (B' := (fam O R W 0 c).bound (none : HIx 1) 0) Set.subset_union_left); iexact HO
    isplitr; · iempintro
    iexact Hr
  hin c := Region.hin0 _ _ _ _ _ _ c
  hout c := Region.hout0 _ _ _ _ _ _ c
  hexit c := by
    have e : ∀ b : Ref sig .tc, dr b ≠ dr main_v1 → tv (d := c) (Wr0 O R W c) b = tv (d := c) W b := fun b h => Function.update_of_ne h _ _
    have hval : ∀ w : Fin 3, tv (d := c) (Wr0 O R W c) (Pipeline.arrRef spec0 w) = (fam O R W 0 c).arrAt w (Pipeline.pin (pcfgs (F := F)) Region.adm 0).N := fun w =>
      match w with
      | 0 => (e _ (by decide)).trans (Region.pdats_arrAt_in0 (fun _ => O) (fun _ => O) (fun _ => R) (fun _ => R) (fun c => tv (d := c) W) (fun c => tv (d := c) W) c 0 (Or.inl rfl) (Pipeline.pin (pcfgs (F := F)) Region.adm 0).N).symm
      | 1 => (e _ (by decide)).trans (Region.pdats_arrAt_in0 (fun _ => O) (fun _ => O) (fun _ => R) (fun _ => R) (fun c => tv (d := c) W) (fun c => tv (d := c) W) c 1 (Or.inr rfl) (Pipeline.pin (pcfgs (F := F)) Region.adm 0).N).symm
      | 2 => Function.update_self _ _ _
    have hval' : ∀ w : Fin (Pipeline.pin (pcfgs (F := F)) Region.adm 0).W, tv (d := c) (Wr0 O R W c) (Pipeline.arrRef (Pipeline.pin (pcfgs (F := F)) Region.adm 0).spec w) = (fam O R W 0 c).arrAt w (Pipeline.pin (pcfgs (F := F)) Region.adm 0).N := hval
    have hrest : (Pipeline.unscopedRest (Pipeline.pin (pcfgs (F := F)) Region.adm 0).spec c (tv (d := c) (Wr0 O R W c)) : sProp 𝕄) = Pipeline.unscopedRest spec0 c (tv (d := c) W) := by
      show (Pipeline.unscopedRest spec0 c (tv (d := c) (Wr0 O R W c)) : sProp 𝕄) = _
      rw [unscopedRest0_eq c (tv (d := c) (Wr0 O R W c)), unscopedRest0_eq c (tv (d := c) W),
        e main_arg0 (by decide), e main_arg2 (by decide), e main_arg3 (by decide), e main_v2 (by decide), e main_v3 (by decide), e main_v4_0 (by decide),
      e main_v4_1 (by decide), e main_v5 (by decide), e main_v6 (by decide), e main_v7 (by decide), e main_v8 (by decide)]
    rw [held_all_unscoped, Pipeline.unscopedBufs_split (Pipeline.pin (pcfgs (F := F)) Region.adm) 0 launch0.win.arr_unscoped launch0.win.arr_inj c (tv (d := c) (Wr0 O R W c)),
      Pipeline.arrays_eq (Pipeline.pin (pcfgs (F := F)) Region.adm) (fam O R W) 0 c arr_whole0 (Region.pdats_share0 _ _ _ _ _ _ c),
      hrest, bigSep_congr fun w _ => by rw [← hval' w]]
    iintro ⟨Ha, HO, -, Hr⟩
    imodintro
    isplitl [Ha Hr]
    · isplitl [Ha] <;> iassumption
    iexact HO

/-- What region 1 leaves in its output array. -/
def out1 (c : Dev nD) : (dr main_v8).ty.Contents (Elt F) := (fam O R W 1 c).arrAt 4 cfg2.N
/-- The valuation after region 1. -/
def Wr1 (c : Dev nD) : Valuation τ sig (Elt F) := Function.update W (dr main_v8) (out1 O R W c)

/-- Region 1 (the softmax). -/
def reg1 (hO : ∀ g, O g none = 0) : Pipeline.RegionSeg (pcfgs (F := F)) Region.adm (fam O R W) (none : HIx 1) defs₀ 𝒱₀ (K (F := F)).L (K (F := F)).lev 1 where
  win := launch2.win.to₀
  block_pos := block_pos2
  stage_whole := stage_whole2
  K := PEmpty
  osem k := k.elim
  ho := Pipeline.OwnSemFacts.none _
  hbody := Region.body2 _ _ _ _ _ _
  hwaits c := Pipeline.cellsWaits_intro _ _ _ 1 c (fun w s t => (K (F := F)).mayWait_none _ hO)
  pre c := iprop(held (c.tc : Thread nD τ) allBufs W ∗ Pipeline.owesWithin c O R)
  post c := iprop(held (c.tc : Thread nD τ) allBufs (Wr1 O R W c) ∗ Pipeline.owesWithin c O (R ∪ cfg2.waitPairs (none : HIx 1)))
  X _ := iprop(emp)
  Y _ := iprop(emp)
  Z c := Pipeline.unscopedRest spec2 c (tv (d := c) W)
  hentry c := by
    rw [held_all_unscoped, Region.prefHeld1]
    iintro ⟨⟨Hb, HO⟩, -, -⟩
    imodintro
    ihave H := (Pipeline.arrays_of_unscopedBufs (pcfgs (F := F)) Region.adm (fam O R W) (p := 1) launch2.win arr_whole2 c
      (Region.pdats_share2 _ _ _ _ _ _ c) (tv (d := c) W) (Region.pdats_A2 _ _ _ _ _ _ c)) $$ Hb
    icases H with ⟨Ha, Hr⟩
    isplitl [Ha]; · iexact Ha
    isplitr; · iempintro
    isplitl [HO]
    · iapply (Pipeline.owesWithin_mono c O (B := R) (B' := (fam O R W 1 c).bound (none : HIx 1) 0) Set.subset_union_left); iexact HO
    isplitr; · iempintro
    iexact Hr
  hin c := Region.hin2 _ _ _ _ _ _ c
  hout c := Region.hout2 _ _ _ _ _ _ c
  hexit c := by
    have e : ∀ b : Ref sig .tc, dr b ≠ dr main_v8 → tv (d := c) (Wr1 O R W c) b = tv (d := c) W b := fun b h => Function.update_of_ne h _ _
    have hval : ∀ w : Fin 5, tv (d := c) (Wr1 O R W c) (Pipeline.arrRef spec2 w) = (fam O R W 1 c).arrAt w (Pipeline.pin (pcfgs (F := F)) Region.adm 1).N := fun w =>
      match w with
      | 0 => (e _ (by decide)).trans (Region.pdats_arrAt_in2 (fun _ => O) (fun _ => O) (fun _ => R) (fun _ => R) (fun c => tv (d := c) W) (fun c => tv (d := c) W) c 0 (by decide) (Pipeline.pin (pcfgs (F := F)) Region.adm 1).N).symm
      | 1 => (e _ (by decide)).trans (Region.pdats_arrAt_in2 (fun _ => O) (fun _ => O) (fun _ => R) (fun _ => R) (fun c => tv (d := c) W) (fun c => tv (d := c) W) c 1 (by decide) (Pipeline.pin (pcfgs (F := F)) Region.adm 1).N).symm
      | 2 => (e _ (by decide)).trans (Region.pdats_arrAt_in2 (fun _ => O) (fun _ => O) (fun _ => R) (fun _ => R) (fun c => tv (d := c) W) (fun c => tv (d := c) W) c 2 (by decide) (Pipeline.pin (pcfgs (F := F)) Region.adm 1).N).symm
      | 3 => (e _ (by decide)).trans (Region.pdats_arrAt_in2 (fun _ => O) (fun _ => O) (fun _ => R) (fun _ => R) (fun c => tv (d := c) W) (fun c => tv (d := c) W) c 3 (by decide) (Pipeline.pin (pcfgs (F := F)) Region.adm 1).N).symm
      | 4 => Function.update_self _ _ _
    have hval' : ∀ w : Fin (Pipeline.pin (pcfgs (F := F)) Region.adm 1).W, tv (d := c) (Wr1 O R W c) (Pipeline.arrRef (Pipeline.pin (pcfgs (F := F)) Region.adm 1).spec w) = (fam O R W 1 c).arrAt w (Pipeline.pin (pcfgs (F := F)) Region.adm 1).N := hval
    have hrest : (Pipeline.unscopedRest (Pipeline.pin (pcfgs (F := F)) Region.adm 1).spec c (tv (d := c) (Wr1 O R W c)) : sProp 𝕄) = Pipeline.unscopedRest spec2 c (tv (d := c) W) := by
      show (Pipeline.unscopedRest spec2 c (tv (d := c) (Wr1 O R W c)) : sProp 𝕄) = _
      rw [unscopedRest2_eq c (tv (d := c) (Wr1 O R W c)), unscopedRest2_eq c (tv (d := c) W),
        e main_arg1 (by decide), e main_arg2 (by decide), e main_arg3 (by decide), e main_v0 (by decide), e main_v1 (by decide), e main_v2 (by decide),
      e main_v3 (by decide), e main_v4_0 (by decide), e main_v4_1 (by decide)]
    rw [held_all_unscoped, Pipeline.unscopedBufs_split (Pipeline.pin (pcfgs (F := F)) Region.adm) 1 launch2.win.arr_unscoped launch2.win.arr_inj c (tv (d := c) (Wr1 O R W c)),
      Pipeline.arrays_eq (Pipeline.pin (pcfgs (F := F)) Region.adm) (fam O R W) 1 c arr_whole2 (Region.pdats_share2 _ _ _ _ _ _ c),
      hrest, bigSep_congr fun w _ => by rw [← hval' w]]
    iintro ⟨Ha, HO, -, Hr⟩
    imodintro
    isplitl [Ha Hr]
    · isplitl [Ha] <;> iassumption
    iexact HO

theorem reg0_pre (hO : ∀ g, O g none = 0) (c : Dev nD) :
    (reg0 O R W hO).pre c = iprop(held (c.tc : Thread nD τ) allBufs W ∗ Pipeline.owesWithin c O R) := rfl
theorem reg0_post (hO : ∀ g, O g none = 0) (c : Dev nD) :
    (reg0 O R W hO).post c = iprop(held (c.tc : Thread nD τ) allBufs (Wr0 O R W c) ∗ Pipeline.owesWithin c O (R ∪ cfg0.waitPairs (none : HIx 1))) := rfl
theorem reg1_pre (hO : ∀ g, O g none = 0) (c : Dev nD) :
    (reg1 O R W hO).pre c = iprop(held (c.tc : Thread nD τ) allBufs W ∗ Pipeline.owesWithin c O R) := rfl
theorem reg1_post (hO : ∀ g, O g none = 0) (c : Dev nD) :
    (reg1 O R W hO).post c = iprop(held (c.tc : Thread nD τ) allBufs (Wr1 O R W c) ∗ Pipeline.owesWithin c O (R ∪ cfg2.waitPairs (none : HIx 1))) := rfl

end Regions

end Cert.Kernel.Hand

end
-- ==== Proof.PoolDefsB.lean ====
import proofs.«203204_g25512105739078_cont_8to1_1946_3_alg».proof.Proof.CommonB

noncomputable section

namespace Cert.Kernel.Hand.Pool

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The pooled sums as pure functions

One output row is the left-to-right sum, over the thirteen groups of sixteen lanes of a row of labels, of the
gathered table entries (resp. of ones) on the lanes whose label is positive; the thirteenth group keeps its
first eight lanes only. -/

section Pure
variable [FloatOps F]

/-- A gather that is total: the entry an index names, entry 0 for an index outside the table. -/
def gath (tvec : Vec F S100000 .f32) (idx : IVec S16 32) : Vec F S16 .f32 :=
  fun x => if h : (idx x).toNat < 100000 then tvec (Shape.ofLane (d := ![100000]) ⟨(idx x).toNat, h⟩) else tvec (Shape.ofLane (d := ![100000]) ⟨0, by decide⟩)

theorem loadIdx_eq_gath (tvec : Vec F S100000 .f32) (idx : IVec S16 32) (h : ∀ a x, ((![idx] : Fin 1 → IVec S16 32) a x).toNat < S100000.size a) :
    loadIdx tvec ![idx] h = gath tvec idx := by
  funext x
  have hx : (idx x).toNat < 100000 := h 0 x
  unfold loadIdx gath idxAt
  rw [dif_pos hx]
  congr 1
  funext a
  obtain rfl : a = 0 := Subsingleton.elim _ _
  exact Fin.ext rfl

/-- The lanes of a group whose label is positive. -/
def grpMask (lab : IVec S16 32) : IVec S16 1 := cmpi .sgt lab (broadcast S16 0#32)
/-- The first eight lanes. -/
def lane8 : IVec S16 1 := cmpi .slt (iota .scVector S16 32 [0] iota_S16_d0_w32_scVector) (broadcast S16 8#32)
/-- The thirteenth group's lanes: label positive and lane below eight. -/
def lastMask (lab : IVec S16 32) : IVec S16 1 := andi (grpMask lab) lane8

/-- One group added to the running sum of gathered entries. -/
def stepS (tvec : Vec F S100000 .f32) (m : IVec S16 1) (lab : IVec S16 32) (acc : FVec F S16 .f32) : FVec F S16 .f32 :=
  addf acc (select m (gath tvec (select m lab (broadcast S16 0#32))) (broadcast S16 (Scalar.ofBits .f32 0x00000000#32)))
/-- One group added to the running count. -/
def stepC (m : IVec S16 1) (acc : FVec F S16 .f32) : FVec F S16 .f32 :=
  addf acc (select m (broadcast S16 (Scalar.ofBits .f32 0x3F800000#32)) (broadcast S16 (Scalar.ofBits .f32 0x00000000#32)))

def zeroV : FVec F S16 .f32 := broadcast S16 (Scalar.ofBits .f32 0x00000000#32)

/-- A row's sixteen partial sums of gathered entries, from its thirteen groups of labels. -/
def rowS (tvec : Vec F S100000 .f32) (lab : Fin 13 → IVec S16 32) : FVec F S16 .f32 :=
  stepS tvec (lastMask (lab 12)) (lab 12) (stepS tvec (grpMask (lab 11)) (lab 11) (stepS tvec (grpMask (lab 10)) (lab 10)
  (stepS tvec (grpMask (lab 9)) (lab 9) (stepS tvec (grpMask (lab 8)) (lab 8) (stepS tvec (grpMask (lab 7)) (lab 7)
  (stepS tvec (grpMask (lab 6)) (lab 6) (stepS tvec (grpMask (lab 5)) (lab 5) (stepS tvec (grpMask (lab 4)) (lab 4)
  (stepS tvec (grpMask (lab 3)) (lab 3) (stepS tvec (grpMask (lab 2)) (lab 2) (stepS tvec (grpMask (lab 1)) (lab 1)
  (stepS tvec (grpMask (lab 0)) (lab 0) zeroV))))))))))))
/-- A row's sixteen partial counts. -/
def rowC (lab : Fin 13 → IVec S16 32) : FVec F S16 .f32 :=
  stepC (lastMask (lab 12)) (stepC (grpMask (lab 11)) (stepC (grpMask (lab 10))
  (stepC (grpMask (lab 9)) (stepC (grpMask (lab 8)) (stepC (grpMask (lab 7))
  (stepC (grpMask (lab 6)) (stepC (grpMask (lab 5)) (stepC (grpMask (lab 4))
  (stepC (grpMask (lab 3)) (stepC (grpMask (lab 2)) (stepC (grpMask (lab 1))
  (stepC (grpMask (lab 0)) zeroV))))))))))))

/-- Word `n` of the flat labels, 0 past the end (the thirteenth group of the very last row names eight such words;
    they are masked). -/
def labAt (labs : Vec F S819200 .i32) (n : ℕ) : BitVec 32 := if h : n < 819200 then labs (Shape.ofLane (d := ![819200]) ⟨n, h⟩) else 0#32
/-- Group `g` of row `R` of the flat labels, as sixteen lanes. -/
def labRow (labs : Vec F S819200 .i32) (R : ℕ) (g : Fin 13) : IVec S16 32 := fun x => labAt labs (R * 200 + g.val * 16 + (x 0).val)

/-- The pooled sums, flat: word `16 R + lane` is lane `lane` of row `R`'s partial sums. -/
def poolS (tvec : Vec F S100000 .f32) (labs : Vec F S819200 .i32) : Vec F S65536 .f32 :=
  fun x => rowS tvec (labRow labs ((x 0).val / 16)) (Shape.ofLane (d := ![16]) ⟨(x 0).val % 16, Nat.mod_lt _ (by decide)⟩)
/-- The pooled counts, flat. -/
def poolC (labs : Vec F S819200 .i32) : Vec F S65536 .f32 :=
  fun x => rowC (F := F) (labRow labs ((x 0).val / 16)) (Shape.ofLane (d := ![16]) ⟨(x 0).val % 16, Nat.mod_lt _ (by decide)⟩)

end Pure

/-! ## One tile's resources -/

/-- The coordinates of a tile, spelt as the body table spells them. -/
abbrev coordsV (c : Fin (grid1.bound 0)) (i : Fin (grid1.bound 1)) : grid1.Coords :=
  fun | 0 => c | 1 => i | ⟨_ + 2, h⟩ => absurd h (Nat.not_lt.2 (Nat.le_add_left _ _))

abbrev tV : Memref sig .scVector .hbm S100000 .f32 := Memref.whole main_v2_scv
abbrev lV : Memref sig .scVector .hbm S819200 .i32 := Memref.whole main_v3_scv
abbrev sV : Memref sig .scVector .hbm S65536 .f32 := Memref.whole main_v4_0_scv
abbrev cV : Memref sig .scVector .hbm S65536 .f32 := Memref.whole main_v4_1_scv
abbrev tS : Memref sig .scVector .vmem S100000 .f32 := Memref.whole cc1_scratch0
abbrev lS : Memref sig .scVector .vmem S6416 .i32 := Memref.whole cc1_scratch1
abbrev sS : Memref sig .scVector .vmem S2048 .f32 := Memref.whole cc1_scratch2
abbrev cS : Memref sig .scVector .vmem S2048 .f32 := Memref.whole cc1_scratch3

abbrev tLoc (d : Dev nD) : Loc nD τ sig := (SparseCore.T d).loc main_v2
abbrev lLoc (d : Dev nD) : Loc nD τ sig := (SparseCore.T d).loc main_v3
abbrev sLoc (d : Dev nD) : Loc nD τ sig := (SparseCore.T d).loc main_v4_0
abbrev cLoc (d : Dev nD) : Loc nD τ sig := (SparseCore.T d).loc main_v4_1

/-- Chunk `j` (32 rows, 6400 words) of a tile's labels, as the kernel slices it. -/
abbrev labCh (c : Fin (grid1.bound 0)) (i : Fin (grid1.bound 1)) (j : Fin 4) : Memref sig .scVector .hbm S6400 .i32 :=
  (lV).slice (Rect.unit (s := S819200) (k1_off1 (coordsV c i) (BitVec.ofNat 32 (6400 * j.val))) S6400.size (k1_off1_inb (coordsV c i) j)) (fun _ => rfl)
/-- A tile's 2048 words of each result, as the kernel slices them. -/
abbrev outS (c : Fin (grid1.bound 0)) (i : Fin (grid1.bound 1)) : Memref sig .scVector .hbm S2048 .f32 :=
  (sV).slice (Rect.unit (s := S65536) (k1_off58 (coordsV c i)) S2048.size (k1_off58_inb (coordsV c i))) (fun _ => rfl)
abbrev outC (c : Fin (grid1.bound 0)) (i : Fin (grid1.bound 1)) : Memref sig .scVector .hbm S2048 .f32 :=
  (cV).slice (Rect.unit (s := S65536) (k1_off58 (coordsV c i)) S2048.size (k1_off58_inb (coordsV c i))) (fun _ => rfl)

variable [FloatOps F]

/-- What a tile is handed: a read share `qT` of the whole table `t` at `tv`, a read share `qL` of the whole flat labels at `labs`,
    its pieces of the two results at whatever they hold. -/
def tileGo (qT qL : PosShare TreeShare) (d : Dev nD) (tv : Buf (Elt F) (tLoc d)) (labs : Buf (Elt F) (lLoc d))
    (c : Fin (grid1.bound 0)) (i : Fin (grid1.bound 1)) : sProp 𝕄 :=
  iprop((tLoc d ↦{qT} tv)
    ∗ (lLoc d ↦{qL} labs)
    ∗ (∃ f, sLoc d ↦[(outS c i).view.set]{fullShare} f) ∗ (∃ f, cLoc d ↦[(outC c i).view.set]{fullShare} f))

/-- What it hands back: the same, its pieces of the results at the pooled sums and counts. -/
def tileTd (qT qL : PosShare TreeShare) (d : Dev nD) (tv : Buf (Elt F) (tLoc d)) (labs : Buf (Elt F) (lLoc d))
    (c : Fin (grid1.bound 0)) (i : Fin (grid1.bound 1)) : sProp 𝕄 :=
  iprop((tLoc d ↦{qT} tv)
    ∗ (lLoc d ↦{qL} labs)
    ∗ (sLoc d ↦[(outS c i).view.set]{fullShare} (poolS (F := F) tv labs : Buf (Elt F) (sLoc d)))
    ∗ (cLoc d ↦[(outC c i).view.set]{fullShare} (poolC (F := F) labs : Buf (Elt F) (cLoc d))))

/-- The frame-only form of what it hands back: the results' pieces at some contents. -/
def tileTd₀ (qT qL : PosShare TreeShare) (d : Dev nD) (tv : Buf (Elt F) (tLoc d)) (labs : Buf (Elt F) (lLoc d))
    (c : Fin (grid1.bound 0)) (i : Fin (grid1.bound 1)) : sProp 𝕄 :=
  iprop((tLoc d ↦{qT} tv)
    ∗ (lLoc d ↦{qL} labs)
    ∗ (∃ f, sLoc d ↦[(outS c i).view.set]{fullShare} f) ∗ (∃ f, cLoc d ↦[(outC c i).view.set]{fullShare} f))

theorem tileTd_mono (qT qL : PosShare TreeShare) (d : Dev nD) (tv : Buf (Elt F) (tLoc d)) (labs : Buf (Elt F) (lLoc d))
    (c : Fin (grid1.bound 0)) (i : Fin (grid1.bound 1)) : tileTd qT qL d tv labs c i ⊢ tileTd₀ qT qL d tv labs c i := by
  unfold tileTd tileTd₀
  iintro ⟨Ht, Hl, Hs, Hc⟩
  isplitl [Ht]; · iexact Ht
  isplitl [Hl]; · iexact Hl
  isplitl [Hs]; · iexists _; iexact Hs
  iexists _; iexact Hc

end Cert.Kernel.Hand.Pool

end
-- ==== Proof.LaunchPayB.lean ====
/-
  What the SparseCore call's handshakes carry. Both inputs of the pooling kernel are only read, so every tile
  is handed a read share of each whole array: the full share is split between the two SparseCores, and each
  SparseCore's share among its sixteen tiles, the remainder resting with the sequencer's payload. The two
  results are written in thirty-two disjoint slices of 2048 words, one per tile, each handed at the full share.
  The tile's task, proved once at a symbolic tile, is the launch theorem's obligation after lifting to the
  pipelines' body table.
-/
import proofs.«203204_g25512105739078_cont_8to1_1946_3_alg».proof.Proof.CommonB
import proofs.«203204_g25512105739078_cont_8to1_1946_3_alg».proof.Proof.PoolDefsB
import proofs.«203204_g25512105739078_cont_8to1_1946_3_alg».proof.Proof.LaunchStateB

noncomputable section

namespace Cert.Kernel.Hand

open Cert.Kernel Cert.Kernel.Gen Cert.Kernel.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.Transfers (shareTok shareDrop shareTokN pointsTo_toks)

variable {F : FTy → Type}

local notation "𝕄" => MT nD τ sig (HIx 1) (Elt F) ℕ UU ℕ

/-! ## The read shares -/

/-- SparseCore `c`'s share of an input, tile `(c, i)`'s, and what stays with the sequencer's payload. -/
abbrev qCore (c : Fin 2) : PosShare TreeShare := shareTok fullShare 2 c
abbrev qTile (c : Fin 2) (i : Fin 16) : PosShare TreeShare := shareTok (qCore c) 16 i
abbrev qRest (c : Fin 2) : PosShare TreeShare := shareDrop (qCore c) 16
/-- What stays with the TensorCore during the call. -/
abbrev qKeep : PosShare TreeShare := shareDrop fullShare 2

variable [FloatOps F]

section Payload

variable (tv : (d : Dev nD) → Buf (Elt F) (tLoc d)) (labs : (d : Dev nD) → Buf (Elt F) (lLoc d))

/-- Tile `(c, i)`'s resources, indexed by numbers (nothing outside the grid). -/
def goN (d : Dev nD) (c i : ℕ) : sProp 𝕄 :=
  if h : c < 2 ∧ i < 16 then tileGo (qTile ⟨c, h.1⟩ ⟨i, h.2⟩) (qTile ⟨c, h.1⟩ ⟨i, h.2⟩) d (tv d) (labs d) ⟨c, h.1⟩ ⟨i, h.2⟩ else iprop(emp)

/-- SparseCore `c`'s: the remainder of its read shares and its sixteen tiles'. -/
def stN (d : Dev nD) (c : ℕ) : sProp 𝕄 :=
  if h : c < 2 then iprop((tLoc d ↦{qRest ⟨c, h⟩} tv d) ∗ (lLoc d ↦{qRest ⟨c, h⟩} labs d) ∗ bigSep Finset.univ fun i : Fin 16 => goN tv labs d c i.val)
  else iprop(emp)

theorem goN_eq (d : Dev nD) (c : Fin 2) (i : Fin 16) :
    goN tv labs d c.val i.val = tileGo (qTile c i) (qTile c i) d (tv d) (labs d) c i := dif_pos ⟨c.isLt, i.isLt⟩
theorem stN_eq (d : Dev nD) (c : Fin 2) :
    stN tv labs d c.val = iprop((tLoc d ↦{qRest c} tv d) ∗ (lLoc d ↦{qRest c} labs d) ∗ bigSep Finset.univ fun i : Fin 16 => goN tv labs d c.val i.val) :=
  dif_pos c.isLt

instance goN_storable (d : Dev nD) (c i : ℕ) : BI.Storable (upEmb : UEmb _ 𝕄) (goN tv labs d c i) := by
  unfold goN tileGo; split <;> infer_instance
instance stN_storable (d : Dev nD) (c : ℕ) : BI.Storable (upEmb : UEmb _ 𝕄) (stN tv labs d c) := by
  unfold stN; split <;> infer_instance

/-- The call's payloads (frame form: a tile hands back what it was handed, its pieces of the results at
    whatever they hold). -/
def P₀ : (K (F := F)).Pay (nD := nD) (Val := Elt F) (Name := ℕ) (U := UU) where
  st := fun _ d c => stN tv labs d c.val
  dn := fun _ d c => stN tv labs d c.val
  go := fun _ d c i => goN tv labs d c.val i.val
  td := fun _ d c i => goN tv labs d c.val i.val
  x := fun _ _ => iprop(emp)

instance P₀_storable : (P₀ (F := F) tv labs).IsStorable where
  st _ d c := by unfold P₀; infer_instance
  dn _ d c := by unfold P₀; infer_instance
  go _ _ _ _ := by unfold P₀; infer_instance
  td _ _ _ _ := by unfold P₀; infer_instance

/-- A SparseCore's operands are its tiles' and a remainder; the results gather the same way. -/
theorem vecSplit₀ : (K (F := F)).VecSplit' (P₀ tv labs) 0 := by
  intro d c
  show stN tv labs d c.val ⊢ |={Set.univ}=> iprop((bigSep Finset.univ fun i : Fin 16 => goN tv labs d c.val i.val)
      ∗ ((bigSep Finset.univ fun i : Fin 16 => goN tv labs d c.val i.val) -∗ stN tv labs d c.val))
  rw [stN_eq tv labs d c]
  iintro ⟨Ht, Hl, Hgo⟩
  imodintro
  isplitl [Hgo]; · iexact Hgo
  iintro Htd
  isplitl [Ht]; · iexact Ht
  isplitl [Hl]; · iexact Hl
  iexact Htd

end Payload

end Cert.Kernel.Hand

end
-- ==== Proof.LaunchTileB.lean ====
/-
  The pooling kernel's task on one tile, proved at a symbolic tile over the kernel's own body table, is the
  launch theorem's obligation for the call: the label's row is the kernel at the tile's coordinates, the lifting
  to the pipelines' table keeps the proof, and the tile owes nothing of its own.
-/
import proofs.«203204_g25512105739078_cont_8to1_1946_3_alg».proof.Proof.LaunchPayB

noncomputable section

namespace Cert.Kernel.Hand

open Cert.Kernel Cert.Kernel.Gen Cert.Kernel.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type}

local notation "𝕄" => MT nD τ sig (HIx 1) (Elt F) ℕ UU ℕ

variable [FloatOps F]

/-- The thread of tile `(c, i)` of the kernel's grid. -/
abbrev tileThr (d : Dev nD) (c : Fin (grid1.bound 0)) (i : Fin (grid1.bound 1)) : Thread nD τ := V d (c.castLE hcore1) (i.castLE hsub1)

/-- The statement of the tile's task (frame form). -/
def TileBody₀ : Prop :=
  ∀ (qT qL : PosShare TreeShare) (d : Dev nD) (tv : Buf (Elt F) (tLoc d)) (labs : Buf (Elt F) (lLoc d)) (_ : ∀ x, (labs x).toNat < 100000)
    (c : Fin (grid1.bound 0)) (i : Fin (grid1.bound 1)) (O : CellTallies nD τ sig (HIx 1)) (W : Waits sig (HIx 1)) (_ : ∀ g, O g none = 0),
    iprop(levAts (K (F := F)).L (K (F := F)).lev ∗ tileGo qT qL d tv labs c i ∗ scopedBufs (tileThr d c i) ∗ scopedSems0 (tileThr d c i) ∗ owes (tileThr d c i) O W)
      ⊢ wp frame (wpE (defs₀ (F := F)) 𝒱₀ (tileThr d c i) none) Set.univ
          (cc1__pool (coordsV c i) tV (Memref.isWhole_whole _) lV (Memref.isWhole_whole _) sV (Memref.isWhole_whole _) cV (Memref.isWhole_whole _) tS (Memref.isWhole_whole _) lS (Memref.isWhole_whole _) sS (Memref.isWhole_whole _) cS (Memref.isWhole_whole _) cc1_scoped0 cc1_scoped1 cc1_scoped2 cc1_scoped3 cc1_scoped4 cc1_scoped5 cc1_scoped6)
          fun _ => (iprop(tileTd₀ qT qL d tv labs c i ∗ scopedBufs (tileThr d c i) ∗ scopedSems0 (tileThr d c i)
            ∗ ∃ W', ⌜∀ p ∈ W', p ∈ W ∨ p.2 = none⌝ ∗ owes (tileThr d c i) O W') : sProp 𝕄)

theorem defs₀_vector (c : Fin τ.nSC) (s : Fin τ.nSub) :
    defs₀ (F := F) (.scVector c s) 1 ()
      = SparseCore.onTile hcore1 hsub1 (fun c i => cc1__pool (coordsV c i) tV (Memref.isWhole_whole _) lV (Memref.isWhole_whole _) sV (Memref.isWhole_whole _) cV (Memref.isWhole_whole _) tS (Memref.isWhole_whole _) lS (Memref.isWhole_whole _) sS (Memref.isWhole_whole _) cS (Memref.isWhole_whole _) cc1_scoped0 cc1_scoped1 cc1_scoped2 cc1_scoped3 cc1_scoped4 cc1_scoped5 cc1_scoped6) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (tv : (d : Dev nD) → Buf (Elt F) (tLoc d)) (labs : (d : Dev nD) → Buf (Elt F) (lLoc d))

/-- The launch theorem's obligation for the call, from the tile's task. -/
theorem tileObl₀ (hbody : TileBody₀ (F := F)) (hlab : ∀ d x, (labs d x).toNat < 100000) :
    (K (F := F)).TileObl (D (F := F)) 𝒱 (P₀ tv labs) v₀ 0 := by
  intro d c i O W hO _ _
  simp only [show (P₀ tv labs).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 := c.isLt
  have hi : ((K (F := F)).sub 0 i).val < grid1.bound 1 := i.isLt
  rw [defs₀_vector]; simp only [SparseCore.onTile, hc, hi, and_self, ↓reduceDIte]
  have e := goN_eq tv labs d ⟨((K (F := F)).core 0 c).val, hc⟩ ⟨((K (F := F)).sub 0 i).val, hi⟩
  have hb := hbody (qTile ⟨((K (F := F)).core 0 c).val, hc⟩ ⟨((K (F := F)).sub 0 i).val, hi⟩) (qTile ⟨((K (F := F)).core 0 c).val, hc⟩ ⟨((K (F := F)).sub 0 i).val, hi⟩)
    d (tv d) (labs d) (hlab d) ⟨((K (F := F)).core 0 c).val, hc⟩ ⟨((K (F := F)).sub 0 i).val, hi⟩ O W hO
  refine BI.Entails.trans ?_ (hb.trans (wp_mono frame _ _ fun _ => ?_))
  · show iprop(_ ∗ _ ∗ goN tv labs d ((K (F := F)).core 0 c).val ((K (F := F)).sub 0 i).val ∗ _) ⊢ _
    rw [e]
    iintro ⟨Hlv, -, Hgo, Hsb, Hss, HO⟩
    isplitl [Hlv]; · iexact Hlv
    isplitl [Hgo]; · iexact Hgo
    isplitl [Hsb]; · iexact Hsb
    isplitl [Hss]; · iexact Hss
    iexact HO
  · show _ ⊢ iprop(goN tv labs d ((K (F := F)).core 0 c).val ((K (F := F)).sub 0 i).val ∗ _)
    rw [e]
    exact obl_post (q := 0)

end Cert.Kernel.Hand

end
-- ==== Proof.LaunchElemB.lean ====
/-
  The launch element of the ghost state: the handshake cells' rounds, the two pipelines' staging cells'
  rounds, and the transfer counters' unit. From it the launch takes the handshakes' part, and each device is
  dealt the ghost state and duty tokens of both pipelines' staging cells; the counters need nothing.
-/
import proofs.«203204_g25512105739078_cont_8to1_1946_3_alg».proof.Proof.CommonB
import proofs.«203204_g25512105739078_cont_8to1_1946_3_alg».proof.Proof.Gen.Kernel.Launch

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type}

local notation "𝕄" => MT nD τ sig (HIx 1) (Elt F) ℕ UU ℕ

/-- No pipeline has a prefetched table. -/
abbrev adm' : (p : Fin 2) → (pcfgs (F := F) p).Adm := fun p => (cfgs p).toPCfg_adm

/-- The two pipelines as the launch of their cells sees them. -/
abbrev pinC : Fin 2 → Pipeline.Cfg sig Λ₀ := Pipeline.pin (pcfgs (F := F)) adm'

theorem hinjP : Function.Injective (Pipeline.cellOf (nD := nD) (τ := τ) (pinC (F := F))) := cellOf_inj

/-- The launch element. -/
def u₀ : UU :=
  (initOf (K (F := F)).hsCells (K (F := F)).hsToks,
    (initOf (Pipeline.cells (pinC (F := F)) hinjP) (Pipeline.launchToks (pinC (F := F)) hinjP), 1))

/-- What a device's TensorCore is dealt beside its handshake state: both pipelines' cells' ghost state and tokens. -/
def G (d : Dev nD) : sProp 𝕄 :=
  bigSep Finset.univ fun p : Fin 2 => iprop(Pipeline.cellsGhost (pinC (F := F)) EP p d ∗ Pipeline.toksInit (pinC (F := F)) EP p d)

theorem EP_eq : (EP : Emb UP 𝕄) = (Emb.inl : Emb UP (UP × Counters)).trans (embR : Emb (UP × Counters) 𝕄) := rfl

theorem fundP : (BI.own (((Emb.inl : Emb UP (UP × Counters)).trans (embR : Emb (UP × Counters) 𝕄))
        (initOf (Pipeline.cells (pinC (F := F)) hinjP) (Pipeline.launchToks (pinC (F := F)) hinjP))) : sProp 𝕄)
      ⊢ iprop(|==> ((bigSep Finset.univ fun c : Dev nD => bigSep Finset.univ fun p => Pipeline.cellsGhost (pinC (F := F)) (EP (F := F)) p c)
          ∗ (bigSep Finset.univ fun c : Dev nD => bigSep Finset.univ fun p => (Pipeline.toksInit (pinC (F := F)) (EP (F := F)) p c : sProp 𝕄)))) :=
  Pipeline.fund_ghost (pinC (F := F)) (EP (F := F)) hinjP

theorem hu₀ (X : Fin 1 → Thread nD τ → sProp 𝕄) (hX : ∀ q thr, X q thr = iprop(emp)) :
    (ownU (u₀ (F := F)) : sProp 𝕄)
      ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => X q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  imod (fundP (F := F)) $$ HP with ⟨Hg, Ht⟩
  imodintro
  isplitl [HH]; · iexact HH
  isplitl [Hg Ht]
  · unfold G
    simp only [bigSep_sep']
    isplitl [Hg] <;> iassumption
  rw [show (bigSep Finset.univ fun thr : Thread nD τ => bigSep Finset.univ fun q : Fin 1 => X q thr) = (iprop(emp) : sProp 𝕄) from by
    rw [bigSep_congr fun thr _ => (bigSep_congr fun q _ => hX q thr).trans (BI.bigSep_emp_const _), BI.bigSep_emp_const]; rfl]
  iempintro

end Cert.Kernel.Hand

end
-- ==== Proof.LaunchTcB.lean ====
/-
  The TensorCore's handshake state before a call, opened: what it owes, with its recorded pairs at or below
  the call's base level, and the rest (its position on the done cell and the tokens of the later calls). The
  staging cells of a pipeline are waited on at the kernels' own index, which sits at level zero, so a
  pipeline region's added pairs stay within the bound; and the start signals owed sit above level zero, so
  nothing is owed at that index.
-/
import proofs.«203204_g25512105739078_cont_8to1_1946_3_alg».proof.Proof.CommonB

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.SparseCore.Cfg (callsFrom)

variable {F : FTy → Type}

local notation "𝕄" => MT nD τ sig (HIx 1) (Elt F) ℕ UU ℕ

/-- The pairs at or below the base level of call `n`. -/
def lvlSet (d : Dev nD) (n : ℕ) : Set (SemLoc sig × HIx 1) := {p | (K (F := F)).lev (SparseCore.T d, p.1) p.2 ≤ 8 * n}

/-- The rest of the TensorCore's state before call `n`. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_elim (d : Dev nD) (n : ℕ) :
    ((K (F := F)).tcSt EH d n : sProp 𝕄) ⊢ iprop(Pipeline.owesWithin d ((K (F := F)).Otc d n) (lvlSet (F := F) d n) ∗ tcRest (F := F) d n) := by
  unfold SparseCore.Cfg.tcSt tcRest
  iintro ⟨⟨%W, %hW, HO⟩, Hrest⟩
  isplitl [HO]
  · iexists W; isplitr
    · ipureintro; exact fun p hp => hW p (by simpa using hp)
    · iexact HO
  iexact Hrest

theorem tcSt_intro (d : Dev nD) (n : ℕ) (R' : Set (SemLoc sig × HIx 1)) (h : R' ⊆ lvlSet (F := F) d n) :
    iprop(Pipeline.owesWithin d ((K (F := F)).Otc d n) R' ∗ tcRest (F := F) d n) ⊢ ((K (F := F)).tcSt EH d n : sProp 𝕄) := by
  unfold SparseCore.Cfg.tcSt tcRest
  iintro ⟨⟨%W, %hW, HO⟩, Hrest⟩
  isplitl [HO]
  · iexists W; isplitr
    · ipureintro; exact fun p hp => h (hW (by simpa using hp))
    · iexact HO
  iexact Hrest

/-- Nothing is owed at the kernels' own index. -/
theorem Otc_none (d : Dev nD) (n : ℕ) (g : GSem nD τ sig) : (K (F := F)).Otc d n g none = 0 := by
  by_contra h
  have := (K (F := F)).lev_of_Otc_pos (Nat.pos_of_ne_zero h)
  simp at this

/-- A pipeline's own waits stay within the bound. -/
theorem lvlSet_waitPairs (d : Dev nD) (n : ℕ) (cfg : Pipeline.Cfg sig Λ₀) : lvlSet (F := F) d n ∪ cfg.waitPairs (none : HIx 1) ⊆ lvlSet (F := F) d n := by
  rintro p (hp | ⟨w, s, rfl⟩)
  · exact hp
  · show (K (F := F)).lev _ none ≤ _
    simp

end Cert.Kernel.Hand

end
-- ==== Proof.LaunchSplitB.lean ====
/-
  Dealing arrays to the tiles and gathering them back. An array that is only read is held whole at the full
  share, which is what the TensorCore keeps, the two SparseCores' remainders and the thirty-two tiles' read
  shares together; an array written in disjoint pieces that exhaust it is the pieces, each at contents of its
  own, and pieces at whatever they hold join to the whole array at some contents.
-/
import proofs.«203204_g25512105739078_cont_8to1_1946_3_alg».proof.Proof.LaunchPayB

noncomputable section

namespace Cert.Kernel.Hand

open Cert.Kernel Cert.Kernel.Gen Cert.Kernel.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.Transfers (shareTok shareDrop shareTokN pointsTo_toks)

variable {F : FTy → Type}

local notation "𝕄" => MT nD τ sig (HIx 1) (Elt F) ℕ UU ℕ

theorem bigSep_fin2 {M : Type} [URA M] (Φ : Fin 2 → sProp M) : bigSep Finset.univ Φ = iprop(Φ 0 ∗ Φ 1) :=
  bigSep_univ_eq_bigSepL [(0 : Fin 2), (1 : Fin 2)] (by decide) (by decide) Φ

section Shares

variable {ℓ : Loc nD τ sig} (f : Buf (Elt F) ℓ)

/-- The read shares of one SparseCore. -/
abbrev coreShares (c : Fin 2) : sProp 𝕄 := iprop((ℓ ↦{qRest c} f) ∗ bigSep Finset.univ fun i : Fin 16 => ℓ ↦{qTile c i} f)

/-- A whole array at the full share, dealt. -/
theorem share_deal : (ℓ ↦{fullShare} f : sProp 𝕄) ⊢ iprop((ℓ ↦{qKeep} f) ∗ coreShares f 0 ∗ coreShares f 1) := by
  have h1 := (pointsTo_toks (ℓ := ℓ) (S := Finset.univ) (f := f) (nD := nD) (τ := τ) (sig := sig) (Ix := HIx 1) (Val := Elt F) (Name := ℕ) (U := UU) (Lvl := ℕ) fullShare 2).1
  rw [bigSep_fin2] at h1
  have h2 := fun c : Fin 2 => (pointsTo_toks (ℓ := ℓ) (S := Finset.univ) (f := f) (nD := nD) (τ := τ) (sig := sig) (Ix := HIx 1) (Val := Elt F) (Name := ℕ) (U := UU) (Lvl := ℕ) (qCore c) 16).1
  refine h1.trans ?_
  iintro ⟨Hk, H0, H1⟩
  isplitl [Hk]; · iexact Hk
  isplitl [H0]
  · iapply (h2 0); iexact H0
  · iapply (h2 1); iexact H1

/-- and gathered back. -/
theorem share_gather : iprop((ℓ ↦{qKeep} f) ∗ coreShares f 0 ∗ coreShares f 1) ⊢ (ℓ ↦{fullShare} f : sProp 𝕄) := by
  have h1 := (pointsTo_toks (ℓ := ℓ) (S := Finset.univ) (f := f) (nD := nD) (τ := τ) (sig := sig) (Ix := HIx 1) (Val := Elt F) (Name := ℕ) (U := UU) (Lvl := ℕ) fullShare 2).2
  rw [bigSep_fin2] at h1
  have h2 := fun c : Fin 2 => (pointsTo_toks (ℓ := ℓ) (S := Finset.univ) (f := f) (nD := nD) (τ := τ) (sig := sig) (Ix := HIx 1) (Val := Elt F) (Name := ℕ) (U := UU) (Lvl := ℕ) (qCore c) 16).2
  refine BIBase.Entails.trans ?_ h1
  iintro ⟨Hk, H0, H1⟩
  isplitl [Hk]; · iexact Hk
  isplitl [H0]
  · iapply (h2 0); iexact H0
  · iapply (h2 1); iexact H1

end Shares

section Pieces

variable {ℓ : Loc nD τ sig} {T : Type} [DecidableEq T]

/-- Disjoint pieces, each at contents of its own, are their union at some contents. -/
theorem pieces_join (S : Finset T) (Kp : T → Finset (Idx ℓ)) (f₀ : Buf (Elt F) ℓ)
    (h : ∀ t ∈ S, ∀ t' ∈ S, t ≠ t' → Disjoint (Kp t) (Kp t')) :
    bigSep S (fun t => (iprop(∃ f, ℓ ↦[Kp t]{fullShare} f) : sProp 𝕄)) ⊢ (iprop(∃ g, ℓ ↦[S.biUnion Kp]{fullShare} g) : sProp 𝕄) := by
  induction S using Finset.induction_on with
  | empty =>
    iintro -
    iexists f₀
    rw [Finset.biUnion_empty, pointsTo_empty]
    iempintro
  | insert t S ht ih =>
    rw [SparseCore.bigSep_insert' ht, Finset.biUnion_insert]
    have hd : Disjoint (Kp t) (S.biUnion Kp) :=
      (Finset.disjoint_biUnion_right _ _ _).mpr fun t' ht' =>
        h t (Finset.mem_insert_self _ _) t' (Finset.mem_insert_of_mem ht') (fun e => ht (e ▸ ht'))
    have ih' := ih fun a ha b hb => h a (Finset.mem_insert_of_mem ha) b (Finset.mem_insert_of_mem hb)
    iintro ⟨⟨%f, Hf⟩, Hrest⟩
    ihave Hg := (ih') $$ Hrest
    icases Hg with ⟨%g, Hg⟩
    iexists ((S.biUnion Kp).piecewise g f)
    iapply (pointsTo_join hd)
    isplitl [Hf] <;> iassumption

/-- A whole array at some contents is its disjoint, exhaustive pieces, each at some contents. -/
theorem pieces_split [Fintype T] (Kp : T → Finset (Idx ℓ))
    (h : ∀ t ∈ (Finset.univ : Finset T), ∀ t' ∈ (Finset.univ : Finset T), t ≠ t' → Disjoint (Kp t) (Kp t'))
    (hc : (Finset.univ : Finset T).biUnion Kp = Finset.univ) :
    (iprop(∃ f, ℓ ↦{fullShare} f) : sProp 𝕄) ⊢ bigSep Finset.univ (fun t => (iprop(∃ f, ℓ ↦[Kp t]{fullShare} f) : sProp 𝕄)) := by
  iintro ⟨%f, Hf⟩
  have e : (ℓ ↦{fullShare} f : sProp 𝕄) = bigSep Finset.univ (fun t => (ℓ ↦[Kp t]{fullShare} f : sProp 𝕄)) := by
    rw [← pointsTo_biUnion Finset.univ Kp h, hc]
  have hm : bigSep Finset.univ (fun t => (ℓ ↦[Kp t]{fullShare} f : sProp 𝕄)) ⊢ bigSep Finset.univ (fun t => (iprop(∃ f, ℓ ↦[Kp t]{fullShare} f) : sProp 𝕄)) :=
    bigSep_mono fun t _ => (show (ℓ ↦[Kp t]{fullShare} f : sProp 𝕄) ⊢ iprop(∃ f, ℓ ↦[Kp t]{fullShare} f) from by iintro H; iexists f; iexact H)
  iapply hm
  iapply (Entails.of_eq e)
  iexact Hf

end Pieces

end Cert.Kernel.Hand

end
-- ==== Proof.LaunchCallB.lean ====
/-
  The SparseCore call's operands: the table and the labels, held whole and only read, are dealt as read shares;
  each result array, written by the tiles in thirty-two disjoint slices that exhaust it, is dealt slice by slice
  at whatever it holds. What comes back is gathered the same way.
-/
import proofs.«203204_g25512105739078_cont_8to1_1946_3_alg».proof.Proof.LaunchSplitB
import proofs.«203204_g25512105739078_cont_8to1_1946_3_alg».proof.Proof.LaunchStateB

noncomputable section

namespace Cert.Kernel.Hand

open Cert.Kernel Cert.Kernel.Gen Cert.Kernel.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.Transfers (shareTok shareDrop shareTokN pointsTo_toks)

variable {F : FTy → Type}

local notation "𝕄" => MT nD τ sig (HIx 1) (Elt F) ℕ UU ℕ

variable [FloatOps F]

variable (tv : (d : Dev nD) → Buf (Elt F) (tLoc d)) (labs : (d : Dev nD) → Buf (Elt F) (lLoc d))

/-- The slices of the two results, by tile. -/
abbrev setS (t : Fin 2 × Fin 16) : Finset S65536.Idx := (outS t.1 t.2).view.set
abbrev setC (t : Fin 2 × Fin 16) : Finset S65536.Idx := (outC t.1 t.2).view.set

/-- The cover facts about the slices. -/
structure Cover : Prop where
  sd : ∀ t ∈ (Finset.univ : Finset (Fin 2 × Fin 16)), ∀ t' ∈ (Finset.univ : Finset (Fin 2 × Fin 16)), t ≠ t' → Disjoint (setS t) (setS t')
  sc : (Finset.univ : Finset (Fin 2 × Fin 16)).biUnion setS = Finset.univ
  cd : ∀ t ∈ (Finset.univ : Finset (Fin 2 × Fin 16)), ∀ t' ∈ (Finset.univ : Finset (Fin 2 × Fin 16)), t ≠ t' → Disjoint (setC t) (setC t')
  cc : (Finset.univ : Finset (Fin 2 × Fin 16)).biUnion setC = Finset.univ

/-- One SparseCore's payload, from its parts. -/
theorem stN_parts (d : Dev nD) (c : Fin 2) :
    stN tv labs d c.val = iprop((tLoc d ↦{qRest c} tv d) ∗ (lLoc d ↦{qRest c} labs d)
      ∗ ((bigSep Finset.univ fun i : Fin 16 => (tLoc d ↦{qTile c i} tv d : sProp 𝕄))
        ∗ (bigSep Finset.univ fun i : Fin 16 => (lLoc d ↦{qTile c i} labs d : sProp 𝕄))
        ∗ (bigSep Finset.univ fun i : Fin 16 => (iprop(∃ f, sLoc d ↦[setS (c, i)]{fullShare} f) : sProp 𝕄))
        ∗ (bigSep Finset.univ fun i : Fin 16 => (iprop(∃ f, cLoc d ↦[setC (c, i)]{fullShare} f) : sProp 𝕄)))) := by
  rw [stN_eq tv labs d c, bigSep_congr fun i _ => goN_eq tv labs d c i]
  unfold tileGo
  rw [bigSep_sep', bigSep_sep', bigSep_sep']

/-- What the TensorCore keeps of the two inputs during the call. -/
abbrev keepRes (d : Dev nD) : sProp 𝕄 := iprop((tLoc d ↦{qKeep} tv d) ∗ (lLoc d ↦{qKeep} labs d))

/-- The four arrays, dealt to the two SparseCores. -/
theorem call_deal (cov : Cover) (d : Dev nD) :
    iprop((tLoc d ↦{fullShare} tv d) ∗ (lLoc d ↦{fullShare} labs d) ∗ (∃ f, sLoc d ↦{fullShare} f) ∗ (∃ f, cLoc d ↦{fullShare} f))
      ⊢ iprop(keepRes tv labs d ∗ stN tv labs d 0 ∗ stN tv labs d 1) := by
  have e0 := stN_parts tv labs d 0
  have e1 := stN_parts tv labs d 1
  rw [show stN tv labs d 0 = _ from e0, show stN tv labs d 1 = _ from e1]
  have hs := pieces_split (F := F) (ℓ := sLoc d) (T := Fin 2 × Fin 16) setS cov.sd cov.sc
  rw [bigSep_univ_prod, bigSep_fin2] at hs
  have hc := pieces_split (F := F) (ℓ := cLoc d) (T := Fin 2 × Fin 16) setC cov.cd cov.cc
  rw [bigSep_univ_prod, bigSep_fin2] at hc
  iintro ⟨Ht, Hl, Hs, Hc⟩
  ihave Ht' := (share_deal (tv d)) $$ Ht
  icases Ht' with ⟨Htk, ⟨Htr0, Htt0⟩, ⟨Htr1, Htt1⟩⟩
  ihave Hl' := (share_deal (labs d)) $$ Hl
  icases Hl' with ⟨Hlk, ⟨Hlr0, Hlt0⟩, ⟨Hlr1, Hlt1⟩⟩
  ihave Hs' := (hs) $$ Hs
  icases Hs' with ⟨Hs0, Hs1⟩
  ihave Hc' := (hc) $$ Hc
  icases Hc' with ⟨Hc0, Hc1⟩
  isplitl [Htk Hlk]
  · isplitl [Htk] <;> iassumption
  isplitl [Htr0 Htt0 Hlr0 Hlt0 Hs0 Hc0]
  · isplitl [Htr0]; · iexact Htr0
    isplitl [Hlr0]; · iexact Hlr0
    isplitl [Htt0]; · iexact Htt0
    isplitl [Hlt0]; · iexact Hlt0
    isplitl [Hs0] <;> iassumption
  · isplitl [Htr1]; · iexact Htr1
    isplitl [Hlr1]; · iexact Hlr1
    isplitl [Htt1]; · iexact Htt1
    isplitl [Hlt1]; · iexact Hlt1
    isplitl [Hs1] <;> iassumption

/-- and gathered back: the inputs whole as they were, each result whole at some contents. -/
theorem call_gather [∀ e, Nonempty (Elt F e)] (cov : Cover) (d : Dev nD) :
    iprop(keepRes tv labs d ∗ stN tv labs d 0 ∗ stN tv labs d 1)
      ⊢ iprop((tLoc d ↦{fullShare} tv d) ∗ (lLoc d ↦{fullShare} labs d) ∗ (∃ f, sLoc d ↦{fullShare} f) ∗ (∃ f, cLoc d ↦{fullShare} f)) := by
  have e0 := stN_parts tv labs d 0
  have e1 := stN_parts tv labs d 1
  rw [show stN tv labs d 0 = _ from e0, show stN tv labs d 1 = _ from e1]
  have hs := pieces_join (F := F) (ℓ := sLoc d) (T := Fin 2 × Fin 16) Finset.univ setS (Classical.arbitrary _) cov.sd
  rw [bigSep_univ_prod, bigSep_fin2, cov.sc] at hs
  have hc := pieces_join (F := F) (ℓ := cLoc d) (T := Fin 2 × Fin 16) Finset.univ setC (Classical.arbitrary _) cov.cd
  rw [bigSep_univ_prod, bigSep_fin2, cov.cc] at hc
  iintro ⟨⟨Htk, Hlk⟩, ⟨Htr0, Hlr0, Htt0, Hlt0, Hs0, Hc0⟩, ⟨Htr1, Hlr1, Htt1, Hlt1, Hs1, Hc1⟩⟩
  isplitl [Htk Htr0 Htt0 Htr1 Htt1]
  · iapply (share_gather (tv d))
    isplitl [Htk]; · iexact Htk
    isplitl [Htr0 Htt0]
    · isplitl [Htr0] <;> iassumption
    · isplitl [Htr1] <;> iassumption
  isplitl [Hlk Hlr0 Hlt0 Hlr1 Hlt1]
  · iapply (share_gather (labs d))
    isplitl [Hlk]; · iexact Hlk
    isplitl [Hlr0 Hlt0]
    · isplitl [Hlr0] <;> iassumption
    · isplitl [Hlr1] <;> iassumption
  isplitl [Hs0 Hs1]
  · iapply (hs)
    isplitl [Hs0] <;> iassumption
  · iapply (hc)
    isplitl [Hc0] <;> iassumption

end Cert.Kernel.Hand

end
-- ==== Proof.PoolCoverB.lean ====
/-
  The thirty-two tiles' output slices partition the flat [65536] results: tile (c, i) owns the 2048 words
  from 2048 · (2 i + c), these intervals are pairwise disjoint, and every word lies in the one whose number
  is the word's position divided by 2048.
-/
import proofs.«203204_g25512105739078_cont_8to1_1946_3_alg».proof.Proof.PoolDefsB

namespace Cert.Kernel.Hand.Pool

open Cert.Kernel Cert.Kernel.Gen
open Idealize.ShloMosaic

theorem bound0 : grid1.bound 0 = 2 := rfl
theorem bound1 : grid1.bound 1 = 16 := rfl

/-- A tile's slice of the sums, read as an interval of flat positions. -/
theorem mem_outS_set (c : Fin (grid1.bound 0)) (i : Fin (grid1.bound 1)) (x : S65536.Idx) :
    x ∈ (outS c i).view.set
      ↔ 2048 * (2 * i.val + c.val) ≤ (x 0).val ∧ (x 0).val < 2048 * (2 * i.val + c.val) + 2048 := by
  show x ∈ ((View.whole main_v4_0_scv).slice
      (Rect.unit (s := S65536) (k1_off58 (coordsV c i)) S2048.size (k1_off58_inb (coordsV c i)))).set ↔ _
  rw [View.set_slice_whole, Rect.mem_set_unit]
  have hoff : k1_off58 (coordsV c i) 0 = 4096 * i.val + 2048 * c.val := by
    rw [k1_off58_eq]; rfl
  have hsz : S2048.size 0 = 2048 := rfl
  constructor
  · intro h
    have h0 := h 0
    rw [hoff, hsz] at h0
    omega
  · intro h a
    have ha : a = (0 : Fin 1) := Subsingleton.elim (α := Fin 1) a 0
    subst ha
    rw [hoff, hsz]
    omega

/-- … and of the counts: the same interval. -/
theorem mem_outC_set (c : Fin (grid1.bound 0)) (i : Fin (grid1.bound 1)) (x : S65536.Idx) :
    x ∈ (outC c i).view.set
      ↔ 2048 * (2 * i.val + c.val) ≤ (x 0).val ∧ (x 0).val < 2048 * (2 * i.val + c.val) + 2048 := by
  show x ∈ ((View.whole main_v4_1_scv).slice
      (Rect.unit (s := S65536) (k1_off58 (coordsV c i)) S2048.size (k1_off58_inb (coordsV c i)))).set ↔ _
  rw [View.set_slice_whole, Rect.mem_set_unit]
  have hoff : k1_off58 (coordsV c i) 0 = 4096 * i.val + 2048 * c.val := by
    rw [k1_off58_eq]; rfl
  have hsz : S2048.size 0 = 2048 := rfl
  constructor
  · intro h
    have h0 := h 0
    rw [hoff, hsz] at h0
    omega
  · intro h a
    have ha : a = (0 : Fin 1) := Subsingleton.elim (α := Fin 1) a 0
    subst ha
    rw [hoff, hsz]
    omega

/-- Two different tiles have different numbers. -/
theorem tile_ne {t t' : Fin 2 × Fin 16} (h : t ≠ t') : 2 * t.2.val + t.1.val ≠ 2 * t'.2.val + t'.1.val := by
  intro e
  apply h
  have h1 := t.1.isLt
  have h2 := t'.1.isLt
  apply Prod.ext
  · apply Fin.ext; omega
  · apply Fin.ext; omega

theorem outS_disjoint : ∀ t ∈ (Finset.univ : Finset (Fin 2 × Fin 16)), ∀ t' ∈ (Finset.univ : Finset (Fin 2 × Fin 16)),
    t ≠ t' → Disjoint ((outS t.1 t.2).view.set) ((outS t'.1 t'.2).view.set) := by
  intro t _ t' _ hne
  rw [Finset.disjoint_left]
  intro x hx hx'
  have h := (mem_outS_set t.1 t.2 x).1 hx
  have h' := (mem_outS_set t'.1 t'.2 x).1 hx'
  have hn := tile_ne hne
  omega

theorem outC_disjoint : ∀ t ∈ (Finset.univ : Finset (Fin 2 × Fin 16)), ∀ t' ∈ (Finset.univ : Finset (Fin 2 × Fin 16)),
    t ≠ t' → Disjoint ((outC t.1 t.2).view.set) ((outC t'.1 t'.2).view.set) := by
  intro t _ t' _ hne
  rw [Finset.disjoint_left]
  intro x hx hx'
  have h := (mem_outC_set t.1 t.2 x).1 hx
  have h' := (mem_outC_set t'.1 t'.2 x).1 hx'
  have hn := tile_ne hne
  omega

/-- The tile that owns a flat position. -/
def tileOf (x : S65536.Idx) : Fin 2 × Fin 16 :=
  (⟨((x 0).val / 2048) % 2, Nat.mod_lt _ (by decide)⟩,
   ⟨((x 0).val / 2048) / 2, by have h : (x 0).val < 65536 := (x 0).isLt; omega⟩)

theorem outS_cover : @Finset.biUnion (Fin 2 × Fin 16) S65536.Idx _ Finset.univ (fun t => (outS t.1 t.2).view.set) = Finset.univ := by
  rw [Finset.eq_univ_iff_forall]
  intro x
  rw [Finset.mem_biUnion]
  refine ⟨tileOf x, by simp only [Finset.mem_univ], ?_⟩
  refine (mem_outS_set (tileOf x).1 (tileOf x).2 x).2 ?_
  have h : (x 0).val < 65536 := (x 0).isLt
  show 2048 * (2 * (((x 0).val / 2048) / 2) + ((x 0).val / 2048) % 2) ≤ (x 0).val
    ∧ (x 0).val < 2048 * (2 * (((x 0).val / 2048) / 2) + ((x 0).val / 2048) % 2) + 2048
  omega

theorem outC_cover : @Finset.biUnion (Fin 2 × Fin 16) S65536.Idx _ Finset.univ (fun t => (outC t.1 t.2).view.set) = Finset.univ := by
  rw [Finset.eq_univ_iff_forall]
  intro x
  rw [Finset.mem_biUnion]
  refine ⟨tileOf x, by simp only [Finset.mem_univ], ?_⟩
  refine (mem_outC_set (tileOf x).1 (tileOf x).2 x).2 ?_
  have h : (x 0).val < 65536 := (x 0).isLt
  show 2048 * (2 * (((x 0).val / 2048) / 2) + ((x 0).val / 2048) % 2) ≤ (x 0).val
    ∧ (x 0).val < 2048 * (2 * (((x 0).val / 2048) / 2) + ((x 0).val / 2048) % 2) + 2048
  omega

end Cert.Kernel.Hand.Pool
-- ==== Proof.LaunchMainB.lean ====
/-
  @main on the TensorCore, inside the SparseCore launch: a reshape, the matrix-vector region, two reshapes, the
  SparseCore call (the arrays dealt to the thirty-two tiles and gathered back), three reshapes and the softmax
  region; the fourteen unscoped arrays are held whole at a valuation between the steps, the start signals owed
  throughout with the recorded pairs bounded by level, and the argument arrays come back at their launch contents.
-/
import proofs.«203204_g25512105739078_cont_8to1_1946_3_alg».proof.Proof.LaunchRegionsB
import proofs.«203204_g25512105739078_cont_8to1_1946_3_alg».proof.Proof.LaunchTileB
import proofs.«203204_g25512105739078_cont_8to1_1946_3_alg».proof.Proof.LaunchElemB
import proofs.«203204_g25512105739078_cont_8to1_1946_3_alg».proof.Proof.LaunchTcB
import proofs.«203204_g25512105739078_cont_8to1_1946_3_alg».proof.Proof.LaunchCallB
import proofs.«203204_g25512105739078_cont_8to1_1946_3_alg».proof.Proof.PoolCoverB

noncomputable section

namespace Cert.Kernel.Hand

open Cert.Kernel Cert.Kernel.Gen Cert.Kernel.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.Transfers (shareTok shareDrop shareTokN pointsTo_toks)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The host operations and the valuations between the steps -/

abbrev opA : HloOp τ sig (Elt F) := StableHlo.reshape main_arg2 main_v0 rfl shapeCasts_S64x1_S1x64
abbrev opB : HloOp τ sig (Elt F) := StableHlo.reshape main_v1 main_v2 rfl shapeCasts_S100000x1_S100000
abbrev opC : HloOp τ sig (Elt F) := StableHlo.reshape main_arg0 main_v3 rfl shapeCasts_S4096x200_S819200
abbrev opD : HloOp τ sig (Elt F) := StableHlo.reshape main_v4_0 main_v5 rfl shapeCasts_S65536_S4096x16
abbrev opE : HloOp τ sig (Elt F) := StableHlo.reshape main_v4_1 main_v6 rfl shapeCasts_S65536_S4096x16
abbrev opG : HloOp τ sig (Elt F) := StableHlo.reshape main_arg3 main_v7 rfl shapeCasts_S1_S1x1

/-- The launch contents. -/
abbrev Wm (d : Dev nD) : Valuation τ sig (Elt F) := fun b => m (d, b)
/-- After the first reshape. -/
def WA (d : Dev nD) : Valuation τ sig (Elt F) := (opA (F := F)).result (Wm m d)
/-- After the matrix-vector region and the two reshapes: what the SparseCore call reads. -/
def WB (d : Dev nD) : Valuation τ sig (Elt F) :=
  (opC (F := F)).result ((opB (F := F)).result (Wr0 ((K (F := F)).Otc d 0) (lvlSet (F := F) d 0) (WA m d) d))

theorem hA : (opA (F := F)).bufs ⊆ allBufs := by
  show ({dr main_arg2, dr main_v0} : Finset (DevRef τ sig)) ⊆ allBufs; decide
theorem hB : (opB (F := F)).bufs ⊆ allBufs := by
  show ({dr main_v1, dr main_v2} : Finset (DevRef τ sig)) ⊆ allBufs; decide
theorem hC : (opC (F := F)).bufs ⊆ allBufs := by
  show ({dr main_arg0, dr main_v3} : Finset (DevRef τ sig)) ⊆ allBufs; decide
theorem hD : (opD (F := F)).bufs ⊆ allBufs := by
  show ({dr main_v4_0, dr main_v5} : Finset (DevRef τ sig)) ⊆ allBufs; decide
theorem hE : (opE (F := F)).bufs ⊆ allBufs := by
  show ({dr main_v4_1, dr main_v6} : Finset (DevRef τ sig)) ⊆ allBufs; decide
theorem hG : (opG (F := F)).bufs ⊆ allBufs := by
  show ({dr main_arg3, dr main_v7} : Finset (DevRef τ sig)) ⊆ allBufs; decide

/-- The call's operands. -/
def tvOf (d : Dev nD) : Buf (Elt F) (tLoc d) := WB m d (dr main_v2)
def labsOf (d : Dev nD) : Buf (Elt F) (lLoc d) := WB m d (dr main_v3)

abbrev PP : (K (F := F)).Pay (nD := nD) (Val := Elt F) (Name := ℕ) (U := UU) := P₀ (tvOf m) (labsOf m)

theorem unscoped_held (d : Dev nD) : (unscopedBufs d (fun b => m ((SparseCore.T d).loc b)) : sProp 𝕄) = held (d.tc : Thread nD τ) allBufs (Wm m d) :=
  (held_all_unscoped d (Wm m d)).symm

theorem G_eq (d : Dev nD) : (G (F := F) d : sProp 𝕄)
    = iprop((Pipeline.cellsGhost (pinC (F := F)) EP 0 d ∗ Pipeline.toksInit (pinC (F := F)) EP 0 d)
      ∗ (Pipeline.cellsGhost (pinC (F := F)) EP 1 d ∗ Pipeline.toksInit (pinC (F := F)) EP 1 d)) := by
  unfold G
  rw [bigSep_univ_eq_bigSepL [(0 : Fin 2), (1 : Fin 2)] (by decide) (by decide)]
  rfl

/-- After the SparseCore call: its two results at what the tiles left. -/
def WC (d : Dev nD) (fs : (dr main_v4_0).ty.Contents (Elt F)) (fc : (dr main_v4_1).ty.Contents (Elt F)) : Valuation τ sig (Elt F) :=
  Function.update (Function.update (WB m d) (dr main_v4_0) fs) (dr main_v4_1) fc
/-- After the three reshapes: what the softmax region reads. -/
def WD (d : Dev nD) (fs : (dr main_v4_0).ty.Contents (Elt F)) (fc : (dr main_v4_1).ty.Contents (Elt F)) : Valuation τ sig (Elt F) :=
  (opG (F := F)).result ((opE (F := F)).result ((opD (F := F)).result (WC m d fs fc)))
/-- The final valuation. -/
def WE (d : Dev nD) (fs : (dr main_v4_0).ty.Contents (Elt F)) (fc : (dr main_v4_1).ty.Contents (Elt F)) : Valuation τ sig (Elt F) :=
  Wr1 ((K (F := F)).Otc d 1) (lvlSet (F := F) d 1) (WD m d fs fc) d

/-- What @main leaves: the fourteen arrays at the final valuation, the call's results at whatever the tiles left. -/
def FIN (d : Dev nD) : sProp 𝕄 := iprop(∃ fs fc, held (d.tc : Thread nD τ) allBufs (WE m d fs fc))

/-- The slices' cover facts. -/
theorem cover : Cover := ⟨outS_disjoint, outS_cover, outC_disjoint, outC_cover⟩

theorem stPair_eq (d : Dev nD) :
    (bigSep Finset.univ fun c : Fin ((K (F := F)).nCore 0) => (PP m).st 0 d c) = iprop(stN (tvOf m) (labsOf m) d 0 ∗ stN (tvOf m) (labsOf m) d 1) := by
  show (bigSep (Finset.univ : Finset (Fin 2)) fun c => stN (tvOf m) (labsOf m) d c.val) = _
  rw [bigSep_fin2]; rfl
theorem dnPair_eq (d : Dev nD) :
    (bigSep Finset.univ fun c : Fin ((K (F := F)).nCore 0) => (PP m).dn 0 d c) = iprop(stN (tvOf m) (labsOf m) d 0 ∗ stN (tvOf m) (labsOf m) d 1) := by
  show (bigSep (Finset.univ : Finset (Fin 2)) fun c => stN (tvOf m) (labsOf m) d c.val) = _
  rw [bigSep_fin2]; rfl

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, G_eq]
  simp only [main, wp_bind, wp_pure]
  iintro ⟨#Hctx, Hst, ⟨Hb, Hheld, -, -⟩, ⟨⟨Hcg0, Hti0⟩, ⟨Hcg1, Hti1⟩⟩⟩
  ihave #Hlev := ((K (F := F)).ctx_levAts (EH := EH) (P := PP m) κ) $$ Hctx
  -- the first reshape
  iapply (wp_hlo_within 𝒱 (SparseCore.T d) none Set.univ (op := opA) (S := allBufs) hA (V := Wm m d)) $$ [Hb Hheld]
  · isplitl [Hb]; · iexact Hb
    iexact Hheld
  iintro ⟨Hb, Hheld⟩
  rw [wp_ret]; imodintro
  -- the matrix-vector region
  ihave Hst' := (tcSt_elim (F := F) d 0) $$ Hst
  icases Hst' with ⟨HO, Hrest⟩
  iapply ((K (F := F)).wp_liftProg (D (F := F)) 𝒱 (SparseCore.T d) Set.univ none (Prog.lift (.customCall (Pipeline.entry 0) ())) _)
  iapply (Pipeline.RegionSeg.wp (pcfgs (F := F)) Region.adm (fam ((K (F := F)).Otc d 0) (lvlSet (F := F) d 0) (WA m d)) (none : HIx 1) cellOf_inj EP defs₀ 𝒱₀
    (K (F := F)).L (K (F := F)).lev (reg0 ((K (F := F)).Otc d 0) (lvlSet (F := F) d 0) (WA m d) (Otc_none (F := F) d 0)) d none (by simp) _ _)
  rw [reg0_pre, reg0_post]
  isplitr [Hb Hheld HO Hcg0 Hti0]
  swap
  · isplitl [Hb]; · iexact Hb
    isplitl [Hheld HO]
    · isplitl [Hheld]; · iexact Hheld
      iexact HO
    isplitr; · iexact Hlev
    isplitl [Hcg0]; · iexact Hcg0
    iexact Hti0
  iintro ⟨Hb, ⟨Hheld, HO⟩⟩
  rw [wp_ret]; imodintro
  -- the two reshapes before the call
  iapply (wp_hlo_within 𝒱 (SparseCore.T d) none Set.univ (op := opB) (S := allBufs) hB) $$ [Hb Hheld]
  · isplitl [Hb]; · iexact Hb
    iexact Hheld
  iintro ⟨Hb, Hheld⟩
  rw [wp_ret]; imodintro
  iapply (wp_hlo_within 𝒱 (SparseCore.T d) none Set.univ (op := opC) (S := allBufs) hC) $$ [Hb Hheld]
  · isplitl [Hb]; · iexact Hb
    iexact Hheld
  iintro ⟨Hb, Hheld⟩
  rw [wp_ret]; imodintro
  -- the SparseCore call
  ihave Hst := (tcSt_intro (F := F) d 0 _ (lvlSet_waitPairs (F := F) d 0 cfg0)) $$ [HO Hrest]
  · isplitl [HO]; · iexact HO
    iexact Hrest
  ihave Hh := (Entails.of_eq (held_all d (WB m d))) $$ [Hheld]
  · iexact Hheld
  icases Hh with ⟨Ha0, Ha1, Ha2, Ha3, Hv0, Hv1, Hv2, Hv3, Hv40, Hv41, Hv5, Hv6, Hv7, Hv8⟩
  ihave Hdeal := (call_deal (tvOf m) (labsOf m) cover d) $$ [Hv2 Hv3 Hv40 Hv41]
  · isplitl [Hv2]; · iexact Hv2
    isplitl [Hv3]; · iexact Hv3
    isplitl [Hv40]; · iexists _; iexact Hv40
    iexists _; iexact Hv41
  icases Hdeal with ⟨Hkeep, Hst0, Hst1⟩
  iapply ((K (F := F)).wp_run (D (F := F)) 𝒱 (EH := EH) (P := PP m) κ d 0)
  isplitr; · iexact Hctx
  isplitl [Hst]; · iexact Hst
  isplitl [Hst0 Hst1]
  · rw [stPair_eq]; isplitl [Hst0] <;> iassumption
  iintro ⟨Hst, Hdn⟩
  ihave Hdn' := (Entails.of_eq (dnPair_eq m d)) $$ Hdn
  icases Hdn' with ⟨Hst0, Hst1⟩
  ihave Hg := (call_gather (tvOf m) (labsOf m) cover d) $$ [Hkeep Hst0 Hst1]
  · isplitl [Hkeep]; · iexact Hkeep
    isplitl [Hst0] <;> iassumption
  icases Hg with ⟨Hv2, Hv3, ⟨%fs, Hv40⟩, ⟨%fc, Hv41⟩⟩
  ihave Hheld := (Entails.of_eq (held_upd2 d (WB m d) fs fc).symm) $$ [Ha0 Ha1 Ha2 Ha3 Hv0 Hv1 Hv2 Hv3 Hv40 Hv41 Hv5 Hv6 Hv7 Hv8]
  · isplitl [Ha0]; · iexact Ha0
    isplitl [Ha1]; · iexact Ha1
    isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    isplitl [Hv40]; · iexact Hv40
    isplitl [Hv41]; · iexact Hv41
    isplitl [Hv5]; · iexact Hv5
    isplitl [Hv6]; · iexact Hv6
    isplitl [Hv7]; · iexact Hv7
    iexact Hv8
  -- the three reshapes after the call
  iapply (wp_hlo_within 𝒱 (SparseCore.T d) none Set.univ (op := opD) (S := allBufs) hD) $$ [Hb Hheld]
  · isplitl [Hb]; · iexact Hb
    iexact Hheld
  iintro ⟨Hb, Hheld⟩
  rw [wp_ret]; imodintro
  iapply (wp_hlo_within 𝒱 (SparseCore.T d) none Set.univ (op := opE) (S := allBufs) hE) $$ [Hb Hheld]
  · isplitl [Hb]; · iexact Hb
    iexact Hheld
  iintro ⟨Hb, Hheld⟩
  rw [wp_ret]; imodintro
  iapply (wp_hlo_within 𝒱 (SparseCore.T d) none Set.univ (op := opG) (S := allBufs) hG) $$ [Hb Hheld]
  · isplitl [Hb]; · iexact Hb
    iexact Hheld
  iintro ⟨Hb, Hheld⟩
  rw [wp_ret]; imodintro
  -- the softmax region
  ihave Hst' := (tcSt_elim (F := F) d 1) $$ [Hst]
  · iexact Hst
  icases Hst' with ⟨HO, Hrest⟩
  iapply ((K (F := F)).wp_liftProg (D (F := F)) 𝒱 (SparseCore.T d) Set.univ none (Prog.lift (.customCall (Pipeline.entry 1) ())) _)
  iapply (Pipeline.RegionSeg.wp (pcfgs (F := F)) Region.adm (fam ((K (F := F)).Otc d 1) (lvlSet (F := F) d 1) (WD m d fs fc)) (none : HIx 1) cellOf_inj EP defs₀ 𝒱₀
    (K (F := F)).L (K (F := F)).lev (reg1 ((K (F := F)).Otc d 1) (lvlSet (F := F) d 1) (WD m d fs fc) (Otc_none (F := F) d 1)) d none (by simp) _ _)
  rw [reg1_pre, reg1_post]
  isplitr [Hb Hheld HO Hcg1 Hti1]
  swap
  · isplitl [Hb]; · iexact Hb
    isplitl [Hheld HO]
    · isplitl [Hheld]; · iexact Hheld
      iexact HO
    isplitr; · iexact Hlev
    isplitl [Hcg1]; · iexact Hcg1
    iexact Hti1
  iintro ⟨Hb, ⟨Hheld, HO⟩⟩
  rw [wp_ret]; imodintro; imodintro
  isplitl [HO Hrest]
  · iapply (tcSt_intro (F := F) d 1 _ (lvlSet_waitPairs (F := F) d 1 cfg2))
    isplitl [HO]; · iexact HO
    iexact Hrest
  unfold FIN
  iexists fs, fc
  iexact Hheld

end Cert.Kernel.Hand

end
-- ==== Proof.LaunchRunB.lean ====
/-
  The program's run. The four argument arrays are written by no step, so the final valuation has them at
  their launch contents, and the final memory agrees with it; the launch theorem for SparseCore programs turns
  the tile's task, the split of a SparseCore's operands among its tiles, @main's proof and the launch element
  into the run of all thirty-five threads.
-/
import proofs.«203204_g25512105739078_cont_8to1_1946_3_alg».proof.Proof.LaunchMainB

noncomputable section

namespace Cert.Kernel.Hand

open Cert.Kernel Cert.Kernel.Gen Cert.Kernel.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The argument arrays are never written -/

theorem WE_arg0 (d : Dev nD) (fs : (dr main_v4_0).ty.Contents (Elt F)) (fc : (dr main_v4_1).ty.Contents (Elt F)) :
    WE m d fs fc (dr main_arg0) = m (d, dr main_arg0) := by
  unfold WE Wr1 WD WC WB Wr0 WA
  rw [Function.update_of_ne (by decide : dr main_arg0 ≠ dr main_v8),
    (opG (F := F)).result_of_not_mem _ (show dr main_arg0 ∉ ({dr main_v7} : Finset (DevRef τ sig)) by decide), (opE (F := F)).result_of_not_mem _ (show dr main_arg0 ∉ ({dr main_v6} : Finset (DevRef τ sig)) by decide),
    (opD (F := F)).result_of_not_mem _ (show dr main_arg0 ∉ ({dr main_v5} : Finset (DevRef τ sig)) by decide),
    Function.update_of_ne (by decide : dr main_arg0 ≠ dr main_v4_1), Function.update_of_ne (by decide : dr main_arg0 ≠ dr main_v4_0),
    (opC (F := F)).result_of_not_mem _ (show dr main_arg0 ∉ ({dr main_v3} : Finset (DevRef τ sig)) by decide), (opB (F := F)).result_of_not_mem _ (show dr main_arg0 ∉ ({dr main_v2} : Finset (DevRef τ sig)) by decide),
    Function.update_of_ne (by decide : dr main_arg0 ≠ dr main_v1), (opA (F := F)).result_of_not_mem _ (show dr main_arg0 ∉ ({dr main_v0} : Finset (DevRef τ sig)) by decide)]

theorem WE_arg1 (d : Dev nD) (fs : (dr main_v4_0).ty.Contents (Elt F)) (fc : (dr main_v4_1).ty.Contents (Elt F)) :
    WE m d fs fc (dr main_arg1) = m (d, dr main_arg1) := by
  unfold WE Wr1 WD WC WB Wr0 WA
  rw [Function.update_of_ne (by decide : dr main_arg1 ≠ dr main_v8),
    (opG (F := F)).result_of_not_mem _ (show dr main_arg1 ∉ ({dr main_v7} : Finset (DevRef τ sig)) by decide), (opE (F := F)).result_of_not_mem _ (show dr main_arg1 ∉ ({dr main_v6} : Finset (DevRef τ sig)) by decide),
    (opD (F := F)).result_of_not_mem _ (show dr main_arg1 ∉ ({dr main_v5} : Finset (DevRef τ sig)) by decide),
    Function.update_of_ne (by decide : dr main_arg1 ≠ dr main_v4_1), Function.update_of_ne (by decide : dr main_arg1 ≠ dr main_v4_0),
    (opC (F := F)).result_of_not_mem _ (show dr main_arg1 ∉ ({dr main_v3} : Finset (DevRef τ sig)) by decide), (opB (F := F)).result_of_not_mem _ (show dr main_arg1 ∉ ({dr main_v2} : Finset (DevRef τ sig)) by decide),
    Function.update_of_ne (by decide : dr main_arg1 ≠ dr main_v1), (opA (F := F)).result_of_not_mem _ (show dr main_arg1 ∉ ({dr main_v0} : Finset (DevRef τ sig)) by decide)]

theorem WE_arg2 (d : Dev nD) (fs : (dr main_v4_0).ty.Contents (Elt F)) (fc : (dr main_v4_1).ty.Contents (Elt F)) :
    WE m d fs fc (dr main_arg2) = m (d, dr main_arg2) := by
  unfold WE Wr1 WD WC WB Wr0 WA
  rw [Function.update_of_ne (by decide : dr main_arg2 ≠ dr main_v8),
    (opG (F := F)).result_of_not_mem _ (show dr main_arg2 ∉ ({dr main_v7} : Finset (DevRef τ sig)) by decide), (opE (F := F)).result_of_not_mem _ (show dr main_arg2 ∉ ({dr main_v6} : Finset (DevRef τ sig)) by decide),
    (opD (F := F)).result_of_not_mem _ (show dr main_arg2 ∉ ({dr main_v5} : Finset (DevRef τ sig)) by decide),
    Function.update_of_ne (by decide : dr main_arg2 ≠ dr main_v4_1), Function.update_of_ne (by decide : dr main_arg2 ≠ dr main_v4_0),
    (opC (F := F)).result_of_not_mem _ (show dr main_arg2 ∉ ({dr main_v3} : Finset (DevRef τ sig)) by decide), (opB (F := F)).result_of_not_mem _ (show dr main_arg2 ∉ ({dr main_v2} : Finset (DevRef τ sig)) by decide),
    Function.update_of_ne (by decide : dr main_arg2 ≠ dr main_v1), (opA (F := F)).result_of_not_mem _ (show dr main_arg2 ∉ ({dr main_v0} : Finset (DevRef τ sig)) by decide)]

theorem WE_arg3 (d : Dev nD) (fs : (dr main_v4_0).ty.Contents (Elt F)) (fc : (dr main_v4_1).ty.Contents (Elt F)) :
    WE m d fs fc (dr main_arg3) = m (d, dr main_arg3) := by
  unfold WE Wr1 WD WC WB Wr0 WA
  rw [Function.update_of_ne (by decide : dr main_arg3 ≠ dr main_v8),
    (opG (F := F)).result_of_not_mem _ (show dr main_arg3 ∉ ({dr main_v7} : Finset (DevRef τ sig)) by decide), (opE (F := F)).result_of_not_mem _ (show dr main_arg3 ∉ ({dr main_v6} : Finset (DevRef τ sig)) by decide),
    (opD (F := F)).result_of_not_mem _ (show dr main_arg3 ∉ ({dr main_v5} : Finset (DevRef τ sig)) by decide),
    Function.update_of_ne (by decide : dr main_arg3 ≠ dr main_v4_1), Function.update_of_ne (by decide : dr main_arg3 ≠ dr main_v4_0),
    (opC (F := F)).result_of_not_mem _ (show dr main_arg3 ∉ ({dr main_v3} : Finset (DevRef τ sig)) by decide), (opB (F := F)).result_of_not_mem _ (show dr main_arg3 ∉ ({dr main_v2} : Finset (DevRef τ sig)) by decide),
    Function.update_of_ne (by decide : dr main_arg3 ≠ dr main_v1), (opA (F := F)).result_of_not_mem _ (show dr main_arg3 ∉ ({dr main_v0} : Finset (DevRef τ sig)) by decide)]

/-- The labels the SparseCore call reads are the label argument, reshaped. -/
theorem labsOf_apply (d : Dev nD) (x : S819200.Idx) :
    labsOf m d x = m (d, dr main_arg0) (Shape.reshapeEquiv shapeCasts_S4096x200_S819200 x) := by
  unfold labsOf WB
  rw [StableHlo.reshape_result]
  show shapeCast S819200 ((opB (F := F)).result (Wr0 ((K (F := F)).Otc d 0) (lvlSet (F := F) d 0) (WA m d) d) (dr main_arg0)) shapeCasts_S4096x200_S819200 x = _
  unfold Wr0 WA
  rw [(opB (F := F)).result_of_not_mem _ (show dr main_arg0 ∉ ({dr main_v2} : Finset (DevRef τ sig)) by decide), Function.update_of_ne (by decide : dr main_arg0 ≠ dr main_v1),
    (opA (F := F)).result_of_not_mem _ (show dr main_arg0 ∉ ({dr main_v0} : Finset (DevRef τ sig)) by decide)]
  rfl

/-! ## Reading the final memory -/

/-- What the claim reads of device `d`'s final memory. -/
def fq (d : Dev nD) (s' : Phys nD τ sig (Elt F)) : Prop :=
  s'.mem.mem ((d.tc : Thread nD τ).loc main_arg0) = m ((d.tc : Thread nD τ).loc main_arg0)
  ∧ s'.mem.mem ((d.tc : Thread nD τ).loc main_arg1) = m ((d.tc : Thread nD τ).loc main_arg1)
  ∧ s'.mem.mem ((d.tc : Thread nD τ).loc main_arg2) = m ((d.tc : Thread nD τ).loc main_arg2)
  ∧ s'.mem.mem ((d.tc : Thread nD τ).loc main_arg3) = m ((d.tc : Thread nD τ).loc main_arg3)

theorem hfin (d : Dev nD) (s' : Phys nD τ sig (Elt F)) : iprop(FIN m d ∗ SI s') ⊢ (⌜fq m d s'⌝ : sProp 𝕄) := by
  unfold FIN
  iintro ⟨⟨%fs, %fc, Hh⟩, HSI⟩
  ihave Hh' := (Entails.of_eq (held_all d (WE m d fs fc))) $$ [Hh]
  · iexact Hh
  icases Hh' with ⟨Ha0, Ha1, Ha2, Ha3, -⟩
  icombine HSI Ha0 gives %h0
  icombine HSI Ha1 gives %h1
  icombine HSI Ha2 gives %h2
  icombine HSI Ha3 gives %h3
  ipureintro
  refine ⟨funext fun i => ?_, funext fun i => ?_, funext fun i => ?_, funext fun i => ?_⟩
  · exact (h0 i (Finset.mem_univ i)).trans (congrFun (WE_arg0 m d fs fc) i)
  · exact (h1 i (Finset.mem_univ i)).trans (congrFun (WE_arg1 m d fs fc) i)
  · exact (h2 i (Finset.mem_univ i)).trans (congrFun (WE_arg2 m d fs fc) i)
  · exact (h3 i (Finset.mem_univ i)).trans (congrFun (WE_arg3 m d fs fc) i)

/-! ## The run -/

/-- The frame's post: every device's argument arrays at their launch contents. -/
def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

/-- Every weakly fair execution of the thirty-five threads terminates, nothing faulting, the argument arrays unchanged:
    from the tile's task and the labels naming rows of the table. -/
theorem run_main [∀ e, Nonempty (Elt F e)] (hbody : TileBody₀ (F := F))
    (hrange : ∀ (d : Dev nD) (i : S4096x200.Idx), (m (d, dr main_arg0) i : BitVec 32).toNat < 100000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl₀ (tvOf m) (labsOf m) hbody (fun d x => by rw [labsOf_apply]; exact hrange d _))
    (fun q _ => match q with | 0 => SparseCore.Cfg.VecSplit.of_plain (vecSplit₀ (tvOf m) (labsOf m)))
    m ρ main (fun d => G (F := F) d) (FIN m) (u₀ (F := F))
    (sep_elim_left.trans (hu₀ (fun q thr => (PP m).x q thr) (fun _ _ => rfl)))
    (hmain m ρ) (fq m) (hfin m) (QC m) (fun _ h => h)

end Cert.Kernel.Hand

end
-- ==== Proof.PoolCells.lean ====
import proofs.«203204_g25512105739078_cont_8to1_1946_3_alg».proof.Proof.Common
import proofs.«203204_g25512105739078_cont_8to1_1946_3_alg».proof.Proof.PoolDefs
import proofs.«203204_g25512105739078_cont_8to1_1946_3_alg».proof.Proof.Gen.KernelIdeal.Skeleton

noncomputable section

namespace Cert.KernelIdeal.Hand.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Tactic

section Tile
variable (d : Dev nD) (c : Fin (grid1.bound 0)) (i : Fin (grid1.bound 1))

/-- The tile's thread. -/
abbrev thr : Thread nD τ := V d (c.castLE hcore1) (i.castLE hsub1)

/-- The tile's scoped DMA semaphores other than the kernel's seven. -/
abbrev restCells : Finset (GSem nD τ sig) := ((((((((ownCells (thr d c i)).erase ((thr d c i, SemLoc.dma cc1_scoped0.sem) : GSem nD τ sig)).erase ((thr d c i, SemLoc.dma cc1_scoped1.sem) : GSem nD τ sig)).erase ((thr d c i, SemLoc.dma cc1_scoped2.sem) : GSem nD τ sig)).erase ((thr d c i, SemLoc.dma cc1_scoped3.sem) : GSem nD τ sig)).erase ((thr d c i, SemLoc.dma cc1_scoped4.sem) : GSem nD τ sig)).erase ((thr d c i, SemLoc.dma cc1_scoped5.sem) : GSem nD τ sig)).erase ((thr d c i, SemLoc.dma cc1_scoped6.sem) : GSem nD τ sig))
/-- The tile's own buffers other than the kernel's four scratch arrays. -/
abbrev restRefs : Finset (DevRef τ sig) := (((((ownRefs (τ := τ) (Proc.scVector (c.castLE hcore1) (i.castLE hsub1) : Proc τ)).erase ((Proc.scVector (c.castLE hcore1) (i.castLE hsub1) : Proc τ).devRef cc1_scratch0)).erase ((Proc.scVector (c.castLE hcore1) (i.castLE hsub1) : Proc τ).devRef cc1_scratch1)).erase ((Proc.scVector (c.castLE hcore1) (i.castLE hsub1) : Proc τ).devRef cc1_scratch2)).erase ((Proc.scVector (c.castLE hcore1) (i.castLE hsub1) : Proc τ).devRef cc1_scratch3))

/-- The kernel's seven semaphores are among the tile's scoped ones: those at zero, and the rest. -/
theorem ownSems0_thr :
    (ownSems0 (thr d c i) : sProp 𝕄)
      = iprop(semVal ((thr d c i, SemLoc.dma cc1_scoped0.sem) : GSem nD τ sig) 0
          ∗ semVal ((thr d c i, SemLoc.dma cc1_scoped1.sem) : GSem nD τ sig) 0
          ∗ semVal ((thr d c i, SemLoc.dma cc1_scoped2.sem) : GSem nD τ sig) 0
          ∗ semVal ((thr d c i, SemLoc.dma cc1_scoped3.sem) : GSem nD τ sig) 0
          ∗ semVal ((thr d c i, SemLoc.dma cc1_scoped4.sem) : GSem nD τ sig) 0
          ∗ semVal ((thr d c i, SemLoc.dma cc1_scoped5.sem) : GSem nD τ sig) 0
          ∗ semVal ((thr d c i, SemLoc.dma cc1_scoped6.sem) : GSem nD τ sig) 0
          ∗ bigSep (restCells d c i) fun g => semVal g 0) := by
  unfold SparseCore.Cfg.ownSems0
  rw [SparseCore.bigSep_erase' ((mem_ownCells (g := ((thr d c i, SemLoc.dma cc1_scoped0.sem) : GSem nD τ sig))).mpr ⟨rfl, by show (SemLoc.dma cc1_scoped0.sem : SemLoc sig).isScoped .scVector = true; decide⟩),
    SparseCore.bigSep_erase' (Finset.mem_erase.mpr ⟨(fun e => absurd (congrArg Prod.snd e) (by decide : (SemLoc.dma cc1_scoped1.sem : SemLoc sig) ≠ (SemLoc.dma cc1_scoped0.sem : SemLoc sig))), (mem_ownCells (g := ((thr d c i, SemLoc.dma cc1_scoped1.sem) : GSem nD τ sig))).mpr ⟨rfl, by show (SemLoc.dma cc1_scoped1.sem : SemLoc sig).isScoped .scVector = true; decide⟩⟩),
    SparseCore.bigSep_erase' (Finset.mem_erase.mpr ⟨(fun e => absurd (congrArg Prod.snd e) (by decide : (SemLoc.dma cc1_scoped2.sem : SemLoc sig) ≠ (SemLoc.dma cc1_scoped1.sem : SemLoc sig))), Finset.mem_erase.mpr ⟨(fun e => absurd (congrArg Prod.snd e) (by decide : (SemLoc.dma cc1_scoped2.sem : SemLoc sig) ≠ (SemLoc.dma cc1_scoped0.sem : SemLoc sig))), (mem_ownCells (g := ((thr d c i, SemLoc.dma cc1_scoped2.sem) : GSem nD τ sig))).mpr ⟨rfl, by show (SemLoc.dma cc1_scoped2.sem : SemLoc sig).isScoped .scVector = true; decide⟩⟩⟩),
    SparseCore.bigSep_erase' (Finset.mem_erase.mpr ⟨(fun e => absurd (congrArg Prod.snd e) (by decide : (SemLoc.dma cc1_scoped3.sem : SemLoc sig) ≠ (SemLoc.dma cc1_scoped2.sem : SemLoc sig))), Finset.mem_erase.mpr ⟨(fun e => absurd (congrArg Prod.snd e) (by decide : (SemLoc.dma cc1_scoped3.sem : SemLoc sig) ≠ (SemLoc.dma cc1_scoped1.sem : SemLoc sig))), Finset.mem_erase.mpr ⟨(fun e => absurd (congrArg Prod.snd e) (by decide : (SemLoc.dma cc1_scoped3.sem : SemLoc sig) ≠ (SemLoc.dma cc1_scoped0.sem : SemLoc sig))), (mem_ownCells (g := ((thr d c i, SemLoc.dma cc1_scoped3.sem) : GSem nD τ sig))).mpr ⟨rfl, by show (SemLoc.dma cc1_scoped3.sem : SemLoc sig).isScoped .scVector = true; decide⟩⟩⟩⟩),
    SparseCore.bigSep_erase' (Finset.mem_erase.mpr ⟨(fun e => absurd (congrArg Prod.snd e) (by decide : (SemLoc.dma cc1_scoped4.sem : SemLoc sig) ≠ (SemLoc.dma cc1_scoped3.sem : SemLoc sig))), Finset.mem_erase.mpr ⟨(fun e => absurd (congrArg Prod.snd e) (by decide : (SemLoc.dma cc1_scoped4.sem : SemLoc sig) ≠ (SemLoc.dma cc1_scoped2.sem : SemLoc sig))), Finset.mem_erase.mpr ⟨(fun e => absurd (congrArg Prod.snd e) (by decide : (SemLoc.dma cc1_scoped4.sem : SemLoc sig) ≠ (SemLoc.dma cc1_scoped1.sem : SemLoc sig))), Finset.mem_erase.mpr ⟨(fun e => absurd (congrArg Prod.snd e) (by decide : (SemLoc.dma cc1_scoped4.sem : SemLoc sig) ≠ (SemLoc.dma cc1_scoped0.sem : SemLoc sig))), (mem_ownCells (g := ((thr d c i, SemLoc.dma cc1_scoped4.sem) : GSem nD τ sig))).mpr ⟨rfl, by show (SemLoc.dma cc1_scoped4.sem : SemLoc sig).isScoped .scVector = true; decide⟩⟩⟩⟩⟩),
    SparseCore.bigSep_erase' (Finset.mem_erase.mpr ⟨(fun e => absurd (congrArg Prod.snd e) (by decide : (SemLoc.dma cc1_scoped5.sem : SemLoc sig) ≠ (SemLoc.dma cc1_scoped4.sem : SemLoc sig))), Finset.mem_erase.mpr ⟨(fun e => absurd (congrArg Prod.snd e) (by decide : (SemLoc.dma cc1_scoped5.sem : SemLoc sig) ≠ (SemLoc.dma cc1_scoped3.sem : SemLoc sig))), Finset.mem_erase.mpr ⟨(fun e => absurd (congrArg Prod.snd e) (by decide : (SemLoc.dma cc1_scoped5.sem : SemLoc sig) ≠ (SemLoc.dma cc1_scoped2.sem : SemLoc sig))), Finset.mem_erase.mpr ⟨(fun e => absurd (congrArg Prod.snd e) (by decide : (SemLoc.dma cc1_scoped5.sem : SemLoc sig) ≠ (SemLoc.dma cc1_scoped1.sem : SemLoc sig))), Finset.mem_erase.mpr ⟨(fun e => absurd (congrArg Prod.snd e) (by decide : (SemLoc.dma cc1_scoped5.sem : SemLoc sig) ≠ (SemLoc.dma cc1_scoped0.sem : SemLoc sig))), (mem_ownCells (g := ((thr d c i, SemLoc.dma cc1_scoped5.sem) : GSem nD τ sig))).mpr ⟨rfl, by show (SemLoc.dma cc1_scoped5.sem : SemLoc sig).isScoped .scVector = true; decide⟩⟩⟩⟩⟩⟩),
    SparseCore.bigSep_erase' (Finset.mem_erase.mpr ⟨(fun e => absurd (congrArg Prod.snd e) (by decide : (SemLoc.dma cc1_scoped6.sem : SemLoc sig) ≠ (SemLoc.dma cc1_scoped5.sem : SemLoc sig))), Finset.mem_erase.mpr ⟨(fun e => absurd (congrArg Prod.snd e) (by decide : (SemLoc.dma cc1_scoped6.sem : SemLoc sig) ≠ (SemLoc.dma cc1_scoped4.sem : SemLoc sig))), Finset.mem_erase.mpr ⟨(fun e => absurd (congrArg Prod.snd e) (by decide : (SemLoc.dma cc1_scoped6.sem : SemLoc sig) ≠ (SemLoc.dma cc1_scoped3.sem : SemLoc sig))), Finset.mem_erase.mpr ⟨(fun e => absurd (congrArg Prod.snd e) (by decide : (SemLoc.dma cc1_scoped6.sem : SemLoc sig) ≠ (SemLoc.dma cc1_scoped2.sem : SemLoc sig))), Finset.mem_erase.mpr ⟨(fun e => absurd (congrArg Prod.snd e) (by decide : (SemLoc.dma cc1_scoped6.sem : SemLoc sig) ≠ (SemLoc.dma cc1_scoped1.sem : SemLoc sig))), Finset.mem_erase.mpr ⟨(fun e => absurd (congrArg Prod.snd e) (by decide : (SemLoc.dma cc1_scoped6.sem : SemLoc sig) ≠ (SemLoc.dma cc1_scoped0.sem : SemLoc sig))), (mem_ownCells (g := ((thr d c i, SemLoc.dma cc1_scoped6.sem) : GSem nD τ sig))).mpr ⟨rfl, by show (SemLoc.dma cc1_scoped6.sem : SemLoc sig).isScoped .scVector = true; decide⟩⟩⟩⟩⟩⟩⟩)]

/-- The four scratch arrays are among the tile's own buffers: those at some contents, and the rest. -/
theorem ownBufs_thr :
    (ownBufs (thr d c i) : sProp 𝕄)
      = iprop((∃ f, (thr d c i).loc cc1_scratch0 ↦{fullShare} f)
          ∗ (∃ f, (thr d c i).loc cc1_scratch1 ↦{fullShare} f)
          ∗ (∃ f, (thr d c i).loc cc1_scratch2 ↦{fullShare} f)
          ∗ (∃ f, (thr d c i).loc cc1_scratch3 ↦{fullShare} f)
          ∗ bigSep (restRefs c i) fun b => iprop(∃ f, ((d, b) : Loc nD τ sig) ↦{fullShare} f)) := by
  unfold SparseCore.Cfg.ownBufs
  refine (SparseCore.bigSep_erase' (SparseCore.Cfg.mem_ownRefs_of_owner (p := (Proc.scVector (c.castLE hcore1) (i.castLE hsub1) : Proc τ)) (b := ((Proc.scVector (c.castLE hcore1) (i.castLE hsub1) : Proc τ).devRef cc1_scratch0)) rfl)).trans ?_
  rw [SparseCore.bigSep_erase' (Finset.mem_erase.mpr ⟨(fun e => absurd (Proc.devRef_injective _ e) (by decide : (cc1_scratch1 : Ref sig .scVector) ≠ cc1_scratch0)), SparseCore.Cfg.mem_ownRefs_of_owner (p := (Proc.scVector (c.castLE hcore1) (i.castLE hsub1) : Proc τ)) (b := ((Proc.scVector (c.castLE hcore1) (i.castLE hsub1) : Proc τ).devRef cc1_scratch1)) rfl⟩),
    SparseCore.bigSep_erase' (Finset.mem_erase.mpr ⟨(fun e => absurd (Proc.devRef_injective _ e) (by decide : (cc1_scratch2 : Ref sig .scVector) ≠ cc1_scratch1)), Finset.mem_erase.mpr ⟨(fun e => absurd (Proc.devRef_injective _ e) (by decide : (cc1_scratch2 : Ref sig .scVector) ≠ cc1_scratch0)), SparseCore.Cfg.mem_ownRefs_of_owner (p := (Proc.scVector (c.castLE hcore1) (i.castLE hsub1) : Proc τ)) (b := ((Proc.scVector (c.castLE hcore1) (i.castLE hsub1) : Proc τ).devRef cc1_scratch2)) rfl⟩⟩),
    SparseCore.bigSep_erase' (Finset.mem_erase.mpr ⟨(fun e => absurd (Proc.devRef_injective _ e) (by decide : (cc1_scratch3 : Ref sig .scVector) ≠ cc1_scratch2)), Finset.mem_erase.mpr ⟨(fun e => absurd (Proc.devRef_injective _ e) (by decide : (cc1_scratch3 : Ref sig .scVector) ≠ cc1_scratch1)), Finset.mem_erase.mpr ⟨(fun e => absurd (Proc.devRef_injective _ e) (by decide : (cc1_scratch3 : Ref sig .scVector) ≠ cc1_scratch0)), SparseCore.Cfg.mem_ownRefs_of_owner (p := (Proc.scVector (c.castLE hcore1) (i.castLE hsub1) : Proc τ)) (b := ((Proc.scVector (c.castLE hcore1) (i.castLE hsub1) : Proc τ).devRef cc1_scratch3)) rfl⟩⟩⟩)]

end Tile
end Cert.KernelIdeal.Hand.Pool
end
-- ==== Proof.PoolChk.lean ====
import proofs.«203204_g25512105739078_cont_8to1_1946_3_alg».proof.Proof.Common
import proofs.«203204_g25512105739078_cont_8to1_1946_3_alg».proof.Proof.PoolCells

noncomputable section

namespace Cert.KernelIdeal.Hand.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Tactic
section Tile
variable (d : Dev nD) (c : Fin (grid1.bound 0)) (i : Fin (grid1.bound 1))

/-- Sixteen words of the label scratch, as a load at offset `off` reads them. -/
abbrev ldL (fl : Buf (Elt F) ((thr d c i).loc cc1_scratch1)) (off : Fin 1 → ℕ) (hin : ∀ a, off a + S16.size a ≤ S6416.size a) : Vec F S16 .i32 :=
  View.readAt (Elt F) (lS).view (Rect.unit (s := S6416) off S16.size hin).toLoadRect fl

/-- The index vector of a full group: the label where it is positive, else 0. -/
abbrev idxG (l : IVec S16 32) : IVec S16 32 := select (cmpi .sgt l (broadcast S16 0#32)) l (broadcast S16 0#32)
/-- The index vector of the thirteenth group: the label where it is positive and the lane is below eight, else 0. -/
abbrev idxL (l : IVec S16 32) : IVec S16 32 := select (andi (cmpi .sgt l (broadcast S16 0#32)) k1_pay149) l (broadcast S16 0#32)

/-- The first 6400 words of the label scratch are labels in range. -/
def LabOK (fl : Buf (Elt F) ((thr d c i).loc cc1_scratch1)) : Prop :=
  ∀ x : S6416.Idx, (x 0).val < 6400 → (fl x : BitVec 32).toNat < 100000

theorem ldL_apply (fl : Buf (Elt F) ((thr d c i).loc cc1_scratch1)) (off : Fin 1 → ℕ) (hin : ∀ a, off a + S16.size a ≤ S6416.size a) (x : S16.Idx) :
    ldL d c i fl off hin x = fl ((Rect.unit (s := S6416) off S16.size hin).toLoadRect.idx x) := rfl

theorem idx0 (off : Fin 1 → ℕ) (hin : ∀ a, off a + S16.size a ≤ S6416.size a) (x : S16.Idx) :
    (((Rect.unit (s := S6416) off S16.size hin).toLoadRect.idx x) 0).val = off 0 + (x 0).val := by
  rw [LoadRect.idx_apply]
  show off 0 + 1 * (x 0).val = off 0 + (x 0).val
  rw [Nat.one_mul]

/-- A full group's index vector names rows of the table when its sixteen words are labels. -/
theorem chk_full (fl : Buf (Elt F) ((thr d c i).loc cc1_scratch1)) (hfl : LabOK d c i fl) (off : Fin 1 → ℕ)
    (hin : ∀ a, off a + S16.size a ≤ S6416.size a) (hoff : off 0 + 16 ≤ 6400) :
    ∀ a x, ((![idxG (ldL d c i fl off hin)] : Fin 1 → IVec S16 32) a x).toNat < S100000.size a := by
  intro a x
  obtain rfl : a = 0 := Subsingleton.elim _ _
  show (Scalar.select _ (ldL d c i fl off hin x) (0#32)).toNat < 100000
  unfold Scalar.select
  split
  · rw [ldL_apply]
    apply hfl
    rw [idx0]
    have : (x 0).val < 16 := (x 0).isLt
    omega
  · decide

theorem andi1 : ∀ a b : BitVec 1, IntOp.andi a b = 1 → b = 1 := by decide

theorem lane8_lt (x : S16.Idx) (h : k1_pay149 x = 1) : (x 0).val < 8 := by
  have hx : (x 0).val < 16 := (x 0).isLt
  by_contra hge
  have h8 : 8 ≤ (x 0).val := Nat.le_of_not_lt hge
  revert h
  show (IntOp.cmpi .slt (BitVec.ofNat 32 (0 * 16 + (x 0).val)) (8#32)) = 1 → False
  generalize (x 0).val = n at hx h8
  have hn : n = 8 ∨ n = 9 ∨ n = 10 ∨ n = 11 ∨ n = 12 ∨ n = 13 ∨ n = 14 ∨ n = 15 := by omega
  rcases hn with rfl | rfl | rfl | rfl | rfl | rfl | rfl | rfl <;> decide

/-- The thirteenth group's index vector names rows of the table when its first eight words are labels. -/
theorem chk_last (fl : Buf (Elt F) ((thr d c i).loc cc1_scratch1)) (hfl : LabOK d c i fl) (off : Fin 1 → ℕ)
    (hin : ∀ a, off a + S16.size a ≤ S6416.size a) (hoff : off 0 + 8 ≤ 6400) :
    ∀ a x, ((![idxL (ldL d c i fl off hin)] : Fin 1 → IVec S16 32) a x).toNat < S100000.size a := by
  intro a x
  obtain rfl : a = 0 := Subsingleton.elim _ _
  show (Scalar.select (IntOp.andi _ (k1_pay149 x)) (ldL d c i fl off hin x) (0#32)).toNat < 100000
  unfold Scalar.select
  split
  next hm =>
    have h8 : (x 0).val < 8 := lane8_lt x (andi1 _ _ hm)
    rw [ldL_apply]
    apply hfl
    rw [idx0]
    omega
  · decide

end Tile
end Cert.KernelIdeal.Hand.Pool
end
-- ==== Proof.PoolTripA.lean ====
import proofs.«203204_g25512105739078_cont_8to1_1946_3_alg».proof.Proof.Common
import proofs.«203204_g25512105739078_cont_8to1_1946_3_alg».proof.Proof.PoolChk

noncomputable section

namespace Cert.KernelIdeal.Hand.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Tactic
section Tile
variable (d : Dev nD) (c : Fin (grid1.bound 0)) (i : Fin (grid1.bound 1))
variable [FloatOps F]

/-- The loops' invariant, frame only: the table scratch whole at `ft` (held as the gathers address it), the label scratch whole at
    `fl`, the two result scratches at whatever they hold. -/
def inv₀ (ft : Buf (Elt F) ((thr d c i).loc cc1_scratch0)) (fl : Buf (Elt F) ((thr d c i).loc cc1_scratch1)) (_ : Nat) (_ : Unit) : sProp 𝕄 :=
  iprop((((tS).access (.whole S100000)).loc (thr d c i) ↦{fullShare} ft) ∗ ((lS).view.loc (thr d c i) ↦{fullShare} fl)
    ∗ (∃ f, (sS).view.loc (thr d c i) ↦{fullShare} f) ∗ (∃ f, (cS).view.loc (thr d c i) ↦{fullShare} f))

/-- The table scratch as a gather addresses it is the table scratch. -/
theorem pts_tS_acc (f : Buf (Elt F) ((thr d c i).loc cc1_scratch0)) :
    ((tS).view.loc (thr d c i) ↦{fullShare} f : sProp 𝕄) = (((tS).access (.whole S100000)).loc (thr d c i) ↦{fullShare} f) := rfl

/-- After a chunk's copy has landed, the first 6400 words of the label scratch are the chunk's labels. -/
theorem labOK_of_writes (fl0 : Buf (Elt F) ((thr d c i).loc cc1_scratch1))
    (w : (Rect.unit (s := S6416) ![0] S6400.size inb_S6416_S6400_0).shape.Idx → Elt F .i32) (hw : ∀ j, (w j : BitVec 32).toNat < 100000)
    (L : List (View.Piece (Elt F) S6416 .i32)) :
    LabOK d c i ((lS).view.writes (Elt F) fl0 (⟨Rect.unit (s := S6416) ![0] S6400.size inb_S6416_S6400_0, w⟩ :: L)) := by
  intro y hy
  have hmem : y ∈ (Rect.unit (s := S6416) ![0] S6400.size inb_S6416_S6400_0).set := by
    rw [Rect.mem_set_unit]
    intro a
    obtain rfl : a = 0 := Subsingleton.elim _ _
    exact ⟨Nat.zero_le _, by show (y 0).val < 0 + 6400; omega⟩
  rw [← Rect.map_emb_univ, Finset.mem_map] at hmem
  obtain ⟨x, -, hx⟩ := hmem
  have h := View.read_writes_cons_emb (v := (lS).view) (Val := Elt F) (f := fl0) (Rect.unit (s := S6416) ![0] S6400.size inb_S6416_S6400_0) w L x
  rw [hx] at h
  simp only [Memref.view_whole, View.read_whole] at h
  simp only [Memref.view_whole]
  rw [h]
  exact hw x

/-- One trip of chunk 1's loop: thirteen loads of sixteen labels, each index vector in range, thirteen gathers, two stores. -/
theorem trip1₀ (ft : Buf (Elt F) ((thr d c i).loc cc1_scratch0)) (fl : Buf (Elt F) ((thr d c i).loc cc1_scratch1)) (hfl : LabOK d c i fl)
    (k : Fin k1_t1_loop.trips) (u : Unit) :
    inv₀ d c i ft fl k u ⊢ wp frame (wpE (defs₀ (F := F)) 𝒱₀ (thr d c i) none) Set.univ
      (k1_t1_body (coordsV c i) tV (Memref.isWhole_whole _) lV (Memref.isWhole_whole _) sV (Memref.isWhole_whole _) cV (Memref.isWhole_whole _)
            tS (Memref.isWhole_whole _) lS (Memref.isWhole_whole _) sS (Memref.isWhole_whole _) cS (Memref.isWhole_whole _)
            cc1_scoped0 cc1_scoped1 cc1_scoped2 cc1_scoped3 cc1_scoped4 cc1_scoped5 cc1_scoped6 k u) (inv₀ d c i ft fl (k.val + 1)) := by
  have hk : k.val < 32 := lt_of_lt_of_le k.isLt k1_t1_abs.2.1
  have h1 : k1_chk1 (idxG (ldL d c i fl (k1_off2 k) (k1_off2_inb k))) :=
    chk_full d c i fl hfl _ _ (by simp only [k1_off2_eq, Matrix.cons_val_zero]; omega)
  have h2 : k1_chk2 (idxG (ldL d c i fl (k1_off3 k) (k1_off3_inb k))) :=
    chk_full d c i fl hfl _ _ (by simp only [k1_off3_eq, Matrix.cons_val_zero]; omega)
  have h3 : k1_chk3 (idxG (ldL d c i fl (k1_off4 k) (k1_off4_inb k))) :=
    chk_full d c i fl hfl _ _ (by simp only [k1_off4_eq, Matrix.cons_val_zero]; omega)
  have h4 : k1_chk4 (idxG (ldL d c i fl (k1_off5 k) (k1_off5_inb k))) :=
    chk_full d c i fl hfl _ _ (by simp only [k1_off5_eq, Matrix.cons_val_zero]; omega)
  have h5 : k1_chk5 (idxG (ldL d c i fl (k1_off6 k) (k1_off6_inb k))) :=
    chk_full d c i fl hfl _ _ (by simp only [k1_off6_eq, Matrix.cons_val_zero]; omega)
  have h6 : k1_chk6 (idxG (ldL d c i fl (k1_off7 k) (k1_off7_inb k))) :=
    chk_full d c i fl hfl _ _ (by simp only [k1_off7_eq, Matrix.cons_val_zero]; omega)
  have h7 : k1_chk7 (idxG (ldL d c i fl (k1_off8 k) (k1_off8_inb k))) :=
    chk_full d c i fl hfl _ _ (by simp only [k1_off8_eq, Matrix.cons_val_zero]; omega)
  have h8 : k1_chk8 (idxG (ldL d c i fl (k1_off9 k) (k1_off9_inb k))) :=
    chk_full d c i fl hfl _ _ (by simp only [k1_off9_eq, Matrix.cons_val_zero]; omega)
  have h9 : k1_chk9 (idxG (ldL d c i fl (k1_off10 k) (k1_off10_inb k))) :=
    chk_full d c i fl hfl _ _ (by simp only [k1_off10_eq, Matrix.cons_val_zero]; omega)
  have h10 : k1_chk10 (idxG (ldL d c i fl (k1_off11 k) (k1_off11_inb k))) :=
    chk_full d c i fl hfl _ _ (by simp only [k1_off11_eq, Matrix.cons_val_zero]; omega)
  have h11 : k1_chk11 (idxG (ldL d c i fl (k1_off12 k) (k1_off12_inb k))) :=
    chk_full d c i fl hfl _ _ (by simp only [k1_off12_eq, Matrix.cons_val_zero]; omega)
  have h12 : k1_chk12 (idxG (ldL d c i fl (k1_off13 k) (k1_off13_inb k))) :=
    chk_full d c i fl hfl _ _ (by simp only [k1_off13_eq, Matrix.cons_val_zero]; omega)
  have h13 : k1_chk13 (idxL (ldL d c i fl (k1_off14 k) (k1_off14_inb k))) :=
    chk_last d c i fl hfl _ _ (by simp only [k1_off14_eq, Matrix.cons_val_zero]; omega)
  unfold inv₀
  iintro ⟨Ht, Hl, ⟨%fs, Hs⟩, ⟨%fc, Hc⟩⟩
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  sl_step
  isplitl [Ht]; · iexact Ht
  isplitl [Hl]; · iexact Hl
  isplitl [Hs]; · iexists _; iexact Hs
  iexists _; iexact Hc

/-- One trip of chunk 2's loop: thirteen loads of sixteen labels, each index vector in range, thirteen gathers, two stores. -/
theorem trip2₀ (ft : Buf (Elt F) ((thr d c i).loc cc1_scratch0)) (fl : Buf (Elt F) ((thr d c i).loc cc1_scratch1)) (hfl : LabOK d c i fl)
    (k : Fin k1_t2_loop.trips) (u : Unit) :
    inv₀ d c i ft fl k u ⊢ wp frame (wpE (defs₀ (F := F)) 𝒱₀ (thr d c i) none) Set.univ
      (k1_t2_body (coordsV c i) tV (Memref.isWhole_whole _) lV (Memref.isWhole_whole _) sV (Memref.isWhole_whole _) cV (Memref.isWhole_whole _)
            tS (Memref.isWhole_whole _) lS (Memref.isWhole_whole _) sS (Memref.isWhole_whole _) cS (Memref.isWhole_whole _)
            cc1_scoped0 cc1_scoped1 cc1_scoped2 cc1_scoped3 cc1_scoped4 cc1_scoped5 cc1_scoped6 k u) (inv₀ d c i ft fl (k.val + 1)) := by
  have hk : k.val < 32 := lt_of_lt_of_le k.isLt k1_t2_abs.2.1
  have h1 : k1_chk14 (idxG (ldL d c i fl (k1_off16 k) (k1_off16_inb k))) :=
    chk_full d c i fl hfl _ _ (by simp only [k1_off16_eq, Matrix.cons_val_zero]; omega)
  have h2 : k1_chk15 (idxG (ldL d c i fl (k1_off17 k) (k1_off17_inb k))) :=
    chk_full d c i fl hfl _ _ (by simp only [k1_off17_eq, Matrix.cons_val_zero]; omega)
  have h3 : k1_chk16 (idxG (ldL d c i fl (k1_off18 k) (k1_off18_inb k))) :=
    chk_full d c i fl hfl _ _ (by simp only [k1_off18_eq, Matrix.cons_val_zero]; omega)
  have h4 : k1_chk17 (idxG (ldL d c i fl (k1_off19 k) (k1_off19_inb k))) :=
    chk_full d c i fl hfl _ _ (by simp only [k1_off19_eq, Matrix.cons_val_zero]; omega)
  have h5 : k1_chk18 (idxG (ldL d c i fl (k1_off20 k) (k1_off20_inb k))) :=
    chk_full d c i fl hfl _ _ (by simp only [k1_off20_eq, Matrix.cons_val_zero]; omega)
  have h6 : k1_chk19 (idxG (ldL d c i fl (k1_off21 k) (k1_off21_inb k))) :=
    chk_full d c i fl hfl _ _ (by simp only [k1_off21_eq, Matrix.cons_val_zero]; omega)
  have h7 : k1_chk20 (idxG (ldL d c i fl (k1_off22 k) (k1_off22_inb k))) :=
    chk_full d c i fl hfl _ _ (by simp only [k1_off22_eq, Matrix.cons_val_zero]; omega)
  have h8 : k1_chk21 (idxG (ldL d c i fl (k1_off23 k) (k1_off23_inb k))) :=
    chk_full d c i fl hfl _ _ (by simp only [k1_off23_eq, Matrix.cons_val_zero]; omega)
  have h9 : k1_chk22 (idxG (ldL d c i fl (k1_off24 k) (k1_off24_inb k))) :=
    chk_full d c i fl hfl _ _ (by simp only [k1_off24_eq, Matrix.cons_val_zero]; omega)
  have h10 : k1_chk23 (idxG (ldL d c i fl (k1_off25 k) (k1_off25_inb k))) :=
    chk_full d c i fl hfl _ _ (by simp only [k1_off25_eq, Matrix.cons_val_zero]; omega)
  have h11 : k1_chk24 (idxG (ldL d c i fl (k1_off26 k) (k1_off26_inb k))) :=
    chk_full d c i fl hfl _ _ (by simp only [k1_off26_eq, Matrix.cons_val_zero]; omega)
  have h12 : k1_chk25 (idxG (ldL d c i fl (k1_off27 k) (k1_off27_inb k))) :=
    chk_full d c i fl hfl _ _ (by simp only [k1_off27_eq, Matrix.cons_val_zero]; omega)
  have h13 : k1_chk26 (idxL (ldL d c i fl (k1_off28 k) (k1_off28_inb k))) :=
    chk_last d c i fl hfl _ _ (by simp only [k1_off28_eq, Matrix.cons_val_zero]; omega)
  unfold inv₀
  iintro ⟨Ht, Hl, ⟨%fs, Hs⟩, ⟨%fc, Hc⟩⟩
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  sl_step
  isplitl [Ht]; · iexact Ht
  isplitl [Hl]; · iexact Hl
  isplitl [Hs]; · iexists _; iexact Hs
  iexists _; iexact Hc

end Tile
end Cert.KernelIdeal.Hand.Pool
end
-- ==== Proof.PoolTripB.lean ====
import proofs.«203204_g25512105739078_cont_8to1_1946_3_alg».proof.Proof.Common
import proofs.«203204_g25512105739078_cont_8to1_1946_3_alg».proof.Proof.PoolTripA

noncomputable section

namespace Cert.KernelIdeal.Hand.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Tactic
section Tile
variable (d : Dev nD) (c : Fin (grid1.bound 0)) (i : Fin (grid1.bound 1))
variable [FloatOps F]

/-- One trip of chunk 3's loop: thirteen loads of sixteen labels, each index vector in range, thirteen gathers, two stores. -/
theorem trip3₀ (ft : Buf (Elt F) ((thr d c i).loc cc1_scratch0)) (fl : Buf (Elt F) ((thr d c i).loc cc1_scratch1)) (hfl : LabOK d c i fl)
    (v1 : BitVec 32) (k : Fin k1_t3_loop.trips) (u : Unit) :
    inv₀ d c i ft fl k u ⊢ wp frame (wpE (defs₀ (F := F)) 𝒱₀ (thr d c i) none) Set.univ
      (k1_t3_body (coordsV c i) tV (Memref.isWhole_whole _) lV (Memref.isWhole_whole _) sV (Memref.isWhole_whole _) cV (Memref.isWhole_whole _)
            tS (Memref.isWhole_whole _) lS (Memref.isWhole_whole _) sS (Memref.isWhole_whole _) cS (Memref.isWhole_whole _)
            cc1_scoped0 cc1_scoped1 cc1_scoped2 cc1_scoped3 cc1_scoped4 cc1_scoped5 cc1_scoped6 v1 k1_pay149 k u) (inv₀ d c i ft fl (k.val + 1)) := by
  have hk : k.val < 32 := lt_of_lt_of_le k.isLt k1_t3_abs.2.1
  have h1 : k1_chk27 (idxG (ldL d c i fl (k1_off30 k) (k1_off30_inb k))) :=
    chk_full d c i fl hfl _ _ (by simp only [k1_off30_eq, Matrix.cons_val_zero]; omega)
  have h2 : k1_chk28 (idxG (ldL d c i fl (k1_off31 k) (k1_off31_inb k))) :=
    chk_full d c i fl hfl _ _ (by simp only [k1_off31_eq, Matrix.cons_val_zero]; omega)
  have h3 : k1_chk29 (idxG (ldL d c i fl (k1_off32 k) (k1_off32_inb k))) :=
    chk_full d c i fl hfl _ _ (by simp only [k1_off32_eq, Matrix.cons_val_zero]; omega)
  have h4 : k1_chk30 (idxG (ldL d c i fl (k1_off33 k) (k1_off33_inb k))) :=
    chk_full d c i fl hfl _ _ (by simp only [k1_off33_eq, Matrix.cons_val_zero]; omega)
  have h5 : k1_chk31 (idxG (ldL d c i fl (k1_off34 k) (k1_off34_inb k))) :=
    chk_full d c i fl hfl _ _ (by simp only [k1_off34_eq, Matrix.cons_val_zero]; omega)
  have h6 : k1_chk32 (idxG (ldL d c i fl (k1_off35 k) (k1_off35_inb k))) :=
    chk_full d c i fl hfl _ _ (by simp only [k1_off35_eq, Matrix.cons_val_zero]; omega)
  have h7 : k1_chk33 (idxG (ldL d c i fl (k1_off36 k) (k1_off36_inb k))) :=
    chk_full d c i fl hfl _ _ (by simp only [k1_off36_eq, Matrix.cons_val_zero]; omega)
  have h8 : k1_chk34 (idxG (ldL d c i fl (k1_off37 k) (k1_off37_inb k))) :=
    chk_full d c i fl hfl _ _ (by simp only [k1_off37_eq, Matrix.cons_val_zero]; omega)
  have h9 : k1_chk35 (idxG (ldL d c i fl (k1_off38 k) (k1_off38_inb k))) :=
    chk_full d c i fl hfl _ _ (by simp only [k1_off38_eq, Matrix.cons_val_zero]; omega)
  have h10 : k1_chk36 (idxG (ldL d c i fl (k1_off39 k) (k1_off39_inb k))) :=
    chk_full d c i fl hfl _ _ (by simp only [k1_off39_eq, Matrix.cons_val_zero]; omega)
  have h11 : k1_chk37 (idxG (ldL d c i fl (k1_off40 k) (k1_off40_inb k))) :=
    chk_full d c i fl hfl _ _ (by simp only [k1_off40_eq, Matrix.cons_val_zero]; omega)
  have h12 : k1_chk38 (idxG (ldL d c i fl (k1_off41 k) (k1_off41_inb k))) :=
    chk_full d c i fl hfl _ _ (by simp only [k1_off41_eq, Matrix.cons_val_zero]; omega)
  have h13 : k1_chk39 (idxL (ldL d c i fl (k1_off42 k) (k1_off42_inb k))) :=
    chk_last d c i fl hfl _ _ (by simp only [k1_off42_eq, Matrix.cons_val_zero]; omega)
  unfold inv₀
  iintro ⟨Ht, Hl, ⟨%fs, Hs⟩, ⟨%fc, Hc⟩⟩
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  sl_step
  isplitl [Ht]; · iexact Ht
  isplitl [Hl]; · iexact Hl
  isplitl [Hs]; · iexists _; iexact Hs
  iexists _; iexact Hc

/-- One trip of chunk 4's loop: thirteen loads of sixteen labels, each index vector in range, thirteen gathers, two stores. -/
theorem trip4₀ (ft : Buf (Elt F) ((thr d c i).loc cc1_scratch0)) (fl : Buf (Elt F) ((thr d c i).loc cc1_scratch1)) (hfl : LabOK d c i fl)
    (v1 : BitVec 32) (k : Fin k1_t4_loop.trips) (u : Unit) :
    inv₀ d c i ft fl k u ⊢ wp frame (wpE (defs₀ (F := F)) 𝒱₀ (thr d c i) none) Set.univ
      (k1_t4_body (coordsV c i) tV (Memref.isWhole_whole _) lV (Memref.isWhole_whole _) sV (Memref.isWhole_whole _) cV (Memref.isWhole_whole _)
            tS (Memref.isWhole_whole _) lS (Memref.isWhole_whole _) sS (Memref.isWhole_whole _) cS (Memref.isWhole_whole _)
            cc1_scoped0 cc1_scoped1 cc1_scoped2 cc1_scoped3 cc1_scoped4 cc1_scoped5 cc1_scoped6 v1 k1_pay149 k u) (inv₀ d c i ft fl (k.val + 1)) := by
  have hk : k.val < 32 := lt_of_lt_of_le k.isLt k1_t4_abs.2.1
  have h1 : k1_chk40 (idxG (ldL d c i fl (k1_off44 k) (k1_off44_inb k))) :=
    chk_full d c i fl hfl _ _ (by simp only [k1_off44_eq, Matrix.cons_val_zero]; omega)
  have h2 : k1_chk41 (idxG (ldL d c i fl (k1_off45 k) (k1_off45_inb k))) :=
    chk_full d c i fl hfl _ _ (by simp only [k1_off45_eq, Matrix.cons_val_zero]; omega)
  have h3 : k1_chk42 (idxG (ldL d c i fl (k1_off46 k) (k1_off46_inb k))) :=
    chk_full d c i fl hfl _ _ (by simp only [k1_off46_eq, Matrix.cons_val_zero]; omega)
  have h4 : k1_chk43 (idxG (ldL d c i fl (k1_off47 k) (k1_off47_inb k))) :=
    chk_full d c i fl hfl _ _ (by simp only [k1_off47_eq, Matrix.cons_val_zero]; omega)
  have h5 : k1_chk44 (idxG (ldL d c i fl (k1_off48 k) (k1_off48_inb k))) :=
    chk_full d c i fl hfl _ _ (by simp only [k1_off48_eq, Matrix.cons_val_zero]; omega)
  have h6 : k1_chk45 (idxG (ldL d c i fl (k1_off49 k) (k1_off49_inb k))) :=
    chk_full d c i fl hfl _ _ (by simp only [k1_off49_eq, Matrix.cons_val_zero]; omega)
  have h7 : k1_chk46 (idxG (ldL d c i fl (k1_off50 k) (k1_off50_inb k))) :=
    chk_full d c i fl hfl _ _ (by simp only [k1_off50_eq, Matrix.cons_val_zero]; omega)
  have h8 : k1_chk47 (idxG (ldL d c i fl (k1_off51 k) (k1_off51_inb k))) :=
    chk_full d c i fl hfl _ _ (by simp only [k1_off51_eq, Matrix.cons_val_zero]; omega)
  have h9 : k1_chk48 (idxG (ldL d c i fl (k1_off52 k) (k1_off52_inb k))) :=
    chk_full d c i fl hfl _ _ (by simp only [k1_off52_eq, Matrix.cons_val_zero]; omega)
  have h10 : k1_chk49 (idxG (ldL d c i fl (k1_off53 k) (k1_off53_inb k))) :=
    chk_full d c i fl hfl _ _ (by simp only [k1_off53_eq, Matrix.cons_val_zero]; omega)
  have h11 : k1_chk50 (idxG (ldL d c i fl (k1_off54 k) (k1_off54_inb k))) :=
    chk_full d c i fl hfl _ _ (by simp only [k1_off54_eq, Matrix.cons_val_zero]; omega)
  have h12 : k1_chk51 (idxG (ldL d c i fl (k1_off55 k) (k1_off55_inb k))) :=
    chk_full d c i fl hfl _ _ (by simp only [k1_off55_eq, Matrix.cons_val_zero]; omega)
  have h13 : k1_chk52 (idxL (ldL d c i fl (k1_off56 k) (k1_off56_inb k))) :=
    chk_last d c i fl hfl _ _ (by simp only [k1_off56_eq, Matrix.cons_val_zero]; omega)
  unfold inv₀
  iintro ⟨Ht, Hl, ⟨%fs, Hs⟩, ⟨%fc, Hc⟩⟩
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  sl_step
  isplitl [Ht]; · iexact Ht
  isplitl [Hl]; · iexact Hl
  isplitl [Hs]; · iexists _; iexact Hs
  iexists _; iexact Hc

end Tile
end Cert.KernelIdeal.Hand.Pool
end
-- ==== Proof.PoolBody0.lean ====
import proofs.«203204_g25512105739078_cont_8to1_1946_3_alg».proof.Proof.Common
import proofs.«203204_g25512105739078_cont_8to1_1946_3_alg».proof.Proof.PoolTripB

noncomputable section

namespace Cert.KernelIdeal.Hand.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Tactic

section Tile
variable (d : Dev nD) (c : Fin (grid1.bound 0)) (i : Fin (grid1.bound 1))

/-- The arrays as the tile's memrefs address them are the TensorCore's arrays. -/
theorem pts_t (q : PosShare TreeShare) (f : Buf (Elt F) (tLoc d)) :
    ((tV).view.loc (thr d c i) ↦{q} f : sProp 𝕄) = tLoc d ↦{q} f := by
  simp only [Memref.view_whole, View.set_whole]
theorem pts_l (q : PosShare TreeShare) (f : Buf (Elt F) (lLoc d)) :
    ((lV).view.loc (thr d c i) ↦{q} f : sProp 𝕄) = lLoc d ↦{q} f := by
  simp only [Memref.view_whole, View.set_whole]
theorem pts_os (f : Buf (Elt F) (sLoc d)) :
    ((outS c i).view.loc (thr d c i) ↦[(outS c i).view.set]{fullShare} f : sProp 𝕄) = sLoc d ↦[(outS c i).view.set]{fullShare} f := rfl
theorem pts_oc (f : Buf (Elt F) (cLoc d)) :
    ((outC c i).view.loc (thr d c i) ↦[(outC c i).view.set]{fullShare} f : sProp 𝕄) = cLoc d ↦[(outC c i).view.set]{fullShare} f := rfl
theorem pts_tS (f : Buf (Elt F) ((thr d c i).loc cc1_scratch0)) :
    ((tS).view.loc (thr d c i) ↦{fullShare} f : sProp 𝕄) = (thr d c i).loc cc1_scratch0 ↦{fullShare} f := rfl
theorem pts_lS (f : Buf (Elt F) ((thr d c i).loc cc1_scratch1)) :
    ((lS).view.loc (thr d c i) ↦{fullShare} f : sProp 𝕄) = (thr d c i).loc cc1_scratch1 ↦{fullShare} f := rfl
theorem pts_sS (f : Buf (Elt F) ((thr d c i).loc cc1_scratch2)) :
    ((sS).view.loc (thr d c i) ↦{fullShare} f : sProp 𝕄) = (thr d c i).loc cc1_scratch2 ↦{fullShare} f := rfl
theorem pts_cS (f : Buf (Elt F) ((thr d c i).loc cc1_scratch3)) :
    ((cS).view.loc (thr d c i) ↦{fullShare} f : sProp 𝕄) = (thr d c i).loc cc1_scratch3 ↦{fullShare} f := rfl

/-- A word read out of the flat labels through a chunk's slice of them is a label in range. -/
theorem read_lab_lt (labs : Buf (Elt F) (lLoc d)) (hlab : ∀ x, (labs x : BitVec 32).toNat < 100000)
    (off : Fin 1 → ℕ) (hin : ∀ a, off a + S6400.size a ≤ S819200.size a) (hr : ∀ a, (Rect.unit (s := S819200) off S6400.size hin).stride a = 1) (j : S6400.Idx) :
    (((lV).slice (Rect.unit (s := S819200) off S6400.size hin) hr).view.read (Elt F) labs j : BitVec 32).toNat < 100000 :=
  lt_of_eq_of_lt (congrArg BitVec.toNat ((View.read_apply _ _).trans (cast_eq _ _))) (hlab _)

variable [FloatOps F]

theorem tileBody₀ (qT qL : PosShare TreeShare) (tv : Buf (Elt F) (tLoc d)) (labs : Buf (Elt F) (lLoc d))
    (hlab : ∀ x, (labs x : BitVec 32).toNat < 100000) (O : CellTallies nD τ sig (HIx 1)) (W : Waits sig (HIx 1)) (hO : ∀ g, O g none = 0) :
    iprop(levAts (K (F := F)).L (K (F := F)).lev ∗ tileGo qT qL d tv labs c i
        ∗ scopedBufs (thr d c i) ∗ scopedSems0 (thr d c i) ∗ owes (thr d c i) O W)
      ⊢ wp frame (wpE (defs₀ (F := F)) 𝒱₀ (thr d c i) none) Set.univ
          (cc1__pool (coordsV c i) tV (Memref.isWhole_whole _) lV (Memref.isWhole_whole _) sV (Memref.isWhole_whole _) cV (Memref.isWhole_whole _)
            tS (Memref.isWhole_whole _) lS (Memref.isWhole_whole _) sS (Memref.isWhole_whole _) cS (Memref.isWhole_whole _)
            cc1_scoped0 cc1_scoped1 cc1_scoped2 cc1_scoped3 cc1_scoped4 cc1_scoped5 cc1_scoped6)
          fun _ => iprop(tileTd₀ qT qL d tv labs c i ∗ scopedBufs (thr d c i) ∗ scopedSems0 (thr d c i)
            ∗ ∃ W', ⌜∀ p ∈ W', p ∈ W ∨ p.2 = none⌝ ∗ owes (thr d c i) O W') := by
  simp only [cc1__pool_eq_skeleton]; unfold cc1__pool_skel
  rw [(K (F := F)).scopedBufs_V facts d _ _, SparseCore.Cfg.scopedSems0_V (Val := Elt F) d _ _, ownSems0_thr, ownBufs_thr]
  unfold tileGo tileTd₀
  iintro ⟨#Hlv, ⟨Ht, Hl, ⟨%fs0, Hs⟩, ⟨%fc0, Hc⟩⟩, ⟨⟨%ft0, Hts⟩, ⟨%fl0, Hls⟩, ⟨%fss0, Hss⟩, ⟨%fcs0, Hcs⟩, Hbufs⟩,
    ⟨Hsem0, Hsem1, Hsem2, Hsem3, Hsem4, Hsem5, Hsem6, Hsems⟩, HO⟩
  ihave Hmw := ((K (F := F)).mayWaits_none (thr := thr d c i) hO) $$ Hlv
  ihave Ht' := (Entails.of_eq (pts_t (F := F) d c i qT _).symm) $$ Ht
  ihave Hl' := (Entails.of_eq (pts_l (F := F) d c i qL _).symm) $$ Hl
  ihave Hs' := (Entails.of_eq (pts_os (F := F) d c i _).symm) $$ Hs
  ihave Hc' := (Entails.of_eq (pts_oc (F := F) d c i _).symm) $$ Hc
  ihave Hts' := (Entails.of_eq (pts_tS (F := F) d c i _).symm) $$ Hts
  ihave Hls' := (Entails.of_eq (pts_lS (F := F) d c i _).symm) $$ Hls
  ihave Hss' := (Entails.of_eq (pts_sS (F := F) d c i _).symm) $$ Hss
  ihave Hcs' := (Entails.of_eq (pts_cS (F := F) d c i _).symm) $$ Hcs
  sl_exec

  ihave Hta := (Entails.of_eq (pts_tS_acc (F := F) d c i _)) $$ Hts'

  have hfl1 : LabOK d c i ((lS).view.writes (Elt F) fl0 [⟨Rect.unit ![0] S6400.size inb_S6416_S6400_0, tileBody₀.sl.dma0_1 d c i labs⟩]) := by
    apply labOK_of_writes
    intro j
    unfold tileBody₀.sl.dma0_1
    exact read_lab_lt d labs hlab _ _ _ j
  sl_for (inv₀ d c i (View.write (Elt F) tS.view ft0 (tileBody₀.sl.dma0 d tv) Finset.univ)
      ((lS).view.writes (Elt F) fl0 [⟨Rect.unit ![0] S6400.size inb_S6416_S6400_0, tileBody₀.sl.dma0_1 d c i labs⟩])) $$ [Hta Hls' Hss' Hcs']
  case region =>
    intro k u
    exact trip1₀ d c i _ _ hfl1 k u
  · unfold inv₀
    isplitl [Hta]; · iexact Hta
    isplitl [Hls']; · iexact Hls'
    isplitl [Hss']; · iexists _; iexact Hss'
    iexists _; iexact Hcs'
  iintro %_ HI
  unfold inv₀
  icases HI with ⟨Hta, Hls', ⟨%fs1, Hss'⟩, ⟨%fc1, Hcs'⟩⟩
  sl_exec

  have hfl2 : LabOK d c i ((lS).view.writes (Elt F) fl0 [⟨Rect.unit ![0] S6400.size inb_S6416_S6400_0, tileBody₀.sl.dma0_2 d c i labs⟩, ⟨Rect.unit ![0] S6400.size inb_S6416_S6400_0, tileBody₀.sl.dma0_1 d c i labs⟩]) := by
    apply labOK_of_writes
    intro j
    unfold tileBody₀.sl.dma0_2
    exact read_lab_lt d labs hlab _ _ _ j
  sl_for (inv₀ d c i (View.write (Elt F) tS.view ft0 (tileBody₀.sl.dma0 d tv) Finset.univ)
      ((lS).view.writes (Elt F) fl0 [⟨Rect.unit ![0] S6400.size inb_S6416_S6400_0, tileBody₀.sl.dma0_2 d c i labs⟩, ⟨Rect.unit ![0] S6400.size inb_S6416_S6400_0, tileBody₀.sl.dma0_1 d c i labs⟩])) $$ [Hta Hls' Hss' Hcs']
  case region =>
    intro k u
    exact trip2₀ d c i _ _ hfl2 k u
  · unfold inv₀
    isplitl [Hta]; · iexact Hta
    isplitl [Hls']; · iexact Hls'
    isplitl [Hss']; · iexists _; iexact Hss'
    iexists _; iexact Hcs'
  iintro %_ HI
  unfold inv₀
  icases HI with ⟨Hta, Hls', ⟨%fs2, Hss'⟩, ⟨%fc2, Hcs'⟩⟩
  sl_exec

  have hfl3 : LabOK d c i ((lS).view.writes (Elt F) fl0 [⟨Rect.unit ![0] S6400.size inb_S6416_S6400_0, tileBody₀.sl.dma0_3 d c i labs⟩, ⟨Rect.unit ![0] S6400.size inb_S6416_S6400_0, tileBody₀.sl.dma0_2 d c i labs⟩, ⟨Rect.unit ![0] S6400.size inb_S6416_S6400_0, tileBody₀.sl.dma0_1 d c i labs⟩]) := by
    apply labOK_of_writes
    intro j
    unfold tileBody₀.sl.dma0_3
    exact read_lab_lt d labs hlab _ _ _ j
  sl_for (inv₀ d c i (View.write (Elt F) tS.view ft0 (tileBody₀.sl.dma0 d tv) Finset.univ)
      ((lS).view.writes (Elt F) fl0 [⟨Rect.unit ![0] S6400.size inb_S6416_S6400_0, tileBody₀.sl.dma0_3 d c i labs⟩, ⟨Rect.unit ![0] S6400.size inb_S6416_S6400_0, tileBody₀.sl.dma0_2 d c i labs⟩, ⟨Rect.unit ![0] S6400.size inb_S6416_S6400_0, tileBody₀.sl.dma0_1 d c i labs⟩])) $$ [Hta Hls' Hss' Hcs']
  case region =>
    intro k u
    exact trip3₀ d c i _ _ hfl3 _ k u
  · unfold inv₀
    isplitl [Hta]; · iexact Hta
    isplitl [Hls']; · iexact Hls'
    isplitl [Hss']; · iexists _; iexact Hss'
    iexists _; iexact Hcs'
  iintro %_ HI
  unfold inv₀
  icases HI with ⟨Hta, Hls', ⟨%fs3, Hss'⟩, ⟨%fc3, Hcs'⟩⟩
  sl_exec

  have hfl4 : LabOK d c i ((lS).view.writes (Elt F) fl0 [⟨Rect.unit ![0] S6400.size inb_S6416_S6400_0, tileBody₀.sl.dma0_4 d c i labs⟩, ⟨Rect.unit ![0] S6400.size inb_S6416_S6400_0, tileBody₀.sl.dma0_3 d c i labs⟩, ⟨Rect.unit ![0] S6400.size inb_S6416_S6400_0, tileBody₀.sl.dma0_2 d c i labs⟩, ⟨Rect.unit ![0] S6400.size inb_S6416_S6400_0, tileBody₀.sl.dma0_1 d c i labs⟩]) := by
    apply labOK_of_writes
    intro j
    unfold tileBody₀.sl.dma0_4
    exact read_lab_lt d labs hlab _ _ _ j
  sl_for (inv₀ d c i (View.write (Elt F) tS.view ft0 (tileBody₀.sl.dma0 d tv) Finset.univ)
      ((lS).view.writes (Elt F) fl0 [⟨Rect.unit ![0] S6400.size inb_S6416_S6400_0, tileBody₀.sl.dma0_4 d c i labs⟩, ⟨Rect.unit ![0] S6400.size inb_S6416_S6400_0, tileBody₀.sl.dma0_3 d c i labs⟩, ⟨Rect.unit ![0] S6400.size inb_S6416_S6400_0, tileBody₀.sl.dma0_2 d c i labs⟩, ⟨Rect.unit ![0] S6400.size inb_S6416_S6400_0, tileBody₀.sl.dma0_1 d c i labs⟩])) $$ [Hta Hls' Hss' Hcs']
  case region =>
    intro k u
    exact trip4₀ d c i _ _ hfl4 _ k u
  · unfold inv₀
    isplitl [Hta]; · iexact Hta
    isplitl [Hls']; · iexact Hls'
    isplitl [Hss']; · iexists _; iexact Hss'
    iexists _; iexact Hcs'
  iintro %_ HI
  unfold inv₀
  icases HI with ⟨Hta, Hls', ⟨%fs4, Hss'⟩, ⟨%fc4, Hcs'⟩⟩
  sl_exec

  ihave Ht := (Entails.of_eq (pts_t (F := F) d c i qT _)) $$ Ht'
  ihave Hl := (Entails.of_eq (pts_l (F := F) d c i qL _)) $$ Hl'
  sl_step
  isplitl [Ht Hl Hs' Hc']
  · isplitl [Ht]; · iexact Ht
    isplitl [Hl]; · iexact Hl
    isplitl [Hs']; · iexists _; iexact Hs'
    iexists _; iexact Hc'
  isplitl [Hta Hls' Hss' Hcs' Hbufs]
  · isplitl [Hta]; · iexists _; iexact Hta
    isplitl [Hls']; · iexists _; iexact Hls'
    isplitl [Hss']; · iexists _; iexact Hss'
    isplitl [Hcs']; · iexists _; iexact Hcs'
    iexact Hbufs
  isplitl [Hsem0 Hsem1 Hsem2 Hsem3 Hsem4 Hsem5 Hsem6 Hsems]
  · isplitl [Hsem0]; · iexact Hsem0
    isplitl [Hsem1]; · iexact Hsem1
    isplitl [Hsem2]; · iexact Hsem2
    isplitl [Hsem3]; · iexact Hsem3
    isplitl [Hsem4]; · iexact Hsem4
    isplitl [Hsem5]; · iexact Hsem5
    isplitl [Hsem6]; · iexact Hsem6
    iexact Hsems
  iexists _; isplitr
  swap
  · iexact HO
  · ipureintro
    intro p hp
    simp only [Finset.mem_insert] at hp
    rcases hp with rfl | rfl | rfl | rfl | rfl | rfl | rfl | hp
    · exact .inr rfl
    · exact .inr rfl
    · exact .inr rfl
    · exact .inr rfl
    · exact .inr rfl
    · exact .inr rfl
    · exact .inr rfl
    · exact .inl hp

end Tile
end Cert.KernelIdeal.Hand.Pool
end
-- ==== Proof.PoolCellsB.lean ====
import proofs.«203204_g25512105739078_cont_8to1_1946_3_alg».proof.Proof.CommonB
import proofs.«203204_g25512105739078_cont_8to1_1946_3_alg».proof.Proof.PoolDefsB
import proofs.«203204_g25512105739078_cont_8to1_1946_3_alg».proof.Proof.Gen.Kernel.Skeleton

noncomputable section

namespace Cert.Kernel.Hand.Pool

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Tactic

section Tile
variable (d : Dev nD) (c : Fin (grid1.bound 0)) (i : Fin (grid1.bound 1))

/-- The tile's thread. -/
abbrev thr : Thread nD τ := V d (c.castLE hcore1) (i.castLE hsub1)

/-- The tile's scoped DMA semaphores other than the kernel's seven. -/
abbrev restCells : Finset (GSem nD τ sig) := ((((((((ownCells (thr d c i)).erase ((thr d c i, SemLoc.dma cc1_scoped0.sem) : GSem nD τ sig)).erase ((thr d c i, SemLoc.dma cc1_scoped1.sem) : GSem nD τ sig)).erase ((thr d c i, SemLoc.dma cc1_scoped2.sem) : GSem nD τ sig)).erase ((thr d c i, SemLoc.dma cc1_scoped3.sem) : GSem nD τ sig)).erase ((thr d c i, SemLoc.dma cc1_scoped4.sem) : GSem nD τ sig)).erase ((thr d c i, SemLoc.dma cc1_scoped5.sem) : GSem nD τ sig)).erase ((thr d c i, SemLoc.dma cc1_scoped6.sem) : GSem nD τ sig))
/-- The tile's own buffers other than the kernel's four scratch arrays. -/
abbrev restRefs : Finset (DevRef τ sig) := (((((ownRefs (τ := τ) (Proc.scVector (c.castLE hcore1) (i.castLE hsub1) : Proc τ)).erase ((Proc.scVector (c.castLE hcore1) (i.castLE hsub1) : Proc τ).devRef cc1_scratch0)).erase ((Proc.scVector (c.castLE hcore1) (i.castLE hsub1) : Proc τ).devRef cc1_scratch1)).erase ((Proc.scVector (c.castLE hcore1) (i.castLE hsub1) : Proc τ).devRef cc1_scratch2)).erase ((Proc.scVector (c.castLE hcore1) (i.castLE hsub1) : Proc τ).devRef cc1_scratch3))

/-- The kernel's seven semaphores are among the tile's scoped ones: those at zero, and the rest. -/
theorem ownSems0_thr :
    (ownSems0 (thr d c i) : sProp 𝕄)
      = iprop(semVal ((thr d c i, SemLoc.dma cc1_scoped0.sem) : GSem nD τ sig) 0
          ∗ semVal ((thr d c i, SemLoc.dma cc1_scoped1.sem) : GSem nD τ sig) 0
          ∗ semVal ((thr d c i, SemLoc.dma cc1_scoped2.sem) : GSem nD τ sig) 0
          ∗ semVal ((thr d c i, SemLoc.dma cc1_scoped3.sem) : GSem nD τ sig) 0
          ∗ semVal ((thr d c i, SemLoc.dma cc1_scoped4.sem) : GSem nD τ sig) 0
          ∗ semVal ((thr d c i, SemLoc.dma cc1_scoped5.sem) : GSem nD τ sig) 0
          ∗ semVal ((thr d c i, SemLoc.dma cc1_scoped6.sem) : GSem nD τ sig) 0
          ∗ bigSep (restCells d c i) fun g => semVal g 0) := by
  unfold SparseCore.Cfg.ownSems0
  rw [SparseCore.bigSep_erase' ((mem_ownCells (g := ((thr d c i, SemLoc.dma cc1_scoped0.sem) : GSem nD τ sig))).mpr ⟨rfl, by show (SemLoc.dma cc1_scoped0.sem : SemLoc sig).isScoped .scVector = true; decide⟩),
    SparseCore.bigSep_erase' (Finset.mem_erase.mpr ⟨(fun e => absurd (congrArg Prod.snd e) (by decide : (SemLoc.dma cc1_scoped1.sem : SemLoc sig) ≠ (SemLoc.dma cc1_scoped0.sem : SemLoc sig))), (mem_ownCells (g := ((thr d c i, SemLoc.dma cc1_scoped1.sem) : GSem nD τ sig))).mpr ⟨rfl, by show (SemLoc.dma cc1_scoped1.sem : SemLoc sig).isScoped .scVector = true; decide⟩⟩),
    SparseCore.bigSep_erase' (Finset.mem_erase.mpr ⟨(fun e => absurd (congrArg Prod.snd e) (by decide : (SemLoc.dma cc1_scoped2.sem : SemLoc sig) ≠ (SemLoc.dma cc1_scoped1.sem : SemLoc sig))), Finset.mem_erase.mpr ⟨(fun e => absurd (congrArg Prod.snd e) (by decide : (SemLoc.dma cc1_scoped2.sem : SemLoc sig) ≠ (SemLoc.dma cc1_scoped0.sem : SemLoc sig))), (mem_ownCells (g := ((thr d c i, SemLoc.dma cc1_scoped2.sem) : GSem nD τ sig))).mpr ⟨rfl, by show (SemLoc.dma cc1_scoped2.sem : SemLoc sig).isScoped .scVector = true; decide⟩⟩⟩),
    SparseCore.bigSep_erase' (Finset.mem_erase.mpr ⟨(fun e => absurd (congrArg Prod.snd e) (by decide : (SemLoc.dma cc1_scoped3.sem : SemLoc sig) ≠ (SemLoc.dma cc1_scoped2.sem : SemLoc sig))), Finset.mem_erase.mpr ⟨(fun e => absurd (congrArg Prod.snd e) (by decide : (SemLoc.dma cc1_scoped3.sem : SemLoc sig) ≠ (SemLoc.dma cc1_scoped1.sem : SemLoc sig))), Finset.mem_erase.mpr ⟨(fun e => absurd (congrArg Prod.snd e) (by decide : (SemLoc.dma cc1_scoped3.sem : SemLoc sig) ≠ (SemLoc.dma cc1_scoped0.sem : SemLoc sig))), (mem_ownCells (g := ((thr d c i, SemLoc.dma cc1_scoped3.sem) : GSem nD τ sig))).mpr ⟨rfl, by show (SemLoc.dma cc1_scoped3.sem : SemLoc sig).isScoped .scVector = true; decide⟩⟩⟩⟩),
    SparseCore.bigSep_erase' (Finset.mem_erase.mpr ⟨(fun e => absurd (congrArg Prod.snd e) (by decide : (SemLoc.dma cc1_scoped4.sem : SemLoc sig) ≠ (SemLoc.dma cc1_scoped3.sem : SemLoc sig))), Finset.mem_erase.mpr ⟨(fun e => absurd (congrArg Prod.snd e) (by decide : (SemLoc.dma cc1_scoped4.sem : SemLoc sig) ≠ (SemLoc.dma cc1_scoped2.sem : SemLoc sig))), Finset.mem_erase.mpr ⟨(fun e => absurd (congrArg Prod.snd e) (by decide : (SemLoc.dma cc1_scoped4.sem : SemLoc sig) ≠ (SemLoc.dma cc1_scoped1.sem : SemLoc sig))), Finset.mem_erase.mpr ⟨(fun e => absurd (congrArg Prod.snd e) (by decide : (SemLoc.dma cc1_scoped4.sem : SemLoc sig) ≠ (SemLoc.dma cc1_scoped0.sem : SemLoc sig))), (mem_ownCells (g := ((thr d c i, SemLoc.dma cc1_scoped4.sem) : GSem nD τ sig))).mpr ⟨rfl, by show (SemLoc.dma cc1_scoped4.sem : SemLoc sig).isScoped .scVector = true; decide⟩⟩⟩⟩⟩),
    SparseCore.bigSep_erase' (Finset.mem_erase.mpr ⟨(fun e => absurd (congrArg Prod.snd e) (by decide : (SemLoc.dma cc1_scoped5.sem : SemLoc sig) ≠ (SemLoc.dma cc1_scoped4.sem : SemLoc sig))), Finset.mem_erase.mpr ⟨(fun e => absurd (congrArg Prod.snd e) (by decide : (SemLoc.dma cc1_scoped5.sem : SemLoc sig) ≠ (SemLoc.dma cc1_scoped3.sem : SemLoc sig))), Finset.mem_erase.mpr ⟨(fun e => absurd (congrArg Prod.snd e) (by decide : (SemLoc.dma cc1_scoped5.sem : SemLoc sig) ≠ (SemLoc.dma cc1_scoped2.sem : SemLoc sig))), Finset.mem_erase.mpr ⟨(fun e => absurd (congrArg Prod.snd e) (by decide : (SemLoc.dma cc1_scoped5.sem : SemLoc sig) ≠ (SemLoc.dma cc1_scoped1.sem : SemLoc sig))), Finset.mem_erase.mpr ⟨(fun e => absurd (congrArg Prod.snd e) (by decide : (SemLoc.dma cc1_scoped5.sem : SemLoc sig) ≠ (SemLoc.dma cc1_scoped0.sem : SemLoc sig))), (mem_ownCells (g := ((thr d c i, SemLoc.dma cc1_scoped5.sem) : GSem nD τ sig))).mpr ⟨rfl, by show (SemLoc.dma cc1_scoped5.sem : SemLoc sig).isScoped .scVector = true; decide⟩⟩⟩⟩⟩⟩),
    SparseCore.bigSep_erase' (Finset.mem_erase.mpr ⟨(fun e => absurd (congrArg Prod.snd e) (by decide : (SemLoc.dma cc1_scoped6.sem : SemLoc sig) ≠ (SemLoc.dma cc1_scoped5.sem : SemLoc sig))), Finset.mem_erase.mpr ⟨(fun e => absurd (congrArg Prod.snd e) (by decide : (SemLoc.dma cc1_scoped6.sem : SemLoc sig) ≠ (SemLoc.dma cc1_scoped4.sem : SemLoc sig))), Finset.mem_erase.mpr ⟨(fun e => absurd (congrArg Prod.snd e) (by decide : (SemLoc.dma cc1_scoped6.sem : SemLoc sig) ≠ (SemLoc.dma cc1_scoped3.sem : SemLoc sig))), Finset.mem_erase.mpr ⟨(fun e => absurd (congrArg Prod.snd e) (by decide : (SemLoc.dma cc1_scoped6.sem : SemLoc sig) ≠ (SemLoc.dma cc1_scoped2.sem : SemLoc sig))), Finset.mem_erase.mpr ⟨(fun e => absurd (congrArg Prod.snd e) (by decide : (SemLoc.dma cc1_scoped6.sem : SemLoc sig) ≠ (SemLoc.dma cc1_scoped1.sem : SemLoc sig))), Finset.mem_erase.mpr ⟨(fun e => absurd (congrArg Prod.snd e) (by decide : (SemLoc.dma cc1_scoped6.sem : SemLoc sig) ≠ (SemLoc.dma cc1_scoped0.sem : SemLoc sig))), (mem_ownCells (g := ((thr d c i, SemLoc.dma cc1_scoped6.sem) : GSem nD τ sig))).mpr ⟨rfl, by show (SemLoc.dma cc1_scoped6.sem : SemLoc sig).isScoped .scVector = true; decide⟩⟩⟩⟩⟩⟩⟩)]

/-- The four scratch arrays are among the tile's own buffers: those at some contents, and the rest. -/
theorem ownBufs_thr :
    (ownBufs (thr d c i) : sProp 𝕄)
      = iprop((∃ f, (thr d c i).loc cc1_scratch0 ↦{fullShare} f)
          ∗ (∃ f, (thr d c i).loc cc1_scratch1 ↦{fullShare} f)
          ∗ (∃ f, (thr d c i).loc cc1_scratch2 ↦{fullShare} f)
          ∗ (∃ f, (thr d c i).loc cc1_scratch3 ↦{fullShare} f)
          ∗ bigSep (restRefs c i) fun b => iprop(∃ f, ((d, b) : Loc nD τ sig) ↦{fullShare} f)) := by
  unfold SparseCore.Cfg.ownBufs
  refine (SparseCore.bigSep_erase' (SparseCore.Cfg.mem_ownRefs_of_owner (p := (Proc.scVector (c.castLE hcore1) (i.castLE hsub1) : Proc τ)) (b := ((Proc.scVector (c.castLE hcore1) (i.castLE hsub1) : Proc τ).devRef cc1_scratch0)) rfl)).trans ?_
  rw [SparseCore.bigSep_erase' (Finset.mem_erase.mpr ⟨(fun e => absurd (Proc.devRef_injective _ e) (by decide : (cc1_scratch1 : Ref sig .scVector) ≠ cc1_scratch0)), SparseCore.Cfg.mem_ownRefs_of_owner (p := (Proc.scVector (c.castLE hcore1) (i.castLE hsub1) : Proc τ)) (b := ((Proc.scVector (c.castLE hcore1) (i.castLE hsub1) : Proc τ).devRef cc1_scratch1)) rfl⟩),
    SparseCore.bigSep_erase' (Finset.mem_erase.mpr ⟨(fun e => absurd (Proc.devRef_injective _ e) (by decide : (cc1_scratch2 : Ref sig .scVector) ≠ cc1_scratch1)), Finset.mem_erase.mpr ⟨(fun e => absurd (Proc.devRef_injective _ e) (by decide : (cc1_scratch2 : Ref sig .scVector) ≠ cc1_scratch0)), SparseCore.Cfg.mem_ownRefs_of_owner (p := (Proc.scVector (c.castLE hcore1) (i.castLE hsub1) : Proc τ)) (b := ((Proc.scVector (c.castLE hcore1) (i.castLE hsub1) : Proc τ).devRef cc1_scratch2)) rfl⟩⟩),
    SparseCore.bigSep_erase' (Finset.mem_erase.mpr ⟨(fun e => absurd (Proc.devRef_injective _ e) (by decide : (cc1_scratch3 : Ref sig .scVector) ≠ cc1_scratch2)), Finset.mem_erase.mpr ⟨(fun e => absurd (Proc.devRef_injective _ e) (by decide : (cc1_scratch3 : Ref sig .scVector) ≠ cc1_scratch1)), Finset.mem_erase.mpr ⟨(fun e => absurd (Proc.devRef_injective _ e) (by decide : (cc1_scratch3 : Ref sig .scVector) ≠ cc1_scratch0)), SparseCore.Cfg.mem_ownRefs_of_owner (p := (Proc.scVector (c.castLE hcore1) (i.castLE hsub1) : Proc τ)) (b := ((Proc.scVector (c.castLE hcore1) (i.castLE hsub1) : Proc τ).devRef cc1_scratch3)) rfl⟩⟩⟩)]

end Tile
end Cert.Kernel.Hand.Pool
end
-- ==== Proof.PoolChkB.lean ====
import proofs.«203204_g25512105739078_cont_8to1_1946_3_alg».proof.Proof.CommonB
import proofs.«203204_g25512105739078_cont_8to1_1946_3_alg».proof.Proof.PoolCellsB

noncomputable section

namespace Cert.Kernel.Hand.Pool

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Tactic
section Tile
variable (d : Dev nD) (c : Fin (grid1.bound 0)) (i : Fin (grid1.bound 1))

/-- Sixteen words of the label scratch, as a load at offset `off` reads them. -/
abbrev ldL (fl : Buf (Elt F) ((thr d c i).loc cc1_scratch1)) (off : Fin 1 → ℕ) (hin : ∀ a, off a + S16.size a ≤ S6416.size a) : Vec F S16 .i32 :=
  View.readAt (Elt F) (lS).view (Rect.unit (s := S6416) off S16.size hin).toLoadRect fl

/-- The index vector of a full group: the label where it is positive, else 0. -/
abbrev idxG (l : IVec S16 32) : IVec S16 32 := select (cmpi .sgt l (broadcast S16 0#32)) l (broadcast S16 0#32)
/-- The index vector of the thirteenth group: the label where it is positive and the lane is below eight, else 0. -/
abbrev idxL (l : IVec S16 32) : IVec S16 32 := select (andi (cmpi .sgt l (broadcast S16 0#32)) k1_pay149) l (broadcast S16 0#32)

/-- The first 6400 words of the label scratch are labels in range. -/
def LabOK (fl : Buf (Elt F) ((thr d c i).loc cc1_scratch1)) : Prop :=
  ∀ x : S6416.Idx, (x 0).val < 6400 → (fl x : BitVec 32).toNat < 100000

theorem ldL_apply (fl : Buf (Elt F) ((thr d c i).loc cc1_scratch1)) (off : Fin 1 → ℕ) (hin : ∀ a, off a + S16.size a ≤ S6416.size a) (x : S16.Idx) :
    ldL d c i fl off hin x = fl ((Rect.unit (s := S6416) off S16.size hin).toLoadRect.idx x) := rfl

theorem idx0 (off : Fin 1 → ℕ) (hin : ∀ a, off a + S16.size a ≤ S6416.size a) (x : S16.Idx) :
    (((Rect.unit (s := S6416) off S16.size hin).toLoadRect.idx x) 0).val = off 0 + (x 0).val := by
  rw [LoadRect.idx_apply]
  show off 0 + 1 * (x 0).val = off 0 + (x 0).val
  rw [Nat.one_mul]

/-- A full group's index vector names rows of the table when its sixteen words are labels. -/
theorem chk_full (fl : Buf (Elt F) ((thr d c i).loc cc1_scratch1)) (hfl : LabOK d c i fl) (off : Fin 1 → ℕ)
    (hin : ∀ a, off a + S16.size a ≤ S6416.size a) (hoff : off 0 + 16 ≤ 6400) :
    ∀ a x, ((![idxG (ldL d c i fl off hin)] : Fin 1 → IVec S16 32) a x).toNat < S100000.size a := by
  intro a x
  obtain rfl : a = 0 := Subsingleton.elim _ _
  show (Scalar.select _ (ldL d c i fl off hin x) (0#32)).toNat < 100000
  unfold Scalar.select
  split
  · rw [ldL_apply]
    apply hfl
    rw [idx0]
    have : (x 0).val < 16 := (x 0).isLt
    omega
  · decide

theorem andi1 : ∀ a b : BitVec 1, IntOp.andi a b = 1 → b = 1 := by decide

theorem lane8_lt (x : S16.Idx) (h : k1_pay149 x = 1) : (x 0).val < 8 := by
  have hx : (x 0).val < 16 := (x 0).isLt
  by_contra hge
  have h8 : 8 ≤ (x 0).val := Nat.le_of_not_lt hge
  revert h
  show (IntOp.cmpi .slt (BitVec.ofNat 32 (0 * 16 + (x 0).val)) (8#32)) = 1 → False
  generalize (x 0).val = n at hx h8
  have hn : n = 8 ∨ n = 9 ∨ n = 10 ∨ n = 11 ∨ n = 12 ∨ n = 13 ∨ n = 14 ∨ n = 15 := by omega
  rcases hn with rfl | rfl | rfl | rfl | rfl | rfl | rfl | rfl <;> decide

/-- The thirteenth group's index vector names rows of the table when its first eight words are labels. -/
theorem chk_last (fl : Buf (Elt F) ((thr d c i).loc cc1_scratch1)) (hfl : LabOK d c i fl) (off : Fin 1 → ℕ)
    (hin : ∀ a, off a + S16.size a ≤ S6416.size a) (hoff : off 0 + 8 ≤ 6400) :
    ∀ a x, ((![idxL (ldL d c i fl off hin)] : Fin 1 → IVec S16 32) a x).toNat < S100000.size a := by
  intro a x
  obtain rfl : a = 0 := Subsingleton.elim _ _
  show (Scalar.select (IntOp.andi _ (k1_pay149 x)) (ldL d c i fl off hin x) (0#32)).toNat < 100000
  unfold Scalar.select
  split
  next hm =>
    have h8 : (x 0).val < 8 := lane8_lt x (andi1 _ _ hm)
    rw [ldL_apply]
    apply hfl
    rw [idx0]
    omega
  · decide

end Tile
end Cert.Kernel.Hand.Pool
end
-- ==== Proof.PoolTripAB.lean ====
import proofs.«203204_g25512105739078_cont_8to1_1946_3_alg».proof.Proof.CommonB
import proofs.«203204_g25512105739078_cont_8to1_1946_3_alg».proof.Proof.PoolChkB

noncomputable section

namespace Cert.Kernel.Hand.Pool

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Tactic
section Tile
variable (d : Dev nD) (c : Fin (grid1.bound 0)) (i : Fin (grid1.bound 1))
variable [FloatOps F]

/-- The loops' invariant, frame only: the table scratch whole at `ft` (held as the gathers address it), the label scratch whole at
    `fl`, the two result scratches at whatever they hold. -/
def inv₀ (ft : Buf (Elt F) ((thr d c i).loc cc1_scratch0)) (fl : Buf (Elt F) ((thr d c i).loc cc1_scratch1)) (_ : Nat) (_ : Unit) : sProp 𝕄 :=
  iprop((((tS).access (.whole S100000)).loc (thr d c i) ↦{fullShare} ft) ∗ ((lS).view.loc (thr d c i) ↦{fullShare} fl)
    ∗ (∃ f, (sS).view.loc (thr d c i) ↦{fullShare} f) ∗ (∃ f, (cS).view.loc (thr d c i) ↦{fullShare} f))

/-- The table scratch as a gather addresses it is the table scratch. -/
theorem pts_tS_acc (f : Buf (Elt F) ((thr d c i).loc cc1_scratch0)) :
    ((tS).view.loc (thr d c i) ↦{fullShare} f : sProp 𝕄) = (((tS).access (.whole S100000)).loc (thr d c i) ↦{fullShare} f) := rfl

/-- After a chunk's copy has landed, the first 6400 words of the label scratch are the chunk's labels. -/
theorem labOK_of_writes (fl0 : Buf (Elt F) ((thr d c i).loc cc1_scratch1))
    (w : (Rect.unit (s := S6416) ![0] S6400.size inb_S6416_S6400_0).shape.Idx → Elt F .i32) (hw : ∀ j, (w j : BitVec 32).toNat < 100000)
    (L : List (View.Piece (Elt F) S6416 .i32)) :
    LabOK d c i ((lS).view.writes (Elt F) fl0 (⟨Rect.unit (s := S6416) ![0] S6400.size inb_S6416_S6400_0, w⟩ :: L)) := by
  intro y hy
  have hmem : y ∈ (Rect.unit (s := S6416) ![0] S6400.size inb_S6416_S6400_0).set := by
    rw [Rect.mem_set_unit]
    intro a
    obtain rfl : a = 0 := Subsingleton.elim _ _
    exact ⟨Nat.zero_le _, by show (y 0).val < 0 + 6400; omega⟩
  rw [← Rect.map_emb_univ, Finset.mem_map] at hmem
  obtain ⟨x, -, hx⟩ := hmem
  have h := View.read_writes_cons_emb (v := (lS).view) (Val := Elt F) (f := fl0) (Rect.unit (s := S6416) ![0] S6400.size inb_S6416_S6400_0) w L x
  rw [hx] at h
  simp only [Memref.view_whole, View.read_whole] at h
  simp only [Memref.view_whole]
  rw [h]
  exact hw x

/-- One trip of chunk 1's loop: thirteen loads of sixteen labels, each index vector in range, thirteen gathers, two stores. -/
theorem trip1₀ (ft : Buf (Elt F) ((thr d c i).loc cc1_scratch0)) (fl : Buf (Elt F) ((thr d c i).loc cc1_scratch1)) (hfl : LabOK d c i fl)
    (k : Fin k1_t1_loop.trips) (u : Unit) :
    inv₀ d c i ft fl k u ⊢ wp frame (wpE (defs₀ (F := F)) 𝒱₀ (thr d c i) none) Set.univ
      (k1_t1_body (coordsV c i) tV (Memref.isWhole_whole _) lV (Memref.isWhole_whole _) sV (Memref.isWhole_whole _) cV (Memref.isWhole_whole _)
            tS (Memref.isWhole_whole _) lS (Memref.isWhole_whole _) sS (Memref.isWhole_whole _) cS (Memref.isWhole_whole _)
            cc1_scoped0 cc1_scoped1 cc1_scoped2 cc1_scoped3 cc1_scoped4 cc1_scoped5 cc1_scoped6 k u) (inv₀ d c i ft fl (k.val + 1)) := by
  have hk : k.val < 32 := lt_of_lt_of_le k.isLt k1_t1_abs.2.1
  have h1 : k1_chk1 (idxG (ldL d c i fl (k1_off2 k) (k1_off2_inb k))) :=
    chk_full d c i fl hfl _ _ (by simp only [k1_off2_eq, Matrix.cons_val_zero]; omega)
  have h2 : k1_chk2 (idxG (ldL d c i fl (k1_off3 k) (k1_off3_inb k))) :=
    chk_full d c i fl hfl _ _ (by simp only [k1_off3_eq, Matrix.cons_val_zero]; omega)
  have h3 : k1_chk3 (idxG (ldL d c i fl (k1_off4 k) (k1_off4_inb k))) :=
    chk_full d c i fl hfl _ _ (by simp only [k1_off4_eq, Matrix.cons_val_zero]; omega)
  have h4 : k1_chk4 (idxG (ldL d c i fl (k1_off5 k) (k1_off5_inb k))) :=
    chk_full d c i fl hfl _ _ (by simp only [k1_off5_eq, Matrix.cons_val_zero]; omega)
  have h5 : k1_chk5 (idxG (ldL d c i fl (k1_off6 k) (k1_off6_inb k))) :=
    chk_full d c i fl hfl _ _ (by simp only [k1_off6_eq, Matrix.cons_val_zero]; omega)
  have h6 : k1_chk6 (idxG (ldL d c i fl (k1_off7 k) (k1_off7_inb k))) :=
    chk_full d c i fl hfl _ _ (by simp only [k1_off7_eq, Matrix.cons_val_zero]; omega)
  have h7 : k1_chk7 (idxG (ldL d c i fl (k1_off8 k) (k1_off8_inb k))) :=
    chk_full d c i fl hfl _ _ (by simp only [k1_off8_eq, Matrix.cons_val_zero]; omega)
  have h8 : k1_chk8 (idxG (ldL d c i fl (k1_off9 k) (k1_off9_inb k))) :=
    chk_full d c i fl hfl _ _ (by simp only [k1_off9_eq, Matrix.cons_val_zero]; omega)
  have h9 : k1_chk9 (idxG (ldL d c i fl (k1_off10 k) (k1_off10_inb k))) :=
    chk_full d c i fl hfl _ _ (by simp only [k1_off10_eq, Matrix.cons_val_zero]; omega)
  have h10 : k1_chk10 (idxG (ldL d c i fl (k1_off11 k) (k1_off11_inb k))) :=
    chk_full d c i fl hfl _ _ (by simp only [k1_off11_eq, Matrix.cons_val_zero]; omega)
  have h11 : k1_chk11 (idxG (ldL d c i fl (k1_off12 k) (k1_off12_inb k))) :=
    chk_full d c i fl hfl _ _ (by simp only [k1_off12_eq, Matrix.cons_val_zero]; omega)
  have h12 : k1_chk12 (idxG (ldL d c i fl (k1_off13 k) (k1_off13_inb k))) :=
    chk_full d c i fl hfl _ _ (by simp only [k1_off13_eq, Matrix.cons_val_zero]; omega)
  have h13 : k1_chk13 (idxL (ldL d c i fl (k1_off14 k) (k1_off14_inb k))) :=
    chk_last d c i fl hfl _ _ (by simp only [k1_off14_eq, Matrix.cons_val_zero]; omega)
  unfold inv₀
  iintro ⟨Ht, Hl, ⟨%fs, Hs⟩, ⟨%fc, Hc⟩⟩
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  sl_step
  isplitl [Ht]; · iexact Ht
  isplitl [Hl]; · iexact Hl
  isplitl [Hs]; · iexists _; iexact Hs
  iexists _; iexact Hc

/-- One trip of chunk 2's loop: thirteen loads of sixteen labels, each index vector in range, thirteen gathers, two stores. -/
theorem trip2₀ (ft : Buf (Elt F) ((thr d c i).loc cc1_scratch0)) (fl : Buf (Elt F) ((thr d c i).loc cc1_scratch1)) (hfl : LabOK d c i fl)
    (k : Fin k1_t2_loop.trips) (u : Unit) :
    inv₀ d c i ft fl k u ⊢ wp frame (wpE (defs₀ (F := F)) 𝒱₀ (thr d c i) none) Set.univ
      (k1_t2_body (coordsV c i) tV (Memref.isWhole_whole _) lV (Memref.isWhole_whole _) sV (Memref.isWhole_whole _) cV (Memref.isWhole_whole _)
            tS (Memref.isWhole_whole _) lS (Memref.isWhole_whole _) sS (Memref.isWhole_whole _) cS (Memref.isWhole_whole _)
            cc1_scoped0 cc1_scoped1 cc1_scoped2 cc1_scoped3 cc1_scoped4 cc1_scoped5 cc1_scoped6 k u) (inv₀ d c i ft fl (k.val + 1)) := by
  have hk : k.val < 32 := lt_of_lt_of_le k.isLt k1_t2_abs.2.1
  have h1 : k1_chk14 (idxG (ldL d c i fl (k1_off16 k) (k1_off16_inb k))) :=
    chk_full d c i fl hfl _ _ (by simp only [k1_off16_eq, Matrix.cons_val_zero]; omega)
  have h2 : k1_chk15 (idxG (ldL d c i fl (k1_off17 k) (k1_off17_inb k))) :=
    chk_full d c i fl hfl _ _ (by simp only [k1_off17_eq, Matrix.cons_val_zero]; omega)
  have h3 : k1_chk16 (idxG (ldL d c i fl (k1_off18 k) (k1_off18_inb k))) :=
    chk_full d c i fl hfl _ _ (by simp only [k1_off18_eq, Matrix.cons_val_zero]; omega)
  have h4 : k1_chk17 (idxG (ldL d c i fl (k1_off19 k) (k1_off19_inb k))) :=
    chk_full d c i fl hfl _ _ (by simp only [k1_off19_eq, Matrix.cons_val_zero]; omega)
  have h5 : k1_chk18 (idxG (ldL d c i fl (k1_off20 k) (k1_off20_inb k))) :=
    chk_full d c i fl hfl _ _ (by simp only [k1_off20_eq, Matrix.cons_val_zero]; omega)
  have h6 : k1_chk19 (idxG (ldL d c i fl (k1_off21 k) (k1_off21_inb k))) :=
    chk_full d c i fl hfl _ _ (by simp only [k1_off21_eq, Matrix.cons_val_zero]; omega)
  have h7 : k1_chk20 (idxG (ldL d c i fl (k1_off22 k) (k1_off22_inb k))) :=
    chk_full d c i fl hfl _ _ (by simp only [k1_off22_eq, Matrix.cons_val_zero]; omega)
  have h8 : k1_chk21 (idxG (ldL d c i fl (k1_off23 k) (k1_off23_inb k))) :=
    chk_full d c i fl hfl _ _ (by simp only [k1_off23_eq, Matrix.cons_val_zero]; omega)
  have h9 : k1_chk22 (idxG (ldL d c i fl (k1_off24 k) (k1_off24_inb k))) :=
    chk_full d c i fl hfl _ _ (by simp only [k1_off24_eq, Matrix.cons_val_zero]; omega)
  have h10 : k1_chk23 (idxG (ldL d c i fl (k1_off25 k) (k1_off25_inb k))) :=
    chk_full d c i fl hfl _ _ (by simp only [k1_off25_eq, Matrix.cons_val_zero]; omega)
  have h11 : k1_chk24 (idxG (ldL d c i fl (k1_off26 k) (k1_off26_inb k))) :=
    chk_full d c i fl hfl _ _ (by simp only [k1_off26_eq, Matrix.cons_val_zero]; omega)
  have h12 : k1_chk25 (idxG (ldL d c i fl (k1_off27 k) (k1_off27_inb k))) :=
    chk_full d c i fl hfl _ _ (by simp only [k1_off27_eq, Matrix.cons_val_zero]; omega)
  have h13 : k1_chk26 (idxL (ldL d c i fl (k1_off28 k) (k1_off28_inb k))) :=
    chk_last d c i fl hfl _ _ (by simp only [k1_off28_eq, Matrix.cons_val_zero]; omega)
  unfold inv₀
  iintro ⟨Ht, Hl, ⟨%fs, Hs⟩, ⟨%fc, Hc⟩⟩
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  sl_step
  isplitl [Ht]; · iexact Ht
  isplitl [Hl]; · iexact Hl
  isplitl [Hs]; · iexists _; iexact Hs
  iexists _; iexact Hc

end Tile
end Cert.Kernel.Hand.Pool
end
-- ==== Proof.PoolTripBB.lean ====
import proofs.«203204_g25512105739078_cont_8to1_1946_3_alg».proof.Proof.CommonB
import proofs.«203204_g25512105739078_cont_8to1_1946_3_alg».proof.Proof.PoolTripAB

noncomputable section

namespace Cert.Kernel.Hand.Pool

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Tactic
section Tile
variable (d : Dev nD) (c : Fin (grid1.bound 0)) (i : Fin (grid1.bound 1))
variable [FloatOps F]

/-- One trip of chunk 3's loop: thirteen loads of sixteen labels, each index vector in range, thirteen gathers, two stores. -/
theorem trip3₀ (ft : Buf (Elt F) ((thr d c i).loc cc1_scratch0)) (fl : Buf (Elt F) ((thr d c i).loc cc1_scratch1)) (hfl : LabOK d c i fl)
    (v1 : BitVec 32) (k : Fin k1_t3_loop.trips) (u : Unit) :
    inv₀ d c i ft fl k u ⊢ wp frame (wpE (defs₀ (F := F)) 𝒱₀ (thr d c i) none) Set.univ
      (k1_t3_body (coordsV c i) tV (Memref.isWhole_whole _) lV (Memref.isWhole_whole _) sV (Memref.isWhole_whole _) cV (Memref.isWhole_whole _)
            tS (Memref.isWhole_whole _) lS (Memref.isWhole_whole _) sS (Memref.isWhole_whole _) cS (Memref.isWhole_whole _)
            cc1_scoped0 cc1_scoped1 cc1_scoped2 cc1_scoped3 cc1_scoped4 cc1_scoped5 cc1_scoped6 v1 k1_pay149 k u) (inv₀ d c i ft fl (k.val + 1)) := by
  have hk : k.val < 32 := lt_of_lt_of_le k.isLt k1_t3_abs.2.1
  have h1 : k1_chk27 (idxG (ldL d c i fl (k1_off30 k) (k1_off30_inb k))) :=
    chk_full d c i fl hfl _ _ (by simp only [k1_off30_eq, Matrix.cons_val_zero]; omega)
  have h2 : k1_chk28 (idxG (ldL d c i fl (k1_off31 k) (k1_off31_inb k))) :=
    chk_full d c i fl hfl _ _ (by simp only [k1_off31_eq, Matrix.cons_val_zero]; omega)
  have h3 : k1_chk29 (idxG (ldL d c i fl (k1_off32 k) (k1_off32_inb k))) :=
    chk_full d c i fl hfl _ _ (by simp only [k1_off32_eq, Matrix.cons_val_zero]; omega)
  have h4 : k1_chk30 (idxG (ldL d c i fl (k1_off33 k) (k1_off33_inb k))) :=
    chk_full d c i fl hfl _ _ (by simp only [k1_off33_eq, Matrix.cons_val_zero]; omega)
  have h5 : k1_chk31 (idxG (ldL d c i fl (k1_off34 k) (k1_off34_inb k))) :=
    chk_full d c i fl hfl _ _ (by simp only [k1_off34_eq, Matrix.cons_val_zero]; omega)
  have h6 : k1_chk32 (idxG (ldL d c i fl (k1_off35 k) (k1_off35_inb k))) :=
    chk_full d c i fl hfl _ _ (by simp only [k1_off35_eq, Matrix.cons_val_zero]; omega)
  have h7 : k1_chk33 (idxG (ldL d c i fl (k1_off36 k) (k1_off36_inb k))) :=
    chk_full d c i fl hfl _ _ (by simp only [k1_off36_eq, Matrix.cons_val_zero]; omega)
  have h8 : k1_chk34 (idxG (ldL d c i fl (k1_off37 k) (k1_off37_inb k))) :=
    chk_full d c i fl hfl _ _ (by simp only [k1_off37_eq, Matrix.cons_val_zero]; omega)
  have h9 : k1_chk35 (idxG (ldL d c i fl (k1_off38 k) (k1_off38_inb k))) :=
    chk_full d c i fl hfl _ _ (by simp only [k1_off38_eq, Matrix.cons_val_zero]; omega)
  have h10 : k1_chk36 (idxG (ldL d c i fl (k1_off39 k) (k1_off39_inb k))) :=
    chk_full d c i fl hfl _ _ (by simp only [k1_off39_eq, Matrix.cons_val_zero]; omega)
  have h11 : k1_chk37 (idxG (ldL d c i fl (k1_off40 k) (k1_off40_inb k))) :=
    chk_full d c i fl hfl _ _ (by simp only [k1_off40_eq, Matrix.cons_val_zero]; omega)
  have h12 : k1_chk38 (idxG (ldL d c i fl (k1_off41 k) (k1_off41_inb k))) :=
    chk_full d c i fl hfl _ _ (by simp only [k1_off41_eq, Matrix.cons_val_zero]; omega)
  have h13 : k1_chk39 (idxL (ldL d c i fl (k1_off42 k) (k1_off42_inb k))) :=
    chk_last d c i fl hfl _ _ (by simp only [k1_off42_eq, Matrix.cons_val_zero]; omega)
  unfold inv₀
  iintro ⟨Ht, Hl, ⟨%fs, Hs⟩, ⟨%fc, Hc⟩⟩
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  sl_step
  isplitl [Ht]; · iexact Ht
  isplitl [Hl]; · iexact Hl
  isplitl [Hs]; · iexists _; iexact Hs
  iexists _; iexact Hc

/-- One trip of chunk 4's loop: thirteen loads of sixteen labels, each index vector in range, thirteen gathers, two stores. -/
theorem trip4₀ (ft : Buf (Elt F) ((thr d c i).loc cc1_scratch0)) (fl : Buf (Elt F) ((thr d c i).loc cc1_scratch1)) (hfl : LabOK d c i fl)
    (v1 : BitVec 32) (k : Fin k1_t4_loop.trips) (u : Unit) :
    inv₀ d c i ft fl k u ⊢ wp frame (wpE (defs₀ (F := F)) 𝒱₀ (thr d c i) none) Set.univ
      (k1_t4_body (coordsV c i) tV (Memref.isWhole_whole _) lV (Memref.isWhole_whole _) sV (Memref.isWhole_whole _) cV (Memref.isWhole_whole _)
            tS (Memref.isWhole_whole _) lS (Memref.isWhole_whole _) sS (Memref.isWhole_whole _) cS (Memref.isWhole_whole _)
            cc1_scoped0 cc1_scoped1 cc1_scoped2 cc1_scoped3 cc1_scoped4 cc1_scoped5 cc1_scoped6 v1 k1_pay149 k u) (inv₀ d c i ft fl (k.val + 1)) := by
  have hk : k.val < 32 := lt_of_lt_of_le k.isLt k1_t4_abs.2.1
  have h1 : k1_chk40 (idxG (ldL d c i fl (k1_off44 k) (k1_off44_inb k))) :=
    chk_full d c i fl hfl _ _ (by simp only [k1_off44_eq, Matrix.cons_val_zero]; omega)
  have h2 : k1_chk41 (idxG (ldL d c i fl (k1_off45 k) (k1_off45_inb k))) :=
    chk_full d c i fl hfl _ _ (by simp only [k1_off45_eq, Matrix.cons_val_zero]; omega)
  have h3 : k1_chk42 (idxG (ldL d c i fl (k1_off46 k) (k1_off46_inb k))) :=
    chk_full d c i fl hfl _ _ (by simp only [k1_off46_eq, Matrix.cons_val_zero]; omega)
  have h4 : k1_chk43 (idxG (ldL d c i fl (k1_off47 k) (k1_off47_inb k))) :=
    chk_full d c i fl hfl _ _ (by simp only [k1_off47_eq, Matrix.cons_val_zero]; omega)
  have h5 : k1_chk44 (idxG (ldL d c i fl (k1_off48 k) (k1_off48_inb k))) :=
    chk_full d c i fl hfl _ _ (by simp only [k1_off48_eq, Matrix.cons_val_zero]; omega)
  have h6 : k1_chk45 (idxG (ldL d c i fl (k1_off49 k) (k1_off49_inb k))) :=
    chk_full d c i fl hfl _ _ (by simp only [k1_off49_eq, Matrix.cons_val_zero]; omega)
  have h7 : k1_chk46 (idxG (ldL d c i fl (k1_off50 k) (k1_off50_inb k))) :=
    chk_full d c i fl hfl _ _ (by simp only [k1_off50_eq, Matrix.cons_val_zero]; omega)
  have h8 : k1_chk47 (idxG (ldL d c i fl (k1_off51 k) (k1_off51_inb k))) :=
    chk_full d c i fl hfl _ _ (by simp only [k1_off51_eq, Matrix.cons_val_zero]; omega)
  have h9 : k1_chk48 (idxG (ldL d c i fl (k1_off52 k) (k1_off52_inb k))) :=
    chk_full d c i fl hfl _ _ (by simp only [k1_off52_eq, Matrix.cons_val_zero]; omega)
  have h10 : k1_chk49 (idxG (ldL d c i fl (k1_off53 k) (k1_off53_inb k))) :=
    chk_full d c i fl hfl _ _ (by simp only [k1_off53_eq, Matrix.cons_val_zero]; omega)
  have h11 : k1_chk50 (idxG (ldL d c i fl (k1_off54 k) (k1_off54_inb k))) :=
    chk_full d c i fl hfl _ _ (by simp only [k1_off54_eq, Matrix.cons_val_zero]; omega)
  have h12 : k1_chk51 (idxG (ldL d c i fl (k1_off55 k) (k1_off55_inb k))) :=
    chk_full d c i fl hfl _ _ (by simp only [k1_off55_eq, Matrix.cons_val_zero]; omega)
  have h13 : k1_chk52 (idxL (ldL d c i fl (k1_off56 k) (k1_off56_inb k))) :=
    chk_last d c i fl hfl _ _ (by simp only [k1_off56_eq, Matrix.cons_val_zero]; omega)
  unfold inv₀
  iintro ⟨Ht, Hl, ⟨%fs, Hs⟩, ⟨%fc, Hc⟩⟩
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  sl_step
  isplitl [Ht]; · iexact Ht
  isplitl [Hl]; · iexact Hl
  isplitl [Hs]; · iexists _; iexact Hs
  iexists _; iexact Hc

end Tile
end Cert.Kernel.Hand.Pool
end
-- ==== Proof.PoolBody0B.lean ====
import proofs.«203204_g25512105739078_cont_8to1_1946_3_alg».proof.Proof.CommonB
import proofs.«203204_g25512105739078_cont_8to1_1946_3_alg».proof.Proof.PoolTripBB

noncomputable section

namespace Cert.Kernel.Hand.Pool

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Tactic

section Tile
variable (d : Dev nD) (c : Fin (grid1.bound 0)) (i : Fin (grid1.bound 1))

/-- The arrays as the tile's memrefs address them are the TensorCore's arrays. -/
theorem pts_t (q : PosShare TreeShare) (f : Buf (Elt F) (tLoc d)) :
    ((tV).view.loc (thr d c i) ↦{q} f : sProp 𝕄) = tLoc d ↦{q} f := by
  simp only [Memref.view_whole, View.set_whole]
theorem pts_l (q : PosShare TreeShare) (f : Buf (Elt F) (lLoc d)) :
    ((lV).view.loc (thr d c i) ↦{q} f : sProp 𝕄) = lLoc d ↦{q} f := by
  simp only [Memref.view_whole, View.set_whole]
theorem pts_os (f : Buf (Elt F) (sLoc d)) :
    ((outS c i).view.loc (thr d c i) ↦[(outS c i).view.set]{fullShare} f : sProp 𝕄) = sLoc d ↦[(outS c i).view.set]{fullShare} f := rfl
theorem pts_oc (f : Buf (Elt F) (cLoc d)) :
    ((outC c i).view.loc (thr d c i) ↦[(outC c i).view.set]{fullShare} f : sProp 𝕄) = cLoc d ↦[(outC c i).view.set]{fullShare} f := rfl
theorem pts_tS (f : Buf (Elt F) ((thr d c i).loc cc1_scratch0)) :
    ((tS).view.loc (thr d c i) ↦{fullShare} f : sProp 𝕄) = (thr d c i).loc cc1_scratch0 ↦{fullShare} f := rfl
theorem pts_lS (f : Buf (Elt F) ((thr d c i).loc cc1_scratch1)) :
    ((lS).view.loc (thr d c i) ↦{fullShare} f : sProp 𝕄) = (thr d c i).loc cc1_scratch1 ↦{fullShare} f := rfl
theorem pts_sS (f : Buf (Elt F) ((thr d c i).loc cc1_scratch2)) :
    ((sS).view.loc (thr d c i) ↦{fullShare} f : sProp 𝕄) = (thr d c i).loc cc1_scratch2 ↦{fullShare} f := rfl
theorem pts_cS (f : Buf (Elt F) ((thr d c i).loc cc1_scratch3)) :
    ((cS).view.loc (thr d c i) ↦{fullShare} f : sProp 𝕄) = (thr d c i).loc cc1_scratch3 ↦{fullShare} f := rfl

/-- A word read out of the flat labels through a chunk's slice of them is a label in range. -/
theorem read_lab_lt (labs : Buf (Elt F) (lLoc d)) (hlab : ∀ x, (labs x : BitVec 32).toNat < 100000)
    (off : Fin 1 → ℕ) (hin : ∀ a, off a + S6400.size a ≤ S819200.size a) (hr : ∀ a, (Rect.unit (s := S819200) off S6400.size hin).stride a = 1) (j : S6400.Idx) :
    (((lV).slice (Rect.unit (s := S819200) off S6400.size hin) hr).view.read (Elt F) labs j : BitVec 32).toNat < 100000 :=
  lt_of_eq_of_lt (congrArg BitVec.toNat ((View.read_apply _ _).trans (cast_eq _ _))) (hlab _)

variable [FloatOps F]

theorem tileBody₀ (qT qL : PosShare TreeShare) (tv : Buf (Elt F) (tLoc d)) (labs : Buf (Elt F) (lLoc d))
    (hlab : ∀ x, (labs x : BitVec 32).toNat < 100000) (O : CellTallies nD τ sig (HIx 1)) (W : Waits sig (HIx 1)) (hO : ∀ g, O g none = 0) :
    iprop(levAts (K (F := F)).L (K (F := F)).lev ∗ tileGo qT qL d tv labs c i
        ∗ scopedBufs (thr d c i) ∗ scopedSems0 (thr d c i) ∗ owes (thr d c i) O W)
      ⊢ wp frame (wpE (defs₀ (F := F)) 𝒱₀ (thr d c i) none) Set.univ
          (cc1__pool (coordsV c i) tV (Memref.isWhole_whole _) lV (Memref.isWhole_whole _) sV (Memref.isWhole_whole _) cV (Memref.isWhole_whole _)
            tS (Memref.isWhole_whole _) lS (Memref.isWhole_whole _) sS (Memref.isWhole_whole _) cS (Memref.isWhole_whole _)
            cc1_scoped0 cc1_scoped1 cc1_scoped2 cc1_scoped3 cc1_scoped4 cc1_scoped5 cc1_scoped6)
          fun _ => iprop(tileTd₀ qT qL d tv labs c i ∗ scopedBufs (thr d c i) ∗ scopedSems0 (thr d c i)
            ∗ ∃ W', ⌜∀ p ∈ W', p ∈ W ∨ p.2 = none⌝ ∗ owes (thr d c i) O W') := by
  simp only [cc1__pool_eq_skeleton]; unfold cc1__pool_skel
  rw [(K (F := F)).scopedBufs_V facts d _ _, SparseCore.Cfg.scopedSems0_V (Val := Elt F) d _ _, ownSems0_thr, ownBufs_thr]
  unfold tileGo tileTd₀
  iintro ⟨#Hlv, ⟨Ht, Hl, ⟨%fs0, Hs⟩, ⟨%fc0, Hc⟩⟩, ⟨⟨%ft0, Hts⟩, ⟨%fl0, Hls⟩, ⟨%fss0, Hss⟩, ⟨%fcs0, Hcs⟩, Hbufs⟩,
    ⟨Hsem0, Hsem1, Hsem2, Hsem3, Hsem4, Hsem5, Hsem6, Hsems⟩, HO⟩
  ihave Hmw := ((K (F := F)).mayWaits_none (thr := thr d c i) hO) $$ Hlv
  ihave Ht' := (Entails.of_eq (pts_t (F := F) d c i qT _).symm) $$ Ht
  ihave Hl' := (Entails.of_eq (pts_l (F := F) d c i qL _).symm) $$ Hl
  ihave Hs' := (Entails.of_eq (pts_os (F := F) d c i _).symm) $$ Hs
  ihave Hc' := (Entails.of_eq (pts_oc (F := F) d c i _).symm) $$ Hc
  ihave Hts' := (Entails.of_eq (pts_tS (F := F) d c i _).symm) $$ Hts
  ihave Hls' := (Entails.of_eq (pts_lS (F := F) d c i _).symm) $$ Hls
  ihave Hss' := (Entails.of_eq (pts_sS (F := F) d c i _).symm) $$ Hss
  ihave Hcs' := (Entails.of_eq (pts_cS (F := F) d c i _).symm) $$ Hcs
  sl_exec

  ihave Hta := (Entails.of_eq (pts_tS_acc (F := F) d c i _)) $$ Hts'

  have hfl1 : LabOK d c i ((lS).view.writes (Elt F) fl0 [⟨Rect.unit ![0] S6400.size inb_S6416_S6400_0, tileBody₀.sl.dma0_1 d c i labs⟩]) := by
    apply labOK_of_writes
    intro j
    unfold tileBody₀.sl.dma0_1
    exact read_lab_lt d labs hlab _ _ _ j
  sl_for (inv₀ d c i (View.write (Elt F) tS.view ft0 (tileBody₀.sl.dma0 d tv) Finset.univ)
      ((lS).view.writes (Elt F) fl0 [⟨Rect.unit ![0] S6400.size inb_S6416_S6400_0, tileBody₀.sl.dma0_1 d c i labs⟩])) $$ [Hta Hls' Hss' Hcs']
  case region =>
    intro k u
    exact trip1₀ d c i _ _ hfl1 k u
  · unfold inv₀
    isplitl [Hta]; · iexact Hta
    isplitl [Hls']; · iexact Hls'
    isplitl [Hss']; · iexists _; iexact Hss'
    iexists _; iexact Hcs'
  iintro %_ HI
  unfold inv₀
  icases HI with ⟨Hta, Hls', ⟨%fs1, Hss'⟩, ⟨%fc1, Hcs'⟩⟩
  sl_exec

  have hfl2 : LabOK d c i ((lS).view.writes (Elt F) fl0 [⟨Rect.unit ![0] S6400.size inb_S6416_S6400_0, tileBody₀.sl.dma0_2 d c i labs⟩, ⟨Rect.unit ![0] S6400.size inb_S6416_S6400_0, tileBody₀.sl.dma0_1 d c i labs⟩]) := by
    apply labOK_of_writes
    intro j
    unfold tileBody₀.sl.dma0_2
    exact read_lab_lt d labs hlab _ _ _ j
  sl_for (inv₀ d c i (View.write (Elt F) tS.view ft0 (tileBody₀.sl.dma0 d tv) Finset.univ)
      ((lS).view.writes (Elt F) fl0 [⟨Rect.unit ![0] S6400.size inb_S6416_S6400_0, tileBody₀.sl.dma0_2 d c i labs⟩, ⟨Rect.unit ![0] S6400.size inb_S6416_S6400_0, tileBody₀.sl.dma0_1 d c i labs⟩])) $$ [Hta Hls' Hss' Hcs']
  case region =>
    intro k u
    exact trip2₀ d c i _ _ hfl2 k u
  · unfold inv₀
    isplitl [Hta]; · iexact Hta
    isplitl [Hls']; · iexact Hls'
    isplitl [Hss']; · iexists _; iexact Hss'
    iexists _; iexact Hcs'
  iintro %_ HI
  unfold inv₀
  icases HI with ⟨Hta, Hls', ⟨%fs2, Hss'⟩, ⟨%fc2, Hcs'⟩⟩
  sl_exec

  have hfl3 : LabOK d c i ((lS).view.writes (Elt F) fl0 [⟨Rect.unit ![0] S6400.size inb_S6416_S6400_0, tileBody₀.sl.dma0_3 d c i labs⟩, ⟨Rect.unit ![0] S6400.size inb_S6416_S6400_0, tileBody₀.sl.dma0_2 d c i labs⟩, ⟨Rect.unit ![0] S6400.size inb_S6416_S6400_0, tileBody₀.sl.dma0_1 d c i labs⟩]) := by
    apply labOK_of_writes
    intro j
    unfold tileBody₀.sl.dma0_3
    exact read_lab_lt d labs hlab _ _ _ j
  sl_for (inv₀ d c i (View.write (Elt F) tS.view ft0 (tileBody₀.sl.dma0 d tv) Finset.univ)
      ((lS).view.writes (Elt F) fl0 [⟨Rect.unit ![0] S6400.size inb_S6416_S6400_0, tileBody₀.sl.dma0_3 d c i labs⟩, ⟨Rect.unit ![0] S6400.size inb_S6416_S6400_0, tileBody₀.sl.dma0_2 d c i labs⟩, ⟨Rect.unit ![0] S6400.size inb_S6416_S6400_0, tileBody₀.sl.dma0_1 d c i labs⟩])) $$ [Hta Hls' Hss' Hcs']
  case region =>
    intro k u
    exact trip3₀ d c i _ _ hfl3 _ k u
  · unfold inv₀
    isplitl [Hta]; · iexact Hta
    isplitl [Hls']; · iexact Hls'
    isplitl [Hss']; · iexists _; iexact Hss'
    iexists _; iexact Hcs'
  iintro %_ HI
  unfold inv₀
  icases HI with ⟨Hta, Hls', ⟨%fs3, Hss'⟩, ⟨%fc3, Hcs'⟩⟩
  sl_exec

  have hfl4 : LabOK d c i ((lS).view.writes (Elt F) fl0 [⟨Rect.unit ![0] S6400.size inb_S6416_S6400_0, tileBody₀.sl.dma0_4 d c i labs⟩, ⟨Rect.unit ![0] S6400.size inb_S6416_S6400_0, tileBody₀.sl.dma0_3 d c i labs⟩, ⟨Rect.unit ![0] S6400.size inb_S6416_S6400_0, tileBody₀.sl.dma0_2 d c i labs⟩, ⟨Rect.unit ![0] S6400.size inb_S6416_S6400_0, tileBody₀.sl.dma0_1 d c i labs⟩]) := by
    apply labOK_of_writes
    intro j
    unfold tileBody₀.sl.dma0_4
    exact read_lab_lt d labs hlab _ _ _ j
  sl_for (inv₀ d c i (View.write (Elt F) tS.view ft0 (tileBody₀.sl.dma0 d tv) Finset.univ)
      ((lS).view.writes (Elt F) fl0 [⟨Rect.unit ![0] S6400.size inb_S6416_S6400_0, tileBody₀.sl.dma0_4 d c i labs⟩, ⟨Rect.unit ![0] S6400.size inb_S6416_S6400_0, tileBody₀.sl.dma0_3 d c i labs⟩, ⟨Rect.unit ![0] S6400.size inb_S6416_S6400_0, tileBody₀.sl.dma0_2 d c i labs⟩, ⟨Rect.unit ![0] S6400.size inb_S6416_S6400_0, tileBody₀.sl.dma0_1 d c i labs⟩])) $$ [Hta Hls' Hss' Hcs']
  case region =>
    intro k u
    exact trip4₀ d c i _ _ hfl4 _ k u
  · unfold inv₀
    isplitl [Hta]; · iexact Hta
    isplitl [Hls']; · iexact Hls'
    isplitl [Hss']; · iexists _; iexact Hss'
    iexists _; iexact Hcs'
  iintro %_ HI
  unfold inv₀
  icases HI with ⟨Hta, Hls', ⟨%fs4, Hss'⟩, ⟨%fc4, Hcs'⟩⟩
  sl_exec

  ihave Ht := (Entails.of_eq (pts_t (F := F) d c i qT _)) $$ Ht'
  ihave Hl := (Entails.of_eq (pts_l (F := F) d c i qL _)) $$ Hl'
  sl_step
  isplitl [Ht Hl Hs' Hc']
  · isplitl [Ht]; · iexact Ht
    isplitl [Hl]; · iexact Hl
    isplitl [Hs']; · iexists _; iexact Hs'
    iexists _; iexact Hc'
  isplitl [Hta Hls' Hss' Hcs' Hbufs]
  · isplitl [Hta]; · iexists _; iexact Hta
    isplitl [Hls']; · iexists _; iexact Hls'
    isplitl [Hss']; · iexists _; iexact Hss'
    isplitl [Hcs']; · iexists _; iexact Hcs'
    iexact Hbufs
  isplitl [Hsem0 Hsem1 Hsem2 Hsem3 Hsem4 Hsem5 Hsem6 Hsems]
  · isplitl [Hsem0]; · iexact Hsem0
    isplitl [Hsem1]; · iexact Hsem1
    isplitl [Hsem2]; · iexact Hsem2
    isplitl [Hsem3]; · iexact Hsem3
    isplitl [Hsem4]; · iexact Hsem4
    isplitl [Hsem5]; · iexact Hsem5
    isplitl [Hsem6]; · iexact Hsem6
    iexact Hsems
  iexists _; isplitr
  swap
  · iexact HO
  · ipureintro
    intro p hp
    simp only [Finset.mem_insert] at hp
    rcases hp with rfl | rfl | rfl | rfl | rfl | rfl | rfl | hp
    · exact .inr rfl
    · exact .inr rfl
    · exact .inr rfl
    · exact .inr rfl
    · exact .inr rfl
    · exact .inr rfl
    · exact .inr rfl
    · exact .inl hp

end Tile
end Cert.Kernel.Hand.Pool
end
-- ==== Proof.RefRun.lean ====
/-
  The reference program as a straight line: @main of the reference is a sequence of StableHLO
  operations (the two outlined helpers, the clamped row lookup and its select, unfolded at their call
  sites over the call's own buffers). This module lists the operations in order and proves @main equal
  to their sequence; the fold of the operations and the run are read in the next module.
-/
import proofs.«203204_g25512105739078_cont_8to1_1946_3_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The operations, in order -/

/-- @main's 71 operations, in order: five for the mask, the 23 of the row lookup (one of them the
    select of the wrapped index), then the 43 of the pooling, the dense layer and the softmax. -/
abbrev ops : List (HloOp τ sig (Elt F)) :=
  [
    nullary main_c (constantI S_ 32 0#32),
    unary main_c main_v0 (broadcastInDim S4096x200 ![] bcast_S_S4096x200 : (⟨S_, .i32⟩ : BufTy).Contents (Elt F) → (⟨S4096x200, .i32⟩ : BufTy).Contents (Elt F)),
    binary main_arg0 main_v0 main_v1 (cmpi .sgt : (⟨S4096x200, .i32⟩ : BufTy).Contents (Elt F) → (⟨S4096x200, .i32⟩ : BufTy).Contents (Elt F) → (⟨S4096x200, .i1⟩ : BufTy).Contents (Elt F)),
    unary main_v1 main_v2 (uitofp .f32 : (⟨S4096x200, .i1⟩ : BufTy).Contents (Elt F) → (⟨S4096x200, .f32⟩ : BufTy).Contents (Elt F)),
    unary main_v2 main_v3 (broadcastInDim S4096x200x1 ![0, 1] bcast_S4096x200_S4096x200x1_0_1 : (⟨S4096x200, .f32⟩ : BufTy).Contents (Elt F) → (⟨S4096x200x1, .f32⟩ : BufTy).Contents (Elt F)),
    TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S100000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select,
    unary main_v3 main_v5 (broadcastInDim S4096x200x64 ![0, 1, 2] bcast_S4096x200x1_S4096x200x64_0_1_2 : (⟨S4096x200x1, .f32⟩ : BufTy).Contents (Elt F) → (⟨S4096x200x64, .f32⟩ : BufTy).Contents (Elt F)),
    binary main_v4 main_v5 main_v6 (mulf : (⟨S4096x200x64, .f32⟩ : BufTy).Contents (Elt F) → (⟨S4096x200x64, .f32⟩ : BufTy).Contents (Elt F) → (⟨S4096x200x64, .f32⟩ : BufTy).Contents (Elt F)),
    nullary main_cst (constant S_ .f32 0x00000000#32),
    binary main_v6 main_cst main_v7 ((fun x v => Host.reduceAdd x v reducesTo_S4096x200x64_S4096x64_d1 h_S_) : (⟨S4096x200x64, .f32⟩ : BufTy).Contents (Elt F) → (⟨S_, .f32⟩ : BufTy).Contents (Elt F) → (⟨S4096x64, .f32⟩ : BufTy).Contents (Elt F)),
    nullary main_cst_0 (constant S_ .f32 0x00000000#32),
    binary main_v3 main_cst_0 main_v8 ((fun x v => Host.reduceAdd x v reducesTo_S4096x200x1_S4096x1_d1 h_S_) : (⟨S4096x200x1, .f32⟩ : BufTy).Contents (Elt F) → (⟨S_, .f32⟩ : BufTy).Contents (Elt F) → (⟨S4096x1, .f32⟩ : BufTy).Contents (Elt F)),
    nullary main_cst_1 (constant S_ .f32 0x358637BD#32),
    unary main_cst_1 main_v9 (broadcastInDim S4096x1 ![] bcast_S_S4096x1 : (⟨S_, .f32⟩ : BufTy).Contents (Elt F) → (⟨S4096x1, .f32⟩ : BufTy).Contents (Elt F)),
    binary main_v9 main_v8 main_v10 (addf : (⟨S4096x1, .f32⟩ : BufTy).Contents (Elt F) → (⟨S4096x1, .f32⟩ : BufTy).Contents (Elt F) → (⟨S4096x1, .f32⟩ : BufTy).Contents (Elt F)),
    unary main_v10 main_v11 (broadcastInDim S4096x64 ![0, 1] bcast_S4096x1_S4096x64_0_1 : (⟨S4096x1, .f32⟩ : BufTy).Contents (Elt F) → (⟨S4096x64, .f32⟩ : BufTy).Contents (Elt F)),
    binary main_v7 main_v11 main_v12 (Host.divf : (⟨S4096x64, .f32⟩ : BufTy).Contents (Elt F) → (⟨S4096x64, .f32⟩ : BufTy).Contents (Elt F) → (⟨S4096x64, .f32⟩ : BufTy).Contents (Elt F)),
    binary main_v12 main_arg2 main_v13 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_arg3 main_v14 (broadcastInDim S1x1 ![1] bcast_S1_S1x1_1 : (⟨S1, .f32⟩ : BufTy).Contents (Elt F) → (⟨S1x1, .f32⟩ : BufTy).Contents (Elt F)),
    unary main_v14 main_v15 (broadcastInDim S4096x1 ![0, 1] bcast_S1x1_S4096x1_0_1 : (⟨S1x1, .f32⟩ : BufTy).Contents (Elt F) → (⟨S4096x1, .f32⟩ : BufTy).Contents (Elt F)),
    binary main_v13 main_v15 main_v16 (addf : (⟨S4096x1, .f32⟩ : BufTy).Contents (Elt F) → (⟨S4096x1, .f32⟩ : BufTy).Contents (Elt F) → (⟨S4096x1, .f32⟩ : BufTy).Contents (Elt F)),
    nullary main_c_2 (constantI S_ 32 0#32),
    unary main_c_2 main_v17 (broadcastInDim S4096x200 ![] bcast_S_S4096x200 : (⟨S_, .i32⟩ : BufTy).Contents (Elt F) → (⟨S4096x200, .i32⟩ : BufTy).Contents (Elt F)),
    binary main_arg0 main_v17 main_v18 (cmpi .sgt : (⟨S4096x200, .i32⟩ : BufTy).Contents (Elt F) → (⟨S4096x200, .i32⟩ : BufTy).Contents (Elt F) → (⟨S4096x200, .i1⟩ : BufTy).Contents (Elt F)),
    unary main_v18 main_v19 (uitofp .f32 : (⟨S4096x200, .i1⟩ : BufTy).Contents (Elt F) → (⟨S4096x200, .f32⟩ : BufTy).Contents (Elt F)),
    unary main_v16 main_v20 (broadcastInDim S4096x200 ![0, 1] bcast_S4096x1_S4096x200_0_1 : (⟨S4096x1, .f32⟩ : BufTy).Contents (Elt F) → (⟨S4096x200, .f32⟩ : BufTy).Contents (Elt F)),
    binary main_v20 main_v19 main_v21 (mulf : (⟨S4096x200, .f32⟩ : BufTy).Contents (Elt F) → (⟨S4096x200, .f32⟩ : BufTy).Contents (Elt F) → (⟨S4096x200, .f32⟩ : BufTy).Contents (Elt F)),
    nullary main_cst_3 (constant S_ .f32 0x3F800000#32),
    unary main_cst_3 main_v22 (broadcastInDim S4096x200 ![] bcast_S_S4096x200 : (⟨S_, .f32⟩ : BufTy).Contents (Elt F) → (⟨S4096x200, .f32⟩ : BufTy).Contents (Elt F)),
    binary main_v22 main_v19 main_v23 (subf : (⟨S4096x200, .f32⟩ : BufTy).Contents (Elt F) → (⟨S4096x200, .f32⟩ : BufTy).Contents (Elt F) → (⟨S4096x200, .f32⟩ : BufTy).Contents (Elt F)),
    nullary main_cst_4 (constant S_ .f32 0xC9742400#32),
    unary main_cst_4 main_v24 (broadcastInDim S4096x200 ![] bcast_S_S4096x200 : (⟨S_, .f32⟩ : BufTy).Contents (Elt F) → (⟨S4096x200, .f32⟩ : BufTy).Contents (Elt F)),
    binary main_v23 main_v24 main_v25 (mulf : (⟨S4096x200, .f32⟩ : BufTy).Contents (Elt F) → (⟨S4096x200, .f32⟩ : BufTy).Contents (Elt F) → (⟨S4096x200, .f32⟩ : BufTy).Contents (Elt F)),
    binary main_v21 main_v25 main_v26 (addf : (⟨S4096x200, .f32⟩ : BufTy).Contents (Elt F) → (⟨S4096x200, .f32⟩ : BufTy).Contents (Elt F) → (⟨S4096x200, .f32⟩ : BufTy).Contents (Elt F)),
    reshape main_v26 main_v27 rfl shapeCasts_S4096x200_S819200,
    nullary main_cst_5 (constant S_ .f32 0xFF800000#32),
    binary main_v27 main_cst_5 main_v28 ((fun x v => Host.reduce FloatOps.maximumf x v reducesTo_S819200_S_d0 h_S_) : (⟨S819200, .f32⟩ : BufTy).Contents (Elt F) → (⟨S_, .f32⟩ : BufTy).Contents (Elt F) → (⟨S_, .f32⟩ : BufTy).Contents (Elt F)),
    nullary main_cst_6 (constant S_ .f32 0xFF800000#32),
    binary main_cst_6 main_v28 main_v29 (maximumf : (⟨S_, .f32⟩ : BufTy).Contents (Elt F) → (⟨S_, .f32⟩ : BufTy).Contents (Elt F) → (⟨S_, .f32⟩ : BufTy).Contents (Elt F)),
    unary main_v29 main_v30 (broadcastInDim S1 ![] bcast_S_S1 : (⟨S_, .f32⟩ : BufTy).Contents (Elt F) → (⟨S1, .f32⟩ : BufTy).Contents (Elt F)),
    unary main_v30 main_v31 (broadcastInDim S819200 ![0] bcast_S1_S819200_0 : (⟨S1, .f32⟩ : BufTy).Contents (Elt F) → (⟨S819200, .f32⟩ : BufTy).Contents (Elt F)),
    binary main_v27 main_v31 main_v32 (subf : (⟨S819200, .f32⟩ : BufTy).Contents (Elt F) → (⟨S819200, .f32⟩ : BufTy).Contents (Elt F) → (⟨S819200, .f32⟩ : BufTy).Contents (Elt F)),
    unary main_v32 main_v33 (Host.exp : (⟨S819200, .f32⟩ : BufTy).Contents (Elt F) → (⟨S819200, .f32⟩ : BufTy).Contents (Elt F)),
    nullary main_cst_7 (constant S_ .f32 0x00000000#32),
    binary main_v33 main_cst_7 main_v34 ((fun x v => Host.reduceAdd x v reducesTo_S819200_S_d0 h_S_) : (⟨S819200, .f32⟩ : BufTy).Contents (Elt F) → (⟨S_, .f32⟩ : BufTy).Contents (Elt F) → (⟨S_, .f32⟩ : BufTy).Contents (Elt F)),
    unary main_v34 main_v35 (broadcastInDim S1 ![] bcast_S_S1 : (⟨S_, .f32⟩ : BufTy).Contents (Elt F) → (⟨S1, .f32⟩ : BufTy).Contents (Elt F)),
    unary main_v35 main_v36 (broadcastInDim S819200 ![0] bcast_S1_S819200_0 : (⟨S1, .f32⟩ : BufTy).Contents (Elt F) → (⟨S819200, .f32⟩ : BufTy).Contents (Elt F)),
    binary main_v33 main_v36 main_v37 (Host.divf : (⟨S819200, .f32⟩ : BufTy).Contents (Elt F) → (⟨S819200, .f32⟩ : BufTy).Contents (Elt F) → (⟨S819200, .f32⟩ : BufTy).Contents (Elt F)),
    reshape main_v37 main_v38 rfl shapeCasts_S819200_S4096x200 ]

-- seventy-one binds re-associated: the rewrite under the chain recurses once per statement
set_option maxRecDepth 2048 in
set_option maxHeartbeats 2000000 in
/-- @main is that straight line: the helpers' bodies unfolded at their calls, both sides are one chain
    of steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., unary_bufs_sub .., binary_bufs_sub ..,
    nullary_bufs_sub .., binary_bufs_sub .., nullary_bufs_sub .., binary_bufs_sub .., nullary_bufs_sub .., unary_bufs_sub ..,
    binary_bufs_sub .., unary_bufs_sub .., binary_bufs_sub .., binary_bufs_sub .., unary_bufs_sub .., unary_bufs_sub ..,
    binary_bufs_sub .., nullary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., binary_bufs_sub .., reshape_bufs_sub .., nullary_bufs_sub .., binary_bufs_sub .., nullary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., reshape_bufs_sub ..⟩

end Cert.ReferenceIdeal.RefValue

end
-- ==== Proof.RefStages.lean ====
/-
  The reference's result as ONE pure term of its four arguments, `outF`, built stage by stage: the
  positivity mask of the labels; the wrapped and bounds-checked row lookup; the masked sum over the 200
  positions, the count and the mean; the product with the weight column plus the bias; the masked logits;
  and the softmax over all 819200 flattened entries. Each stage is a function of the arrays it reads, so
  that it can be read at an index on its own; `outF` composes them.
-/
import proofs.«203204_g25512105739078_cont_8to1_1946_3_alg».proof.Proof.Gen.ReferenceIdeal
import Idealize.ShloMosaic.PureOps.Ideal

noncomputable section

namespace Cert.ReferenceIdeal.RefValue

open Cert.ReferenceIdeal Cert.ReferenceIdeal.Gen Idealize.ShloMosaic

variable {F : FTy → Type} [FloatOps F]

/-! ## The stages -/

/-- The labels' positivity mask as a float: one where the label is positive (as a signed word), zero elsewhere. -/
def maskF (a0 : IVec S4096x200 32) : FVec F S4096x200 .f32 :=
  uitofp .f32 (cmpi .sgt a0 (broadcastInDim S4096x200 ![] bcast_S_S4096x200 (constantI S_ 32 0#32)))

/-- The mask with a trailing unit axis. -/
def mask3 (a0 : IVec S4096x200 32) : FVec F S4096x200x1 .f32 :=
  broadcastInDim S4096x200x1 ![0, 1] bcast_S4096x200_S4096x200x1_0_1 (maskF a0)

/-- The lookup's row index: a negative label wrapped once by the table's height, any other label itself. -/
def takeIdx (a0 : IVec S4096x200 32) : IVec S4096x200 32 :=
  select (cmpi .slt a0 (broadcastInDim S4096x200 ![] bcast_S_S4096x200 (constantI S_ 32 0#32)))
    (addi a0 (broadcastInDim S4096x200 ![] bcast_S_S4096x200 (constantI S_ 32 100000#32))) a0

/-- The row index with a trailing unit axis: the lookup's start indices. -/
def takeIdx3 (a0 : IVec S4096x200 32) : IVec S4096x200x1 32 :=
  broadcastInDim S4096x200x1 ![0, 1] bcast_S4096x200_S4096x200x1_0_1 (takeIdx a0)

/-- Whether the row index names a row of the table: it lies in [0, 99999] as a signed word. -/
def takeOk (a0 : IVec S4096x200 32) : IVec S4096x200 1 :=
  Host.reduce IntOp.andi
    (andi (cmpi .sge (takeIdx3 a0) (broadcastInDim S4096x200x1 ![] bcast_S_S4096x200x1 (constantI S_ 32 0#32)))
      (cmpi .sle (takeIdx3 a0) (broadcastInDim S4096x200x1 ![0, 1, 2] bcast_S1x1x1_S4096x200x1_0_1_2
        (broadcastInDim S1x1x1 ![2] bcast_S1_S1x1x1_2 (constantI S1 32 99999#32)))))
    (constantI S_ 1 1#1) reducesTo_S4096x200x1_S4096x200_d2 h_S_

/-- The looked-up rows: row `takeIdx` of the table where that index names a row, the fill value elsewhere. -/
def taken (a0 : IVec S4096x200 32) (a1 : FVec F S100000x64 .f32) : FVec F S4096x200x64 .f32 :=
  select (broadcastInDim S4096x200x64 ![0, 1] bcast_S4096x200_S4096x200x64_0_1 (takeOk a0))
    (Host.gather gather_S100000x64_S4096x200x1_S4096x200x64_2_0_n_n_0_2_164 a1 (takeIdx3 a0))
    (broadcastInDim S4096x200x64 ![] bcast_S_S4096x200x64 (constant S_ .f32 0x7FC00000#32))

/-- Per batch row and feature, the sum over the 200 positions of the looked-up rows times the mask. -/
def pooledSumOf (m3 : FVec F S4096x200x1 .f32) (tk : FVec F S4096x200x64 .f32) : FVec F S4096x64 .f32 :=
  Host.reduceAdd
    (mulf tk (broadcastInDim S4096x200x64 ![0, 1, 2] bcast_S4096x200x1_S4096x200x64_0_1_2 m3))
    (constant S_ .f32 0x00000000#32) reducesTo_S4096x200x64_S4096x64_d1 h_S_

/-- Per batch row, the sum of the mask over the 200 positions: the number of positive labels. -/
def cntOf (m3 : FVec F S4096x200x1 .f32) : FVec F S4096x1 .f32 :=
  Host.reduceAdd m3 (constant S_ .f32 0x00000000#32) reducesTo_S4096x200x1_S4096x1_d1 h_S_

/-- The masked mean: the sum divided by the small constant plus the count. -/
def pooledOf (m3 : FVec F S4096x200x1 .f32) (tk : FVec F S4096x200x64 .f32) : FVec F S4096x64 .f32 :=
  Host.divf (pooledSumOf m3 tk)
    (broadcastInDim S4096x64 ![0, 1] bcast_S4096x1_S4096x64_0_1
      (addf (broadcastInDim S4096x1 ![] bcast_S_S4096x1 (constant S_ .f32 0x358637BD#32)) (cntOf m3)))

/-- The dense layer: the mean's product with the weight column, plus the bias. -/
def logitOf (p : FVec F S4096x64 .f32) (a2 : FVec F S64x1 .f32) (a3 : FVec F S1 .f32) : FVec F S4096x1 .f32 :=
  addf (Host.dotGeneral dot_S4096x64_S64x1_S4096x1_1_0_0_1_n_n none p a2)
    (broadcastInDim S4096x1 ![0, 1] bcast_S1x1_S4096x1_0_1 (broadcastInDim S1x1 ![1] bcast_S1_S1x1_1 a3))

/-- The masked logits: the row's logit times the mask, plus one minus the mask times the large negative constant. -/
def maskedOf (a0 : IVec S4096x200 32) (lg : FVec F S4096x1 .f32) : FVec F S4096x200 .f32 :=
  addf
    (mulf (broadcastInDim S4096x200 ![0, 1] bcast_S4096x1_S4096x200_0_1 lg) (maskF a0))
    (mulf (subf (broadcastInDim S4096x200 ![] bcast_S_S4096x200 (constant S_ .f32 0x3F800000#32)) (maskF a0))
      (broadcastInDim S4096x200 ![] bcast_S_S4096x200 (constant S_ .f32 0xC9742400#32)))

/-- An array as one vector of 819200 entries, in row-major order. -/
def flatOf (x : FVec F S4096x200 .f32) : FVec F S819200 .f32 :=
  shapeCast S819200 x shapeCasts_S4096x200_S819200

/-- The largest of all the entries (and of minus infinity). -/
def mxOf (x : FVec F S4096x200 .f32) : FVec F S_ .f32 :=
  maximumf (constant S_ .f32 0xFF800000#32)
    (Host.reduce FloatOps.maximumf (flatOf x) (constant S_ .f32 0xFF800000#32) reducesTo_S819200_S_d0 h_S_)

/-- The exponentials of the entries less the largest. -/
def exOf (x : FVec F S4096x200 .f32) : FVec F S819200 .f32 :=
  Host.exp (subf (flatOf x)
    (broadcastInDim S819200 ![0] bcast_S1_S819200_0 (broadcastInDim S1 ![] bcast_S_S1 (mxOf x))))

/-- The sum of all the exponentials. -/
def smOf (x : FVec F S4096x200 .f32) : FVec F S_ .f32 :=
  Host.reduceAdd (exOf x) (constant S_ .f32 0x00000000#32) reducesTo_S819200_S_d0 h_S_

/-- The softmax over all the entries: each exponential divided by the sum, back in the array's shape. -/
def tailF (x : FVec F S4096x200 .f32) : FVec F S4096x200 .f32 :=
  shapeCast S4096x200
    (Host.divf (exOf x)
      (broadcastInDim S819200 ![0] bcast_S1_S819200_0 (broadcastInDim S1 ![] bcast_S_S1 (smOf x))))
    shapeCasts_S819200_S4096x200

/-- The result as a pure term of the four arguments: the stages composed. -/
def outF (a0 : IVec S4096x200 32) (a1 : FVec F S100000x64 .f32) (a2 : FVec F S64x1 .f32) (a3 : FVec F S1 .f32) : FVec F S4096x200 .f32 :=
  tailF (maskedOf a0 (logitOf (pooledOf (mask3 a0) (taken a0 a1)) a2 a3))

/-- The reference's result as a pure term of its four arguments, floats read as extended reals. -/
def refOut (a0 : IVec S4096x200 32) (a1 : FVec Ideal S100000x64 .f32) (a2 : FVec Ideal S64x1 .f32)
    (a3 : FVec Ideal S1 .f32) : FVec Ideal S4096x200 .f32 :=
  outF a0 a1 a2 a3

end Cert.ReferenceIdeal.RefValue

end
-- ==== Proof.RefOut.lean ====
/-
  The reference's run. The fold of @main's operations over the launch contents is read in six consecutive
  segments, one per stage of `outF`: each segment's result buffer holds that stage's function of the
  buffers the segment reads, each buffer a segment does not write keeps its contents, and so the result
  buffer ends at `outF` of the arguments' launch contents, the arguments unchanged.
-/
import proofs.«203204_g25512105739078_cont_8to1_1946_3_alg».proof.Proof.RefRun
import proofs.«203204_g25512105739078_cont_8to1_1946_3_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The operations in six segments -/

abbrev seg1 : List (HloOp τ sig (Elt F)) :=
  [
    nullary main_c (constantI S_ 32 0#32),
    unary main_c main_v0 (broadcastInDim S4096x200 ![] bcast_S_S4096x200 : (⟨S_, .i32⟩ : BufTy).Contents (Elt F) → (⟨S4096x200, .i32⟩ : BufTy).Contents (Elt F)),
    binary main_arg0 main_v0 main_v1 (cmpi .sgt : (⟨S4096x200, .i32⟩ : BufTy).Contents (Elt F) → (⟨S4096x200, .i32⟩ : BufTy).Contents (Elt F) → (⟨S4096x200, .i1⟩ : BufTy).Contents (Elt F)),
    unary main_v1 main_v2 (uitofp .f32 : (⟨S4096x200, .i1⟩ : BufTy).Contents (Elt F) → (⟨S4096x200, .f32⟩ : BufTy).Contents (Elt F)),
    unary main_v2 main_v3 (broadcastInDim S4096x200x1 ![0, 1] bcast_S4096x200_S4096x200x1_0_1 : (⟨S4096x200, .f32⟩ : BufTy).Contents (Elt F) → (⟨S4096x200x1, .f32⟩ : BufTy).Contents (Elt F)) ]

abbrev seg2 : List (HloOp τ sig (Elt F)) :=
  [
    TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S100000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select ]

abbrev seg3 : List (HloOp τ sig (Elt F)) :=
  [
    unary main_v3 main_v5 (broadcastInDim S4096x200x64 ![0, 1, 2] bcast_S4096x200x1_S4096x200x64_0_1_2 : (⟨S4096x200x1, .f32⟩ : BufTy).Contents (Elt F) → (⟨S4096x200x64, .f32⟩ : BufTy).Contents (Elt F)),
    binary main_v4 main_v5 main_v6 (mulf : (⟨S4096x200x64, .f32⟩ : BufTy).Contents (Elt F) → (⟨S4096x200x64, .f32⟩ : BufTy).Contents (Elt F) → (⟨S4096x200x64, .f32⟩ : BufTy).Contents (Elt F)),
    nullary main_cst (constant S_ .f32 0x00000000#32),
    binary main_v6 main_cst main_v7 ((fun x v => Host.reduceAdd x v reducesTo_S4096x200x64_S4096x64_d1 h_S_) : (⟨S4096x200x64, .f32⟩ : BufTy).Contents (Elt F) → (⟨S_, .f32⟩ : BufTy).Contents (Elt F) → (⟨S4096x64, .f32⟩ : BufTy).Contents (Elt F)),
    nullary main_cst_0 (constant S_ .f32 0x00000000#32),
    binary main_v3 main_cst_0 main_v8 ((fun x v => Host.reduceAdd x v reducesTo_S4096x200x1_S4096x1_d1 h_S_) : (⟨S4096x200x1, .f32⟩ : BufTy).Contents (Elt F) → (⟨S_, .f32⟩ : BufTy).Contents (Elt F) → (⟨S4096x1, .f32⟩ : BufTy).Contents (Elt F)),
    nullary main_cst_1 (constant S_ .f32 0x358637BD#32),
    unary main_cst_1 main_v9 (broadcastInDim S4096x1 ![] bcast_S_S4096x1 : (⟨S_, .f32⟩ : BufTy).Contents (Elt F) → (⟨S4096x1, .f32⟩ : BufTy).Contents (Elt F)),
    binary main_v9 main_v8 main_v10 (addf : (⟨S4096x1, .f32⟩ : BufTy).Contents (Elt F) → (⟨S4096x1, .f32⟩ : BufTy).Contents (Elt F) → (⟨S4096x1, .f32⟩ : BufTy).Contents (Elt F)),
    unary main_v10 main_v11 (broadcastInDim S4096x64 ![0, 1] bcast_S4096x1_S4096x64_0_1 : (⟨S4096x1, .f32⟩ : BufTy).Contents (Elt F) → (⟨S4096x64, .f32⟩ : BufTy).Contents (Elt F)),
    binary main_v7 main_v11 main_v12 (Host.divf : (⟨S4096x64, .f32⟩ : BufTy).Contents (Elt F) → (⟨S4096x64, .f32⟩ : BufTy).Contents (Elt F) → (⟨S4096x64, .f32⟩ : BufTy).Contents (Elt F)) ]

abbrev seg4 : List (HloOp τ sig (Elt F)) :=
  [
    binary main_v12 main_arg2 main_v13 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_arg3 main_v14 (broadcastInDim S1x1 ![1] bcast_S1_S1x1_1 : (⟨S1, .f32⟩ : BufTy).Contents (Elt F) → (⟨S1x1, .f32⟩ : BufTy).Contents (Elt F)),
    unary main_v14 main_v15 (broadcastInDim S4096x1 ![0, 1] bcast_S1x1_S4096x1_0_1 : (⟨S1x1, .f32⟩ : BufTy).Contents (Elt F) → (⟨S4096x1, .f32⟩ : BufTy).Contents (Elt F)),
    binary main_v13 main_v15 main_v16 (addf : (⟨S4096x1, .f32⟩ : BufTy).Contents (Elt F) → (⟨S4096x1, .f32⟩ : BufTy).Contents (Elt F) → (⟨S4096x1, .f32⟩ : BufTy).Contents (Elt F)) ]

abbrev seg5 : List (HloOp τ sig (Elt F)) :=
  [
    nullary main_c_2 (constantI S_ 32 0#32),
    unary main_c_2 main_v17 (broadcastInDim S4096x200 ![] bcast_S_S4096x200 : (⟨S_, .i32⟩ : BufTy).Contents (Elt F) → (⟨S4096x200, .i32⟩ : BufTy).Contents (Elt F)),
    binary main_arg0 main_v17 main_v18 (cmpi .sgt : (⟨S4096x200, .i32⟩ : BufTy).Contents (Elt F) → (⟨S4096x200, .i32⟩ : BufTy).Contents (Elt F) → (⟨S4096x200, .i1⟩ : BufTy).Contents (Elt F)),
    unary main_v18 main_v19 (uitofp .f32 : (⟨S4096x200, .i1⟩ : BufTy).Contents (Elt F) → (⟨S4096x200, .f32⟩ : BufTy).Contents (Elt F)),
    unary main_v16 main_v20 (broadcastInDim S4096x200 ![0, 1] bcast_S4096x1_S4096x200_0_1 : (⟨S4096x1, .f32⟩ : BufTy).Contents (Elt F) → (⟨S4096x200, .f32⟩ : BufTy).Contents (Elt F)),
    binary main_v20 main_v19 main_v21 (mulf : (⟨S4096x200, .f32⟩ : BufTy).Contents (Elt F) → (⟨S4096x200, .f32⟩ : BufTy).Contents (Elt F) → (⟨S4096x200, .f32⟩ : BufTy).Contents (Elt F)),
    nullary main_cst_3 (constant S_ .f32 0x3F800000#32),
    unary main_cst_3 main_v22 (broadcastInDim S4096x200 ![] bcast_S_S4096x200 : (⟨S_, .f32⟩ : BufTy).Contents (Elt F) → (⟨S4096x200, .f32⟩ : BufTy).Contents (Elt F)),
    binary main_v22 main_v19 main_v23 (subf : (⟨S4096x200, .f32⟩ : BufTy).Contents (Elt F) → (⟨S4096x200, .f32⟩ : BufTy).Contents (Elt F) → (⟨S4096x200, .f32⟩ : BufTy).Contents (Elt F)),
    nullary main_cst_4 (constant S_ .f32 0xC9742400#32),
    unary main_cst_4 main_v24 (broadcastInDim S4096x200 ![] bcast_S_S4096x200 : (⟨S_, .f32⟩ : BufTy).Contents (Elt F) → (⟨S4096x200, .f32⟩ : BufTy).Contents (Elt F)),
    binary main_v23 main_v24 main_v25 (mulf : (⟨S4096x200, .f32⟩ : BufTy).Contents (Elt F) → (⟨S4096x200, .f32⟩ : BufTy).Contents (Elt F) → (⟨S4096x200, .f32⟩ : BufTy).Contents (Elt F)),
    binary main_v21 main_v25 main_v26 (addf : (⟨S4096x200, .f32⟩ : BufTy).Contents (Elt F) → (⟨S4096x200, .f32⟩ : BufTy).Contents (Elt F) → (⟨S4096x200, .f32⟩ : BufTy).Contents (Elt F)) ]

abbrev seg6 : List (HloOp τ sig (Elt F)) :=
  [
    reshape main_v26 main_v27 rfl shapeCasts_S4096x200_S819200,
    nullary main_cst_5 (constant S_ .f32 0xFF800000#32),
    binary main_v27 main_cst_5 main_v28 ((fun x v => Host.reduce FloatOps.maximumf x v reducesTo_S819200_S_d0 h_S_) : (⟨S819200, .f32⟩ : BufTy).Contents (Elt F) → (⟨S_, .f32⟩ : BufTy).Contents (Elt F) → (⟨S_, .f32⟩ : BufTy).Contents (Elt F)),
    nullary main_cst_6 (constant S_ .f32 0xFF800000#32),
    binary main_cst_6 main_v28 main_v29 (maximumf : (⟨S_, .f32⟩ : BufTy).Contents (Elt F) → (⟨S_, .f32⟩ : BufTy).Contents (Elt F) → (⟨S_, .f32⟩ : BufTy).Contents (Elt F)),
    unary main_v29 main_v30 (broadcastInDim S1 ![] bcast_S_S1 : (⟨S_, .f32⟩ : BufTy).Contents (Elt F) → (⟨S1, .f32⟩ : BufTy).Contents (Elt F)),
    unary main_v30 main_v31 (broadcastInDim S819200 ![0] bcast_S1_S819200_0 : (⟨S1, .f32⟩ : BufTy).Contents (Elt F) → (⟨S819200, .f32⟩ : BufTy).Contents (Elt F)),
    binary main_v27 main_v31 main_v32 (subf : (⟨S819200, .f32⟩ : BufTy).Contents (Elt F) → (⟨S819200, .f32⟩ : BufTy).Contents (Elt F) → (⟨S819200, .f32⟩ : BufTy).Contents (Elt F)),
    unary main_v32 main_v33 (Host.exp : (⟨S819200, .f32⟩ : BufTy).Contents (Elt F) → (⟨S819200, .f32⟩ : BufTy).Contents (Elt F)),
    nullary main_cst_7 (constant S_ .f32 0x00000000#32),
    binary main_v33 main_cst_7 main_v34 ((fun x v => Host.reduceAdd x v reducesTo_S819200_S_d0 h_S_) : (⟨S819200, .f32⟩ : BufTy).Contents (Elt F) → (⟨S_, .f32⟩ : BufTy).Contents (Elt F) → (⟨S_, .f32⟩ : BufTy).Contents (Elt F)),
    unary main_v34 main_v35 (broadcastInDim S1 ![] bcast_S_S1 : (⟨S_, .f32⟩ : BufTy).Contents (Elt F) → (⟨S1, .f32⟩ : BufTy).Contents (Elt F)),
    unary main_v35 main_v36 (broadcastInDim S819200 ![0] bcast_S1_S819200_0 : (⟨S1, .f32⟩ : BufTy).Contents (Elt F) → (⟨S819200, .f32⟩ : BufTy).Contents (Elt F)),
    binary main_v33 main_v36 main_v37 (Host.divf : (⟨S819200, .f32⟩ : BufTy).Contents (Elt F) → (⟨S819200, .f32⟩ : BufTy).Contents (Elt F) → (⟨S819200, .f32⟩ : BufTy).Contents (Elt F)),
    reshape main_v37 main_v38 rfl shapeCasts_S819200_S4096x200 ]

set_option maxRecDepth 8192 in
/-- The fold over the whole line is the folds over the six segments, one after the other. -/
theorem after_ops (V : Valuation τ sig (Elt F)) :
    after ops V = after seg6 (after seg5 (after seg4 (after seg3 (after seg2 (after seg1 V))))) := by
  simp only [after_cons, after_nil]

/-! ## Each segment: its result, and the buffers it passes over -/

theorem seg1_v3 (W : Valuation τ sig (Elt F)) : after seg1 W (main_v3 : DevRef τ sig) = mask3 (W (main_arg0 : DevRef τ sig)) := by
  after_results_simp
  rfl
theorem seg1_pass (W : Valuation τ sig (Elt F)) :
    after seg1 W (main_arg0 : DevRef τ sig) = W (main_arg0 : DevRef τ sig) ∧ after seg1 W (main_arg1 : DevRef τ sig) = W (main_arg1 : DevRef τ sig)
    ∧ after seg1 W (main_arg2 : DevRef τ sig) = W (main_arg2 : DevRef τ sig) ∧ after seg1 W (main_arg3 : DevRef τ sig) = W (main_arg3 : DevRef τ sig) := by
  refine ⟨?_, ?_, ?_, ?_⟩ <;> after_results_simp

/-- The row lookup's operations over the call's buffers named directly. -/
abbrev seg2p : List (HloOp τ sig (Elt F)) :=
  [
    nullary main_call0_c (constantI S_ 32 0#32),
    unary main_call0_c main_call0_v0 (broadcastInDim S4096x200 ![] bcast_S_S4096x200),
    binary main_arg0 main_call0_v0 main_call0_v1 (cmpi .slt),
    nullary main_call0_c_0 (constantI S_ 32 100000#32),
    unary main_call0_c_0 main_call0_v2 (broadcastInDim S4096x200 ![] bcast_S_S4096x200),
    binary main_arg0 main_call0_v2 main_call0_v3 addi,
    ternary main_call0_v1 main_call0_v3 main_arg0 main_call0_v4 select,
    unary main_call0_v4 main_call0_v5 (broadcastInDim S4096x200x1 ![0, 1] bcast_S4096x200_S4096x200x1_0_1),
    nullary main_call0_c_1 (constantI S1 32 99999#32),
    nullary main_call0_c_2 (constantI S_ 32 0#32),
    unary main_call0_c_2 main_call0_v6 (broadcastInDim S4096x200x1 ![] bcast_S_S4096x200x1),
    binary main_call0_v5 main_call0_v6 main_call0_v7 (cmpi .sge),
    unary main_call0_c_1 main_call0_v8 (broadcastInDim S1x1x1 ![2] bcast_S1_S1x1x1_2),
    unary main_call0_v8 main_call0_v9 (broadcastInDim S4096x200x1 ![0, 1, 2] bcast_S1x1x1_S4096x200x1_0_1_2),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S4096x200x1_S4096x200_d2 h_S_),
    binary main_arg1 main_call0_v5 main_call0_v13 (fun x i => Host.gather gather_S100000x64_S4096x200x1_S4096x200x64_2_0_n_n_0_2_164 x i),
    unary main_call0_v12 main_call0_v14 (broadcastInDim S4096x200x64 ![0, 1] bcast_S4096x200_S4096x200x64_0_1),
    nullary main_call0_cst (constant S_ .f32 0x7FC00000#32),
    unary main_call0_cst main_call0_v15 (broadcastInDim S4096x200x64 ![] bcast_S_S4096x200x64),
    ternary main_call0_v14 main_call0_v13 main_call0_v15 main_v4 select ]

/-- The typed references of the lookup's reduction are literal buffers: their transports are the identity. -/
theorem toBuf_v12 (v : (⟨S4096x200, .i1⟩ : BufTy).Contents (Elt F)) : (main_call0.v12).toBuf (Val := Elt F) v = v := rfl
theorem ofBuf_v11 (v : (⟨S4096x200x1, .i1⟩ : BufTy).Contents (Elt F)) : (main_call0.v11).ofBuf (Val := Elt F) v = v := rfl
theorem ofBuf_c_3 (v : (⟨S_, .i1⟩ : BufTy).Contents (Elt F)) : (main_call0.c_3).ofBuf (Val := Elt F) v = v := rfl

set_option maxRecDepth 8192 in
/-- The lookup's operations as the program spells them (over the call's record of typed references) are the
    same operations over the buffers named directly: the typed references' transports are the identity. -/
theorem seg2_eq : (seg2 : List (HloOp τ sig (Elt F))) = seg2p := by
  have e0 : (TRef.nullary main_call0.c (constantI S_ 32 0#32) : HloOp τ sig (Elt F)) = nullary main_call0_c (constantI S_ 32 0#32) := rfl
  have e1 : (TRef.unary main_call0.c main_call0.v0 (broadcastInDim S4096x200 ![] bcast_S_S4096x200) : HloOp τ sig (Elt F)) = unary main_call0_c main_call0_v0 (broadcastInDim S4096x200 ![] bcast_S_S4096x200) := rfl
  have e2 : (TRef.binary (.of main_arg0) main_call0.v0 main_call0.v1 (cmpi .slt) : HloOp τ sig (Elt F)) = binary main_arg0 main_call0_v0 main_call0_v1 (cmpi .slt) := rfl
  have e3 : (TRef.nullary main_call0.c_0 (constantI S_ 32 100000#32) : HloOp τ sig (Elt F)) = nullary main_call0_c_0 (constantI S_ 32 100000#32) := rfl
  have e4 : (TRef.unary main_call0.c_0 main_call0.v2 (broadcastInDim S4096x200 ![] bcast_S_S4096x200) : HloOp τ sig (Elt F)) = unary main_call0_c_0 main_call0_v2 (broadcastInDim S4096x200 ![] bcast_S_S4096x200) := rfl
  have e5 : (TRef.binary (.of main_arg0) main_call0.v2 main_call0.v3 addi : HloOp τ sig (Elt F)) = binary main_arg0 main_call0_v2 main_call0_v3 addi := rfl
  have e6 : (TRef.ternary main_call0.v1 main_call0.v3 (.of main_arg0) main_call0.call0.v0 select : HloOp τ sig (Elt F)) = ternary main_call0_v1 main_call0_v3 main_arg0 main_call0_v4 select := rfl
  have e7 : (TRef.unary main_call0.call0.v0 main_call0.v5 (broadcastInDim S4096x200x1 ![0, 1] bcast_S4096x200_S4096x200x1_0_1) : HloOp τ sig (Elt F)) = unary main_call0_v4 main_call0_v5 (broadcastInDim S4096x200x1 ![0, 1] bcast_S4096x200_S4096x200x1_0_1) := rfl
  have e8 : (TRef.nullary main_call0.c_1 (constantI S1 32 99999#32) : HloOp τ sig (Elt F)) = nullary main_call0_c_1 (constantI S1 32 99999#32) := rfl
  have e9 : (TRef.nullary main_call0.c_2 (constantI S_ 32 0#32) : HloOp τ sig (Elt F)) = nullary main_call0_c_2 (constantI S_ 32 0#32) := rfl
  have e10 : (TRef.unary main_call0.c_2 main_call0.v6 (broadcastInDim S4096x200x1 ![] bcast_S_S4096x200x1) : HloOp τ sig (Elt F)) = unary main_call0_c_2 main_call0_v6 (broadcastInDim S4096x200x1 ![] bcast_S_S4096x200x1) := rfl
  have e11 : (TRef.binary main_call0.v5 main_call0.v6 main_call0.v7 (cmpi .sge) : HloOp τ sig (Elt F)) = binary main_call0_v5 main_call0_v6 main_call0_v7 (cmpi .sge) := rfl
  have e12 : (TRef.unary main_call0.c_1 main_call0.v8 (broadcastInDim S1x1x1 ![2] bcast_S1_S1x1x1_2) : HloOp τ sig (Elt F)) = unary main_call0_c_1 main_call0_v8 (broadcastInDim S1x1x1 ![2] bcast_S1_S1x1x1_2) := rfl
  have e13 : (TRef.unary main_call0.v8 main_call0.v9 (broadcastInDim S4096x200x1 ![0, 1, 2] bcast_S1x1x1_S4096x200x1_0_1_2) : HloOp τ sig (Elt F)) = unary main_call0_v8 main_call0_v9 (broadcastInDim S4096x200x1 ![0, 1, 2] bcast_S1x1x1_S4096x200x1_0_1_2) := rfl
  have e14 : (TRef.binary main_call0.v5 main_call0.v9 main_call0.v10 (cmpi .sle) : HloOp τ sig (Elt F)) = binary main_call0_v5 main_call0_v9 main_call0_v10 (cmpi .sle) := rfl
  have e15 : (TRef.binary main_call0.v7 main_call0.v10 main_call0.v11 andi : HloOp τ sig (Elt F)) = binary main_call0_v7 main_call0_v10 main_call0_v11 andi := rfl
  have e16 : (TRef.nullary main_call0.c_3 (constantI S_ 1 1#1) : HloOp τ sig (Elt F)) = nullary main_call0_c_3 (constantI S_ 1 1#1) := rfl
  have e17 : (TRef.binary main_call0.v11 main_call0.c_3 main_call0.v12 (fun x v => Host.reduce IntOp.andi x v reducesTo_S4096x200x1_S4096x200_d2 h_S_) : HloOp τ sig (Elt F)) = binary main_call0_v11 main_call0_c_3 main_call0_v12 (fun x v => Host.reduce IntOp.andi x v reducesTo_S4096x200x1_S4096x200_d2 h_S_) := by
    have hf : (fun (u : main_call0_v11.ty.Contents (Elt F)) (v : main_call0_c_3.ty.Contents (Elt F)) =>
          (main_call0.v12).toBuf (Val := Elt F)
            (Host.reduce IntOp.andi ((main_call0.v11).ofBuf (Val := Elt F) u) ((main_call0.c_3).ofBuf (Val := Elt F) v)
              reducesTo_S4096x200x1_S4096x200_d2 h_S_))
        = (fun x v => Host.reduce IntOp.andi x v reducesTo_S4096x200x1_S4096x200_d2 h_S_) := by
      funext u v
      rw [toBuf_v12, ofBuf_v11, ofBuf_c_3]
    exact congrArg (fun g => binary main_call0_v11 main_call0_c_3 main_call0_v12 g) hf
  have e18 : (TRef.binary (.of main_arg1) main_call0.v5 main_call0.v13 (fun x i => Host.gather gather_S100000x64_S4096x200x1_S4096x200x64_2_0_n_n_0_2_164 x i) : HloOp τ sig (Elt F)) = binary main_arg1 main_call0_v5 main_call0_v13 (fun x i => Host.gather gather_S100000x64_S4096x200x1_S4096x200x64_2_0_n_n_0_2_164 x i) := rfl
  have e19 : (TRef.unary main_call0.v12 main_call0.v14 (broadcastInDim S4096x200x64 ![0, 1] bcast_S4096x200_S4096x200x64_0_1) : HloOp τ sig (Elt F)) = unary main_call0_v12 main_call0_v14 (broadcastInDim S4096x200x64 ![0, 1] bcast_S4096x200_S4096x200x64_0_1) := rfl
  have e20 : (TRef.nullary main_call0.cst (constant S_ .f32 0x7FC00000#32) : HloOp τ sig (Elt F)) = nullary main_call0_cst (constant S_ .f32 0x7FC00000#32) := rfl
  have e21 : (TRef.unary main_call0.cst main_call0.v15 (broadcastInDim S4096x200x64 ![] bcast_S_S4096x200x64) : HloOp τ sig (Elt F)) = unary main_call0_cst main_call0_v15 (broadcastInDim S4096x200x64 ![] bcast_S_S4096x200x64) := rfl
  have e22 : (TRef.ternary main_call0.v14 main_call0.v13 main_call0.v15 main_call0.v16 select : HloOp τ sig (Elt F)) = ternary main_call0_v14 main_call0_v13 main_call0_v15 main_v4 select := rfl
  show ([
    TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S100000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select ] : List (HloOp τ sig (Elt F))) = _
  rw [e0, e1, e2, e3, e4, e5, e6, e7, e8, e9, e10, e11, e12, e13, e14, e15, e16, e17, e18, e19, e20, e21, e22]

set_option maxRecDepth 8192 in
theorem seg2p_v4 (W : Valuation τ sig (Elt F)) : after seg2p W (main_v4 : DevRef τ sig) = taken (W (main_arg0 : DevRef τ sig)) (W (main_arg1 : DevRef τ sig)) := by
  after_results_simp
  rfl
set_option maxRecDepth 4096 in
theorem seg2p_pass (W : Valuation τ sig (Elt F)) :
    after seg2p W (main_v3 : DevRef τ sig) = W (main_v3 : DevRef τ sig) ∧ after seg2p W (main_arg0 : DevRef τ sig) = W (main_arg0 : DevRef τ sig)
    ∧ after seg2p W (main_arg2 : DevRef τ sig) = W (main_arg2 : DevRef τ sig) ∧ after seg2p W (main_arg3 : DevRef τ sig) = W (main_arg3 : DevRef τ sig) := by
  refine ⟨?_, ?_, ?_, ?_⟩ <;> after_results_simp

theorem seg3_v12 (W : Valuation τ sig (Elt F)) : after seg3 W (main_v12 : DevRef τ sig) = pooledOf (W (main_v3 : DevRef τ sig)) (W (main_v4 : DevRef τ sig)) := by
  after_results_simp
  rfl
theorem seg3_pass (W : Valuation τ sig (Elt F)) :
    after seg3 W (main_arg0 : DevRef τ sig) = W (main_arg0 : DevRef τ sig)
    ∧ after seg3 W (main_arg2 : DevRef τ sig) = W (main_arg2 : DevRef τ sig) ∧ after seg3 W (main_arg3 : DevRef τ sig) = W (main_arg3 : DevRef τ sig) := by
  refine ⟨?_, ?_, ?_⟩ <;> after_results_simp

theorem seg4_v16 (W : Valuation τ sig (Elt F)) :
    after seg4 W (main_v16 : DevRef τ sig) = logitOf (W (main_v12 : DevRef τ sig)) (W (main_arg2 : DevRef τ sig)) (W (main_arg3 : DevRef τ sig)) := by
  after_results_simp
  rfl
theorem seg4_pass (W : Valuation τ sig (Elt F)) : after seg4 W (main_arg0 : DevRef τ sig) = W (main_arg0 : DevRef τ sig) := by
  after_results_simp

theorem seg5_v26 (W : Valuation τ sig (Elt F)) : after seg5 W (main_v26 : DevRef τ sig) = maskedOf (W (main_arg0 : DevRef τ sig)) (W (main_v16 : DevRef τ sig)) := by
  after_results_simp
  rfl

theorem seg6_v38 (W : Valuation τ sig (Elt F)) : after seg6 W (main_v38 : DevRef τ sig) = tailF (W (main_v26 : DevRef τ sig)) := by
  after_results_simp
  rfl

/-! ## The fold at the result and at the arguments -/

/-- The fold of the operations at the result buffer is `outF` of the launch contents. -/
theorem out_eq (V : Valuation τ sig (Elt F)) :
    after ops V (main_v38 : DevRef τ sig)
      = outF (V (main_arg0 : DevRef τ sig)) (V (main_arg1 : DevRef τ sig)) (V (main_arg2 : DevRef τ sig)) (V (main_arg3 : DevRef τ sig)) := by
  rw [after_ops, seg6_v38, seg5_v26, seg4_v16, seg4_pass, seg3_v12, (seg3_pass _).1, (seg3_pass _).2.1, (seg3_pass _).2.2,
    seg2_eq, (seg2p_pass _).1, seg2p_v4, (seg2p_pass _).2.1, (seg2p_pass _).2.2.1, (seg2p_pass _).2.2.2,
    seg1_v3, (seg1_pass _).1, (seg1_pass _).2.1, (seg1_pass _).2.2.1, (seg1_pass _).2.2.2]
  rfl

set_option maxRecDepth 8192 in
set_option maxHeartbeats 1600000 in
theorem arg0_eq (V : Valuation τ sig (Elt F)) :
    after ops V (main_arg0 : DevRef τ sig) = V (main_arg0 : DevRef τ sig) := by after_results_simp
set_option maxRecDepth 8192 in
set_option maxHeartbeats 1600000 in
theorem arg1_eq (V : Valuation τ sig (Elt F)) :
    after ops V (main_arg1 : DevRef τ sig) = V (main_arg1 : DevRef τ sig) := by after_results_simp
set_option maxRecDepth 8192 in
set_option maxHeartbeats 1600000 in
theorem arg2_eq (V : Valuation τ sig (Elt F)) :
    after ops V (main_arg2 : DevRef τ sig) = V (main_arg2 : DevRef τ sig) := by after_results_simp
set_option maxRecDepth 8192 in
set_option maxHeartbeats 1600000 in
theorem arg3_eq (V : Valuation τ sig (Elt F)) :
    after ops V (main_arg3 : DevRef τ sig) = V (main_arg3 : DevRef τ sig) := by after_results_simp

/-! ## The run -/

/-- On every device, for any float values, from any memory with zero counters: every weakly fair execution of
    @main terminates with the result buffer at `outF` of the arguments' launch contents and the arguments
    unchanged. -/
theorem runF (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
          = outF (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v38).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

/-! ## At the extended reals -/

/-- The reference's run at the extended reals: it ends with its result at `refOut` of the launch contents of
    its arguments, and the arguments unchanged. -/
theorem run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
          r.2.mem ((c.tc : Thread Cert.ReferenceIdeal.nD Cert.ReferenceIdeal.τ).loc Cert.ReferenceIdeal.main_v38)
            = refOut (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  runF m g

end Cert.ReferenceIdeal.RefValue

end
-- ==== Proof.PreDecode.lean ====
/-
  The precondition decoded. The input-domain predicate is a conjunction of four `all`s folded by `and`:
  the three float arrays are finite entry by entry, and every label lies in [0, 99999] as a signed word.
  Its being one everywhere therefore gives each conjunct at every index: the label range (which no float
  value enters, so it holds at every float instance) and, at the extended reals, that every float entry is a
  real number.
-/
import proofs.«203204_g25512105739078_cont_8to1_1946_3_alg».proof.Pre_input_domain
import Idealize.ShloMosaic.Lib.ReduceAll
import Idealize.ShloMosaic.Lib.ValueIdx
import Idealize.ShloMosaic.PureOps.Ideal

noncomputable section

namespace Cert.Pre_input_domain.Decode

open Cert.Pre_input_domain Idealize.ShloMosaic

variable [Cert.Pre_input_domain.Facts]

/-- The scalar shape has one index. -/
local instance : Subsingleton S_.Idx := ⟨fun a b => funext fun d => d.elim0⟩

/-- Where the predicate holds every label lies in [0, 99999] as a signed word, at any float instance. -/
theorem labels_range {F : FTy → Type} [FloatOps F] (a0 : IVec S4096x200 32) (a1 : FVec F S100000x64 .f32)
    (a2 : FVec F S64x1 .f32) (a3 : FVec F S1 .f32)
    (h : Cert.Pre_input_domain.fn (F := F) a0 a1 a2 a3 = fun _ => 1#1) :
    ∀ i, 0 ≤ (a0 i).toInt ∧ (a0 i).toInt ≤ 99999 := by
  have h0 := congrFun h ValueIdx.ix0
  dsimp only [fn, fn_part1] at h0
  change IntOp.andi _ _ = 1#1 at h0
  have h19 := (IntOp.andi_eq_one.1 h0).2
  intro i
  have hi := Host.reduce_andi_all _ _ _ _ _ h19 i
  change IntOp.andi (IntOp.cmpi .sge (a0 i) 0#32) (IntOp.cmpi .sle (a0 i) 99999#32) = 1#1 at hi
  obtain ⟨hge, hle⟩ := IntOp.andi_eq_one.1 hi
  have h1 := IntOp.cmpi_sge.1 hge
  have h2 := IntOp.cmpi_sle.1 hle
  rw [show (0#32 : BitVec 32).toInt = 0 from by decide] at h1
  rw [show (99999#32 : BitVec 32).toInt = 99999 from by decide] at h2
  exact ⟨h1, h2⟩

/-- So every label, read unsigned, names a row of the table. -/
theorem labels_lt {F : FTy → Type} [FloatOps F] (a0 : IVec S4096x200 32) (a1 : FVec F S100000x64 .f32)
    (a2 : FVec F S64x1 .f32) (a3 : FVec F S1 .f32)
    (h : Cert.Pre_input_domain.fn (F := F) a0 a1 a2 a3 = fun _ => 1#1) :
    ∀ i, (a0 i).toNat < 100000 := by
  intro i
  obtain ⟨h0, h1⟩ := labels_range a0 a1 a2 a3 h i
  have hlt := (a0 i).isLt
  rw [BitVec.toInt_eq_toNat_cond] at h0 h1
  split_ifs at h0 h1 <;> omega

/-- An extended real whose absolute value is below the word of +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    change BitVec.ofBool (decide (max x (-x) < ⊤)) = 1#1 at h
    cases hd : decide (max x (-x) < ⊤) with
    | true => exact of_decide_eq_true hd
    | false => rw [hd] at h; exact absurd h (by decide)
  induction x using EReal.rec with
  | bot => exact absurd hlt (by simp)
  | top => exact absurd hlt (by simp)
  | coe r => exact ⟨r, rfl⟩

/-- Where the predicate holds at the exact reals, every entry of the three float arguments is a real number. -/
theorem floats_real (a0 : IVec S4096x200 32) (a1 : FVec Ideal S100000x64 .f32)
    (a2 : FVec Ideal S64x1 .f32) (a3 : FVec Ideal S1 .f32)
    (h : Cert.Pre_input_domain.fn (F := Ideal) a0 a1 a2 a3 = fun _ => 1#1) :
    (∀ i, ∃ r : ℝ, a1 i = (r : EReal)) ∧ (∀ i, ∃ r : ℝ, a2 i = (r : EReal)) ∧ (∀ i, ∃ r : ℝ, a3 i = (r : EReal)) := by
  have h0 := congrFun h ValueIdx.ix0
  dsimp only [fn, fn_part1] at h0
  change IntOp.andi (IntOp.andi (IntOp.andi _ _) _) _ = 1#1 at h0
  obtain ⟨h13, -⟩ := IntOp.andi_eq_one.1 h0
  obtain ⟨h8, h12⟩ := IntOp.andi_eq_one.1 h13
  obtain ⟨h3, h7⟩ := IntOp.andi_eq_one.1 h8
  refine ⟨fun i => ?_, fun i => ?_, fun i => ?_⟩
  · have hi := Host.reduce_andi_all _ _ _ _ _ h3 i
    change Ideal.cmp .olt (max (a1 i) (-(a1 i))) (Ideal.ofBits .f32 0x7F800000#32) = 1#1 at hi
    exact real_of_abs_lt (a1 i) hi
  · have hi := Host.reduce_andi_all _ _ _ _ _ h7 i
    change Ideal.cmp .olt (max (a2 i) (-(a2 i))) (Ideal.ofBits .f32 0x7F800000#32) = 1#1 at hi
    exact real_of_abs_lt (a2 i) hi
  · have hi := Host.reduce_andi_all _ _ _ _ _ h12 i
    change Ideal.cmp .olt (max (a3 i) (-(a3 i))) (Ideal.ofBits .f32 0x7F800000#32) = 1#1 at hi
    exact real_of_abs_lt (a3 i) hi

end Cert.Pre_input_domain.Decode

end
-- ==== Proof.LaunchPayV.lean ====
/-
  The SparseCore call's handshakes with the results named: a tile hands back its slices of the two result
  arrays at the pooled sums and counts of the table and labels it was handed, so a SparseCore's done carries
  its sixteen tiles' slices at those contents.
-/
import proofs.«203204_g25512105739078_cont_8to1_1946_3_alg».proof.Proof.LaunchPay

noncomputable section

namespace Cert.KernelIdeal.Hand

open Cert.KernelIdeal Cert.KernelIdeal.Gen Cert.KernelIdeal.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.Transfers (shareTok shareDrop shareTokN pointsTo_toks)

variable {F : FTy → Type}

local notation "𝕄" => MT nD τ sig (HIx 1) (Elt F) ℕ UU ℕ

variable [FloatOps F]

section Payload

variable (tv : (d : Dev nD) → Buf (Elt F) (tLoc d)) (labs : (d : Dev nD) → Buf (Elt F) (lLoc d))

/-- What tile `(c, i)` hands back, indexed by numbers. -/
def tdN (d : Dev nD) (c i : ℕ) : sProp 𝕄 :=
  if h : c < 2 ∧ i < 16 then tileTd (qTile ⟨c, h.1⟩ ⟨i, h.2⟩) (qTile ⟨c, h.1⟩ ⟨i, h.2⟩) d (tv d) (labs d) ⟨c, h.1⟩ ⟨i, h.2⟩ else iprop(emp)

/-- What SparseCore `c` hands back. -/
def dnN (d : Dev nD) (c : ℕ) : sProp 𝕄 :=
  if h : c < 2 then iprop((tLoc d ↦{qRest ⟨c, h⟩} tv d) ∗ (lLoc d ↦{qRest ⟨c, h⟩} labs d) ∗ bigSep Finset.univ fun i : Fin 16 => tdN tv labs d c i.val)
  else iprop(emp)

theorem tdN_eq (d : Dev nD) (c : Fin 2) (i : Fin 16) :
    tdN tv labs d c.val i.val = tileTd (qTile c i) (qTile c i) d (tv d) (labs d) c i := dif_pos ⟨c.isLt, i.isLt⟩
theorem dnN_eq (d : Dev nD) (c : Fin 2) :
    dnN tv labs d c.val = iprop((tLoc d ↦{qRest c} tv d) ∗ (lLoc d ↦{qRest c} labs d) ∗ bigSep Finset.univ fun i : Fin 16 => tdN tv labs d c.val i.val) :=
  dif_pos c.isLt

instance tdN_storable (d : Dev nD) (c i : ℕ) : BI.Storable (upEmb : UEmb _ 𝕄) (tdN tv labs d c i) := by
  unfold tdN tileTd; split <;> infer_instance
instance dnN_storable (d : Dev nD) (c : ℕ) : BI.Storable (upEmb : UEmb _ 𝕄) (dnN tv labs d c) := by
  unfold dnN; split <;> infer_instance

/-- The call's payloads, the results named. -/
def P₁ : (K (F := F)).Pay (nD := nD) (Val := Elt F) (Name := ℕ) (U := UU) where
  st := fun _ d c => stN tv labs d c.val
  dn := fun _ d c => dnN tv labs d c.val
  go := fun _ d c i => goN tv labs d c.val i.val
  td := fun _ d c i => tdN tv labs d c.val i.val
  x := fun _ _ => iprop(emp)

instance P₁_storable : (P₁ (F := F) tv labs).IsStorable where
  st _ d c := by unfold P₁; infer_instance
  dn _ d c := by unfold P₁; infer_instance
  go _ _ _ _ := by unfold P₁; infer_instance
  td _ _ _ _ := by unfold P₁; infer_instance

/-- A SparseCore's operands are its tiles' and a remainder; its results are the tiles' and the same remainder. -/
theorem vecSplit₁ : (K (F := F)).VecSplit' (P₁ tv labs) 0 := by
  intro d c
  show stN tv labs d c.val ⊢ |={Set.univ}=> iprop((bigSep Finset.univ fun i : Fin 16 => goN tv labs d c.val i.val)
      ∗ ((bigSep Finset.univ fun i : Fin 16 => tdN tv labs d c.val i.val) -∗ dnN tv labs d c.val))
  rw [stN_eq tv labs d c, dnN_eq tv labs d c]
  iintro ⟨Ht, Hl, Hgo⟩
  imodintro
  isplitl [Hgo]; · iexact Hgo
  iintro Htd
  isplitl [Ht]; · iexact Ht
  isplitl [Hl]; · iexact Hl
  iexact Htd

end Payload

end Cert.KernelIdeal.Hand

end
-- ==== Proof.LaunchTileV.lean ====
/-
  The launch theorem's obligation for the call with the results named, from the tile's task with its results
  named.
-/
import proofs.«203204_g25512105739078_cont_8to1_1946_3_alg».proof.Proof.LaunchPayV
import proofs.«203204_g25512105739078_cont_8to1_1946_3_alg».proof.Proof.LaunchTile

noncomputable section

namespace Cert.KernelIdeal.Hand

open Cert.KernelIdeal Cert.KernelIdeal.Gen Cert.KernelIdeal.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type}

local notation "𝕄" => MT nD τ sig (HIx 1) (Elt F) ℕ UU ℕ

variable [FloatOps F]

/-- The statement of the tile's task, its results named. -/
def TileBody₁ : Prop :=
  ∀ (qT qL : PosShare TreeShare) (d : Dev nD) (tv : Buf (Elt F) (tLoc d)) (labs : Buf (Elt F) (lLoc d)) (_ : ∀ x, (labs x).toNat < 100000)
    (c : Fin (grid1.bound 0)) (i : Fin (grid1.bound 1)) (O : CellTallies nD τ sig (HIx 1)) (W : Waits sig (HIx 1)) (_ : ∀ g, O g none = 0),
    iprop(levAts (K (F := F)).L (K (F := F)).lev ∗ tileGo qT qL d tv labs c i ∗ scopedBufs (tileThr d c i) ∗ scopedSems0 (tileThr d c i) ∗ owes (tileThr d c i) O W)
      ⊢ wp frame (wpE (defs₀ (F := F)) 𝒱₀ (tileThr d c i) none) Set.univ
          (cc1__pool (coordsV c i) tV (Memref.isWhole_whole _) lV (Memref.isWhole_whole _) sV (Memref.isWhole_whole _) cV (Memref.isWhole_whole _) tS (Memref.isWhole_whole _) lS (Memref.isWhole_whole _) sS (Memref.isWhole_whole _) cS (Memref.isWhole_whole _) cc1_scoped0 cc1_scoped1 cc1_scoped2 cc1_scoped3 cc1_scoped4 cc1_scoped5 cc1_scoped6)
          fun _ => (iprop(tileTd qT qL d tv labs c i ∗ scopedBufs (tileThr d c i) ∗ scopedSems0 (tileThr d c i)
            ∗ ∃ W', ⌜∀ p ∈ W', p ∈ W ∨ p.2 = none⌝ ∗ owes (tileThr d c i) O W') : sProp 𝕄)

variable (tv : (d : Dev nD) → Buf (Elt F) (tLoc d)) (labs : (d : Dev nD) → Buf (Elt F) (lLoc d))

theorem tileObl₁ (hbody : TileBody₁ (F := F)) (hlab : ∀ d x, (labs d x).toNat < 100000) :
    (K (F := F)).TileObl (D (F := F)) 𝒱 (P₁ tv labs) v₀ 0 := by
  intro d c i O W hO _ _
  simp only [show (P₁ tv labs).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 := c.isLt
  have hi : ((K (F := F)).sub 0 i).val < grid1.bound 1 := i.isLt
  rw [defs₀_vector]; simp only [SparseCore.onTile, hc, hi, and_self, ↓reduceDIte]
  have e := goN_eq tv labs d ⟨((K (F := F)).core 0 c).val, hc⟩ ⟨((K (F := F)).sub 0 i).val, hi⟩
  have e' := tdN_eq tv labs d ⟨((K (F := F)).core 0 c).val, hc⟩ ⟨((K (F := F)).sub 0 i).val, hi⟩
  have hb := hbody (qTile ⟨((K (F := F)).core 0 c).val, hc⟩ ⟨((K (F := F)).sub 0 i).val, hi⟩) (qTile ⟨((K (F := F)).core 0 c).val, hc⟩ ⟨((K (F := F)).sub 0 i).val, hi⟩)
    d (tv d) (labs d) (hlab d) ⟨((K (F := F)).core 0 c).val, hc⟩ ⟨((K (F := F)).sub 0 i).val, hi⟩ O W hO
  refine BI.Entails.trans ?_ (hb.trans (wp_mono frame _ _ fun _ => ?_))
  · show iprop(_ ∗ _ ∗ goN tv labs d ((K (F := F)).core 0 c).val ((K (F := F)).sub 0 i).val ∗ _) ⊢ _
    rw [e]
    iintro ⟨Hlv, -, Hgo, Hsb, Hss, HO⟩
    isplitl [Hlv]; · iexact Hlv
    isplitl [Hgo]; · iexact Hgo
    isplitl [Hsb]; · iexact Hsb
    isplitl [Hss]; · iexact Hss
    iexact HO
  · show _ ⊢ iprop(tdN tv labs d ((K (F := F)).core 0 c).val ((K (F := F)).sub 0 i).val ∗ _)
    rw [e']
    exact obl_post (q := 0)

end Cert.KernelIdeal.Hand

end
-- ==== Proof.LaunchCallV.lean ====
/-
  Gathering the SparseCore call's named results: the thirty-two slices of each result array, each at the one
  whole-array function restricted to it, are the whole array at that function.
-/
import proofs.«203204_g25512105739078_cont_8to1_1946_3_alg».proof.Proof.LaunchCall
import proofs.«203204_g25512105739078_cont_8to1_1946_3_alg».proof.Proof.LaunchPayV

noncomputable section

namespace Cert.KernelIdeal.Hand

open Cert.KernelIdeal Cert.KernelIdeal.Gen Cert.KernelIdeal.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.Transfers (shareTok shareDrop shareTokN pointsTo_toks)

variable {F : FTy → Type}

local notation "𝕄" => MT nD τ sig (HIx 1) (Elt F) ℕ UU ℕ

variable [FloatOps F]

variable (tv : (d : Dev nD) → Buf (Elt F) (tLoc d)) (labs : (d : Dev nD) → Buf (Elt F) (lLoc d))

/-- One SparseCore's results, from their parts. -/
theorem dnN_parts (d : Dev nD) (c : Fin 2) :
    dnN tv labs d c.val = iprop((tLoc d ↦{qRest c} tv d) ∗ (lLoc d ↦{qRest c} labs d)
      ∗ ((bigSep Finset.univ fun i : Fin 16 => (tLoc d ↦{qTile c i} tv d : sProp 𝕄))
        ∗ (bigSep Finset.univ fun i : Fin 16 => (lLoc d ↦{qTile c i} labs d : sProp 𝕄))
        ∗ (bigSep Finset.univ fun i : Fin 16 => (sLoc d ↦[setS (c, i)]{fullShare} (poolS (F := F) (tv d) (labs d) : Buf (Elt F) (sLoc d)) : sProp 𝕄))
        ∗ (bigSep Finset.univ fun i : Fin 16 => (cLoc d ↦[setC (c, i)]{fullShare} (poolC (F := F) (labs d) : Buf (Elt F) (cLoc d)) : sProp 𝕄)))) := by
  rw [dnN_eq tv labs d c, bigSep_congr fun i _ => tdN_eq tv labs d c i]
  unfold tileTd
  rw [bigSep_sep', bigSep_sep', bigSep_sep']

/-- An array at one function is its disjoint, exhaustive pieces at that function. -/
theorem whole_pieces {ℓ : Loc nD τ sig} (Kp : Fin 2 × Fin 16 → Finset (Idx ℓ)) (f : Buf (Elt F) ℓ)
    (h : ∀ t ∈ (Finset.univ : Finset (Fin 2 × Fin 16)), ∀ t' ∈ (Finset.univ : Finset (Fin 2 × Fin 16)), t ≠ t' → Disjoint (Kp t) (Kp t'))
    (hc : (Finset.univ : Finset (Fin 2 × Fin 16)).biUnion Kp = Finset.univ) :
    (ℓ ↦{fullShare} f : sProp 𝕄)
      = iprop((bigSep Finset.univ fun i : Fin 16 => (ℓ ↦[Kp (0, i)]{fullShare} f : sProp 𝕄)) ∗ (bigSep Finset.univ fun i : Fin 16 => (ℓ ↦[Kp (1, i)]{fullShare} f : sProp 𝕄))) := by
  rw [← hc, pointsTo_biUnion Finset.univ Kp h, bigSep_univ_prod, bigSep_fin2]

/-- The call's results gathered: the inputs whole as they were, the results whole at the pooled sums and counts. -/
theorem call_gather₁ (cov : Cover) (d : Dev nD) :
    iprop(keepRes tv labs d ∗ dnN tv labs d 0 ∗ dnN tv labs d 1)
      ⊢ iprop((tLoc d ↦{fullShare} tv d) ∗ (lLoc d ↦{fullShare} labs d)
        ∗ (sLoc d ↦{fullShare} (poolS (F := F) (tv d) (labs d) : Buf (Elt F) (sLoc d))) ∗ (cLoc d ↦{fullShare} (poolC (F := F) (labs d) : Buf (Elt F) (cLoc d)))) := by
  have e0 := dnN_parts tv labs d 0
  have e1 := dnN_parts tv labs d 1
  rw [show dnN tv labs d 0 = _ from e0, show dnN tv labs d 1 = _ from e1,
    whole_pieces (ℓ := sLoc d) setS (poolS (F := F) (tv d) (labs d) : Buf (Elt F) (sLoc d)) cov.sd cov.sc,
    whole_pieces (ℓ := cLoc d) setC (poolC (F := F) (labs d) : Buf (Elt F) (cLoc d)) cov.cd cov.cc]
  iintro ⟨⟨Htk, Hlk⟩, ⟨Htr0, Hlr0, Htt0, Hlt0, Hs0, Hc0⟩, ⟨Htr1, Hlr1, Htt1, Hlt1, Hs1, Hc1⟩⟩
  isplitl [Htk Htr0 Htt0 Htr1 Htt1]
  · iapply (share_gather (tv d))
    isplitl [Htk]; · iexact Htk
    isplitl [Htr0 Htt0]
    · isplitl [Htr0] <;> iassumption
    · isplitl [Htr1] <;> iassumption
  isplitl [Hlk Hlr0 Hlt0 Hlr1 Hlt1]
  · iapply (share_gather (labs d))
    isplitl [Hlk]; · iexact Hlk
    isplitl [Hlr0 Hlt0]
    · isplitl [Hlr0] <;> iassumption
    · isplitl [Hlr1] <;> iassumption
  isplitl [Hs0 Hs1]
  · isplitl [Hs0] <;> iassumption
  · isplitl [Hc0] <;> iassumption

end Cert.KernelIdeal.Hand

end
-- ==== Proof.LaunchMainV.lean ====
/-
  @main on the TensorCore with the SparseCore call's results named: the same steps, the call handing back the
  two result arrays at the pooled sums and counts of the table and labels it read, so that the final valuation
  is a pure function of the launch contents.
-/
import proofs.«203204_g25512105739078_cont_8to1_1946_3_alg».proof.Proof.LaunchMain
import proofs.«203204_g25512105739078_cont_8to1_1946_3_alg».proof.Proof.LaunchTileV
import proofs.«203204_g25512105739078_cont_8to1_1946_3_alg».proof.Proof.LaunchCallV

noncomputable section

namespace Cert.KernelIdeal.Hand

open Cert.KernelIdeal Cert.KernelIdeal.Gen Cert.KernelIdeal.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe
open Idealize.ShloMosaic.Transfers (shareTok shareDrop shareTokN pointsTo_toks)

variable {F : FTy → Type}

local notation "𝕄" => MT nD τ sig (HIx 1) (Elt F) ℕ UU ℕ

variable (m : (ℓ : Loc nD τ sig) → Buf (Elt F) ℓ) (ρ : Dev nD → PrngReg)
variable [FloatOps F]

/-- What the call leaves in its two result arrays. -/
def FS (d : Dev nD) : (dr main_v4_0).ty.Contents (Elt F) := poolS (F := F) (tvOf m d) (labsOf m d)
def FC (d : Dev nD) : (dr main_v4_1).ty.Contents (Elt F) := poolC (F := F) (labsOf m d)

abbrev PPv : (K (F := F)).Pay (nD := nD) (Val := Elt F) (Name := ℕ) (U := UU) := P₁ (tvOf m) (labsOf m)

/-- What @main leaves: the fourteen arrays at the final valuation. -/
def FINv (d : Dev nD) : sProp 𝕄 := held (d.tc : Thread nD τ) allBufs (WE m d (FS m d) (FC m d))

theorem stPairV_eq (d : Dev nD) :
    (bigSep Finset.univ fun c : Fin ((K (F := F)).nCore 0) => (PPv m).st 0 d c) = iprop(stN (tvOf m) (labsOf m) d 0 ∗ stN (tvOf m) (labsOf m) d 1) := by
  show (bigSep (Finset.univ : Finset (Fin 2)) fun c => stN (tvOf m) (labsOf m) d c.val) = _
  rw [bigSep_fin2]; rfl
theorem dnPairV_eq (d : Dev nD) :
    (bigSep Finset.univ fun c : Fin ((K (F := F)).nCore 0) => (PPv m).dn 0 d c) = iprop(dnN (tvOf m) (labsOf m) d 0 ∗ dnN (tvOf m) (labsOf m) d 1) := by
  show (bigSep (Finset.univ : Finset (Fin 2)) fun c => dnN (tvOf m) (labsOf m) d c.val) = _
  rw [bigSep_fin2]; rfl

theorem hmainV [∀ e, Nonempty (Elt F e)] (κ : GSem nD τ sig → ℕ) (d : Dev nD) :
    iprop((K (F := F)).ctx EH (PPv m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FINv m d) := by
  unfold SparseCore.Cfg.tcRes
  rw [unscoped_held, G_eq]
  simp only [main, wp_bind, wp_pure]
  iintro ⟨#Hctx, Hst, ⟨Hb, Hheld, -, -⟩, ⟨⟨Hcg0, Hti0⟩, ⟨Hcg1, Hti1⟩⟩⟩
  ihave #Hlev := ((K (F := F)).ctx_levAts (EH := EH) (P := PPv m) κ) $$ Hctx
  -- the first reshape
  iapply (wp_hlo_within 𝒱 (SparseCore.T d) none Set.univ (op := opA) (S := allBufs) hA (V := Wm m d)) $$ [Hb Hheld]
  · isplitl [Hb]; · iexact Hb
    iexact Hheld
  iintro ⟨Hb, Hheld⟩
  rw [wp_ret]; imodintro
  -- the matrix-vector region
  ihave Hst' := (tcSt_elim (F := F) d 0) $$ Hst
  icases Hst' with ⟨HO, Hrest⟩
  iapply ((K (F := F)).wp_liftProg (D (F := F)) 𝒱 (SparseCore.T d) Set.univ none (Prog.lift (.customCall (Pipeline.entry 0) ())) _)
  iapply (Pipeline.RegionSeg.wp (pcfgs (F := F)) Region.adm (fam ((K (F := F)).Otc d 0) (lvlSet (F := F) d 0) (WA m d)) (none : HIx 1) cellOf_inj EP defs₀ 𝒱₀
    (K (F := F)).L (K (F := F)).lev (reg0 ((K (F := F)).Otc d 0) (lvlSet (F := F) d 0) (WA m d) (Otc_none (F := F) d 0)) d none (by simp) _ _)
  rw [reg0_pre, reg0_post]
  isplitr [Hb Hheld HO Hcg0 Hti0]
  swap
  · isplitl [Hb]; · iexact Hb
    isplitl [Hheld HO]
    · isplitl [Hheld]; · iexact Hheld
      iexact HO
    isplitr; · iexact Hlev
    isplitl [Hcg0]; · iexact Hcg0
    iexact Hti0
  iintro ⟨Hb, ⟨Hheld, HO⟩⟩
  rw [wp_ret]; imodintro
  -- the two reshapes before the call
  iapply (wp_hlo_within 𝒱 (SparseCore.T d) none Set.univ (op := opB) (S := allBufs) hB) $$ [Hb Hheld]
  · isplitl [Hb]; · iexact Hb
    iexact Hheld
  iintro ⟨Hb, Hheld⟩
  rw [wp_ret]; imodintro
  iapply (wp_hlo_within 𝒱 (SparseCore.T d) none Set.univ (op := opC) (S := allBufs) hC) $$ [Hb Hheld]
  · isplitl [Hb]; · iexact Hb
    iexact Hheld
  iintro ⟨Hb, Hheld⟩
  rw [wp_ret]; imodintro
  -- the SparseCore call
  ihave Hst := (tcSt_intro (F := F) d 0 _ (lvlSet_waitPairs (F := F) d 0 cfg0)) $$ [HO Hrest]
  · isplitl [HO]; · iexact HO
    iexact Hrest
  ihave Hh := (Entails.of_eq (held_all d (WB m d))) $$ [Hheld]
  · iexact Hheld
  icases Hh with ⟨Ha0, Ha1, Ha2, Ha3, Hv0, Hv1, Hv2, Hv3, Hv40, Hv41, Hv5, Hv6, Hv7, Hv8⟩
  ihave Hdeal := (call_deal (tvOf m) (labsOf m) cover d) $$ [Hv2 Hv3 Hv40 Hv41]
  · isplitl [Hv2]; · iexact Hv2
    isplitl [Hv3]; · iexact Hv3
    isplitl [Hv40]; · iexists _; iexact Hv40
    iexists _; iexact Hv41
  icases Hdeal with ⟨Hkeep, Hst0, Hst1⟩
  iapply ((K (F := F)).wp_run (D (F := F)) 𝒱 (EH := EH) (P := PPv m) κ d 0)
  isplitr; · iexact Hctx
  isplitl [Hst]; · iexact Hst
  isplitl [Hst0 Hst1]
  · rw [stPairV_eq]; isplitl [Hst0] <;> iassumption
  iintro ⟨Hst, Hdn⟩
  ihave Hdn' := (Entails.of_eq (dnPairV_eq m d)) $$ Hdn
  icases Hdn' with ⟨Hst0, Hst1⟩
  ihave Hg := (call_gather₁ (tvOf m) (labsOf m) cover d) $$ [Hkeep Hst0 Hst1]
  · isplitl [Hkeep]; · iexact Hkeep
    isplitl [Hst0] <;> iassumption
  icases Hg with ⟨Hv2, Hv3, Hv40, Hv41⟩
  ihave Hheld := (Entails.of_eq (held_upd2 d (WB m d) (FS m d) (FC m d)).symm) $$ [Ha0 Ha1 Ha2 Ha3 Hv0 Hv1 Hv2 Hv3 Hv40 Hv41 Hv5 Hv6 Hv7 Hv8]
  · isplitl [Ha0]; · iexact Ha0
    isplitl [Ha1]; · iexact Ha1
    isplitl [Ha2]; · iexact Ha2
    isplitl [Ha3]; · iexact Ha3
    isplitl [Hv0]; · iexact Hv0
    isplitl [Hv1]; · iexact Hv1
    isplitl [Hv2]; · iexact Hv2
    isplitl [Hv3]; · iexact Hv3
    isplitl [Hv40]; · iexact Hv40
    isplitl [Hv41]; · iexact Hv41
    isplitl [Hv5]; · iexact Hv5
    isplitl [Hv6]; · iexact Hv6
    isplitl [Hv7]; · iexact Hv7
    iexact Hv8
  -- the three reshapes after the call
  iapply (wp_hlo_within 𝒱 (SparseCore.T d) none Set.univ (op := opD) (S := allBufs) hD) $$ [Hb Hheld]
  · isplitl [Hb]; · iexact Hb
    iexact Hheld
  iintro ⟨Hb, Hheld⟩
  rw [wp_ret]; imodintro
  iapply (wp_hlo_within 𝒱 (SparseCore.T d) none Set.univ (op := opE) (S := allBufs) hE) $$ [Hb Hheld]
  · isplitl [Hb]; · iexact Hb
    iexact Hheld
  iintro ⟨Hb, Hheld⟩
  rw [wp_ret]; imodintro
  iapply (wp_hlo_within 𝒱 (SparseCore.T d) none Set.univ (op := opG) (S := allBufs) hG) $$ [Hb Hheld]
  · isplitl [Hb]; · iexact Hb
    iexact Hheld
  iintro ⟨Hb, Hheld⟩
  rw [wp_ret]; imodintro
  -- the softmax region
  ihave Hst' := (tcSt_elim (F := F) d 1) $$ [Hst]
  · iexact Hst
  icases Hst' with ⟨HO, Hrest⟩
  iapply ((K (F := F)).wp_liftProg (D (F := F)) 𝒱 (SparseCore.T d) Set.univ none (Prog.lift (.customCall (Pipeline.entry 1) ())) _)
  iapply (Pipeline.RegionSeg.wp (pcfgs (F := F)) Region.adm (fam ((K (F := F)).Otc d 1) (lvlSet (F := F) d 1) (WD m d (FS m d) (FC m d))) (none : HIx 1) cellOf_inj EP defs₀ 𝒱₀
    (K (F := F)).L (K (F := F)).lev (reg1 ((K (F := F)).Otc d 1) (lvlSet (F := F) d 1) (WD m d (FS m d) (FC m d)) (Otc_none (F := F) d 1)) d none (by simp) _ _)
  rw [reg1_pre, reg1_post]
  isplitr [Hb Hheld HO Hcg1 Hti1]
  swap
  · isplitl [Hb]; · iexact Hb
    isplitl [Hheld HO]
    · isplitl [Hheld]; · iexact Hheld
      iexact HO
    isplitr; · iexact Hlev
    isplitl [Hcg1]; · iexact Hcg1
    iexact Hti1
  iintro ⟨Hb, ⟨Hheld, HO⟩⟩
  rw [wp_ret]; imodintro; imodintro
  isplitl [HO Hrest]
  · iapply (tcSt_intro (F := F) d 1 _ (lvlSet_waitPairs (F := F) d 1 cfg2))
    isplitl [HO]; · iexact HO
    iexact Hrest
  unfold FINv
  iexact Hheld

end Cert.KernelIdeal.Hand

end
-- ==== Proof.LaunchRunV.lean ====
/-
  The program's run with its result named: beside the unchanged arguments, the result array ends at the final
  valuation's contents, a pure function of the launch memory.
-/
import proofs.«203204_g25512105739078_cont_8to1_1946_3_alg».proof.Proof.LaunchMainV
import proofs.«203204_g25512105739078_cont_8to1_1946_3_alg».proof.Proof.LaunchRun

noncomputable section

namespace Cert.KernelIdeal.Hand

open Cert.KernelIdeal Cert.KernelIdeal.Gen Cert.KernelIdeal.Hand.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.TcCoe

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The program's result, as a function of the launch memory. -/
def resultOf (d : Dev nD) : Buf (Elt F) ((d.tc : Thread nD τ).loc main_v8) := WE m d (FS m d) (FC m d) (dr main_v8)

/-- What the claim reads of device `d`'s final memory: the result and the four arguments. -/
def fqV (d : Dev nD) (s' : Phys nD τ sig (Elt F)) : Prop :=
  s'.mem.mem ((d.tc : Thread nD τ).loc main_v8) = resultOf m d
  ∧ s'.mem.mem ((d.tc : Thread nD τ).loc main_arg0) = m ((d.tc : Thread nD τ).loc main_arg0)
  ∧ s'.mem.mem ((d.tc : Thread nD τ).loc main_arg1) = m ((d.tc : Thread nD τ).loc main_arg1)
  ∧ s'.mem.mem ((d.tc : Thread nD τ).loc main_arg2) = m ((d.tc : Thread nD τ).loc main_arg2)
  ∧ s'.mem.mem ((d.tc : Thread nD τ).loc main_arg3) = m ((d.tc : Thread nD τ).loc main_arg3)

theorem hfinV (d : Dev nD) (s' : Phys nD τ sig (Elt F)) : iprop(FINv m d ∗ SI s') ⊢ (⌜fqV m d s'⌝ : sProp 𝕄) := by
  unfold FINv
  iintro ⟨Hh, HSI⟩
  ihave Hh' := (Entails.of_eq (held_all d (WE m d (FS m d) (FC m d)))) $$ [Hh]
  · iexact Hh
  icases Hh' with ⟨Ha0, Ha1, Ha2, Ha3, Hv0, Hv1, Hv2, Hv3, Hv40, Hv41, Hv5, Hv6, Hv7, Hv8⟩
  icombine HSI Ha0 gives %h0
  icombine HSI Ha1 gives %h1
  icombine HSI Ha2 gives %h2
  icombine HSI Ha3 gives %h3
  icombine HSI Hv8 gives %h8
  ipureintro
  refine ⟨funext fun i => ?_, funext fun i => ?_, funext fun i => ?_, funext fun i => ?_, funext fun i => ?_⟩
  · exact h8 i (Finset.mem_univ i)
  · exact (h0 i (Finset.mem_univ i)).trans (congrFun (WE_arg0 m d _ _) i)
  · exact (h1 i (Finset.mem_univ i)).trans (congrFun (WE_arg1 m d _ _) i)
  · exact (h2 i (Finset.mem_univ i)).trans (congrFun (WE_arg2 m d _ _) i)
  · exact (h3 i (Finset.mem_univ i)).trans (congrFun (WE_arg3 m d _ _) i)

/-- The valued post: every device's result at `resultOf`, its argument arrays at their launch contents. -/
def QCV : PUnit × MemSt nD τ sig (Elt F) → Prop := fun r => ∀ c : Dev nD,
  r.2.mem ((c.tc : Thread nD τ).loc main_v8) = resultOf m c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

theorem run_mainV [∀ e, Nonempty (Elt F e)] (hbody : TileBody₁ (F := F))
    (hrange : ∀ (d : Dev nD) (i : S4096x200.Idx), (m (d, dr main_arg0) i : BitVec 32).toNat < 100000) :
    θ_run (Cert.KernelIdeal.defs (F := F)) (Cert.KernelIdeal.threads (F := F)) ⟨m, fun _ => 0, ρ⟩ (QCV m) :=
  SparseCore.Cfg.θ_run_sc (K := K (F := F)) (D := D (F := F)) (𝒱 := 𝒱) (EH := EH) (P := PPv m) facts v₀
    (fun q hq => match q with | 0 => nomatch hq)
    (fun q _ => match q with | 0 => tileObl₁ (tvOf m) (labsOf m) hbody (fun d x => by rw [labsOf_apply]; exact hrange d _))
    (fun q _ => match q with | 0 => SparseCore.Cfg.VecSplit.of_plain (vecSplit₁ (tvOf m) (labsOf m)))
    m ρ main (fun d => G (F := F) d) (FINv m) (u₀ (F := F))
    (sep_elim_left.trans (hu₀ (fun q thr => (PPv m).x q thr) (fun _ _ => rfl)))
    (hmainV m ρ) (fqV m) (hfinV m) (QCV m) (fun _ h => h)

end Cert.KernelIdeal.Hand

end
-- ==== Proof.PoolVal.lean ====
import proofs.«203204_g25512105739078_cont_8to1_1946_3_alg».proof.Proof.Common
import proofs.«203204_g25512105739078_cont_8to1_1946_3_alg».proof.Proof.PoolChk

noncomputable section

namespace Cert.KernelIdeal.Hand.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Tile
variable (d : Dev nD) (c : Fin (grid1.bound 0)) (i : Fin (grid1.bound 1))
variable [FloatOps F]

/-! ## Lane by lane -/

omit d c i in
theorem gath_apply (tvec : Vec F S100000 .f32) (idx : IVec S16 32) (x : S16.Idx) :
    gath tvec idx x = if h : (idx x).toNat < 100000 then tvec (Shape.ofLane (d := ![100000]) ⟨(idx x).toNat, h⟩) else tvec (Shape.ofLane (d := ![100000]) ⟨0, by decide⟩) := rfl

omit d c i in
/-- A gathered lane depends on that lane's index only. -/
theorem gath_congr (tvec : Vec F S100000 .f32) (idx idx' : IVec S16 32) (x : S16.Idx) (h : idx x = idx' x) :
    gath tvec idx x = gath tvec idx' x :=
  congrArg (fun w : BitVec 32 => if h : w.toNat < 100000 then tvec (Shape.ofLane (d := ![100000]) ⟨w.toNat, h⟩)
    else tvec (Shape.ofLane (d := ![100000]) ⟨0, by decide⟩)) h

omit d c i in
/-- The first eight lanes' mask is the kernel's. -/
theorem lane8_eq : lane8 = k1_pay149 := rfl

omit d c i in
theorem bit_ne_one : ∀ b : BitVec 1, b ≠ 1 → b = 0 := by decide

omit d c i in
theorem select_zero {α : Type} (a b : α) : Scalar.select (0 : BitVec 1) a b = b := by
  unfold Scalar.select; exact if_neg (by decide)

omit d c i in
theorem andi_zero : ∀ a : BitVec 1, IntOp.andi a 0 = 0 := by decide

omit d c i in
/-- Past the eighth lane the thirteenth group's mask is off. -/
theorem lastMask_off (l : IVec S16 32) (x : S16.Idx) (h8 : ¬ (x 0).val < 8) : lastMask l x = 0 := by
  have hz : lane8 x = 0 := bit_ne_one _ fun h => h8 (lane8_lt x (lane8_eq ▸ h))
  show IntOp.andi (grpMask l x) (lane8 x) = 0
  rw [hz]; exact andi_zero _

omit d c i in
/-- The thirteenth group's contribution to the sums reads its first eight labels only. -/
theorem stepS_last_congr (tvec : Vec F S100000 .f32) (l l' : IVec S16 32) (acc : FVec F S16 .f32)
    (h : ∀ x : S16.Idx, (x 0).val < 8 → l x = l' x) :
    stepS tvec (lastMask l) l acc = stepS tvec (lastMask l') l' acc := by
  funext x
  show FloatOps.addf (acc x) (Scalar.select (lastMask l x) (gath tvec (select (lastMask l) l (broadcast S16 0#32)) x) _)
    = FloatOps.addf (acc x) (Scalar.select (lastMask l' x) (gath tvec (select (lastMask l') l' (broadcast S16 0#32)) x) _)
  by_cases h8 : (x 0).val < 8
  · have hm : lastMask l x = lastMask l' x := by
      show IntOp.andi (IntOp.cmpi .sgt (l x) _) (lane8 x) = IntOp.andi (IntOp.cmpi .sgt (l' x) _) (lane8 x)
      rw [h x h8]
    have hi : select (lastMask l) l (broadcast S16 0#32) x = select (lastMask l') l' (broadcast S16 0#32) x := by
      show Scalar.select (lastMask l x) (l x) _ = Scalar.select (lastMask l' x) (l' x) _
      rw [hm, h x h8]
    rw [hm, gath_congr tvec _ _ x hi]
  · rw [lastMask_off l x h8, lastMask_off l' x h8, select_zero, select_zero]

omit d c i in
/-- The thirteenth group's contribution to the counts reads its first eight labels only. -/
theorem stepC_last_congr (l l' : IVec S16 32) (acc : FVec F S16 .f32)
    (h : ∀ x : S16.Idx, (x 0).val < 8 → l x = l' x) :
    stepC (lastMask l) acc = stepC (lastMask l') acc := by
  funext x
  show FloatOps.addf (acc x) (Scalar.select (lastMask l x) _ _) = FloatOps.addf (acc x) (Scalar.select (lastMask l' x) _ _)
  by_cases h8 : (x 0).val < 8
  · have hm : lastMask l x = lastMask l' x := by
      show IntOp.andi (IntOp.cmpi .sgt (l x) _) (lane8 x) = IntOp.andi (IntOp.cmpi .sgt (l' x) _) (lane8 x)
      rw [h x h8]
    rw [hm]
  · rw [lastMask_off l x h8, lastMask_off l' x h8]

omit d c i in
/-- Two families of thirteen groups that agree, the thirteenth on its first eight lanes, have the same partial sums. -/
theorem rowS_congr (tvec : Vec F S100000 .f32) (lab lab' : Fin 13 → IVec S16 32)
    (h : ∀ g : Fin 13, g.val < 12 → lab g = lab' g) (h12 : ∀ x : S16.Idx, (x 0).val < 8 → lab 12 x = lab' 12 x) :
    rowS tvec lab = rowS tvec lab' := by
  unfold rowS
  rw [h 0 (by decide), h 1 (by decide), h 2 (by decide), h 3 (by decide), h 4 (by decide), h 5 (by decide), h 6 (by decide),
    h 7 (by decide), h 8 (by decide), h 9 (by decide), h 10 (by decide), h 11 (by decide)]
  exact stepS_last_congr tvec _ _ _ h12

omit d c i in
theorem rowC_congr (lab lab' : Fin 13 → IVec S16 32)
    (h : ∀ g : Fin 13, g.val < 12 → lab g = lab' g) (h12 : ∀ x : S16.Idx, (x 0).val < 8 → lab 12 x = lab' 12 x) :
    rowC (F := F) lab = rowC lab' := by
  unfold rowC
  rw [h 0 (by decide), h 1 (by decide), h 2 (by decide), h 3 (by decide), h 4 (by decide), h 5 (by decide), h 6 (by decide),
    h 7 (by decide), h 8 (by decide), h 9 (by decide), h 10 (by decide), h 11 (by decide)]
  exact stepC_last_congr _ _ _ h12

/-! ## The label scratch after a chunk's copy -/

/-- The first 6400 words of the label scratch are the flat labels from word `base` on. -/
def LabIs (labsV : Vec F S819200 .i32) (base : ℕ) (fl : Buf (Elt F) ((thr d c i).loc cc1_scratch1)) : Prop :=
  ∀ y : S6416.Idx, (y 0).val < 6400 → (fl y : BitVec 32) = labAt labsV (base + (y 0).val)

/-- Sixteen loaded words are a group of a row of the flat labels, on the lanes that fall inside the chunk. -/
theorem ldL_eq_labRow (labsV : Vec F S819200 .i32) (base : ℕ) (fl : Buf (Elt F) ((thr d c i).loc cc1_scratch1)) (hLI : LabIs d c i labsV base fl)
    (off : Fin 1 → ℕ) (hin : ∀ a, off a + S16.size a ≤ S6416.size a) (R : ℕ) (g : Fin 13) (hR : R * 200 + g.val * 16 = base + off 0)
    (x : S16.Idx) (hx : off 0 + (x 0).val < 6400) :
    ldL d c i fl off hin x = labRow labsV R g x := by
  rw [ldL_apply]
  have h0 := idx0 off hin x
  rw [hLI _ (by rw [h0]; exact hx), h0]
  show labAt labsV (base + (off 0 + (x 0).val)) = labAt labsV (R * 200 + g.val * 16 + (x 0).val)
  congr 1
  omega

end Tile
end Cert.KernelIdeal.Hand.Pool
end
-- ==== Proof.PoolValTripA.lean ====
import proofs.«203204_g25512105739078_cont_8to1_1946_3_alg».proof.Proof.Common
import proofs.«203204_g25512105739078_cont_8to1_1946_3_alg».proof.Proof.PoolTripB

noncomputable section

namespace Cert.KernelIdeal.Hand.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Tactic
section Tile
variable (d : Dev nD) (c : Fin (grid1.bound 0)) (i : Fin (grid1.bound 1))
variable [FloatOps F]

/-- The table scratch's contents as a gather reads them. -/
abbrev tvacc (ft : Buf (Elt F) ((thr d c i).loc cc1_scratch0)) : Vec F S100000 .f32 :=
  View.read (Elt F) ((tS).access (Rect.whole S100000)) ft

/-- The loops' invariant with the value: as the frame's, and the first `n0 + 16 k` words of the two result scratches are the
    targets `TS`, `TC`. -/
def inv (ft : Buf (Elt F) ((thr d c i).loc cc1_scratch0)) (fl : Buf (Elt F) ((thr d c i).loc cc1_scratch1))
    (TS TC : S2048.Idx → Elt F .f32) (n0 : ℕ) (k : Nat) (_ : Unit) : sProp 𝕄 :=
  iprop((((tS).access (.whole S100000)).loc (thr d c i) ↦{fullShare} ft) ∗ ((lS).view.loc (thr d c i) ↦{fullShare} fl)
    ∗ (∃ f : Buf (Elt F) ((thr d c i).loc cc1_scratch2), ((sS).view.loc (thr d c i) ↦{fullShare} f) ∗ ⌜∀ y : S2048.Idx, (y 0).val < n0 + 16 * k → f y = TS y⌝)
    ∗ (∃ f : Buf (Elt F) ((thr d c i).loc cc1_scratch3), ((cS).view.loc (thr d c i) ↦{fullShare} f) ∗ ⌜∀ y : S2048.Idx, (y 0).val < n0 + 16 * k → f y = TC y⌝))

/-- Sixteen words stored at offset `n` of a result scratch whose words below `n` are the target's: its words below `n + 16` are the target's. -/
theorem writes_prefix_s (fs : Buf (Elt F) ((thr d c i).loc cc1_scratch2)) (TS : S2048.Idx → Elt F .f32) (n : ℕ) (off : Fin 1 → ℕ)
    (hin : ∀ a, off a + S16.size a ≤ S2048.size a) (w : S16.Idx → Elt F .f32) (hoff : off 0 = n)
    (hold : ∀ y : S2048.Idx, (y 0).val < n → fs y = TS y)
    (hnew : ∀ x : S16.Idx, w x = TS ((Rect.unit (s := S2048) off S16.size hin).emb x)) :
    ∀ y : S2048.Idx, (y 0).val < n + 16 → ((sS).view.writes (Elt F) fs [⟨Rect.unit (s := S2048) off S16.size hin, w⟩]) y = TS y := by
  intro y hy
  by_cases hlt : (y 0).val < n
  · have hnot : ∀ p ∈ ([⟨Rect.unit (s := S2048) off S16.size hin, w⟩] : List (View.Piece (Elt F) S2048 .f32)), y ∉ p.1.set := by
      intro p hp
      rw [List.mem_singleton] at hp; subst hp
      rw [Rect.mem_set_unit]
      intro h
      have := (h 0).1
      omega
    have h := View.read_writes_apply_of_forall_not_mem (v := (sS).view) (Val := Elt F) (f := fs) y _ hnot
    simp only [Memref.view_whole, View.read_whole] at h
    simp only [Memref.view_whole]
    rw [h]; exact hold y hlt
  · have hmem : y ∈ (Rect.unit (s := S2048) off S16.size hin).set := by
      rw [Rect.mem_set_unit]; intro a
      obtain rfl : a = 0 := Subsingleton.elim _ _
      exact ⟨by omega, by show (y 0).val < off 0 + 16; omega⟩
    rw [← Rect.map_emb_univ, Finset.mem_map] at hmem
    obtain ⟨x, -, hx⟩ := hmem
    have h := View.read_writes_cons_emb (v := (sS).view) (Val := Elt F) (f := fs) (Rect.unit (s := S2048) off S16.size hin) w [] x
    rw [hx] at h
    simp only [Memref.view_whole, View.read_whole] at h
    simp only [Memref.view_whole]
    rw [h, hnew x, hx]

/-- Sixteen words stored at offset `n` of a result scratch whose words below `n` are the target's: its words below `n + 16` are the target's. -/
theorem writes_prefix_c (fs : Buf (Elt F) ((thr d c i).loc cc1_scratch3)) (TS : S2048.Idx → Elt F .f32) (n : ℕ) (off : Fin 1 → ℕ)
    (hin : ∀ a, off a + S16.size a ≤ S2048.size a) (w : S16.Idx → Elt F .f32) (hoff : off 0 = n)
    (hold : ∀ y : S2048.Idx, (y 0).val < n → fs y = TS y)
    (hnew : ∀ x : S16.Idx, w x = TS ((Rect.unit (s := S2048) off S16.size hin).emb x)) :
    ∀ y : S2048.Idx, (y 0).val < n + 16 → ((cS).view.writes (Elt F) fs [⟨Rect.unit (s := S2048) off S16.size hin, w⟩]) y = TS y := by
  intro y hy
  by_cases hlt : (y 0).val < n
  · have hnot : ∀ p ∈ ([⟨Rect.unit (s := S2048) off S16.size hin, w⟩] : List (View.Piece (Elt F) S2048 .f32)), y ∉ p.1.set := by
      intro p hp
      rw [List.mem_singleton] at hp; subst hp
      rw [Rect.mem_set_unit]
      intro h
      have := (h 0).1
      omega
    have h := View.read_writes_apply_of_forall_not_mem (v := (cS).view) (Val := Elt F) (f := fs) y _ hnot
    simp only [Memref.view_whole, View.read_whole] at h
    simp only [Memref.view_whole]
    rw [h]; exact hold y hlt
  · have hmem : y ∈ (Rect.unit (s := S2048) off S16.size hin).set := by
      rw [Rect.mem_set_unit]; intro a
      obtain rfl : a = 0 := Subsingleton.elim _ _
      exact ⟨by omega, by show (y 0).val < off 0 + 16; omega⟩
    rw [← Rect.map_emb_univ, Finset.mem_map] at hmem
    obtain ⟨x, -, hx⟩ := hmem
    have h := View.read_writes_cons_emb (v := (cS).view) (Val := Elt F) (f := fs) (Rect.unit (s := S2048) off S16.size hin) w [] x
    rw [hx] at h
    simp only [Memref.view_whole, View.read_whole] at h
    simp only [Memref.view_whole]
    rw [h, hnew x, hx]

/-- The thirteen groups of sixteen labels that trip `k` of chunk 1's loop loads. -/
def ldRow1 (fl : Buf (Elt F) ((thr d c i).loc cc1_scratch1)) (k : Fin k1_t1_loop.trips) : Fin 13 → IVec S16 32 :=
  fun | 0 => ldL d c i fl (k1_off2 k) (k1_off2_inb k)
      | 1 => ldL d c i fl (k1_off3 k) (k1_off3_inb k)
      | 2 => ldL d c i fl (k1_off4 k) (k1_off4_inb k)
      | 3 => ldL d c i fl (k1_off5 k) (k1_off5_inb k)
      | 4 => ldL d c i fl (k1_off6 k) (k1_off6_inb k)
      | 5 => ldL d c i fl (k1_off7 k) (k1_off7_inb k)
      | 6 => ldL d c i fl (k1_off8 k) (k1_off8_inb k)
      | 7 => ldL d c i fl (k1_off9 k) (k1_off9_inb k)
      | 8 => ldL d c i fl (k1_off10 k) (k1_off10_inb k)
      | 9 => ldL d c i fl (k1_off11 k) (k1_off11_inb k)
      | 10 => ldL d c i fl (k1_off12 k) (k1_off12_inb k)
      | 11 => ldL d c i fl (k1_off13 k) (k1_off13_inb k)
      | 12 => ldL d c i fl (k1_off14 k) (k1_off14_inb k)
      | ⟨_ + 13, h⟩ => absurd h (Nat.not_lt.2 (Nat.le_add_left _ _))

/-- One trip of chunk 1's loop, with its value: the sixteen words it stores into each result scratch are the row's partial sums and counts. -/
theorem trip1 (ft : Buf (Elt F) ((thr d c i).loc cc1_scratch0)) (fl : Buf (Elt F) ((thr d c i).loc cc1_scratch1)) (hfl : LabOK d c i fl)
    (TS TC : S2048.Idx → Elt F .f32)
    (hS : ∀ (k : Fin k1_t1_loop.trips) (x : S16.Idx), rowS (tvacc d c i ft) (ldRow1 d c i fl k) x
      = TS ((Rect.unit (s := S2048) (k1_off15 k) S16.size (k1_off15_inb k)).emb x))
    (hC : ∀ (k : Fin k1_t1_loop.trips) (x : S16.Idx), rowC (F := F) (ldRow1 d c i fl k) x
      = TC ((Rect.unit (s := S2048) (k1_off15 k) S16.size (k1_off15_inb k)).emb x))
    (k : Fin k1_t1_loop.trips) (u : Unit) :
    inv d c i ft fl TS TC 0 k u ⊢ wp frame (wpE (defs₀ (F := F)) 𝒱₀ (thr d c i) none) Set.univ
      (k1_t1_body (coordsV c i) tV (Memref.isWhole_whole _) lV (Memref.isWhole_whole _) sV (Memref.isWhole_whole _) cV (Memref.isWhole_whole _)
            tS (Memref.isWhole_whole _) lS (Memref.isWhole_whole _) sS (Memref.isWhole_whole _) cS (Memref.isWhole_whole _)
            cc1_scoped0 cc1_scoped1 cc1_scoped2 cc1_scoped3 cc1_scoped4 cc1_scoped5 cc1_scoped6 k u) (inv d c i ft fl TS TC 0 (k.val + 1)) := by
  have hk : k.val < 32 := lt_of_lt_of_le k.isLt k1_t1_abs.2.1
  have h1 : k1_chk1 (idxG (ldL d c i fl (k1_off2 k) (k1_off2_inb k))) :=
    chk_full d c i fl hfl _ _ (by simp only [k1_off2_eq, Matrix.cons_val_zero]; omega)
  have h2 : k1_chk2 (idxG (ldL d c i fl (k1_off3 k) (k1_off3_inb k))) :=
    chk_full d c i fl hfl _ _ (by simp only [k1_off3_eq, Matrix.cons_val_zero]; omega)
  have h3 : k1_chk3 (idxG (ldL d c i fl (k1_off4 k) (k1_off4_inb k))) :=
    chk_full d c i fl hfl _ _ (by simp only [k1_off4_eq, Matrix.cons_val_zero]; omega)
  have h4 : k1_chk4 (idxG (ldL d c i fl (k1_off5 k) (k1_off5_inb k))) :=
    chk_full d c i fl hfl _ _ (by simp only [k1_off5_eq, Matrix.cons_val_zero]; omega)
  have h5 : k1_chk5 (idxG (ldL d c i fl (k1_off6 k) (k1_off6_inb k))) :=
    chk_full d c i fl hfl _ _ (by simp only [k1_off6_eq, Matrix.cons_val_zero]; omega)
  have h6 : k1_chk6 (idxG (ldL d c i fl (k1_off7 k) (k1_off7_inb k))) :=
    chk_full d c i fl hfl _ _ (by simp only [k1_off7_eq, Matrix.cons_val_zero]; omega)
  have h7 : k1_chk7 (idxG (ldL d c i fl (k1_off8 k) (k1_off8_inb k))) :=
    chk_full d c i fl hfl _ _ (by simp only [k1_off8_eq, Matrix.cons_val_zero]; omega)
  have h8 : k1_chk8 (idxG (ldL d c i fl (k1_off9 k) (k1_off9_inb k))) :=
    chk_full d c i fl hfl _ _ (by simp only [k1_off9_eq, Matrix.cons_val_zero]; omega)
  have h9 : k1_chk9 (idxG (ldL d c i fl (k1_off10 k) (k1_off10_inb k))) :=
    chk_full d c i fl hfl _ _ (by simp only [k1_off10_eq, Matrix.cons_val_zero]; omega)
  have h10 : k1_chk10 (idxG (ldL d c i fl (k1_off11 k) (k1_off11_inb k))) :=
    chk_full d c i fl hfl _ _ (by simp only [k1_off11_eq, Matrix.cons_val_zero]; omega)
  have h11 : k1_chk11 (idxG (ldL d c i fl (k1_off12 k) (k1_off12_inb k))) :=
    chk_full d c i fl hfl _ _ (by simp only [k1_off12_eq, Matrix.cons_val_zero]; omega)
  have h12 : k1_chk12 (idxG (ldL d c i fl (k1_off13 k) (k1_off13_inb k))) :=
    chk_full d c i fl hfl _ _ (by simp only [k1_off13_eq, Matrix.cons_val_zero]; omega)
  have h13 : k1_chk13 (idxL (ldL d c i fl (k1_off14 k) (k1_off14_inb k))) :=
    chk_last d c i fl hfl _ _ (by simp only [k1_off14_eq, Matrix.cons_val_zero]; omega)
  unfold inv
  iintro ⟨Ht, Hl, ⟨%fs, Hs, %hfs⟩, ⟨%fc, Hc, %hfc⟩⟩
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  have e13 : trip1.sl.r_13 d c i ft fl k h1 h2 h3 h4 h5 h6 h7 h8 h9 h10 h11 h12 h13 = rowS (tvacc d c i ft) (ldRow1 d c i fl k) := by
    (try unfold trip1.sl.r_14); (try unfold trip1.sl.r_13); (try unfold trip1.sl.r_12); (try unfold trip1.sl.r_11); (try unfold trip1.sl.r_10); (try unfold trip1.sl.r_9); (try unfold trip1.sl.r_8); (try unfold trip1.sl.r_7); (try unfold trip1.sl.r_6); (try unfold trip1.sl.r_5); (try unfold trip1.sl.r_4); (try unfold trip1.sl.r_3); (try unfold trip1.sl.r_2); (try unfold trip1.sl.r_1); (try unfold trip1.sl.r); (try unfold trip1.sl.v208); (try unfold trip1.sl.v192); (try unfold trip1.sl.v177); (try unfold trip1.sl.v162); (try unfold trip1.sl.v147); (try unfold trip1.sl.v132); (try unfold trip1.sl.v117); (try unfold trip1.sl.v102); (try unfold trip1.sl.v87); (try unfold trip1.sl.v72); (try unfold trip1.sl.v57); (try unfold trip1.sl.v42); (try unfold trip1.sl.v27); (try unfold trip1.sl.cst_76); (try unfold trip1.sl.cst_63)
    simp only [loadIdx_eq_gath]
    rfl
  have e14 : trip1.sl.r_14 d c i fl k = rowC (F := F) (ldRow1 d c i fl k) := by
    rfl
  rw [e13, e14]
  have hoff : (k1_off15 k) 0 = 0 + 16 * k.val := by simp only [k1_off15_eq, Matrix.cons_val_zero]; omega
  sl_step
  isplitl [Ht]; · iexact Ht
  isplitl [Hl]; · iexact Hl
  isplitl [Hs]
  · iexists _; isplitl [Hs]; · iexact Hs
    ipureintro
    intro y hy
    exact writes_prefix_s (F := F) d c i fs TS _ _ (k1_off15_inb k) _ hoff hfs (hS k) y (by omega)
  · iexists _; isplitl [Hc]; · iexact Hc
    ipureintro
    intro y hy
    exact writes_prefix_c (F := F) d c i fc TC _ _ (k1_off15_inb k) _ hoff hfc (hC k) y (by omega)

/-- The thirteen groups of sixteen labels that trip `k` of chunk 2's loop loads. -/
def ldRow2 (fl : Buf (Elt F) ((thr d c i).loc cc1_scratch1)) (k : Fin k1_t2_loop.trips) : Fin 13 → IVec S16 32 :=
  fun | 0 => ldL d c i fl (k1_off16 k) (k1_off16_inb k)
      | 1 => ldL d c i fl (k1_off17 k) (k1_off17_inb k)
      | 2 => ldL d c i fl (k1_off18 k) (k1_off18_inb k)
      | 3 => ldL d c i fl (k1_off19 k) (k1_off19_inb k)
      | 4 => ldL d c i fl (k1_off20 k) (k1_off20_inb k)
      | 5 => ldL d c i fl (k1_off21 k) (k1_off21_inb k)
      | 6 => ldL d c i fl (k1_off22 k) (k1_off22_inb k)
      | 7 => ldL d c i fl (k1_off23 k) (k1_off23_inb k)
      | 8 => ldL d c i fl (k1_off24 k) (k1_off24_inb k)
      | 9 => ldL d c i fl (k1_off25 k) (k1_off25_inb k)
      | 10 => ldL d c i fl (k1_off26 k) (k1_off26_inb k)
      | 11 => ldL d c i fl (k1_off27 k) (k1_off27_inb k)
      | 12 => ldL d c i fl (k1_off28 k) (k1_off28_inb k)
      | ⟨_ + 13, h⟩ => absurd h (Nat.not_lt.2 (Nat.le_add_left _ _))

/-- One trip of chunk 2's loop, with its value: the sixteen words it stores into each result scratch are the row's partial sums and counts. -/
theorem trip2 (ft : Buf (Elt F) ((thr d c i).loc cc1_scratch0)) (fl : Buf (Elt F) ((thr d c i).loc cc1_scratch1)) (hfl : LabOK d c i fl)
    (TS TC : S2048.Idx → Elt F .f32)
    (hS : ∀ (k : Fin k1_t2_loop.trips) (x : S16.Idx), rowS (tvacc d c i ft) (ldRow2 d c i fl k) x
      = TS ((Rect.unit (s := S2048) (k1_off29 k) S16.size (k1_off29_inb k)).emb x))
    (hC : ∀ (k : Fin k1_t2_loop.trips) (x : S16.Idx), rowC (F := F) (ldRow2 d c i fl k) x
      = TC ((Rect.unit (s := S2048) (k1_off29 k) S16.size (k1_off29_inb k)).emb x))
    (k : Fin k1_t2_loop.trips) (u : Unit) :
    inv d c i ft fl TS TC 512 k u ⊢ wp frame (wpE (defs₀ (F := F)) 𝒱₀ (thr d c i) none) Set.univ
      (k1_t2_body (coordsV c i) tV (Memref.isWhole_whole _) lV (Memref.isWhole_whole _) sV (Memref.isWhole_whole _) cV (Memref.isWhole_whole _)
            tS (Memref.isWhole_whole _) lS (Memref.isWhole_whole _) sS (Memref.isWhole_whole _) cS (Memref.isWhole_whole _)
            cc1_scoped0 cc1_scoped1 cc1_scoped2 cc1_scoped3 cc1_scoped4 cc1_scoped5 cc1_scoped6 k u) (inv d c i ft fl TS TC 512 (k.val + 1)) := by
  have hk : k.val < 32 := lt_of_lt_of_le k.isLt k1_t2_abs.2.1
  have h1 : k1_chk14 (idxG (ldL d c i fl (k1_off16 k) (k1_off16_inb k))) :=
    chk_full d c i fl hfl _ _ (by simp only [k1_off16_eq, Matrix.cons_val_zero]; omega)
  have h2 : k1_chk15 (idxG (ldL d c i fl (k1_off17 k) (k1_off17_inb k))) :=
    chk_full d c i fl hfl _ _ (by simp only [k1_off17_eq, Matrix.cons_val_zero]; omega)
  have h3 : k1_chk16 (idxG (ldL d c i fl (k1_off18 k) (k1_off18_inb k))) :=
    chk_full d c i fl hfl _ _ (by simp only [k1_off18_eq, Matrix.cons_val_zero]; omega)
  have h4 : k1_chk17 (idxG (ldL d c i fl (k1_off19 k) (k1_off19_inb k))) :=
    chk_full d c i fl hfl _ _ (by simp only [k1_off19_eq, Matrix.cons_val_zero]; omega)
  have h5 : k1_chk18 (idxG (ldL d c i fl (k1_off20 k) (k1_off20_inb k))) :=
    chk_full d c i fl hfl _ _ (by simp only [k1_off20_eq, Matrix.cons_val_zero]; omega)
  have h6 : k1_chk19 (idxG (ldL d c i fl (k1_off21 k) (k1_off21_inb k))) :=
    chk_full d c i fl hfl _ _ (by simp only [k1_off21_eq, Matrix.cons_val_zero]; omega)
  have h7 : k1_chk20 (idxG (ldL d c i fl (k1_off22 k) (k1_off22_inb k))) :=
    chk_full d c i fl hfl _ _ (by simp only [k1_off22_eq, Matrix.cons_val_zero]; omega)
  have h8 : k1_chk21 (idxG (ldL d c i fl (k1_off23 k) (k1_off23_inb k))) :=
    chk_full d c i fl hfl _ _ (by simp only [k1_off23_eq, Matrix.cons_val_zero]; omega)
  have h9 : k1_chk22 (idxG (ldL d c i fl (k1_off24 k) (k1_off24_inb k))) :=
    chk_full d c i fl hfl _ _ (by simp only [k1_off24_eq, Matrix.cons_val_zero]; omega)
  have h10 : k1_chk23 (idxG (ldL d c i fl (k1_off25 k) (k1_off25_inb k))) :=
    chk_full d c i fl hfl _ _ (by simp only [k1_off25_eq, Matrix.cons_val_zero]; omega)
  have h11 : k1_chk24 (idxG (ldL d c i fl (k1_off26 k) (k1_off26_inb k))) :=
    chk_full d c i fl hfl _ _ (by simp only [k1_off26_eq, Matrix.cons_val_zero]; omega)
  have h12 : k1_chk25 (idxG (ldL d c i fl (k1_off27 k) (k1_off27_inb k))) :=
    chk_full d c i fl hfl _ _ (by simp only [k1_off27_eq, Matrix.cons_val_zero]; omega)
  have h13 : k1_chk26 (idxL (ldL d c i fl (k1_off28 k) (k1_off28_inb k))) :=
    chk_last d c i fl hfl _ _ (by simp only [k1_off28_eq, Matrix.cons_val_zero]; omega)
  unfold inv
  iintro ⟨Ht, Hl, ⟨%fs, Hs, %hfs⟩, ⟨%fc, Hc, %hfc⟩⟩
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  have e13 : trip2.sl.r_13 d c i ft fl k h1 h2 h3 h4 h5 h6 h7 h8 h9 h10 h11 h12 h13 = rowS (tvacc d c i ft) (ldRow2 d c i fl k) := by
    (try unfold trip2.sl.r_14); (try unfold trip2.sl.r_13); (try unfold trip2.sl.r_12); (try unfold trip2.sl.r_11); (try unfold trip2.sl.r_10); (try unfold trip2.sl.r_9); (try unfold trip2.sl.r_8); (try unfold trip2.sl.r_7); (try unfold trip2.sl.r_6); (try unfold trip2.sl.r_5); (try unfold trip2.sl.r_4); (try unfold trip2.sl.r_3); (try unfold trip2.sl.r_2); (try unfold trip2.sl.r_1); (try unfold trip2.sl.r); (try unfold trip2.sl.v208); (try unfold trip2.sl.v192); (try unfold trip2.sl.v177); (try unfold trip2.sl.v162); (try unfold trip2.sl.v147); (try unfold trip2.sl.v132); (try unfold trip2.sl.v117); (try unfold trip2.sl.v102); (try unfold trip2.sl.v87); (try unfold trip2.sl.v72); (try unfold trip2.sl.v57); (try unfold trip2.sl.v42); (try unfold trip2.sl.v27); (try unfold trip2.sl.cst_76); (try unfold trip2.sl.cst_63)
    simp only [loadIdx_eq_gath]
    rfl
  have e14 : trip2.sl.r_14 d c i fl k = rowC (F := F) (ldRow2 d c i fl k) := by
    rfl
  rw [e13, e14]
  have hoff : (k1_off29 k) 0 = 512 + 16 * k.val := by simp only [k1_off29_eq, Matrix.cons_val_zero]; omega
  sl_step
  isplitl [Ht]; · iexact Ht
  isplitl [Hl]; · iexact Hl
  isplitl [Hs]
  · iexists _; isplitl [Hs]; · iexact Hs
    ipureintro
    intro y hy
    exact writes_prefix_s (F := F) d c i fs TS _ _ (k1_off29_inb k) _ hoff hfs (hS k) y (by omega)
  · iexists _; isplitl [Hc]; · iexact Hc
    ipureintro
    intro y hy
    exact writes_prefix_c (F := F) d c i fc TC _ _ (k1_off29_inb k) _ hoff hfc (hC k) y (by omega)

end Tile
end Cert.KernelIdeal.Hand.Pool
end
-- ==== Proof.PoolValTripB.lean ====
import proofs.«203204_g25512105739078_cont_8to1_1946_3_alg».proof.Proof.Common
import proofs.«203204_g25512105739078_cont_8to1_1946_3_alg».proof.Proof.PoolValTripA

noncomputable section

namespace Cert.KernelIdeal.Hand.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Tactic
section Tile
variable (d : Dev nD) (c : Fin (grid1.bound 0)) (i : Fin (grid1.bound 1))
variable [FloatOps F]

/-- The thirteen groups of sixteen labels that trip `k` of chunk 3's loop loads. -/
def ldRow3 (fl : Buf (Elt F) ((thr d c i).loc cc1_scratch1)) (k : Fin k1_t3_loop.trips) : Fin 13 → IVec S16 32 :=
  fun | 0 => ldL d c i fl (k1_off30 k) (k1_off30_inb k)
      | 1 => ldL d c i fl (k1_off31 k) (k1_off31_inb k)
      | 2 => ldL d c i fl (k1_off32 k) (k1_off32_inb k)
      | 3 => ldL d c i fl (k1_off33 k) (k1_off33_inb k)
      | 4 => ldL d c i fl (k1_off34 k) (k1_off34_inb k)
      | 5 => ldL d c i fl (k1_off35 k) (k1_off35_inb k)
      | 6 => ldL d c i fl (k1_off36 k) (k1_off36_inb k)
      | 7 => ldL d c i fl (k1_off37 k) (k1_off37_inb k)
      | 8 => ldL d c i fl (k1_off38 k) (k1_off38_inb k)
      | 9 => ldL d c i fl (k1_off39 k) (k1_off39_inb k)
      | 10 => ldL d c i fl (k1_off40 k) (k1_off40_inb k)
      | 11 => ldL d c i fl (k1_off41 k) (k1_off41_inb k)
      | 12 => ldL d c i fl (k1_off42 k) (k1_off42_inb k)
      | ⟨_ + 13, h⟩ => absurd h (Nat.not_lt.2 (Nat.le_add_left _ _))

/-- One trip of chunk 3's loop, with its value: the sixteen words it stores into each result scratch are the row's partial sums and counts. -/
theorem trip3 (ft : Buf (Elt F) ((thr d c i).loc cc1_scratch0)) (fl : Buf (Elt F) ((thr d c i).loc cc1_scratch1)) (hfl : LabOK d c i fl)
    (TS TC : S2048.Idx → Elt F .f32)
    (hS : ∀ (k : Fin k1_t3_loop.trips) (x : S16.Idx), rowS (tvacc d c i ft) (ldRow3 d c i fl k) x
      = TS ((Rect.unit (s := S2048) (k1_off43 k) S16.size (k1_off43_inb k)).emb x))
    (hC : ∀ (k : Fin k1_t3_loop.trips) (x : S16.Idx), rowC (F := F) (ldRow3 d c i fl k) x
      = TC ((Rect.unit (s := S2048) (k1_off43 k) S16.size (k1_off43_inb k)).emb x))
    (v1 : BitVec 32) (k : Fin k1_t3_loop.trips) (u : Unit) :
    inv d c i ft fl TS TC 1024 k u ⊢ wp frame (wpE (defs₀ (F := F)) 𝒱₀ (thr d c i) none) Set.univ
      (k1_t3_body (coordsV c i) tV (Memref.isWhole_whole _) lV (Memref.isWhole_whole _) sV (Memref.isWhole_whole _) cV (Memref.isWhole_whole _)
            tS (Memref.isWhole_whole _) lS (Memref.isWhole_whole _) sS (Memref.isWhole_whole _) cS (Memref.isWhole_whole _)
            cc1_scoped0 cc1_scoped1 cc1_scoped2 cc1_scoped3 cc1_scoped4 cc1_scoped5 cc1_scoped6 v1 k1_pay149 k u) (inv d c i ft fl TS TC 1024 (k.val + 1)) := by
  have hk : k.val < 32 := lt_of_lt_of_le k.isLt k1_t3_abs.2.1
  have h1 : k1_chk27 (idxG (ldL d c i fl (k1_off30 k) (k1_off30_inb k))) :=
    chk_full d c i fl hfl _ _ (by simp only [k1_off30_eq, Matrix.cons_val_zero]; omega)
  have h2 : k1_chk28 (idxG (ldL d c i fl (k1_off31 k) (k1_off31_inb k))) :=
    chk_full d c i fl hfl _ _ (by simp only [k1_off31_eq, Matrix.cons_val_zero]; omega)
  have h3 : k1_chk29 (idxG (ldL d c i fl (k1_off32 k) (k1_off32_inb k))) :=
    chk_full d c i fl hfl _ _ (by simp only [k1_off32_eq, Matrix.cons_val_zero]; omega)
  have h4 : k1_chk30 (idxG (ldL d c i fl (k1_off33 k) (k1_off33_inb k))) :=
    chk_full d c i fl hfl _ _ (by simp only [k1_off33_eq, Matrix.cons_val_zero]; omega)
  have h5 : k1_chk31 (idxG (ldL d c i fl (k1_off34 k) (k1_off34_inb k))) :=
    chk_full d c i fl hfl _ _ (by simp only [k1_off34_eq, Matrix.cons_val_zero]; omega)
  have h6 : k1_chk32 (idxG (ldL d c i fl (k1_off35 k) (k1_off35_inb k))) :=
    chk_full d c i fl hfl _ _ (by simp only [k1_off35_eq, Matrix.cons_val_zero]; omega)
  have h7 : k1_chk33 (idxG (ldL d c i fl (k1_off36 k) (k1_off36_inb k))) :=
    chk_full d c i fl hfl _ _ (by simp only [k1_off36_eq, Matrix.cons_val_zero]; omega)
  have h8 : k1_chk34 (idxG (ldL d c i fl (k1_off37 k) (k1_off37_inb k))) :=
    chk_full d c i fl hfl _ _ (by simp only [k1_off37_eq, Matrix.cons_val_zero]; omega)
  have h9 : k1_chk35 (idxG (ldL d c i fl (k1_off38 k) (k1_off38_inb k))) :=
    chk_full d c i fl hfl _ _ (by simp only [k1_off38_eq, Matrix.cons_val_zero]; omega)
  have h10 : k1_chk36 (idxG (ldL d c i fl (k1_off39 k) (k1_off39_inb k))) :=
    chk_full d c i fl hfl _ _ (by simp only [k1_off39_eq, Matrix.cons_val_zero]; omega)
  have h11 : k1_chk37 (idxG (ldL d c i fl (k1_off40 k) (k1_off40_inb k))) :=
    chk_full d c i fl hfl _ _ (by simp only [k1_off40_eq, Matrix.cons_val_zero]; omega)
  have h12 : k1_chk38 (idxG (ldL d c i fl (k1_off41 k) (k1_off41_inb k))) :=
    chk_full d c i fl hfl _ _ (by simp only [k1_off41_eq, Matrix.cons_val_zero]; omega)
  have h13 : k1_chk39 (idxL (ldL d c i fl (k1_off42 k) (k1_off42_inb k))) :=
    chk_last d c i fl hfl _ _ (by simp only [k1_off42_eq, Matrix.cons_val_zero]; omega)
  unfold inv
  iintro ⟨Ht, Hl, ⟨%fs, Hs, %hfs⟩, ⟨%fc, Hc, %hfc⟩⟩
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  have e13 : trip3.sl.r_13 d c i ft fl k h1 h2 h3 h4 h5 h6 h7 h8 h9 h10 h11 h12 h13 = rowS (tvacc d c i ft) (ldRow3 d c i fl k) := by
    (try unfold trip3.sl.r_14); (try unfold trip3.sl.r_13); (try unfold trip3.sl.r_12); (try unfold trip3.sl.r_11); (try unfold trip3.sl.r_10); (try unfold trip3.sl.r_9); (try unfold trip3.sl.r_8); (try unfold trip3.sl.r_7); (try unfold trip3.sl.r_6); (try unfold trip3.sl.r_5); (try unfold trip3.sl.r_4); (try unfold trip3.sl.r_3); (try unfold trip3.sl.r_2); (try unfold trip3.sl.r_1); (try unfold trip3.sl.r); (try unfold trip3.sl.v208); (try unfold trip3.sl.v192); (try unfold trip3.sl.v177); (try unfold trip3.sl.v162); (try unfold trip3.sl.v147); (try unfold trip3.sl.v132); (try unfold trip3.sl.v117); (try unfold trip3.sl.v102); (try unfold trip3.sl.v87); (try unfold trip3.sl.v72); (try unfold trip3.sl.v57); (try unfold trip3.sl.v42); (try unfold trip3.sl.v27); (try unfold trip3.sl.cst_76); (try unfold trip3.sl.cst_63)
    simp only [loadIdx_eq_gath]
    rfl
  have e14 : trip3.sl.r_14 d c i fl k = rowC (F := F) (ldRow3 d c i fl k) := by
    rfl
  rw [e13, e14]
  have hoff : (k1_off43 k) 0 = 1024 + 16 * k.val := by simp only [k1_off43_eq, Matrix.cons_val_zero]; omega
  sl_step
  isplitl [Ht]; · iexact Ht
  isplitl [Hl]; · iexact Hl
  isplitl [Hs]
  · iexists _; isplitl [Hs]; · iexact Hs
    ipureintro
    intro y hy
    exact writes_prefix_s (F := F) d c i fs TS _ _ (k1_off43_inb k) _ hoff hfs (hS k) y (by omega)
  · iexists _; isplitl [Hc]; · iexact Hc
    ipureintro
    intro y hy
    exact writes_prefix_c (F := F) d c i fc TC _ _ (k1_off43_inb k) _ hoff hfc (hC k) y (by omega)

/-- The thirteen groups of sixteen labels that trip `k` of chunk 4's loop loads. -/
def ldRow4 (fl : Buf (Elt F) ((thr d c i).loc cc1_scratch1)) (k : Fin k1_t4_loop.trips) : Fin 13 → IVec S16 32 :=
  fun | 0 => ldL d c i fl (k1_off44 k) (k1_off44_inb k)
      | 1 => ldL d c i fl (k1_off45 k) (k1_off45_inb k)
      | 2 => ldL d c i fl (k1_off46 k) (k1_off46_inb k)
      | 3 => ldL d c i fl (k1_off47 k) (k1_off47_inb k)
      | 4 => ldL d c i fl (k1_off48 k) (k1_off48_inb k)
      | 5 => ldL d c i fl (k1_off49 k) (k1_off49_inb k)
      | 6 => ldL d c i fl (k1_off50 k) (k1_off50_inb k)
      | 7 => ldL d c i fl (k1_off51 k) (k1_off51_inb k)
      | 8 => ldL d c i fl (k1_off52 k) (k1_off52_inb k)
      | 9 => ldL d c i fl (k1_off53 k) (k1_off53_inb k)
      | 10 => ldL d c i fl (k1_off54 k) (k1_off54_inb k)
      | 11 => ldL d c i fl (k1_off55 k) (k1_off55_inb k)
      | 12 => ldL d c i fl (k1_off56 k) (k1_off56_inb k)
      | ⟨_ + 13, h⟩ => absurd h (Nat.not_lt.2 (Nat.le_add_left _ _))

/-- One trip of chunk 4's loop, with its value: the sixteen words it stores into each result scratch are the row's partial sums and counts. -/
theorem trip4 (ft : Buf (Elt F) ((thr d c i).loc cc1_scratch0)) (fl : Buf (Elt F) ((thr d c i).loc cc1_scratch1)) (hfl : LabOK d c i fl)
    (TS TC : S2048.Idx → Elt F .f32)
    (hS : ∀ (k : Fin k1_t4_loop.trips) (x : S16.Idx), rowS (tvacc d c i ft) (ldRow4 d c i fl k) x
      = TS ((Rect.unit (s := S2048) (k1_off57 k) S16.size (k1_off57_inb k)).emb x))
    (hC : ∀ (k : Fin k1_t4_loop.trips) (x : S16.Idx), rowC (F := F) (ldRow4 d c i fl k) x
      = TC ((Rect.unit (s := S2048) (k1_off57 k) S16.size (k1_off57_inb k)).emb x))
    (v1 : BitVec 32) (k : Fin k1_t4_loop.trips) (u : Unit) :
    inv d c i ft fl TS TC 1536 k u ⊢ wp frame (wpE (defs₀ (F := F)) 𝒱₀ (thr d c i) none) Set.univ
      (k1_t4_body (coordsV c i) tV (Memref.isWhole_whole _) lV (Memref.isWhole_whole _) sV (Memref.isWhole_whole _) cV (Memref.isWhole_whole _)
            tS (Memref.isWhole_whole _) lS (Memref.isWhole_whole _) sS (Memref.isWhole_whole _) cS (Memref.isWhole_whole _)
            cc1_scoped0 cc1_scoped1 cc1_scoped2 cc1_scoped3 cc1_scoped4 cc1_scoped5 cc1_scoped6 v1 k1_pay149 k u) (inv d c i ft fl TS TC 1536 (k.val + 1)) := by
  have hk : k.val < 32 := lt_of_lt_of_le k.isLt k1_t4_abs.2.1
  have h1 : k1_chk40 (idxG (ldL d c i fl (k1_off44 k) (k1_off44_inb k))) :=
    chk_full d c i fl hfl _ _ (by simp only [k1_off44_eq, Matrix.cons_val_zero]; omega)
  have h2 : k1_chk41 (idxG (ldL d c i fl (k1_off45 k) (k1_off45_inb k))) :=
    chk_full d c i fl hfl _ _ (by simp only [k1_off45_eq, Matrix.cons_val_zero]; omega)
  have h3 : k1_chk42 (idxG (ldL d c i fl (k1_off46 k) (k1_off46_inb k))) :=
    chk_full d c i fl hfl _ _ (by simp only [k1_off46_eq, Matrix.cons_val_zero]; omega)
  have h4 : k1_chk43 (idxG (ldL d c i fl (k1_off47 k) (k1_off47_inb k))) :=
    chk_full d c i fl hfl _ _ (by simp only [k1_off47_eq, Matrix.cons_val_zero]; omega)
  have h5 : k1_chk44 (idxG (ldL d c i fl (k1_off48 k) (k1_off48_inb k))) :=
    chk_full d c i fl hfl _ _ (by simp only [k1_off48_eq, Matrix.cons_val_zero]; omega)
  have h6 : k1_chk45 (idxG (ldL d c i fl (k1_off49 k) (k1_off49_inb k))) :=
    chk_full d c i fl hfl _ _ (by simp only [k1_off49_eq, Matrix.cons_val_zero]; omega)
  have h7 : k1_chk46 (idxG (ldL d c i fl (k1_off50 k) (k1_off50_inb k))) :=
    chk_full d c i fl hfl _ _ (by simp only [k1_off50_eq, Matrix.cons_val_zero]; omega)
  have h8 : k1_chk47 (idxG (ldL d c i fl (k1_off51 k) (k1_off51_inb k))) :=
    chk_full d c i fl hfl _ _ (by simp only [k1_off51_eq, Matrix.cons_val_zero]; omega)
  have h9 : k1_chk48 (idxG (ldL d c i fl (k1_off52 k) (k1_off52_inb k))) :=
    chk_full d c i fl hfl _ _ (by simp only [k1_off52_eq, Matrix.cons_val_zero]; omega)
  have h10 : k1_chk49 (idxG (ldL d c i fl (k1_off53 k) (k1_off53_inb k))) :=
    chk_full d c i fl hfl _ _ (by simp only [k1_off53_eq, Matrix.cons_val_zero]; omega)
  have h11 : k1_chk50 (idxG (ldL d c i fl (k1_off54 k) (k1_off54_inb k))) :=
    chk_full d c i fl hfl _ _ (by simp only [k1_off54_eq, Matrix.cons_val_zero]; omega)
  have h12 : k1_chk51 (idxG (ldL d c i fl (k1_off55 k) (k1_off55_inb k))) :=
    chk_full d c i fl hfl _ _ (by simp only [k1_off55_eq, Matrix.cons_val_zero]; omega)
  have h13 : k1_chk52 (idxL (ldL d c i fl (k1_off56 k) (k1_off56_inb k))) :=
    chk_last d c i fl hfl _ _ (by simp only [k1_off56_eq, Matrix.cons_val_zero]; omega)
  unfold inv
  iintro ⟨Ht, Hl, ⟨%fs, Hs, %hfs⟩, ⟨%fc, Hc, %hfc⟩⟩
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  iapply (SparseCore.wp_vectorLoadIdx 𝒱₀ (thr d c i) none Set.univ (Finset.subset_univ _)) $$ Ht
  iintro Ht
  sl_exec
  have e13 : trip4.sl.r_13 d c i ft fl k h1 h2 h3 h4 h5 h6 h7 h8 h9 h10 h11 h12 h13 = rowS (tvacc d c i ft) (ldRow4 d c i fl k) := by
    (try unfold trip4.sl.r_14); (try unfold trip4.sl.r_13); (try unfold trip4.sl.r_12); (try unfold trip4.sl.r_11); (try unfold trip4.sl.r_10); (try unfold trip4.sl.r_9); (try unfold trip4.sl.r_8); (try unfold trip4.sl.r_7); (try unfold trip4.sl.r_6); (try unfold trip4.sl.r_5); (try unfold trip4.sl.r_4); (try unfold trip4.sl.r_3); (try unfold trip4.sl.r_2); (try unfold trip4.sl.r_1); (try unfold trip4.sl.r); (try unfold trip4.sl.v208); (try unfold trip4.sl.v192); (try unfold trip4.sl.v177); (try unfold trip4.sl.v162); (try unfold trip4.sl.v147); (try unfold trip4.sl.v132); (try unfold trip4.sl.v117); (try unfold trip4.sl.v102); (try unfold trip4.sl.v87); (try unfold trip4.sl.v72); (try unfold trip4.sl.v57); (try unfold trip4.sl.v42); (try unfold trip4.sl.v27); (try unfold trip4.sl.cst_76); (try unfold trip4.sl.cst_63)
    simp only [loadIdx_eq_gath]
    rfl
  have e14 : trip4.sl.r_14 d c i fl k = rowC (F := F) (ldRow4 d c i fl k) := by
    rfl
  rw [e13, e14]
  have hoff : (k1_off57 k) 0 = 1536 + 16 * k.val := by simp only [k1_off57_eq, Matrix.cons_val_zero]; omega
  sl_step
  isplitl [Ht]; · iexact Ht
  isplitl [Hl]; · iexact Hl
  isplitl [Hs]
  · iexists _; isplitl [Hs]; · iexact Hs
    ipureintro
    intro y hy
    exact writes_prefix_s (F := F) d c i fs TS _ _ (k1_off57_inb k) _ hoff hfs (hS k) y (by omega)
  · iexists _; isplitl [Hc]; · iexact Hc
    ipureintro
    intro y hy
    exact writes_prefix_c (F := F) d c i fc TC _ _ (k1_off57_inb k) _ hoff hfc (hC k) y (by omega)

end Tile
end Cert.KernelIdeal.Hand.Pool
end
-- ==== Proof.PoolValRows.lean ====
import proofs.«203204_g25512105739078_cont_8to1_1946_3_alg».proof.Proof.Common
import proofs.«203204_g25512105739078_cont_8to1_1946_3_alg».proof.Proof.PoolVal
import proofs.«203204_g25512105739078_cont_8to1_1946_3_alg».proof.Proof.PoolValTripB

noncomputable section

namespace Cert.KernelIdeal.Hand.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Tile
variable (d : Dev nD) (c : Fin (grid1.bound 0)) (i : Fin (grid1.bound 1))
variable [FloatOps F]

/-- The tile's 2048 words of the pooled sums: word `y` of its result scratch is flat word `4096 i + 2048 c + y`. -/
def tgtS (tvec : Vec F S100000 .f32) (labsV : Vec F S819200 .i32) : S2048.Idx → Elt F .f32 :=
  fun y => poolS tvec labsV (Shape.ofLane (d := ![65536]) ⟨4096 * i.val + 2048 * c.val + (y 0).val, by
    have hc : c.val < 2 := c.isLt
    have hi : i.val < 16 := i.isLt
    have hy : (y 0).val < 2048 := (y 0).isLt
    show _ < 65536; omega⟩)
/-- The tile's 2048 words of the pooled counts. -/
def tgtC (labsV : Vec F S819200 .i32) : S2048.Idx → Elt F .f32 :=
  fun y => poolC (F := F) labsV (Shape.ofLane (d := ![65536]) ⟨4096 * i.val + 2048 * c.val + (y 0).val, by
    have hc : c.val < 2 := c.isLt
    have hi : i.val < 16 := i.isLt
    have hy : (y 0).val < 2048 := (y 0).isLt
    show _ < 65536; omega⟩)

/-- The target at a word is lane `x` of row `R`'s partial sums, when the word is the `x`-th of the row's sixteen. -/
theorem tgtS_at (tvec : Vec F S100000 .f32) (labsV : Vec F S819200 .i32) (y : S2048.Idx) (R : ℕ) (x : S16.Idx)
    (hR : (4096 * i.val + 2048 * c.val + (y 0).val) / 16 = R) (hx : (4096 * i.val + 2048 * c.val + (y 0).val) % 16 = (x 0).val) :
    tgtS c i tvec labsV y = rowS tvec (labRow labsV R) x := by
  unfold tgtS poolS
  have hl : (Shape.ofLane (d := ![16]) ⟨(4096 * i.val + 2048 * c.val + (y 0).val) % 16, Nat.mod_lt _ (by decide)⟩ : S16.Idx) = x := by
    funext a
    obtain rfl : a = 0 := Subsingleton.elim _ _
    exact Fin.ext hx
  show rowS tvec (labRow labsV ((4096 * i.val + 2048 * c.val + (y 0).val) / 16)) (Shape.ofLane (d := ![16]) ⟨(4096 * i.val + 2048 * c.val + (y 0).val) % 16, _⟩) = _
  rw [hl, hR]
theorem tgtC_at (labsV : Vec F S819200 .i32) (y : S2048.Idx) (R : ℕ) (x : S16.Idx)
    (hR : (4096 * i.val + 2048 * c.val + (y 0).val) / 16 = R) (hx : (4096 * i.val + 2048 * c.val + (y 0).val) % 16 = (x 0).val) :
    tgtC (F := F) c i labsV y = rowC (labRow labsV R) x := by
  unfold tgtC poolC
  have hl : (Shape.ofLane (d := ![16]) ⟨(4096 * i.val + 2048 * c.val + (y 0).val) % 16, Nat.mod_lt _ (by decide)⟩ : S16.Idx) = x := by
    funext a
    obtain rfl : a = 0 := Subsingleton.elim _ _
    exact Fin.ext hx
  show rowC (labRow labsV ((4096 * i.val + 2048 * c.val + (y 0).val) / 16)) (Shape.ofLane (d := ![16]) ⟨(4096 * i.val + 2048 * c.val + (y 0).val) % 16, _⟩) = _
  rw [hl, hR]

/-- The S chunk 1's trip `k` stores are the target's words at its place. -/
theorem rowS_1 (ft : Buf (Elt F) ((thr d c i).loc cc1_scratch0)) (fl : Buf (Elt F) ((thr d c i).loc cc1_scratch1))
    (tvec : Vec F S100000 .f32) (labsV : Vec F S819200 .i32) (htv : tvacc d c i ft = tvec) (hLI : LabIs d c i labsV (51200 * i.val + 25600 * c.val + 0) fl)
    (k : Fin k1_t1_loop.trips) (x : S16.Idx) :
    rowS (tvacc d c i ft) (ldRow1 d c i fl k) x
      = (tgtS c i tvec labsV) ((Rect.unit (s := S2048) (k1_off15 k) S16.size (k1_off15_inb k)).emb x) := by
  have hk : k.val < 32 := lt_of_lt_of_le k.isLt k1_t1_abs.2.1
  have hc : c.val < 2 := c.isLt
  have hi : i.val < 16 := i.isLt
  have hx16 : (x 0).val < 16 := (x 0).isLt
  have hg : ∀ g : Fin 13, g.val < 12 → ldRow1 d c i fl k g = labRow labsV (256 * i.val + 128 * c.val + 0 + k.val) g := by
    intro g hg
    funext x
    have hx : (x 0).val < 16 := (x 0).isLt
    match g, hg with
    | 0, _ =>
      exact ldL_eq_labRow d c i labsV (51200 * i.val + 25600 * c.val + 0) fl hLI (k1_off2 k) (k1_off2_inb k) (256 * i.val + 128 * c.val + 0 + k.val) 0
        (by show (256 * i.val + 128 * c.val + 0 + k.val) * 200 + 0 * 16 = (51200 * i.val + 25600 * c.val + 0) + (k1_off2 k) 0; simp only [k1_off2_eq, Matrix.cons_val_zero]; omega) x
        (by show (k1_off2 k) 0 + (x 0).val < 6400; simp only [k1_off2_eq, Matrix.cons_val_zero]; omega)
    | 1, _ =>
      exact ldL_eq_labRow d c i labsV (51200 * i.val + 25600 * c.val + 0) fl hLI (k1_off3 k) (k1_off3_inb k) (256 * i.val + 128 * c.val + 0 + k.val) 1
        (by show (256 * i.val + 128 * c.val + 0 + k.val) * 200 + 1 * 16 = (51200 * i.val + 25600 * c.val + 0) + (k1_off3 k) 0; simp only [k1_off3_eq, Matrix.cons_val_zero]; omega) x
        (by show (k1_off3 k) 0 + (x 0).val < 6400; simp only [k1_off3_eq, Matrix.cons_val_zero]; omega)
    | 2, _ =>
      exact ldL_eq_labRow d c i labsV (51200 * i.val + 25600 * c.val + 0) fl hLI (k1_off4 k) (k1_off4_inb k) (256 * i.val + 128 * c.val + 0 + k.val) 2
        (by show (256 * i.val + 128 * c.val + 0 + k.val) * 200 + 2 * 16 = (51200 * i.val + 25600 * c.val + 0) + (k1_off4 k) 0; simp only [k1_off4_eq, Matrix.cons_val_zero]; omega) x
        (by show (k1_off4 k) 0 + (x 0).val < 6400; simp only [k1_off4_eq, Matrix.cons_val_zero]; omega)
    | 3, _ =>
      exact ldL_eq_labRow d c i labsV (51200 * i.val + 25600 * c.val + 0) fl hLI (k1_off5 k) (k1_off5_inb k) (256 * i.val + 128 * c.val + 0 + k.val) 3
        (by show (256 * i.val + 128 * c.val + 0 + k.val) * 200 + 3 * 16 = (51200 * i.val + 25600 * c.val + 0) + (k1_off5 k) 0; simp only [k1_off5_eq, Matrix.cons_val_zero]; omega) x
        (by show (k1_off5 k) 0 + (x 0).val < 6400; simp only [k1_off5_eq, Matrix.cons_val_zero]; omega)
    | 4, _ =>
      exact ldL_eq_labRow d c i labsV (51200 * i.val + 25600 * c.val + 0) fl hLI (k1_off6 k) (k1_off6_inb k) (256 * i.val + 128 * c.val + 0 + k.val) 4
        (by show (256 * i.val + 128 * c.val + 0 + k.val) * 200 + 4 * 16 = (51200 * i.val + 25600 * c.val + 0) + (k1_off6 k) 0; simp only [k1_off6_eq, Matrix.cons_val_zero]; omega) x
        (by show (k1_off6 k) 0 + (x 0).val < 6400; simp only [k1_off6_eq, Matrix.cons_val_zero]; omega)
    | 5, _ =>
      exact ldL_eq_labRow d c i labsV (51200 * i.val + 25600 * c.val + 0) fl hLI (k1_off7 k) (k1_off7_inb k) (256 * i.val + 128 * c.val + 0 + k.val) 5
        (by show (256 * i.val + 128 * c.val + 0 + k.val) * 200 + 5 * 16 = (51200 * i.val + 25600 * c.val + 0) + (k1_off7 k) 0; simp only [k1_off7_eq, Matrix.cons_val_zero]; omega) x
        (by show (k1_off7 k) 0 + (x 0).val < 6400; simp only [k1_off7_eq, Matrix.cons_val_zero]; omega)
    | 6, _ =>
      exact ldL_eq_labRow d c i labsV (51200 * i.val + 25600 * c.val + 0) fl hLI (k1_off8 k) (k1_off8_inb k) (256 * i.val + 128 * c.val + 0 + k.val) 6
        (by show (256 * i.val + 128 * c.val + 0 + k.val) * 200 + 6 * 16 = (51200 * i.val + 25600 * c.val + 0) + (k1_off8 k) 0; simp only [k1_off8_eq, Matrix.cons_val_zero]; omega) x
        (by show (k1_off8 k) 0 + (x 0).val < 6400; simp only [k1_off8_eq, Matrix.cons_val_zero]; omega)
    | 7, _ =>
      exact ldL_eq_labRow d c i labsV (51200 * i.val + 25600 * c.val + 0) fl hLI (k1_off9 k) (k1_off9_inb k) (256 * i.val + 128 * c.val + 0 + k.val) 7
        (by show (256 * i.val + 128 * c.val + 0 + k.val) * 200 + 7 * 16 = (51200 * i.val + 25600 * c.val + 0) + (k1_off9 k) 0; simp only [k1_off9_eq, Matrix.cons_val_zero]; omega) x
        (by show (k1_off9 k) 0 + (x 0).val < 6400; simp only [k1_off9_eq, Matrix.cons_val_zero]; omega)
    | 8, _ =>
      exact ldL_eq_labRow d c i labsV (51200 * i.val + 25600 * c.val + 0) fl hLI (k1_off10 k) (k1_off10_inb k) (256 * i.val + 128 * c.val + 0 + k.val) 8
        (by show (256 * i.val + 128 * c.val + 0 + k.val) * 200 + 8 * 16 = (51200 * i.val + 25600 * c.val + 0) + (k1_off10 k) 0; simp only [k1_off10_eq, Matrix.cons_val_zero]; omega) x
        (by show (k1_off10 k) 0 + (x 0).val < 6400; simp only [k1_off10_eq, Matrix.cons_val_zero]; omega)
    | 9, _ =>
      exact ldL_eq_labRow d c i labsV (51200 * i.val + 25600 * c.val + 0) fl hLI (k1_off11 k) (k1_off11_inb k) (256 * i.val + 128 * c.val + 0 + k.val) 9
        (by show (256 * i.val + 128 * c.val + 0 + k.val) * 200 + 9 * 16 = (51200 * i.val + 25600 * c.val + 0) + (k1_off11 k) 0; simp only [k1_off11_eq, Matrix.cons_val_zero]; omega) x
        (by show (k1_off11 k) 0 + (x 0).val < 6400; simp only [k1_off11_eq, Matrix.cons_val_zero]; omega)
    | 10, _ =>
      exact ldL_eq_labRow d c i labsV (51200 * i.val + 25600 * c.val + 0) fl hLI (k1_off12 k) (k1_off12_inb k) (256 * i.val + 128 * c.val + 0 + k.val) 10
        (by show (256 * i.val + 128 * c.val + 0 + k.val) * 200 + 10 * 16 = (51200 * i.val + 25600 * c.val + 0) + (k1_off12 k) 0; simp only [k1_off12_eq, Matrix.cons_val_zero]; omega) x
        (by show (k1_off12 k) 0 + (x 0).val < 6400; simp only [k1_off12_eq, Matrix.cons_val_zero]; omega)
    | 11, _ =>
      exact ldL_eq_labRow d c i labsV (51200 * i.val + 25600 * c.val + 0) fl hLI (k1_off13 k) (k1_off13_inb k) (256 * i.val + 128 * c.val + 0 + k.val) 11
        (by show (256 * i.val + 128 * c.val + 0 + k.val) * 200 + 11 * 16 = (51200 * i.val + 25600 * c.val + 0) + (k1_off13 k) 0; simp only [k1_off13_eq, Matrix.cons_val_zero]; omega) x
        (by show (k1_off13 k) 0 + (x 0).val < 6400; simp only [k1_off13_eq, Matrix.cons_val_zero]; omega)
    | ⟨n + 12, _⟩, hg => exact absurd hg (Nat.not_lt.2 (Nat.le_add_left _ _))
  have h12 : ∀ x : S16.Idx, (x 0).val < 8 → ldRow1 d c i fl k 12 x = labRow labsV (256 * i.val + 128 * c.val + 0 + k.val) 12 x := by
    intro x hx
    exact ldL_eq_labRow d c i labsV (51200 * i.val + 25600 * c.val + 0) fl hLI (k1_off14 k) (k1_off14_inb k) (256 * i.val + 128 * c.val + 0 + k.val) 12
      (by show (256 * i.val + 128 * c.val + 0 + k.val) * 200 + 12 * 16 = (51200 * i.val + 25600 * c.val + 0) + (k1_off14 k) 0; simp only [k1_off14_eq, Matrix.cons_val_zero]; omega) x
      (by show (k1_off14 k) 0 + (x 0).val < 6400; simp only [k1_off14_eq, Matrix.cons_val_zero]; omega)
  rw [htv]
  rw [rowS_congr tvec _ _ hg h12]
  have hE : (((Rect.unit (s := S2048) (k1_off15 k) S16.size (k1_off15_inb k)).emb x) 0).val = 0 + 16 * k.val + (x 0).val := by
    rw [Rect.emb_apply]
    show (k1_off15 k) 0 + 1 * (x 0).val = _
    simp only [k1_off15_eq, Matrix.cons_val_zero]; omega
  exact (tgtS_at c i tvec labsV _ (256 * i.val + 128 * c.val + 0 + k.val) x (by rw [hE]; omega) (by rw [hE]; omega)).symm

/-- The C chunk 1's trip `k` stores are the target's words at its place. -/
theorem rowC_1 (fl : Buf (Elt F) ((thr d c i).loc cc1_scratch1))
    (labsV : Vec F S819200 .i32) (hLI : LabIs d c i labsV (51200 * i.val + 25600 * c.val + 0) fl)
    (k : Fin k1_t1_loop.trips) (x : S16.Idx) :
    rowC (F := F) (ldRow1 d c i fl k) x
      = (tgtC (F := F) c i labsV) ((Rect.unit (s := S2048) (k1_off15 k) S16.size (k1_off15_inb k)).emb x) := by
  have hk : k.val < 32 := lt_of_lt_of_le k.isLt k1_t1_abs.2.1
  have hc : c.val < 2 := c.isLt
  have hi : i.val < 16 := i.isLt
  have hx16 : (x 0).val < 16 := (x 0).isLt
  have hg : ∀ g : Fin 13, g.val < 12 → ldRow1 d c i fl k g = labRow labsV (256 * i.val + 128 * c.val + 0 + k.val) g := by
    intro g hg
    funext x
    have hx : (x 0).val < 16 := (x 0).isLt
    match g, hg with
    | 0, _ =>
      exact ldL_eq_labRow d c i labsV (51200 * i.val + 25600 * c.val + 0) fl hLI (k1_off2 k) (k1_off2_inb k) (256 * i.val + 128 * c.val + 0 + k.val) 0
        (by show (256 * i.val + 128 * c.val + 0 + k.val) * 200 + 0 * 16 = (51200 * i.val + 25600 * c.val + 0) + (k1_off2 k) 0; simp only [k1_off2_eq, Matrix.cons_val_zero]; omega) x
        (by show (k1_off2 k) 0 + (x 0).val < 6400; simp only [k1_off2_eq, Matrix.cons_val_zero]; omega)
    | 1, _ =>
      exact ldL_eq_labRow d c i labsV (51200 * i.val + 25600 * c.val + 0) fl hLI (k1_off3 k) (k1_off3_inb k) (256 * i.val + 128 * c.val + 0 + k.val) 1
        (by show (256 * i.val + 128 * c.val + 0 + k.val) * 200 + 1 * 16 = (51200 * i.val + 25600 * c.val + 0) + (k1_off3 k) 0; simp only [k1_off3_eq, Matrix.cons_val_zero]; omega) x
        (by show (k1_off3 k) 0 + (x 0).val < 6400; simp only [k1_off3_eq, Matrix.cons_val_zero]; omega)
    | 2, _ =>
      exact ldL_eq_labRow d c i labsV (51200 * i.val + 25600 * c.val + 0) fl hLI (k1_off4 k) (k1_off4_inb k) (256 * i.val + 128 * c.val + 0 + k.val) 2
        (by show (256 * i.val + 128 * c.val + 0 + k.val) * 200 + 2 * 16 = (51200 * i.val + 25600 * c.val + 0) + (k1_off4 k) 0; simp only [k1_off4_eq, Matrix.cons_val_zero]; omega) x
        (by show (k1_off4 k) 0 + (x 0).val < 6400; simp only [k1_off4_eq, Matrix.cons_val_zero]; omega)
    | 3, _ =>
      exact ldL_eq_labRow d c i labsV (51200 * i.val + 25600 * c.val + 0) fl hLI (k1_off5 k) (k1_off5_inb k) (256 * i.val + 128 * c.val + 0 + k.val) 3
        (by show (256 * i.val + 128 * c.val + 0 + k.val) * 200 + 3 * 16 = (51200 * i.val + 25600 * c.val + 0) + (k1_off5 k) 0; simp only [k1_off5_eq, Matrix.cons_val_zero]; omega) x
        (by show (k1_off5 k) 0 + (x 0).val < 6400; simp only [k1_off5_eq, Matrix.cons_val_zero]; omega)
    | 4, _ =>
      exact ldL_eq_labRow d c i labsV (51200 * i.val + 25600 * c.val + 0) fl hLI (k1_off6 k) (k1_off6_inb k) (256 * i.val + 128 * c.val + 0 + k.val) 4
        (by show (256 * i.val + 128 * c.val + 0 + k.val) * 200 + 4 * 16 = (51200 * i.val + 25600 * c.val + 0) + (k1_off6 k) 0; simp only [k1_off6_eq, Matrix.cons_val_zero]; omega) x
        (by show (k1_off6 k) 0 + (x 0).val < 6400; simp only [k1_off6_eq, Matrix.cons_val_zero]; omega)
    | 5, _ =>
      exact ldL_eq_labRow d c i labsV (51200 * i.val + 25600 * c.val + 0) fl hLI (k1_off7 k) (k1_off7_inb k) (256 * i.val + 128 * c.val + 0 + k.val) 5
        (by show (256 * i.val + 128 * c.val + 0 + k.val) * 200 + 5 * 16 = (51200 * i.val + 25600 * c.val + 0) + (k1_off7 k) 0; simp only [k1_off7_eq, Matrix.cons_val_zero]; omega) x
        (by show (k1_off7 k) 0 + (x 0).val < 6400; simp only [k1_off7_eq, Matrix.cons_val_zero]; omega)
    | 6, _ =>
      exact ldL_eq_labRow d c i labsV (51200 * i.val + 25600 * c.val + 0) fl hLI (k1_off8 k) (k1_off8_inb k) (256 * i.val + 128 * c.val + 0 + k.val) 6
        (by show (256 * i.val + 128 * c.val + 0 + k.val) * 200 + 6 * 16 = (51200 * i.val + 25600 * c.val + 0) + (k1_off8 k) 0; simp only [k1_off8_eq, Matrix.cons_val_zero]; omega) x
        (by show (k1_off8 k) 0 + (x 0).val < 6400; simp only [k1_off8_eq, Matrix.cons_val_zero]; omega)
    | 7, _ =>
      exact ldL_eq_labRow d c i labsV (51200 * i.val + 25600 * c.val + 0) fl hLI (k1_off9 k) (k1_off9_inb k) (256 * i.val + 128 * c.val + 0 + k.val) 7
        (by show (256 * i.val + 128 * c.val + 0 + k.val) * 200 + 7 * 16 = (51200 * i.val + 25600 * c.val + 0) + (k1_off9 k) 0; simp only [k1_off9_eq, Matrix.cons_val_zero]; omega) x
        (by show (k1_off9 k) 0 + (x 0).val < 6400; simp only [k1_off9_eq, Matrix.cons_val_zero]; omega)
    | 8, _ =>
      exact ldL_eq_labRow d c i labsV (51200 * i.val + 25600 * c.val + 0) fl hLI (k1_off10 k) (k1_off10_inb k) (256 * i.val + 128 * c.val + 0 + k.val) 8
        (by show (256 * i.val + 128 * c.val + 0 + k.val) * 200 + 8 * 16 = (51200 * i.val + 25600 * c.val + 0) + (k1_off10 k) 0; simp only [k1_off10_eq, Matrix.cons_val_zero]; omega) x
        (by show (k1_off10 k) 0 + (x 0).val < 6400; simp only [k1_off10_eq, Matrix.cons_val_zero]; omega)
    | 9, _ =>
      exact ldL_eq_labRow d c i labsV (51200 * i.val + 25600 * c.val + 0) fl hLI (k1_off11 k) (k1_off11_inb k) (256 * i.val + 128 * c.val + 0 + k.val) 9
        (by show (256 * i.val + 128 * c.val + 0 + k.val) * 200 + 9 * 16 = (51200 * i.val + 25600 * c.val + 0) + (k1_off11 k) 0; simp only [k1_off11_eq, Matrix.cons_val_zero]; omega) x
        (by show (k1_off11 k) 0 + (x 0).val < 6400; simp only [k1_off11_eq, Matrix.cons_val_zero]; omega)
    | 10, _ =>
      exact ldL_eq_labRow d c i labsV (51200 * i.val + 25600 * c.val + 0) fl hLI (k1_off12 k) (k1_off12_inb k) (256 * i.val + 128 * c.val + 0 + k.val) 10
        (by show (256 * i.val + 128 * c.val + 0 + k.val) * 200 + 10 * 16 = (51200 * i.val + 25600 * c.val + 0) + (k1_off12 k) 0; simp only [k1_off12_eq, Matrix.cons_val_zero]; omega) x
        (by show (k1_off12 k) 0 + (x 0).val < 6400; simp only [k1_off12_eq, Matrix.cons_val_zero]; omega)
    | 11, _ =>
      exact ldL_eq_labRow d c i labsV (51200 * i.val + 25600 * c.val + 0) fl hLI (k1_off13 k) (k1_off13_inb k) (256 * i.val + 128 * c.val + 0 + k.val) 11
        (by show (256 * i.val + 128 * c.val + 0 + k.val) * 200 + 11 * 16 = (51200 * i.val + 25600 * c.val + 0) + (k1_off13 k) 0; simp only [k1_off13_eq, Matrix.cons_val_zero]; omega) x
        (by show (k1_off13 k) 0 + (x 0).val < 6400; simp only [k1_off13_eq, Matrix.cons_val_zero]; omega)
    | ⟨n + 12, _⟩, hg => exact absurd hg (Nat.not_lt.2 (Nat.le_add_left _ _))
  have h12 : ∀ x : S16.Idx, (x 0).val < 8 → ldRow1 d c i fl k 12 x = labRow labsV (256 * i.val + 128 * c.val + 0 + k.val) 12 x := by
    intro x hx
    exact ldL_eq_labRow d c i labsV (51200 * i.val + 25600 * c.val + 0) fl hLI (k1_off14 k) (k1_off14_inb k) (256 * i.val + 128 * c.val + 0 + k.val) 12
      (by show (256 * i.val + 128 * c.val + 0 + k.val) * 200 + 12 * 16 = (51200 * i.val + 25600 * c.val + 0) + (k1_off14 k) 0; simp only [k1_off14_eq, Matrix.cons_val_zero]; omega) x
      (by show (k1_off14 k) 0 + (x 0).val < 6400; simp only [k1_off14_eq, Matrix.cons_val_zero]; omega)
  rw [rowC_congr _ _ hg h12]
  have hE : (((Rect.unit (s := S2048) (k1_off15 k) S16.size (k1_off15_inb k)).emb x) 0).val = 0 + 16 * k.val + (x 0).val := by
    rw [Rect.emb_apply]
    show (k1_off15 k) 0 + 1 * (x 0).val = _
    simp only [k1_off15_eq, Matrix.cons_val_zero]; omega
  exact (tgtC_at c i labsV _ (256 * i.val + 128 * c.val + 0 + k.val) x (by rw [hE]; omega) (by rw [hE]; omega)).symm

/-- The S chunk 2's trip `k` stores are the target's words at its place. -/
theorem rowS_2 (ft : Buf (Elt F) ((thr d c i).loc cc1_scratch0)) (fl : Buf (Elt F) ((thr d c i).loc cc1_scratch1))
    (tvec : Vec F S100000 .f32) (labsV : Vec F S819200 .i32) (htv : tvacc d c i ft = tvec) (hLI : LabIs d c i labsV (51200 * i.val + 25600 * c.val + 6400) fl)
    (k : Fin k1_t2_loop.trips) (x : S16.Idx) :
    rowS (tvacc d c i ft) (ldRow2 d c i fl k) x
      = (tgtS c i tvec labsV) ((Rect.unit (s := S2048) (k1_off29 k) S16.size (k1_off29_inb k)).emb x) := by
  have hk : k.val < 32 := lt_of_lt_of_le k.isLt k1_t2_abs.2.1
  have hc : c.val < 2 := c.isLt
  have hi : i.val < 16 := i.isLt
  have hx16 : (x 0).val < 16 := (x 0).isLt
  have hg : ∀ g : Fin 13, g.val < 12 → ldRow2 d c i fl k g = labRow labsV (256 * i.val + 128 * c.val + 32 + k.val) g := by
    intro g hg
    funext x
    have hx : (x 0).val < 16 := (x 0).isLt
    match g, hg with
    | 0, _ =>
      exact ldL_eq_labRow d c i labsV (51200 * i.val + 25600 * c.val + 6400) fl hLI (k1_off16 k) (k1_off16_inb k) (256 * i.val + 128 * c.val + 32 + k.val) 0
        (by show (256 * i.val + 128 * c.val + 32 + k.val) * 200 + 0 * 16 = (51200 * i.val + 25600 * c.val + 6400) + (k1_off16 k) 0; simp only [k1_off16_eq, Matrix.cons_val_zero]; omega) x
        (by show (k1_off16 k) 0 + (x 0).val < 6400; simp only [k1_off16_eq, Matrix.cons_val_zero]; omega)
    | 1, _ =>
      exact ldL_eq_labRow d c i labsV (51200 * i.val + 25600 * c.val + 6400) fl hLI (k1_off17 k) (k1_off17_inb k) (256 * i.val + 128 * c.val + 32 + k.val) 1
        (by show (256 * i.val + 128 * c.val + 32 + k.val) * 200 + 1 * 16 = (51200 * i.val + 25600 * c.val + 6400) + (k1_off17 k) 0; simp only [k1_off17_eq, Matrix.cons_val_zero]; omega) x
        (by show (k1_off17 k) 0 + (x 0).val < 6400; simp only [k1_off17_eq, Matrix.cons_val_zero]; omega)
    | 2, _ =>
      exact ldL_eq_labRow d c i labsV (51200 * i.val + 25600 * c.val + 6400) fl hLI (k1_off18 k) (k1_off18_inb k) (256 * i.val + 128 * c.val + 32 + k.val) 2
        (by show (256 * i.val + 128 * c.val + 32 + k.val) * 200 + 2 * 16 = (51200 * i.val + 25600 * c.val + 6400) + (k1_off18 k) 0; simp only [k1_off18_eq, Matrix.cons_val_zero]; omega) x
        (by show (k1_off18 k) 0 + (x 0).val < 6400; simp only [k1_off18_eq, Matrix.cons_val_zero]; omega)
    | 3, _ =>
      exact ldL_eq_labRow d c i labsV (51200 * i.val + 25600 * c.val + 6400) fl hLI (k1_off19 k) (k1_off19_inb k) (256 * i.val + 128 * c.val + 32 + k.val) 3
        (by show (256 * i.val + 128 * c.val + 32 + k.val) * 200 + 3 * 16 = (51200 * i.val + 25600 * c.val + 6400) + (k1_off19 k) 0; simp only [k1_off19_eq, Matrix.cons_val_zero]; omega) x
        (by show (k1_off19 k) 0 + (x 0).val < 6400; simp only [k1_off19_eq, Matrix.cons_val_zero]; omega)
    | 4, _ =>
      exact ldL_eq_labRow d c i labsV (51200 * i.val + 25600 * c.val + 6400) fl hLI (k1_off20 k) (k1_off20_inb k) (256 * i.val + 128 * c.val + 32 + k.val) 4
        (by show (256 * i.val + 128 * c.val + 32 + k.val) * 200 + 4 * 16 = (51200 * i.val + 25600 * c.val + 6400) + (k1_off20 k) 0; simp only [k1_off20_eq, Matrix.cons_val_zero]; omega) x
        (by show (k1_off20 k) 0 + (x 0).val < 6400; simp only [k1_off20_eq, Matrix.cons_val_zero]; omega)
    | 5, _ =>
      exact ldL_eq_labRow d c i labsV (51200 * i.val + 25600 * c.val + 6400) fl hLI (k1_off21 k) (k1_off21_inb k) (256 * i.val + 128 * c.val + 32 + k.val) 5
        (by show (256 * i.val + 128 * c.val + 32 + k.val) * 200 + 5 * 16 = (51200 * i.val + 25600 * c.val + 6400) + (k1_off21 k) 0; simp only [k1_off21_eq, Matrix.cons_val_zero]; omega) x
        (by show (k1_off21 k) 0 + (x 0).val < 6400; simp only [k1_off21_eq, Matrix.cons_val_zero]; omega)
    | 6, _ =>
      exact ldL_eq_labRow d c i labsV (51200 * i.val + 25600 * c.val + 6400) fl hLI (k1_off22 k) (k1_off22_inb k) (256 * i.val + 128 * c.val + 32 + k.val) 6
        (by show (256 * i.val + 128 * c.val + 32 + k.val) * 200 + 6 * 16 = (51200 * i.val + 25600 * c.val + 6400) + (k1_off22 k) 0; simp only [k1_off22_eq, Matrix.cons_val_zero]; omega) x
        (by show (k1_off22 k) 0 + (x 0).val < 6400; simp only [k1_off22_eq, Matrix.cons_val_zero]; omega)
    | 7, _ =>
      exact ldL_eq_labRow d c i labsV (51200 * i.val + 25600 * c.val + 6400) fl hLI (k1_off23 k) (k1_off23_inb k) (256 * i.val + 128 * c.val + 32 + k.val) 7
        (by show (256 * i.val + 128 * c.val + 32 + k.val) * 200 + 7 * 16 = (51200 * i.val + 25600 * c.val + 6400) + (k1_off23 k) 0; simp only [k1_off23_eq, Matrix.cons_val_zero]; omega) x
        (by show (k1_off23 k) 0 + (x 0).val < 6400; simp only [k1_off23_eq, Matrix.cons_val_zero]; omega)
    | 8, _ =>
      exact ldL_eq_labRow d c i labsV (51200 * i.val + 25600 * c.val + 6400) fl hLI (k1_off24 k) (k1_off24_inb k) (256 * i.val + 128 * c.val + 32 + k.val) 8
        (by show (256 * i.val + 128 * c.val + 32 + k.val) * 200 + 8 * 16 = (51200 * i.val + 25600 * c.val + 6400) + (k1_off24 k) 0; simp only [k1_off24_eq, Matrix.cons_val_zero]; omega) x
        (by show (k1_off24 k) 0 + (x 0).val < 6400; simp only [k1_off24_eq, Matrix.cons_val_zero]; omega)
    | 9, _ =>
      exact ldL_eq_labRow d c i labsV (51200 * i.val + 25600 * c.val + 6400) fl hLI (k1_off25 k) (k1_off25_inb k) (256 * i.val + 128 * c.val + 32 + k.val) 9
        (by show (256 * i.val + 128 * c.val + 32 + k.val) * 200 + 9 * 16 = (51200 * i.val + 25600 * c.val + 6400) + (k1_off25 k) 0; simp only [k1_off25_eq, Matrix.cons_val_zero]; omega) x
        (by show (k1_off25 k) 0 + (x 0).val < 6400; simp only [k1_off25_eq, Matrix.cons_val_zero]; omega)
    | 10, _ =>
      exact ldL_eq_labRow d c i labsV (51200 * i.val + 25600 * c.val + 6400) fl hLI (k1_off26 k) (k1_off26_inb k) (256 * i.val + 128 * c.val + 32 + k.val) 10
        (by show (256 * i.val + 128 * c.val + 32 + k.val) * 200 + 10 * 16 = (51200 * i.val + 25600 * c.val + 6400) + (k1_off26 k) 0; simp only [k1_off26_eq, Matrix.cons_val_zero]; omega) x
        (by show (k1_off26 k) 0 + (x 0).val < 6400; simp only [k1_off26_eq, Matrix.cons_val_zero]; omega)
    | 11, _ =>
      exact ldL_eq_labRow d c i labsV (51200 * i.val + 25600 * c.val + 6400) fl hLI (k1_off27 k) (k1_off27_inb k) (256 * i.val + 128 * c.val + 32 + k.val) 11
        (by show (256 * i.val + 128 * c.val + 32 + k.val) * 200 + 11 * 16 = (51200 * i.val + 25600 * c.val + 6400) + (k1_off27 k) 0; simp only [k1_off27_eq, Matrix.cons_val_zero]; omega) x
        (by show (k1_off27 k) 0 + (x 0).val < 6400; simp only [k1_off27_eq, Matrix.cons_val_zero]; omega)
    | ⟨n + 12, _⟩, hg => exact absurd hg (Nat.not_lt.2 (Nat.le_add_left _ _))
  have h12 : ∀ x : S16.Idx, (x 0).val < 8 → ldRow2 d c i fl k 12 x = labRow labsV (256 * i.val + 128 * c.val + 32 + k.val) 12 x := by
    intro x hx
    exact ldL_eq_labRow d c i labsV (51200 * i.val + 25600 * c.val + 6400) fl hLI (k1_off28 k) (k1_off28_inb k) (256 * i.val + 128 * c.val + 32 + k.val) 12
      (by show (256 * i.val + 128 * c.val + 32 + k.val) * 200 + 12 * 16 = (51200 * i.val + 25600 * c.val + 6400) + (k1_off28 k) 0; simp only [k1_off28_eq, Matrix.cons_val_zero]; omega) x
      (by show (k1_off28 k) 0 + (x 0).val < 6400; simp only [k1_off28_eq, Matrix.cons_val_zero]; omega)
  rw [htv]
  rw [rowS_congr tvec _ _ hg h12]
  have hE : (((Rect.unit (s := S2048) (k1_off29 k) S16.size (k1_off29_inb k)).emb x) 0).val = 512 + 16 * k.val + (x 0).val := by
    rw [Rect.emb_apply]
    show (k1_off29 k) 0 + 1 * (x 0).val = _
    simp only [k1_off29_eq, Matrix.cons_val_zero]; omega
  exact (tgtS_at c i tvec labsV _ (256 * i.val + 128 * c.val + 32 + k.val) x (by rw [hE]; omega) (by rw [hE]; omega)).symm

/-- The C chunk 2's trip `k` stores are the target's words at its place. -/
theorem rowC_2 (fl : Buf (Elt F) ((thr d c i).loc cc1_scratch1))
    (labsV : Vec F S819200 .i32) (hLI : LabIs d c i labsV (51200 * i.val + 25600 * c.val + 6400) fl)
    (k : Fin k1_t2_loop.trips) (x : S16.Idx) :
    rowC (F := F) (ldRow2 d c i fl k) x
      = (tgtC (F := F) c i labsV) ((Rect.unit (s := S2048) (k1_off29 k) S16.size (k1_off29_inb k)).emb x) := by
  have hk : k.val < 32 := lt_of_lt_of_le k.isLt k1_t2_abs.2.1
  have hc : c.val < 2 := c.isLt
  have hi : i.val < 16 := i.isLt
  have hx16 : (x 0).val < 16 := (x 0).isLt
  have hg : ∀ g : Fin 13, g.val < 12 → ldRow2 d c i fl k g = labRow labsV (256 * i.val + 128 * c.val + 32 + k.val) g := by
    intro g hg
    funext x
    have hx : (x 0).val < 16 := (x 0).isLt
    match g, hg with
    | 0, _ =>
      exact ldL_eq_labRow d c i labsV (51200 * i.val + 25600 * c.val + 6400) fl hLI (k1_off16 k) (k1_off16_inb k) (256 * i.val + 128 * c.val + 32 + k.val) 0
        (by show (256 * i.val + 128 * c.val + 32 + k.val) * 200 + 0 * 16 = (51200 * i.val + 25600 * c.val + 6400) + (k1_off16 k) 0; simp only [k1_off16_eq, Matrix.cons_val_zero]; omega) x
        (by show (k1_off16 k) 0 + (x 0).val < 6400; simp only [k1_off16_eq, Matrix.cons_val_zero]; omega)
    | 1, _ =>
      exact ldL_eq_labRow d c i labsV (51200 * i.val + 25600 * c.val + 6400) fl hLI (k1_off17 k) (k1_off17_inb k) (256 * i.val + 128 * c.val + 32 + k.val) 1
        (by show (256 * i.val + 128 * c.val + 32 + k.val) * 200 + 1 * 16 = (51200 * i.val + 25600 * c.val + 6400) + (k1_off17 k) 0; simp only [k1_off17_eq, Matrix.cons_val_zero]; omega) x
        (by show (k1_off17 k) 0 + (x 0).val < 6400; simp only [k1_off17_eq, Matrix.cons_val_zero]; omega)
    | 2, _ =>
      exact ldL_eq_labRow d c i labsV (51200 * i.val + 25600 * c.val + 6400) fl hLI (k1_off18 k) (k1_off18_inb k) (256 * i.val + 128 * c.val + 32 + k.val) 2
        (by show (256 * i.val + 128 * c.val + 32 + k.val) * 200 + 2 * 16 = (51200 * i.val + 25600 * c.val + 6400) + (k1_off18 k) 0; simp only [k1_off18_eq, Matrix.cons_val_zero]; omega) x
        (by show (k1_off18 k) 0 + (x 0).val < 6400; simp only [k1_off18_eq, Matrix.cons_val_zero]; omega)
    | 3, _ =>
      exact ldL_eq_labRow d c i labsV (51200 * i.val + 25600 * c.val + 6400) fl hLI (k1_off19 k) (k1_off19_inb k) (256 * i.val + 128 * c.val + 32 + k.val) 3
        (by show (256 * i.val + 128 * c.val + 32 + k.val) * 200 + 3 * 16 = (51200 * i.val + 25600 * c.val + 6400) + (k1_off19 k) 0; simp only [k1_off19_eq, Matrix.cons_val_zero]; omega) x
        (by show (k1_off19 k) 0 + (x 0).val < 6400; simp only [k1_off19_eq, Matrix.cons_val_zero]; omega)
    | 4, _ =>
      exact ldL_eq_labRow d c i labsV (51200 * i.val + 25600 * c.val + 6400) fl hLI (k1_off20 k) (k1_off20_inb k) (256 * i.val + 128 * c.val + 32 + k.val) 4
        (by show (256 * i.val + 128 * c.val + 32 + k.val) * 200 + 4 * 16 = (51200 * i.val + 25600 * c.val + 6400) + (k1_off20 k) 0; simp only [k1_off20_eq, Matrix.cons_val_zero]; omega) x
        (by show (k1_off20 k) 0 + (x 0).val < 6400; simp only [k1_off20_eq, Matrix.cons_val_zero]; omega)
    | 5, _ =>
      exact ldL_eq_labRow d c i labsV (51200 * i.val + 25600 * c.val + 6400) fl hLI (k1_off21 k) (k1_off21_inb k) (256 * i.val + 128 * c.val + 32 + k.val) 5
        (by show (256 * i.val + 128 * c.val + 32 + k.val) * 200 + 5 * 16 = (51200 * i.val + 25600 * c.val + 6400) + (k1_off21 k) 0; simp only [k1_off21_eq, Matrix.cons_val_zero]; omega) x
        (by show (k1_off21 k) 0 + (x 0).val < 6400; simp only [k1_off21_eq, Matrix.cons_val_zero]; omega)
    | 6, _ =>
      exact ldL_eq_labRow d c i labsV (51200 * i.val + 25600 * c.val + 6400) fl hLI (k1_off22 k) (k1_off22_inb k) (256 * i.val + 128 * c.val + 32 + k.val) 6
        (by show (256 * i.val + 128 * c.val + 32 + k.val) * 200 + 6 * 16 = (51200 * i.val + 25600 * c.val + 6400) + (k1_off22 k) 0; simp only [k1_off22_eq, Matrix.cons_val_zero]; omega) x
        (by show (k1_off22 k) 0 + (x 0).val < 6400; simp only [k1_off22_eq, Matrix.cons_val_zero]; omega)
    | 7, _ =>
      exact ldL_eq_labRow d c i labsV (51200 * i.val + 25600 * c.val + 6400) fl hLI (k1_off23 k) (k1_off23_inb k) (256 * i.val + 128 * c.val + 32 + k.val) 7
        (by show (256 * i.val + 128 * c.val + 32 + k.val) * 200 + 7 * 16 = (51200 * i.val + 25600 * c.val + 6400) + (k1_off23 k) 0; simp only [k1_off23_eq, Matrix.cons_val_zero]; omega) x
        (by show (k1_off23 k) 0 + (x 0).val < 6400; simp only [k1_off23_eq, Matrix.cons_val_zero]; omega)
    | 8, _ =>
      exact ldL_eq_labRow d c i labsV (51200 * i.val + 25600 * c.val + 6400) fl hLI (k1_off24 k) (k1_off24_inb k) (256 * i.val + 128 * c.val + 32 + k.val) 8
        (by show (256 * i.val + 128 * c.val + 32 + k.val) * 200 + 8 * 16 = (51200 * i.val + 25600 * c.val + 6400) + (k1_off24 k) 0; simp only [k1_off24_eq, Matrix.cons_val_zero]; omega) x
        (by show (k1_off24 k) 0 + (x 0).val < 6400; simp only [k1_off24_eq, Matrix.cons_val_zero]; omega)
    | 9, _ =>
      exact ldL_eq_labRow d c i labsV (51200 * i.val + 25600 * c.val + 6400) fl hLI (k1_off25 k) (k1_off25_inb k) (256 * i.val + 128 * c.val + 32 + k.val) 9
        (by show (256 * i.val + 128 * c.val + 32 + k.val) * 200 + 9 * 16 = (51200 * i.val + 25600 * c.val + 6400) + (k1_off25 k) 0; simp only [k1_off25_eq, Matrix.cons_val_zero]; omega) x
        (by show (k1_off25 k) 0 + (x 0).val < 6400; simp only [k1_off25_eq, Matrix.cons_val_zero]; omega)
    | 10, _ =>
      exact ldL_eq_labRow d c i labsV (51200 * i.val + 25600 * c.val + 6400) fl hLI (k1_off26 k) (k1_off26_inb k) (256 * i.val + 128 * c.val + 32 + k.val) 10
        (by show (256 * i.val + 128 * c.val + 32 + k.val) * 200 + 10 * 16 = (51200 * i.val + 25600 * c.val + 6400) + (k1_off26 k) 0; simp only [k1_off26_eq, Matrix.cons_val_zero]; omega) x
        (by show (k1_off26 k) 0 + (x 0).val < 6400; simp only [k1_off26_eq, Matrix.cons_val_zero]; omega)
    | 11, _ =>
      exact ldL_eq_labRow d c i labsV (51200 * i.val + 25600 * c.val + 6400) fl hLI (k1_off27 k) (k1_off27_inb k) (256 * i.val + 128 * c.val + 32 + k.val) 11
        (by show (256 * i.val + 128 * c.val + 32 + k.val) * 200 + 11 * 16 = (51200 * i.val + 25600 * c.val + 6400) + (k1_off27 k) 0; simp only [k1_off27_eq, Matrix.cons_val_zero]; omega) x
        (by show (k1_off27 k) 0 + (x 0).val < 6400; simp only [k1_off27_eq, Matrix.cons_val_zero]; omega)
    | ⟨n + 12, _⟩, hg => exact absurd hg (Nat.not_lt.2 (Nat.le_add_left _ _))
  have h12 : ∀ x : S16.Idx, (x 0).val < 8 → ldRow2 d c i fl k 12 x = labRow labsV (256 * i.val + 128 * c.val + 32 + k.val) 12 x := by
    intro x hx
    exact ldL_eq_labRow d c i labsV (51200 * i.val + 25600 * c.val + 6400) fl hLI (k1_off28 k) (k1_off28_inb k) (256 * i.val + 128 * c.val + 32 + k.val) 12
      (by show (256 * i.val + 128 * c.val + 32 + k.val) * 200 + 12 * 16 = (51200 * i.val + 25600 * c.val + 6400) + (k1_off28 k) 0; simp only [k1_off28_eq, Matrix.cons_val_zero]; omega) x
      (by show (k1_off28 k) 0 + (x 0).val < 6400; simp only [k1_off28_eq, Matrix.cons_val_zero]; omega)
  rw [rowC_congr _ _ hg h12]
  have hE : (((Rect.unit (s := S2048) (k1_off29 k) S16.size (k1_off29_inb k)).emb x) 0).val = 512 + 16 * k.val + (x 0).val := by
    rw [Rect.emb_apply]
    show (k1_off29 k) 0 + 1 * (x 0).val = _
    simp only [k1_off29_eq, Matrix.cons_val_zero]; omega
  exact (tgtC_at c i labsV _ (256 * i.val + 128 * c.val + 32 + k.val) x (by rw [hE]; omega) (by rw [hE]; omega)).symm

/-- The S chunk 3's trip `k` stores are the target's words at its place. -/
theorem rowS_3 (ft : Buf (Elt F) ((thr d c i).loc cc1_scratch0)) (fl : Buf (Elt F) ((thr d c i).loc cc1_scratch1))
    (tvec : Vec F S100000 .f32) (labsV : Vec F S819200 .i32) (htv : tvacc d c i ft = tvec) (hLI : LabIs d c i labsV (51200 * i.val + 25600 * c.val + 12800) fl)
    (k : Fin k1_t3_loop.trips) (x : S16.Idx) :
    rowS (tvacc d c i ft) (ldRow3 d c i fl k) x
      = (tgtS c i tvec labsV) ((Rect.unit (s := S2048) (k1_off43 k) S16.size (k1_off43_inb k)).emb x) := by
  have hk : k.val < 32 := lt_of_lt_of_le k.isLt k1_t3_abs.2.1
  have hc : c.val < 2 := c.isLt
  have hi : i.val < 16 := i.isLt
  have hx16 : (x 0).val < 16 := (x 0).isLt
  have hg : ∀ g : Fin 13, g.val < 12 → ldRow3 d c i fl k g = labRow labsV (256 * i.val + 128 * c.val + 64 + k.val) g := by
    intro g hg
    funext x
    have hx : (x 0).val < 16 := (x 0).isLt
    match g, hg with
    | 0, _ =>
      exact ldL_eq_labRow d c i labsV (51200 * i.val + 25600 * c.val + 12800) fl hLI (k1_off30 k) (k1_off30_inb k) (256 * i.val + 128 * c.val + 64 + k.val) 0
        (by show (256 * i.val + 128 * c.val + 64 + k.val) * 200 + 0 * 16 = (51200 * i.val + 25600 * c.val + 12800) + (k1_off30 k) 0; simp only [k1_off30_eq, Matrix.cons_val_zero]; omega) x
        (by show (k1_off30 k) 0 + (x 0).val < 6400; simp only [k1_off30_eq, Matrix.cons_val_zero]; omega)
    | 1, _ =>
      exact ldL_eq_labRow d c i labsV (51200 * i.val + 25600 * c.val + 12800) fl hLI (k1_off31 k) (k1_off31_inb k) (256 * i.val + 128 * c.val + 64 + k.val) 1
        (by show (256 * i.val + 128 * c.val + 64 + k.val) * 200 + 1 * 16 = (51200 * i.val + 25600 * c.val + 12800) + (k1_off31 k) 0; simp only [k1_off31_eq, Matrix.cons_val_zero]; omega) x
        (by show (k1_off31 k) 0 + (x 0).val < 6400; simp only [k1_off31_eq, Matrix.cons_val_zero]; omega)
    | 2, _ =>
      exact ldL_eq_labRow d c i labsV (51200 * i.val + 25600 * c.val + 12800) fl hLI (k1_off32 k) (k1_off32_inb k) (256 * i.val + 128 * c.val + 64 + k.val) 2
        (by show (256 * i.val + 128 * c.val + 64 + k.val) * 200 + 2 * 16 = (51200 * i.val + 25600 * c.val + 12800) + (k1_off32 k) 0; simp only [k1_off32_eq, Matrix.cons_val_zero]; omega) x
        (by show (k1_off32 k) 0 + (x 0).val < 6400; simp only [k1_off32_eq, Matrix.cons_val_zero]; omega)
    | 3, _ =>
      exact ldL_eq_labRow d c i labsV (51200 * i.val + 25600 * c.val + 12800) fl hLI (k1_off33 k) (k1_off33_inb k) (256 * i.val + 128 * c.val + 64 + k.val) 3
        (by show (256 * i.val + 128 * c.val + 64 + k.val) * 200 + 3 * 16 = (51200 * i.val + 25600 * c.val + 12800) + (k1_off33 k) 0; simp only [k1_off33_eq, Matrix.cons_val_zero]; omega) x
        (by show (k1_off33 k) 0 + (x 0).val < 6400; simp only [k1_off33_eq, Matrix.cons_val_zero]; omega)
    | 4, _ =>
      exact ldL_eq_labRow d c i labsV (51200 * i.val + 25600 * c.val + 12800) fl hLI (k1_off34 k) (k1_off34_inb k) (256 * i.val + 128 * c.val + 64 + k.val) 4
        (by show (256 * i.val + 128 * c.val + 64 + k.val) * 200 + 4 * 16 = (51200 * i.val + 25600 * c.val + 12800) + (k1_off34 k) 0; simp only [k1_off34_eq, Matrix.cons_val_zero]; omega) x
        (by show (k1_off34 k) 0 + (x 0).val < 6400; simp only [k1_off34_eq, Matrix.cons_val_zero]; omega)
    | 5, _ =>
      exact ldL_eq_labRow d c i labsV (51200 * i.val + 25600 * c.val + 12800) fl hLI (k1_off35 k) (k1_off35_inb k) (256 * i.val + 128 * c.val + 64 + k.val) 5
        (by show (256 * i.val + 128 * c.val + 64 + k.val) * 200 + 5 * 16 = (51200 * i.val + 25600 * c.val + 12800) + (k1_off35 k) 0; simp only [k1_off35_eq, Matrix.cons_val_zero]; omega) x
        (by show (k1_off35 k) 0 + (x 0).val < 6400; simp only [k1_off35_eq, Matrix.cons_val_zero]; omega)
    | 6, _ =>
      exact ldL_eq_labRow d c i labsV (51200 * i.val + 25600 * c.val + 12800) fl hLI (k1_off36 k) (k1_off36_inb k) (256 * i.val + 128 * c.val + 64 + k.val) 6
        (by show (256 * i.val + 128 * c.val + 64 + k.val) * 200 + 6 * 16 = (51200 * i.val + 25600 * c.val + 12800) + (k1_off36 k) 0; simp only [k1_off36_eq, Matrix.cons_val_zero]; omega) x
        (by show (k1_off36 k) 0 + (x 0).val < 6400; simp only [k1_off36_eq, Matrix.cons_val_zero]; omega)
    | 7, _ =>
      exact ldL_eq_labRow d c i labsV (51200 * i.val + 25600 * c.val + 12800) fl hLI (k1_off37 k) (k1_off37_inb k) (256 * i.val + 128 * c.val + 64 + k.val) 7
        (by show (256 * i.val + 128 * c.val + 64 + k.val) * 200 + 7 * 16 = (51200 * i.val + 25600 * c.val + 12800) + (k1_off37 k) 0; simp only [k1_off37_eq, Matrix.cons_val_zero]; omega) x
        (by show (k1_off37 k) 0 + (x 0).val < 6400; simp only [k1_off37_eq, Matrix.cons_val_zero]; omega)
    | 8, _ =>
      exact ldL_eq_labRow d c i labsV (51200 * i.val + 25600 * c.val + 12800) fl hLI (k1_off38 k) (k1_off38_inb k) (256 * i.val + 128 * c.val + 64 + k.val) 8
        (by show (256 * i.val + 128 * c.val + 64 + k.val) * 200 + 8 * 16 = (51200 * i.val + 25600 * c.val + 12800) + (k1_off38 k) 0; simp only [k1_off38_eq, Matrix.cons_val_zero]; omega) x
        (by show (k1_off38 k) 0 + (x 0).val < 6400; simp only [k1_off38_eq, Matrix.cons_val_zero]; omega)
    | 9, _ =>
      exact ldL_eq_labRow d c i labsV (51200 * i.val + 25600 * c.val + 12800) fl hLI (k1_off39 k) (k1_off39_inb k) (256 * i.val + 128 * c.val + 64 + k.val) 9
        (by show (256 * i.val + 128 * c.val + 64 + k.val) * 200 + 9 * 16 = (51200 * i.val + 25600 * c.val + 12800) + (k1_off39 k) 0; simp only [k1_off39_eq, Matrix.cons_val_zero]; omega) x
        (by show (k1_off39 k) 0 + (x 0).val < 6400; simp only [k1_off39_eq, Matrix.cons_val_zero]; omega)
    | 10, _ =>
      exact ldL_eq_labRow d c i labsV (51200 * i.val + 25600 * c.val + 12800) fl hLI (k1_off40 k) (k1_off40_inb k) (256 * i.val + 128 * c.val + 64 + k.val) 10
        (by show (256 * i.val + 128 * c.val + 64 + k.val) * 200 + 10 * 16 = (51200 * i.val + 25600 * c.val + 12800) + (k1_off40 k) 0; simp only [k1_off40_eq, Matrix.cons_val_zero]; omega) x
        (by show (k1_off40 k) 0 + (x 0).val < 6400; simp only [k1_off40_eq, Matrix.cons_val_zero]; omega)
    | 11, _ =>
      exact ldL_eq_labRow d c i labsV (51200 * i.val + 25600 * c.val + 12800) fl hLI (k1_off41 k) (k1_off41_inb k) (256 * i.val + 128 * c.val + 64 + k.val) 11
        (by show (256 * i.val + 128 * c.val + 64 + k.val) * 200 + 11 * 16 = (51200 * i.val + 25600 * c.val + 12800) + (k1_off41 k) 0; simp only [k1_off41_eq, Matrix.cons_val_zero]; omega) x
        (by show (k1_off41 k) 0 + (x 0).val < 6400; simp only [k1_off41_eq, Matrix.cons_val_zero]; omega)
    | ⟨n + 12, _⟩, hg => exact absurd hg (Nat.not_lt.2 (Nat.le_add_left _ _))
  have h12 : ∀ x : S16.Idx, (x 0).val < 8 → ldRow3 d c i fl k 12 x = labRow labsV (256 * i.val + 128 * c.val + 64 + k.val) 12 x := by
    intro x hx
    exact ldL_eq_labRow d c i labsV (51200 * i.val + 25600 * c.val + 12800) fl hLI (k1_off42 k) (k1_off42_inb k) (256 * i.val + 128 * c.val + 64 + k.val) 12
      (by show (256 * i.val + 128 * c.val + 64 + k.val) * 200 + 12 * 16 = (51200 * i.val + 25600 * c.val + 12800) + (k1_off42 k) 0; simp only [k1_off42_eq, Matrix.cons_val_zero]; omega) x
      (by show (k1_off42 k) 0 + (x 0).val < 6400; simp only [k1_off42_eq, Matrix.cons_val_zero]; omega)
  rw [htv]
  rw [rowS_congr tvec _ _ hg h12]
  have hE : (((Rect.unit (s := S2048) (k1_off43 k) S16.size (k1_off43_inb k)).emb x) 0).val = 1024 + 16 * k.val + (x 0).val := by
    rw [Rect.emb_apply]
    show (k1_off43 k) 0 + 1 * (x 0).val = _
    simp only [k1_off43_eq, Matrix.cons_val_zero]; omega
  exact (tgtS_at c i tvec labsV _ (256 * i.val + 128 * c.val + 64 + k.val) x (by rw [hE]; omega) (by rw [hE]; omega)).symm

/-- The C chunk 3's trip `k` stores are the target's words at its place. -/
theorem rowC_3 (fl : Buf (Elt F) ((thr d c i).loc cc1_scratch1))
    (labsV : Vec F S819200 .i32) (hLI : LabIs d c i labsV (51200 * i.val + 25600 * c.val + 12800) fl)
    (k : Fin k1_t3_loop.trips) (x : S16.Idx) :
    rowC (F := F) (ldRow3 d c i fl k) x
      = (tgtC (F := F) c i labsV) ((Rect.unit (s := S2048) (k1_off43 k) S16.size (k1_off43_inb k)).emb x) := by
  have hk : k.val < 32 := lt_of_lt_of_le k.isLt k1_t3_abs.2.1
  have hc : c.val < 2 := c.isLt
  have hi : i.val < 16 := i.isLt
  have hx16 : (x 0).val < 16 := (x 0).isLt
  have hg : ∀ g : Fin 13, g.val < 12 → ldRow3 d c i fl k g = labRow labsV (256 * i.val + 128 * c.val + 64 + k.val) g := by
    intro g hg
    funext x
    have hx : (x 0).val < 16 := (x 0).isLt
    match g, hg with
    | 0, _ =>
      exact ldL_eq_labRow d c i labsV (51200 * i.val + 25600 * c.val + 12800) fl hLI (k1_off30 k) (k1_off30_inb k) (256 * i.val + 128 * c.val + 64 + k.val) 0
        (by show (256 * i.val + 128 * c.val + 64 + k.val) * 200 + 0 * 16 = (51200 * i.val + 25600 * c.val + 12800) + (k1_off30 k) 0; simp only [k1_off30_eq, Matrix.cons_val_zero]; omega) x
        (by show (k1_off30 k) 0 + (x 0).val < 6400; simp only [k1_off30_eq, Matrix.cons_val_zero]; omega)
    | 1, _ =>
      exact ldL_eq_labRow d c i labsV (51200 * i.val + 25600 * c.val + 12800) fl hLI (k1_off31 k) (k1_off31_inb k) (256 * i.val + 128 * c.val + 64 + k.val) 1
        (by show (256 * i.val + 128 * c.val + 64 + k.val) * 200 + 1 * 16 = (51200 * i.val + 25600 * c.val + 12800) + (k1_off31 k) 0; simp only [k1_off31_eq, Matrix.cons_val_zero]; omega) x
        (by show (k1_off31 k) 0 + (x 0).val < 6400; simp only [k1_off31_eq, Matrix.cons_val_zero]; omega)
    | 2, _ =>
      exact ldL_eq_labRow d c i labsV (51200 * i.val + 25600 * c.val + 12800) fl hLI (k1_off32 k) (k1_off32_inb k) (256 * i.val + 128 * c.val + 64 + k.val) 2
        (by show (256 * i.val + 128 * c.val + 64 + k.val) * 200 + 2 * 16 = (51200 * i.val + 25600 * c.val + 12800) + (k1_off32 k) 0; simp only [k1_off32_eq, Matrix.cons_val_zero]; omega) x
        (by show (k1_off32 k) 0 + (x 0).val < 6400; simp only [k1_off32_eq, Matrix.cons_val_zero]; omega)
    | 3, _ =>
      exact ldL_eq_labRow d c i labsV (51200 * i.val + 25600 * c.val + 12800) fl hLI (k1_off33 k) (k1_off33_inb k) (256 * i.val + 128 * c.val + 64 + k.val) 3
        (by show (256 * i.val + 128 * c.val + 64 + k.val) * 200 + 3 * 16 = (51200 * i.val + 25600 * c.val + 12800) + (k1_off33 k) 0; simp only [k1_off33_eq, Matrix.cons_val_zero]; omega) x
        (by show (k1_off33 k) 0 + (x 0).val < 6400; simp only [k1_off33_eq, Matrix.cons_val_zero]; omega)
    | 4, _ =>
      exact ldL_eq_labRow d c i labsV (51200 * i.val + 25600 * c.val + 12800) fl hLI (k1_off34 k) (k1_off34_inb k) (256 * i.val + 128 * c.val + 64 + k.val) 4
        (by show (256 * i.val + 128 * c.val + 64 + k.val) * 200 + 4 * 16 = (51200 * i.val + 25600 * c.val + 12800) + (k1_off34 k) 0; simp only [k1_off34_eq, Matrix.cons_val_zero]; omega) x
        (by show (k1_off34 k) 0 + (x 0).val < 6400; simp only [k1_off34_eq, Matrix.cons_val_zero]; omega)
    | 5, _ =>
      exact ldL_eq_labRow d c i labsV (51200 * i.val + 25600 * c.val + 12800) fl hLI (k1_off35 k) (k1_off35_inb k) (256 * i.val + 128 * c.val + 64 + k.val) 5
        (by show (256 * i.val + 128 * c.val + 64 + k.val) * 200 + 5 * 16 = (51200 * i.val + 25600 * c.val + 12800) + (k1_off35 k) 0; simp only [k1_off35_eq, Matrix.cons_val_zero]; omega) x
        (by show (k1_off35 k) 0 + (x 0).val < 6400; simp only [k1_off35_eq, Matrix.cons_val_zero]; omega)
    | 6, _ =>
      exact ldL_eq_labRow d c i labsV (51200 * i.val + 25600 * c.val + 12800) fl hLI (k1_off36 k) (k1_off36_inb k) (256 * i.val + 128 * c.val + 64 + k.val) 6
        (by show (256 * i.val + 128 * c.val + 64 + k.val) * 200 + 6 * 16 = (51200 * i.val + 25600 * c.val + 12800) + (k1_off36 k) 0; simp only [k1_off36_eq, Matrix.cons_val_zero]; omega) x
        (by show (k1_off36 k) 0 + (x 0).val < 6400; simp only [k1_off36_eq, Matrix.cons_val_zero]; omega)
    | 7, _ =>
      exact ldL_eq_labRow d c i labsV (51200 * i.val + 25600 * c.val + 12800) fl hLI (k1_off37 k) (k1_off37_inb k) (256 * i.val + 128 * c.val + 64 + k.val) 7
        (by show (256 * i.val + 128 * c.val + 64 + k.val) * 200 + 7 * 16 = (51200 * i.val + 25600 * c.val + 12800) + (k1_off37 k) 0; simp only [k1_off37_eq, Matrix.cons_val_zero]; omega) x
        (by show (k1_off37 k) 0 + (x 0).val < 6400; simp only [k1_off37_eq, Matrix.cons_val_zero]; omega)
    | 8, _ =>
      exact ldL_eq_labRow d c i labsV (51200 * i.val + 25600 * c.val + 12800) fl hLI (k1_off38 k) (k1_off38_inb k) (256 * i.val + 128 * c.val + 64 + k.val) 8
        (by show (256 * i.val + 128 * c.val + 64 + k.val) * 200 + 8 * 16 = (51200 * i.val + 25600 * c.val + 12800) + (k1_off38 k) 0; simp only [k1_off38_eq, Matrix.cons_val_zero]; omega) x
        (by show (k1_off38 k) 0 + (x 0).val < 6400; simp only [k1_off38_eq, Matrix.cons_val_zero]; omega)
    | 9, _ =>
      exact ldL_eq_labRow d c i labsV (51200 * i.val + 25600 * c.val + 12800) fl hLI (k1_off39 k) (k1_off39_inb k) (256 * i.val + 128 * c.val + 64 + k.val) 9
        (by show (256 * i.val + 128 * c.val + 64 + k.val) * 200 + 9 * 16 = (51200 * i.val + 25600 * c.val + 12800) + (k1_off39 k) 0; simp only [k1_off39_eq, Matrix.cons_val_zero]; omega) x
        (by show (k1_off39 k) 0 + (x 0).val < 6400; simp only [k1_off39_eq, Matrix.cons_val_zero]; omega)
    | 10, _ =>
      exact ldL_eq_labRow d c i labsV (51200 * i.val + 25600 * c.val + 12800) fl hLI (k1_off40 k) (k1_off40_inb k) (256 * i.val + 128 * c.val + 64 + k.val) 10
        (by show (256 * i.val + 128 * c.val + 64 + k.val) * 200 + 10 * 16 = (51200 * i.val + 25600 * c.val + 12800) + (k1_off40 k) 0; simp only [k1_off40_eq, Matrix.cons_val_zero]; omega) x
        (by show (k1_off40 k) 0 + (x 0).val < 6400; simp only [k1_off40_eq, Matrix.cons_val_zero]; omega)
    | 11, _ =>
      exact ldL_eq_labRow d c i labsV (51200 * i.val + 25600 * c.val + 12800) fl hLI (k1_off41 k) (k1_off41_inb k) (256 * i.val + 128 * c.val + 64 + k.val) 11
        (by show (256 * i.val + 128 * c.val + 64 + k.val) * 200 + 11 * 16 = (51200 * i.val + 25600 * c.val + 12800) + (k1_off41 k) 0; simp only [k1_off41_eq, Matrix.cons_val_zero]; omega) x
        (by show (k1_off41 k) 0 + (x 0).val < 6400; simp only [k1_off41_eq, Matrix.cons_val_zero]; omega)
    | ⟨n + 12, _⟩, hg => exact absurd hg (Nat.not_lt.2 (Nat.le_add_left _ _))
  have h12 : ∀ x : S16.Idx, (x 0).val < 8 → ldRow3 d c i fl k 12 x = labRow labsV (256 * i.val + 128 * c.val + 64 + k.val) 12 x := by
    intro x hx
    exact ldL_eq_labRow d c i labsV (51200 * i.val + 25600 * c.val + 12800) fl hLI (k1_off42 k) (k1_off42_inb k) (256 * i.val + 128 * c.val + 64 + k.val) 12
      (by show (256 * i.val + 128 * c.val + 64 + k.val) * 200 + 12 * 16 = (51200 * i.val + 25600 * c.val + 12800) + (k1_off42 k) 0; simp only [k1_off42_eq, Matrix.cons_val_zero]; omega) x
      (by show (k1_off42 k) 0 + (x 0).val < 6400; simp only [k1_off42_eq, Matrix.cons_val_zero]; omega)
  rw [rowC_congr _ _ hg h12]
  have hE : (((Rect.unit (s := S2048) (k1_off43 k) S16.size (k1_off43_inb k)).emb x) 0).val = 1024 + 16 * k.val + (x 0).val := by
    rw [Rect.emb_apply]
    show (k1_off43 k) 0 + 1 * (x 0).val = _
    simp only [k1_off43_eq, Matrix.cons_val_zero]; omega
  exact (tgtC_at c i labsV _ (256 * i.val + 128 * c.val + 64 + k.val) x (by rw [hE]; omega) (by rw [hE]; omega)).symm

/-- The S chunk 4's trip `k` stores are the target's words at its place. -/
theorem rowS_4 (ft : Buf (Elt F) ((thr d c i).loc cc1_scratch0)) (fl : Buf (Elt F) ((thr d c i).loc cc1_scratch1))
    (tvec : Vec F S100000 .f32) (labsV : Vec F S819200 .i32) (htv : tvacc d c i ft = tvec) (hLI : LabIs d c i labsV (51200 * i.val + 25600 * c.val + 19200) fl)
    (k : Fin k1_t4_loop.trips) (x : S16.Idx) :
    rowS (tvacc d c i ft) (ldRow4 d c i fl k) x
      = (tgtS c i tvec labsV) ((Rect.unit (s := S2048) (k1_off57 k) S16.size (k1_off57_inb k)).emb x) := by
  have hk : k.val < 32 := lt_of_lt_of_le k.isLt k1_t4_abs.2.1
  have hc : c.val < 2 := c.isLt
  have hi : i.val < 16 := i.isLt
  have hx16 : (x 0).val < 16 := (x 0).isLt
  have hg : ∀ g : Fin 13, g.val < 12 → ldRow4 d c i fl k g = labRow labsV (256 * i.val + 128 * c.val + 96 + k.val) g := by
    intro g hg
    funext x
    have hx : (x 0).val < 16 := (x 0).isLt
    match g, hg with
    | 0, _ =>
      exact ldL_eq_labRow d c i labsV (51200 * i.val + 25600 * c.val + 19200) fl hLI (k1_off44 k) (k1_off44_inb k) (256 * i.val + 128 * c.val + 96 + k.val) 0
        (by show (256 * i.val + 128 * c.val + 96 + k.val) * 200 + 0 * 16 = (51200 * i.val + 25600 * c.val + 19200) + (k1_off44 k) 0; simp only [k1_off44_eq, Matrix.cons_val_zero]; omega) x
        (by show (k1_off44 k) 0 + (x 0).val < 6400; simp only [k1_off44_eq, Matrix.cons_val_zero]; omega)
    | 1, _ =>
      exact ldL_eq_labRow d c i labsV (51200 * i.val + 25600 * c.val + 19200) fl hLI (k1_off45 k) (k1_off45_inb k) (256 * i.val + 128 * c.val + 96 + k.val) 1
        (by show (256 * i.val + 128 * c.val + 96 + k.val) * 200 + 1 * 16 = (51200 * i.val + 25600 * c.val + 19200) + (k1_off45 k) 0; simp only [k1_off45_eq, Matrix.cons_val_zero]; omega) x
        (by show (k1_off45 k) 0 + (x 0).val < 6400; simp only [k1_off45_eq, Matrix.cons_val_zero]; omega)
    | 2, _ =>
      exact ldL_eq_labRow d c i labsV (51200 * i.val + 25600 * c.val + 19200) fl hLI (k1_off46 k) (k1_off46_inb k) (256 * i.val + 128 * c.val + 96 + k.val) 2
        (by show (256 * i.val + 128 * c.val + 96 + k.val) * 200 + 2 * 16 = (51200 * i.val + 25600 * c.val + 19200) + (k1_off46 k) 0; simp only [k1_off46_eq, Matrix.cons_val_zero]; omega) x
        (by show (k1_off46 k) 0 + (x 0).val < 6400; simp only [k1_off46_eq, Matrix.cons_val_zero]; omega)
    | 3, _ =>
      exact ldL_eq_labRow d c i labsV (51200 * i.val + 25600 * c.val + 19200) fl hLI (k1_off47 k) (k1_off47_inb k) (256 * i.val + 128 * c.val + 96 + k.val) 3
        (by show (256 * i.val + 128 * c.val + 96 + k.val) * 200 + 3 * 16 = (51200 * i.val + 25600 * c.val + 19200) + (k1_off47 k) 0; simp only [k1_off47_eq, Matrix.cons_val_zero]; omega) x
        (by show (k1_off47 k) 0 + (x 0).val < 6400; simp only [k1_off47_eq, Matrix.cons_val_zero]; omega)
    | 4, _ =>
      exact ldL_eq_labRow d c i labsV (51200 * i.val + 25600 * c.val + 19200) fl hLI (k1_off48 k) (k1_off48_inb k) (256 * i.val + 128 * c.val + 96 + k.val) 4
        (by show (256 * i.val + 128 * c.val + 96 + k.val) * 200 + 4 * 16 = (51200 * i.val + 25600 * c.val + 19200) + (k1_off48 k) 0; simp only [k1_off48_eq, Matrix.cons_val_zero]; omega) x
        (by show (k1_off48 k) 0 + (x 0).val < 6400; simp only [k1_off48_eq, Matrix.cons_val_zero]; omega)
    | 5, _ =>
      exact ldL_eq_labRow d c i labsV (51200 * i.val + 25600 * c.val + 19200) fl hLI (k1_off49 k) (k1_off49_inb k) (256 * i.val + 128 * c.val + 96 + k.val) 5
        (by show (256 * i.val + 128 * c.val + 96 + k.val) * 200 + 5 * 16 = (51200 * i.val + 25600 * c.val + 19200) + (k1_off49 k) 0; simp only [k1_off49_eq, Matrix.cons_val_zero]; omega) x
        (by show (k1_off49 k) 0 + (x 0).val < 6400; simp only [k1_off49_eq, Matrix.cons_val_zero]; omega)
    | 6, _ =>
      exact ldL_eq_labRow d c i labsV (51200 * i.val + 25600 * c.val + 19200) fl hLI (k1_off50 k) (k1_off50_inb k) (256 * i.val + 128 * c.val + 96 + k.val) 6
        (by show (256 * i.val + 128 * c.val + 96 + k.val) * 200 + 6 * 16 = (51200 * i.val + 25600 * c.val + 19200) + (k1_off50 k) 0; simp only [k1_off50_eq, Matrix.cons_val_zero]; omega) x
        (by show (k1_off50 k) 0 + (x 0).val < 6400; simp only [k1_off50_eq, Matrix.cons_val_zero]; omega)
    | 7, _ =>
      exact ldL_eq_labRow d c i labsV (51200 * i.val + 25600 * c.val + 19200) fl hLI (k1_off51 k) (k1_off51_inb k) (256 * i.val + 128 * c.val + 96 + k.val) 7
        (by show (256 * i.val + 128 * c.val + 96 + k.val) * 200 + 7 * 16 = (51200 * i.val + 25600 * c.val + 19200) + (k1_off51 k) 0; simp only [k1_off51_eq, Matrix.cons_val_zero]; omega) x
        (by show (k1_off51 k) 0 + (x 0).val < 6400; simp only [k1_off51_eq, Matrix.cons_val_zero]; omega)
    | 8, _ =>
      exact ldL_eq_labRow d c i labsV (51200 * i.val + 25600 * c.val + 19200) fl hLI (k1_off52 k) (k1_off52_inb k) (256 * i.val + 128 * c.val + 96 + k.val) 8
        (by show (256 * i.val + 128 * c.val + 96 + k.val) * 200 + 8 * 16 = (51200 * i.val + 25600 * c.val + 19200) + (k1_off52 k) 0; simp only [k1_off52_eq, Matrix.cons_val_zero]; omega) x
        (by show (k1_off52 k) 0 + (x 0).val < 6400; simp only [k1_off52_eq, Matrix.cons_val_zero]; omega)
    | 9, _ =>
      exact ldL_eq_labRow d c i labsV (51200 * i.val + 25600 * c.val + 19200) fl hLI (k1_off53 k) (k1_off53_inb k) (256 * i.val + 128 * c.val + 96 + k.val) 9
        (by show (256 * i.val + 128 * c.val + 96 + k.val) * 200 + 9 * 16 = (51200 * i.val + 25600 * c.val + 19200) + (k1_off53 k) 0; simp only [k1_off53_eq, Matrix.cons_val_zero]; omega) x
        (by show (k1_off53 k) 0 + (x 0).val < 6400; simp only [k1_off53_eq, Matrix.cons_val_zero]; omega)
    | 10, _ =>
      exact ldL_eq_labRow d c i labsV (51200 * i.val + 25600 * c.val + 19200) fl hLI (k1_off54 k) (k1_off54_inb k) (256 * i.val + 128 * c.val + 96 + k.val) 10
        (by show (256 * i.val + 128 * c.val + 96 + k.val) * 200 + 10 * 16 = (51200 * i.val + 25600 * c.val + 19200) + (k1_off54 k) 0; simp only [k1_off54_eq, Matrix.cons_val_zero]; omega) x
        (by show (k1_off54 k) 0 + (x 0).val < 6400; simp only [k1_off54_eq, Matrix.cons_val_zero]; omega)
    | 11, _ =>
      exact ldL_eq_labRow d c i labsV (51200 * i.val + 25600 * c.val + 19200) fl hLI (k1_off55 k) (k1_off55_inb k) (256 * i.val + 128 * c.val + 96 + k.val) 11
        (by show (256 * i.val + 128 * c.val + 96 + k.val) * 200 + 11 * 16 = (51200 * i.val + 25600 * c.val + 19200) + (k1_off55 k) 0; simp only [k1_off55_eq, Matrix.cons_val_zero]; omega) x
        (by show (k1_off55 k) 0 + (x 0).val < 6400; simp only [k1_off55_eq, Matrix.cons_val_zero]; omega)
    | ⟨n + 12, _⟩, hg => exact absurd hg (Nat.not_lt.2 (Nat.le_add_left _ _))
  have h12 : ∀ x : S16.Idx, (x 0).val < 8 → ldRow4 d c i fl k 12 x = labRow labsV (256 * i.val + 128 * c.val + 96 + k.val) 12 x := by
    intro x hx
    exact ldL_eq_labRow d c i labsV (51200 * i.val + 25600 * c.val + 19200) fl hLI (k1_off56 k) (k1_off56_inb k) (256 * i.val + 128 * c.val + 96 + k.val) 12
      (by show (256 * i.val + 128 * c.val + 96 + k.val) * 200 + 12 * 16 = (51200 * i.val + 25600 * c.val + 19200) + (k1_off56 k) 0; simp only [k1_off56_eq, Matrix.cons_val_zero]; omega) x
      (by show (k1_off56 k) 0 + (x 0).val < 6400; simp only [k1_off56_eq, Matrix.cons_val_zero]; omega)
  rw [htv]
  rw [rowS_congr tvec _ _ hg h12]
  have hE : (((Rect.unit (s := S2048) (k1_off57 k) S16.size (k1_off57_inb k)).emb x) 0).val = 1536 + 16 * k.val + (x 0).val := by
    rw [Rect.emb_apply]
    show (k1_off57 k) 0 + 1 * (x 0).val = _
    simp only [k1_off57_eq, Matrix.cons_val_zero]; omega
  exact (tgtS_at c i tvec labsV _ (256 * i.val + 128 * c.val + 96 + k.val) x (by rw [hE]; omega) (by rw [hE]; omega)).symm

/-- The C chunk 4's trip `k` stores are the target's words at its place. -/
theorem rowC_4 (fl : Buf (Elt F) ((thr d c i).loc cc1_scratch1))
    (labsV : Vec F S819200 .i32) (hLI : LabIs d c i labsV (51200 * i.val + 25600 * c.val + 19200) fl)
    (k : Fin k1_t4_loop.trips) (x : S16.Idx) :
    rowC (F := F) (ldRow4 d c i fl k) x
      = (tgtC (F := F) c i labsV) ((Rect.unit (s := S2048) (k1_off57 k) S16.size (k1_off57_inb k)).emb x) := by
  have hk : k.val < 32 := lt_of_lt_of_le k.isLt k1_t4_abs.2.1
  have hc : c.val < 2 := c.isLt
  have hi : i.val < 16 := i.isLt
  have hx16 : (x 0).val < 16 := (x 0).isLt
  have hg : ∀ g : Fin 13, g.val < 12 → ldRow4 d c i fl k g = labRow labsV (256 * i.val + 128 * c.val + 96 + k.val) g := by
    intro g hg
    funext x
    have hx : (x 0).val < 16 := (x 0).isLt
    match g, hg with
    | 0, _ =>
      exact ldL_eq_labRow d c i labsV (51200 * i.val + 25600 * c.val + 19200) fl hLI (k1_off44 k) (k1_off44_inb k) (256 * i.val + 128 * c.val + 96 + k.val) 0
        (by show (256 * i.val + 128 * c.val + 96 + k.val) * 200 + 0 * 16 = (51200 * i.val + 25600 * c.val + 19200) + (k1_off44 k) 0; simp only [k1_off44_eq, Matrix.cons_val_zero]; omega) x
        (by show (k1_off44 k) 0 + (x 0).val < 6400; simp only [k1_off44_eq, Matrix.cons_val_zero]; omega)
    | 1, _ =>
      exact ldL_eq_labRow d c i labsV (51200 * i.val + 25600 * c.val + 19200) fl hLI (k1_off45 k) (k1_off45_inb k) (256 * i.val + 128 * c.val + 96 + k.val) 1
        (by show (256 * i.val + 128 * c.val + 96 + k.val) * 200 + 1 * 16 = (51200 * i.val + 25600 * c.val + 19200) + (k1_off45 k) 0; simp only [k1_off45_eq, Matrix.cons_val_zero]; omega) x
        (by show (k1_off45 k) 0 + (x 0).val < 6400; simp only [k1_off45_eq, Matrix.cons_val_zero]; omega)
    | 2, _ =>
      exact ldL_eq_labRow d c i labsV (51200 * i.val + 25600 * c.val + 19200) fl hLI (k1_off46 k) (k1_off46_inb k) (256 * i.val + 128 * c.val + 96 + k.val) 2
        (by show (256 * i.val + 128 * c.val + 96 + k.val) * 200 + 2 * 16 = (51200 * i.val + 25600 * c.val + 19200) + (k1_off46 k) 0; simp only [k1_off46_eq, Matrix.cons_val_zero]; omega) x
        (by show (k1_off46 k) 0 + (x 0).val < 6400; simp only [k1_off46_eq, Matrix.cons_val_zero]; omega)
    | 3, _ =>
      exact ldL_eq_labRow d c i labsV (51200 * i.val + 25600 * c.val + 19200) fl hLI (k1_off47 k) (k1_off47_inb k) (256 * i.val + 128 * c.val + 96 + k.val) 3
        (by show (256 * i.val + 128 * c.val + 96 + k.val) * 200 + 3 * 16 = (51200 * i.val + 25600 * c.val + 19200) + (k1_off47 k) 0; simp only [k1_off47_eq, Matrix.cons_val_zero]; omega) x
        (by show (k1_off47 k) 0 + (x 0).val < 6400; simp only [k1_off47_eq, Matrix.cons_val_zero]; omega)
    | 4, _ =>
      exact ldL_eq_labRow d c i labsV (51200 * i.val + 25600 * c.val + 19200) fl hLI (k1_off48 k) (k1_off48_inb k) (256 * i.val + 128 * c.val + 96 + k.val) 4
        (by show (256 * i.val + 128 * c.val + 96 + k.val) * 200 + 4 * 16 = (51200 * i.val + 25600 * c.val + 19200) + (k1_off48 k) 0; simp only [k1_off48_eq, Matrix.cons_val_zero]; omega) x
        (by show (k1_off48 k) 0 + (x 0).val < 6400; simp only [k1_off48_eq, Matrix.cons_val_zero]; omega)
    | 5, _ =>
      exact ldL_eq_labRow d c i labsV (51200 * i.val + 25600 * c.val + 19200) fl hLI (k1_off49 k) (k1_off49_inb k) (256 * i.val + 128 * c.val + 96 + k.val) 5
        (by show (256 * i.val + 128 * c.val + 96 + k.val) * 200 + 5 * 16 = (51200 * i.val + 25600 * c.val + 19200) + (k1_off49 k) 0; simp only [k1_off49_eq, Matrix.cons_val_zero]; omega) x
        (by show (k1_off49 k) 0 + (x 0).val < 6400; simp only [k1_off49_eq, Matrix.cons_val_zero]; omega)
    | 6, _ =>
      exact ldL_eq_labRow d c i labsV (51200 * i.val + 25600 * c.val + 19200) fl hLI (k1_off50 k) (k1_off50_inb k) (256 * i.val + 128 * c.val + 96 + k.val) 6
        (by show (256 * i.val + 128 * c.val + 96 + k.val) * 200 + 6 * 16 = (51200 * i.val + 25600 * c.val + 19200) + (k1_off50 k) 0; simp only [k1_off50_eq, Matrix.cons_val_zero]; omega) x
        (by show (k1_off50 k) 0 + (x 0).val < 6400; simp only [k1_off50_eq, Matrix.cons_val_zero]; omega)
    | 7, _ =>
      exact ldL_eq_labRow d c i labsV (51200 * i.val + 25600 * c.val + 19200) fl hLI (k1_off51 k) (k1_off51_inb k) (256 * i.val + 128 * c.val + 96 + k.val) 7
        (by show (256 * i.val + 128 * c.val + 96 + k.val) * 200 + 7 * 16 = (51200 * i.val + 25600 * c.val + 19200) + (k1_off51 k) 0; simp only [k1_off51_eq, Matrix.cons_val_zero]; omega) x
        (by show (k1_off51 k) 0 + (x 0).val < 6400; simp only [k1_off51_eq, Matrix.cons_val_zero]; omega)
    | 8, _ =>
      exact ldL_eq_labRow d c i labsV (51200 * i.val + 25600 * c.val + 19200) fl hLI (k1_off52 k) (k1_off52_inb k) (256 * i.val + 128 * c.val + 96 + k.val) 8
        (by show (256 * i.val + 128 * c.val + 96 + k.val) * 200 + 8 * 16 = (51200 * i.val + 25600 * c.val + 19200) + (k1_off52 k) 0; simp only [k1_off52_eq, Matrix.cons_val_zero]; omega) x
        (by show (k1_off52 k) 0 + (x 0).val < 6400; simp only [k1_off52_eq, Matrix.cons_val_zero]; omega)
    | 9, _ =>
      exact ldL_eq_labRow d c i labsV (51200 * i.val + 25600 * c.val + 19200) fl hLI (k1_off53 k) (k1_off53_inb k) (256 * i.val + 128 * c.val + 96 + k.val) 9
        (by show (256 * i.val + 128 * c.val + 96 + k.val) * 200 + 9 * 16 = (51200 * i.val + 25600 * c.val + 19200) + (k1_off53 k) 0; simp only [k1_off53_eq, Matrix.cons_val_zero]; omega) x
        (by show (k1_off53 k) 0 + (x 0).val < 6400; simp only [k1_off53_eq, Matrix.cons_val_zero]; omega)
    | 10, _ =>
      exact ldL_eq_labRow d c i labsV (51200 * i.val + 25600 * c.val + 19200) fl hLI (k1_off54 k) (k1_off54_inb k) (256 * i.val + 128 * c.val + 96 + k.val) 10
        (by show (256 * i.val + 128 * c.val + 96 + k.val) * 200 + 10 * 16 = (51200 * i.val + 25600 * c.val + 19200) + (k1_off54 k) 0; simp only [k1_off54_eq, Matrix.cons_val_zero]; omega) x
        (by show (k1_off54 k) 0 + (x 0).val < 6400; simp only [k1_off54_eq, Matrix.cons_val_zero]; omega)
    | 11, _ =>
      exact ldL_eq_labRow d c i labsV (51200 * i.val + 25600 * c.val + 19200) fl hLI (k1_off55 k) (k1_off55_inb k) (256 * i.val + 128 * c.val + 96 + k.val) 11
        (by show (256 * i.val + 128 * c.val + 96 + k.val) * 200 + 11 * 16 = (51200 * i.val + 25600 * c.val + 19200) + (k1_off55 k) 0; simp only [k1_off55_eq, Matrix.cons_val_zero]; omega) x
        (by show (k1_off55 k) 0 + (x 0).val < 6400; simp only [k1_off55_eq, Matrix.cons_val_zero]; omega)
    | ⟨n + 12, _⟩, hg => exact absurd hg (Nat.not_lt.2 (Nat.le_add_left _ _))
  have h12 : ∀ x : S16.Idx, (x 0).val < 8 → ldRow4 d c i fl k 12 x = labRow labsV (256 * i.val + 128 * c.val + 96 + k.val) 12 x := by
    intro x hx
    exact ldL_eq_labRow d c i labsV (51200 * i.val + 25600 * c.val + 19200) fl hLI (k1_off56 k) (k1_off56_inb k) (256 * i.val + 128 * c.val + 96 + k.val) 12
      (by show (256 * i.val + 128 * c.val + 96 + k.val) * 200 + 12 * 16 = (51200 * i.val + 25600 * c.val + 19200) + (k1_off56 k) 0; simp only [k1_off56_eq, Matrix.cons_val_zero]; omega) x
      (by show (k1_off56 k) 0 + (x 0).val < 6400; simp only [k1_off56_eq, Matrix.cons_val_zero]; omega)
  rw [rowC_congr _ _ hg h12]
  have hE : (((Rect.unit (s := S2048) (k1_off57 k) S16.size (k1_off57_inb k)).emb x) 0).val = 1536 + 16 * k.val + (x 0).val := by
    rw [Rect.emb_apply]
    show (k1_off57 k) 0 + 1 * (x 0).val = _
    simp only [k1_off57_eq, Matrix.cons_val_zero]; omega
  exact (tgtC_at c i labsV _ (256 * i.val + 128 * c.val + 96 + k.val) x (by rw [hE]; omega) (by rw [hE]; omega)).symm

end Tile
end Cert.KernelIdeal.Hand.Pool
end
-- ==== Proof.PoolValIO.lean ====
import proofs.«203204_g25512105739078_cont_8to1_1946_3_alg».proof.Proof.Common
import proofs.«203204_g25512105739078_cont_8to1_1946_3_alg».proof.Proof.PoolValRows

noncomputable section

namespace Cert.KernelIdeal.Hand.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Tile
variable (d : Dev nD) (c : Fin (grid1.bound 0)) (i : Fin (grid1.bound 1))
variable [FloatOps F]

omit d c i in
/-- Two indices into a flat array are equal when their one coordinate is. -/
theorem idx1_ext {n : ℕ} (p q : (⟨1, ![n]⟩ : Shape).Idx) (h : (p 0).val = (q 0).val) : p = q := by
  funext a
  obtain rfl : a = 0 := Subsingleton.elim _ _
  exact Fin.ext h

/-- After a chunk's copy has landed, the first 6400 words of the label scratch are the flat labels from the chunk's first word on. -/
theorem labIs_of_writes (labs : Buf (Elt F) (lLoc d)) (fl0 : Buf (Elt F) ((thr d c i).loc cc1_scratch1))
    (off : Fin 1 → ℕ) (hin : ∀ a, off a + S6400.size a ≤ S819200.size a)
    (hr : ∀ a, (Rect.unit (s := S819200) off S6400.size hin).stride a = 1) (base : ℕ) (hoff : off 0 = base)
    (L : List (View.Piece (Elt F) S6416 .i32)) :
    LabIs d c i (labs : Vec F S819200 .i32) base ((lS).view.writes (Elt F) fl0
      (⟨Rect.unit (s := S6416) ![0] S6400.size inb_S6416_S6400_0, ReadAs.same.apply (View.read (Elt F) ((lV).slice (Rect.unit (s := S819200) off S6400.size hin) hr).view labs)⟩ :: L)) := by
  intro y hy
  have hmem : y ∈ (Rect.unit (s := S6416) ![0] S6400.size inb_S6416_S6400_0).set := by
    rw [Rect.mem_set_unit]
    intro a
    obtain rfl : a = 0 := Subsingleton.elim _ _
    exact ⟨Nat.zero_le _, by show (y 0).val < 0 + 6400; omega⟩
  rw [← Rect.map_emb_univ, Finset.mem_map] at hmem
  obtain ⟨x, -, hx⟩ := hmem
  have h := View.read_writes_cons_emb (v := (lS).view) (Val := Elt F) (f := fl0) (Rect.unit (s := S6416) ![0] S6400.size inb_S6416_S6400_0)
    (ReadAs.same.apply (View.read (Elt F) ((lV).slice (Rect.unit (s := S819200) off S6400.size hin) hr).view labs)) L x
  rw [hx] at h
  simp only [Memref.view_whole, View.read_whole] at h
  simp only [Memref.view_whole]
  rw [h, ReadAs.apply_same]
  have hy0 : (y 0).val = (x 0).val := by
    rw [← hx, Rect.emb_apply]
    show 0 + 1 * (x 0).val = (x 0).val
    omega
  have hlt : base + (y 0).val < 819200 := by
    have := hin 0
    have h1 : off 0 + 6400 ≤ 819200 := this
    omega
  refine ((View.read_apply _ _).trans (cast_eq _ _)).trans ?_
  unfold labAt
  rw [dif_pos hlt]
  have hidx : (((lV).slice (Rect.unit (s := S819200) off S6400.size hin) hr).view.emb x : S819200.Idx)
      = Shape.ofLane (d := ![819200]) ⟨base + (y 0).val, hlt⟩ := by
    refine idx1_ext _ _ ?_
    show off 0 + 1 * (x 0).val = base + (y 0).val
    omega
  exact congrArg (labs : S819200.Idx → BitVec 32) hidx

/-- A tile's piece of a result, after its result scratch has been copied out to it, holds the pooled values. -/
theorem outS_contents (fs0 : Buf (Elt F) (sLoc d)) (w : S2048.Idx → Elt F .f32) (tvec : Vec F S100000 .f32) (labsV : Vec F S819200 .i32)
    (hw : ∀ y, w y = tgtS c i tvec labsV y) :
    ∀ idx ∈ (outS c i).view.set, ((outS c i).view.writes (Elt F) fs0 [⟨Rect.whole S2048, w⟩]) idx = (poolS tvec labsV : Buf (Elt F) (sLoc d)) idx := by
  intro idx hidx
  unfold View.set at hidx
  rw [Finset.mem_map] at hidx
  obtain ⟨x, -, hx⟩ := hidx
  have h := View.read_writes_cons_emb (v := (outS c i).view) (Val := Elt F) (f := fs0) (Rect.whole S2048) w [] x
  rw [Rect.emb_whole_apply] at h
  have h2 := ((View.read_apply (v := (outS c i).view) (Val := Elt F) ((outS c i).view.writes (Elt F) fs0 [⟨Rect.whole S2048, w⟩]) x).trans (cast_eq _ _)).symm.trans h
  rw [hx] at h2
  rw [h2, hw x]
  unfold tgtS
  have hb : 4096 * i.val + 2048 * c.val + (x 0).val < 65536 := by
    have hc : c.val < 2 := c.isLt
    have hi : i.val < 16 := i.isLt
    have hy : (x 0).val < 2048 := (x 0).isLt
    omega
  have hidx : (idx : S65536.Idx) = Shape.ofLane (d := ![65536]) ⟨4096 * i.val + 2048 * c.val + (x 0).val, hb⟩ := by
    rw [← hx]
    refine idx1_ext _ _ ?_
    show (k1_off58 (coordsV c i)) 0 + 1 * (x 0).val = 4096 * i.val + 2048 * c.val + (x 0).val
    rw [k1_off58_eq]
    show 4096 * i.val + 2048 * c.val + 1 * (x 0).val = _
    omega
  exact (congrArg (poolS tvec labsV) hidx).symm

theorem outC_contents (fc0 : Buf (Elt F) (cLoc d)) (w : S2048.Idx → Elt F .f32) (labsV : Vec F S819200 .i32)
    (hw : ∀ y, w y = tgtC (F := F) c i labsV y) :
    ∀ idx ∈ (outC c i).view.set, ((outC c i).view.writes (Elt F) fc0 [⟨Rect.whole S2048, w⟩]) idx = (poolC (F := F) labsV : Buf (Elt F) (cLoc d)) idx := by
  intro idx hidx
  unfold View.set at hidx
  rw [Finset.mem_map] at hidx
  obtain ⟨x, -, hx⟩ := hidx
  have h := View.read_writes_cons_emb (v := (outC c i).view) (Val := Elt F) (f := fc0) (Rect.whole S2048) w [] x
  rw [Rect.emb_whole_apply] at h
  have h2 := ((View.read_apply (v := (outC c i).view) (Val := Elt F) ((outC c i).view.writes (Elt F) fc0 [⟨Rect.whole S2048, w⟩]) x).trans (cast_eq _ _)).symm.trans h
  rw [hx] at h2
  rw [h2, hw x]
  unfold tgtC
  have hb : 4096 * i.val + 2048 * c.val + (x 0).val < 65536 := by
    have hc : c.val < 2 := c.isLt
    have hi : i.val < 16 := i.isLt
    have hy : (x 0).val < 2048 := (x 0).isLt
    omega
  have hidx : (idx : S65536.Idx) = Shape.ofLane (d := ![65536]) ⟨4096 * i.val + 2048 * c.val + (x 0).val, hb⟩ := by
    rw [← hx]
    refine idx1_ext _ _ ?_
    show (k1_off58 (coordsV c i)) 0 + 1 * (x 0).val = 4096 * i.val + 2048 * c.val + (x 0).val
    rw [k1_off58_eq]
    show 4096 * i.val + 2048 * c.val + 1 * (x 0).val = _
    omega
  exact (congrArg (poolC (F := F) labsV) hidx).symm

end Tile
end Cert.KernelIdeal.Hand.Pool
end
-- ==== Proof.PoolBody.lean ====
import proofs.«203204_g25512105739078_cont_8to1_1946_3_alg».proof.Proof.Common
import proofs.«203204_g25512105739078_cont_8to1_1946_3_alg».proof.Proof.PoolValIO

noncomputable section

namespace Cert.KernelIdeal.Hand.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.Tactic

section Tile
variable (d : Dev nD) (c : Fin (grid1.bound 0)) (i : Fin (grid1.bound 1))

/-- The arrays as the tile's memrefs address them are the TensorCore's arrays. -/
theorem pts_t (q : PosShare TreeShare) (f : Buf (Elt F) (tLoc d)) :
    ((tV).view.loc (thr d c i) ↦{q} f : sProp 𝕄) = tLoc d ↦{q} f := by
  simp only [Memref.view_whole, View.set_whole]
theorem pts_l (q : PosShare TreeShare) (f : Buf (Elt F) (lLoc d)) :
    ((lV).view.loc (thr d c i) ↦{q} f : sProp 𝕄) = lLoc d ↦{q} f := by
  simp only [Memref.view_whole, View.set_whole]
theorem pts_os (f : Buf (Elt F) (sLoc d)) :
    ((outS c i).view.loc (thr d c i) ↦[(outS c i).view.set]{fullShare} f : sProp 𝕄) = sLoc d ↦[(outS c i).view.set]{fullShare} f := rfl
theorem pts_oc (f : Buf (Elt F) (cLoc d)) :
    ((outC c i).view.loc (thr d c i) ↦[(outC c i).view.set]{fullShare} f : sProp 𝕄) = cLoc d ↦[(outC c i).view.set]{fullShare} f := rfl
theorem pts_tS (f : Buf (Elt F) ((thr d c i).loc cc1_scratch0)) :
    ((tS).view.loc (thr d c i) ↦{fullShare} f : sProp 𝕄) = (thr d c i).loc cc1_scratch0 ↦{fullShare} f := rfl
theorem pts_lS (f : Buf (Elt F) ((thr d c i).loc cc1_scratch1)) :
    ((lS).view.loc (thr d c i) ↦{fullShare} f : sProp 𝕄) = (thr d c i).loc cc1_scratch1 ↦{fullShare} f := rfl
theorem pts_sS (f : Buf (Elt F) ((thr d c i).loc cc1_scratch2)) :
    ((sS).view.loc (thr d c i) ↦{fullShare} f : sProp 𝕄) = (thr d c i).loc cc1_scratch2 ↦{fullShare} f := rfl
theorem pts_cS (f : Buf (Elt F) ((thr d c i).loc cc1_scratch3)) :
    ((cS).view.loc (thr d c i) ↦{fullShare} f : sProp 𝕄) = (thr d c i).loc cc1_scratch3 ↦{fullShare} f := rfl

/-- A word read out of the flat labels through a chunk's slice of them is a label in range. -/
theorem read_lab_lt (labs : Buf (Elt F) (lLoc d)) (hlab : ∀ x, (labs x : BitVec 32).toNat < 100000)
    (off : Fin 1 → ℕ) (hin : ∀ a, off a + S6400.size a ≤ S819200.size a) (hr : ∀ a, (Rect.unit (s := S819200) off S6400.size hin).stride a = 1) (j : S6400.Idx) :
    (((lV).slice (Rect.unit (s := S819200) off S6400.size hin) hr).view.read (Elt F) labs j : BitVec 32).toNat < 100000 :=
  lt_of_eq_of_lt (congrArg BitVec.toNat ((View.read_apply _ _).trans (cast_eq _ _))) (hlab _)

variable [FloatOps F]

theorem tileBody (qT qL : PosShare TreeShare) (tv : Buf (Elt F) (tLoc d)) (labs : Buf (Elt F) (lLoc d))
    (hlab : ∀ x, (labs x : BitVec 32).toNat < 100000) (O : CellTallies nD τ sig (HIx 1)) (W : Waits sig (HIx 1)) (hO : ∀ g, O g none = 0) :
    iprop(levAts (K (F := F)).L (K (F := F)).lev ∗ tileGo qT qL d tv labs c i
        ∗ scopedBufs (thr d c i) ∗ scopedSems0 (thr d c i) ∗ owes (thr d c i) O W)
      ⊢ wp frame (wpE (defs₀ (F := F)) 𝒱₀ (thr d c i) none) Set.univ
          (cc1__pool (coordsV c i) tV (Memref.isWhole_whole _) lV (Memref.isWhole_whole _) sV (Memref.isWhole_whole _) cV (Memref.isWhole_whole _)
            tS (Memref.isWhole_whole _) lS (Memref.isWhole_whole _) sS (Memref.isWhole_whole _) cS (Memref.isWhole_whole _)
            cc1_scoped0 cc1_scoped1 cc1_scoped2 cc1_scoped3 cc1_scoped4 cc1_scoped5 cc1_scoped6)
          fun _ => iprop(tileTd qT qL d tv labs c i ∗ scopedBufs (thr d c i) ∗ scopedSems0 (thr d c i)
            ∗ ∃ W', ⌜∀ p ∈ W', p ∈ W ∨ p.2 = none⌝ ∗ owes (thr d c i) O W') := by
  simp only [cc1__pool_eq_skeleton]; unfold cc1__pool_skel
  rw [(K (F := F)).scopedBufs_V facts d _ _, SparseCore.Cfg.scopedSems0_V (Val := Elt F) d _ _, ownSems0_thr, ownBufs_thr]
  unfold tileGo tileTd
  iintro ⟨#Hlv, ⟨Ht, Hl, ⟨%fs0, Hs⟩, ⟨%fc0, Hc⟩⟩, ⟨⟨%ft0, Hts⟩, ⟨%fl0, Hls⟩, ⟨%fss0, Hss⟩, ⟨%fcs0, Hcs⟩, Hbufs⟩,
    ⟨Hsem0, Hsem1, Hsem2, Hsem3, Hsem4, Hsem5, Hsem6, Hsems⟩, HO⟩
  ihave Hmw := ((K (F := F)).mayWaits_none (thr := thr d c i) hO) $$ Hlv
  ihave Ht' := (Entails.of_eq (pts_t (F := F) d c i qT _).symm) $$ Ht
  ihave Hl' := (Entails.of_eq (pts_l (F := F) d c i qL _).symm) $$ Hl
  ihave Hs' := (Entails.of_eq (pts_os (F := F) d c i _).symm) $$ Hs
  ihave Hc' := (Entails.of_eq (pts_oc (F := F) d c i _).symm) $$ Hc
  ihave Hts' := (Entails.of_eq (pts_tS (F := F) d c i _).symm) $$ Hts
  ihave Hls' := (Entails.of_eq (pts_lS (F := F) d c i _).symm) $$ Hls
  ihave Hss' := (Entails.of_eq (pts_sS (F := F) d c i _).symm) $$ Hss
  ihave Hcs' := (Entails.of_eq (pts_cS (F := F) d c i _).symm) $$ Hcs
  sl_exec

  ihave Hta := (Entails.of_eq (pts_tS_acc (F := F) d c i _)) $$ Hts'

  have htv : tvacc d c i (View.write (Elt F) tS.view ft0 (tileBody.sl.dma0 d tv) Finset.univ) = (tv : Vec F S100000 .f32) := by
    refine (Memref.read_access_whole (Elt F) cc1_scratch0 _).trans ?_
    refine (View.write_whole_univ (Val := Elt F) cc1_scratch0 ft0 _).trans ?_
    unfold tileBody.sl.dma0
    rfl

  have hfl1 : LabOK d c i ((lS).view.writes (Elt F) fl0 [⟨Rect.unit ![0] S6400.size inb_S6416_S6400_0, tileBody.sl.dma0_1 d c i labs⟩]) := by
    apply labOK_of_writes
    intro j
    unfold tileBody.sl.dma0_1
    exact read_lab_lt d labs hlab _ _ _ j
  have hLI1 : LabIs d c i (labs : Vec F S819200 .i32) (51200 * i.val + 25600 * c.val + 0) ((lS).view.writes (Elt F) fl0 [⟨Rect.unit ![0] S6400.size inb_S6416_S6400_0, tileBody.sl.dma0_1 d c i labs⟩]) := by
    unfold tileBody.sl.dma0_1
    exact labIs_of_writes d c i labs fl0 _ _ _ _ (by
      show (k1_off1 (coordsV c i) (BitVec.ofNat 32 (6400 * (0 : Fin 4).val))) 0 = _
      rw [k1_off1_eq]
      show 51200 * i.val + 25600 * c.val + 6400 * 0 = _
      omega) _
  have ht1 : Scf.trips k1_t1_loop.lb k1_t1_loop.ub k1_t1_loop.st = 32 := by decide
  sl_for (inv d c i (View.write (Elt F) tS.view ft0 (tileBody.sl.dma0 d tv) Finset.univ)
      ((lS).view.writes (Elt F) fl0 [⟨Rect.unit ![0] S6400.size inb_S6416_S6400_0, tileBody.sl.dma0_1 d c i labs⟩]) (tgtS c i (tv : Vec F S100000 .f32) (labs : Vec F S819200 .i32)) (tgtC (F := F) c i (labs : Vec F S819200 .i32)) 0) $$ [Hta Hls' Hss' Hcs']
  case region =>
    intro k u
    exact trip1 d c i _ _ hfl1 _ _ (rowS_1 d c i _ _ _ _ htv hLI1) (rowC_1 d c i _ _ hLI1) k u
  · unfold inv
    isplitl [Hta]; · iexact Hta
    isplitl [Hls']; · iexact Hls'
    isplitl [Hss']
    · iexists _; isplitl [Hss']; · iexact Hss'
      ipureintro; intro y hy; exact absurd hy (by omega)
    · iexists _; isplitl [Hcs']; · iexact Hcs'
      ipureintro; intro y hy; exact absurd hy (by omega)
  iintro %_ HI
  unfold inv
  icases HI with ⟨Hta, Hls', ⟨%fs1, Hss', %hfs1⟩, ⟨%fc1, Hcs', %hfc1⟩⟩
  sl_exec

  have hfl2 : LabOK d c i ((lS).view.writes (Elt F) fl0 [⟨Rect.unit ![0] S6400.size inb_S6416_S6400_0, tileBody.sl.dma0_2 d c i labs⟩, ⟨Rect.unit ![0] S6400.size inb_S6416_S6400_0, tileBody.sl.dma0_1 d c i labs⟩]) := by
    apply labOK_of_writes
    intro j
    unfold tileBody.sl.dma0_2
    exact read_lab_lt d labs hlab _ _ _ j
  have hLI2 : LabIs d c i (labs : Vec F S819200 .i32) (51200 * i.val + 25600 * c.val + 6400) ((lS).view.writes (Elt F) fl0 [⟨Rect.unit ![0] S6400.size inb_S6416_S6400_0, tileBody.sl.dma0_2 d c i labs⟩, ⟨Rect.unit ![0] S6400.size inb_S6416_S6400_0, tileBody.sl.dma0_1 d c i labs⟩]) := by
    unfold tileBody.sl.dma0_2
    exact labIs_of_writes d c i labs fl0 _ _ _ _ (by
      show (k1_off1 (coordsV c i) (BitVec.ofNat 32 (6400 * (1 : Fin 4).val))) 0 = _
      rw [k1_off1_eq]
      show 51200 * i.val + 25600 * c.val + 6400 * 1 = _
      omega) _
  have ht2 : Scf.trips k1_t2_loop.lb k1_t2_loop.ub k1_t2_loop.st = 32 := by decide
  sl_for (inv d c i (View.write (Elt F) tS.view ft0 (tileBody.sl.dma0 d tv) Finset.univ)
      ((lS).view.writes (Elt F) fl0 [⟨Rect.unit ![0] S6400.size inb_S6416_S6400_0, tileBody.sl.dma0_2 d c i labs⟩, ⟨Rect.unit ![0] S6400.size inb_S6416_S6400_0, tileBody.sl.dma0_1 d c i labs⟩]) (tgtS c i (tv : Vec F S100000 .f32) (labs : Vec F S819200 .i32)) (tgtC (F := F) c i (labs : Vec F S819200 .i32)) 512) $$ [Hta Hls' Hss' Hcs']
  case region =>
    intro k u
    exact trip2 d c i _ _ hfl2 _ _ (rowS_2 d c i _ _ _ _ htv hLI2) (rowC_2 d c i _ _ hLI2) k u
  · unfold inv
    isplitl [Hta]; · iexact Hta
    isplitl [Hls']; · iexact Hls'
    isplitl [Hss']
    · iexists _; isplitl [Hss']; · iexact Hss'
      ipureintro; intro y hy; exact hfs1 y (by rw [ht1]; omega)
    · iexists _; isplitl [Hcs']; · iexact Hcs'
      ipureintro; intro y hy; exact hfc1 y (by rw [ht1]; omega)
  iintro %_ HI
  unfold inv
  icases HI with ⟨Hta, Hls', ⟨%fs2, Hss', %hfs2⟩, ⟨%fc2, Hcs', %hfc2⟩⟩
  sl_exec

  have hfl3 : LabOK d c i ((lS).view.writes (Elt F) fl0 [⟨Rect.unit ![0] S6400.size inb_S6416_S6400_0, tileBody.sl.dma0_3 d c i labs⟩, ⟨Rect.unit ![0] S6400.size inb_S6416_S6400_0, tileBody.sl.dma0_2 d c i labs⟩, ⟨Rect.unit ![0] S6400.size inb_S6416_S6400_0, tileBody.sl.dma0_1 d c i labs⟩]) := by
    apply labOK_of_writes
    intro j
    unfold tileBody.sl.dma0_3
    exact read_lab_lt d labs hlab _ _ _ j
  have hLI3 : LabIs d c i (labs : Vec F S819200 .i32) (51200 * i.val + 25600 * c.val + 12800) ((lS).view.writes (Elt F) fl0 [⟨Rect.unit ![0] S6400.size inb_S6416_S6400_0, tileBody.sl.dma0_3 d c i labs⟩, ⟨Rect.unit ![0] S6400.size inb_S6416_S6400_0, tileBody.sl.dma0_2 d c i labs⟩, ⟨Rect.unit ![0] S6400.size inb_S6416_S6400_0, tileBody.sl.dma0_1 d c i labs⟩]) := by
    unfold tileBody.sl.dma0_3
    exact labIs_of_writes d c i labs fl0 _ _ _ _ (by
      show (k1_off1 (coordsV c i) (BitVec.ofNat 32 (6400 * (2 : Fin 4).val))) 0 = _
      rw [k1_off1_eq]
      show 51200 * i.val + 25600 * c.val + 6400 * 2 = _
      omega) _
  have ht3 : Scf.trips k1_t3_loop.lb k1_t3_loop.ub k1_t3_loop.st = 32 := by decide
  sl_for (inv d c i (View.write (Elt F) tS.view ft0 (tileBody.sl.dma0 d tv) Finset.univ)
      ((lS).view.writes (Elt F) fl0 [⟨Rect.unit ![0] S6400.size inb_S6416_S6400_0, tileBody.sl.dma0_3 d c i labs⟩, ⟨Rect.unit ![0] S6400.size inb_S6416_S6400_0, tileBody.sl.dma0_2 d c i labs⟩, ⟨Rect.unit ![0] S6400.size inb_S6416_S6400_0, tileBody.sl.dma0_1 d c i labs⟩]) (tgtS c i (tv : Vec F S100000 .f32) (labs : Vec F S819200 .i32)) (tgtC (F := F) c i (labs : Vec F S819200 .i32)) 1024) $$ [Hta Hls' Hss' Hcs']
  case region =>
    intro k u
    exact trip3 d c i _ _ hfl3 _ _ (rowS_3 d c i _ _ _ _ htv hLI3) (rowC_3 d c i _ _ hLI3) _ k u
  · unfold inv
    isplitl [Hta]; · iexact Hta
    isplitl [Hls']; · iexact Hls'
    isplitl [Hss']
    · iexists _; isplitl [Hss']; · iexact Hss'
      ipureintro; intro y hy; exact hfs2 y (by rw [ht2]; omega)
    · iexists _; isplitl [Hcs']; · iexact Hcs'
      ipureintro; intro y hy; exact hfc2 y (by rw [ht2]; omega)
  iintro %_ HI
  unfold inv
  icases HI with ⟨Hta, Hls', ⟨%fs3, Hss', %hfs3⟩, ⟨%fc3, Hcs', %hfc3⟩⟩
  sl_exec

  have hfl4 : LabOK d c i ((lS).view.writes (Elt F) fl0 [⟨Rect.unit ![0] S6400.size inb_S6416_S6400_0, tileBody.sl.dma0_4 d c i labs⟩, ⟨Rect.unit ![0] S6400.size inb_S6416_S6400_0, tileBody.sl.dma0_3 d c i labs⟩, ⟨Rect.unit ![0] S6400.size inb_S6416_S6400_0, tileBody.sl.dma0_2 d c i labs⟩, ⟨Rect.unit ![0] S6400.size inb_S6416_S6400_0, tileBody.sl.dma0_1 d c i labs⟩]) := by
    apply labOK_of_writes
    intro j
    unfold tileBody.sl.dma0_4
    exact read_lab_lt d labs hlab _ _ _ j
  have hLI4 : LabIs d c i (labs : Vec F S819200 .i32) (51200 * i.val + 25600 * c.val + 19200) ((lS).view.writes (Elt F) fl0 [⟨Rect.unit ![0] S6400.size inb_S6416_S6400_0, tileBody.sl.dma0_4 d c i labs⟩, ⟨Rect.unit ![0] S6400.size inb_S6416_S6400_0, tileBody.sl.dma0_3 d c i labs⟩, ⟨Rect.unit ![0] S6400.size inb_S6416_S6400_0, tileBody.sl.dma0_2 d c i labs⟩, ⟨Rect.unit ![0] S6400.size inb_S6416_S6400_0, tileBody.sl.dma0_1 d c i labs⟩]) := by
    unfold tileBody.sl.dma0_4
    exact labIs_of_writes d c i labs fl0 _ _ _ _ (by
      show (k1_off1 (coordsV c i) (BitVec.ofNat 32 (6400 * (3 : Fin 4).val))) 0 = _
      rw [k1_off1_eq]
      show 51200 * i.val + 25600 * c.val + 6400 * 3 = _
      omega) _
  have ht4 : Scf.trips k1_t4_loop.lb k1_t4_loop.ub k1_t4_loop.st = 32 := by decide
  sl_for (inv d c i (View.write (Elt F) tS.view ft0 (tileBody.sl.dma0 d tv) Finset.univ)
      ((lS).view.writes (Elt F) fl0 [⟨Rect.unit ![0] S6400.size inb_S6416_S6400_0, tileBody.sl.dma0_4 d c i labs⟩, ⟨Rect.unit ![0] S6400.size inb_S6416_S6400_0, tileBody.sl.dma0_3 d c i labs⟩, ⟨Rect.unit ![0] S6400.size inb_S6416_S6400_0, tileBody.sl.dma0_2 d c i labs⟩, ⟨Rect.unit ![0] S6400.size inb_S6416_S6400_0, tileBody.sl.dma0_1 d c i labs⟩]) (tgtS c i (tv : Vec F S100000 .f32) (labs : Vec F S819200 .i32)) (tgtC (F := F) c i (labs : Vec F S819200 .i32)) 1536) $$ [Hta Hls' Hss' Hcs']
  case region =>
    intro k u
    exact trip4 d c i _ _ hfl4 _ _ (rowS_4 d c i _ _ _ _ htv hLI4) (rowC_4 d c i _ _ hLI4) _ k u
  · unfold inv
    isplitl [Hta]; · iexact Hta
    isplitl [Hls']; · iexact Hls'
    isplitl [Hss']
    · iexists _; isplitl [Hss']; · iexact Hss'
      ipureintro; intro y hy; exact hfs3 y (by rw [ht3]; omega)
    · iexists _; isplitl [Hcs']; · iexact Hcs'
      ipureintro; intro y hy; exact hfc3 y (by rw [ht3]; omega)
  iintro %_ HI
  unfold inv
  icases HI with ⟨Hta, Hls', ⟨%fs4, Hss', %hfs4⟩, ⟨%fc4, Hcs', %hfc4⟩⟩
  sl_exec

  have houtS := outS_contents d c i fs0 (tileBody.sl.dma0_5 d c i fs4) (tv : Vec F S100000 .f32) (labs : Vec F S819200 .i32) (by
    intro y
    unfold tileBody.sl.dma0_5
    exact hfs4 y (by rw [ht4]; have hy : (y 0).val < 2048 := (y 0).isLt; omega))
  have houtC := outC_contents d c i fc0 (tileBody.sl.dma0_6 d c i fc4) (labs : Vec F S819200 .i32) (by
    intro y
    unfold tileBody.sl.dma0_6
    exact hfc4 y (by rw [ht4]; have hy : (y 0).val < 2048 := (y 0).isLt; omega))
  ihave Hs := (Entails.of_eq ((pts_os (F := F) d c i _).trans (pointsTo_congr houtS))) $$ Hs'
  ihave Hc := (Entails.of_eq ((pts_oc (F := F) d c i _).trans (pointsTo_congr houtC))) $$ Hc'

  ihave Ht := (Entails.of_eq (pts_t (F := F) d c i qT _)) $$ Ht'
  ihave Hl := (Entails.of_eq (pts_l (F := F) d c i qL _)) $$ Hl'
  sl_step
  isplitl [Ht Hl Hs Hc]
  · isplitl [Ht]; · iexact Ht
    isplitl [Hl]; · iexact Hl
    isplitl [Hs]; · iexact Hs
    iexact Hc
  isplitl [Hta Hls' Hss' Hcs' Hbufs]
  · isplitl [Hta]; · iexists _; iexact Hta
    isplitl [Hls']; · iexists _; iexact Hls'
    isplitl [Hss']; · iexists _; iexact Hss'
    isplitl [Hcs']; · iexists _; iexact Hcs'
    iexact Hbufs
  isplitl [Hsem0 Hsem1 Hsem2 Hsem3 Hsem4 Hsem5 Hsem6 Hsems]
  · isplitl [Hsem0]; · iexact Hsem0
    isplitl [Hsem1]; · iexact Hsem1
    isplitl [Hsem2]; · iexact Hsem2
    isplitl [Hsem3]; · iexact Hsem3
    isplitl [Hsem4]; · iexact Hsem4
    isplitl [Hsem5]; · iexact Hsem5
    isplitl [Hsem6]; · iexact Hsem6
    iexact Hsems
  iexists _; isplitr
  swap
  · iexact HO
  · ipureintro
    intro p hp
    simp only [Finset.mem_insert] at hp
    rcases hp with rfl | rfl | rfl | rfl | rfl | rfl | rfl | hp
    · exact .inr rfl
    · exact .inr rfl
    · exact .inr rfl
    · exact .inr rfl
    · exact .inr rfl
    · exact .inr rfl
    · exact .inr rfl
    · exact .inl hp

end Tile
end Cert.KernelIdeal.Hand.Pool
end
-- ==== Proof.SpecDefs.lean ====
/-
  The mathematics of the claim, with no program in sight: what the reference computes and what the
  kernel computes, as functions of the four inputs read as extended reals, over plain Fin indices.

  Inputs: lab : Fin 4096 → Fin 200 → BitVec 32 (the label words), emb : Fin 100000 → Fin 64 → EReal,
  W : Fin 64 → EReal, bias : EReal. A position (b, l) is VALID when its label word is positive
  as a signed integer. The float literals stay the words the programs carry, read by Ideal.ofBits.

  refY   masked mean pooling, a dense layer onto one number per row, then a softmax over all
         4096 · 200 positions of x b (valid) or the constant NEG (invalid).
  kerY   the same quantity arranged as the three kernels compute it: tOf (the dense layer applied to
         every table row first), s2Of / c2Of (sixteen-lane partial sums and counts over thirteen
         groups of sixteen positions, the last group keeping eight), softmaxOf (row sums, the row
         value, one maximum, one denominator, and the two values a position can take).
-/
import Idealize.ShloMosaic.PureOps.Ideal.Laws
import Mathlib.Tactic

noncomputable section

namespace Cert.Spec

open Idealize.ShloMosaic
open scoped BigOperators

/-! ## Words and literals -/

/-- The label words of the batch and the table, as plain functions. -/
abbrev Lab : Type := Fin 4096 → Fin 200 → BitVec 32
abbrev Emb : Type := Fin 100000 → Fin 64 → EReal

/-- A label word is valid when it is positive as a signed integer. -/
abbrev valid (w : BitVec 32) : Bool := (0#32).slt w

/-- The table row a label word addresses: the word read signed and clamped into the table. For a
    word between 0 and 99999 this is the word itself (row_val). -/
def row (w : BitVec 32) : Fin 100000 := ⟨min w.toInt.toNat 99999, by omega⟩

theorem row_val {w : BitVec 32} (h0 : 0 ≤ w.toInt) (h1 : w.toInt ≤ 99999) : (row w).val = w.toNat := by
  have : w.toInt = (w.toNat : Int) := by
    rw [BitVec.toInt_eq_toNat_cond] at h0 ⊢
    split_ifs at h0 ⊢ with h
    · rfl
    · have := w.isLt; omega
  show min w.toInt.toNat 99999 = w.toNat
  omega

/-- The literals, as the words both programs carry: 1e-6 (rounded to f32), -1000000, 819200, 1, 0. -/
abbrev eps : EReal := Ideal.ofBits .f32 0x358637BD#32
abbrev NEG : EReal := Ideal.ofBits .f32 0xC9742400#32
abbrev total : EReal := Ideal.ofBits .f32 0x49480000#32
abbrev one : EReal := Ideal.ofBits .f32 0x3F800000#32
abbrev zero : EReal := Ideal.ofBits .f32 0x00000000#32

/-- The mask of a word as a float: the one-bit comparison result converted unsigned, so 1 or 0. -/
def mask (w : BitVec 32) : EReal := (((BitVec.ofBool (valid w)).toNat : ℝ) : EReal)

theorem mask_of_valid {w : BitVec 32} (h : valid w = true) : mask w = 1 := by
  simp [mask, h]
theorem mask_of_not_valid {w : BitVec 32} (h : valid w = false) : mask w = 0 := by
  simp [mask, h]

/-! ## The reference's arrangement -/

section Reference
variable (lab : Lab) (emb : Emb) (W : Fin 64 → EReal) (bias : EReal)

/-- The number of valid positions of row b, as the sum of the masks. -/
def refCnt (b : Fin 4096) : EReal := ∑ l : Fin 200, mask (lab b l)

/-- The masked mean of the addressed table rows, coordinate e. -/
def refPooled (b : Fin 4096) (e : Fin 64) : EReal :=
  Ideal.div (∑ l : Fin 200, emb (row (lab b l)) e * mask (lab b l)) (eps + refCnt lab b)

/-- The dense layer on the pooled row. -/
def refX (b : Fin 4096) : EReal := (∑ e : Fin 64, refPooled lab emb b e * W e) + bias

/-- The value a position enters the softmax with: the row's value where valid, NEG where not. -/
def refX2 (b : Fin 4096) (l : Fin 200) : EReal :=
  refX lab emb W bias b * mask (lab b l) + (one - mask (lab b l)) * NEG

/-- The maximum over all positions, folded from ⊥. -/
def refMax : EReal :=
  (Finset.univ : Finset (Fin 4096 × Fin 200)).fold max ⊥ (fun p => refX2 lab emb W bias p.1 p.2)

def refEx (b : Fin 4096) (l : Fin 200) : EReal :=
  Ideal.exp (refX2 lab emb W bias b l - refMax lab emb W bias)

def refZ : EReal := ∑ p : Fin 4096 × Fin 200, refEx lab emb W bias p.1 p.2

/-- The reference's result. -/
def refY : Fin 4096 → Fin 200 → EReal :=
  fun b l => Ideal.div (refEx lab emb W bias b l) (refZ lab emb W bias)

end Reference

/-! ## The kernel's arrangement -/

/-- Stage 1: the dense layer applied to every table row. -/
def tOf (emb : Emb) (W : Fin 64 → EReal) : Fin 100000 → EReal := fun v => ∑ e : Fin 64, emb v e * W e

/-- The word at position n of row b; past the row's end, the zero word (which is not valid). -/
def labAt (lab : Lab) (b : Fin 4096) (n : ℕ) : BitVec 32 := if h : n < 200 then lab b ⟨n, h⟩ else 0#32

theorem labAt_of_lt (lab : Lab) (b : Fin 4096) {n : ℕ} (h : n < 200) : labAt lab b n = lab b ⟨n, h⟩ := dif_pos h
theorem labAt_of_ge (lab : Lab) (b : Fin 4096) {n : ℕ} (h : 200 ≤ n) : labAt lab b n = 0#32 := dif_neg (by omega)

/-- Lane j of group g looks at position 16 g + j; it counts when that position is inside the row
    and valid. -/
def counts (lab : Lab) (b : Fin 4096) (g : Fin 13) (j : Fin 16) : Bool := valid (labAt lab b (16 * g.val + j.val))

/-- What a lane adds to its partial sum at group g, and to its partial count. -/
def termS (t : Fin 100000 → EReal) (lab : Lab) (b : Fin 4096) (g : Fin 13) (j : Fin 16) : EReal :=
  if counts lab b g j then t (row (labAt lab b (16 * g.val + j.val))) else zero
def termC (lab : Lab) (b : Fin 4096) (g : Fin 13) (j : Fin 16) : EReal :=
  if counts lab b g j then one else zero

/-- Stage 2: lane j's partial sum of row b: the groups added left to right onto zero. -/
def s2Of (t : Fin 100000 → EReal) (lab : Lab) (b : Fin 4096) (j : Fin 16) : EReal :=
  Fin.foldl 13 (fun acc g => acc + termS t lab b g j) zero
/-- … and its partial count. -/
def c2Of (lab : Lab) (b : Fin 4096) (j : Fin 16) : EReal :=
  Fin.foldl 13 (fun acc g => acc + termC lab b g j) zero

/-! Stage 3, from the two [4096, 16] arrays. -/
section Softmax
variable (s2 c2 : Fin 4096 → Fin 16 → EReal) (bias : EReal) (lab : Lab)

def smS (b : Fin 4096) : EReal := ∑ j : Fin 16, s2 b j
def smC (b : Fin 4096) : EReal := ∑ j : Fin 16, c2 b j
def smX (b : Fin 4096) : EReal := Ideal.div (smS s2 b) (eps + smC c2 b) + bias
def smXm (b : Fin 4096) : EReal := if zero < smC c2 b then smX s2 c2 bias b else NEG
def smNinv : EReal := total - ∑ b : Fin 4096, smC c2 b
def smMrow : EReal := (Finset.univ : Finset (Fin 4096)).fold max ⊥ (fun b => smXm s2 c2 bias b)
def smM : EReal := if zero < smNinv c2 then max (smMrow s2 c2 bias) NEG else smMrow s2 c2 bias
def smE (b : Fin 4096) : EReal := Ideal.exp (smXm s2 c2 bias b - smM s2 c2 bias)
def smEneg : EReal := Ideal.exp (NEG - smM s2 c2 bias)
def smDenom : EReal := (∑ b : Fin 4096, smC c2 b * smE s2 c2 bias b) + smNinv c2 * smEneg s2 c2 bias
/-- What a valid position of row b receives, and what every invalid position receives. -/
def smA (b : Fin 4096) : EReal := Ideal.div (smE s2 c2 bias b) (smDenom s2 c2 bias)
def smSm : EReal := Ideal.div (smEneg s2 c2 bias) (smDenom s2 c2 bias)

def softmaxOf : Fin 4096 → Fin 200 → EReal :=
  fun b l => if valid (lab b l) then smA s2 c2 bias b else smSm s2 c2 bias

end Softmax

/-- The kernel's result. -/
def kerY (lab : Lab) (emb : Emb) (W : Fin 64 → EReal) (bias : EReal) : Fin 4096 → Fin 200 → EReal :=
  softmaxOf (s2Of (tOf emb W) lab) (c2Of lab) bias lab

/-! ## The partial sums written out -/

theorem s2Of_unroll (t : Fin 100000 → EReal) (lab : Lab) (b : Fin 4096) (j : Fin 16) :
    s2Of t lab b j = zero + termS t lab b 0 j + termS t lab b 1 j + termS t lab b 2 j + termS t lab b 3 j
      + termS t lab b 4 j + termS t lab b 5 j + termS t lab b 6 j + termS t lab b 7 j + termS t lab b 8 j
      + termS t lab b 9 j + termS t lab b 10 j + termS t lab b 11 j + termS t lab b 12 j := by
  simp only [s2Of, Fin.foldl_succ_last, Fin.foldl_zero]
  rfl

theorem c2Of_unroll (lab : Lab) (b : Fin 4096) (j : Fin 16) :
    c2Of lab b j = zero + termC lab b 0 j + termC lab b 1 j + termC lab b 2 j + termC lab b 3 j
      + termC lab b 4 j + termC lab b 5 j + termC lab b 6 j + termC lab b 7 j + termC lab b 8 j
      + termC lab b 9 j + termC lab b 10 j + termC lab b 11 j + termC lab b 12 j := by
  simp only [c2Of, Fin.foldl_succ_last, Fin.foldl_zero]
  rfl

/-- The lane mask as the pool kernel computes it (the word's comparison, and in the last group the lane
    below eight) is counts, for any word w that is the row's word wherever the position is inside the row. -/
theorem counts_of_word (lab : Lab) (b : Fin 4096) (g : Fin 13) (j : Fin 16) (w : BitVec 32)
    (hw : ∀ h : 16 * g.val + j.val < 200, w = lab b ⟨16 * g.val + j.val, h⟩) :
    (valid w && decide (g.val < 12 ∨ j.val < 8)) = counts lab b g j := by
  unfold counts
  by_cases h : 16 * g.val + j.val < 200
  · rw [labAt_of_lt lab b h, ← hw h]
    have : g.val < 12 ∨ j.val < 8 := by omega
    simp [this]
  · rw [labAt_of_ge lab b (by omega)]
    have : ¬ (g.val < 12 ∨ j.val < 8) := by have := g.isLt; omega
    simp [this]
    decide

end Cert.Spec
-- ==== Proof.SpecConst.lean ====
/-
  The five float literals of the two programs as extended reals: the tolerance is a positive real,
  the stand-in for minus infinity is the real -1000000, the position count is the real 819200,
  and the one and zero words are 1 and 0.
-/
import proofs.«203204_g25512105739078_cont_8to1_1946_3_alg».proof.Proof.SpecDefs

noncomputable section

namespace Cert.Spec

open Idealize.ShloMosaic

theorem zero_eq : zero = 0 := Ideal.ofBits_zero_f32

theorem one_eq : one = 1 := by
  simp [one, Ideal.ofBits, Ideal.ieee, -EReal.coe_mul] <;> norm_num

theorem NEG_eq : NEG = ((-1000000 : ℝ) : EReal) := by
  simp [NEG, Ideal.ofBits, Ideal.ieee, -EReal.coe_mul] <;> norm_num

theorem total_eq : total = ((819200 : ℝ) : EReal) := by
  simp [total, Ideal.ofBits, Ideal.ieee, -EReal.coe_mul] <;> norm_num

theorem eps_eq : eps = ((8796093 * (2 : ℝ) ^ (-43 : ℤ) : ℝ) : EReal) := by
  simp [eps, Ideal.ofBits, Ideal.ieee, -EReal.coe_mul] <;> norm_num

/-- The tolerance is a positive real. -/
theorem eps_pos : ∃ r : ℝ, 0 < r ∧ eps = (r : EReal) :=
  ⟨8796093 * (2 : ℝ) ^ (-43 : ℤ), by positivity, eps_eq⟩

end Cert.Spec
-- ==== Proof.SpecPool.lean ====
/-
  The sixteen-lane partial sums, summed over the lanes, are sums over the 200 positions of a row:
  lane j of group g looks at position 16 g + j, the 13 · 16 = 208 lane-group pairs cover the
  positions 0 … 207 once each, and the eight pairs past the row's end contribute zero.
-/
import proofs.«203204_g25512105739078_cont_8to1_1946_3_alg».proof.Proof.SpecConst

noncomputable section

namespace Cert.Spec

open Idealize.ShloMosaic
open scoped BigOperators

/-- A left-to-right sum onto z is z plus the sum. -/
theorem foldl_add_eq_sum {M : Type*} [AddCommMonoid M] (n : ℕ) (f : Fin n → M) (z : M) :
    Fin.foldl n (fun acc i => acc + f i) z = z + ∑ i, f i := by
  induction n with
  | zero => simp
  | succ n ih =>
    rw [Fin.foldl_succ_last, ih, Fin.sum_univ_castSucc, add_assoc]

/-- The position a lane-group pair looks at. -/
def pos (p : Fin 13 × Fin 16) : ℕ := 16 * p.1.val + p.2.val

/-- The pair that looks at position l of the row. -/
def pairOf (l : Fin 200) : Fin 13 × Fin 16 :=
  (⟨l.val / 16, by have := l.isLt; omega⟩, ⟨l.val % 16, by omega⟩)

theorem pos_pairOf (l : Fin 200) : pos (pairOf l) = l.val := by
  show 16 * (l.val / 16) + l.val % 16 = l.val
  omega

theorem pairOf_injective : Function.Injective pairOf := by
  intro a b h
  have h1 := congrArg pos h
  rw [pos_pairOf, pos_pairOf] at h1
  exact Fin.ext h1

/-- Summing over lanes then groups a function of the position that vanishes past the row's end is summing
    over the row. -/
theorem sum_lanes_groups {M : Type*} [AddCommMonoid M] (F : ℕ → M) (hF : ∀ n, 200 ≤ n → F n = 0) :
    ∑ j : Fin 16, ∑ g : Fin 13, F (16 * g.val + j.val) = ∑ l : Fin 200, F l.val := by
  rw [Finset.sum_comm, ← Fintype.sum_prod_type' (fun (g : Fin 13) (j : Fin 16) => F (16 * g.val + j.val))]
  show ∑ p : Fin 13 × Fin 16, F (pos p) = _
  have himg : ∑ p ∈ Finset.univ.image pairOf, F (pos p) = ∑ l : Fin 200, F l.val := by
    rw [Finset.sum_image (fun a _ b _ h => pairOf_injective h)]
    exact Finset.sum_congr rfl fun l _ => by rw [pos_pairOf]
  rw [← himg]
  symm
  apply Finset.sum_subset (Finset.subset_univ _)
  intro p _ hp
  apply hF
  by_contra hlt
  rw [not_le] at hlt
  apply hp
  rw [Finset.mem_image]
  refine ⟨⟨pos p, hlt⟩, Finset.mem_univ _, ?_⟩
  obtain ⟨g, j⟩ := p
  have hg := g.isLt
  have hj := j.isLt
  apply Prod.ext
  · apply Fin.ext
    show (16 * g.val + j.val) / 16 = g.val
    omega
  · apply Fin.ext
    show (16 * g.val + j.val) % 16 = j.val
    omega

/-- The row sum of the lanes' partial sums: the table values of the row's valid positions. -/
theorem smS_s2Of (t : Fin 100000 → EReal) (lab : Lab) (b : Fin 4096) :
    smS (s2Of t lab) b = ∑ l : Fin 200, (if valid (lab b l) then t (row (lab b l)) else 0) := by
  unfold smS s2Of
  simp only [foldl_add_eq_sum, zero_eq, zero_add]
  have h := sum_lanes_groups
    (fun n => if valid (labAt lab b n) then t (row (labAt lab b n)) else (0 : EReal))
    (fun n hn => by rw [labAt_of_ge lab b hn]; rfl)
  simp only [termS, counts, zero_eq]
  rw [h]
  exact Finset.sum_congr rfl fun l _ => by rw [labAt_of_lt lab b l.isLt]

/-- The row sum of the lanes' partial counts: the number of valid positions. -/
theorem smC_c2Of (lab : Lab) (b : Fin 4096) : smC (c2Of lab) b = refCnt lab b := by
  unfold smC c2Of refCnt
  simp only [foldl_add_eq_sum, zero_eq, zero_add]
  have h := sum_lanes_groups
    (fun n => if valid (labAt lab b n) then (1 : EReal) else 0)
    (fun n hn => by rw [labAt_of_ge lab b hn]; rfl)
  simp only [termC, counts, zero_eq, one_eq]
  rw [h]
  refine Finset.sum_congr rfl fun l _ => ?_
  rw [labAt_of_lt lab b l.isLt]
  cases hv : valid (lab b l)
  · rw [mask_of_not_valid hv]; rfl
  · rw [mask_of_valid hv]; rfl

end Cert.Spec
-- ==== Proof.SpecPoolValue.lean ====
/-
  The pooling kernel's pure functions, read at the ideal values, are the sixteen-lane partial sums and
  counts of the specification: lane j of row b adds, group by group, the table entry its label names where
  the label counts, and one where it counts.
-/
import proofs.«203204_g25512105739078_cont_8to1_1946_3_alg».proof.Proof.PoolDefs
import proofs.«203204_g25512105739078_cont_8to1_1946_3_alg».proof.Proof.SpecPool

noncomputable section

namespace Cert.Spec

open Idealize.ShloMosaic
open Cert.KernelIdeal Cert.KernelIdeal.Gen Cert.KernelIdeal.Hand

/-- The table as a plain function of the row. -/
def tFn (tvec : Vec Ideal S100000 .f32) : Fin 100000 → EReal :=
  fun v => tvec (Shape.ofLane (d := ![100000]) ⟨v.val, v.isLt⟩)

/-- The flat labels as a plain function of row and position: word 200 b + l. -/
def labFn (labs : Vec Ideal S819200 .i32) : Lab :=
  fun b l => labs (Shape.ofLane (d := ![819200]) ⟨200 * b.val + l.val, by show _ < 819200; have := b.isLt; have := l.isLt; omega⟩)

/-- Lane j of a sixteen-lane vector. -/
abbrev lane (j : Fin 16) : S16.Idx := Shape.ofLane (d := ![16]) ⟨j.val, j.isLt⟩

theorem ofBool_eq_one (c : Bool) : (BitVec.ofBool c = (1 : BitVec 1)) ↔ c = true := by cases c <;> decide

theorem slt8 : ∀ j : Fin 16, (BitVec.ofNat 32 j.val).slt 8#32 = decide (j.val < 8) := by decide

theorem lane8_apply (j : Fin 16) : Pool.lane8 (lane j) = BitVec.ofBool (decide (j.val < 8)) := by
  unfold Pool.lane8
  show IntOp.cmpi .slt (iota .scVector S16 32 [0] iota_S16_d0_w32_scVector (lane j)) 8#32 = _
  have hi : iota .scVector S16 32 [0] iota_S16_d0_w32_scVector (lane j) = BitVec.ofNat 32 j.val := by
    simp [iota]
    rfl
  rw [hi]
  show BitVec.ofBool ((BitVec.ofNat 32 j.val).slt 8#32) = _
  rw [slt8]

/-- The word lane j of group g of row b looks at. -/
theorem poolLabAt_of_lt (labs : Vec Ideal S819200 .i32) (b : Fin 4096) (g : Fin 13) (j : Fin 16)
    (h : 16 * g.val + j.val < 200) :
    Pool.labAt labs (b.val * 200 + g.val * 16 + j.val) = labFn labs b ⟨16 * g.val + j.val, h⟩ := by
  have hb := b.isLt
  unfold Pool.labAt labFn
  rw [dif_pos (by omega)]
  congr 2
  apply Fin.ext
  show b.val * 200 + g.val * 16 + j.val = 200 * b.val + (16 * g.val + j.val)
  omega

theorem grpMask_apply (labs : Vec Ideal S819200 .i32) (b : Fin 4096) (g : Fin 13) (j : Fin 16) :
    Pool.grpMask (Pool.labRow labs b.val g) (lane j)
      = BitVec.ofBool (valid (Pool.labAt labs (b.val * 200 + g.val * 16 + j.val))) := rfl

theorem lastMask_apply (labs : Vec Ideal S819200 .i32) (b : Fin 4096) (g : Fin 13) (j : Fin 16) :
    Pool.lastMask (Pool.labRow labs b.val g) (lane j)
      = BitVec.ofBool (valid (Pool.labAt labs (b.val * 200 + g.val * 16 + j.val)) && decide (j.val < 8)) := by
  unfold Pool.lastMask
  show IntOp.andi (Pool.grpMask (Pool.labRow labs b.val g) (lane j)) (Pool.lane8 (lane j)) = _
  rw [grpMask_apply, lane8_apply]
  cases valid (Pool.labAt labs (b.val * 200 + g.val * 16 + j.val)) <;> cases decide (j.val < 8) <;> rfl

theorem grpMask_eq_one_iff (labs : Vec Ideal S819200 .i32) (b : Fin 4096) (g : Fin 13) (j : Fin 16) (hg : g.val < 12) :
    Pool.grpMask (Pool.labRow labs b.val g) (lane j) = (1 : BitVec 1) ↔ counts (labFn labs) b g j = true := by
  rw [grpMask_apply, ofBool_eq_one,
    ← counts_of_word (labFn labs) b g j _ (fun h => poolLabAt_of_lt labs b g j h)]
  simp [hg]

theorem lastMask_eq_one_iff (labs : Vec Ideal S819200 .i32) (b : Fin 4096) (j : Fin 16) :
    Pool.lastMask (Pool.labRow labs b.val 12) (lane j) = (1 : BitVec 1) ↔ counts (labFn labs) b 12 j = true := by
  rw [lastMask_apply, ofBool_eq_one,
    ← counts_of_word (labFn labs) b 12 j _ (fun h => poolLabAt_of_lt labs b 12 j h)]
  simp

theorem gath_apply_of_lt (tvec : Vec Ideal S100000 .f32) (idx : IVec S16 32) (x : S16.Idx) (h : (idx x).toNat < 100000) :
    Pool.gath tvec idx x = tvec (Shape.ofLane (d := ![100000]) ⟨(idx x).toNat, h⟩) := dif_pos h

/-- A position that counts is inside the row. -/
theorem pos_lt_of_counts {lab : Lab} {b : Fin 4096} {g : Fin 13} {j : Fin 16} (hc : counts lab b g j = true) :
    16 * g.val + j.val < 200 := by
  by_contra h
  unfold counts at hc
  rw [Cert.Spec.labAt_of_ge lab b (by omega)] at hc
  exact absurd hc (by decide)

section
variable (tvec : Vec Ideal S100000 .f32) (labs : Vec Ideal S819200 .i32)
  (hlab : ∀ x, 0 ≤ (labs x).toInt ∧ (labs x).toInt ≤ 99999)
include hlab

/-- One group's step at a lane: the running sum plus the specification's term. -/
theorem stepS_lane (b : Fin 4096) (g : Fin 13) (j : Fin 16) (m : IVec S16 1)
    (hm : m (lane j) = (1 : BitVec 1) ↔ counts (labFn labs) b g j = true) (acc : FVec Ideal S16 .f32) :
    Pool.stepS tvec m (Pool.labRow labs b.val g) acc (lane j) = acc (lane j) + termS (tFn tvec) (labFn labs) b g j := by
  have h0 : Pool.stepS tvec m (Pool.labRow labs b.val g) acc (lane j)
      = acc (lane j) + (if m (lane j) = (1 : BitVec 1)
          then Pool.gath tvec (select m (Pool.labRow labs b.val g) (broadcast S16 0#32)) (lane j) else zero) := rfl
  rw [h0]
  congr 1
  unfold termS
  by_cases hc : counts (labFn labs) b g j = true
  · have hm1 := hm.2 hc
    rw [if_pos hc, if_pos hm1]
    have hpos := pos_lt_of_counts hc
    have hidx : (select m (Pool.labRow labs b.val g) (broadcast S16 0#32)) (lane j)
        = labFn labs b ⟨16 * g.val + j.val, hpos⟩ := by
      have h1 : (select m (Pool.labRow labs b.val g) (broadcast S16 0#32)) (lane j)
          = if m (lane j) = (1 : BitVec 1) then Pool.labAt labs (b.val * 200 + g.val * 16 + j.val) else 0#32 := rfl
      rw [h1, if_pos hm1, poolLabAt_of_lt labs b g j hpos]
    have hr := hlab (Shape.ofLane (d := ![819200]) ⟨200 * b.val + (16 * g.val + j.val), by show _ < 819200; have := b.isLt; omega⟩)
    have hrv : (row (labFn labs b ⟨16 * g.val + j.val, hpos⟩)).val = (labFn labs b ⟨16 * g.val + j.val, hpos⟩).toNat :=
      row_val hr.1 hr.2
    have hlt : ((select m (Pool.labRow labs b.val g) (broadcast S16 0#32)) (lane j)).toNat < 100000 := by
      rw [hidx, ← hrv]; exact (row _).isLt
    rw [gath_apply_of_lt tvec _ _ hlt, Cert.Spec.labAt_of_lt (labFn labs) b hpos]
    unfold tFn
    congr 2
    apply Fin.ext
    show ((select m (Pool.labRow labs b.val g) (broadcast S16 0#32)) (lane j)).toNat = (row _).val
    rw [hidx, hrv]
  · have hm0 : ¬ m (lane j) = (1 : BitVec 1) := fun h => hc (hm.1 h)
    rw [if_neg hc, if_neg hm0]

omit hlab in
/-- … and the count's step: the running count plus one where the lane counts. -/
theorem stepC_lane (b : Fin 4096) (g : Fin 13) (j : Fin 16) (m : IVec S16 1)
    (hm : m (lane j) = (1 : BitVec 1) ↔ counts (labFn labs) b g j = true) (acc : FVec Ideal S16 .f32) :
    Pool.stepC m acc (lane j) = acc (lane j) + termC (labFn labs) b g j := by
  have h0 : Pool.stepC m acc (lane j) = acc (lane j) + (if m (lane j) = (1 : BitVec 1) then one else zero) := rfl
  rw [h0]
  congr 1
  unfold termC
  by_cases hc : counts (labFn labs) b g j = true
  · rw [if_pos hc, if_pos (hm.2 hc)]
  · rw [if_neg hc, if_neg (fun h => hc (hm.1 h))]

/-- A row's sixteen partial sums are the specification's, lane by lane. -/
theorem rowS_eq (b : Fin 4096) (j : Fin 16) :
    Pool.rowS (F := Ideal) tvec (Pool.labRow labs b.val) (lane j) = s2Of (tFn tvec) (labFn labs) b j := by
  rw [s2Of_unroll]
  unfold Pool.rowS
  rw [stepS_lane tvec labs hlab b 12 j _ (lastMask_eq_one_iff labs b j),
    stepS_lane tvec labs hlab b 11 j _ (grpMask_eq_one_iff labs b 11 j (by decide)),
    stepS_lane tvec labs hlab b 10 j _ (grpMask_eq_one_iff labs b 10 j (by decide)),
    stepS_lane tvec labs hlab b 9 j _ (grpMask_eq_one_iff labs b 9 j (by decide)),
    stepS_lane tvec labs hlab b 8 j _ (grpMask_eq_one_iff labs b 8 j (by decide)),
    stepS_lane tvec labs hlab b 7 j _ (grpMask_eq_one_iff labs b 7 j (by decide)),
    stepS_lane tvec labs hlab b 6 j _ (grpMask_eq_one_iff labs b 6 j (by decide)),
    stepS_lane tvec labs hlab b 5 j _ (grpMask_eq_one_iff labs b 5 j (by decide)),
    stepS_lane tvec labs hlab b 4 j _ (grpMask_eq_one_iff labs b 4 j (by decide)),
    stepS_lane tvec labs hlab b 3 j _ (grpMask_eq_one_iff labs b 3 j (by decide)),
    stepS_lane tvec labs hlab b 2 j _ (grpMask_eq_one_iff labs b 2 j (by decide)),
    stepS_lane tvec labs hlab b 1 j _ (grpMask_eq_one_iff labs b 1 j (by decide)),
    stepS_lane tvec labs hlab b 0 j _ (grpMask_eq_one_iff labs b 0 j (by decide))]
  rfl

omit hlab in
theorem rowC_eq (b : Fin 4096) (j : Fin 16) :
    Pool.rowC (F := Ideal) (Pool.labRow labs b.val) (lane j) = c2Of (labFn labs) b j := by
  rw [c2Of_unroll]
  unfold Pool.rowC
  rw [stepC_lane labs b 12 j _ (lastMask_eq_one_iff labs b j),
    stepC_lane labs b 11 j _ (grpMask_eq_one_iff labs b 11 j (by decide)),
    stepC_lane labs b 10 j _ (grpMask_eq_one_iff labs b 10 j (by decide)),
    stepC_lane labs b 9 j _ (grpMask_eq_one_iff labs b 9 j (by decide)),
    stepC_lane labs b 8 j _ (grpMask_eq_one_iff labs b 8 j (by decide)),
    stepC_lane labs b 7 j _ (grpMask_eq_one_iff labs b 7 j (by decide)),
    stepC_lane labs b 6 j _ (grpMask_eq_one_iff labs b 6 j (by decide)),
    stepC_lane labs b 5 j _ (grpMask_eq_one_iff labs b 5 j (by decide)),
    stepC_lane labs b 4 j _ (grpMask_eq_one_iff labs b 4 j (by decide)),
    stepC_lane labs b 3 j _ (grpMask_eq_one_iff labs b 3 j (by decide)),
    stepC_lane labs b 2 j _ (grpMask_eq_one_iff labs b 2 j (by decide)),
    stepC_lane labs b 1 j _ (grpMask_eq_one_iff labs b 1 j (by decide)),
    stepC_lane labs b 0 j _ (grpMask_eq_one_iff labs b 0 j (by decide))]
  rfl

/-- THE POOLED SUMS: flat word 16 b + j is lane j of row b's partial sums. -/
theorem poolS_eq (b : Fin 4096) (j : Fin 16) :
    Pool.poolS (F := Ideal) tvec labs
        (Shape.ofLane (d := ![65536]) ⟨16 * b.val + j.val, by show _ < 65536; have := b.isLt; have := j.isLt; omega⟩)
      = s2Of (tFn tvec) (labFn labs) b j := by
  rw [← rowS_eq tvec labs hlab b j]
  have h1 : (16 * b.val + j.val) / 16 = b.val := by have := j.isLt; omega
  have h2 : (16 * b.val + j.val) % 16 = j.val := by have := j.isLt; omega
  show Pool.rowS tvec (Pool.labRow labs ((16 * b.val + j.val) / 16))
      (Shape.ofLane (d := ![16]) ⟨(16 * b.val + j.val) % 16, Nat.mod_lt _ (by decide)⟩) = _
  simp only [h1, h2]

omit hlab in
/-- THE POOLED COUNTS, likewise. -/
theorem poolC_eq (b : Fin 4096) (j : Fin 16) :
    Pool.poolC (F := Ideal) labs
        (Shape.ofLane (d := ![65536]) ⟨16 * b.val + j.val, by show _ < 65536; have := b.isLt; have := j.isLt; omega⟩)
      = c2Of (labFn labs) b j := by
  rw [← rowC_eq labs b j]
  have h1 : (16 * b.val + j.val) / 16 = b.val := by have := j.isLt; omega
  have h2 : (16 * b.val + j.val) % 16 = j.val := by have := j.isLt; omega
  show Pool.rowC (Pool.labRow labs ((16 * b.val + j.val) / 16))
      (Shape.ofLane (d := ![16]) ⟨(16 * b.val + j.val) % 16, Nat.mod_lt _ (by decide)⟩) = _
  simp only [h1, h2]

end

end Cert.Spec
-- ==== Proof.SpecReal.lean ====
/-
  Real-number bookkeeping for the masks and the counts: the mask of a word is the real 0 or 1, a row's
  count is a nonnegative real that is positive exactly when the row has a valid position, and the number of
  invalid positions, 819200 minus the counts, is positive exactly when some position is invalid. Also: the
  coercion from the reals to the extended reals commutes with finite sums.
-/
import proofs.«203204_g25512105739078_cont_8to1_1946_3_alg».proof.Proof.SpecPool

noncomputable section

namespace Cert.Spec

open Idealize.ShloMosaic
open scoped BigOperators

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The mask as a real. -/
def maskr (w : BitVec 32) : ℝ := ((BitVec.ofBool (valid w)).toNat : ℝ)

theorem mask_eq (w : BitVec 32) : mask w = (maskr w : EReal) := rfl
theorem maskr_of_valid {w : BitVec 32} (h : valid w = true) : maskr w = 1 := by simp [maskr, h]
theorem maskr_of_not_valid {w : BitVec 32} (h : valid w = false) : maskr w = 0 := by simp [maskr, h]
theorem maskr_nonneg (w : BitVec 32) : 0 ≤ maskr w := by unfold maskr; positivity
theorem maskr_le_one (w : BitVec 32) : maskr w ≤ 1 := by
  cases h : valid w
  · rw [maskr_of_not_valid h]; norm_num
  · rw [maskr_of_valid h]

/-- The number of valid positions of a row, as a real. -/
def nb (lab : Lab) (b : Fin 4096) : ℝ := ∑ l : Fin 200, maskr (lab b l)

theorem refCnt_eq (lab : Lab) (b : Fin 4096) : refCnt lab b = (nb lab b : EReal) := by
  unfold refCnt nb
  rw [coe_sum]
  rfl

theorem nb_nonneg (lab : Lab) (b : Fin 4096) : 0 ≤ nb lab b :=
  Finset.sum_nonneg fun l _ => maskr_nonneg _

theorem nb_pos_iff (lab : Lab) (b : Fin 4096) : 0 < nb lab b ↔ ∃ l, valid (lab b l) = true := by
  constructor
  · intro h
    by_contra hc
    rw [not_exists] at hc
    have h0 : nb lab b = 0 :=
      Finset.sum_eq_zero fun l _ => maskr_of_not_valid (Bool.eq_false_iff.2 (hc l))
    linarith
  · rintro ⟨l, hl⟩
    calc (0 : ℝ) < maskr (lab b l) := by rw [maskr_of_valid hl]; norm_num
      _ ≤ nb lab b :=
        Finset.single_le_sum (f := fun l => maskr (lab b l)) (fun l _ => maskr_nonneg _) (Finset.mem_univ l)

/-- The number of invalid positions, as a real. -/
def ninvr (lab : Lab) : ℝ := 819200 - ∑ b : Fin 4096, nb lab b

theorem ninvr_eq (lab : Lab) : ninvr lab = ∑ b : Fin 4096, ∑ l : Fin 200, (1 - maskr (lab b l)) := by
  unfold ninvr nb
  simp only [Finset.sum_sub_distrib, Finset.sum_const, Finset.card_univ, Fintype.card_fin, nsmul_eq_mul]
  norm_num

theorem ninvr_pos_iff (lab : Lab) : 0 < ninvr lab ↔ ∃ b l, valid (lab b l) = false := by
  rw [ninvr_eq]
  have hnn : ∀ b l, 0 ≤ 1 - maskr (lab b l) := fun b l => sub_nonneg.2 (maskr_le_one _)
  constructor
  · intro h
    by_contra hc
    have hall : ∀ b l, valid (lab b l) = true := fun b l => by
      by_contra hv
      exact hc ⟨b, l, Bool.eq_false_iff.2 hv⟩
    have h0 : ∑ b : Fin 4096, ∑ l : Fin 200, (1 - maskr (lab b l)) = 0 :=
      Finset.sum_eq_zero fun b _ => Finset.sum_eq_zero fun l _ => by
        rw [maskr_of_valid (hall b l)]; ring
    linarith
  · rintro ⟨b, l, hv⟩
    calc (0 : ℝ) < 1 - maskr (lab b l) := by rw [maskr_of_not_valid hv]; norm_num
      _ ≤ ∑ l' : Fin 200, (1 - maskr (lab b l')) :=
        Finset.single_le_sum (f := fun l' => 1 - maskr (lab b l')) (fun l' _ => hnn b l') (Finset.mem_univ l)
      _ ≤ ∑ b' : Fin 4096, ∑ l' : Fin 200, (1 - maskr (lab b' l')) :=
        Finset.single_le_sum (f := fun b' => ∑ l' : Fin 200, (1 - maskr (lab b' l')))
          (fun b' _ => Finset.sum_nonneg fun l' _ => hnn b' l') (Finset.mem_univ b)

/-- The tolerance as a real. -/
def epsr : ℝ := 8796093 * (2 : ℝ) ^ (-43 : ℤ)
theorem eps_coe : eps = (epsr : EReal) := eps_eq
theorem epsr_pos : 0 < epsr := by unfold epsr; positivity

/-- The pooling denominator of a row, a positive real. -/
def dr (lab : Lab) (b : Fin 4096) : ℝ := epsr + nb lab b
theorem dr_pos (lab : Lab) (b : Fin 4096) : 0 < dr lab b := add_pos_of_pos_of_nonneg epsr_pos (nb_nonneg lab b)

end Cert.Spec
-- ==== Proof.SpecX.lean ====
/-
  With real inputs, the row value of the kernel's arrangement and the row value of the reference's
  arrangement are the same real: dividing by the row's positive denominator commutes with the sum against
  the weights, and the two sums (over positions, over coordinates) exchange. From it: the value a position
  enters the softmax with, on both sides.
-/
import proofs.«203204_g25512105739078_cont_8to1_1946_3_alg».proof.Proof.SpecReal

noncomputable section

namespace Cert.Spec

open Idealize.ShloMosaic
open scoped BigOperators

section
variable (lab : Lab) (embr : Fin 100000 → Fin 64 → ℝ) (Wr : Fin 64 → ℝ) (br : ℝ)

/-- The dense layer on a table row, as a real. -/
def tr (v : Fin 100000) : ℝ := ∑ e : Fin 64, embr v e * Wr e

theorem tOf_coe : tOf (fun v e => (embr v e : EReal)) (fun e => (Wr e : EReal)) = fun v => (tr embr Wr v : EReal) := by
  funext v
  unfold tOf tr
  rw [coe_sum]
  simp only [EReal.coe_mul]

/-- The sum over a row's valid positions of the dense layer's values, as a real. -/
def Sr (b : Fin 4096) : ℝ := ∑ l : Fin 200, tr embr Wr (row (lab b l)) * maskr (lab b l)

/-- The row value, as a real. -/
def xr (b : Fin 4096) : ℝ := Sr lab embr Wr b * (1 / dr lab b) + br

theorem smX_coe (b : Fin 4096) :
    smX (s2Of (tOf (fun v e => (embr v e : EReal)) (fun e => (Wr e : EReal))) lab) (c2Of lab) (br : EReal) b
      = (xr lab embr Wr br b : EReal) := by
  unfold smX
  have hd : epsr + nb lab b ≠ 0 := (dr_pos lab b).ne'
  rw [smS_s2Of, smC_c2Of, refCnt_eq, eps_coe, ← EReal.coe_add, Ideal.div_coe hd]
  simp only [tOf_coe]
  have hS : (∑ l : Fin 200, (if valid (lab b l) then (tr embr Wr (row (lab b l)) : EReal) else 0))
      = (Sr lab embr Wr b : EReal) := by
    unfold Sr
    rw [coe_sum]
    refine Finset.sum_congr rfl fun l _ => ?_
    cases hv : valid (lab b l)
    · rw [maskr_of_not_valid hv]; simp
    · rw [maskr_of_valid hv]; simp
  rw [hS, ← EReal.coe_mul, ← EReal.coe_add]
  rfl

theorem refX_coe (b : Fin 4096) :
    refX lab (fun v e => (embr v e : EReal)) (fun e => (Wr e : EReal)) (br : EReal) b
      = (xr lab embr Wr br b : EReal) := by
  unfold refX refPooled
  have hd : epsr + nb lab b ≠ 0 := (dr_pos lab b).ne'
  rw [refCnt_eq, eps_coe, ← EReal.coe_add]
  simp only [Ideal.div_coe hd, mask_eq, ← EReal.coe_mul, ← coe_sum, ← EReal.coe_add]
  rw [EReal.coe_eq_coe_iff]
  unfold xr Sr tr
  congr 1
  simp only [Finset.sum_mul]
  rw [Finset.sum_comm]
  refine Finset.sum_congr rfl fun l _ => Finset.sum_congr rfl fun e _ => ?_
  show embr (row (lab b l)) e * maskr (lab b l) * (1 / (epsr + nb lab b)) * Wr e
    = embr (row (lab b l)) e * Wr e * maskr (lab b l) * (1 / dr lab b)
  unfold dr
  ring

/-- On the reference's side a valid position enters the softmax with the row value … -/
theorem refX2_of_valid {b : Fin 4096} {l : Fin 200} (hv : valid (lab b l) = true) :
    refX2 lab (fun v e => (embr v e : EReal)) (fun e => (Wr e : EReal)) (br : EReal) b l
      = (xr lab embr Wr br b : EReal) := by
  unfold refX2
  rw [refX_coe, mask_of_valid hv, one_eq]
  have h11 : (1 : EReal) - 1 = 0 := by
    rw [← EReal.coe_one, ← EReal.coe_sub, sub_self, EReal.coe_zero]
  rw [h11, zero_mul, mul_one, add_zero]

/-- … and an invalid one with the stand-in constant. -/
theorem refX2_of_not_valid {b : Fin 4096} {l : Fin 200} (hv : valid (lab b l) = false) :
    refX2 lab (fun v e => (embr v e : EReal)) (fun e => (Wr e : EReal)) (br : EReal) b l = NEG := by
  unfold refX2
  rw [mask_of_not_valid hv, mul_zero, zero_add, one_eq, sub_zero, one_mul]

/-- On the kernel's side a row with a valid position carries the row value … -/
theorem smXm_of_pos {b : Fin 4096} (h : 0 < nb lab b) :
    smXm (s2Of (tOf (fun v e => (embr v e : EReal)) (fun e => (Wr e : EReal))) lab) (c2Of lab) (br : EReal) b
      = (xr lab embr Wr br b : EReal) := by
  unfold smXm
  rw [smC_c2Of, refCnt_eq, zero_eq, if_pos (EReal.coe_pos.2 h), smX_coe]

/-- … and a row with none the stand-in constant. -/
theorem smXm_of_not_pos {b : Fin 4096} (h : ¬ 0 < nb lab b) :
    smXm (s2Of (tOf (fun v e => (embr v e : EReal)) (fun e => (Wr e : EReal))) lab) (c2Of lab) (br : EReal) b
      = NEG := by
  unfold smXm
  rw [smC_c2Of, refCnt_eq, zero_eq, if_neg (fun hh => h (EReal.coe_pos.1 hh))]

/-- The kernel's count of invalid positions. -/
theorem smNinv_coe : smNinv (c2Of lab) = (ninvr lab : EReal) := by
  unfold smNinv ninvr
  simp only [smC_c2Of, refCnt_eq, ← coe_sum]
  rw [total_eq, ← EReal.coe_sub]

theorem smNinv_pos_iff : zero < smNinv (c2Of lab) ↔ ∃ b l, valid (lab b l) = false := by
  rw [smNinv_coe, zero_eq, EReal.coe_pos, ninvr_pos_iff]

end

end Cert.Spec
-- ==== Proof.SpecEq.lean ====
/-
  The kernel's arrangement and the reference's arrangement give the same result on real inputs.

  The two maxima agree: a row with no valid position contributes the stand-in constant on the kernel's
  side, and then that row's positions are invalid and contribute it on the reference's side too; the kernel
  joins the constant to its maximum exactly when some position is invalid. So every position carries the
  same exponential on both sides, and the reference's denominator, a sum over all positions, groups by row
  into the kernel's: the row's count times the row's exponential, plus the number of invalid positions
  times the constant's exponential.
-/
import proofs.«203204_g25512105739078_cont_8to1_1946_3_alg».proof.Proof.SpecX

noncomputable section

namespace Cert.Spec

open Idealize.ShloMosaic
open scoped BigOperators

/-- The exponential of a real minus anything but ⊥ is a real. -/
theorem exp_sub_real (r : ℝ) {M : EReal} (hM : M ≠ ⊥) : ∃ q : ℝ, Ideal.exp ((r : EReal) - M) = (q : EReal) := by
  induction M using EReal.rec with
  | bot => exact absurd rfl hM
  | coe m => exact ⟨Real.exp (r - m), by rw [← EReal.coe_sub, Ideal.exp_coe]⟩
  | top => exact ⟨0, by rw [EReal.sub_top, Ideal.exp_bot, EReal.coe_zero]⟩

/-- A value of a function on a finite type is below the function's maximum folded from ⊥ … -/
theorem le_fold_univ {ι : Type*} [Fintype ι] (f : ι → EReal) (i : ι) :
    f i ≤ (Finset.univ : Finset ι).fold max ⊥ f :=
  (Finset.le_fold_max _).2 (Or.inr ⟨i, Finset.mem_univ i, le_rfl⟩)

/-- … and the maximum is below every bound of the values. -/
theorem fold_univ_le {ι : Type*} [Fintype ι] (f : ι → EReal) (c : EReal) (h : ∀ i, f i ≤ c) :
    (Finset.univ : Finset ι).fold max ⊥ f ≤ c :=
  (Finset.fold_max_le _).2 ⟨bot_le, fun i _ => h i⟩

section
variable (lab : Lab) (embr : Fin 100000 → Fin 64 → ℝ) (Wr : Fin 64 → ℝ) (br : ℝ)

local notation "Eemb" => (fun (v : Fin 100000) (e : Fin 64) => ((embr v e : ℝ) : EReal))
local notation "EW" => (fun (e : Fin 64) => ((Wr e : ℝ) : EReal))
local notation "kS" => s2Of (tOf Eemb EW) lab
local notation "kC" => c2Of lab

theorem refX2_le_refMax (b : Fin 4096) (l : Fin 200) :
    refX2 lab Eemb EW (br : EReal) b l ≤ refMax lab Eemb EW (br : EReal) :=
  le_fold_univ (fun p : Fin 4096 × Fin 200 => refX2 lab Eemb EW (br : EReal) p.1 p.2) (b, l)

theorem smXm_le_smMrow (b : Fin 4096) : smXm kS kC (br : EReal) b ≤ smMrow kS kC (br : EReal) :=
  le_fold_univ (fun b : Fin 4096 => smXm kS kC (br : EReal) b) b

theorem smMrow_le_smM : smMrow kS kC (br : EReal) ≤ smM kS kC (br : EReal) := by
  unfold smM
  split_ifs
  · exact le_max_left _ _
  · exact le_rfl

/-- The two maxima agree. -/
theorem smM_eq_refMax : smM kS kC (br : EReal) = refMax lab Eemb EW (br : EReal) := by
  have f1 : ∀ b l, valid (lab b l) = true →
      refX2 lab Eemb EW (br : EReal) b l = smXm kS kC (br : EReal) b := fun b l hv => by
    rw [refX2_of_valid lab embr Wr br hv, smXm_of_pos lab embr Wr br ((nb_pos_iff lab b).2 ⟨l, hv⟩)]
  have f2 : ∀ b l, valid (lab b l) = false → refX2 lab Eemb EW (br : EReal) b l = NEG :=
    fun b l hv => refX2_of_not_valid lab embr Wr br hv
  have hrow : smMrow kS kC (br : EReal) ≤ refMax lab Eemb EW (br : EReal) := by
    unfold smMrow
    refine fold_univ_le _ _ fun b => ?_
    by_cases hp : 0 < nb lab b
    · obtain ⟨l, hl⟩ := (nb_pos_iff lab b).1 hp
      rw [← f1 b l hl]
      exact refX2_le_refMax lab embr Wr br b l
    · rw [smXm_of_not_pos lab embr Wr br hp]
      have hv : valid (lab b 0) = false :=
        Bool.eq_false_iff.2 fun hv => hp ((nb_pos_iff lab b).2 ⟨0, hv⟩)
      rw [← f2 b 0 hv]
      exact refX2_le_refMax lab embr Wr br b 0
  apply le_antisymm
  · unfold smM
    split_ifs with hn
    · obtain ⟨b, l, hv⟩ := (smNinv_pos_iff lab).1 hn
      refine max_le hrow ?_
      rw [← f2 b l hv]
      exact refX2_le_refMax lab embr Wr br b l
    · exact hrow
  · unfold refMax
    refine fold_univ_le _ _ fun p => ?_
    obtain ⟨b, l⟩ := p
    show refX2 lab Eemb EW (br : EReal) b l ≤ _
    cases hv : valid (lab b l)
    · rw [f2 b l hv]
      have hn : zero < smNinv kC := (smNinv_pos_iff lab).2 ⟨b, l, hv⟩
      unfold smM
      rw [if_pos hn]
      exact le_max_right _ _
    · rw [f1 b l hv]
      exact le_trans (smXm_le_smMrow lab embr Wr br b) (smMrow_le_smM lab embr Wr br)

/-- Every position carries the same exponential on both sides. -/
theorem refEx_of_valid {b : Fin 4096} {l : Fin 200} (hv : valid (lab b l) = true) :
    refEx lab Eemb EW (br : EReal) b l = smE kS kC (br : EReal) b := by
  unfold refEx smE
  rw [smM_eq_refMax, refX2_of_valid lab embr Wr br hv,
    smXm_of_pos lab embr Wr br ((nb_pos_iff lab b).2 ⟨l, hv⟩)]

theorem refEx_of_not_valid {b : Fin 4096} {l : Fin 200} (hv : valid (lab b l) = false) :
    refEx lab Eemb EW (br : EReal) b l = smEneg kS kC (br : EReal) := by
  unfold refEx smEneg
  rw [smM_eq_refMax, refX2_of_not_valid lab embr Wr br hv]

theorem refMax_ne_bot : refMax lab Eemb EW (br : EReal) ≠ ⊥ := by
  intro h
  have hle := refX2_le_refMax lab embr Wr br 0 0
  rw [h, le_bot_iff] at hle
  cases hv : valid (lab 0 0)
  · rw [refX2_of_not_valid lab embr Wr br hv, NEG_eq] at hle
    exact EReal.coe_ne_bot _ hle
  · rw [refX2_of_valid lab embr Wr br hv] at hle
    exact EReal.coe_ne_bot _ hle

theorem smE_real (b : Fin 4096) : ∃ q : ℝ, smE kS kC (br : EReal) b = (q : EReal) := by
  unfold smE
  rw [smM_eq_refMax]
  by_cases hp : 0 < nb lab b
  · rw [smXm_of_pos lab embr Wr br hp]
    exact exp_sub_real _ (refMax_ne_bot lab embr Wr br)
  · rw [smXm_of_not_pos lab embr Wr br hp, NEG_eq]
    exact exp_sub_real _ (refMax_ne_bot lab embr Wr br)

theorem smEneg_real : ∃ q : ℝ, smEneg kS kC (br : EReal) = (q : EReal) := by
  unfold smEneg
  rw [smM_eq_refMax, NEG_eq]
  exact exp_sub_real _ (refMax_ne_bot lab embr Wr br)

/-- The two denominators agree. -/
theorem refZ_eq_smDenom : refZ lab Eemb EW (br : EReal) = smDenom kS kC (br : EReal) := by
  choose er her using smE_real lab embr Wr br
  obtain ⟨enr, henr⟩ := smEneg_real lab embr Wr br
  have hex : ∀ b l, refEx lab Eemb EW (br : EReal) b l
      = ((maskr (lab b l) * er b + (1 - maskr (lab b l)) * enr : ℝ) : EReal) := by
    intro b l
    cases hv : valid (lab b l)
    · rw [refEx_of_not_valid lab embr Wr br hv, henr, maskr_of_not_valid hv]; norm_num
    · rw [refEx_of_valid lab embr Wr br hv, her b, maskr_of_valid hv]; norm_num
  unfold refZ smDenom
  rw [Fintype.sum_prod_type]
  simp only [hex, her, henr, smC_c2Of, refCnt_eq, smNinv_coe, ← EReal.coe_mul, ← coe_sum, ← EReal.coe_add]
  rw [EReal.coe_eq_coe_iff, ninvr_eq]
  simp only [nb, Finset.sum_add_distrib, ← Finset.sum_mul]

end

/-- THE SPECIFICATION: on real inputs the kernel's arrangement and the reference's are one function. -/
theorem kerY_eq_refY (lab : Lab) (emb : Emb) (W : Fin 64 → EReal) (bias : EReal)
    (hemb : ∀ v e, ∃ r : ℝ, emb v e = (r : EReal)) (hW : ∀ e, ∃ r : ℝ, W e = (r : EReal))
    (hb : ∃ r : ℝ, bias = (r : EReal))
    (hlab : ∀ b l, 0 ≤ (lab b l).toInt ∧ (lab b l).toInt ≤ 99999) :
    kerY lab emb W bias = refY lab emb W bias := by
  choose embr hembr using hemb
  choose Wr hWr using hW
  obtain ⟨br, rfl⟩ := hb
  obtain rfl : emb = fun v e => (embr v e : EReal) := funext fun v => funext fun e => hembr v e
  obtain rfl : W = fun e => (Wr e : EReal) := funext hWr
  funext b l
  unfold kerY softmaxOf refY smA smSm
  rw [refZ_eq_smDenom lab embr Wr br]
  cases hv : valid (lab b l)
  · rw [refEx_of_not_valid lab embr Wr br hv]; simp
  · rw [refEx_of_valid lab embr Wr br hv]; simp

end Cert.Spec
-- ==== Proof.SpecCompose.lean ====
/-
  The three stages composed: the softmax stage applied to the pooled sums and counts of the dense layer's
  values is the kernel's arrangement, hence (on real inputs with labels inside the table) the reference's.
-/
import proofs.«203204_g25512105739078_cont_8to1_1946_3_alg».proof.Proof.SpecPoolValue
import proofs.«203204_g25512105739078_cont_8to1_1946_3_alg».proof.Proof.SpecEq

noncomputable section

namespace Cert.Spec

open Idealize.ShloMosaic
open Cert.KernelIdeal Cert.KernelIdeal.Gen Cert.KernelIdeal.Hand

/-- Every flat label word is a word of some row and position, so a range that holds of every (row, position)
    holds of every flat word. -/
theorem flat_range (labs : Vec Ideal S819200 .i32)
    (h : ∀ b l, 0 ≤ (labFn labs b l).toInt ∧ (labFn labs b l).toInt ≤ 99999) :
    ∀ x, 0 ≤ (labs x).toInt ∧ (labs x).toInt ≤ 99999 := by
  intro x
  have hx : (x 0).val < 819200 := (x 0).isLt
  have hb : (x 0).val / 200 < 4096 := by omega
  have hl : (x 0).val % 200 < 200 := Nat.mod_lt _ (by decide)
  have e : x = Shape.ofLane (d := ![819200]) ⟨200 * ((x 0).val / 200) + (x 0).val % 200, by show _ < 819200; omega⟩ := by
    funext a
    have ha : a = (0 : Fin 1) := Subsingleton.elim (α := Fin 1) a 0
    subst ha
    apply Fin.ext
    show (x 0).val = 200 * ((x 0).val / 200) + (x 0).val % 200
    omega
  have := h ⟨(x 0).val / 200, hb⟩ ⟨(x 0).val % 200, hl⟩
  rw [e]
  exact this

/-- THE COMPOSITION. With the table values tvec equal to the dense layer's, the flat labels labs spelling the
    label array, and s2 / c2 the pooled sums and counts read as [4096, 16] arrays, the softmax stage gives the
    kernel's arrangement. -/
theorem kerY_of_stages (lab : Lab) (emb : Emb) (W : Fin 64 → EReal) (bias : EReal)
    (tvec : Vec Ideal S100000 .f32) (labs : Vec Ideal S819200 .i32) (s2 c2 : Fin 4096 → Fin 16 → EReal)
    (ht : tFn tvec = tOf emb W) (hl : labFn labs = lab)
    (hlab : ∀ b l, 0 ≤ (lab b l).toInt ∧ (lab b l).toInt ≤ 99999)
    (hs : ∀ (b : Fin 4096) (j : Fin 16), s2 b j = Pool.poolS (F := Ideal) tvec labs
      (Shape.ofLane (d := ![65536]) ⟨16 * b.val + j.val, by show _ < 65536; have := b.isLt; have := j.isLt; omega⟩))
    (hc : ∀ (b : Fin 4096) (j : Fin 16), c2 b j = Pool.poolC (F := Ideal) labs
      (Shape.ofLane (d := ![65536]) ⟨16 * b.val + j.val, by show _ < 65536; have := b.isLt; have := j.isLt; omega⟩)) :
    softmaxOf s2 c2 bias lab = kerY lab emb W bias := by
  subst hl
  have hflat := flat_range labs hlab
  have e2 : s2 = s2Of (tOf emb W) (labFn labs) := by
    funext b j
    rw [hs b j, poolS_eq tvec labs hflat b j, ht]
  have e3 : c2 = c2Of (labFn labs) := by
    funext b j
    rw [hc b j, poolC_eq labs b j]
  rw [e2, e3]
  rfl

/-- … and so, on real inputs, the reference's. -/
theorem refY_of_stages (lab : Lab) (emb : Emb) (W : Fin 64 → EReal) (bias : EReal)
    (tvec : Vec Ideal S100000 .f32) (labs : Vec Ideal S819200 .i32) (s2 c2 : Fin 4096 → Fin 16 → EReal)
    (ht : tFn tvec = tOf emb W) (hl : labFn labs = lab)
    (hemb : ∀ v e, ∃ r : ℝ, emb v e = (r : EReal)) (hW : ∀ e, ∃ r : ℝ, W e = (r : EReal))
    (hb : ∃ r : ℝ, bias = (r : EReal))
    (hlab : ∀ b l, 0 ≤ (lab b l).toInt ∧ (lab b l).toInt ≤ 99999)
    (hs : ∀ (b : Fin 4096) (j : Fin 16), s2 b j = Pool.poolS (F := Ideal) tvec labs
      (Shape.ofLane (d := ![65536]) ⟨16 * b.val + j.val, by show _ < 65536; have := b.isLt; have := j.isLt; omega⟩))
    (hc : ∀ (b : Fin 4096) (j : Fin 16), c2 b j = Pool.poolC (F := Ideal) labs
      (Shape.ofLane (d := ![65536]) ⟨16 * b.val + j.val, by show _ < 65536; have := b.isLt; have := j.isLt; omega⟩)) :
    softmaxOf s2 c2 bias lab = refY lab emb W bias :=
  (kerY_of_stages lab emb W bias tvec labs s2 c2 ht hl hlab hs hc).trans (kerY_eq_refY lab emb W bias hemb hW hb hlab)

end Cert.Spec
-- ==== Proof.MatvecValue.lean ====
/-
  The first region's result read at the exact reals: after the run, row v of the product array is
  the sum over the 64 coordinates of the table's row v times the weights — every one of the twenty
  blocks the grid writes back is its block of that one function, and the blocks tile the array.
-/
import proofs.«203204_g25512105739078_cont_8to1_1946_3_alg».proof.Proof.Matvec
import proofs.«203204_g25512105739078_cont_8to1_1946_3_alg».proof.Proof.SpecDefs
import Idealize.ShloMosaic.PureOps.Ideal.Laws
import Idealize.ShloMosaic.Lib.Pipeline.Value
import Idealize.ShloMosaic.Lib.ValueIdx

set_option maxRecDepth 16384

noncomputable section

namespace Cert.KernelIdeal.Hand.Region

open Cert.KernelIdeal Cert.KernelIdeal.Gen Cert.KernelIdeal.Hand

open Idealize.ShloMosaic Idealize.ShloMosaic.TcCoe
open Idealize.ShloMosaic.SparseCore.Cfg (HIx)
open Idealize.SL Idealize.SL.Sem
open Idealize.ShloMosaic.Pipeline (Dat)
open Idealize.ShloMosaic.ValueIdx
open scoped BigOperators

theorem zeros2v : (![0, 0] : Fin 2 → Nat) = fun _ => 0 := by funext a; fin_cases a <;> rfl

theorem mul_congr_ereal {a b c d : EReal} (h1 : a = c) (h2 : b = d) : a * b = c * d := by rw [h1, h2]

variable (O : CellTallies nD τ sig (HIx 1)) (R : Set (SemLoc sig × HIx 1)) {c : Dev nD} (Vb : TcVal Ideal c)

/-- The table and the weights the region finds, as plain functions. -/
def embOf : Cert.Spec.Emb := fun v e => Vb main_arg1 (ix2 v e)
def wOf : Fin 64 → EReal := fun e => Vb main_v0 (ix2 0 e)

/-- What the product array ends holding: at row v the dense layer applied to the table's row v. -/
def G0 : Buf (Elt Ideal) ((cfg0.win 2).arr.view.loc (c : Thread nD τ)) := fun i => Cert.Spec.tOf (embOf Vb) (wOf Vb) (i 0)

/-- The printed index maps over the grid: windows 0 and 2 move with the point along the rows, window 1 stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `G0`. -/
theorem flushed0_eq (t : Fin cfg0.N) :
    (dat0 O R Vb).flushed 2 t = ((cfg0.win 2).blk t).view.read (Elt Ideal) (G0 Vb) := by
  show (cfg0.win 2).cut (grid0.coords t) ((dat0 O R Vb).after 2 t) = _
  rw [dat0_after_2]
  unfold matvecBlk
  rw [View.canon_unit_zero zeros2v, View.ld_unit_zero (S := S5000x64) zeros2v, View.ld_unit_zero (S := S1x64) zeros2v]
  obtain ⟨e0, e1, e2, e3, e4, e5⟩ := idx_facts0 t
  funext (j : S5000x1.Idx)
  show k0_pay1 (iblk0 Vb 0 t) (iblk0 Vb 1 t) j = G0 Vb (((cfg0.win 2).blk t).view.emb j)
  unfold k0_pay1
  refine (shapeCast_apply _ _ j (ix1 (j 0)) ?_).trans ?_
  · have h1 : (j 1).val < 1 := (j 1).isLt
    have hj : (S5000x1.rowMajor j).val = (j 0).val * 1 + (j 1).val := Shape.rowMajor_val_two (d := ![5000, 1]) j
    have hk : (S5000.rowMajor (ix1 (j 0))).val = (j 0).val := Shape.rowMajor_val_one (d := ![5000]) (ix1 (j 0))
    exact hk.trans (by rw [hj]; omega)
  refine (Ideal.multiReduction_add_single _ _ _ _ _ _).trans ?_
  unfold G0 Cert.Spec.tOf
  refine Finset.sum_congr rfl fun (e : Fin 64) _ => ?_
  refine mul_congr_ereal (a := (iblk0 Vb 0 t) (reduces_S5000x64_S5000.lift (ix1 (j 0)) e))
    (b := (broadcastTo S5000x64 (shapeCast S1x64 (iblk0 Vb 1 t) shapeCasts_S1x64_S1x64) broadcasts_S1x64_S5000x64) (reduces_S5000x64_S5000.lift (ix1 (j 0)) e)) ?_ ?_
  · show Vb main_arg1 (((cfg0.win 0).blk t).view.emb (reduces_S5000x64_S5000.lift (ix1 (j 0)) e)) = Vb main_arg1 (ix2 ((((cfg0.win 2).blk t).view.emb j) 0) e)
    refine congrArg (Vb main_arg1) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * e.val = e.val; omega
  · refine (broadcastTo_apply _ _ _ (ix2 0 e) ?_).trans ?_
    · intro a
      match a with
      | ⟨0, _⟩ => rfl
      | ⟨1, _⟩ => rfl
    refine (congrFun (shapeCast_self (s := S1x64) (iblk0 Vb 1 t) shapeCasts_S1x64_S1x64) (ix2 0 e)).trans ?_
    show Vb main_v0 (((cfg0.win 1).blk t).view.emb (ix2 0 e)) = Vb main_v0 (ix2 0 e)
    refine congrArg (Vb main_v0) (funext fun a => Fin.ext ?_)
    match a with
    | ⟨0, _⟩ => show win0_1.index t (0 : Fin 2) * 1 + 1 * 0 = 0; omega
    | ⟨1, _⟩ => show win0_1.index t (1 : Fin 2) * 64 + 1 * e.val = e.val; omega

/-- An index of the product array is in point t's block iff each coordinate is in the block's range on its axis. -/
theorem mem_blk0 (t : Fin cfg0.N) (i : S100000x1.Idx) :
    i ∈ ((cfg0.win 2).blk t).view.set ↔ ∀ a : Fin 2, win0_2.index t a * S5000x1.size a ≤ (i a).val ∧ (i a).val < win0_2.index t a * S5000x1.size a + S5000x1.size a := by
  show i ∈ ((View.whole main_v1).slice (win0_2.rect t)).set ↔ _
  rw [View.set_slice_whole, Rect.mem_set_unit]
  exact Iff.rfl

/-- The twenty blocks tile the array. -/
theorem cover0 (i : S100000x1.Idx) : ∃ t : Fin cfg0.N, (cfg0.win 2).flush t = true ∧ i ∈ ((cfg0.win 2).blk t).view.set := by
  have hi0 : (i 0).val < 100000 := (i 0).isLt
  have hi1 : (i 1).val < 1 := (i 1).isLt
  have hN : grid0.N = 20 := N_0
  have hlt : (i 0).val / 5000 < cfg0.N := by show (i 0).val / 5000 < grid0.N; omega
  obtain ⟨e0, e1, e2, e3, e4, e5⟩ := idx_facts0 ⟨(i 0).val / 5000, hlt⟩
  refine ⟨⟨(i 0).val / 5000, hlt⟩, flush0_2 _, ?_⟩
  rw [mem_blk0]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 1 ≤ (i 1).val ∧ (i 1).val < win0_2.index ⟨(i 0).val / 5000, hlt⟩ (1 : Fin 2) * 1 + 1
    rw [e5]; omega

/-- So after the run the product array holds, at every row, the dense layer of the table's row. -/
theorem dat0_arrAt_out : (dat0 O R Vb).arrAt 2 cfg0.N = G0 Vb :=
  (dat0 O R Vb).arrAt_eq_of_cover 2 (G0 Vb) (fun t _ => flushed0_eq O R Vb t) cover0

theorem dat0_arrAt_out_apply (v : Fin 100000) :
    (dat0 O R Vb).arrAt 2 cfg0.N (ix2 v 0) = Cert.Spec.tOf (embOf Vb) (wOf Vb) v := by
  rw [dat0_arrAt_out]; rfl

end Cert.KernelIdeal.Hand.Region

end
-- ==== Proof.SoftmaxValue.lean ====
/-
  The second region's result read at the exact reals: after the run, position (b, l) of the result
  array holds the softmax weight of row b where the label is valid and the masked weight elsewhere —
  every one of the sixteen blocks the grid writes back is its block of that one function, and the
  blocks tile the array.
-/
import proofs.«203204_g25512105739078_cont_8to1_1946_3_alg».proof.Proof.Softmax
import proofs.«203204_g25512105739078_cont_8to1_1946_3_alg».proof.Proof.MatvecValue
import proofs.«203204_g25512105739078_cont_8to1_1946_3_alg».proof.Proof.SpecDefs
import Idealize.ShloMosaic.PureOps.Ideal.Laws
import Idealize.ShloMosaic.Lib.Pipeline.Value
import Idealize.ShloMosaic.Lib.ValueIdx

set_option maxRecDepth 16384

noncomputable section

namespace Cert.KernelIdeal.Hand.Region

open Cert.KernelIdeal Cert.KernelIdeal.Gen Cert.KernelIdeal.Hand

open Idealize.ShloMosaic Idealize.ShloMosaic.TcCoe
open Idealize.ShloMosaic.SparseCore.Cfg (HIx)
open Idealize.SL Idealize.SL.Sem
open Idealize.ShloMosaic.Pipeline (Dat)
open Idealize.ShloMosaic.ValueIdx
open scoped BigOperators

variable (O : CellTallies nD τ sig (HIx 1)) (R : Set (SemLoc sig × HIx 1)) {c : Dev nD} (Vb : TcVal Ideal c)

/-- The partial sums and counts, the bias and the labels the region finds, as plain functions. -/
def s2In : Fin 4096 → Fin 16 → EReal := fun b j => Vb main_v5 (ix2 b j)
def c2In : Fin 4096 → Fin 16 → EReal := fun b j => Vb main_v6 (ix2 b j)
def biasIn : EReal := Vb main_v7 (ix2 0 0)
def labIn : Cert.Spec.Lab := fun b l => Vb main_arg0 (ix2 b l)

/-- What the result array ends holding. -/
def G2 : Buf (Elt Ideal) ((cfg2.win 4).arr.view.loc (c : Thread nD τ)) :=
  fun i => Cert.Spec.softmaxOf (s2In Vb) (c2In Vb) (biasIn Vb) (labIn Vb) (i 0) (i 1)

/-- The printed index maps over the grid: the three constant windows stay, the labels' and the result's move with the
    point along the rows; and the rows of the weights a point reads. -/
theorem idx_facts2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)
theorem off_facts2 : ∀ t : Fin cfg2.N, k2_off1 (grid2.coords t) (0 : Fin 2) = 256 * t.val ∧ k2_off1 (grid2.coords t) (1 : Fin 2) = 0 :=
  (by decide +kernel : ∀ t : Fin grid2.N, _)

/-- The blocks, read at an index. -/
theorem iblk2_0_apply (t : Fin cfg2.N) (b : Fin 4096) (j : Fin 16) : iblk2 Vb 0 t (ix2 b j) = s2In Vb b j := by
  obtain ⟨e0, e1, -⟩ := idx_facts2 t
  show Vb main_v5 (((cfg2.win 0).blk t).view.emb (ix2 b j)) = Vb main_v5 (ix2 b j)
  refine congrArg (Vb main_v5) (funext fun a => Fin.ext ?_)
  match a with
  | ⟨0, _⟩ => show win2_0.index t (0 : Fin 2) * 4096 + 1 * b.val = b.val; omega
  | ⟨1, _⟩ => show win2_0.index t (1 : Fin 2) * 16 + 1 * j.val = j.val; omega

theorem iblk2_1_apply (t : Fin cfg2.N) (b : Fin 4096) (j : Fin 16) : iblk2 Vb 1 t (ix2 b j) = c2In Vb b j := by
  obtain ⟨-, -, e0, e1, -⟩ := idx_facts2 t
  show Vb main_v6 (((cfg2.win 1).blk t).view.emb (ix2 b j)) = Vb main_v6 (ix2 b j)
  refine congrArg (Vb main_v6) (funext fun a => Fin.ext ?_)
  match a with
  | ⟨0, _⟩ => show win2_1.index t (0 : Fin 2) * 4096 + 1 * b.val = b.val; omega
  | ⟨1, _⟩ => show win2_1.index t (1 : Fin 2) * 16 + 1 * j.val = j.val; omega

theorem iblk2_2_apply (t : Fin cfg2.N) : iblk2 Vb 2 t (ix2 0 0) = biasIn Vb := by
  obtain ⟨-, -, -, -, e0, e1, -⟩ := idx_facts2 t
  show Vb main_v7 (((cfg2.win 2).blk t).view.emb (ix2 0 0)) = Vb main_v7 (ix2 0 0)
  refine congrArg (Vb main_v7) (funext fun a => Fin.ext ?_)
  match a with
  | ⟨0, _⟩ => show win2_2.index t (0 : Fin 2) * 1 + 1 * 0 = 0; omega
  | ⟨1, _⟩ => show win2_2.index t (1 : Fin 2) * 1 + 1 * 0 = 0; omega

theorem iblk2_3_apply (t : Fin cfg2.N) (r : Fin 256) (l : Fin 200) (h : 256 * t.val + r.val < 4096) :
    iblk2 Vb 3 t (ix2 r l) = labIn Vb ⟨256 * t.val + r.val, h⟩ l := by
  obtain ⟨-, -, -, -, -, -, e0, e1, -⟩ := idx_facts2 t
  show Vb main_arg0 (((cfg2.win 3).blk t).view.emb (ix2 r l)) = Vb main_arg0 (ix2 ⟨256 * t.val + r.val, h⟩ l)
  refine congrArg (Vb main_arg0) (funext fun a => Fin.ext ?_)
  match a with
  | ⟨0, _⟩ => show win2_3.index t (0 : Fin 2) * 256 + 1 * r.val = 256 * t.val + r.val; omega
  | ⟨1, _⟩ => show win2_3.index t (1 : Fin 2) * 200 + 1 * l.val = l.val; omega

/-- An index of the result array is in point t's block iff each coordinate is in the block's range on its axis. -/
theorem mem_blk2 (t : Fin cfg2.N) (i : S4096x200.Idx) :
    i ∈ ((cfg2.win 4).blk t).view.set ↔ ∀ a : Fin 2, win2_4.index t a * S256x200.size a ≤ (i a).val ∧ (i a).val < win2_4.index t a * S256x200.size a + S256x200.size a := by
  show i ∈ ((View.whole main_v8).slice (win2_4.rect t)).set ↔ _
  rw [View.set_slice_whole, Rect.mem_set_unit]
  exact Iff.rfl

/-- The sixteen blocks tile the array. -/
theorem cover2 (i : S4096x200.Idx) : ∃ t : Fin cfg2.N, (cfg2.win 4).flush t = true ∧ i ∈ ((cfg2.win 4).blk t).view.set := by
  have hi0 : (i 0).val < 4096 := (i 0).isLt
  have hi1 : (i 1).val < 200 := (i 1).isLt
  have hN : grid2.N = 16 := N_2
  have hlt : (i 0).val / 256 < cfg2.N := by show (i 0).val / 256 < grid2.N; omega
  obtain ⟨-, -, -, -, -, -, -, -, e4, e5⟩ := idx_facts2 ⟨(i 0).val / 256, hlt⟩
  refine ⟨⟨(i 0).val / 256, hlt⟩, flush2_4 _, ?_⟩
  rw [mem_blk2]
  intro a
  match a with
  | ⟨0, _⟩ =>
    show win2_4.index ⟨(i 0).val / 256, hlt⟩ (0 : Fin 2) * 256 ≤ (i 0).val ∧ (i 0).val < win2_4.index ⟨(i 0).val / 256, hlt⟩ (0 : Fin 2) * 256 + 256
    rw [e4]; show (i 0).val / 256 * 256 ≤ (i 0).val ∧ (i 0).val < (i 0).val / 256 * 256 + 256; omega
  | ⟨1, _⟩ =>
    show win2_4.index ⟨(i 0).val / 256, hlt⟩ (1 : Fin 2) * 200 ≤ (i 1).val ∧ (i 1).val < win2_4.index ⟨(i 0).val / 256, hlt⟩ (1 : Fin 2) * 200 + 200
    rw [e5]; omega

/-- The grid is one axis: a point's coordinate is its position. -/
theorem coords2 : ∀ t : Fin cfg2.N, ((grid2.coords t) 0).val = t.val :=
  (by decide +kernel : ∀ t : Fin grid2.N, _)

/-- The three readings of the body's pure functions at the exact reals that the array-level statement rests on:
    the per-row weights, the masked weight, and the output block at an index. -/
structure PureReadings : Prop where
  softA_apply : ∀ (x0 x1 : Vec Ideal S4096x16 .f32) (x2 : Vec Ideal S1x1 .f32) (b : Fin 4096),
    softA x0 x1 x2 (ix2 b 0) = Cert.Spec.smA (fun b j => x0 (ix2 b j)) (fun b j => x1 (ix2 b j)) (x2 (ix2 0 0)) b
  softSmS_eq : ∀ (x0 x1 : Vec Ideal S4096x16 .f32) (x2 : Vec Ideal S1x1 .f32),
    softSmS x0 x1 x2 = Cert.Spec.smSm (fun b j => x0 (ix2 b j)) (fun b j => x1 (ix2 b j)) (x2 (ix2 0 0))
  softBlk_apply : ∀ (a : Vec Ideal S4096x1 .f32) (sm : Vec Ideal S1 .f32) (i : grid2.Coords) (lab : Vec Ideal S256x200 .i32)
    (r : Fin 256) (l : Fin 200) (h : 256 * (i 0).val + r.val < 4096),
    softBlk a sm i lab (ix2 r l) = if Cert.Spec.valid (lab (ix2 r l)) then a (ix2 ⟨256 * (i 0).val + r.val, h⟩ 0) else smAt sm

variable {O R Vb}

/-- What point t writes back is block t of `G2`. -/
theorem flushed2_eq (hp : PureReadings) (t : Fin cfg2.N) :
    (dat2 O R Vb).flushed 4 t = ((cfg2.win 4).blk t).view.read (Elt Ideal) (G2 Vb) := by
  show (cfg2.win 4).cut (grid2.coords t) ((dat2 O R Vb).after 4 t) = _
  rw [dat2_after_4]
  obtain ⟨-, -, -, -, -, -, -, -, e4, e5⟩ := idx_facts2 t
  have hN : grid2.N = 16 := N_2
  have htl : t.val < 16 := lt_of_lt_of_eq (show t.val < grid2.N from t.isLt) hN
  funext (j : S256x200.Idx)
  obtain ⟨r, l, rfl⟩ : ∃ (r : Fin 256) (l : Fin 200), j = ix2 r l :=
    ⟨j 0, j 1, funext fun a => match a with | ⟨0, _⟩ => rfl | ⟨1, _⟩ => rfl⟩
  have hr : r.val < 256 := r.isLt
  have hb : 256 * t.val + r.val < 4096 := by omega
  have hb' : 256 * ((grid2.coords t) 0).val + r.val < 4096 := by rw [coords2 t]; exact hb
  show softBlk (scrA Vb) (scrSm Vb) (grid2.coords t) (iblk2 Vb 3 t) (ix2 r l) = G2 Vb (((cfg2.win 4).blk t).view.emb (ix2 r l))
  rw [hp.softBlk_apply _ _ _ _ r l hb', iblk2_3_apply Vb t r l hb]
  have hemb : ((cfg2.win 4).blk t).view.emb (ix2 r l) = ix2 (⟨256 * t.val + r.val, hb⟩ : Fin 4096) l := by
    funext a; apply Fin.ext
    match a with
    | ⟨0, _⟩ => show win2_4.index t (0 : Fin 2) * 256 + 1 * r.val = 256 * t.val + r.val; omega
    | ⟨1, _⟩ => show win2_4.index t (1 : Fin 2) * 200 + 1 * l.val = l.val; omega
  rw [hemb]
  have hrow : (⟨256 * ((grid2.coords t) 0).val + r.val, hb'⟩ : Fin 4096) = ⟨256 * t.val + r.val, hb⟩ := Fin.ext (congrArg (fun x => 256 * x + r.val) (coords2 t))
  rw [hrow]
  have hA : scrA Vb (ix2 (⟨256 * t.val + r.val, hb⟩ : Fin 4096) 0) = Cert.Spec.smA (s2In Vb) (c2In Vb) (biasIn Vb) ⟨256 * t.val + r.val, hb⟩ := by
    unfold scrA
    rw [hp.softA_apply]
    have h0 : (fun (b : Fin 4096) (j : Fin 16) => iblk2 Vb 0 t2_0 (ix2 b j)) = s2In Vb := funext fun b => funext fun j => iblk2_0_apply Vb t2_0 b j
    have h1 : (fun (b : Fin 4096) (j : Fin 16) => iblk2 Vb 1 t2_0 (ix2 b j)) = c2In Vb := funext fun b => funext fun j => iblk2_1_apply Vb t2_0 b j
    rw [h0, h1, iblk2_2_apply Vb t2_0]
  have hS : smAt (scrSm Vb) = Cert.Spec.smSm (s2In Vb) (c2In Vb) (biasIn Vb) := by
    unfold scrSm
    rw [smAt_softSm, hp.softSmS_eq]
    have h0 : (fun (b : Fin 4096) (j : Fin 16) => iblk2 Vb 0 t2_0 (ix2 b j)) = s2In Vb := funext fun b => funext fun j => iblk2_0_apply Vb t2_0 b j
    have h1 : (fun (b : Fin 4096) (j : Fin 16) => iblk2 Vb 1 t2_0 (ix2 b j)) = c2In Vb := funext fun b => funext fun j => iblk2_1_apply Vb t2_0 b j
    rw [h0, h1, iblk2_2_apply Vb t2_0]
  rw [hA, hS]
  rfl

/-- So after the run the result array holds, at every position, the kernel's softmax of the partial sums, the counts,
    the bias and the labels. -/
theorem dat2_arrAt_out (hp : PureReadings) : (dat2 O R Vb).arrAt 4 cfg2.N = G2 Vb :=
  (dat2 O R Vb).arrAt_eq_of_cover 4 (G2 Vb) (fun t _ => flushed2_eq hp t) cover2

theorem dat2_arrAt_out_apply (hp : PureReadings) (b : Fin 4096) (l : Fin 200) :
    (dat2 O R Vb).arrAt 4 cfg2.N (ix2 b l) = Cert.Spec.softmaxOf (s2In Vb) (c2In Vb) (biasIn Vb) (labIn Vb) b l := by
  rw [dat2_arrAt_out hp]; rfl

end Cert.KernelIdeal.Hand.Region

end
-- ==== Proof.SoftmaxBlkValue.lean ====
/-
  The output block of the second region read at an index, at the exact reals: where the label word
  is positive as a signed integer the row's weight, elsewhere the masked weight.
-/
import proofs.«203204_g25512105739078_cont_8to1_1946_3_alg».proof.Proof.SoftmaxValue

set_option maxRecDepth 16384

noncomputable section

namespace Cert.KernelIdeal.Hand.Region

open Cert.KernelIdeal Cert.KernelIdeal.Gen Cert.KernelIdeal.Hand

open Idealize.ShloMosaic Idealize.ShloMosaic.TcCoe
open Idealize.SL Idealize.SL.Sem
open Idealize.ShloMosaic.ValueIdx
open scoped BigOperators

/-- The rows of the weights a point reads start at 256 times the point. -/
theorem off_coords2 : ∀ i : grid2.Coords, k2_off1 i (0 : Fin 2) = 256 * (i 0).val ∧ k2_off1 i (1 : Fin 2) = 0 := by
  decide +kernel

theorem softBlk_apply (a : Vec Ideal S4096x1 .f32) (sm : Vec Ideal S1 .f32) (i : grid2.Coords) (lab : Vec Ideal S256x200 .i32)
    (r : Fin 256) (l : Fin 200) (h : 256 * (i 0).val + r.val < 4096) :
    softBlk a sm i lab (ix2 r l) = if Cert.Spec.valid (lab (ix2 r l)) then a (ix2 ⟨256 * (i 0).val + r.val, h⟩ 0) else smAt sm := by
  obtain ⟨o0, o1⟩ := off_coords2 i
  unfold softBlk
  rw [View.canon_unit_zero zeros2, View.ld_unit_zero (S := S256x200) zeros2]
  unfold k2_pay4
  show Scalar.select (IntOp.cmpi .sgt (lab (ix2 r l)) 0#32)
      (broadcastTo S256x200 (shapeCast S256x1 (View.ld a (rRows i)) shapeCasts_S256x1_S256x1) broadcasts_S256x1_S256x200 (ix2 r l)) (smAt sm) = _
  have hv : (IntOp.cmpi .sgt (lab (ix2 r l)) 0#32 = (1 : BitVec 1)) ↔ Cert.Spec.valid (lab (ix2 r l)) = true := by
    show (BitVec.ofBool ((0#32).slt (lab (ix2 r l))) = (1 : BitVec 1)) ↔ (0#32).slt (lab (ix2 r l)) = true
    cases (0#32).slt (lab (ix2 r l)) <;> decide
  have hb : broadcastTo S256x200 (shapeCast S256x1 (View.ld a (rRows i)) shapeCasts_S256x1_S256x1) broadcasts_S256x1_S256x200 (ix2 r l)
      = a (ix2 ⟨256 * (i 0).val + r.val, h⟩ 0) := by
    refine (broadcastTo_apply _ _ _ (ix2 r 0) ?_).trans ?_
    · intro x
      match x with
      | ⟨0, _⟩ => rfl
      | ⟨1, _⟩ => rfl
    refine (congrFun (shapeCast_self (s := S256x1) (View.ld a (rRows i)) shapeCasts_S256x1_S256x1) (ix2 r 0)).trans ?_
    show a ((rRows i).idx (ix2 r 0)) = a (ix2 ⟨256 * (i 0).val + r.val, h⟩ 0)
    refine congrArg a (funext fun x => Fin.ext ?_)
    match x with
    | ⟨0, _⟩ => show k2_off1 i (0 : Fin 2) + 1 * r.val = 256 * (i 0).val + r.val; omega
    | ⟨1, _⟩ => show k2_off1 i (1 : Fin 2) + 1 * 0 = 0; omega
  rw [hb]
  unfold Scalar.select
  by_cases hval : Cert.Spec.valid (lab (ix2 r l)) = true
  · rw [if_pos (hv.mpr hval), if_pos hval]
  · rw [if_neg (fun h' => hval (hv.mp h')), if_neg hval]

end Cert.KernelIdeal.Hand.Region

end
-- ==== Proof.SpecBridge.lean ====
/-
  Re-indexing a maximum folded from ⊥ over a finite type along a bijection: the maximum over the
  flattened positions is the maximum over the (row, position) pairs, whatever bijection flattens them.
-/
import proofs.«203204_g25512105739078_cont_8to1_1946_3_alg».proof.Proof.SpecEq

noncomputable section

namespace Cert.Spec

open scoped BigOperators

/-- A maximum folded from ⊥ over a whole finite type is unchanged by re-indexing along a bijection
    (the sum's counterpart is Equiv.sum_comp). -/
theorem fold_univ_equiv {α β : Type*} [Fintype α] [Fintype β] (e : α ≃ β) (f : β → EReal) :
    (Finset.univ : Finset α).fold max ⊥ (fun a => f (e a)) = (Finset.univ : Finset β).fold max ⊥ f := by
  apply le_antisymm
  · exact fold_univ_le _ _ fun a => le_fold_univ f (e a)
  · refine fold_univ_le _ _ fun b => ?_
    have h := le_fold_univ (fun a => f (e a)) (e.symm b)
    simpa using h

/-- Joining ⊥ to an extended real changes nothing. -/
theorem max_bot_fold (m : EReal) : max ⊥ m = m := max_eq_right bot_le

end Cert.Spec
-- ==== Proof.SpecSoftmaxValue.lean ====
/-
  The softmax kernel's payloads, read at the ideal values, are the stages of the specification's third
  part: the row sums of the two [4096, 16] arrays, the row value, the count of invalid positions, the
  maximum, the two exponentials, the denominator, and the two values a position can receive.
-/
import proofs.«203204_g25512105739078_cont_8to1_1946_3_alg».proof.Proof.Gen.KernelIdeal.Skeleton
import proofs.«203204_g25512105739078_cont_8to1_1946_3_alg».proof.Proof.SpecBridge
import Idealize.ShloMosaic.Lib.Pipeline.Value
import Idealize.ShloMosaic.Lib.ValueIdx

noncomputable section

namespace Cert.Spec

open Idealize.ShloMosaic Idealize.ShloMosaic.ValueIdx
open Cert.KernelIdeal Cert.KernelIdeal.Gen
open scoped BigOperators

/-- A [4096, 16] array as a plain function of row and lane. -/
def arr2 (v : Vec Ideal S4096x16 .f32) : Fin 4096 → Fin 16 → EReal := fun b k => v (ix2 b k)

/-- The one word of a [1, 1] array. -/
def biasOf (v : Vec Ideal S1x1 .f32) : EReal := v (ix2 0 0)

/-- Every index of a [4096, 1] vector is its row and 0. -/
theorem idx4096x1 (j : S4096x1.Idx) : j = ix2 (j 0) (0 : Fin 1) :=
  (eq_ix2 j).trans (congrArg (ix2 (j 0)) (Subsingleton.elim (α := Fin 1) (j 1) 0))

/-- Rows of a [4096, 1] vector. -/
def colEquiv : Fin 4096 ≃ S4096x1.Idx where
  toFun b := ix2 b 0
  invFun j := j 0
  left_inv _ := rfl
  right_inv j := (idx4096x1 j).symm

/-- The minus-infinity word is ⊥. -/
theorem ofBits_neg_inf : Ideal.ofBits .f32 0xFF800000#32 = ⊥ := by
  simp [Ideal.ofBits, Ideal.ieee]

/-- A comparison "greater than" feeding a select is the if on the order. -/
theorem select_ogt (c z x y : EReal) :
    Scalar.select (Ideal.cmp .ogt c z) x y = if z < c then x else y := by
  unfold Scalar.select Ideal.cmp
  by_cases h : z < c <;> simp [h]

/-- A row-wise sum of a [4096, 16] array, reshaped to a column, reads the sum over the sixteen lanes. -/
theorem rowsum_apply (v : Vec Ideal S4096x16 .f32) (h0 : S4096x16.ShapeCasts S4096x16) (h1 : S4096x16.Reduces [1] S4096)
    (hφ : FKind.Formats .f32) (hacc : (0x00000000#32 : BitVec 32) = FKind.add.neutral .f32 hφ)
    (h2 : S4096.ShapeCasts S4096x1) (j : S4096x1.Idx) :
    shapeCast S4096x1 (multiReduction (F := Ideal) .add [1] S4096 (shapeCast S4096x16 v h0) 0x00000000#32 h1 hφ hacc) h2 j
      = ∑ k : Fin 16, v (ix2 (j 0) k) := by
  rw [shapeCast_self]
  refine (shapeCast_apply _ h2 j (ix1 (j 0)) ?_).trans ?_
  · rw [Shape.rowMajor_val_one, Shape.rowMajor_val_two]
    have : (j 1).val = 0 := by have := (j 1).isLt; simp at this; omega
    show (j 0).val = (j 0).val * 1 + (j 1).val
    omega
  · rw [Ideal.multiReduction_add_single]
    show ∑ k : Fin 16, v (h1.lift (ix1 (j 0)) k) = _
    refine Finset.sum_congr rfl fun k _ => congrArg v ?_
    funext a
    match a with
    | ⟨0, _⟩ => rfl
    | ⟨1, _⟩ => rfl

/-- The sum of a whole [4096, 1] vector, as the kernel takes it (through [1, 4096, 1], reduced to [1],
    reshaped to [1, 1, 1], its one word extracted), is the sum over the rows. -/
theorem total_apply (f : FVec Ideal S4096x1 .f32) (h1 : S4096x1.ShapeCasts S1x4096x1) (h2 : S1x4096x1.Reduces [1, 2] S1)
    (hφ : FKind.Formats .f32) (hacc : (0x00000000#32 : BitVec 32) = FKind.add.neutral .f32 hφ)
    (h3 : S1.ShapeCasts S1x1x1) (hpos : ∀ a, (![0, 0, 0] : Fin 3 → Nat) a < S1x1x1.size a) :
    extractAt ![0, 0, 0] (shapeCast S1x1x1 (multiReduction (F := Ideal) .add [1, 2] S1 (shapeCast S1x4096x1 f h1) 0x00000000#32 h2 hφ hacc) h3) hpos
      = ∑ b : Fin 4096, f (ix2 b 0) := by
  unfold extractAt shapeCast
  rw [Ideal.multiReduction_add_total _ _ _ (fun b => by fin_cases b; rfl)]
  rw [Equiv.sum_comp (Shape.reshapeEquiv _) f, ← Equiv.sum_comp colEquiv f]
  rfl

/-- The maximum of a whole [4096, 1] vector, taken the same way from minus infinity, is the maximum over
    the rows folded from ⊥. -/
theorem maxtotal_apply (f : FVec Ideal S4096x1 .f32) (h1 : S4096x1.ShapeCasts S1x4096x1) (h2 : S1x4096x1.Reduces [1, 2] S1)
    (hφ : FKind.Formats .f32) (hacc : (0xFF800000#32 : BitVec 32) = FKind.maximumf.neutral .f32 hφ)
    (h3 : S1.ShapeCasts S1x1x1) (hpos : ∀ a, (![0, 0, 0] : Fin 3 → Nat) a < S1x1x1.size a) :
    extractAt ![0, 0, 0] (shapeCast S1x1x1 (multiReduction (F := Ideal) .maximumf [1, 2] S1 (shapeCast S1x4096x1 f h1) 0xFF800000#32 h2 hφ hacc) h3) hpos
      = (Finset.univ : Finset (Fin 4096)).fold max ⊥ (fun b => f (ix2 b 0)) := by
  unfold extractAt shapeCast
  rw [multiReduction_maximumf_eq_fold]
  rw [Finset.filter_true_of_mem fun i _ => funext fun b => Fin.ext (by
    have h4 := (h2.drop i b).isLt
    have h5 : S1.size b = 1 := by fin_cases b; rfl
    generalize (Shape.reshapeEquiv _ _ : S1.Idx) b = q at *
    have h6 := q.isLt
    omega)]
  show (Finset.univ : Finset S1x4096x1.Idx).fold max (Ideal.ofBits .f32 0xFF800000#32) (fun i => f (Shape.reshapeEquiv _ i)) = _
  rw [ofBits_neg_inf, fold_univ_equiv (Shape.reshapeEquiv _) f, ← fold_univ_equiv colEquiv f]
  rfl

section
variable (v15 v19 : Vec Ideal S4096x16 .f32) (v26 : Vec Ideal S1x1 .f32)

theorem pay5_apply (j : S4096x1.Idx) : k2_pay5 (F := Ideal) v19 j = smC (arr2 v19) (j 0) :=
  rowsum_apply v19 _ _ _ _ _ j

theorem pay6_apply (j : S4096x1.Idx) :
    k2_pay6 (F := Ideal) v15 v19 v26 j = smXm (arr2 v15) (arr2 v19) (biasOf v26) (j 0) := by
  have hS := rowsum_apply v15 shapeCasts_S4096x16_S4096x16 reduces_S4096x16_S4096 (.inl rfl) rfl shapeCasts_S4096_S4096x1 j
  have hC := pay5_apply v19 j
  have hb : extractAt ![0, 0] v26 inpos_S1x1_p0_0 = biasOf v26 :=
    congrArg v26 (funext fun a => match a with | ⟨0, _⟩ => rfl | ⟨1, _⟩ => rfl)
  show Scalar.select (Ideal.cmp .ogt (k2_pay5 (F := Ideal) v19 j) zero)
      (Ideal.div (shapeCast S4096x1 (multiReduction (F := Ideal) .add [1] S4096 (shapeCast S4096x16 v15 shapeCasts_S4096x16_S4096x16)
          0x00000000#32 reduces_S4096x16_S4096 (.inl rfl) rfl) shapeCasts_S4096_S4096x1 j) (eps + k2_pay5 (F := Ideal) v19 j)
        + extractAt ![0, 0] v26 inpos_S1x1_p0_0) NEG = _
  rw [hS, hC, hb, select_ogt]
  rfl

theorem pay7_eq : k2_pay7 (F := Ideal) v19 = smNinv (arr2 v19) := by
  have h := total_apply (k2_pay5 (F := Ideal) v19) shapeCasts_S4096x1_S1x4096x1 reduces_S1x4096x1_S1 (.inl rfl) rfl
    shapeCasts_S1_S1x1x1 inpos_S1x1x1_p0_0_0
  have h2 : k2_pay7 (F := Ideal) v19 = total - ∑ b : Fin 4096, k2_pay5 (F := Ideal) v19 (ix2 b 0) :=
    congrArg (fun z => total - z) h
  rw [h2]
  unfold smNinv
  exact congrArg (fun z => total - z) (Finset.sum_congr rfl fun b _ => pay5_apply v19 (ix2 b 0))

theorem pay8_eq : k2_pay8 (F := Ideal) v15 v19 v26 = smM (arr2 v15) (arr2 v19) (biasOf v26) := by
  have h := maxtotal_apply (k2_pay6 (F := Ideal) v15 v19 v26) shapeCasts_S4096x1_S1x4096x1 reduces_S1x4096x1_S1 (.inl rfl) rfl
    shapeCasts_S1_S1x1x1 inpos_S1x1x1_p0_0_0
  have hm := h.trans (show _ = smMrow (arr2 v15) (arr2 v19) (biasOf v26) from
    congrArg (fun f : Fin 4096 → EReal => (Finset.univ : Finset (Fin 4096)).fold max ⊥ f)
      (funext fun b => pay6_apply v15 v19 v26 (ix2 b 0)))
  have h8 : k2_pay8 (F := Ideal) v15 v19 v26
      = (fun M : EReal => Scalar.select (Ideal.cmp .ogt (k2_pay7 (F := Ideal) v19) zero) (max M NEG) M)
          (smMrow (arr2 v15) (arr2 v19) (biasOf v26)) :=
    congrArg (fun M : EReal => Scalar.select (Ideal.cmp .ogt (k2_pay7 (F := Ideal) v19) zero) (max M NEG) M) hm
  rw [h8]
  show Scalar.select (Ideal.cmp .ogt (k2_pay7 (F := Ideal) v19) zero) (max (smMrow (arr2 v15) (arr2 v19) (biasOf v26)) NEG)
    (smMrow (arr2 v15) (arr2 v19) (biasOf v26)) = _
  rw [pay7_eq, select_ogt]
  rfl

theorem pay9_apply (j : S4096x1.Idx) :
    k2_pay9 (F := Ideal) v15 v19 v26 j = smE (arr2 v15) (arr2 v19) (biasOf v26) (j 0) := by
  show Ideal.exp (k2_pay6 (F := Ideal) v15 v19 v26 j - k2_pay8 (F := Ideal) v15 v19 v26) = _
  rw [pay6_apply, pay8_eq]
  rfl

theorem pay10_eq : k2_pay10 (F := Ideal) v15 v19 v26 = smEneg (arr2 v15) (arr2 v19) (biasOf v26) := by
  show Ideal.exp (NEG - k2_pay8 (F := Ideal) v15 v19 v26) = _
  rw [pay8_eq]
  rfl

theorem pay11_eq : k2_pay11 (F := Ideal) v15 v19 v26
    = ∑ b : Fin 4096, smC (arr2 v19) b * smE (arr2 v15) (arr2 v19) (biasOf v26) b := by
  have h := total_apply (mulf (k2_pay5 (F := Ideal) v19) (k2_pay9 (F := Ideal) v15 v19 v26)) shapeCasts_S4096x1_S1x4096x1
    reduces_S1x4096x1_S1 (.inl rfl) rfl shapeCasts_S1_S1x1x1 inpos_S1x1x1_p0_0_0
  refine Eq.trans (show k2_pay11 (F := Ideal) v15 v19 v26 = _ from h) ?_
  refine Finset.sum_congr rfl fun b _ => ?_
  show k2_pay5 (F := Ideal) v19 (ix2 b 0) * k2_pay9 (F := Ideal) v15 v19 v26 (ix2 b 0) = _
  rw [pay5_apply, pay9_apply]

theorem pay12_eq : k2_pay12 (F := Ideal) v15 v19 v26 = smNinv (arr2 v19) * smEneg (arr2 v15) (arr2 v19) (biasOf v26) := by
  show k2_pay7 (F := Ideal) v19 * k2_pay10 (F := Ideal) v15 v19 v26 = _
  rw [pay7_eq, pay10_eq]

/-- The denominator. -/
theorem pay1_eq : k2_pay1 (F := Ideal) (k2_pay11 (F := Ideal) v15 v19 v26) (k2_pay12 (F := Ideal) v15 v19 v26)
    = smDenom (arr2 v15) (arr2 v19) (biasOf v26) := by
  show k2_pay11 (F := Ideal) v15 v19 v26 + k2_pay12 (F := Ideal) v15 v19 v26 = _
  rw [pay11_eq, pay12_eq]
  rfl

/-- What a valid position of row j 0 receives. -/
theorem pay2_apply (j : S4096x1.Idx) :
    k2_pay2 (F := Ideal) (k2_pay9 (F := Ideal) v15 v19 v26) (k2_pay11 (F := Ideal) v15 v19 v26) (k2_pay12 (F := Ideal) v15 v19 v26) j
      = smA (arr2 v15) (arr2 v19) (biasOf v26) (j 0) := by
  unfold k2_pay2
  rw [shapeCast_self]
  show Ideal.div (k2_pay9 (F := Ideal) v15 v19 v26 j)
      (k2_pay1 (F := Ideal) (k2_pay11 (F := Ideal) v15 v19 v26) (k2_pay12 (F := Ideal) v15 v19 v26)) = _
  rw [pay9_apply, pay1_eq]
  rfl

/-- What every invalid position receives. -/
theorem pay3_eq :
    k2_pay3 (F := Ideal) (k2_pay10 (F := Ideal) v15 v19 v26) (k2_pay11 (F := Ideal) v15 v19 v26) (k2_pay12 (F := Ideal) v15 v19 v26)
      = smSm (arr2 v15) (arr2 v19) (biasOf v26) := by
  show Ideal.div (k2_pay10 (F := Ideal) v15 v19 v26)
      (k2_pay1 (F := Ideal) (k2_pay11 (F := Ideal) v15 v19 v26) (k2_pay12 (F := Ideal) v15 v19 v26)) = _
  rw [pay10_eq, pay1_eq]
  rfl

end

end Cert.Spec
-- ==== Proof.SpecSoftmaxRead.lean ====
/-
  The two scratch values of the softmax kernel, as functions of its input blocks, read at the ideal values:
  the per-row value is the specification's value of a valid position of that row, and the one scalar is the
  specification's value of every invalid position.
-/
import proofs.«203204_g25512105739078_cont_8to1_1946_3_alg».proof.Proof.SoftmaxValue
import proofs.«203204_g25512105739078_cont_8to1_1946_3_alg».proof.Proof.SpecSoftmaxValue

noncomputable section

namespace Cert.Spec

open Idealize.ShloMosaic Idealize.ShloMosaic.ValueIdx
open Cert.KernelIdeal Cert.KernelIdeal.Gen Cert.KernelIdeal.Hand

theorem softA_apply (x0 x1 : Vec Ideal S4096x16 .f32) (x2 : Vec Ideal S1x1 .f32) (b : Fin 4096) :
    Region.softA x0 x1 x2 (ix2 b 0)
      = smA (fun b j => x0 (ix2 b j)) (fun b j => x1 (ix2 b j)) (x2 (ix2 0 0)) b := by
  unfold Region.softA
  rw [View.ld_unit_zero Region.zeros2, View.ld_unit_zero Region.zeros2, View.ld_unit_zero Region.zeros2]
  exact pay2_apply x0 x1 x2 (ix2 b 0)

theorem softSmS_eq (x0 x1 : Vec Ideal S4096x16 .f32) (x2 : Vec Ideal S1x1 .f32) :
    Region.softSmS x0 x1 x2
      = smSm (fun b j => x0 (ix2 b j)) (fun b j => x1 (ix2 b j)) (x2 (ix2 0 0)) := by
  unfold Region.softSmS
  rw [View.ld_unit_zero Region.zeros2, View.ld_unit_zero Region.zeros2, View.ld_unit_zero Region.zeros2]
  exact pay3_eq x0 x1 x2

end Cert.Spec
-- ==== Proof.SpecSoftmaxReadings.lean ====
/-
  The three pure readings of the softmax kernel's values, together.
-/
import proofs.«203204_g25512105739078_cont_8to1_1946_3_alg».proof.Proof.SoftmaxBlkValue
import proofs.«203204_g25512105739078_cont_8to1_1946_3_alg».proof.Proof.SpecSoftmaxRead

namespace Cert.Spec

open Cert.KernelIdeal.Hand

theorem pureReadings : Region.PureReadings :=
  ⟨softA_apply, softSmS_eq, Region.softBlk_apply⟩

end Cert.Spec
-- ==== Proof.SpecReshape.lean ====
/-
  The host's reshapes between the kernels read at an index: a reshape keeps row-major position, so the
  flat word of a [rows, cols] array at (r, c) is word cols · r + c, a column vector's word v is its row v,
  and a one-word array's word is its word.
-/
import Idealize.ShloMosaic.Lib.Pipeline.Value
import Idealize.ShloMosaic.Lib.ValueIdx

namespace Cert.Spec

open Idealize.ShloMosaic Idealize.ShloMosaic.ValueIdx

section
variable {α : Type}

/-- A [n, 1] column reshaped flat reads row v at word v. -/
theorem reshape_col_flat {n : Nat} (x : (⟨2, ![n, 1]⟩ : Shape).Idx → α) (h : (⟨2, ![n, 1]⟩ : Shape).ShapeCasts ⟨1, ![n]⟩)
    (v : Fin n) : shapeCast ⟨1, ![n]⟩ x h (Shape.ofLane (d := ![n]) v) = x (ix2 v (0 : Fin 1)) := by
  refine shapeCast_apply x h _ _ ?_
  rw [Shape.rowMajor_val_one, Shape.rowMajor_val_two]
  show v.val * 1 + 0 = v.val
  omega

/-- A [m, n] array reshaped flat reads (r, c) at word n · r + c. -/
theorem reshape_mat_flat {m n N : Nat} (x : (⟨2, ![m, n]⟩ : Shape).Idx → α) (h : (⟨2, ![m, n]⟩ : Shape).ShapeCasts ⟨1, ![N]⟩)
    (r : Fin m) (c : Fin n) (k : Fin N) (hk : k.val = n * r.val + c.val) :
    shapeCast ⟨1, ![N]⟩ x h (Shape.ofLane (d := ![N]) k) = x (ix2 r c) := by
  refine shapeCast_apply x h _ _ ?_
  rw [Shape.rowMajor_val_one, Shape.rowMajor_val_two]
  show r.val * n + c.val = k.val
  rw [hk, Nat.mul_comm]

/-- A flat array reshaped [m, n] reads word n · r + c at (r, c). -/
theorem reshape_flat_mat {m n N : Nat} (x : (⟨1, ![N]⟩ : Shape).Idx → α) (h : (⟨1, ![N]⟩ : Shape).ShapeCasts ⟨2, ![m, n]⟩)
    (r : Fin m) (c : Fin n) (k : Fin N) (hk : k.val = n * r.val + c.val) :
    shapeCast ⟨2, ![m, n]⟩ x h (ix2 r c) = x (Shape.ofLane (d := ![N]) k) := by
  refine shapeCast_apply x h _ _ ?_
  rw [Shape.rowMajor_val_one, Shape.rowMajor_val_two]
  show k.val = r.val * n + c.val
  rw [hk, Nat.mul_comm]

/-- A one-word array reshaped [1, 1] reads its word. -/
theorem reshape_one (x : (⟨1, ![1]⟩ : Shape).Idx → α) (h : (⟨1, ![1]⟩ : Shape).ShapeCasts ⟨2, ![1, 1]⟩) :
    shapeCast ⟨2, ![1, 1]⟩ x h (ix2 (0 : Fin 1) (0 : Fin 1)) = x (ix1 (0 : Fin 1)) := by
  refine shapeCast_apply x h _ _ ?_
  rw [Shape.rowMajor_val_one, Shape.rowMajor_val_two]
  rfl

/-- A [n, 1] column reshaped to a [1, n] row reads row e at (0, e). -/
theorem reshape_col_row {n : Nat} (x : (⟨2, ![n, 1]⟩ : Shape).Idx → α) (h : (⟨2, ![n, 1]⟩ : Shape).ShapeCasts ⟨2, ![1, n]⟩)
    (e : Fin n) : shapeCast ⟨2, ![1, n]⟩ x h (ix2 (0 : Fin 1) e) = x (ix2 e (0 : Fin 1)) := by
  refine shapeCast_apply x h _ _ ?_
  rw [Shape.rowMajor_val_two, Shape.rowMajor_val_two]
  show e.val * 1 + 0 = 0 * n + e.val
  omega

end

end Cert.Spec
-- ==== Proof.KernelValue.lean ====
/-
  The kernel's result as a function of the launch contents, read at the exact reals: peeling the host's
  reshapes and the three kernels' results layer by layer, position (b, l) of the result array holds the
  reference's value there.
-/
import proofs.«203204_g25512105739078_cont_8to1_1946_3_alg».proof.Proof.LaunchMainV
import proofs.«203204_g25512105739078_cont_8to1_1946_3_alg».proof.Proof.LaunchRun
import proofs.«203204_g25512105739078_cont_8to1_1946_3_alg».proof.Proof.SpecCompose
import proofs.«203204_g25512105739078_cont_8to1_1946_3_alg».proof.Proof.SpecSoftmaxReadings
import proofs.«203204_g25512105739078_cont_8to1_1946_3_alg».proof.Proof.SpecReshape
import proofs.«203204_g25512105739078_cont_8to1_1946_3_alg».proof.Proof.MatvecValue
import proofs.«203204_g25512105739078_cont_8to1_1946_3_alg».proof.Proof.SoftmaxValue

noncomputable section

namespace Cert.KernelIdeal.Hand

open Cert.KernelIdeal Cert.KernelIdeal.Gen Cert.KernelIdeal.Hand.Pool

open Idealize.ShloMosaic Idealize.ShloMosaic.ValueIdx
open Idealize.ShloMosaic.SparseCore.Cfg (HIx)
open Idealize.ShloMosaic.TcCoe

variable (m : (ℓ : Loc nD τ sig) → Buf (Elt Ideal) ℓ) (d : Dev nD)

/-! ## Before the matrix-vector region -/

theorem WA_arg1 : WA m d (dr main_arg1) = m (d, dr main_arg1) := by
  unfold WA
  rw [(opA (F := Ideal)).result_of_not_mem _ (show dr main_arg1 ∉ ({dr main_v0} : Finset (DevRef τ sig)) by decide)]

theorem WA_v0 (e : Fin 64) : WA m d (dr main_v0) (ix2 0 e) = m (d, dr main_arg2) (ix2 e 0) := by
  unfold WA
  rw [StableHlo.reshape_result]
  exact Cert.Spec.reshape_col_row (n := 64) (m (d, dr main_arg2)) shapeCasts_S64x1_S1x64 e

/-! ## What the SparseCore call reads -/

theorem tvOf_apply (v : Fin 100000) :
    tvOf m d (Shape.ofLane (d := ![100000]) v)
      = Cert.Spec.tOf (fun v e => m (d, dr main_arg1) (ix2 v e)) (fun e => m (d, dr main_arg2) (ix2 e 0)) v := by
  unfold tvOf WB
  rw [(opC (F := Ideal)).result_of_not_mem _ (show dr main_v2 ∉ ({dr main_v3} : Finset (DevRef τ sig)) by decide),
    StableHlo.reshape_result]
  refine (Cert.Spec.reshape_col_flat (n := 100000) _ shapeCasts_S100000x1_S100000 v).trans ?_
  unfold Wr0
  rw [Function.update_self]
  unfold out0
  refine (Region.dat0_arrAt_out_apply _ _ (tv (d := d) (WA m d)) v).trans ?_
  have he : Region.embOf (tv (d := d) (WA m d)) = fun v e => m (d, dr main_arg1) (ix2 v e) := by
    funext v e
    show WA m d (dr main_arg1) (ix2 v e) = _
    rw [WA_arg1]
  have hw : Region.wOf (tv (d := d) (WA m d)) = fun e => m (d, dr main_arg2) (ix2 e 0) := by
    funext e
    exact WA_v0 m d e
  rw [he, hw]

theorem labsOf_ix (b : Fin 4096) (l : Fin 200) :
    labsOf m d (Shape.ofLane (d := ![819200]) ⟨200 * b.val + l.val, by show _ < 819200; have := b.isLt; have := l.isLt; omega⟩)
      = m (d, dr main_arg0) (ix2 b l) := by
  rw [labsOf_apply]
  congr 1
  apply Shape.reshapeEquiv_eq_of_rowMajor
  rw [Shape.rowMajor_val_one, Shape.rowMajor_val_two]
  show b.val * 200 + l.val = 200 * b.val + l.val
  omega

/-! ## What the softmax region reads -/

section
variable (fs : (dr main_v4_0).ty.Contents (Elt Ideal)) (fc : (dr main_v4_1).ty.Contents (Elt Ideal))

theorem WB_arg0 : WB m d (dr main_arg0) = m (d, dr main_arg0) := by
  unfold WB Wr0 WA
  rw [(opC (F := Ideal)).result_of_not_mem _ (show dr main_arg0 ∉ ({dr main_v3} : Finset (DevRef τ sig)) by decide),
    (opB (F := Ideal)).result_of_not_mem _ (show dr main_arg0 ∉ ({dr main_v2} : Finset (DevRef τ sig)) by decide),
    Function.update_of_ne (by decide : dr main_arg0 ≠ dr main_v1),
    (opA (F := Ideal)).result_of_not_mem _ (show dr main_arg0 ∉ ({dr main_v0} : Finset (DevRef τ sig)) by decide)]

theorem WB_arg3 : WB m d (dr main_arg3) = m (d, dr main_arg3) := by
  unfold WB Wr0 WA
  rw [(opC (F := Ideal)).result_of_not_mem _ (show dr main_arg3 ∉ ({dr main_v3} : Finset (DevRef τ sig)) by decide),
    (opB (F := Ideal)).result_of_not_mem _ (show dr main_arg3 ∉ ({dr main_v2} : Finset (DevRef τ sig)) by decide),
    Function.update_of_ne (by decide : dr main_arg3 ≠ dr main_v1),
    (opA (F := Ideal)).result_of_not_mem _ (show dr main_arg3 ∉ ({dr main_v0} : Finset (DevRef τ sig)) by decide)]

theorem WD_arg0 : WD m d fs fc (dr main_arg0) = m (d, dr main_arg0) := by
  unfold WD WC
  rw [(opG (F := Ideal)).result_of_not_mem _ (show dr main_arg0 ∉ ({dr main_v7} : Finset (DevRef τ sig)) by decide),
    (opE (F := Ideal)).result_of_not_mem _ (show dr main_arg0 ∉ ({dr main_v6} : Finset (DevRef τ sig)) by decide),
    (opD (F := Ideal)).result_of_not_mem _ (show dr main_arg0 ∉ ({dr main_v5} : Finset (DevRef τ sig)) by decide),
    Function.update_of_ne (by decide : dr main_arg0 ≠ dr main_v4_1), Function.update_of_ne (by decide : dr main_arg0 ≠ dr main_v4_0),
    WB_arg0]

theorem WD_v5 (b : Fin 4096) (j : Fin 16) :
    WD m d fs fc (dr main_v5) (ix2 b j)
      = fs (Shape.ofLane (d := ![65536]) ⟨16 * b.val + j.val, by show _ < 65536; have := b.isLt; have := j.isLt; omega⟩) := by
  unfold WD WC
  rw [(opG (F := Ideal)).result_of_not_mem _ (show dr main_v5 ∉ ({dr main_v7} : Finset (DevRef τ sig)) by decide),
    (opE (F := Ideal)).result_of_not_mem _ (show dr main_v5 ∉ ({dr main_v6} : Finset (DevRef τ sig)) by decide),
    StableHlo.reshape_result,
    Function.update_of_ne (by decide : dr main_v4_0 ≠ dr main_v4_1), Function.update_self]
  exact Cert.Spec.reshape_flat_mat (m := 4096) (n := 16) (N := 65536) fs shapeCasts_S65536_S4096x16 b j _ rfl

theorem WD_v6 (b : Fin 4096) (j : Fin 16) :
    WD m d fs fc (dr main_v6) (ix2 b j)
      = fc (Shape.ofLane (d := ![65536]) ⟨16 * b.val + j.val, by show _ < 65536; have := b.isLt; have := j.isLt; omega⟩) := by
  unfold WD WC
  rw [(opG (F := Ideal)).result_of_not_mem _ (show dr main_v6 ∉ ({dr main_v7} : Finset (DevRef τ sig)) by decide),
    StableHlo.reshape_result,
    (opD (F := Ideal)).result_of_not_mem _ (show dr main_v4_1 ∉ ({dr main_v5} : Finset (DevRef τ sig)) by decide),
    Function.update_self]
  exact Cert.Spec.reshape_flat_mat (m := 4096) (n := 16) (N := 65536) fc shapeCasts_S65536_S4096x16 b j _ rfl

theorem WD_v7 : WD m d fs fc (dr main_v7) (ix2 0 0) = m (d, dr main_arg3) (ix1 0) := by
  unfold WD WC
  rw [StableHlo.reshape_result,
    (opE (F := Ideal)).result_of_not_mem _ (show dr main_arg3 ∉ ({dr main_v6} : Finset (DevRef τ sig)) by decide),
    (opD (F := Ideal)).result_of_not_mem _ (show dr main_arg3 ∉ ({dr main_v5} : Finset (DevRef τ sig)) by decide),
    Function.update_of_ne (by decide : dr main_arg3 ≠ dr main_v4_1), Function.update_of_ne (by decide : dr main_arg3 ≠ dr main_v4_0),
    WB_arg3]
  exact Cert.Spec.reshape_one (m (d, dr main_arg3)) shapeCasts_S1_S1x1

end

/-! ## The result -/

theorem kernel_value
    (hlab : ∀ i, 0 ≤ (m (d, dr main_arg0) i : BitVec 32).toInt ∧ (m (d, dr main_arg0) i : BitVec 32).toInt ≤ 99999)
    (hemb : ∀ i, ∃ r : ℝ, m (d, dr main_arg1) i = (r : EReal)) (hW : ∀ i, ∃ r : ℝ, m (d, dr main_arg2) i = (r : EReal))
    (hb : ∀ i, ∃ r : ℝ, m (d, dr main_arg3) i = (r : EReal))
    (b : Fin 4096) (l : Fin 200) :
    WE m d (FS m d) (FC m d) (dr main_v8) (ValueIdx.ix2 b l)
      = Cert.Spec.refY (fun b l => m (d, dr main_arg0) (ValueIdx.ix2 b l)) (fun v e => m (d, dr main_arg1) (ValueIdx.ix2 v e))
          (fun e => m (d, dr main_arg2) (ValueIdx.ix2 e 0)) (m (d, dr main_arg3) (ValueIdx.ix1 0)) b l := by
  unfold WE Wr1
  rw [Function.update_self]
  unfold out1
  refine (Region.dat2_arrAt_out_apply (Vb := tv (d := d) (WD m d (FS m d) (FC m d))) Cert.Spec.pureReadings b l).trans ?_
  have hbias : Region.biasIn (tv (d := d) (WD m d (FS m d) (FC m d))) = m (d, dr main_arg3) (ValueIdx.ix1 0) :=
    WD_v7 m d (FS m d) (FC m d)
  have hl : Region.labIn (tv (d := d) (WD m d (FS m d) (FC m d))) = fun b l => m (d, dr main_arg0) (ValueIdx.ix2 b l) := by
    funext b l
    show WD m d (FS m d) (FC m d) (dr main_arg0) (ix2 b l) = _
    rw [WD_arg0]
  rw [hbias, hl]
  refine congrFun (congrFun (Cert.Spec.refY_of_stages _ _ _ _ (tvOf m d) (labsOf m d) _ _ ?_ ?_ ?_ ?_ ?_ ?_ ?_ ?_) b) l
  · funext v
    exact tvOf_apply m d v
  · funext b l
    exact labsOf_ix m d b l
  · exact fun v e => hemb _
  · exact fun e => hW _
  · exact hb _
  · exact fun b l => hlab _
  · intro b j
    exact WD_v5 m d (FS m d) (FC m d) b j
  · intro b j
    exact WD_v6 m d (FS m d) (FC m d) b j

end Cert.KernelIdeal.Hand
-- ==== Proof.RefRead.lean ====
/-
  The reference's result read at an index. Each stage of `outF`, at the extended reals, is read at an
  index into its textbook formula: the mask is the indicator of a positive label; under the label range
  the row lookup reads the table at the label itself; the pooled mean is the masked sum over the 200
  positions divided by the small constant plus the count; the dense layer is a sum over the 64 features
  plus the bias; and the softmax over the flattened array is re-indexed through the row-major bijection
  between 819200 and 4096 × 200.
-/
import proofs.«203204_g25512105739078_cont_8to1_1946_3_alg».proof.Proof.RefStages
import proofs.«203204_g25512105739078_cont_8to1_1946_3_alg».proof.Proof.SpecBridge
import Idealize.ShloMosaic.Lib.ValueIdx
import Idealize.ShloMosaic.Lib.Affine
import Idealize.ShloMosaic.Lib.StackMember
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## Broadcasts at an index -/

section Bcast
variable {α : Type}

/-- A scalar broadcast reads the scalar's one element everywhere. -/
theorem bcast0_apply {t : Shape} (h : S_.BroadcastsInDim t (![] : Fin 0 → Fin t.rank)) (x : S_.Idx → α) (j : t.Idx) :
    broadcastInDim t ![] h x j = x ix0 := by
  unfold broadcastInDim
  exact congrArg x (funext fun a => a.elim0)

/-- [4096, 200] into [4096, 200, 1]: the trailing unit axis is not read. -/
theorem bcast_2_3u_apply (x : S4096x200.Idx → α) (b : Fin 4096) (l : Fin 200) (z : Fin 1) :
    broadcastInDim S4096x200x1 ![0, 1] bcast_S4096x200_S4096x200x1_0_1 x (ix3 b l z) = x (ix2 b l) := by
  unfold broadcastInDim
  refine congrArg x (funext fun a => ?_)
  match a with
  | ⟨0, _⟩ => rfl
  | ⟨1, _⟩ => rfl

/-- [4096, 200, 1] into [4096, 200, 64]: the unit axis reads its one coordinate. -/
theorem bcast_3u_3_apply (x : S4096x200x1.Idx → α) (b : Fin 4096) (l : Fin 200) (e : Fin 64) :
    broadcastInDim S4096x200x64 ![0, 1, 2] bcast_S4096x200x1_S4096x200x64_0_1_2 x (ix3 b l e) = x (ix3 b l 0) := by
  unfold broadcastInDim
  refine congrArg x (funext fun a => ?_)
  match a with
  | ⟨0, _⟩ => rfl
  | ⟨1, _⟩ => rfl
  | ⟨2, _⟩ => rfl

/-- [4096, 200] into [4096, 200, 64]: the trailing axis is not read. -/
theorem bcast_2_3_apply (x : S4096x200.Idx → α) (b : Fin 4096) (l : Fin 200) (e : Fin 64) :
    broadcastInDim S4096x200x64 ![0, 1] bcast_S4096x200_S4096x200x64_0_1 x (ix3 b l e) = x (ix2 b l) := by
  unfold broadcastInDim
  refine congrArg x (funext fun a => ?_)
  match a with
  | ⟨0, _⟩ => rfl
  | ⟨1, _⟩ => rfl

/-- [4096, 1] into [4096, 64]: the unit axis reads its one coordinate. -/
theorem bcast_2u_2_apply (x : S4096x1.Idx → α) (b : Fin 4096) (e : Fin 64) :
    broadcastInDim S4096x64 ![0, 1] bcast_S4096x1_S4096x64_0_1 x (ix2 b e) = x (ix2 b 0) := by
  unfold broadcastInDim
  refine congrArg x (funext fun a => ?_)
  match a with
  | ⟨0, _⟩ => rfl
  | ⟨1, _⟩ => rfl

/-- [4096, 1] into [4096, 200]: the unit axis reads its one coordinate. -/
theorem bcast_2u_2l_apply (x : S4096x1.Idx → α) (b : Fin 4096) (l : Fin 200) :
    broadcastInDim S4096x200 ![0, 1] bcast_S4096x1_S4096x200_0_1 x (ix2 b l) = x (ix2 b 0) := by
  unfold broadcastInDim
  refine congrArg x (funext fun a => ?_)
  match a with
  | ⟨0, _⟩ => rfl
  | ⟨1, _⟩ => rfl

/-- [1] into [1, 1] into [4096, 1]: the bias's one element everywhere. -/
theorem bcast_bias_apply (x : S1.Idx → α) (b : Fin 4096) (z : Fin 1) :
    broadcastInDim S4096x1 ![0, 1] bcast_S1x1_S4096x1_0_1 (broadcastInDim S1x1 ![1] bcast_S1_S1x1_1 x) (ix2 b z)
      = x (ix1 0) := by
  unfold broadcastInDim
  refine congrArg x (funext fun a => ?_)
  match a with
  | ⟨0, _⟩ => rfl

/-- A scalar into [1] into [819200]: the scalar's one element everywhere. -/
theorem bcast_flat_apply (x : S_.Idx → α) (r : S819200.Idx) :
    broadcastInDim S819200 ![0] bcast_S1_S819200_0 (broadcastInDim S1 ![] bcast_S_S1 x) r = x ix0 := by
  unfold broadcastInDim
  exact congrArg x (funext fun a => a.elim0)

end Bcast

/-! ## The mask and the row lookup -/

/-- The mask at a position is the indicator of a positive label word. -/
theorem maskF_apply (a0 : IVec S4096x200 32) (i : S4096x200.Idx) :
    (maskF a0 : FVec Ideal S4096x200 .f32) i = Cert.Spec.mask (a0 i) := rfl

theorem mask3_apply (a0 : IVec S4096x200 32) (b : Fin 4096) (l : Fin 200) (z : Fin 1) :
    (mask3 a0 : FVec Ideal S4096x200x1 .f32) (ix3 b l z) = Cert.Spec.mask (a0 (ix2 b l)) := by
  unfold mask3
  rw [bcast_2_3u_apply, maskF_apply]

/-- A label that is not negative is its own row index. -/
theorem takeIdx_apply (a0 : IVec S4096x200 32) (i : S4096x200.Idx) (h0 : 0 ≤ (a0 i).toInt) :
    takeIdx a0 i = a0 i := by
  have hc : IntOp.cmpi .slt (a0 i) 0#32 = 0#1 := by
    refine eq_zero_of_ne_one fun h => ?_
    have hlt := IntOp.cmpi_slt.1 h
    rw [show (0#32 : BitVec 32).toInt = 0 from by decide] at hlt
    omega
  show Scalar.select (IntOp.cmpi .slt (a0 i) 0#32) _ (a0 i) = a0 i
  rw [hc]
  exact select_zero _ _

theorem takeIdx3_apply (a0 : IVec S4096x200 32) (b : Fin 4096) (l : Fin 200) (z : Fin 1)
    (h0 : 0 ≤ (a0 (ix2 b l)).toInt) : takeIdx3 a0 (ix3 b l z) = a0 (ix2 b l) := by
  unfold takeIdx3
  rw [bcast_2_3u_apply, takeIdx_apply a0 _ h0]

/-- A left fold of the one-bit `and` from one over elements that are all one stays one. -/
theorem foldl_andi_one {ι : Type} (l : List ι) (x : ι → BitVec 1) (hx : ∀ i, x i = 1#1) :
    l.foldl (fun r i => IntOp.andi r (x i)) 1#1 = 1#1 := by
  induction l with
  | nil => rfl
  | cons a l ih =>
    rw [List.foldl_cons, hx a]
    exact ih

/-- Under the label range the row index names a row of the table at every position. -/
theorem takeOk_apply (a0 : IVec S4096x200 32) (hlab : ∀ i, 0 ≤ (a0 i).toInt ∧ (a0 i).toInt ≤ 99999)
    (j : S4096x200.Idx) : takeOk a0 j = 1#1 := by
  have hx : ∀ i : S4096x200x1.Idx,
      (andi (cmpi .sge (takeIdx3 a0) (broadcastInDim S4096x200x1 ![] bcast_S_S4096x200x1 (constantI S_ 32 0#32)))
        (cmpi .sle (takeIdx3 a0) (broadcastInDim S4096x200x1 ![0, 1, 2] bcast_S1x1x1_S4096x200x1_0_1_2
          (broadcastInDim S1x1x1 ![2] bcast_S1_S1x1x1_2 (constantI S1 32 99999#32))))) i = 1#1 := by
    intro i
    obtain ⟨b, l, z, rfl⟩ : ∃ (b : Fin 4096) (l : Fin 200) (z : Fin 1), i = ix3 b l z := ⟨i 0, i 1, i 2, eq_ix3 i⟩
    have hi := hlab (ix2 b l)
    show IntOp.andi (IntOp.cmpi .sge (takeIdx3 a0 (ix3 b l z)) 0#32)
        (IntOp.cmpi .sle (takeIdx3 a0 (ix3 b l z)) 99999#32) = 1#1
    rw [takeIdx3_apply a0 b l z hi.1]
    have h1 : IntOp.cmpi .sge (a0 (ix2 b l)) 0#32 = 1#1 :=
      IntOp.cmpi_sge.2 (by rw [show (0#32 : BitVec 32).toInt = 0 from by decide]; exact hi.1)
    have h2 : IntOp.cmpi .sle (a0 (ix2 b l)) 99999#32 = 1#1 :=
      IntOp.cmpi_sle.2 (by rw [show (99999#32 : BitVec 32).toInt = 99999 from by decide]; exact hi.2)
    rw [h1, h2]
    rfl
  unfold takeOk
  rw [Host.reduce_eq_foldl]
  exact foldl_andi_one _ _ hx

/-! ## The row lookup at an index -/

/-- The gather of whole rows of a [100000, 64] table at [4096, 200, 1] start indices, read at (b, l, e): the
    table at the row the start index names, read signed and clamped into the table, and column e. -/
theorem gather_apply {α : Type} (x : S100000x64.Idx → α) (idx : IVec S4096x200x1 32) (b : Fin 4096) (l : Fin 200)
    (e : Fin 64) :
    Host.gather gather_S100000x64_S4096x200x1_S4096x200x64_2_0_n_n_0_2_164 x idx (ix3 b l e)
      = x (ix2 (Cert.Spec.row (idx (ix3 b l 0))) e) := by
  unfold Host.gather
  refine congrArg x (funext fun a => Fin.ext ?_)
  match a with
  | ⟨0, _⟩ =>
    show gather_S100000x64_S4096x200x1_S4096x200x64_2_0_n_n_0_2_164.start (ix3 b l e) idx 0
        + gather_S100000x64_S4096x200x1_S4096x200x64_2_0_n_n_0_2_164.batchCoord (ix3 b l e) 0
        + gather_S100000x64_S4096x200x1_S4096x200x64_2_0_n_n_0_2_164.offCoord (ix3 b l e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S4096x200x1_S4096x200x64_2_0_n_n_0_2_164.startIndexMap
      from List.mem_singleton.mpr rfl)]
    have hsi : gather_S100000x64_S4096x200x1_S4096x200x64_2_0_n_n_0_2_164.siIdx (ix3 b l e)
        ⟨List.idxOf (0 : Fin 2) gather_S100000x64_S4096x200x1_S4096x200x64_2_0_n_n_0_2_164.startIndexMap,
          List.idxOf_lt_length_iff.2 (List.mem_singleton.mpr rfl)⟩ = ix3 b l 0 := by
      funext c; refine Fin.ext ?_
      match c with
      | ⟨0, _⟩ => rfl
      | ⟨1, _⟩ => rfl
      | ⟨2, _⟩ => rfl
    rw [hsi]
    rfl
  | ⟨1, _⟩ =>
    show gather_S100000x64_S4096x200x1_S4096x200x64_2_0_n_n_0_2_164.start (ix3 b l e) idx 1
        + gather_S100000x64_S4096x200x1_S4096x200x64_2_0_n_n_0_2_164.batchCoord (ix3 b l e) 1
        + gather_S100000x64_S4096x200x1_S4096x200x64_2_0_n_n_0_2_164.offCoord (ix3 b l e) 1 = e.val
    rw [GatherDims.batchCoord_eq_zero _ _ _ List.not_mem_nil]
    unfold GatherDims.start
    rw [dif_neg (show (1 : Fin 2) ∉ gather_S100000x64_S4096x200x1_S4096x200x64_2_0_n_n_0_2_164.startIndexMap
      from by decide)]
    simp only [Nat.zero_add, Nat.add_zero]
    rfl

/-- Under the label range the looked-up row at (b, l) is the table's row at the label, column e. -/
theorem taken_apply (a0 : IVec S4096x200 32) (a1 : FVec Ideal S100000x64 .f32)
    (hlab : ∀ i, 0 ≤ (a0 i).toInt ∧ (a0 i).toInt ≤ 99999) (b : Fin 4096) (l : Fin 200) (e : Fin 64) :
    taken a0 a1 (ix3 b l e) = a1 (ix2 (Cert.Spec.row (a0 (ix2 b l))) e) := by
  unfold taken
  rw [select_apply, bcast_2_3_apply, takeOk_apply a0 hlab, select_one, gather_apply,
    takeIdx3_apply a0 _ _ _ (hlab _).1]

/-! ## The pooled mean and the dense layer at an index -/

/-- The float zero the sums start from is the extended real zero. -/
theorem const_zero_apply (i : S_.Idx) : (constant (F := Ideal) S_ .f32 0x00000000#32) i = 0 :=
  Ideal.ofBits_zero_f32

theorem hostDivf_apply {s : Shape} (x y : FVec Ideal s .f32) (i : s.Idx) : Host.divf x y i = Ideal.div (x i) (y i) := rfl

theorem pooledSumOf_apply (m3 : FVec Ideal S4096x200x1 .f32) (tk : FVec Ideal S4096x200x64 .f32) (b : Fin 4096)
    (e : Fin 64) : pooledSumOf m3 tk (ix2 b e) = ∑ l : Fin 200, tk (ix3 b l e) * m3 (ix3 b l 0) := by
  have hR : S4096x200x64.Reduces [1] S4096x64 := by decide
  unfold pooledSumOf Host.reduceAdd
  rw [Ideal.hostReduceAdd_def, Ideal.hostReduceAdd_single reducesTo_S4096x200x64_S4096x64_d1 hR, const_zero_apply, zero_add]
  show (∑ l : Fin 200, mulf tk (broadcastInDim S4096x200x64 ![0, 1, 2] bcast_S4096x200x1_S4096x200x64_0_1_2 m3)
      (hR.lift (ix2 b e) l)) = _
  refine Finset.sum_congr rfl fun l _ => ?_
  have hl : hR.lift (ix2 b e) l = ix3 b l e := by
    funext a; refine Fin.ext ?_
    match a with
    | ⟨0, _⟩ => rfl
    | ⟨1, _⟩ => rfl
    | ⟨2, _⟩ => rfl
  rw [hl, mulf_apply, bcast_3u_3_apply]

theorem cntOf_apply (m3 : FVec Ideal S4096x200x1 .f32) (b : Fin 4096) (z : Fin 1) :
    cntOf m3 (ix2 b z) = ∑ l : Fin 200, m3 (ix3 b l 0) := by
  obtain rfl : z = 0 := Subsingleton.elim _ _
  have hR : S4096x200x1.Reduces [1] S4096x1 := by decide
  unfold cntOf Host.reduceAdd
  rw [Ideal.hostReduceAdd_def, Ideal.hostReduceAdd_single reducesTo_S4096x200x1_S4096x1_d1 hR, const_zero_apply, zero_add]
  show (∑ l : Fin 200, m3 (hR.lift (ix2 b 0) l)) = _
  refine Finset.sum_congr rfl fun l _ => ?_
  have hl : hR.lift (ix2 b (0 : Fin 1)) l = ix3 b l 0 := by
    funext a; refine Fin.ext ?_
    match a with
    | ⟨0, _⟩ => rfl
    | ⟨1, _⟩ => rfl
    | ⟨2, _⟩ => rfl
  rw [hl]

theorem pooledOf_apply (m3 : FVec Ideal S4096x200x1 .f32) (tk : FVec Ideal S4096x200x64 .f32) (b : Fin 4096)
    (e : Fin 64) :
    pooledOf m3 tk (ix2 b e)
      = Ideal.div (∑ l : Fin 200, tk (ix3 b l e) * m3 (ix3 b l 0)) (Cert.Spec.eps + ∑ l : Fin 200, m3 (ix3 b l 0)) := by
  unfold pooledOf
  rw [hostDivf_apply, pooledSumOf_apply, bcast_2u_2_apply, addf_apply, cntOf_apply, bcast0_apply]
  rfl

theorem logitOf_apply (p : FVec Ideal S4096x64 .f32) (a2 : FVec Ideal S64x1 .f32) (a3 : FVec Ideal S1 .f32)
    (b : Fin 4096) (z : Fin 1) :
    logitOf p a2 a3 (ix2 b z) = (∑ e : Fin 64, p (ix2 b e) * a2 (ix2 e 0)) + a3 (ix1 0) := by
  obtain rfl : z = 0 := Subsingleton.elim _ _
  unfold logitOf
  rw [addf_apply, bcast_bias_apply]
  have hd : dot_S4096x64_S64x1_S4096x1_1_0_0_1_n_n = DotDims.plain 4096 64 1 := rfl
  rw [hd, StackMember.dotGeneral_plain_apply]

theorem maskedOf_apply (a0 : IVec S4096x200 32) (lg : FVec Ideal S4096x1 .f32) (b : Fin 4096) (l : Fin 200) :
    maskedOf a0 lg (ix2 b l)
      = lg (ix2 b 0) * Cert.Spec.mask (a0 (ix2 b l)) + (Cert.Spec.one - Cert.Spec.mask (a0 (ix2 b l))) * Cert.Spec.NEG := by
  unfold maskedOf
  rw [addf_apply, mulf_apply, mulf_apply, subf_apply, bcast_2u_2l_apply, bcast0_apply, bcast0_apply, maskF_apply]
  rfl

/-! ## The softmax over the flattened array at an index -/

/-- The row-major bijection between the 819200 flat positions and the pairs (row, position). -/
def flatEquiv : S819200.Idx ≃ Fin 4096 × Fin 200 :=
  (Shape.reshapeEquiv shapeCasts_S4096x200_S819200).trans idxEquiv2

theorem flatOf_apply (x : FVec Ideal S4096x200 .f32) (r : S819200.Idx) :
    flatOf x r = x (ix2 (flatEquiv r).1 (flatEquiv r).2) := by
  show x (Shape.reshapeEquiv shapeCasts_S4096x200_S819200 r) = _
  exact congrArg x (eq_ix2 _)

/-- The scalar shape has one index. -/
local instance : Subsingleton S_.Idx := ⟨fun a b => funext fun d => d.elim0⟩

/-- The pattern of minus infinity is the bottom element. -/
theorem ofBits_neg_inf : Ideal.ofBits .f32 0xFF800000#32 = ⊥ := by
  simp [Ideal.ofBits, Ideal.ieee]

/-- At the extended reals the float maximum is the order's. -/
theorem maximumf_eq_max : (FloatOps.maximumf (F := Ideal) (φ := .f32)) = (max : EReal → EReal → EReal) := rfl

/-- The largest entry, as a fold of the maximum over the pairs (row, position). -/
theorem mxOf_apply (x : FVec Ideal S4096x200 .f32) (i : S_.Idx) :
    mxOf x i = (Finset.univ : Finset (Fin 4096 × Fin 200)).fold max ⊥ (fun p => x (ix2 p.1 p.2)) := by
  unfold mxOf
  rw [maximumf_apply, constant_apply, Host.reduce_eq_fold,
    Finset.filter_true_of_mem fun r _ => Subsingleton.elim _ _, constant_apply, ofBits_neg_inf,
    Cert.Spec.max_bot_fold]
  have hfl : flatOf x = fun r => (fun p : Fin 4096 × Fin 200 => x (ix2 p.1 p.2)) (flatEquiv r) :=
    funext (flatOf_apply x)
  rw [hfl]
  exact Cert.Spec.fold_univ_equiv flatEquiv (fun p : Fin 4096 × Fin 200 => x (ix2 p.1 p.2))

theorem hostExp_apply {s : Shape} (x : FVec Ideal s .f32) (i : s.Idx) : Host.exp x i = Ideal.exp (x i) := rfl

theorem shapeCast_at {α : Type} {s : Shape} (t : Shape) (x : s.Idx → α) (h : s.ShapeCasts t) (j : t.Idx) :
    shapeCast t x h j = x (Shape.reshapeEquiv h j) := rfl

theorem exOf_apply (x : FVec Ideal S4096x200 .f32) (r : S819200.Idx) :
    exOf x r = Ideal.exp (flatOf x r - mxOf x ix0) := by
  unfold exOf
  rw [hostExp_apply, subf_apply, bcast_flat_apply]

theorem smOf_apply (x : FVec Ideal S4096x200 .f32) (i : S_.Idx) : smOf x i = ∑ r : S819200.Idx, exOf x r := by
  unfold smOf Host.reduceAdd
  rw [Ideal.hostReduceAdd_def, Ideal.hostReduceAdd_total _ (fun b => b.elim0), const_zero_apply, zero_add]

/-- Flattening and reading back at the flat position of (b, l) is reading at (b, l). -/
theorem flatOf_unflat (x : FVec Ideal S4096x200 .f32) (b : Fin 4096) (l : Fin 200) :
    flatOf x (Shape.reshapeEquiv shapeCasts_S819200_S4096x200 (ix2 b l)) = x (ix2 b l) := by
  unfold flatOf
  rw [shapeCast_at, Shape.reshapeEquiv_reshapeEquiv, Shape.reshapeEquiv_self]

/-- The softmax stage read at (b, l): the exponential of the entry less the largest, over the sum of all such. -/
theorem tailF_apply (x : FVec Ideal S4096x200 .f32) (b : Fin 4096) (l : Fin 200) :
    tailF x (ix2 b l)
      = Ideal.div
          (Ideal.exp (x (ix2 b l) - (Finset.univ : Finset (Fin 4096 × Fin 200)).fold max ⊥ (fun p => x (ix2 p.1 p.2))))
          (∑ p : Fin 4096 × Fin 200,
            Ideal.exp (x (ix2 p.1 p.2) - (Finset.univ : Finset (Fin 4096 × Fin 200)).fold max ⊥ (fun p => x (ix2 p.1 p.2)))) := by
  unfold tailF
  rw [shapeCast_at, hostDivf_apply, bcast_flat_apply, exOf_apply, smOf_apply, mxOf_apply, flatOf_unflat]
  refine congrArg (Ideal.div _) ?_
  rw [← Equiv.sum_comp flatEquiv]
  refine Finset.sum_congr rfl fun r _ => ?_
  rw [exOf_apply, mxOf_apply, flatOf_apply]

/-! ## The result at an index -/

/-- Under the label range the reference's result at (b, l) is the specification's `refY` of the four arguments
    read as plain functions of their coordinates. -/
theorem refOut_apply (a0 : IVec S4096x200 32) (a1 : FVec Ideal S100000x64 .f32) (a2 : FVec Ideal S64x1 .f32)
    (a3 : FVec Ideal S1 .f32) (hlab : ∀ i, 0 ≤ (a0 i).toInt ∧ (a0 i).toInt ≤ 99999) (b : Fin 4096) (l : Fin 200) :
    refOut a0 a1 a2 a3 (ix2 b l)
      = Cert.Spec.refY (fun b l => a0 (ix2 b l)) (fun v e => a1 (ix2 v e)) (fun e => a2 (ix2 e 0)) (a3 (ix1 0)) b l := by
  have hX2 : ∀ (b : Fin 4096) (l : Fin 200),
      maskedOf a0 (logitOf (pooledOf (mask3 a0) (taken a0 a1)) a2 a3) (ix2 b l)
        = Cert.Spec.refX2 (fun b l => a0 (ix2 b l)) (fun v e => a1 (ix2 v e)) (fun e => a2 (ix2 e 0)) (a3 (ix1 0)) b l := by
    intro b l
    rw [maskedOf_apply, logitOf_apply]
    unfold Cert.Spec.refX2 Cert.Spec.refX Cert.Spec.refPooled Cert.Spec.refCnt
    simp only [pooledOf_apply, taken_apply a0 a1 hlab, mask3_apply]
  unfold refOut outF
  rw [tailF_apply]
  simp only [hX2, Cert.Spec.refY, Cert.Spec.refZ, Cert.Spec.refEx, Cert.Spec.refMax]

end Cert.ReferenceIdeal.RefValue

end
-- ==== Proof.lean ====
/-
  The certificate's five conjuncts for the bag-of-words softmax kernel. The kernel is a matrix-vector product
  on the TensorCore (t = emb · W), a pooling kernel on the SparseCore's thirty-two tiles (per row, the masked sum of
  t at the row's labels and the count of its positive labels, sixteen lanes at a time), and a softmax on the
  TensorCore over all positions with the padding positions at the fixed value −10⁶. Frames: every weakly fair
  execution of the TensorCore, the two sequencers and the thirty-two tiles terminates, nothing faulting, the
  arguments unchanged — the tiles' indexed loads name rows of the table because the labels lie in [0, 99999].
  The idealization rewrote nothing. Value: on the extended reals both programs compute, at position (b, l),
  exp(x₂(b,l) − M) / Σ exp(x₂ − M) with x₂ = x_b on a positive label and −10⁶ elsewhere, where
  x_b = (Σ_{l valid} Σ_e emb[lab,e]·W[e]) / (ε + c_b) + bias; the kernel sums over e first, groups the positions by
  row and takes the maximum row-wise, which agrees with the reference's arrangement for finite inputs.
-/
import proofs.«203204_g25512105739078_cont_8to1_1946_3_alg».proof.Defs
import proofs.«203204_g25512105739078_cont_8to1_1946_3_alg».proof.Proof.Gen.Kernel
import proofs.«203204_g25512105739078_cont_8to1_1946_3_alg».proof.Proof.Gen.KernelIdeal
import proofs.«203204_g25512105739078_cont_8to1_1946_3_alg».proof.Proof.Gen.ReferenceIdeal
import proofs.«203204_g25512105739078_cont_8to1_1946_3_alg».proof.Proof.Gen.Pre_input_domain
import proofs.«203204_g25512105739078_cont_8to1_1946_3_alg».proof.Proof.LaunchRun
import proofs.«203204_g25512105739078_cont_8to1_1946_3_alg».proof.Proof.LaunchRunB
import proofs.«203204_g25512105739078_cont_8to1_1946_3_alg».proof.Proof.PoolBody0
import proofs.«203204_g25512105739078_cont_8to1_1946_3_alg».proof.Proof.PoolBody0B
import proofs.«203204_g25512105739078_cont_8to1_1946_3_alg».proof.Proof.RefOut
import proofs.«203204_g25512105739078_cont_8to1_1946_3_alg».proof.Proof.PreDecode
import proofs.«203204_g25512105739078_cont_8to1_1946_3_alg».proof.Proof.LaunchRunV
import proofs.«203204_g25512105739078_cont_8to1_1946_3_alg».proof.Proof.PoolBody
import proofs.«203204_g25512105739078_cont_8to1_1946_3_alg».proof.Proof.KernelValue
import proofs.«203204_g25512105739078_cont_8to1_1946_3_alg».proof.Proof.RefRead

set_option maxRecDepth 16384

noncomputable section

namespace Cert.Proof

open Idealize.ShloMosaic Idealize.SL.Sem

/-- The word-level kernel's frame. -/
theorem frame_p : Cert.frame_Kernel (hKernel := Cert.Kernel.Gen.facts) (hPre_input_domain := Cert.Pre_input_domain.Gen.facts) := fun m ρ hpre =>
  (θ_run Cert.Kernel.defs _ _).mono (fun _ h c => h c)
    (Cert.Kernel.Hand.run_main (F := Bits) m ρ
      (fun qT qL d tv labs hlab c i O W hO => Cert.Kernel.Hand.Pool.tileBody₀ d c i qT qL tv labs hlab O W hO)
      (fun d i => Cert.Pre_input_domain.Decode.labels_lt _ _ _ _ (hpre d) i))

/-- The idealized kernel's frame. -/
theorem frame_pi : Cert.frame_KernelIdeal (hKernelIdeal := Cert.KernelIdeal.Gen.facts) (hPre_input_domain := Cert.Pre_input_domain.Gen.facts) := fun m ρ hpre =>
  (θ_run Cert.KernelIdeal.defs _ _).mono (fun _ h c => h c)
    (Cert.KernelIdeal.Hand.run_main (F := Ideal) m ρ
      (fun qT qL d tv labs hlab c i O W hO => Cert.KernelIdeal.Hand.Pool.tileBody₀ d c i qT qL tv labs hlab O W hO)
      (fun d i => Cert.Pre_input_domain.Decode.labels_lt _ _ _ _ (hpre d) i))

/-- The reference's frame: its run, the result dropped. -/
theorem frame_ri : Cert.frame_ReferenceIdeal (hReferenceIdeal := Cert.ReferenceIdeal.Gen.facts) (hPre_input_domain := Cert.Pre_input_domain.Gen.facts) := fun m g _ =>
  (θ_run Cert.ReferenceIdeal.defs _ _).mono (fun _ h c => (h c).2) (Cert.ReferenceIdeal.RefValue.run m g)

/-- On the extended reals the idealized kernel and the idealized reference end with the same result: the kernel's
    result array is the softmax of the pooled, biased row values, which is the reference's function of the arguments. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m g m' g' hpre hagree
  have hr := fun d => Cert.Pre_input_domain.Decode.labels_range _ _ _ _ (hpre d)
  have hf := fun d => Cert.Pre_input_domain.Decode.floats_real _ _ _ _ (hpre d)
  refine ⟨fun c => Cert.KernelIdeal.Hand.resultOf m c,
    Cert.KernelIdeal.Hand.run_mainV (F := Ideal) m g
      (fun qT qL d tv labs hlab c i O W hO => Cert.KernelIdeal.Hand.Pool.tileBody d c i qT qL tv labs hlab O W hO)
      (fun d i => Cert.Pre_input_domain.Decode.labels_lt _ _ _ _ (hpre d) i), ?_⟩
  refine (θ_run Cert.ReferenceIdeal.defs _ _).mono (fun _ h c => ⟨(h c).1.trans ?_, (h c).2⟩) (Cert.ReferenceIdeal.RefValue.run m' g')
  rw [(hagree c).1, (hagree c).2.1, (hagree c).2.2.1, (hagree c).2.2.2]
  funext i
  obtain ⟨b, l, rfl⟩ : ∃ (b : Fin 4096) (l : Fin 200), i = ValueIdx.ix2 b l := ⟨i 0, i 1, ValueIdx.eq_ix2 i⟩
  rw [Cert.ReferenceIdeal.RefValue.refOut_apply _ _ _ _ (hr c) b l]
  exact (Cert.KernelIdeal.Hand.kernel_value m c (hr c) (hf c).1 (hf c).2.1 (hf c).2.2 b l).symm

theorem claim : Cert.Claim := ⟨Cert.Kernel.Gen.facts, Cert.KernelIdeal.Gen.facts, Cert.ReferenceIdeal.Gen.facts, Cert.Pre_input_domain.Gen.facts,
  frame_p, frame_pi, frame_ri, trivial, algebraic⟩

end Cert.Proof

end
